-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  main_v53

def fn_part2 {F : FTy → Type} [FloatOps F] (main_arg9 : FVec F S128 .f32) (main_arg10 : FVec F S128 .f32) (main_arg11 : FVec F S128x40 .f32) (main_arg12 : FVec F S40 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x40 .f32 := Host.absf main_arg11
  let main_cst_16 : FVec F S_ .f32 := constant S_ .f32 0x7F800000#32
  let main_v45 : FVec F S128x40 .f32 := broadcastInDim S128x40 ![] bcast_S_S128x40 main_cst_16
  let main_v46 : IVec S128x40 1 := cmpf .olt main_v44 main_v45
  let main_c_17 : IVec S_ 1 := constantI S_ 1 1#1
  let main_v47 : IVec S_ 1 := (fun x v => Host.reduce IntOp.andi x v reducesTo_S128x40_S_d0_1 h_S_) main_v46 main_c_17
  let main_v48 : IVec S_ 1 := andi main_v43 main_v47
  let main_v49 : FVec F S40 .f32 := Host.absf main_arg12
  let main_cst_18 : FVec F S_ .f32 := constant S_ .f32 0x7F800000#32
  let main_v50 : FVec F S40 .f32 := broadcastInDim S40 ![] bcast_S_S40 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128 .f32) (main_arg10 : FVec F S128 .f32) (main_arg11 : FVec F S128x40 .f32) (main_arg12 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x40 .f32) (main_arg12 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S5000x1 : Shape := ⟨2, ![5000, 1]⟩
abbrev S1 : Shape := ⟨1, ![1]⟩
abbrev S1x1 : Shape := ⟨2, ![1, 1]⟩
abbrev S1600000x128 : Shape := ⟨2, ![1600000, 128]⟩
abbrev S1x128 : Shape := ⟨2, ![1, 128]⟩
abbrev S100000x40 : Shape := ⟨2, ![100000, 40]⟩
abbrev S5000x40 : Shape := ⟨2, ![5000, 40]⟩
abbrev S1600000x40 : Shape := ⟨2, ![1600000, 40]⟩
abbrev S1x40 : Shape := ⟨2, ![1, 40]⟩

abbrev nBuf : Space → Nat
  | .hbm => 187
  | .vmem => 66
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x40, .f32⟩
  | 12 => ⟨S40, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .i1⟩
  | 26 => ⟨S_, .f32⟩
  | 27 => ⟨S_, .f32⟩
  | 28 => ⟨S100000, .f32⟩
  | 29 => ⟨S100000, .f32⟩
  | 30 => ⟨S_, .f32⟩
  | 31 => ⟨S100000, .f32⟩
  | 32 => ⟨S100000, .f32⟩
  | 33 => ⟨S_, .f32⟩
  | 34 => ⟨S100000, .f32⟩
  | 35 => ⟨S100000, .i1⟩
  | 36 => ⟨S_, .f32⟩
  | 37 => ⟨S_, .f32⟩
  | 38 => ⟨S100000, .f32⟩
  | 39 => ⟨S100000, .f32⟩
  | 40 => ⟨S_, .f32⟩
  | 41 => ⟨S100000, .f32⟩
  | 42 => ⟨S100000, .f32⟩
  | 43 => ⟨S100000x1, .f32⟩
  | 44 => ⟨S100000x128, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1, .i32⟩
  | 54 => ⟨S_, .i32⟩
  | 55 => ⟨S1600000x1, .i32⟩
  | 56 => ⟨S1600000x1, .i1⟩
  | 57 => ⟨S1x1, .i32⟩
  | 58 => ⟨S1600000x1, .i32⟩
  | 59 => ⟨S1600000x1, .i1⟩
  | 60 => ⟨S1600000x1, .i1⟩
  | 61 => ⟨S_, .i1⟩
  | 62 => ⟨S1600000, .i1⟩
  | 63 => ⟨S1600000x128, .f32⟩
  | 64 => ⟨S1600000x128, .i1⟩
  | 65 => ⟨S_, .f32⟩
  | 66 => ⟨S1600000x128, .f32⟩
  | 67 => ⟨S1600000x128, .f32⟩
  | 68 => ⟨S_, .f32⟩
  | 69 => ⟨S100000x128, .f32⟩
  | 70 => ⟨S1600000x1, .i32⟩
  | 71 => ⟨S100000x128, .f32⟩
  | 72 => ⟨S100000x1, .f32⟩
  | 73 => ⟨S1x128, .f32⟩
  | 74 => ⟨S100000x128, .f32⟩
  | 75 => ⟨S1x128, .f32⟩
  | 76 => ⟨S1x128, .f32⟩
  | 77 => ⟨S128, .f32⟩
  | 78 => ⟨S_, .f32⟩
  | 79 => ⟨S128, .f32⟩
  | 80 => ⟨S128, .f32⟩
  | 81 => ⟨S128, .f32⟩
  | 82 => ⟨S_, .f32⟩
  | 83 => ⟨S128, .f32⟩
  | 84 => ⟨S128, .f32⟩
  | 85 => ⟨S128, .f32⟩
  | 86 => ⟨S128, .f32⟩
  | 87 => ⟨S_, .f32⟩
  | 88 => ⟨S128, .f32⟩
  | 89 => ⟨S128, .f32⟩
  | 90 => ⟨S128, .f32⟩
  | 91 => ⟨S_, .f32⟩
  | 92 => ⟨S128, .f32⟩
  | 93 => ⟨S128, .f32⟩
  | 94 => ⟨S1x128, .f32⟩
  | 95 => ⟨S1x128, .f32⟩
  | 96 => ⟨S1x128, .f32⟩
  | 97 => ⟨S1x128, .f32⟩
  | 98 => ⟨S100000x128, .f32⟩
  | 99 => ⟨S100000x1, .f32⟩
  | 100 => ⟨S100000x128, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1, .i32⟩
  | 110 => ⟨S_, .i32⟩
  | 111 => ⟨S1600000x1, .i32⟩
  | 112 => ⟨S1600000x1, .i1⟩
  | 113 => ⟨S1x1, .i32⟩
  | 114 => ⟨S1600000x1, .i32⟩
  | 115 => ⟨S1600000x1, .i1⟩
  | 116 => ⟨S1600000x1, .i1⟩
  | 117 => ⟨S_, .i1⟩
  | 118 => ⟨S1600000, .i1⟩
  | 119 => ⟨S1600000x128, .f32⟩
  | 120 => ⟨S1600000x128, .i1⟩
  | 121 => ⟨S_, .f32⟩
  | 122 => ⟨S1600000x128, .f32⟩
  | 123 => ⟨S1600000x128, .f32⟩
  | 124 => ⟨S_, .f32⟩
  | 125 => ⟨S100000x128, .f32⟩
  | 126 => ⟨S1600000x1, .i32⟩
  | 127 => ⟨S100000x128, .f32⟩
  | _ => ⟨S100000x128, .f32⟩

abbrev hbmTy0_1 (i : Nat) : BufTy := match i % 128 with
  | 0 => ⟨S100000x1, .f32⟩
  | 1 => ⟨S1x128, .f32⟩
  | 2 => ⟨S100000x128, .f32⟩
  | 3 => ⟨S1x128, .f32⟩
  | 4 => ⟨S1x128, .f32⟩
  | 5 => ⟨S128, .f32⟩
  | 6 => ⟨S_, .f32⟩
  | 7 => ⟨S128, .f32⟩
  | 8 => ⟨S128, .f32⟩
  | 9 => ⟨S128, .f32⟩
  | 10 => ⟨S_, .f32⟩
  | 11 => ⟨S128, .f32⟩
  | 12 => ⟨S128, .f32⟩
  | 13 => ⟨S128, .f32⟩
  | 14 => ⟨S128, .f32⟩
  | 15 => ⟨S_, .f32⟩
  | 16 => ⟨S128, .f32⟩
  | 17 => ⟨S128, .f32⟩
  | 18 => ⟨S128, .f32⟩
  | 19 => ⟨S_, .f32⟩
  | 20 => ⟨S128, .f32⟩
  | 21 => ⟨S128, .f32⟩
  | 22 => ⟨S1x128, .f32⟩
  | 23 => ⟨S1x128, .f32⟩
  | 24 => ⟨S1x128, .f32⟩
  | 25 => ⟨S1x128, .f32⟩
  | 26 => ⟨S100000x128, .f32⟩
  | 27 => ⟨S100000x1, .f32⟩
  | 28 => ⟨S100000x40, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1, .i32⟩
  | 38 => ⟨S_, .i32⟩
  | 39 => ⟨S1600000x1, .i32⟩
  | 40 => ⟨S1600000x1, .i1⟩
  | 41 => ⟨S1x1, .i32⟩
  | 42 => ⟨S1600000x1, .i32⟩
  | 43 => ⟨S1600000x1, .i1⟩
  | 44 => ⟨S1600000x1, .i1⟩
  | 45 => ⟨S_, .i1⟩
  | 46 => ⟨S1600000, .i1⟩
  | 47 => ⟨S1600000x40, .f32⟩
  | 48 => ⟨S1600000x40, .i1⟩
  | 49 => ⟨S_, .f32⟩
  | 50 => ⟨S1600000x40, .f32⟩
  | 51 => ⟨S1600000x40, .f32⟩
  | 52 => ⟨S_, .f32⟩
  | 53 => ⟨S100000x40, .f32⟩
  | 54 => ⟨S1600000x1, .i32⟩
  | 55 => ⟨S100000x40, .f32⟩
  | 56 => ⟨S100000x1, .f32⟩
  | 57 => ⟨S1x40, .f32⟩
  | 58 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S5000x1, .f32⟩
  | .local _ .vmem, ⟨30, _⟩ => ⟨S5000x1, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x1, .f32⟩
  | .local _ .vmem, ⟨36, _⟩ => ⟨S5000x1, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S1x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S5000x128, .f32⟩
  | .local _ .vmem, ⟨45, _⟩ => ⟨S5000x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S1x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S128x40, .f32⟩
  | .local _ .vmem, ⟨55, _⟩ => ⟨S5000x1, .f32⟩
  | .local _ .vmem, ⟨56, _⟩ => ⟨S5000x1, .f32⟩
  | .local _ .vmem, ⟨57, _⟩ => ⟨S5000x40, .f32⟩
  | .local _ .vmem, ⟨58, _⟩ => ⟨S5000x40, .f32⟩
  | .local _ .vmem, ⟨59, _⟩ => ⟨S5000x40, .f32⟩
  | .local _ .vmem, ⟨60, _⟩ => ⟨S5000x40, .f32⟩
  | .local _ .vmem, ⟨61, _⟩ => ⟨S5000x1, .f32⟩
  | .local _ .vmem, ⟨62, _⟩ => ⟨S5000x1, .f32⟩
  | .local _ .vmem, ⟨63, _⟩ => ⟨S1x40, .f32⟩
  | .local _ .vmem, ⟨64, _⟩ => ⟨S5000x40, .f32⟩
  | .local _ .vmem, ⟨65, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_2 : Ref sig .tc := ⟨.hbm, 23, rfl⟩
abbrev main_v7 : Ref sig .tc := ⟨.hbm, 24, rfl⟩
abbrev main_v8 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v9 : Ref sig .tc := ⟨.hbm, 29, rfl⟩
abbrev main_cst_4 : Ref sig .tc := ⟨.hbm, 30, rfl⟩
abbrev main_v10 : Ref sig .tc := ⟨.hbm, 31, rfl⟩
abbrev main_v11 : Ref sig .tc := ⟨.hbm, 32, rfl⟩
abbrev main_cst_5 : Ref sig .tc := ⟨.hbm, 33, rfl⟩
abbrev main_v12 : Ref sig .tc := ⟨.hbm, 34, rfl⟩
abbrev main_v13 : Ref sig .tc := ⟨.hbm, 35, rfl⟩
abbrev main_cst_6 : Ref sig .tc := ⟨.hbm, 36, rfl⟩
abbrev main_call1_v0 : Ref sig .tc := ⟨.hbm, 37, rfl⟩
abbrev main_call1_v1 : Ref sig .tc := ⟨.hbm, 38, rfl⟩
abbrev main_v14 : Ref sig .tc := ⟨.hbm, 39, rfl⟩
abbrev main_cst_7 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_call2_c : Ref sig .tc := ⟨.hbm, 45, rfl⟩
abbrev main_call2_v0 : Ref sig .tc := ⟨.hbm, 46, rfl⟩
abbrev main_call2_v1 : Ref sig .tc := ⟨.hbm, 47, rfl⟩
abbrev main_call2_c_0 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_v5 : Ref sig .tc := ⟨.hbm, 52, rfl⟩
abbrev main_call2_c_1 : Ref sig .tc := ⟨.hbm, 53, rfl⟩
abbrev main_call2_c_2 : Ref sig .tc := ⟨.hbm, 54, rfl⟩
abbrev main_call2_v6 : Ref sig .tc := ⟨.hbm, 55, rfl⟩
abbrev main_call2_v7 : Ref sig .tc := ⟨.hbm, 56, rfl⟩
abbrev main_call2_v8 : Ref sig .tc := ⟨.hbm, 57, rfl⟩
abbrev main_call2_v9 : Ref sig .tc := ⟨.hbm, 58, rfl⟩
abbrev main_call2_v10 : Ref sig .tc := ⟨.hbm, 59, rfl⟩
abbrev main_call2_v11 : Ref sig .tc := ⟨.hbm, 60, rfl⟩
abbrev main_call2_c_3 : Ref sig .tc := ⟨.hbm, 61, rfl⟩
abbrev main_call2_v12 : Ref sig .tc := ⟨.hbm, 62, rfl⟩
abbrev main_call2_v13 : Ref sig .tc := ⟨.hbm, 63, rfl⟩
abbrev main_call2_v14 : Ref sig .tc := ⟨.hbm, 64, rfl⟩
abbrev main_call2_cst : Ref sig .tc := ⟨.hbm, 65, rfl⟩
abbrev main_call2_v15 : Ref sig .tc := ⟨.hbm, 66, rfl⟩
abbrev main_v19 : Ref sig .tc := ⟨.hbm, 67, rfl⟩
abbrev main_cst_8 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25_0 : Ref sig .tc := ⟨.hbm, 74, rfl⟩
abbrev main_v25_1 : Ref sig .tc := ⟨.hbm, 75, rfl⟩
abbrev main_v25_2 : Ref sig .tc := ⟨.hbm, 76, rfl⟩
abbrev main_v26 : Ref sig .tc := ⟨.hbm, 77, rfl⟩
abbrev main_cst_9 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_cst_10 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_cst_11 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_cst_12 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_call3_c : Ref sig .tc := ⟨.hbm, 101, rfl⟩
abbrev main_call3_v0 : Ref sig .tc := ⟨.hbm, 102, rfl⟩
abbrev main_call3_v1 : Ref sig .tc := ⟨.hbm, 103, rfl⟩
abbrev main_call3_c_0 : Ref sig .tc := ⟨.hbm, 104, rfl⟩
abbrev main_call3_v2 : Ref sig .tc := ⟨.hbm, 105, rfl⟩
abbrev main_call3_v3 : Ref sig .tc := ⟨.hbm, 106, rfl⟩
abbrev main_call3_v4 : Ref sig .tc := ⟨.hbm, 107, rfl⟩
abbrev main_call3_v5 : Ref sig .tc := ⟨.hbm, 108, rfl⟩
abbrev main_call3_c_1 : Ref sig .tc := ⟨.hbm, 109, rfl⟩
abbrev main_call3_c_2 : Ref sig .tc := ⟨.hbm, 110, rfl⟩
abbrev main_call3_v6 : Ref sig .tc := ⟨.hbm, 111, rfl⟩
abbrev main_call3_v7 : Ref sig .tc := ⟨.hbm, 112, rfl⟩
abbrev main_call3_v8 : Ref sig .tc := ⟨.hbm, 113, rfl⟩
abbrev main_call3_v9 : Ref sig .tc := ⟨.hbm, 114, rfl⟩
abbrev main_call3_v10 : Ref sig .tc := ⟨.hbm, 115, rfl⟩
abbrev main_call3_v11 : Ref sig .tc := ⟨.hbm, 116, rfl⟩
abbrev main_call3_c_3 : Ref sig .tc := ⟨.hbm, 117, rfl⟩
abbrev main_call3_v12 : Ref sig .tc := ⟨.hbm, 118, rfl⟩
abbrev main_call3_v13 : Ref sig .tc := ⟨.hbm, 119, rfl⟩
abbrev main_call3_v14 : Ref sig .tc := ⟨.hbm, 120, rfl⟩
abbrev main_call3_cst : Ref sig .tc := ⟨.hbm, 121, rfl⟩
abbrev main_call3_v15 : Ref sig .tc := ⟨.hbm, 122, rfl⟩
abbrev main_v46 : Ref sig .tc := ⟨.hbm, 123, rfl⟩
abbrev main_cst_13 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩
abbrev main_v50 : Ref sig .tc := ⟨.hbm, 128, rfl⟩
abbrev main_v51 : Ref sig .tc := ⟨.hbm, 129, rfl⟩
abbrev main_v52_0 : Ref sig .tc := ⟨.hbm, 130, rfl⟩
abbrev main_v52_1 : Ref sig .tc := ⟨.hbm, 131, rfl⟩
abbrev main_v52_2 : Ref sig .tc := ⟨.hbm, 132, rfl⟩
abbrev main_v53 : Ref sig .tc := ⟨.hbm, 133, rfl⟩
abbrev main_cst_14 : Ref sig .tc := ⟨.hbm, 134, rfl⟩
abbrev main_v54 : Ref sig .tc := ⟨.hbm, 135, rfl⟩
abbrev main_v55 : Ref sig .tc := ⟨.hbm, 136, rfl⟩
abbrev main_v56 : Ref sig .tc := ⟨.hbm, 137, rfl⟩
abbrev main_cst_15 : Ref sig .tc := ⟨.hbm, 138, rfl⟩
abbrev main_v57 : Ref sig .tc := ⟨.hbm, 139, rfl⟩
abbrev main_v58 : Ref sig .tc := ⟨.hbm, 140, rfl⟩
abbrev main_v59 : Ref sig .tc := ⟨.hbm, 141, rfl⟩
abbrev main_v60 : Ref sig .tc := ⟨.hbm, 142, rfl⟩
abbrev main_cst_16 : Ref sig .tc := ⟨.hbm, 143, rfl⟩
abbrev main_v61 : Ref sig .tc := ⟨.hbm, 144, rfl⟩
abbrev main_v62 : Ref sig .tc := ⟨.hbm, 145, rfl⟩
abbrev main_v63 : Ref sig .tc := ⟨.hbm, 146, rfl⟩
abbrev main_cst_17 : Ref sig .tc := ⟨.hbm, 147, rfl⟩
abbrev main_v64 : Ref sig .tc := ⟨.hbm, 148, rfl⟩
abbrev main_v65 : Ref sig .tc := ⟨.hbm, 149, rfl⟩
abbrev main_v66 : Ref sig .tc := ⟨.hbm, 150, rfl⟩
abbrev main_v67 : Ref sig .tc := ⟨.hbm, 151, rfl⟩
abbrev main_v68 : Ref sig .tc := ⟨.hbm, 152, rfl⟩
abbrev main_v69 : Ref sig .tc := ⟨.hbm, 153, rfl⟩
abbrev main_v70 : Ref sig .tc := ⟨.hbm, 154, rfl⟩
abbrev main_v71 : Ref sig .tc := ⟨.hbm, 155, rfl⟩
abbrev main_v72 : Ref sig .tc := ⟨.hbm, 156, rfl⟩
abbrev main_call4_c : Ref sig .tc := ⟨.hbm, 157, rfl⟩
abbrev main_call4_v0 : Ref sig .tc := ⟨.hbm, 158, rfl⟩
abbrev main_call4_v1 : Ref sig .tc := ⟨.hbm, 159, rfl⟩
abbrev main_call4_c_0 : Ref sig .tc := ⟨.hbm, 160, rfl⟩
abbrev main_call4_v2 : Ref sig .tc := ⟨.hbm, 161, rfl⟩
abbrev main_call4_v3 : Ref sig .tc := ⟨.hbm, 162, rfl⟩
abbrev main_call4_v4 : Ref sig .tc := ⟨.hbm, 163, rfl⟩
abbrev main_call4_v5 : Ref sig .tc := ⟨.hbm, 164, rfl⟩
abbrev main_call4_c_1 : Ref sig .tc := ⟨.hbm, 165, rfl⟩
abbrev main_call4_c_2 : Ref sig .tc := ⟨.hbm, 166, rfl⟩
abbrev main_call4_v6 : Ref sig .tc := ⟨.hbm, 167, rfl⟩
abbrev main_call4_v7 : Ref sig .tc := ⟨.hbm, 168, rfl⟩
abbrev main_call4_v8 : Ref sig .tc := ⟨.hbm, 169, rfl⟩
abbrev main_call4_v9 : Ref sig .tc := ⟨.hbm, 170, rfl⟩
abbrev main_call4_v10 : Ref sig .tc := ⟨.hbm, 171, rfl⟩
abbrev main_call4_v11 : Ref sig .tc := ⟨.hbm, 172, rfl⟩
abbrev main_call4_c_3 : Ref sig .tc := ⟨.hbm, 173, rfl⟩
abbrev main_call4_v12 : Ref sig .tc := ⟨.hbm, 174, rfl⟩
abbrev main_call4_v13 : Ref sig .tc := ⟨.hbm, 175, rfl⟩
abbrev main_call4_v14 : Ref sig .tc := ⟨.hbm, 176, rfl⟩
abbrev main_call4_cst : Ref sig .tc := ⟨.hbm, 177, rfl⟩
abbrev main_call4_v15 : Ref sig .tc := ⟨.hbm, 178, rfl⟩
abbrev main_v73 : Ref sig .tc := ⟨.hbm, 179, rfl⟩
abbrev main_cst_18 : Ref sig .tc := ⟨.hbm, 180, rfl⟩
abbrev main_v74 : Ref sig .tc := ⟨.hbm, 181, rfl⟩
abbrev main_v75 : Ref sig .tc := ⟨.hbm, 182, rfl⟩
abbrev main_v76 : Ref sig .tc := ⟨.hbm, 183, rfl⟩
abbrev main_v77 : Ref sig .tc := ⟨.hbm, 184, rfl⟩
abbrev main_v78 : Ref sig .tc := ⟨.hbm, 185, rfl⟩
abbrev main_v79 : Ref sig .tc := ⟨.hbm, 186, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_scratch0 : Ref sig .tc := ⟨.vmem, 16, rfl⟩
abbrev cc1_scratch1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg3_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg3_1 : Ref sig .tc := ⟨.vmem, 39, rfl⟩
abbrev cc4_stg4_0 : Ref sig .tc := ⟨.vmem, 40, rfl⟩
abbrev cc4_stg5_0 : Ref sig .tc := ⟨.vmem, 41, rfl⟩
abbrev cc4_scratch0 : Ref sig .tc := ⟨.vmem, 42, rfl⟩
abbrev cc4_scratch1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg5_0 : Ref sig .tc := ⟨.vmem, 50, rfl⟩
abbrev cc5_stg5_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg2_0 : Ref sig .tc := ⟨.vmem, 55, rfl⟩
abbrev cc6_stg2_1 : Ref sig .tc := ⟨.vmem, 56, rfl⟩
abbrev cc6_stg3_0 : Ref sig .tc := ⟨.vmem, 57, rfl⟩
abbrev cc6_stg3_1 : Ref sig .tc := ⟨.vmem, 58, rfl⟩
abbrev cc7_stg0_0 : Ref sig .tc := ⟨.vmem, 59, rfl⟩
abbrev cc7_stg0_1 : Ref sig .tc := ⟨.vmem, 60, rfl⟩
abbrev cc7_stg1_0 : Ref sig .tc := ⟨.vmem, 61, rfl⟩
abbrev cc7_stg1_1 : Ref sig .tc := ⟨.vmem, 62, rfl⟩
abbrev cc7_stg2_0 : Ref sig .tc := ⟨.vmem, 63, rfl⟩
abbrev cc7_stg3_0 : Ref sig .tc := ⟨.vmem, 64, rfl⟩
abbrev cc7_stg3_1 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc3_sem3_0 : DmaSem sig := 29
abbrev cc3_sem3_1 : DmaSem sig := 30
abbrev cc4_sem0_0 : DmaSem sig := 31
abbrev cc4_sem0_1 : DmaSem sig := 32
abbrev cc4_sem1_0 : DmaSem sig := 33
abbrev cc4_sem1_1 : DmaSem sig := 34
abbrev cc4_sem2_0 : DmaSem sig := 35
abbrev cc4_sem3_0 : DmaSem sig := 36
abbrev cc4_sem3_1 : DmaSem sig := 37
abbrev cc4_sem4_0 : DmaSem sig := 38
abbrev cc4_sem5_0 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem2_1 : DmaSem sig := 52
abbrev cc6_sem3_0 : DmaSem sig := 53
abbrev cc6_sem3_1 : DmaSem sig := 54
abbrev cc7_sem0_0 : DmaSem sig := 55
abbrev cc7_sem0_1 : DmaSem sig := 56
abbrev cc7_sem1_0 : DmaSem sig := 57
abbrev cc7_sem1_1 : DmaSem sig := 58
abbrev cc7_sem2_0 : DmaSem sig := 59
abbrev cc7_sem3_0 : DmaSem sig := 60
abbrev cc7_sem3_1 : DmaSem sig := 61

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v29 : BitVec 1 := Scalar.cmpi .eq arg0 c19_i32
  let v30 : BitVec 32 := Scalar.extui v29
  let c0_i32_17 : BitVec 32 := 0#32
  let v31 : BitVec 1 := Scalar.cmpi .ne v30 c0_i32_17
  v31

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def k4_cond2 (i : grid4.Coords) : BitVec 1 :=
  let arg0 : BitVec 32 := BitVec.ofNat 32 (i 0).val
  let c19_i32 : BitVec 32 := 19#32
  let v29 : BitVec 1 := Scalar.cmpi .eq arg0 c19_i32
  let v30 : BitVec 32 := Scalar.extui v29
  let c0_i32_17 : BitVec 32 := 0#32
  let v31 : BitVec 1 := Scalar.cmpi .ne v30 c0_i32_17
  v31

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x40 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S5000x40 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x40 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x40 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x40 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  shapeCasts_S1x128_S128 : S1x128.ShapeCasts S128
  bcast_S_S128 : S_.BroadcastsInDim S128 (![] : Fin 0 → Fin S128.rank)
  inb_S128x40_S128x40_0_0 : ∀ a, (![0, 0] : Fin 2 → Nat) a + S128x40.size a ≤ S128x40.size a
  h_S128x40 : 0 < S128x40.numel
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  bcast_S1600000_S1600000x40_0 : S1600000.BroadcastsInDim S1600000x40 (![0] : Fin 1 → Fin S1600000x40.rank)
  bcast_S_S1600000x40 : S_.BroadcastsInDim S1600000x40 (![] : Fin 0 → Fin S1600000x40.rank)
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x40_S5000x40_1_0_0_1_n_n_wf : DotDims.WF S5000x128 S128x40 S5000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S100000x128.size a
  hwx4_3 : ∀ i : grid4.Coords, EltTy.bits .f32 = 32 ∨ (Rect.block (s := S100000x128) S5000x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x40.size a ≤ S128x40.size a
  hwx6_1 : ∀ i : grid6.Coords, EltTy.bits .f32 = 32 ∨ (Rect.block (s := S128x40) S128x40.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S100000x1.size a
  hwx6_2 : ∀ i : grid6.Coords, EltTy.bits .f32 = 32 ∨ (Rect.block (s := S100000x1) S5000x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x40.size a ≤ S100000x40.size a
  hwx6_3 : ∀ i : grid6.Coords, EltTy.bits .f32 = 32 ∨ (Rect.block (s := S100000x40) S5000x40.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x40.size a ≤ S100000x40.size a
  hwx7_0 : ∀ i : grid7.Coords, EltTy.bits .f32 = 32 ∨ (Rect.block (s := S100000x40) S5000x40.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x1.size a ≤ S100000x1.size a
  hwx7_1 : ∀ i : grid7.Coords, EltTy.bits .f32 = 32 ∨ (Rect.block (s := S100000x1) S5000x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x40.size a ≤ S1x40.size a
  hwx7_2 : ∀ i : grid7.Coords, EltTy.bits .f32 = 32 ∨ (Rect.block (s := S1x40) S1x40.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x40.size a ≤ S100000x40.size a
  hwx7_3 : ∀ i : grid7.Coords, EltTy.bits .f32 = 32 ∨ (Rect.block (s := S100000x40) S5000x40.size (cc7_transform_3 i) (hinb7_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25_0) S5000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v25_1) S1x128.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25_2) S1x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun i => !(k1_cond2 i == 1#1) | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v25_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v43) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v43) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v44) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v45) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v49) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v50) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v51) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v52_0) S5000x128.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v52_1) S1x128.size cc4_transform_4 reads4_4 true true 1 stage4_4 sem4_4
    hrank4 hreads4_4 hinb4_4 nbuf4_4 (Memref.isWhole_whole _) hwx4_4 hstage4_4

abbrev win4_5 : Pipeline.Window sig grid4 :=
  Pipeline.Window.ofSpec (Memref.whole main_v52_2) S1x128.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev idle4 : Fin 6 → grid4.Coords → Bool := fun | 0 => fun _ => false | 1 => fun _ => false | 2 => fun _ => false | 3 => fun _ => false | 4 => fun i => !(k4_cond2 i == 1#1) | 5 => fun i => !(k4_cond2 i == 1#1) | ⟨_ + 6, h⟩ => absurd h (Nat.not_lt.2 (Nat.le_add_left _ _))

abbrev win5_0 : Pipeline.Window sig grid5 :=
  Pipeline.Window.ofSpec (Memref.whole main_v52_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v67) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v66) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v68) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v69) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v70) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v70) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg11) S128x40.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v71) S5000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v72) S5000x40.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v76) S5000x40.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v77) S5000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v78) S1x40.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v79) S5000x40.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1 : Shape := ⟨1, ![1]⟩
abbrev S1x1 : Shape := ⟨2, ![1, 1]⟩
abbrev S1600000x128 : Shape := ⟨2, ![1600000, 128]⟩
abbrev S1x128 : Shape := ⟨2, ![1, 128]⟩
abbrev S100000x40 : Shape := ⟨2, ![100000, 40]⟩
abbrev S1600000x40 : Shape := ⟨2, ![1600000, 40]⟩
abbrev S1x40 : Shape := ⟨2, ![1, 40]⟩

abbrev nBuf : Space → Nat
  | .hbm => 220
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x40, .f32⟩
  | 12 => ⟨S40, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .i1⟩
  | 26 => ⟨S_, .f32⟩
  | 27 => ⟨S_, .f32⟩
  | 28 => ⟨S100000, .f32⟩
  | 29 => ⟨S100000, .f32⟩
  | 30 => ⟨S_, .f32⟩
  | 31 => ⟨S100000, .f32⟩
  | 32 => ⟨S100000, .f32⟩
  | 33 => ⟨S_, .f32⟩
  | 34 => ⟨S100000, .f32⟩
  | 35 => ⟨S100000, .i1⟩
  | 36 => ⟨S_, .f32⟩
  | 37 => ⟨S_, .f32⟩
  | 38 => ⟨S100000, .f32⟩
  | 39 => ⟨S100000, .f32⟩
  | 40 => ⟨S_, .f32⟩
  | 41 => ⟨S100000, .f32⟩
  | 42 => ⟨S100000, .f32⟩
  | 43 => ⟨S100000x128, .f32⟩
  | 44 => ⟨S100000x1, .f32⟩
  | 45 => ⟨S100000x128, .f32⟩
  | 46 => ⟨S100000x128, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1, .i32⟩
  | 56 => ⟨S_, .i32⟩
  | 57 => ⟨S1600000x1, .i32⟩
  | 58 => ⟨S1600000x1, .i1⟩
  | 59 => ⟨S1x1, .i32⟩
  | 60 => ⟨S1600000x1, .i32⟩
  | 61 => ⟨S1600000x1, .i1⟩
  | 62 => ⟨S1600000x1, .i1⟩
  | 63 => ⟨S_, .i1⟩
  | 64 => ⟨S1600000, .i1⟩
  | 65 => ⟨S1600000x128, .f32⟩
  | 66 => ⟨S1600000x128, .i1⟩
  | 67 => ⟨S_, .f32⟩
  | 68 => ⟨S1600000x128, .f32⟩
  | 69 => ⟨S1600000x128, .f32⟩
  | 70 => ⟨S_, .f32⟩
  | 71 => ⟨S100000x128, .f32⟩
  | 72 => ⟨S1600000x1, .i32⟩
  | 73 => ⟨S100000x128, .f32⟩
  | 74 => ⟨S100000x1, .f32⟩
  | 75 => ⟨S100000x128, .f32⟩
  | 76 => ⟨S100000x128, .f32⟩
  | 77 => ⟨S1x128, .f32⟩
  | 78 => ⟨S100000x128, .f32⟩
  | 79 => ⟨S100000x128, .f32⟩
  | 80 => ⟨S_, .f32⟩
  | 81 => ⟨S128, .f32⟩
  | 82 => ⟨S_, .f32⟩
  | 83 => ⟨S128, .f32⟩
  | 84 => ⟨S128, .f32⟩
  | 85 => ⟨S1x128, .f32⟩
  | 86 => ⟨S100000x128, .f32⟩
  | 87 => ⟨S100000x128, .f32⟩
  | 88 => ⟨S100000x128, .f32⟩
  | 89 => ⟨S_, .f32⟩
  | 90 => ⟨S128, .f32⟩
  | 91 => ⟨S_, .f32⟩
  | 92 => ⟨S128, .f32⟩
  | 93 => ⟨S128, .f32⟩
  | 94 => ⟨S1x128, .f32⟩
  | 95 => ⟨S100000x128, .f32⟩
  | 96 => ⟨S100000x128, .f32⟩
  | 97 => ⟨S_, .f32⟩
  | 98 => ⟨S128, .f32⟩
  | 99 => ⟨S128, .f32⟩
  | 100 => ⟨S128, .f32⟩
  | 101 => ⟨S1x128, .f32⟩
  | 102 => ⟨S100000x128, .f32⟩
  | 103 => ⟨S100000x128, .f32⟩
  | 104 => ⟨S1x128, .f32⟩
  | 105 => ⟨S100000x128, .f32⟩
  | 106 => ⟨S100000x128, .f32⟩
  | 107 => ⟨S1x128, .f32⟩
  | 108 => ⟨S100000x128, .f32⟩
  | 109 => ⟨S100000x128, .f32⟩
  | 110 => ⟨S_, .f32⟩
  | 111 => ⟨S100000x128, .f32⟩
  | 112 => ⟨S100000x128, .f32⟩
  | 113 => ⟨S100000x128, .f32⟩
  | 114 => ⟨S100000x1, .f32⟩
  | 115 => ⟨S100000x128, .f32⟩
  | 116 => ⟨S100000x128, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1, .i32⟩
  | 126 => ⟨S_, .i32⟩
  | 127 => ⟨S1600000x1, .i32⟩
  | _ => ⟨S100000x128, .f32⟩

abbrev hbmTy0_1 (i : Nat) : BufTy := match i % 128 with
  | 0 => ⟨S1600000x1, .i1⟩
  | 1 => ⟨S1x1, .i32⟩
  | 2 => ⟨S1600000x1, .i32⟩
  | 3 => ⟨S1600000x1, .i1⟩
  | 4 => ⟨S1600000x1, .i1⟩
  | 5 => ⟨S_, .i1⟩
  | 6 => ⟨S1600000, .i1⟩
  | 7 => ⟨S1600000x128, .f32⟩
  | 8 => ⟨S1600000x128, .i1⟩
  | 9 => ⟨S_, .f32⟩
  | 10 => ⟨S1600000x128, .f32⟩
  | 11 => ⟨S1600000x128, .f32⟩
  | 12 => ⟨S_, .f32⟩
  | 13 => ⟨S100000x128, .f32⟩
  | 14 => ⟨S1600000x1, .i32⟩
  | 15 => ⟨S100000x128, .f32⟩
  | 16 => ⟨S100000x1, .f32⟩
  | 17 => ⟨S100000x128, .f32⟩
  | 18 => ⟨S100000x128, .f32⟩
  | 19 => ⟨S1x128, .f32⟩
  | 20 => ⟨S100000x128, .f32⟩
  | 21 => ⟨S100000x128, .f32⟩
  | 22 => ⟨S_, .f32⟩
  | 23 => ⟨S128, .f32⟩
  | 24 => ⟨S_, .f32⟩
  | 25 => ⟨S128, .f32⟩
  | 26 => ⟨S128, .f32⟩
  | 27 => ⟨S1x128, .f32⟩
  | 28 => ⟨S100000x128, .f32⟩
  | 29 => ⟨S100000x128, .f32⟩
  | 30 => ⟨S100000x128, .f32⟩
  | 31 => ⟨S_, .f32⟩
  | 32 => ⟨S128, .f32⟩
  | 33 => ⟨S_, .f32⟩
  | 34 => ⟨S128, .f32⟩
  | 35 => ⟨S128, .f32⟩
  | 36 => ⟨S1x128, .f32⟩
  | 37 => ⟨S100000x128, .f32⟩
  | 38 => ⟨S100000x128, .f32⟩
  | 39 => ⟨S_, .f32⟩
  | 40 => ⟨S128, .f32⟩
  | 41 => ⟨S128, .f32⟩
  | 42 => ⟨S128, .f32⟩
  | 43 => ⟨S1x128, .f32⟩
  | 44 => ⟨S100000x128, .f32⟩
  | 45 => ⟨S100000x128, .f32⟩
  | 46 => ⟨S1x128, .f32⟩
  | 47 => ⟨S100000x128, .f32⟩
  | 48 => ⟨S100000x128, .f32⟩
  | 49 => ⟨S1x128, .f32⟩
  | 50 => ⟨S100000x128, .f32⟩
  | 51 => ⟨S100000x128, .f32⟩
  | 52 => ⟨S_, .f32⟩
  | 53 => ⟨S100000x128, .f32⟩
  | 54 => ⟨S100000x128, .f32⟩
  | 55 => ⟨S100000x40, .f32⟩
  | 56 => ⟨S100000x1, .f32⟩
  | 57 => ⟨S100000x40, .f32⟩
  | 58 => ⟨S100000x40, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1, .i32⟩
  | 68 => ⟨S_, .i32⟩
  | 69 => ⟨S1600000x1, .i32⟩
  | 70 => ⟨S1600000x1, .i1⟩
  | 71 => ⟨S1x1, .i32⟩
  | 72 => ⟨S1600000x1, .i32⟩
  | 73 => ⟨S1600000x1, .i1⟩
  | 74 => ⟨S1600000x1, .i1⟩
  | 75 => ⟨S_, .i1⟩
  | 76 => ⟨S1600000, .i1⟩
  | 77 => ⟨S1600000x40, .f32⟩
  | 78 => ⟨S1600000x40, .i1⟩
  | 79 => ⟨S_, .f32⟩
  | 80 => ⟨S1600000x40, .f32⟩
  | 81 => ⟨S1600000x40, .f32⟩
  | 82 => ⟨S_, .f32⟩
  | 83 => ⟨S100000x40, .f32⟩
  | 84 => ⟨S1600000x1, .i32⟩
  | 85 => ⟨S100000x40, .f32⟩
  | 86 => ⟨S100000x1, .f32⟩
  | 87 => ⟨S100000x40, .f32⟩
  | 88 => ⟨S100000x40, .f32⟩
  | 89 => ⟨S1x40, .f32⟩
  | 90 => ⟨S100000x40, .f32⟩
  | 91 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_2 : Ref sig .tc := ⟨.hbm, 23, rfl⟩
abbrev main_v7 : Ref sig .tc := ⟨.hbm, 24, rfl⟩
abbrev main_v8 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v9 : Ref sig .tc := ⟨.hbm, 29, rfl⟩
abbrev main_cst_4 : Ref sig .tc := ⟨.hbm, 30, rfl⟩
abbrev main_v10 : Ref sig .tc := ⟨.hbm, 31, rfl⟩
abbrev main_v11 : Ref sig .tc := ⟨.hbm, 32, rfl⟩
abbrev main_cst_5 : Ref sig .tc := ⟨.hbm, 33, rfl⟩
abbrev main_v12 : Ref sig .tc := ⟨.hbm, 34, rfl⟩
abbrev main_v13 : Ref sig .tc := ⟨.hbm, 35, rfl⟩
abbrev main_cst_6 : Ref sig .tc := ⟨.hbm, 36, rfl⟩
abbrev main_call1_v0 : Ref sig .tc := ⟨.hbm, 37, rfl⟩
abbrev main_call1_v1 : Ref sig .tc := ⟨.hbm, 38, rfl⟩
abbrev main_v14 : Ref sig .tc := ⟨.hbm, 39, rfl⟩
abbrev main_cst_7 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_call2_c : Ref sig .tc := ⟨.hbm, 47, rfl⟩
abbrev main_call2_v0 : Ref sig .tc := ⟨.hbm, 48, rfl⟩
abbrev main_call2_v1 : Ref sig .tc := ⟨.hbm, 49, rfl⟩
abbrev main_call2_c_0 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_c_1 : Ref sig .tc := ⟨.hbm, 55, rfl⟩
abbrev main_call2_c_2 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_v9 : Ref sig .tc := ⟨.hbm, 60, rfl⟩
abbrev main_call2_v10 : Ref sig .tc := ⟨.hbm, 61, rfl⟩
abbrev main_call2_v11 : Ref sig .tc := ⟨.hbm, 62, rfl⟩
abbrev main_call2_c_3 : Ref sig .tc := ⟨.hbm, 63, rfl⟩
abbrev main_call2_v12 : Ref sig .tc := ⟨.hbm, 64, rfl⟩
abbrev main_call2_v13 : Ref sig .tc := ⟨.hbm, 65, rfl⟩
abbrev main_call2_v14 : Ref sig .tc := ⟨.hbm, 66, rfl⟩
abbrev main_call2_cst : Ref sig .tc := ⟨.hbm, 67, rfl⟩
abbrev main_call2_v15 : Ref sig .tc := ⟨.hbm, 68, rfl⟩
abbrev main_v21 : Ref sig .tc := ⟨.hbm, 69, rfl⟩
abbrev main_cst_8 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_cst_9 : Ref sig .tc := ⟨.hbm, 80, rfl⟩
abbrev main_v31 : Ref sig .tc := ⟨.hbm, 81, rfl⟩
abbrev main_cst_10 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_cst_11 : Ref sig .tc := ⟨.hbm, 89, rfl⟩
abbrev main_v38 : Ref sig .tc := ⟨.hbm, 90, rfl⟩
abbrev main_cst_12 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_cst_13 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_call3_cst : Ref sig .tc := ⟨.hbm, 110, rfl⟩
abbrev main_call3_v0 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_call4_c : Ref sig .tc := ⟨.hbm, 117, rfl⟩
abbrev main_call4_v0 : Ref sig .tc := ⟨.hbm, 118, rfl⟩
abbrev main_call4_v1 : Ref sig .tc := ⟨.hbm, 119, rfl⟩
abbrev main_call4_c_0 : Ref sig .tc := ⟨.hbm, 120, rfl⟩
abbrev main_call4_v2 : Ref sig .tc := ⟨.hbm, 121, rfl⟩
abbrev main_call4_v3 : Ref sig .tc := ⟨.hbm, 122, rfl⟩
abbrev main_call4_v4 : Ref sig .tc := ⟨.hbm, 123, rfl⟩
abbrev main_call4_v5 : Ref sig .tc := ⟨.hbm, 124, rfl⟩
abbrev main_call4_c_1 : Ref sig .tc := ⟨.hbm, 125, rfl⟩
abbrev main_call4_c_2 : Ref sig .tc := ⟨.hbm, 126, rfl⟩
abbrev main_call4_v6 : Ref sig .tc := ⟨.hbm, 127, rfl⟩
abbrev main_call4_v7 : Ref sig .tc := ⟨.hbm, 128, rfl⟩
abbrev main_call4_v8 : Ref sig .tc := ⟨.hbm, 129, rfl⟩
abbrev main_call4_v9 : Ref sig .tc := ⟨.hbm, 130, rfl⟩
abbrev main_call4_v10 : Ref sig .tc := ⟨.hbm, 131, rfl⟩
abbrev main_call4_v11 : Ref sig .tc := ⟨.hbm, 132, rfl⟩
abbrev main_call4_c_3 : Ref sig .tc := ⟨.hbm, 133, rfl⟩
abbrev main_call4_v12 : Ref sig .tc := ⟨.hbm, 134, rfl⟩
abbrev main_call4_v13 : Ref sig .tc := ⟨.hbm, 135, rfl⟩
abbrev main_call4_v14 : Ref sig .tc := ⟨.hbm, 136, rfl⟩
abbrev main_call4_cst : Ref sig .tc := ⟨.hbm, 137, rfl⟩
abbrev main_call4_v15 : Ref sig .tc := ⟨.hbm, 138, rfl⟩
abbrev main_v61 : Ref sig .tc := ⟨.hbm, 139, rfl⟩
abbrev main_cst_14 : Ref sig .tc := ⟨.hbm, 140, rfl⟩
abbrev main_v62 : Ref sig .tc := ⟨.hbm, 141, rfl⟩
abbrev main_v63 : Ref sig .tc := ⟨.hbm, 142, rfl⟩
abbrev main_v64 : Ref sig .tc := ⟨.hbm, 143, rfl⟩
abbrev main_v65 : Ref sig .tc := ⟨.hbm, 144, rfl⟩
abbrev main_v66 : Ref sig .tc := ⟨.hbm, 145, rfl⟩
abbrev main_v67 : Ref sig .tc := ⟨.hbm, 146, rfl⟩
abbrev main_v68 : Ref sig .tc := ⟨.hbm, 147, rfl⟩
abbrev main_v69 : Ref sig .tc := ⟨.hbm, 148, rfl⟩
abbrev main_v70 : Ref sig .tc := ⟨.hbm, 149, rfl⟩
abbrev main_cst_15 : Ref sig .tc := ⟨.hbm, 150, rfl⟩
abbrev main_v71 : Ref sig .tc := ⟨.hbm, 151, rfl⟩
abbrev main_cst_16 : Ref sig .tc := ⟨.hbm, 152, rfl⟩
abbrev main_v72 : Ref sig .tc := ⟨.hbm, 153, rfl⟩
abbrev main_v73 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_v77 : Ref sig .tc := ⟨.hbm, 158, rfl⟩
abbrev main_cst_17 : Ref sig .tc := ⟨.hbm, 159, rfl⟩
abbrev main_v78 : Ref sig .tc := ⟨.hbm, 160, rfl⟩
abbrev main_cst_18 : Ref sig .tc := ⟨.hbm, 161, rfl⟩
abbrev main_v79 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_v83 : Ref sig .tc := ⟨.hbm, 166, rfl⟩
abbrev main_cst_19 : Ref sig .tc := ⟨.hbm, 167, rfl⟩
abbrev main_v84 : Ref sig .tc := ⟨.hbm, 168, rfl⟩
abbrev main_v85 : Ref sig .tc := ⟨.hbm, 169, rfl⟩
abbrev main_v86 : Ref sig .tc := ⟨.hbm, 170, rfl⟩
abbrev main_v87 : Ref sig .tc := ⟨.hbm, 171, rfl⟩
abbrev main_v88 : Ref sig .tc := ⟨.hbm, 172, rfl⟩
abbrev main_v89 : Ref sig .tc := ⟨.hbm, 173, rfl⟩
abbrev main_v90 : Ref sig .tc := ⟨.hbm, 174, rfl⟩
abbrev main_v91 : Ref sig .tc := ⟨.hbm, 175, rfl⟩
abbrev main_v92 : Ref sig .tc := ⟨.hbm, 176, rfl⟩
abbrev main_v93 : Ref sig .tc := ⟨.hbm, 177, rfl⟩
abbrev main_v94 : Ref sig .tc := ⟨.hbm, 178, rfl⟩
abbrev main_v95 : Ref sig .tc := ⟨.hbm, 179, rfl⟩
abbrev main_call5_cst : Ref sig .tc := ⟨.hbm, 180, rfl⟩
abbrev main_call5_v0 : Ref sig .tc := ⟨.hbm, 181, rfl⟩
abbrev main_v96 : Ref sig .tc := ⟨.hbm, 182, rfl⟩
abbrev main_v97 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩
abbrev main_call6_c : Ref sig .tc := ⟨.hbm, 187, rfl⟩
abbrev main_call6_v0 : Ref sig .tc := ⟨.hbm, 188, rfl⟩
abbrev main_call6_v1 : Ref sig .tc := ⟨.hbm, 189, rfl⟩
abbrev main_call6_c_0 : Ref sig .tc := ⟨.hbm, 190, rfl⟩
abbrev main_call6_v2 : Ref sig .tc := ⟨.hbm, 191, rfl⟩
abbrev main_call6_v3 : Ref sig .tc := ⟨.hbm, 192, rfl⟩
abbrev main_call6_v4 : Ref sig .tc := ⟨.hbm, 193, rfl⟩
abbrev main_call6_v5 : Ref sig .tc := ⟨.hbm, 194, rfl⟩
abbrev main_call6_c_1 : Ref sig .tc := ⟨.hbm, 195, rfl⟩
abbrev main_call6_c_2 : Ref sig .tc := ⟨.hbm, 196, rfl⟩
abbrev main_call6_v6 : Ref sig .tc := ⟨.hbm, 197, rfl⟩
abbrev main_call6_v7 : Ref sig .tc := ⟨.hbm, 198, rfl⟩
abbrev main_call6_v8 : Ref sig .tc := ⟨.hbm, 199, rfl⟩
abbrev main_call6_v9 : Ref sig .tc := ⟨.hbm, 200, rfl⟩
abbrev main_call6_v10 : Ref sig .tc := ⟨.hbm, 201, rfl⟩
abbrev main_call6_v11 : Ref sig .tc := ⟨.hbm, 202, rfl⟩
abbrev main_call6_c_3 : Ref sig .tc := ⟨.hbm, 203, rfl⟩
abbrev main_call6_v12 : Ref sig .tc := ⟨.hbm, 204, rfl⟩
abbrev main_call6_v13 : Ref sig .tc := ⟨.hbm, 205, rfl⟩
abbrev main_call6_v14 : Ref sig .tc := ⟨.hbm, 206, rfl⟩
abbrev main_call6_cst : Ref sig .tc := ⟨.hbm, 207, rfl⟩
abbrev main_call6_v15 : Ref sig .tc := ⟨.hbm, 208, rfl⟩
abbrev main_v101 : Ref sig .tc := ⟨.hbm, 209, rfl⟩
abbrev main_cst_20 : Ref sig .tc := ⟨.hbm, 210, rfl⟩
abbrev main_v102 : Ref sig .tc := ⟨.hbm, 211, rfl⟩
abbrev main_v103 : Ref sig .tc := ⟨.hbm, 212, rfl⟩
abbrev main_v104 : Ref sig .tc := ⟨.hbm, 213, rfl⟩
abbrev main_v105 : Ref sig .tc := ⟨.hbm, 214, rfl⟩
abbrev main_v106 : Ref sig .tc := ⟨.hbm, 215, rfl⟩
abbrev main_v107 : Ref sig .tc := ⟨.hbm, 216, rfl⟩
abbrev main_v108 : Ref sig .tc := ⟨.hbm, 217, rfl⟩
abbrev main_v109 : Ref sig .tc := ⟨.hbm, 218, rfl⟩
abbrev main_v110 : Ref sig .tc := ⟨.hbm, 219, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  bcast_S_S128 : S_.BroadcastsInDim S128 (![] : Fin 0 → Fin S128.rank)
  bcast_S100000x1_S100000x40_0_1 : S100000x1.BroadcastsInDim S100000x40 (![0, 1] : Fin 2 → Fin S100000x40.rank)
  bcast_S1600000_S1600000x40_0 : S1600000.BroadcastsInDim S1600000x40 (![0] : Fin 1 → Fin S1600000x40.rank)
  bcast_S_S1600000x40 : S_.BroadcastsInDim S1600000x40 (![] : Fin 0 → Fin S1600000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x40_S100000x40_1_0_0_1_n_n_wf : DotDims.WF S100000x128 S128x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.KernelBody0.lean ====
import proofs.«107691_j23957327577190_1_alg».proof.Proof.Gen.Kernel.Launch
import proofs.«107691_j23957327577190_1_alg».proof.Proof.Gen.Kernel.Skeleton
import proofs.«107691_j23957327577190_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 0: the body's triple and the proof data

The region's body reads each input window's whole staging block, computes one value from them and stores it over
the whole output block. Stated at the buffer contents `V` found when the region is entered: each window's block at a
grid point, the output block as a function of the input blocks, and the obligation that the body, run at any grid
point on buffers holding the input blocks, leaves exactly that output block and the inputs untouched. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not it was fetched there
    (an unfetched window's block index has not moved), for any proof data over the arrays `V` whose body leaves the
    block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether or not it was fetched there
    (an unfetched window's block index has not moved), for any proof data over the arrays `V` whose body leaves the
    block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether or not it was fetched there
    (an unfetched window's block index has not moved), for any proof data over the arrays `V` whose body leaves the
    block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole block -/

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S5000x1 := Rect.unit (s := S5000x1) ![0, 0] S5000x1.size inb_S5000x1_S5000x1_0_0

/-! ## What the body leaves in the output window's buffer -/

/-- The output staging buffer after the body, from the input blocks: its one store, over the whole block. -/
def out0_3 (x0 : Vec F S5000x128 .f32) (x1 : Vec F S128x128 .f32) (x2 : Vec F S5000x1 .f32) : Vec F S5000x128 .f32 :=
  View.canon [⟨r0_0, k0_pay1 (View.ld x0 r0_0) (View.ld x1 r0_1) (View.ld x2 r0_2)⟩]

/-- The one store covers the buffer. -/
theorem cover0_3 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

/-! ## The body's triple -/

set_option maxHeartbeats 1000000 in
/-- The body on whole staging buffers, the inputs' holding `xW` and the output's anything, runs to the continuation
    with the inputs' unchanged and the output's holding `out0_3` of the inputs. -/
theorem sound_kernel0 (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S5000x1 .f32) (harg3 : arg3.IsWhole) (arg4 : Memref sig .tc .vmem S5000x128 .f32) (harg4 : arg4.IsWhole)
    (x0 : Vec F S5000x128 .f32) (x1 : Vec F S128x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__matmul_scale_kernel i arg1 harg1 arg2 harg2 arg3 harg3 arg4 harg4) K := by
  simp only [cc0__matmul_scale_kernel_eq_skeleton]; unfold cc0__matmul_scale_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The region's proof data -/

/-- The proof data of the region on core `c`: the arrays as the region finds them; after the body at point `t` each
    input's buffer at its block and the output's at `out0_3` of the input blocks; the invariant is the rest of the
    memory, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KernelRuns1.lean ====
/-
  The row-statistics kernel region 1: what its three control cases share.

  At grid point t the body forms h = x·s + b on a block of 5000 rows, stores it to the first output's block,
  clears two row accumulators if t is the first point, adds to them the column sums of h and of h·h, and, if t
  is the last point, copies the accumulators to the second and third outputs. Stated here: the two branch
  conditions as propositions in the grid coordinates, with the points at which they hold; the points at which the
  two late outputs are left untouched and are not written back; the buffers the body is called with; and the part
  of the thread's scoped buffers that the body uses (the two accumulators), split off the rest.
-/
import proofs.«107691_j23957327577190_1_alg».proof.Proof.Gen.Kernel.Launch
import proofs.«107691_j23957327577190_1_alg».proof.Proof.Gen.Kernel.Skeleton
import proofs.«107691_j23957327577190_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- The first branch is taken when the grid coordinate is zero. -/
abbrev cond1_0 (i : grid1.Coords) : Prop := (Scalar.cmpi .ne (Scalar.extui (Scalar.cmpi .eq (BitVec.ofNat 32 (i 0).val) 0#32)) 0#32) = 1#1
/-- Among the twenty points that is the first one. -/
theorem hcond1_0 : ∀ t : Fin cfg1.N, cond1_0 (grid1.coords t) ↔ t.val % 20 = 0 :=
  (by decide +kernel : ∀ t : Fin grid1.N, cond1_0 (grid1.coords t) ↔ t.val % 20 = 0)

/-- The second branch is taken when the grid coordinate is nineteen. -/
abbrev cond1_1 (i : grid1.Coords) : Prop := k1_cond2 i = 1#1
/-- Among the twenty points that is the last one. -/
theorem hcond1_1 : ∀ t : Fin cfg1.N, cond1_1 (grid1.coords t) ↔ t.val % 20 = 19 :=
  (by decide +kernel : ∀ t : Fin grid1.N, cond1_1 (grid1.coords t) ↔ t.val % 20 = 19)

/-! ## Where the windows are touched -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Before the last point the two late outputs are not stored into, -/
theorem idleAt1_4 : ∀ t : Fin cfg1.N, ¬cond1_1 (grid1.coords t) → cfg1.idle 4 (grid1.coords t) = true := by decide +kernel
theorem idleAt1_5 : ∀ t : Fin cfg1.N, ¬cond1_1 (grid1.coords t) → cfg1.idle 5 (grid1.coords t) = true := by decide +kernel
/-- and are not written back; -/
theorem noFlush1_4 : ∀ t : Fin cfg1.N, ¬cond1_1 (grid1.coords t) → (cfg1.win 4).flush t = false := by decide +kernel
theorem noFlush1_5 : ∀ t : Fin cfg1.N, ¬cond1_1 (grid1.coords t) → (cfg1.win 5).flush t = false := by decide +kernel
/-- at the last point they are stored into. -/
theorem liveAt1_4 : ∀ t : Fin cfg1.N, cond1_1 (grid1.coords t) → cfg1.idle 4 (grid1.coords t) = false := by decide +kernel
theorem liveAt1_5 : ∀ t : Fin cfg1.N, cond1_1 (grid1.coords t) → cfg1.idle 5 (grid1.coords t) = false := by decide +kernel

/-! ## The buffers the body is called with -/

/-- One staging buffer of each output, through which contents are stated (for a whole buffer the choice does not
    matter). -/
abbrev VO1_3 : View sig .tc .vmem S5000x128 .f32 := (Memref.whole cc1_stg3_0 : Memref sig .tc .vmem S5000x128 .f32).view
abbrev VO1_4 : View sig .tc .vmem S1x128 .f32 := (Memref.whole cc1_stg4_0 : Memref sig .tc .vmem S1x128 .f32).view
abbrev VO1_5 : View sig .tc .vmem S1x128 .f32 := (Memref.whole cc1_stg5_0 : Memref sig .tc .vmem S1x128 .f32).view
/-- Each window's current staging buffer at point `t`, and its wholeness. -/
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S5000x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
/-- The two row accumulators: whole scoped buffers passed beside the windows, -/
abbrev scM1_0 : Memref sig .tc .vmem S1x128 .f32 := Memref.whole cc1_scratch0
abbrev scM1_1 : Memref sig .tc .vmem S1x128 .f32 := Memref.whole cc1_scratch1
/-- and as views, through which their contents are stated. -/
abbrev VS1_0 : View sig .tc .vmem S1x128 .f32 := scM1_0.view
abbrev VS1_1 : View sig .tc .vmem S1x128 .f32 := scM1_1.view

/-- The scoped buffers no window stages, with the two accumulators named as owned buffers at some contents and the
    others left together. -/
theorem scopedRest1_eq (c : Dev nD) :
    (Pipeline.scopedRest (Ix := Unit) (Name := ℕ) (U := UR sig nD τ) (Lvl := ℕ) (Val := Elt F) spec1 c : sProp 𝕄)
      = iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) := by
  rw [scopedRest1_split]; simp only [scM1_0, scM1_1, owns_whole]; try rfl

end Cert.Kernel.Hand

end
-- ==== Proof.KernelRun1A.lean ====
/-
  The row-statistics kernel region 1, first grid point: the body on arbitrary whole buffers.

  At the first point the accumulators are cleared before the column sums are added, so what they held before does
  not matter; the two late outputs are not touched. The run below executes the body's memory operations one by one
  and records, per buffer stored into, the list of pieces written (last first).
-/
import proofs.«107691_j23957327577190_1_alg».proof.Proof.KernelRuns1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first point, on whole buffers: the three inputs at their contents, the first output and the two
    accumulators at anything, the two late outputs at contents that are handed back untouched. It runs to a
    continuation that holds the inputs as they were, the late outputs as they were, and the first output and each
    accumulator with the recorded pieces written. -/
noncomputable def kernelRun1_A (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond1_0 i) (hc1 : ¬cond1_1 i)
    (x0 : Vec F S5000x128 .f32) (x1 : Vec F S5000x1 .f32) (x2 : Vec F S1x128 .f32) :
    Σ' (L3 : List (View.Piece (Elt F) S5000x128 .f32)) (LS0 : List (View.Piece (Elt F) S1x128 .f32)), { LS1 : List (View.Piece (Elt F) S1x128 .f32) //
      ∀ (xi4 : Vec F S1x128 .f32) (xi5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xi4 ∗ owns (c : Thread nD τ) arg6 fullShare xi5
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ owns (c : Thread nD τ) arg5 fullShare xi4 ∗ owns (c : Thread nD τ) arg6 fullShare xi5
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc1__bias_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc1__bias_stats_kernel_eq_skeleton]; unfold cc1__bias_stats_kernel_skel
    simp only [k1_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2
    obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.Kernel.Hand

end
-- ==== Proof.KernelRun1B.lean ====
/-
  The row-statistics kernel region 1, a grid point that is neither the first nor the last: the body on arbitrary
  whole buffers.

  Here the accumulators are read at what the point before left in them and the column sums are added; the two late
  outputs are not touched.
-/
import proofs.«107691_j23957327577190_1_alg».proof.Proof.KernelRun1A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a middle point, on whole buffers: the three inputs at their contents, the first output at
    anything, the two accumulators at the carried contents, the two late outputs at contents that are handed back
    untouched. It runs to a continuation that holds the inputs and the late outputs as they were, and the first
    output and each accumulator with the recorded pieces written. -/
noncomputable def kernelRun1_B (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : ¬cond1_1 i)
    (x0 : Vec F S5000x128 .f32) (x1 : Vec F S5000x1 .f32) (x2 : Vec F S1x128 .f32) (xs0 : Vec F S1x128 .f32) (xs1 : Vec F S1x128 .f32) :
    Σ' (L3 : List (View.Piece (Elt F) S5000x128 .f32)) (LS0 : List (View.Piece (Elt F) S1x128 .f32)), { LS1 : List (View.Piece (Elt F) S1x128 .f32) //
      ∀ (xi4 : Vec F S1x128 .f32) (xi5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xi4 ∗ owns (c : Thread nD τ) arg6 fullShare xi5
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ owns (c : Thread nD τ) arg5 fullShare xi4 ∗ owns (c : Thread nD τ) arg6 fullShare xi5
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc1__bias_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc1__bias_stats_kernel_eq_skeleton]; unfold cc1__bias_stats_kernel_skel
    simp only [k1_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg5.eq_unread hf4; obtain rfl := harg6.eq_unread hf5
    obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.Kernel.Hand

end
-- ==== Proof.KernelRun1C.lean ====
/-
  The row-statistics kernel region 1, last grid point: the body on arbitrary whole buffers.

  Here the accumulators are read at what the point before left in them, the column sums are added, and the
  accumulators are then copied to the two late outputs.
-/
import proofs.«107691_j23957327577190_1_alg».proof.Proof.KernelRun1B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the last point, on whole buffers: the three inputs at their contents, the three outputs at
    anything, the two accumulators at the carried contents. It runs to a continuation that holds the inputs as they
    were and each output and each accumulator with the recorded pieces written. -/
noncomputable def kernelRun1_C (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i)
    (x0 : Vec F S5000x128 .f32) (x1 : Vec F S5000x1 .f32) (x2 : Vec F S1x128 .f32) (xs0 : Vec F S1x128 .f32) (xs1 : Vec F S1x128 .f32) :
    Σ' (L3 : List (View.Piece (Elt F) S5000x128 .f32)) (L4 : List (View.Piece (Elt F) S1x128 .f32)) (L5 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc1__bias_stats_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc1__bias_stats_kernel_eq_skeleton]; unfold cc1__bias_stats_kernel_skel
    simp only [k1_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [HS0]; · iexists _; iexact HS0
    iexists _; iexact HS1

end Cert.Kernel.Hand

end
-- ==== Proof.KernelOuts1.lean ====
/-
  The row-statistics kernel region 1: what the buffers hold after each grid point.

  Per control case, the pieces the body's run recorded for a buffer cover it, so what the buffer holds afterwards is
  the pieces read back. Point by point: after the first point the accumulators hold the first block's column sums;
  after each later point, what the point before left plus that point's column sums; after the last point the two
  late outputs hold the accumulators. This is a recursion on the point, each step using what the step before left in
  the accumulators.
-/
import proofs.«107691_j23957327577190_1_alg».proof.Proof.KernelRun1C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At the first point the pieces stored into the first output's block tile it, so they cover it. -/
theorem cover1_A_3 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond1_0 i) (hc1 : ¬cond1_1 i)
    (x0 : Vec F S5000x128 .f32) (x1 : Vec F S5000x1 .f32) (x2 : Vec F S1x128 .f32) (y : S5000x128.Idx) :
    ∃ pc ∈ (kernelRun1_A c i arg1 harg1 arg2 harg2 arg3 harg3 arg4 harg4 arg5 harg5 arg6 harg6 arg7 harg7 arg8 harg8 hc0 hc1 x0 x1 x2).1, y ∈ pc.1.set :=
  View.cover_of_tiledL (kernelRun1_A c i arg1 harg1 arg2 harg2 arg3 harg3 arg4 harg4 arg5 harg5 arg6 harg6 arg7 harg7 arg8 harg8 hc0 hc1 x0 x1 x2).1 S5000x128.size (by sl_kernel_rfl) y

/-- What the first output's block then holds: the pieces read back (over contents that, being covered, do not matter). -/
def out1_A_3 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond1_0 i) (hc1 : ¬cond1_1 i)
    (x0 : Vec F S5000x128 .f32) (x1 : Vec F S5000x1 .f32) (x2 : Vec F S1x128 .f32) : Vec F S5000x128 .f32 :=
  VO1_3.read (Elt F) (VO1_3.writes (Elt F) VO1_3.junk (kernelRun1_A c i arg1 harg1 arg2 harg2 arg3 harg3 arg4 harg4 arg5 harg5 arg6 harg6 arg7 harg7 arg8 harg8 hc0 hc1 x0 x1 x2).1)

/-- At the first point the pieces stored into the first accumulator tile it, so they cover it. -/
theorem cover1_A_s0 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond1_0 i) (hc1 : ¬cond1_1 i)
    (x0 : Vec F S5000x128 .f32) (x1 : Vec F S5000x1 .f32) (x2 : Vec F S1x128 .f32) (y : S1x128.Idx) :
    ∃ pc ∈ (kernelRun1_A c i arg1 harg1 arg2 harg2 arg3 harg3 arg4 harg4 arg5 harg5 arg6 harg6 arg7 harg7 arg8 harg8 hc0 hc1 x0 x1 x2).2.1, y ∈ pc.1.set :=
  View.cover_of_tiledL (kernelRun1_A c i arg1 harg1 arg2 harg2 arg3 harg3 arg4 harg4 arg5 harg5 arg6 harg6 arg7 harg7 arg8 harg8 hc0 hc1 x0 x1 x2).2.1 S1x128.size (by sl_kernel_rfl) y

/-- What the first accumulator then holds: the pieces read back (over contents that, being covered, do not matter). -/
def out1_A_s0 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond1_0 i) (hc1 : ¬cond1_1 i)
    (x0 : Vec F S5000x128 .f32) (x1 : Vec F S5000x1 .f32) (x2 : Vec F S1x128 .f32) : Vec F S1x128 .f32 :=
  VS1_0.read (Elt F) (VS1_0.writes (Elt F) VS1_0.junk (kernelRun1_A c i arg1 harg1 arg2 harg2 arg3 harg3 arg4 harg4 arg5 harg5 arg6 harg6 arg7 harg7 arg8 harg8 hc0 hc1 x0 x1 x2).2.1)

/-- At the first point the pieces stored into the second accumulator tile it, so they cover it. -/
theorem cover1_A_s1 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond1_0 i) (hc1 : ¬cond1_1 i)
    (x0 : Vec F S5000x128 .f32) (x1 : Vec F S5000x1 .f32) (x2 : Vec F S1x128 .f32) (y : S1x128.Idx) :
    ∃ pc ∈ (kernelRun1_A c i arg1 harg1 arg2 harg2 arg3 harg3 arg4 harg4 arg5 harg5 arg6 harg6 arg7 harg7 arg8 harg8 hc0 hc1 x0 x1 x2).2.2.1, y ∈ pc.1.set :=
  View.cover_of_tiledL (kernelRun1_A c i arg1 harg1 arg2 harg2 arg3 harg3 arg4 harg4 arg5 harg5 arg6 harg6 arg7 harg7 arg8 harg8 hc0 hc1 x0 x1 x2).2.2.1 S1x128.size (by sl_kernel_rfl) y

/-- What the second accumulator then holds: the pieces read back (over contents that, being covered, do not matter). -/
def out1_A_s1 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond1_0 i) (hc1 : ¬cond1_1 i)
    (x0 : Vec F S5000x128 .f32) (x1 : Vec F S5000x1 .f32) (x2 : Vec F S1x128 .f32) : Vec F S1x128 .f32 :=
  VS1_1.read (Elt F) (VS1_1.writes (Elt F) VS1_1.junk (kernelRun1_A c i arg1 harg1 arg2 harg2 arg3 harg3 arg4 harg4 arg5 harg5 arg6 harg6 arg7 harg7 arg8 harg8 hc0 hc1 x0 x1 x2).2.2.1)

/-- At a middle point the pieces stored into the first output's block tile it, so they cover it. -/
theorem cover1_B_3 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : ¬cond1_1 i)
    (x0 : Vec F S5000x128 .f32) (x1 : Vec F S5000x1 .f32) (x2 : Vec F S1x128 .f32) (xs0 : Vec F S1x128 .f32) (xs1 : Vec F S1x128 .f32) (y : S5000x128.Idx) :
    ∃ pc ∈ (kernelRun1_B c i arg1 harg1 arg2 harg2 arg3 harg3 arg4 harg4 arg5 harg5 arg6 harg6 arg7 harg7 arg8 harg8 hc0 hc1 x0 x1 x2 xs0 xs1).1, y ∈ pc.1.set :=
  View.cover_of_tiledL (kernelRun1_B c i arg1 harg1 arg2 harg2 arg3 harg3 arg4 harg4 arg5 harg5 arg6 harg6 arg7 harg7 arg8 harg8 hc0 hc1 x0 x1 x2 xs0 xs1).1 S5000x128.size (by sl_kernel_rfl) y

/-- What the first output's block then holds: the pieces read back (over contents that, being covered, do not matter). -/
def out1_B_3 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : ¬cond1_1 i)
    (x0 : Vec F S5000x128 .f32) (x1 : Vec F S5000x1 .f32) (x2 : Vec F S1x128 .f32) (xs0 : Vec F S1x128 .f32) (xs1 : Vec F S1x128 .f32) : Vec F S5000x128 .f32 :=
  VO1_3.read (Elt F) (VO1_3.writes (Elt F) VO1_3.junk (kernelRun1_B c i arg1 harg1 arg2 harg2 arg3 harg3 arg4 harg4 arg5 harg5 arg6 harg6 arg7 harg7 arg8 harg8 hc0 hc1 x0 x1 x2 xs0 xs1).1)

/-- At a middle point the pieces stored into the first accumulator tile it, so they cover it. -/
theorem cover1_B_s0 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : ¬cond1_1 i)
    (x0 : Vec F S5000x128 .f32) (x1 : Vec F S5000x1 .f32) (x2 : Vec F S1x128 .f32) (xs0 : Vec F S1x128 .f32) (xs1 : Vec F S1x128 .f32) (y : S1x128.Idx) :
    ∃ pc ∈ (kernelRun1_B c i arg1 harg1 arg2 harg2 arg3 harg3 arg4 harg4 arg5 harg5 arg6 harg6 arg7 harg7 arg8 harg8 hc0 hc1 x0 x1 x2 xs0 xs1).2.1, y ∈ pc.1.set :=
  View.cover_of_tiledL (kernelRun1_B c i arg1 harg1 arg2 harg2 arg3 harg3 arg4 harg4 arg5 harg5 arg6 harg6 arg7 harg7 arg8 harg8 hc0 hc1 x0 x1 x2 xs0 xs1).2.1 S1x128.size (by sl_kernel_rfl) y

/-- What the first accumulator then holds: the pieces read back (over contents that, being covered, do not matter). -/
def out1_B_s0 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : ¬cond1_1 i)
    (x0 : Vec F S5000x128 .f32) (x1 : Vec F S5000x1 .f32) (x2 : Vec F S1x128 .f32) (xs0 : Vec F S1x128 .f32) (xs1 : Vec F S1x128 .f32) : Vec F S1x128 .f32 :=
  VS1_0.read (Elt F) (VS1_0.writes (Elt F) VS1_0.junk (kernelRun1_B c i arg1 harg1 arg2 harg2 arg3 harg3 arg4 harg4 arg5 harg5 arg6 harg6 arg7 harg7 arg8 harg8 hc0 hc1 x0 x1 x2 xs0 xs1).2.1)

/-- At a middle point the pieces stored into the second accumulator tile it, so they cover it. -/
theorem cover1_B_s1 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : ¬cond1_1 i)
    (x0 : Vec F S5000x128 .f32) (x1 : Vec F S5000x1 .f32) (x2 : Vec F S1x128 .f32) (xs0 : Vec F S1x128 .f32) (xs1 : Vec F S1x128 .f32) (y : S1x128.Idx) :
    ∃ pc ∈ (kernelRun1_B c i arg1 harg1 arg2 harg2 arg3 harg3 arg4 harg4 arg5 harg5 arg6 harg6 arg7 harg7 arg8 harg8 hc0 hc1 x0 x1 x2 xs0 xs1).2.2.1, y ∈ pc.1.set :=
  View.cover_of_tiledL (kernelRun1_B c i arg1 harg1 arg2 harg2 arg3 harg3 arg4 harg4 arg5 harg5 arg6 harg6 arg7 harg7 arg8 harg8 hc0 hc1 x0 x1 x2 xs0 xs1).2.2.1 S1x128.size (by sl_kernel_rfl) y

/-- What the second accumulator then holds: the pieces read back (over contents that, being covered, do not matter). -/
def out1_B_s1 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : ¬cond1_1 i)
    (x0 : Vec F S5000x128 .f32) (x1 : Vec F S5000x1 .f32) (x2 : Vec F S1x128 .f32) (xs0 : Vec F S1x128 .f32) (xs1 : Vec F S1x128 .f32) : Vec F S1x128 .f32 :=
  VS1_1.read (Elt F) (VS1_1.writes (Elt F) VS1_1.junk (kernelRun1_B c i arg1 harg1 arg2 harg2 arg3 harg3 arg4 harg4 arg5 harg5 arg6 harg6 arg7 harg7 arg8 harg8 hc0 hc1 x0 x1 x2 xs0 xs1).2.2.1)

/-- At the last point the pieces stored into the first output's block tile it, so they cover it. -/
theorem cover1_C_3 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i)
    (x0 : Vec F S5000x128 .f32) (x1 : Vec F S5000x1 .f32) (x2 : Vec F S1x128 .f32) (xs0 : Vec F S1x128 .f32) (xs1 : Vec F S1x128 .f32) (y : S5000x128.Idx) :
    ∃ pc ∈ (kernelRun1_C c i arg1 harg1 arg2 harg2 arg3 harg3 arg4 harg4 arg5 harg5 arg6 harg6 arg7 harg7 arg8 harg8 hc0 hc1 x0 x1 x2 xs0 xs1).1, y ∈ pc.1.set :=
  View.cover_of_tiledL (kernelRun1_C c i arg1 harg1 arg2 harg2 arg3 harg3 arg4 harg4 arg5 harg5 arg6 harg6 arg7 harg7 arg8 harg8 hc0 hc1 x0 x1 x2 xs0 xs1).1 S5000x128.size (by sl_kernel_rfl) y

/-- What the first output's block then holds: the pieces read back (over contents that, being covered, do not matter). -/
def out1_C_3 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i)
    (x0 : Vec F S5000x128 .f32) (x1 : Vec F S5000x1 .f32) (x2 : Vec F S1x128 .f32) (xs0 : Vec F S1x128 .f32) (xs1 : Vec F S1x128 .f32) : Vec F S5000x128 .f32 :=
  VO1_3.read (Elt F) (VO1_3.writes (Elt F) VO1_3.junk (kernelRun1_C c i arg1 harg1 arg2 harg2 arg3 harg3 arg4 harg4 arg5 harg5 arg6 harg6 arg7 harg7 arg8 harg8 hc0 hc1 x0 x1 x2 xs0 xs1).1)

/-- At the last point the pieces stored into the second output tile it, so they cover it. -/
theorem cover1_C_4 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i)
    (x0 : Vec F S5000x128 .f32) (x1 : Vec F S5000x1 .f32) (x2 : Vec F S1x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 arg7 harg7 arg8 harg8 hc0 hc1 x0 x1 x2 xs0 xs1).2.1, y ∈ pc.1.set :=
  View.cover_of_tiledL (kernelRun1_C c i arg1 harg1 arg2 harg2 arg3 harg3 arg4 harg4 arg5 harg5 arg6 harg6 arg7 harg7 arg8 harg8 hc0 hc1 x0 x1 x2 xs0 xs1).2.1 S1x128.size (by sl_kernel_rfl) y

/-- What the second output then holds: the pieces read back (over contents that, being covered, do not matter). -/
def out1_C_4 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i)
    (x0 : Vec F S5000x128 .f32) (x1 : Vec F S5000x1 .f32) (x2 : Vec F S1x128 .f32) (xs0 : Vec F S1x128 .f32) (xs1 : Vec F S1x128 .f32) : Vec F S1x128 .f32 :=
  VO1_4.read (Elt F) (VO1_4.writes (Elt F) VO1_4.junk (kernelRun1_C c i arg1 harg1 arg2 harg2 arg3 harg3 arg4 harg4 arg5 harg5 arg6 harg6 arg7 harg7 arg8 harg8 hc0 hc1 x0 x1 x2 xs0 xs1).2.1)

/-- At the last point the pieces stored into the third output tile it, so they cover it. -/
theorem cover1_C_5 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i)
    (x0 : Vec F S5000x128 .f32) (x1 : Vec F S5000x1 .f32) (x2 : Vec F S1x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 arg7 harg7 arg8 harg8 hc0 hc1 x0 x1 x2 xs0 xs1).2.2.1, y ∈ pc.1.set :=
  View.cover_of_tiledL (kernelRun1_C c i arg1 harg1 arg2 harg2 arg3 harg3 arg4 harg4 arg5 harg5 arg6 harg6 arg7 harg7 arg8 harg8 hc0 hc1 x0 x1 x2 xs0 xs1).2.2.1 S1x128.size (by sl_kernel_rfl) y

/-- What the third output then holds: the pieces read back (over contents that, being covered, do not matter). -/
def out1_C_5 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i)
    (x0 : Vec F S5000x128 .f32) (x1 : Vec F S5000x1 .f32) (x2 : Vec F S1x128 .f32) (xs0 : Vec F S1x128 .f32) (xs1 : Vec F S1x128 .f32) : Vec F S1x128 .f32 :=
  VO1_5.read (Elt F) (VO1_5.writes (Elt F) VO1_5.junk (kernelRun1_C c i arg1 harg1 arg2 harg2 arg3 harg3 arg4 harg4 arg5 harg5 arg6 harg6 arg7 harg7 arg8 harg8 hc0 hc1 x0 x1 x2 xs0 xs1).2.2.1)

/-- At the last point the pieces stored into the first accumulator tile it, so they cover it. -/
theorem cover1_C_s0 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i)
    (x0 : Vec F S5000x128 .f32) (x1 : Vec F S5000x1 .f32) (x2 : Vec F S1x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 arg7 harg7 arg8 harg8 hc0 hc1 x0 x1 x2 xs0 xs1).2.2.2.1, y ∈ pc.1.set :=
  View.cover_of_tiledL (kernelRun1_C c i arg1 harg1 arg2 harg2 arg3 harg3 arg4 harg4 arg5 harg5 arg6 harg6 arg7 harg7 arg8 harg8 hc0 hc1 x0 x1 x2 xs0 xs1).2.2.2.1 S1x128.size (by sl_kernel_rfl) y

/-- What the first accumulator then holds: the pieces read back (over contents that, being covered, do not matter). -/
def out1_C_s0 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i)
    (x0 : Vec F S5000x128 .f32) (x1 : Vec F S5000x1 .f32) (x2 : Vec F S1x128 .f32) (xs0 : Vec F S1x128 .f32) (xs1 : Vec F S1x128 .f32) : Vec F S1x128 .f32 :=
  VS1_0.read (Elt F) (VS1_0.writes (Elt F) VS1_0.junk (kernelRun1_C c i arg1 harg1 arg2 harg2 arg3 harg3 arg4 harg4 arg5 harg5 arg6 harg6 arg7 harg7 arg8 harg8 hc0 hc1 x0 x1 x2 xs0 xs1).2.2.2.1)

/-- At the last point the pieces stored into the second accumulator tile it, so they cover it. -/
theorem cover1_C_s1 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i)
    (x0 : Vec F S5000x128 .f32) (x1 : Vec F S5000x1 .f32) (x2 : Vec F S1x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 arg7 harg7 arg8 harg8 hc0 hc1 x0 x1 x2 xs0 xs1).2.2.2.2.1, y ∈ pc.1.set :=
  View.cover_of_tiledL (kernelRun1_C c i arg1 harg1 arg2 harg2 arg3 harg3 arg4 harg4 arg5 harg5 arg6 harg6 arg7 harg7 arg8 harg8 hc0 hc1 x0 x1 x2 xs0 xs1).2.2.2.2.1 S1x128.size (by sl_kernel_rfl) y

/-- What the second accumulator then holds: the pieces read back (over contents that, being covered, do not matter). -/
def out1_C_s1 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i)
    (x0 : Vec F S5000x128 .f32) (x1 : Vec F S5000x1 .f32) (x2 : Vec F S1x128 .f32) (xs0 : Vec F S1x128 .f32) (xs1 : Vec F S1x128 .f32) : Vec F S1x128 .f32 :=
  VS1_1.read (Elt F) (VS1_1.writes (Elt F) VS1_1.junk (kernelRun1_C c i arg1 harg1 arg2 harg2 arg3 harg3 arg4 harg4 arg5 harg5 arg6 harg6 arg7 harg7 arg8 harg8 hc0 hc1 x0 x1 x2 xs0 xs1).2.2.2.2.1)

/-! ## The blocks of the input arrays -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## Point by point -/

/-- What the three outputs' staging buffers and the two accumulators hold after the body at position `n` (in this
    order). Where a late output is not stored into, its component is a placeholder that nothing reads. -/
def outsAt1 (c : Dev nD) : (n : ℕ) → n < cfg1.N → Vec F S5000x128 .f32 × Vec F S1x128 .f32 × Vec F S1x128 .f32 × Vec F S1x128 .f32 × Vec F S1x128 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), VO1_4.read (Elt F) VO1_4.junk, VO1_5.read (Elt F) VO1_5.junk, out1_A_s0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), out1_A_s1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h1 : (n + 1) % 20 = 19 then
      (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2, out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2, out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2, out1_C_s0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2, out1_C_s1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2)
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2, VO1_4.read (Elt F) VO1_4.junk, VO1_5.read (Elt F) VO1_5.junk, out1_B_s0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2, out1_B_s1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2)

/-- At the first point: the first case's contents. -/
theorem outsAt1_A (c : Dev nD) (t : Fin cfg1.N) (h0 : t.val % 20 = 0) (h1 : ¬t.val % 20 = 19) :
    outsAt1 V c t.val t.isLt = (out1_A_3 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t), VO1_4.read (Elt F) VO1_4.junk, VO1_5.read (Elt F) VO1_5.junk, out1_A_s0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t), out1_A_s1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t)) := by
  have hN : t.val < 20 := lt_of_lt_of_eq t.isLt (show cfg1.N = 20 from N_1)
  obtain ⟨n, hn⟩ := t
  cases n with
  | zero => exact rfl
  | succ n => exact (by exfalso; (try dsimp only at h0 hN); omega)

/-- At a middle point: the middle case's contents, over what the point before left in the accumulators. -/
theorem outsAt1_B (c : Dev nD) (t : Fin cfg1.N) (h0 : ¬t.val % 20 = 0) (h1 : ¬t.val % 20 = 19) :
    outsAt1 V c t.val t.isLt = (out1_B_3 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, VO1_4.read (Elt F) VO1_4.junk, VO1_5.read (Elt F) VO1_5.junk, out1_B_s0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_B_s1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h1).trans rfl

/-- At the last point: the last case's contents, over what the point before left in the accumulators. -/
theorem outsAt1_C (c : Dev nD) (t : Fin cfg1.N) (h0 : ¬t.val % 20 = 0) (h1 : t.val % 20 = 19) :
    outsAt1 V c t.val t.isLt = (out1_C_3 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_C_s0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_C_s1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_pos h1).trans rfl

/-! ## The invariant -/

/-- The region's invariant before position `n`: before the first point the generator register at some state beside
    every scoped buffer no window stages, each at any contents; afterwards the same with the two accumulators at
    what the point before left in them. -/
def PhiS1 (c : Dev nD) : (n : ℕ) → n ≤ cfg1.N → sProp 𝕄
  | 0, _ => iprop((∃ r, prngReg c r) ∗ Pipeline.scopedRest (Ix := Unit) (Name := ℕ) (U := UR sig nD τ) (Lvl := ℕ) (Val := Elt F) spec1 c)
  | n + 1, hn => iprop((∃ r, prngReg c r)
      ∗ iprop(owns (c : Thread nD τ) scM1_0 fullShare ((outsAt1 V c n hn).2.2.2.1) ∗ owns (c : Thread nD τ) scM1_1 fullShare ((outsAt1 V c n hn).2.2.2.2))
      ∗ Pipeline.scopedRestBut (Ix := Unit) (Name := ℕ) (U := UR sig nD τ) (Lvl := ℕ) (Val := Elt F) spec1 c [cc1_scratch0, cc1_scratch1])

theorem PhiS1_zero (c : Dev nD) (n : ℕ) (h : n ≤ cfg1.N) (hz : n = 0) :
    PhiS1 V c n h = iprop((∃ r, prngReg c r) ∗ Pipeline.scopedRest (Ix := Unit) (Name := ℕ) (U := UR sig nD τ) (Lvl := ℕ) (Val := Elt F) spec1 c) := by
  subst hz; rfl

theorem PhiS1_succ (c : Dev nD) (n : ℕ) (hn : n < cfg1.N) :
    PhiS1 V c (n + 1) hn = iprop((∃ r, prngReg c r)
      ∗ iprop(owns (c : Thread nD τ) scM1_0 fullShare ((outsAt1 V c n hn).2.2.2.1) ∗ owns (c : Thread nD τ) scM1_1 fullShare ((outsAt1 V c n hn).2.2.2.2))
      ∗ Pipeline.scopedRestBut (Ix := Unit) (Name := ℕ) (U := UR sig nD τ) (Lvl := ℕ) (Val := Elt F) spec1 c [cc1_scratch0, cc1_scratch1]) := rfl

theorem PhiS1_pos (c : Dev nD) (n : ℕ) (h : n ≤ cfg1.N) (hz : n ≠ 0) :
    PhiS1 V c n h = iprop((∃ r, prngReg c r)
      ∗ iprop(owns (c : Thread nD τ) scM1_0 fullShare ((outsAt1 V c (n - 1) (by omega)).2.2.2.1) ∗ owns (c : Thread nD τ) scM1_1 fullShare ((outsAt1 V c (n - 1) (by omega)).2.2.2.2))
      ∗ Pipeline.scopedRestBut (Ix := Unit) (Name := ℕ) (U := UR sig nD τ) (Lvl := ℕ) (Val := Elt F) spec1 c [cc1_scratch0, cc1_scratch1]) := by
  cases n with
  | zero => exact absurd rfl hz
  | succ n => rfl

end Cert.Kernel.Hand

end
-- ==== Proof.KernelBody1.lean ====
/-
  The row-statistics kernel region 1: the proof data of its pipeline and the body's obligation.

  The arrays are at the contents the region finds (a parameter). After the body at a point each input's staging
  buffer holds its block, the first output's the block of h, and the accumulators the running column sums; the two
  late outputs are written at the last point only, from the accumulators. The invariant before a point says what
  the accumulators hold (nothing before the first point). The body's obligation is shown case by case: the point's
  position decides the two branches, the run of that case applies, and what it leaves is what the recursion on the
  point names.
-/
import proofs.«107691_j23957327577190_1_alg».proof.Proof.KernelOuts1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The proof data -/

/-- The proof data of the pipeline on core `c`: the arrays as the region finds them; after the body at point `t`
    each input's buffer at its block and each output's at what the recursion on the point names; the invariant
    the accumulators' contents after the points before; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2.1
    | ⟨5, _⟩ => (outsAt1 V c t.val t.isLt).2.2.1
  Φ t := PhiS1 V c t.val (Nat.le_of_lt_succ t.isLt)
  q _ := fullShare
  owed _ := 0

/-- The arrays of the proof data are the contents the region finds. -/
theorem A_eq1 (c : Dev nD) (w : Fin cfg1.W) : (dat1 V c).A w = V c (Pipeline.arrRef spec1 w) := by
  dsimp only [dat1]

theorem howed1 (c : Dev nD) (t : Fin (cfg1.N + 1)) : (dat1 V c).owed t = 0 := rfl
theorem dat1_q (c : Dev nD) (w : Fin cfg1.W) : (dat1 V c).q w = fullShare := rfl
theorem hrec1 (c : Dev nD) (t : Fin (cfg1.N + 1)) : (dat1 V c).recorded t = Set.univ := rfl

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2.1 := by dsimp only [dat1]
theorem after1_5 (c : Dev nD) (t : Fin cfg1.N) : (dat1 V c).after 5 t = (outsAt1 V c t.val t.isLt).2.2.1 := by dsimp only [dat1]

/-- Each input's current staging buffer holds its block at every point, fetched there or not: unfetched, the block
    index has not moved. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The body's obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' buffers hold their blocks; the point's position decides the two branches;
    the invariant hands the body the accumulators at what the point before left (at anything at the first point)
    and takes them back at this point's contents, the other scoped buffers and the generator register passing
    through unread; before the last point the late outputs are handed back as found; the core owes nothing
    throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 20 := lt_of_lt_of_eq t.isLt (show cfg1.N = 20 from N_1)
  rw [show (dat1 V c).leavesExact 0 t = owns (c : Thread nD τ) (ms1_0 t) fullShare ((dat1 V c).after 0 t) from by
        unfold Dat.leavesExact; rw [liveAt1_0 t], after1_0]
  rw [show (dat1 V c).leavesExact 1 t = owns (c : Thread nD τ) (ms1_1 t) fullShare ((dat1 V c).after 1 t) from by
        unfold Dat.leavesExact; rw [liveAt1_1 t], after1_1]
  rw [show (dat1 V c).leavesExact 2 t = owns (c : Thread nD τ) (ms1_2 t) fullShare ((dat1 V c).after 2 t) from by
        unfold Dat.leavesExact; rw [liveAt1_2 t], after1_2]
  rw [show (dat1 V c).leavesExact 3 t = owns (c : Thread nD τ) (ms1_3 t) fullShare ((dat1 V c).after 3 t) from by
        unfold Dat.leavesExact; rw [liveAt1_3 t], after1_3]
  by_cases h0 : t.val % 20 = 0
  · by_cases h1 : t.val % 20 = 19
    · exfalso; omega
    · rw [Dat.leavesExact_idle (dat1 V c) 4 t (idleAt1_4 t (fun h => h1 ((hcond1_1 t).mp h))) (noFlush1_4 t (fun h => h1 ((hcond1_1 t).mp h)))]
      rw [Dat.leavesExact_idle (dat1 V c) 5 t (idleAt1_5 t (fun h => h1 ((hcond1_1 t).mp h))) (noFlush1_5 t (fun h => h1 ((hcond1_1 t).mp h)))]
      rw [outsAt1_A V c t h0 h1]
      unfold out1_A_3 out1_A_s0 out1_A_s1; (try dsimp only)
      have hz : t.val = 0 := by omega
      rw [PhiS1_castSucc V c t, PhiS1_zero V c _ _ hz, scopedRest1_eq]
      iintro ⟨⟨Hg, ⟨HS0, HS1⟩, Hr⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t)).2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, ⟨%e3, H3⟩, H4, H5, ⟨%es0, HS0⟩, ⟨%es1, HS1⟩⟩
      isplitl [Hg HS0 HS1 Hr]
      · isplitl [Hg]; · iexact Hg
        isplitl [HS0 HS1]
        · isplitl [HS0]
          · (unfold owns; iexists _; isplitr; swap; iexact HS0; ipureintro; exact View.read_writes_of_cover _ _ _ _ _ (cover1_A_s0 c _ _ _ _ _ _ _ _ _ _ _ _ _ _ _ _ _ _ _ _ _ _))
          (unfold owns; iexists _; isplitr; swap; iexact HS1; ipureintro; exact View.read_writes_of_cover _ _ _ _ _ (cover1_A_s1 c _ _ _ _ _ _ _ _ _ _ _ _ _ _ _ _ _ _ _ _ _ _))
        iexact Hr
      isplitl [Ho]; · iexact Ho
      isplitl [H0]; · iexact H0
      isplitl [H1]; · iexact H1
      isplitl [H2]; · iexact H2
      isplitl [H3]
      · (unfold owns; iexists _; isplitr; swap; iexact H3; ipureintro; exact View.read_writes_of_cover _ _ _ _ _ (cover1_A_3 c _ _ _ _ _ _ _ _ _ _ _ _ _ _ _ _ _ _ _ _ _ _))
      isplitl [H4]; · iexists _; iexact H4
      iexists _; iexact H5
  · have hz : t.val ≠ 0 := fun e => h0 (by rw [e])
    by_cases h1 : t.val % 20 = 19
    · rw [show (dat1 V c).leavesExact 4 t = owns (c : Thread nD τ) (ms1_4 t) fullShare ((dat1 V c).after 4 t) from by
        unfold Dat.leavesExact; rw [liveAt1_4 t ((hcond1_1 t).mpr h1)], after1_4]
      rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold out1_C_3 out1_C_4 out1_C_5 out1_C_s0 out1_C_s1; (try dsimp only)
      rw [PhiS1_castSucc V c t, PhiS1_pos V c _ _ hz]
      iintro ⟨⟨Hg, ⟨HS0, HS1⟩, Hr⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) _ _).2.2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      iintro ⟨H0, H1, H2, ⟨%e3, H3⟩, ⟨%e4, H4⟩, ⟨%e5, H5⟩, ⟨%es0, HS0⟩, ⟨%es1, HS1⟩⟩
      isplitl [Hg HS0 HS1 Hr]
      · isplitl [Hg]; · iexact Hg
        isplitl [HS0 HS1]
        · isplitl [HS0]
          · (unfold owns; iexists _; isplitr; swap; iexact HS0; ipureintro; exact View.read_writes_of_cover _ _ _ _ _ (cover1_C_s0 c _ _ _ _ _ _ _ _ _ _ _ _ _ _ _ _ _ _ _ _ _ _ _ _))
          (unfold owns; iexists _; isplitr; swap; iexact HS1; ipureintro; exact View.read_writes_of_cover _ _ _ _ _ (cover1_C_s1 c _ _ _ _ _ _ _ _ _ _ _ _ _ _ _ _ _ _ _ _ _ _ _ _))
        iexact Hr
      isplitl [Ho]; · iexact Ho
      isplitl [H0]; · iexact H0
      isplitl [H1]; · iexact H1
      isplitl [H2]; · iexact H2
      isplitl [H3]
      · (unfold owns; iexists _; isplitr; swap; iexact H3; ipureintro; exact View.read_writes_of_cover _ _ _ _ _ (cover1_C_3 c _ _ _ _ _ _ _ _ _ _ _ _ _ _ _ _ _ _ _ _ _ _ _ _))
      isplitl [H4]
      · (unfold owns; iexists _; isplitr; swap; iexact H4; ipureintro; exact View.read_writes_of_cover _ _ _ _ _ (cover1_C_4 c _ _ _ _ _ _ _ _ _ _ _ _ _ _ _ _ _ _ _ _ _ _ _ _))
      (unfold owns; iexists _; isplitr; swap; iexact H5; ipureintro; exact View.read_writes_of_cover _ _ _ _ _ (cover1_C_5 c _ _ _ _ _ _ _ _ _ _ _ _ _ _ _ _ _ _ _ _ _ _ _ _))
    · rw [Dat.leavesExact_idle (dat1 V c) 4 t (idleAt1_4 t (fun h => h1 ((hcond1_1 t).mp h))) (noFlush1_4 t (fun h => h1 ((hcond1_1 t).mp h)))]
      rw [Dat.leavesExact_idle (dat1 V c) 5 t (idleAt1_5 t (fun h => h1 ((hcond1_1 t).mp h))) (noFlush1_5 t (fun h => h1 ((hcond1_1 t).mp h)))]
      rw [outsAt1_B V c t h0 h1]
      unfold out1_B_3 out1_B_s0 out1_B_s1; (try dsimp only)
      rw [PhiS1_castSucc V c t, PhiS1_pos V c _ _ hz]
      iintro ⟨⟨Hg, ⟨HS0, HS1⟩, Hr⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) _ _).2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, ⟨%e3, H3⟩, H4, H5, ⟨%es0, HS0⟩, ⟨%es1, HS1⟩⟩
      isplitl [Hg HS0 HS1 Hr]
      · isplitl [Hg]; · iexact Hg
        isplitl [HS0 HS1]
        · isplitl [HS0]
          · (unfold owns; iexists _; isplitr; swap; iexact HS0; ipureintro; exact View.read_writes_of_cover _ _ _ _ _ (cover1_B_s0 c _ _ _ _ _ _ _ _ _ _ _ _ _ _ _ _ _ _ _ _ _ _ _ _))
          (unfold owns; iexists _; isplitr; swap; iexact HS1; ipureintro; exact View.read_writes_of_cover _ _ _ _ _ (cover1_B_s1 c _ _ _ _ _ _ _ _ _ _ _ _ _ _ _ _ _ _ _ _ _ _ _ _))
        iexact Hr
      isplitl [Ho]; · iexact Ho
      isplitl [H0]; · iexact H0
      isplitl [H1]; · iexact H1
      isplitl [H2]; · iexact H2
      isplitl [H3]
      · (unfold owns; iexists _; isplitr; swap; iexact H3; ipureintro; exact View.read_writes_of_cover _ _ _ _ _ (cover1_B_3 c _ _ _ _ _ _ _ _ _ _ _ _ _ _ _ _ _ _ _ _ _ _ _ _))
      isplitl [H4]; · iexists _; iexact H4
      iexists _; iexact H5

/-- The body's obligation at every point. -/
theorem body_obligation1 (c : Dev nD) : BodyObligation (dat1 (F := F) V c) (defs₀ (F := F)) Variants.none () Set.univ := fun t => by
  rw [bigSep_W1, bigSep_W1]
  exact sound_body1 V c t

/-! ## The region's two ends -/

/-- What the region is entered with is the invariant before the first point. -/
theorem hin1 (c : Dev nD) :
    iprop((∃ r, prngReg c r) ∗ Pipeline.scopedRest (Ix := Unit) (Name := ℕ) (U := UR sig nD τ) (Lvl := ℕ) (Val := Elt F) spec1 c) ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back: what the accumulators hold is forgotten. -/
theorem hout1 (c : Dev nD) :
    (dat1 V c).Φ (Fin.last cfg1.N) ⊢ iprop((∃ r, prngReg c r) ∗ Pipeline.scopedRest (Ix := Unit) (Name := ℕ) (U := UR sig nD τ) (Lvl := ℕ) (Val := Elt F) spec1 c) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 20 := N_1; omega), scopedRest1_eq]
  iintro ⟨Hg, ⟨HS0, HS1⟩, Hr⟩
  isplitl [Hg]; · iexact Hg
  isplitl [HS0 HS1]
  · isplitl [HS0]; · iexists _; iexact HS0
    iexists _; iexact HS1
  iexact Hr

end Cert.Kernel.Hand

end
-- ==== Proof.KernelBody2.lean ====
import proofs.«107691_j23957327577190_1_alg».proof.Proof.Gen.Kernel.Launch
import proofs.«107691_j23957327577190_1_alg».proof.Proof.Gen.Kernel.Skeleton
import proofs.«107691_j23957327577190_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 2: the body's triple and the proof data

The region's body reads each input window's whole staging block, computes one value from them and stores it over
the whole output block. Stated at the buffer contents `V` found when the region is entered: each window's block at a
grid point, the output block as a function of the input blocks, and the obligation that the body, run at any grid
point on buffers holding the input blocks, leaves exactly that output block and the inputs untouched. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether or not it was fetched there
    (an unfetched window's block index has not moved), for any proof data over the arrays `V` whose body leaves the
    block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether or not it was fetched there
    (an unfetched window's block index has not moved), for any proof data over the arrays `V` whose body leaves the
    block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether or not it was fetched there
    (an unfetched window's block index has not moved), for any proof data over the arrays `V` whose body leaves the
    block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, whether or not it was fetched there
    (an unfetched window's block index has not moved), for any proof data over the arrays `V` whose body leaves the
    block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, whether or not it was fetched there
    (an unfetched window's block index has not moved), for any proof data over the arrays `V` whose body leaves the
    block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole block -/

abbrev r2_0 : Rect S5000x128 := Rect.unit (s := S5000x128) ![0, 0] S5000x128.size inb_S5000x128_S5000x128_0_0
abbrev r2_1 : Rect S1x128 := Rect.unit (s := S1x128) ![0, 0] S1x128.size inb_S1x128_S1x128_0_0

/-! ## What the body leaves in the output window's buffer -/

/-- The output staging buffer after the body, from the input blocks: its one store, over the whole block. -/
def out2_5 (x0 : Vec F S5000x128 .f32) (x1 : Vec F S1x128 .f32) (x2 : Vec F S1x128 .f32) (x3 : Vec F S1x128 .f32) (x4 : Vec F S1x128 .f32) : Vec F S5000x128 .f32 :=
  View.canon [⟨r2_0, k2_pay1 (View.ld x0 r2_0) (View.ld x1 r2_1) (View.ld x2 r2_1) (View.ld x3 r2_1) (View.ld x4 r2_1)⟩]

/-- The one store covers the buffer. -/
theorem cover2_5 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

/-! ## The body's triple -/

set_option maxHeartbeats 1000000 in
/-- The body on whole staging buffers, the inputs' holding `xW` and the output's anything, runs to the continuation
    with the inputs' unchanged and the output's holding `out2_5` of the inputs. -/
theorem sound_kernel2 (c : Dev nD) (E : Set ℕ) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__bn_relu_kernel i arg1 harg1 arg2 harg2 arg3 harg3 arg4 harg4 arg5 harg5 arg6 harg6) K := by
  simp only [cc2__bn_relu_kernel_eq_skeleton]; unfold cc2__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The region's proof data -/

/-- The proof data of the region on core `c`: the arrays as the region finds them; after the body at point `t` each
    input's buffer at its block and the output's at `out2_5` of the input blocks; the invariant is the rest of the
    memory, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KernelBody3.lean ====
import proofs.«107691_j23957327577190_1_alg».proof.Proof.Gen.Kernel.Launch
import proofs.«107691_j23957327577190_1_alg».proof.Proof.Gen.Kernel.Skeleton
import proofs.«107691_j23957327577190_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 3: the body's triple and the proof data

The region's body reads each input window's whole staging block, computes one value from them and stores it over
the whole output block. Stated at the buffer contents `V` found when the region is entered: each window's block at a
grid point, the output block as a function of the input blocks, and the obligation that the body, run at any grid
point on buffers holding the input blocks, leaves exactly that output block and the inputs untouched. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether or not it was fetched there
    (an unfetched window's block index has not moved), for any proof data over the arrays `V` whose body leaves the
    block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, whether or not it was fetched there
    (an unfetched window's block index has not moved), for any proof data over the arrays `V` whose body leaves the
    block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, whether or not it was fetched there
    (an unfetched window's block index has not moved), for any proof data over the arrays `V` whose body leaves the
    block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each is the whole block -/

abbrev r3_0 : Rect S5000x128 := Rect.unit (s := S5000x128) ![0, 0] S5000x128.size inb_S5000x128_S5000x128_0_0
abbrev r3_1 : Rect S128x128 := Rect.unit (s := S128x128) ![0, 0] S128x128.size inb_S128x128_S128x128_0_0
abbrev r3_2 : Rect S5000x1 := Rect.unit (s := S5000x1) ![0, 0] S5000x1.size inb_S5000x1_S5000x1_0_0

/-! ## What the body leaves in the output window's buffer -/

/-- The output staging buffer after the body, from the input blocks: its one store, over the whole block. -/
def out3_3 (x0 : Vec F S5000x128 .f32) (x1 : Vec F S128x128 .f32) (x2 : Vec F S5000x1 .f32) : Vec F S5000x128 .f32 :=
  View.canon [⟨r3_0, k3_pay1 (View.ld x0 r3_0) (View.ld x1 r3_1) (View.ld x2 r3_2)⟩]

/-- The one store covers the buffer. -/
theorem cover3_3 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

/-! ## The body's triple -/

set_option maxHeartbeats 1000000 in
/-- The body on whole staging buffers, the inputs' holding `xW` and the output's anything, runs to the continuation
    with the inputs' unchanged and the output's holding `out3_3` of the inputs. -/
theorem sound_kernel3 (c : Dev nD) (E : Set ℕ) (i : grid3.Coords) (arg1 : Memref sig .tc .vmem S5000x128 .f32) (harg1 : arg1.IsWhole) (arg2 : Memref sig .tc .vmem S128x128 .f32) (harg2 : arg2.IsWhole) (arg3 : Memref sig .tc .vmem S5000x1 .f32) (harg3 : arg3.IsWhole) (arg4 : Memref sig .tc .vmem S5000x128 .f32) (harg4 : arg4.IsWhole)
    (x0 : Vec F S5000x128 .f32) (x1 : Vec F S128x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__matmul_scale_kernel i arg1 harg1 arg2 harg2 arg3 harg3 arg4 harg4) K := by
  simp only [cc3__matmul_scale_kernel_eq_skeleton]; unfold cc3__matmul_scale_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The region's proof data -/

/-- The proof data of the region on core `c`: the arrays as the region finds them; after the body at point `t` each
    input's buffer at its block and the output's at `out3_3` of the input blocks; the invariant is the rest of the
    memory, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the body's triple applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KernelRuns4.lean ====
/-
  The row-statistics kernel region 4: what its three control cases share.

  At grid point t the body forms h = x·s + b on a block of 5000 rows, stores it to the first output's block,
  clears two row accumulators if t is the first point, adds to them the column sums of h and of h·h, and, if t
  is the last point, copies the accumulators to the second and third outputs. Stated here: the two branch
  conditions as propositions in the grid coordinates, with the points at which they hold; the points at which the
  two late outputs are left untouched and are not written back; the buffers the body is called with; and the part
  of the thread's scoped buffers that the body uses (the two accumulators), split off the rest.
-/
import proofs.«107691_j23957327577190_1_alg».proof.Proof.Gen.Kernel.Launch
import proofs.«107691_j23957327577190_1_alg».proof.Proof.Gen.Kernel.Skeleton
import proofs.«107691_j23957327577190_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- The first branch is taken when the grid coordinate is zero. -/
abbrev cond4_0 (i : grid4.Coords) : Prop := (Scalar.cmpi .ne (Scalar.extui (Scalar.cmpi .eq (BitVec.ofNat 32 (i 0).val) 0#32)) 0#32) = 1#1
/-- Among the twenty points that is the first one. -/
theorem hcond4_0 : ∀ t : Fin cfg4.N, cond4_0 (grid4.coords t) ↔ t.val % 20 = 0 :=
  (by decide +kernel : ∀ t : Fin grid4.N, cond4_0 (grid4.coords t) ↔ t.val % 20 = 0)

/-- The second branch is taken when the grid coordinate is nineteen. -/
abbrev cond4_1 (i : grid4.Coords) : Prop := k4_cond2 i = 1#1
/-- Among the twenty points that is the last one. -/
theorem hcond4_1 : ∀ t : Fin cfg4.N, cond4_1 (grid4.coords t) ↔ t.val % 20 = 19 :=
  (by decide +kernel : ∀ t : Fin grid4.N, cond4_1 (grid4.coords t) ↔ t.val % 20 = 19)

/-! ## Where the windows are touched -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
/-- Before the last point the two late outputs are not stored into, -/
theorem idleAt4_4 : ∀ t : Fin cfg4.N, ¬cond4_1 (grid4.coords t) → cfg4.idle 4 (grid4.coords t) = true := by decide +kernel
theorem idleAt4_5 : ∀ t : Fin cfg4.N, ¬cond4_1 (grid4.coords t) → cfg4.idle 5 (grid4.coords t) = true := by decide +kernel
/-- and are not written back; -/
theorem noFlush4_4 : ∀ t : Fin cfg4.N, ¬cond4_1 (grid4.coords t) → (cfg4.win 4).flush t = false := by decide +kernel
theorem noFlush4_5 : ∀ t : Fin cfg4.N, ¬cond4_1 (grid4.coords t) → (cfg4.win 5).flush t = false := by decide +kernel
/-- at the last point they are stored into. -/
theorem liveAt4_4 : ∀ t : Fin cfg4.N, cond4_1 (grid4.coords t) → cfg4.idle 4 (grid4.coords t) = false := by decide +kernel
theorem liveAt4_5 : ∀ t : Fin cfg4.N, cond4_1 (grid4.coords t) → cfg4.idle 5 (grid4.coords t) = false := by decide +kernel

/-! ## The buffers the body is called with -/

/-- One staging buffer of each output, through which contents are stated (for a whole buffer the choice does not
    matter). -/
abbrev VO4_3 : View sig .tc .vmem S5000x128 .f32 := (Memref.whole cc4_stg3_0 : Memref sig .tc .vmem S5000x128 .f32).view
abbrev VO4_4 : View sig .tc .vmem S1x128 .f32 := (Memref.whole cc4_stg4_0 : Memref sig .tc .vmem S1x128 .f32).view
abbrev VO4_5 : View sig .tc .vmem S1x128 .f32 := (Memref.whole cc4_stg5_0 : Memref sig .tc .vmem S1x128 .f32).view
/-- Each window's current staging buffer at point `t`, and its wholeness. -/
abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x1 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S5000x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x128 .f32 := win4_5.stage (cfg4.slots t 5)
abbrev hs4_5 (t : Fin cfg4.N) : (ms4_5 t).IsWhole := hstage4_5 ((cfg4.slots t 5).cast nbuf4_5)
/-- The two row accumulators: whole scoped buffers passed beside the windows, -/
abbrev scM4_0 : Memref sig .tc .vmem S1x128 .f32 := Memref.whole cc4_scratch0
abbrev scM4_1 : Memref sig .tc .vmem S1x128 .f32 := Memref.whole cc4_scratch1
/-- and as views, through which their contents are stated. -/
abbrev VS4_0 : View sig .tc .vmem S1x128 .f32 := scM4_0.view
abbrev VS4_1 : View sig .tc .vmem S1x128 .f32 := scM4_1.view

/-- The scoped buffers no window stages, with the two accumulators named as owned buffers at some contents and the
    others left together. -/
theorem scopedRest4_eq (c : Dev nD) :
    (Pipeline.scopedRest (Ix := Unit) (Name := ℕ) (U := UR sig nD τ) (Lvl := ℕ) (Val := Elt F) spec4 c : sProp 𝕄)
      = iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) := by
  rw [scopedRest4_split]; simp only [scM4_0, scM4_1, owns_whole]; try rfl

end Cert.Kernel.Hand

end
-- ==== Proof.KernelRun4A.lean ====
/-
  The row-statistics kernel region 4, first grid point: the body on arbitrary whole buffers.

  At the first point the accumulators are cleared before the column sums are added, so what they held before does
  not matter; the two late outputs are not touched. The run below executes the body's memory operations one by one
  and records, per buffer stored into, the list of pieces written (last first).
-/
import proofs.«107691_j23957327577190_1_alg».proof.Proof.KernelRuns4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first point, on whole buffers: the three inputs at their contents, the first output and the two
    accumulators at anything, the two late outputs at contents that are handed back untouched. It runs to a
    continuation that holds the inputs as they were, the late outputs as they were, and the first output and each
    accumulator with the recorded pieces written. -/
noncomputable def kernelRun4_A (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (x0 : Vec F S5000x128 .f32) (x1 : Vec F S5000x1 .f32) (x2 : Vec F S1x128 .f32) :
    Σ' (L3 : List (View.Piece (Elt F) S5000x128 .f32)) (LS0 : List (View.Piece (Elt F) S1x128 .f32)), { LS1 : List (View.Piece (Elt F) S1x128 .f32) //
      ∀ (xi4 : Vec F S1x128 .f32) (xi5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xi4 ∗ owns (c : Thread nD τ) arg6 fullShare xi5
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ owns (c : Thread nD τ) arg5 fullShare xi4 ∗ owns (c : Thread nD τ) arg6 fullShare xi5
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc4__bias_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc4__bias_stats_kernel_eq_skeleton]; unfold cc4__bias_stats_kernel_skel
    simp only [k4_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2
    obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.Kernel.Hand

end
-- ==== Proof.KernelRun4B.lean ====
/-
  The row-statistics kernel region 4, a grid point that is neither the first nor the last: the body on arbitrary
  whole buffers.

  Here the accumulators are read at what the point before left in them and the column sums are added; the two late
  outputs are not touched.
-/
import proofs.«107691_j23957327577190_1_alg».proof.Proof.KernelRun4A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a middle point, on whole buffers: the three inputs at their contents, the first output at
    anything, the two accumulators at the carried contents, the two late outputs at contents that are handed back
    untouched. It runs to a continuation that holds the inputs and the late outputs as they were, and the first
    output and each accumulator with the recorded pieces written. -/
noncomputable def kernelRun4_B (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (x0 : Vec F S5000x128 .f32) (x1 : Vec F S5000x1 .f32) (x2 : Vec F S1x128 .f32) (xs0 : Vec F S1x128 .f32) (xs1 : Vec F S1x128 .f32) :
    Σ' (L3 : List (View.Piece (Elt F) S5000x128 .f32)) (LS0 : List (View.Piece (Elt F) S1x128 .f32)), { LS1 : List (View.Piece (Elt F) S1x128 .f32) //
      ∀ (xi4 : Vec F S1x128 .f32) (xi5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xi4 ∗ owns (c : Thread nD τ) arg6 fullShare xi5
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ owns (c : Thread nD τ) arg5 fullShare xi4 ∗ owns (c : Thread nD τ) arg6 fullShare xi5
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc4__bias_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc4__bias_stats_kernel_eq_skeleton]; unfold cc4__bias_stats_kernel_skel
    simp only [k4_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg5.eq_unread hf4; obtain rfl := harg6.eq_unread hf5
    obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.Kernel.Hand

end
-- ==== Proof.KernelRun4C.lean ====
/-
  The row-statistics kernel region 4, last grid point: the body on arbitrary whole buffers.

  Here the accumulators are read at what the point before left in them, the column sums are added, and the
  accumulators are then copied to the two late outputs.
-/
import proofs.«107691_j23957327577190_1_alg».proof.Proof.KernelRun4B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the last point, on whole buffers: the three inputs at their contents, the three outputs at
    anything, the two accumulators at the carried contents. It runs to a continuation that holds the inputs as they
    were and each output and each accumulator with the recorded pieces written. -/
noncomputable def kernelRun4_C (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S5000x1 .f32) (x2 : Vec F S1x128 .f32) (xs0 : Vec F S1x128 .f32) (xs1 : Vec F S1x128 .f32) :
    Σ' (L3 : List (View.Piece (Elt F) S5000x128 .f32)) (L4 : List (View.Piece (Elt F) S1x128 .f32)) (L5 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc4__bias_stats_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc4__bias_stats_kernel_eq_skeleton]; unfold cc4__bias_stats_kernel_skel
    simp only [k4_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [HS0]; · iexists _; iexact HS0
    iexists _; iexact HS1

end Cert.Kernel.Hand

end
-- ==== Proof.KernelOuts4.lean ====
/-
  The row-statistics kernel region 4: what the buffers hold after each grid point.

  Per control case, the pieces the body's run recorded for a buffer cover it, so what the buffer holds afterwards is
  the pieces read back. Point by point: after the first point the accumulators hold the first block's column sums;
  after each later point, what the point before left plus that point's column sums; after the last point the two
  late outputs hold the accumulators. This is a recursion on the point, each step using what the step before left in
  the accumulators.
-/
import proofs.«107691_j23957327577190_1_alg».proof.Proof.KernelRun4C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At the first point the pieces stored into the first output's block tile it, so they cover it. -/
theorem cover4_A_3 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (x0 : Vec F S5000x128 .f32) (x1 : Vec F S5000x1 .f32) (x2 : Vec F S1x128 .f32) (y : S5000x128.Idx) :
    ∃ pc ∈ (kernelRun4_A c i arg1 harg1 arg2 harg2 arg3 harg3 arg4 harg4 arg5 harg5 arg6 harg6 arg7 harg7 arg8 harg8 hc0 hc1 x0 x1 x2).1, y ∈ pc.1.set :=
  View.cover_of_tiledL (kernelRun4_A c i arg1 harg1 arg2 harg2 arg3 harg3 arg4 harg4 arg5 harg5 arg6 harg6 arg7 harg7 arg8 harg8 hc0 hc1 x0 x1 x2).1 S5000x128.size (by sl_kernel_rfl) y

/-- What the first output's block then holds: the pieces read back (over contents that, being covered, do not matter). -/
def out4_A_3 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (x0 : Vec F S5000x128 .f32) (x1 : Vec F S5000x1 .f32) (x2 : Vec F S1x128 .f32) : Vec F S5000x128 .f32 :=
  VO4_3.read (Elt F) (VO4_3.writes (Elt F) VO4_3.junk (kernelRun4_A c i arg1 harg1 arg2 harg2 arg3 harg3 arg4 harg4 arg5 harg5 arg6 harg6 arg7 harg7 arg8 harg8 hc0 hc1 x0 x1 x2).1)

/-- At the first point the pieces stored into the first accumulator tile it, so they cover it. -/
theorem cover4_A_s0 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (x0 : Vec F S5000x128 .f32) (x1 : Vec F S5000x1 .f32) (x2 : Vec F S1x128 .f32) (y : S1x128.Idx) :
    ∃ pc ∈ (kernelRun4_A c i arg1 harg1 arg2 harg2 arg3 harg3 arg4 harg4 arg5 harg5 arg6 harg6 arg7 harg7 arg8 harg8 hc0 hc1 x0 x1 x2).2.1, y ∈ pc.1.set :=
  View.cover_of_tiledL (kernelRun4_A c i arg1 harg1 arg2 harg2 arg3 harg3 arg4 harg4 arg5 harg5 arg6 harg6 arg7 harg7 arg8 harg8 hc0 hc1 x0 x1 x2).2.1 S1x128.size (by sl_kernel_rfl) y

/-- What the first accumulator then holds: the pieces read back (over contents that, being covered, do not matter). -/
def out4_A_s0 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (x0 : Vec F S5000x128 .f32) (x1 : Vec F S5000x1 .f32) (x2 : Vec F S1x128 .f32) : Vec F S1x128 .f32 :=
  VS4_0.read (Elt F) (VS4_0.writes (Elt F) VS4_0.junk (kernelRun4_A c i arg1 harg1 arg2 harg2 arg3 harg3 arg4 harg4 arg5 harg5 arg6 harg6 arg7 harg7 arg8 harg8 hc0 hc1 x0 x1 x2).2.1)

/-- At the first point the pieces stored into the second accumulator tile it, so they cover it. -/
theorem cover4_A_s1 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (x0 : Vec F S5000x128 .f32) (x1 : Vec F S5000x1 .f32) (x2 : Vec F S1x128 .f32) (y : S1x128.Idx) :
    ∃ pc ∈ (kernelRun4_A c i arg1 harg1 arg2 harg2 arg3 harg3 arg4 harg4 arg5 harg5 arg6 harg6 arg7 harg7 arg8 harg8 hc0 hc1 x0 x1 x2).2.2.1, y ∈ pc.1.set :=
  View.cover_of_tiledL (kernelRun4_A c i arg1 harg1 arg2 harg2 arg3 harg3 arg4 harg4 arg5 harg5 arg6 harg6 arg7 harg7 arg8 harg8 hc0 hc1 x0 x1 x2).2.2.1 S1x128.size (by sl_kernel_rfl) y

/-- What the second accumulator then holds: the pieces read back (over contents that, being covered, do not matter). -/
def out4_A_s1 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (x0 : Vec F S5000x128 .f32) (x1 : Vec F S5000x1 .f32) (x2 : Vec F S1x128 .f32) : Vec F S1x128 .f32 :=
  VS4_1.read (Elt F) (VS4_1.writes (Elt F) VS4_1.junk (kernelRun4_A c i arg1 harg1 arg2 harg2 arg3 harg3 arg4 harg4 arg5 harg5 arg6 harg6 arg7 harg7 arg8 harg8 hc0 hc1 x0 x1 x2).2.2.1)

/-- At a middle point the pieces stored into the first output's block tile it, so they cover it. -/
theorem cover4_B_3 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (x0 : Vec F S5000x128 .f32) (x1 : Vec F S5000x1 .f32) (x2 : Vec F S1x128 .f32) (xs0 : Vec F S1x128 .f32) (xs1 : Vec F S1x128 .f32) (y : S5000x128.Idx) :
    ∃ pc ∈ (kernelRun4_B c i arg1 harg1 arg2 harg2 arg3 harg3 arg4 harg4 arg5 harg5 arg6 harg6 arg7 harg7 arg8 harg8 hc0 hc1 x0 x1 x2 xs0 xs1).1, y ∈ pc.1.set :=
  View.cover_of_tiledL (kernelRun4_B c i arg1 harg1 arg2 harg2 arg3 harg3 arg4 harg4 arg5 harg5 arg6 harg6 arg7 harg7 arg8 harg8 hc0 hc1 x0 x1 x2 xs0 xs1).1 S5000x128.size (by sl_kernel_rfl) y

/-- What the first output's block then holds: the pieces read back (over contents that, being covered, do not matter). -/
def out4_B_3 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (x0 : Vec F S5000x128 .f32) (x1 : Vec F S5000x1 .f32) (x2 : Vec F S1x128 .f32) (xs0 : Vec F S1x128 .f32) (xs1 : Vec F S1x128 .f32) : Vec F S5000x128 .f32 :=
  VO4_3.read (Elt F) (VO4_3.writes (Elt F) VO4_3.junk (kernelRun4_B c i arg1 harg1 arg2 harg2 arg3 harg3 arg4 harg4 arg5 harg5 arg6 harg6 arg7 harg7 arg8 harg8 hc0 hc1 x0 x1 x2 xs0 xs1).1)

/-- At a middle point the pieces stored into the first accumulator tile it, so they cover it. -/
theorem cover4_B_s0 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (x0 : Vec F S5000x128 .f32) (x1 : Vec F S5000x1 .f32) (x2 : Vec F S1x128 .f32) (xs0 : Vec F S1x128 .f32) (xs1 : Vec F S1x128 .f32) (y : S1x128.Idx) :
    ∃ pc ∈ (kernelRun4_B c i arg1 harg1 arg2 harg2 arg3 harg3 arg4 harg4 arg5 harg5 arg6 harg6 arg7 harg7 arg8 harg8 hc0 hc1 x0 x1 x2 xs0 xs1).2.1, y ∈ pc.1.set :=
  View.cover_of_tiledL (kernelRun4_B c i arg1 harg1 arg2 harg2 arg3 harg3 arg4 harg4 arg5 harg5 arg6 harg6 arg7 harg7 arg8 harg8 hc0 hc1 x0 x1 x2 xs0 xs1).2.1 S1x128.size (by sl_kernel_rfl) y

/-- What the first accumulator then holds: the pieces read back (over contents that, being covered, do not matter). -/
def out4_B_s0 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (x0 : Vec F S5000x128 .f32) (x1 : Vec F S5000x1 .f32) (x2 : Vec F S1x128 .f32) (xs0 : Vec F S1x128 .f32) (xs1 : Vec F S1x128 .f32) : Vec F S1x128 .f32 :=
  VS4_0.read (Elt F) (VS4_0.writes (Elt F) VS4_0.junk (kernelRun4_B c i arg1 harg1 arg2 harg2 arg3 harg3 arg4 harg4 arg5 harg5 arg6 harg6 arg7 harg7 arg8 harg8 hc0 hc1 x0 x1 x2 xs0 xs1).2.1)

/-- At a middle point the pieces stored into the second accumulator tile it, so they cover it. -/
theorem cover4_B_s1 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (x0 : Vec F S5000x128 .f32) (x1 : Vec F S5000x1 .f32) (x2 : Vec F S1x128 .f32) (xs0 : Vec F S1x128 .f32) (xs1 : Vec F S1x128 .f32) (y : S1x128.Idx) :
    ∃ pc ∈ (kernelRun4_B c i arg1 harg1 arg2 harg2 arg3 harg3 arg4 harg4 arg5 harg5 arg6 harg6 arg7 harg7 arg8 harg8 hc0 hc1 x0 x1 x2 xs0 xs1).2.2.1, y ∈ pc.1.set :=
  View.cover_of_tiledL (kernelRun4_B c i arg1 harg1 arg2 harg2 arg3 harg3 arg4 harg4 arg5 harg5 arg6 harg6 arg7 harg7 arg8 harg8 hc0 hc1 x0 x1 x2 xs0 xs1).2.2.1 S1x128.size (by sl_kernel_rfl) y

/-- What the second accumulator then holds: the pieces read back (over contents that, being covered, do not matter). -/
def out4_B_s1 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (x0 : Vec F S5000x128 .f32) (x1 : Vec F S5000x1 .f32) (x2 : Vec F S1x128 .f32) (xs0 : Vec F S1x128 .f32) (xs1 : Vec F S1x128 .f32) : Vec F S1x128 .f32 :=
  VS4_1.read (Elt F) (VS4_1.writes (Elt F) VS4_1.junk (kernelRun4_B c i arg1 harg1 arg2 harg2 arg3 harg3 arg4 harg4 arg5 harg5 arg6 harg6 arg7 harg7 arg8 harg8 hc0 hc1 x0 x1 x2 xs0 xs1).2.2.1)

/-- At the last point the pieces stored into the first output's block tile it, so they cover it. -/
theorem cover4_C_3 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S5000x1 .f32) (x2 : Vec F S1x128 .f32) (xs0 : Vec F S1x128 .f32) (xs1 : Vec F S1x128 .f32) (y : S5000x128.Idx) :
    ∃ pc ∈ (kernelRun4_C c i arg1 harg1 arg2 harg2 arg3 harg3 arg4 harg4 arg5 harg5 arg6 harg6 arg7 harg7 arg8 harg8 hc0 hc1 x0 x1 x2 xs0 xs1).1, y ∈ pc.1.set :=
  View.cover_of_tiledL (kernelRun4_C c i arg1 harg1 arg2 harg2 arg3 harg3 arg4 harg4 arg5 harg5 arg6 harg6 arg7 harg7 arg8 harg8 hc0 hc1 x0 x1 x2 xs0 xs1).1 S5000x128.size (by sl_kernel_rfl) y

/-- What the first output's block then holds: the pieces read back (over contents that, being covered, do not matter). -/
def out4_C_3 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S5000x1 .f32) (x2 : Vec F S1x128 .f32) (xs0 : Vec F S1x128 .f32) (xs1 : Vec F S1x128 .f32) : Vec F S5000x128 .f32 :=
  VO4_3.read (Elt F) (VO4_3.writes (Elt F) VO4_3.junk (kernelRun4_C c i arg1 harg1 arg2 harg2 arg3 harg3 arg4 harg4 arg5 harg5 arg6 harg6 arg7 harg7 arg8 harg8 hc0 hc1 x0 x1 x2 xs0 xs1).1)

/-- At the last point the pieces stored into the second output tile it, so they cover it. -/
theorem cover4_C_4 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S5000x1 .f32) (x2 : Vec F S1x128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 hc0 hc1 x0 x1 x2 xs0 xs1).2.1, y ∈ pc.1.set :=
  View.cover_of_tiledL (kernelRun4_C c i arg1 harg1 arg2 harg2 arg3 harg3 arg4 harg4 arg5 harg5 arg6 harg6 arg7 harg7 arg8 harg8 hc0 hc1 x0 x1 x2 xs0 xs1).2.1 S1x128.size (by sl_kernel_rfl) y

/-- What the second output then holds: the pieces read back (over contents that, being covered, do not matter). -/
def out4_C_4 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S5000x1 .f32) (x2 : Vec F S1x128 .f32) (xs0 : Vec F S1x128 .f32) (xs1 : Vec F S1x128 .f32) : Vec F S1x128 .f32 :=
  VO4_4.read (Elt F) (VO4_4.writes (Elt F) VO4_4.junk (kernelRun4_C c i arg1 harg1 arg2 harg2 arg3 harg3 arg4 harg4 arg5 harg5 arg6 harg6 arg7 harg7 arg8 harg8 hc0 hc1 x0 x1 x2 xs0 xs1).2.1)

/-- At the last point the pieces stored into the third output tile it, so they cover it. -/
theorem cover4_C_5 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S5000x1 .f32) (x2 : Vec F S1x128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 hc0 hc1 x0 x1 x2 xs0 xs1).2.2.1, y ∈ pc.1.set :=
  View.cover_of_tiledL (kernelRun4_C c i arg1 harg1 arg2 harg2 arg3 harg3 arg4 harg4 arg5 harg5 arg6 harg6 arg7 harg7 arg8 harg8 hc0 hc1 x0 x1 x2 xs0 xs1).2.2.1 S1x128.size (by sl_kernel_rfl) y

/-- What the third output then holds: the pieces read back (over contents that, being covered, do not matter). -/
def out4_C_5 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S5000x1 .f32) (x2 : Vec F S1x128 .f32) (xs0 : Vec F S1x128 .f32) (xs1 : Vec F S1x128 .f32) : Vec F S1x128 .f32 :=
  VO4_5.read (Elt F) (VO4_5.writes (Elt F) VO4_5.junk (kernelRun4_C c i arg1 harg1 arg2 harg2 arg3 harg3 arg4 harg4 arg5 harg5 arg6 harg6 arg7 harg7 arg8 harg8 hc0 hc1 x0 x1 x2 xs0 xs1).2.2.1)

/-- At the last point the pieces stored into the first accumulator tile it, so they cover it. -/
theorem cover4_C_s0 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S5000x1 .f32) (x2 : Vec F S1x128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 hc0 hc1 x0 x1 x2 xs0 xs1).2.2.2.1, y ∈ pc.1.set :=
  View.cover_of_tiledL (kernelRun4_C c i arg1 harg1 arg2 harg2 arg3 harg3 arg4 harg4 arg5 harg5 arg6 harg6 arg7 harg7 arg8 harg8 hc0 hc1 x0 x1 x2 xs0 xs1).2.2.2.1 S1x128.size (by sl_kernel_rfl) y

/-- What the first accumulator then holds: the pieces read back (over contents that, being covered, do not matter). -/
def out4_C_s0 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S5000x1 .f32) (x2 : Vec F S1x128 .f32) (xs0 : Vec F S1x128 .f32) (xs1 : Vec F S1x128 .f32) : Vec F S1x128 .f32 :=
  VS4_0.read (Elt F) (VS4_0.writes (Elt F) VS4_0.junk (kernelRun4_C c i arg1 harg1 arg2 harg2 arg3 harg3 arg4 harg4 arg5 harg5 arg6 harg6 arg7 harg7 arg8 harg8 hc0 hc1 x0 x1 x2 xs0 xs1).2.2.2.1)

/-- At the last point the pieces stored into the second accumulator tile it, so they cover it. -/
theorem cover4_C_s1 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S5000x1 .f32) (x2 : Vec F S1x128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 hc0 hc1 x0 x1 x2 xs0 xs1).2.2.2.2.1, y ∈ pc.1.set :=
  View.cover_of_tiledL (kernelRun4_C c i arg1 harg1 arg2 harg2 arg3 harg3 arg4 harg4 arg5 harg5 arg6 harg6 arg7 harg7 arg8 harg8 hc0 hc1 x0 x1 x2 xs0 xs1).2.2.2.2.1 S1x128.size (by sl_kernel_rfl) y

/-- What the second accumulator then holds: the pieces read back (over contents that, being covered, do not matter). -/
def out4_C_s1 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S5000x1 .f32) (x2 : Vec F S1x128 .f32) (xs0 : Vec F S1x128 .f32) (xs1 : Vec F S1x128 .f32) : Vec F S1x128 .f32 :=
  VS4_1.read (Elt F) (VS4_1.writes (Elt F) VS4_1.junk (kernelRun4_C c i arg1 harg1 arg2 harg2 arg3 harg3 arg4 harg4 arg5 harg5 arg6 harg6 arg7 harg7 arg8 harg8 hc0 hc1 x0 x1 x2 xs0 xs1).2.2.2.2.1)

/-! ## The blocks of the input arrays -/

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## Point by point -/

/-- What the three outputs' staging buffers and the two accumulators hold after the body at position `n` (in this
    order). Where a late output is not stored into, its component is a placeholder that nothing reads. -/
def outsAt4 (c : Dev nD) : (n : ℕ) → n < cfg4.N → Vec F S5000x128 .f32 × Vec F S1x128 .f32 × Vec F S1x128 .f32 × Vec F S1x128 .f32 × Vec F S1x128 .f32
  | 0, hn => (out4_A_3 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩), VO4_4.read (Elt F) VO4_4.junk, VO4_5.read (Elt F) VO4_5.junk, out4_A_s0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩), out4_A_s1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩))
  | n + 1, hn =>
    if h1 : (n + 1) % 20 = 19 then
      (out4_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => (fun h => by have hN : n + 1 < 20 := lt_of_lt_of_eq hn (show cfg4.N = 20 from N_4); (try dsimp only at h); omega) ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2.2.1 (outsAt4 c n (Nat.lt_of_succ_lt hn)).2.2.2.2, out4_C_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => (fun h => by have hN : n + 1 < 20 := lt_of_lt_of_eq hn (show cfg4.N = 20 from N_4); (try dsimp only at h); omega) ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2.2.1 (outsAt4 c n (Nat.lt_of_succ_lt hn)).2.2.2.2, out4_C_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => (fun h => by have hN : n + 1 < 20 := lt_of_lt_of_eq hn (show cfg4.N = 20 from N_4); (try dsimp only at h); omega) ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2.2.1 (outsAt4 c n (Nat.lt_of_succ_lt hn)).2.2.2.2, out4_C_s0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => (fun h => by have hN : n + 1 < 20 := lt_of_lt_of_eq hn (show cfg4.N = 20 from N_4); (try dsimp only at h); omega) ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2.2.1 (outsAt4 c n (Nat.lt_of_succ_lt hn)).2.2.2.2, out4_C_s1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => (fun h => by have hN : n + 1 < 20 := lt_of_lt_of_eq hn (show cfg4.N = 20 from N_4); (try dsimp only at h); omega) ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2.2.1 (outsAt4 c n (Nat.lt_of_succ_lt hn)).2.2.2.2)
    else
      (out4_B_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => (fun h => by have hN : n + 1 < 20 := lt_of_lt_of_eq hn (show cfg4.N = 20 from N_4); (try dsimp only at h); omega) ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.2.2.1 (outsAt4 c n (Nat.lt_of_succ_lt hn)).2.2.2.2, VO4_4.read (Elt F) VO4_4.junk, VO4_5.read (Elt F) VO4_5.junk, out4_B_s0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => (fun h => by have hN : n + 1 < 20 := lt_of_lt_of_eq hn (show cfg4.N = 20 from N_4); (try dsimp only at h); omega) ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.2.2.1 (outsAt4 c n (Nat.lt_of_succ_lt hn)).2.2.2.2, out4_B_s1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => (fun h => by have hN : n + 1 < 20 := lt_of_lt_of_eq hn (show cfg4.N = 20 from N_4); (try dsimp only at h); omega) ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.2.2.1 (outsAt4 c n (Nat.lt_of_succ_lt hn)).2.2.2.2)

/-- At the first point: the first case's contents. -/
theorem outsAt4_A (c : Dev nD) (t : Fin cfg4.N) (h0 : t.val % 20 = 0) (h1 : ¬t.val % 20 = 19) :
    outsAt4 V c t.val t.isLt = (out4_A_3 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) ((hcond4_0 t).mpr h0) (fun h => h1 ((hcond4_1 t).mp h)) (iblk4 V c 0 t) (iblk4 V c 1 t) (iblk4 V c 2 t), VO4_4.read (Elt F) VO4_4.junk, VO4_5.read (Elt F) VO4_5.junk, out4_A_s0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) ((hcond4_0 t).mpr h0) (fun h => h1 ((hcond4_1 t).mp h)) (iblk4 V c 0 t) (iblk4 V c 1 t) (iblk4 V c 2 t), out4_A_s1 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) ((hcond4_0 t).mpr h0) (fun h => h1 ((hcond4_1 t).mp h)) (iblk4 V c 0 t) (iblk4 V c 1 t) (iblk4 V c 2 t)) := by
  have hN : t.val < 20 := lt_of_lt_of_eq t.isLt (show cfg4.N = 20 from N_4)
  obtain ⟨n, hn⟩ := t
  cases n with
  | zero => exact rfl
  | succ n => exact (by exfalso; (try dsimp only at h0 hN); omega)

/-- At a middle point: the middle case's contents, over what the point before left in the accumulators. -/
theorem outsAt4_B (c : Dev nD) (t : Fin cfg4.N) (h0 : ¬t.val % 20 = 0) (h1 : ¬t.val % 20 = 19) :
    outsAt4 V c t.val t.isLt = (out4_B_3 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, VO4_4.read (Elt F) VO4_4.junk, VO4_5.read (Elt F) VO4_5.junk, out4_B_s0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_B_s1 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h1).trans rfl

/-- At the last point: the last case's contents, over what the point before left in the accumulators. -/
theorem outsAt4_C (c : Dev nD) (t : Fin cfg4.N) (h0 : ¬t.val % 20 = 0) (h1 : t.val % 20 = 19) :
    outsAt4 V c t.val t.isLt = (out4_C_3 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_C_4 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_C_5 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_C_s0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_C_s1 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_pos h1).trans rfl

/-! ## The invariant -/

/-- The region's invariant before position `n`: before the first point the generator register at some state beside
    every scoped buffer no window stages, each at any contents; afterwards the same with the two accumulators at
    what the point before left in them. -/
def PhiS4 (c : Dev nD) : (n : ℕ) → n ≤ cfg4.N → sProp 𝕄
  | 0, _ => iprop((∃ r, prngReg c r) ∗ Pipeline.scopedRest (Ix := Unit) (Name := ℕ) (U := UR sig nD τ) (Lvl := ℕ) (Val := Elt F) spec4 c)
  | n + 1, hn => iprop((∃ r, prngReg c r)
      ∗ iprop(owns (c : Thread nD τ) scM4_0 fullShare ((outsAt4 V c n hn).2.2.2.1) ∗ owns (c : Thread nD τ) scM4_1 fullShare ((outsAt4 V c n hn).2.2.2.2))
      ∗ Pipeline.scopedRestBut (Ix := Unit) (Name := ℕ) (U := UR sig nD τ) (Lvl := ℕ) (Val := Elt F) spec4 c [cc4_scratch0, cc4_scratch1])

theorem PhiS4_zero (c : Dev nD) (n : ℕ) (h : n ≤ cfg4.N) (hz : n = 0) :
    PhiS4 V c n h = iprop((∃ r, prngReg c r) ∗ Pipeline.scopedRest (Ix := Unit) (Name := ℕ) (U := UR sig nD τ) (Lvl := ℕ) (Val := Elt F) spec4 c) := by
  subst hz; rfl

theorem PhiS4_succ (c : Dev nD) (n : ℕ) (hn : n < cfg4.N) :
    PhiS4 V c (n + 1) hn = iprop((∃ r, prngReg c r)
      ∗ iprop(owns (c : Thread nD τ) scM4_0 fullShare ((outsAt4 V c n hn).2.2.2.1) ∗ owns (c : Thread nD τ) scM4_1 fullShare ((outsAt4 V c n hn).2.2.2.2))
      ∗ Pipeline.scopedRestBut (Ix := Unit) (Name := ℕ) (U := UR sig nD τ) (Lvl := ℕ) (Val := Elt F) spec4 c [cc4_scratch0, cc4_scratch1]) := rfl

theorem PhiS4_pos (c : Dev nD) (n : ℕ) (h : n ≤ cfg4.N) (hz : n ≠ 0) :
    PhiS4 V c n h = iprop((∃ r, prngReg c r)
      ∗ iprop(owns (c : Thread nD τ) scM4_0 fullShare ((outsAt4 V c (n - 1) (by omega)).2.2.2.1) ∗ owns (c : Thread nD τ) scM4_1 fullShare ((outsAt4 V c (n - 1) (by omega)).2.2.2.2))
      ∗ Pipeline.scopedRestBut (Ix := Unit) (Name := ℕ) (U := UR sig nD τ) (Lvl := ℕ) (Val := Elt F) spec4 c [cc4_scratch0, cc4_scratch1]) := by
  cases n with
  | zero => exact absurd rfl hz
  | succ n => rfl

end Cert.Kernel.Hand

end
-- ==== Proof.KernelBody4.lean ====
/-
  The row-statistics kernel region 4: the proof data of its pipeline and the body's obligation.

  The arrays are at the contents the region finds (a parameter). After the body at a point each input's staging
  buffer holds its block, the first output's the block of h, and the accumulators the running column sums; the two
  late outputs are written at the last point only, from the accumulators. The invariant before a point says what
  the accumulators hold (nothing before the first point). The body's obligation is shown case by case: the point's
  position decides the two branches, the run of that case applies, and what it leaves is what the recursion on the
  point names.
-/
import proofs.«107691_j23957327577190_1_alg».proof.Proof.KernelOuts4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The proof data -/

/-- The proof data of the pipeline on core `c`: the arrays as the region finds them; after the body at point `t`
    each input's buffer at its block and each output's at what the recursion on the point names; the invariant
    the accumulators' contents after the points before; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
    | ⟨4, _⟩ => (outsAt4 V c t.val t.isLt).2.1
    | ⟨5, _⟩ => (outsAt4 V c t.val t.isLt).2.2.1
  Φ t := PhiS4 V c t.val (Nat.le_of_lt_succ t.isLt)
  q _ := fullShare
  owed _ := 0

/-- The arrays of the proof data are the contents the region finds. -/
theorem A_eq4 (c : Dev nD) (w : Fin cfg4.W) : (dat4 V c).A w = V c (Pipeline.arrRef spec4 w) := by
  dsimp only [dat4]

theorem howed4 (c : Dev nD) (t : Fin (cfg4.N + 1)) : (dat4 V c).owed t = 0 := rfl
theorem dat4_q (c : Dev nD) (w : Fin cfg4.W) : (dat4 V c).q w = fullShare := rfl
theorem hrec4 (c : Dev nD) (t : Fin (cfg4.N + 1)) : (dat4 V c).recorded t = Set.univ := rfl

/-- The invariant at a point's start, restated at the point's position. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]
theorem after4_4 (c : Dev nD) (t : Fin cfg4.N) : (dat4 V c).after 4 t = (outsAt4 V c t.val t.isLt).2.1 := by dsimp only [dat4]
theorem after4_5 (c : Dev nD) (t : Fin cfg4.N) : (dat4 V c).after 5 t = (outsAt4 V c t.val t.isLt).2.2.1 := by dsimp only [dat4]

/-- Each input's current staging buffer holds its block at every point, fetched there or not: unfetched, the block
    index has not moved. -/
theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)

/-! ## The body's obligation -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t)

set_option maxHeartbeats 4800000 in
/-- The body at any point. The inputs' buffers hold their blocks; the point's position decides the two branches;
    the invariant hands the body the accumulators at what the point before left (at anything at the first point)
    and takes them back at this point's contents, the other scoped buffers and the generator register passing
    through unread; before the last point the late outputs are handed back as found; the core owes nothing
    throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  have hN : t.val < 20 := lt_of_lt_of_eq t.isLt (show cfg4.N = 20 from N_4)
  rw [show (dat4 V c).leavesExact 0 t = owns (c : Thread nD τ) (ms4_0 t) fullShare ((dat4 V c).after 0 t) from by
        unfold Dat.leavesExact; rw [liveAt4_0 t], after4_0]
  rw [show (dat4 V c).leavesExact 1 t = owns (c : Thread nD τ) (ms4_1 t) fullShare ((dat4 V c).after 1 t) from by
        unfold Dat.leavesExact; rw [liveAt4_1 t], after4_1]
  rw [show (dat4 V c).leavesExact 2 t = owns (c : Thread nD τ) (ms4_2 t) fullShare ((dat4 V c).after 2 t) from by
        unfold Dat.leavesExact; rw [liveAt4_2 t], after4_2]
  rw [show (dat4 V c).leavesExact 3 t = owns (c : Thread nD τ) (ms4_3 t) fullShare ((dat4 V c).after 3 t) from by
        unfold Dat.leavesExact; rw [liveAt4_3 t], after4_3]
  by_cases h0 : t.val % 20 = 0
  · by_cases h1 : t.val % 20 = 19
    · exfalso; omega
    · rw [Dat.leavesExact_idle (dat4 V c) 4 t (idleAt4_4 t (fun h => h1 ((hcond4_1 t).mp h))) (noFlush4_4 t (fun h => h1 ((hcond4_1 t).mp h)))]
      rw [Dat.leavesExact_idle (dat4 V c) 5 t (idleAt4_5 t (fun h => h1 ((hcond4_1 t).mp h))) (noFlush4_5 t (fun h => h1 ((hcond4_1 t).mp h)))]
      rw [outsAt4_A V c t h0 h1]
      unfold out4_A_3 out4_A_s0 out4_A_s1; (try dsimp only)
      have hz : t.val = 0 := by omega
      rw [PhiS4_castSucc V c t, PhiS4_zero V c _ _ hz, scopedRest4_eq]
      iintro ⟨⟨Hg, ⟨HS0, HS1⟩, Hr⟩, Ho, ⟨%d0, H0⟩, ⟨%d1, H1⟩, ⟨%d2, H2⟩, ⟨%d3, H3⟩, ⟨%d4, H4⟩, ⟨%d5, H5⟩⟩
      iapply ((kernelRun4_A c (grid4.coords t) _ _ _ _ _ _ _ _ _ _ _ _ _ _ _ _ ((hcond4_0 t).mpr h0) (fun h => h1 ((hcond4_1 t).mp h)) (iblk4 V c 0 t) (iblk4 V c 1 t) (iblk4 V c 2 t)).2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, ⟨%e3, H3⟩, H4, H5, ⟨%es0, HS0⟩, ⟨%es1, HS1⟩⟩
      isplitl [Hg HS0 HS1 Hr]
      · isplitl [Hg]; · iexact Hg
        isplitl [HS0 HS1]
        · isplitl [HS0]
          · (unfold owns; iexists _; isplitr; swap; iexact HS0; ipureintro; exact View.read_writes_of_cover _ _ _ _ _ (cover4_A_s0 c _ _ _ _ _ _ _ _ _ _ _ _ _ _ _ _ _ _ _ _ _ _))
          (unfold owns; iexists _; isplitr; swap; iexact HS1; ipureintro; exact View.read_writes_of_cover _ _ _ _ _ (cover4_A_s1 c _ _ _ _ _ _ _ _ _ _ _ _ _ _ _ _ _ _ _ _ _ _))
        iexact Hr
      isplitl [Ho]; · iexact Ho
      isplitl [H0]; · iexact H0
      isplitl [H1]; · iexact H1
      isplitl [H2]; · iexact H2
      isplitl [H3]
      · (unfold owns; iexists _; isplitr; swap; iexact H3; ipureintro; exact View.read_writes_of_cover _ _ _ _ _ (cover4_A_3 c _ _ _ _ _ _ _ _ _ _ _ _ _ _ _ _ _ _ _ _ _ _))
      isplitl [H4]; · iexists _; iexact H4
      iexists _; iexact H5
  · have hz : t.val ≠ 0 := fun e => h0 (by rw [e])
    by_cases h1 : t.val % 20 = 19
    · rw [show (dat4 V c).leavesExact 4 t = owns (c : Thread nD τ) (ms4_4 t) fullShare ((dat4 V c).after 4 t) from by
        unfold Dat.leavesExact; rw [liveAt4_4 t ((hcond4_1 t).mpr h1)], after4_4]
      rw [show (dat4 V c).leavesExact 5 t = owns (c : Thread nD τ) (ms4_5 t) fullShare ((dat4 V c).after 5 t) from by
        unfold Dat.leavesExact; rw [liveAt4_5 t ((hcond4_1 t).mpr h1)], after4_5]
      rw [outsAt4_C V c t h0 h1]
      unfold out4_C_3 out4_C_4 out4_C_5 out4_C_s0 out4_C_s1; (try dsimp only)
      rw [PhiS4_castSucc V c t, PhiS4_pos V c _ _ hz]
      iintro ⟨⟨Hg, ⟨HS0, HS1⟩, Hr⟩, Ho, ⟨%d0, H0⟩, ⟨%d1, H1⟩, ⟨%d2, H2⟩, ⟨%d3, H3⟩, ⟨%d4, H4⟩, ⟨%d5, H5⟩⟩
      iapply ((kernelRun4_C c (grid4.coords t) _ _ _ _ _ _ _ _ _ _ _ _ _ _ _ _ (fun h => h0 ((hcond4_0 t).mp h)) ((hcond4_1 t).mpr h1) (iblk4 V c 0 t) (iblk4 V c 1 t) (iblk4 V c 2 t) _ _).2.2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      iintro ⟨H0, H1, H2, ⟨%e3, H3⟩, ⟨%e4, H4⟩, ⟨%e5, H5⟩, ⟨%es0, HS0⟩, ⟨%es1, HS1⟩⟩
      isplitl [Hg HS0 HS1 Hr]
      · isplitl [Hg]; · iexact Hg
        isplitl [HS0 HS1]
        · isplitl [HS0]
          · (unfold owns; iexists _; isplitr; swap; iexact HS0; ipureintro; exact View.read_writes_of_cover _ _ _ _ _ (cover4_C_s0 c _ _ _ _ _ _ _ _ _ _ _ _ _ _ _ _ _ _ _ _ _ _ _ _))
          (unfold owns; iexists _; isplitr; swap; iexact HS1; ipureintro; exact View.read_writes_of_cover _ _ _ _ _ (cover4_C_s1 c _ _ _ _ _ _ _ _ _ _ _ _ _ _ _ _ _ _ _ _ _ _ _ _))
        iexact Hr
      isplitl [Ho]; · iexact Ho
      isplitl [H0]; · iexact H0
      isplitl [H1]; · iexact H1
      isplitl [H2]; · iexact H2
      isplitl [H3]
      · (unfold owns; iexists _; isplitr; swap; iexact H3; ipureintro; exact View.read_writes_of_cover _ _ _ _ _ (cover4_C_3 c _ _ _ _ _ _ _ _ _ _ _ _ _ _ _ _ _ _ _ _ _ _ _ _))
      isplitl [H4]
      · (unfold owns; iexists _; isplitr; swap; iexact H4; ipureintro; exact View.read_writes_of_cover _ _ _ _ _ (cover4_C_4 c _ _ _ _ _ _ _ _ _ _ _ _ _ _ _ _ _ _ _ _ _ _ _ _))
      (unfold owns; iexists _; isplitr; swap; iexact H5; ipureintro; exact View.read_writes_of_cover _ _ _ _ _ (cover4_C_5 c _ _ _ _ _ _ _ _ _ _ _ _ _ _ _ _ _ _ _ _ _ _ _ _))
    · rw [Dat.leavesExact_idle (dat4 V c) 4 t (idleAt4_4 t (fun h => h1 ((hcond4_1 t).mp h))) (noFlush4_4 t (fun h => h1 ((hcond4_1 t).mp h)))]
      rw [Dat.leavesExact_idle (dat4 V c) 5 t (idleAt4_5 t (fun h => h1 ((hcond4_1 t).mp h))) (noFlush4_5 t (fun h => h1 ((hcond4_1 t).mp h)))]
      rw [outsAt4_B V c t h0 h1]
      unfold out4_B_3 out4_B_s0 out4_B_s1; (try dsimp only)
      rw [PhiS4_castSucc V c t, PhiS4_pos V c _ _ hz]
      iintro ⟨⟨Hg, ⟨HS0, HS1⟩, Hr⟩, Ho, ⟨%d0, H0⟩, ⟨%d1, H1⟩, ⟨%d2, H2⟩, ⟨%d3, H3⟩, ⟨%d4, H4⟩, ⟨%d5, H5⟩⟩
      iapply ((kernelRun4_B c (grid4.coords t) _ _ _ _ _ _ _ _ _ _ _ _ _ _ _ _ (fun h => h0 ((hcond4_0 t).mp h)) (fun h => h1 ((hcond4_1 t).mp h)) (iblk4 V c 0 t) (iblk4 V c 1 t) (iblk4 V c 2 t) _ _).2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, ⟨%e3, H3⟩, H4, H5, ⟨%es0, HS0⟩, ⟨%es1, HS1⟩⟩
      isplitl [Hg HS0 HS1 Hr]
      · isplitl [Hg]; · iexact Hg
        isplitl [HS0 HS1]
        · isplitl [HS0]
          · (unfold owns; iexists _; isplitr; swap; iexact HS0; ipureintro; exact View.read_writes_of_cover _ _ _ _ _ (cover4_B_s0 c _ _ _ _ _ _ _ _ _ _ _ _ _ _ _ _ _ _ _ _ _ _ _ _))
          (unfold owns; iexists _; isplitr; swap; iexact HS1; ipureintro; exact View.read_writes_of_cover _ _ _ _ _ (cover4_B_s1 c _ _ _ _ _ _ _ _ _ _ _ _ _ _ _ _ _ _ _ _ _ _ _ _))
        iexact Hr
      isplitl [Ho]; · iexact Ho
      isplitl [H0]; · iexact H0
      isplitl [H1]; · iexact H1
      isplitl [H2]; · iexact H2
      isplitl [H3]
      · (unfold owns; iexists _; isplitr; swap; iexact H3; ipureintro; exact View.read_writes_of_cover _ _ _ _ _ (cover4_B_3 c _ _ _ _ _ _ _ _ _ _ _ _ _ _ _ _ _ _ _ _ _ _ _ _))
      isplitl [H4]; · iexists _; iexact H4
      iexists _; iexact H5

/-- The body's obligation at every point. -/
theorem body_obligation4 (c : Dev nD) : BodyObligation (dat4 (F := F) V c) (defs₀ (F := F)) Variants.none () Set.univ := fun t => by
  rw [bigSep_W4, bigSep_W4]
  exact sound_body4 V c t

/-! ## The region's two ends -/

/-- What the region is entered with is the invariant before the first point. -/
theorem hin4 (c : Dev nD) :
    iprop((∃ r, prngReg c r) ∗ Pipeline.scopedRest (Ix := Unit) (Name := ℕ) (U := UR sig nD τ) (Lvl := ℕ) (Val := Elt F) spec4 c) ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives it back: what the accumulators hold is forgotten. -/
theorem hout4 (c : Dev nD) :
    (dat4 V c).Φ (Fin.last cfg4.N) ⊢ iprop((∃ r, prngReg c r) ∗ Pipeline.scopedRest (Ix := Unit) (Name := ℕ) (U := UR sig nD τ) (Lvl := ℕ) (Val := Elt F) spec4 c) := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 20 := N_4; omega), scopedRest4_eq]
  iintro ⟨Hg, ⟨HS0, HS1⟩, Hr⟩
  isplitl [Hg]; · iexact Hg
  isplitl [HS0 HS1]
  · isplitl [HS0]; · iexists _; iexact HS0
    iexists _; iexact HS1
  iexact Hr

end Cert.Kernel.Hand

end
-- ==== Proof.KernelBody5.lean ====
import proofs.«107691_j23957327577190_1_alg».proof.Proof.Gen.Kernel.Launch
import proofs.«107691_j23957327577190_1_alg».proof.Proof.Gen.Kernel.Skeleton
import proofs.«107691_j23957327577190_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 5: the body's triple and the proof data

The region's body reads each input window's whole staging block, computes one value from them and stores it over
the whole output block. Stated at the buffer contents `V` found when the region is entered: each window's block at a
grid point, the output block as a function of the input blocks, and the obligation that the body, run at any grid
point on buffers holding the input blocks, leaves exactly that output block and the inputs untouched. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, whether or not it was fetched there
    (an unfetched window's block index has not moved), for any proof data over the arrays `V` whose body leaves the
    block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, whether or not it was fetched there
    (an unfetched window's block index has not moved), for any proof data over the arrays `V` whose body leaves the
    block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, whether or not it was fetched there
    (an unfetched window's block index has not moved), for any proof data over the arrays `V` whose body leaves the
    block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, whether or not it was fetched there
    (an unfetched window's block index has not moved), for any proof data over the arrays `V` whose body leaves the
    block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, whether or not it was fetched there
    (an unfetched window's block index has not moved), for any proof data over the arrays `V` whose body leaves the
    block in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each is the whole block -/

abbrev r5_0 : Rect S5000x128 := Rect.unit (s := S5000x128) ![0, 0] S5000x128.size inb_S5000x128_S5000x128_0_0
abbrev r5_1 : Rect S1x128 := Rect.unit (s := S1x128) ![0, 0] S1x128.size inb_S1x128_S1x128_0_0

/-! ## What the body leaves in the output window's buffer -/

/-- The output staging buffer after the body, from the input blocks: its one store, over the whole block. -/
def out5_5 (x0 : Vec F S5000x128 .f32) (x1 : Vec F S1x128 .f32) (x2 : Vec F S1x128 .f32) (x3 : Vec F S1x128 .f32) (x4 : Vec F S1x128 .f32) : Vec F S5000x128 .f32 :=
  View.canon [⟨r5_0, k5_pay1 (View.ld x0 r5_0) (View.ld x1 r5_1) (View.ld x2 r5_1) (View.ld x3 r5_1) (View.ld x4 r5_1)⟩]

/-- The one store covers the buffer. -/
theorem cover5_5 (p0 : Vec F S5000x128 .f32) (y : S5000x128.Idx) :
    ∃ pc ∈ ([⟨r5_0, p0⟩] : List (View.Piece (Elt F) S5000x128 .f32)), y ∈ pc.1.set :=
  View.cover_of_tiled [⟨r5_0, p0⟩] S5000x128.size (by rfl) y

/-! ## The body's triple -/

set_option maxHeartbeats 1000000 in
/-- The body on whole staging buffers, the inputs' holding `xW` and the output's anything, runs to the continuation
    with the inputs' unchanged and the output's holding `out5_5` of the inputs. -/
theorem sound_kernel5 (c : Dev nD) (E : Set ℕ) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__bn_relu_kernel i arg1 harg1 arg2 harg2 arg3 harg3 arg4 harg4 arg5 harg5 arg6 harg6) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The region's proof data -/

/-- The proof data of the region on core `c`: the arrays as the region finds them; after the body at point `t` each
    input's buffer at its block and the output's at `out5_5` of the input blocks; the invariant is the rest of the
    memory, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' buffers hold their blocks, so the body's triple applies; the invariant and what
    the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.KernelBody6.lean ====
import proofs.«107691_j23957327577190_1_alg».proof.Proof.Gen.Kernel.Launch
import proofs.«107691_j23957327577190_1_alg».proof.Proof.Gen.Kernel.Skeleton
import proofs.«107691_j23957327577190_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 6: the body's triple and the proof data

The region's body reads each input window's whole staging block, computes one value from them and stores it over
the whole output block. Stated at the buffer contents `V` found when the region is entered: each window's block at a
grid point, the output block as a function of the input blocks, and the obligation that the body, run at any grid
point on buffers holding the input blocks, leaves exactly that output block and the inputs untouched. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, whether or not it was fetched there
    (an unfetched window's block index has not moved), for any proof data over the arrays `V` whose body leaves the
    block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, whether or not it was fetched there
    (an unfetched window's block index has not moved), for any proof data over the arrays `V` whose body leaves the
    block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, whether or not it was fetched there
    (an unfetched window's block index has not moved), for any proof data over the arrays `V` whose body leaves the
    block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each is the whole block -/

abbrev r6_0 : Rect S5000x128 := Rect.unit (s := S5000x128) ![0, 0] S5000x128.size inb_S5000x128_S5000x128_0_0
abbrev r6_1 : Rect S128x40 := Rect.unit (s := S128x40) ![0, 0] S128x40.size inb_S128x40_S128x40_0_0
abbrev r6_2 : Rect S5000x1 := Rect.unit (s := S5000x1) ![0, 0] S5000x1.size inb_S5000x1_S5000x1_0_0
abbrev r6_3 : Rect S5000x40 := Rect.unit (s := S5000x40) ![0, 0] S5000x40.size inb_S5000x40_S5000x40_0_0

/-! ## What the body leaves in the output window's buffer -/

/-- The output staging buffer after the body, from the input blocks: its one store, over the whole block. -/
def out6_3 (x0 : Vec F S5000x128 .f32) (x1 : Vec F S128x40 .f32) (x2 : Vec F S5000x1 .f32) : Vec F S5000x40 .f32 :=
  View.canon [⟨r6_3, k6_pay1 (View.ld x0 r6_0) (View.ld x1 r6_1) (View.ld x2 r6_2)⟩]

/-- The one store covers the buffer. -/
theorem cover6_3 (p0 : Vec F S5000x40 .f32) (y : S5000x40.Idx) :
    ∃ pc ∈ ([⟨r6_3, p0⟩] : List (View.Piece (Elt F) S5000x40 .f32)), y ∈ pc.1.set :=
  View.cover_of_tiled [⟨r6_3, p0⟩] S5000x40.size (by rfl) y

/-! ## The body's triple -/

set_option maxHeartbeats 1000000 in
/-- The body on whole staging buffers, the inputs' holding `xW` and the output's anything, runs to the continuation
    with the inputs' unchanged and the output's holding `out6_3` of the inputs. -/
theorem sound_kernel6 (c : Dev nD) (E : Set ℕ) (i : grid6.Coords) (arg1 : Memref sig .tc .vmem S5000x128 .f32) (harg1 : arg1.IsWhole) (arg2 : Memref sig .tc .vmem S128x40 .f32) (harg2 : arg2.IsWhole) (arg3 : Memref sig .tc .vmem S5000x1 .f32) (harg3 : arg3.IsWhole) (arg4 : Memref sig .tc .vmem S5000x40 .f32) (harg4 : arg4.IsWhole)
    (x0 : Vec F S5000x128 .f32) (x1 : Vec F S128x40 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__matmul_scale_kernel i arg1 harg1 arg2 harg2 arg3 harg3 arg4 harg4) K := by
  simp only [cc6__matmul_scale_kernel_eq_skeleton]; unfold cc6__matmul_scale_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The region's proof data -/

/-- The proof data of the region on core `c`: the arrays as the region finds them; after the body at point `t` each
    input's buffer at its block and the output's at `out6_3` of the input blocks; the invariant is the rest of the
    memory, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' buffers hold their blocks, so the body's triple applies; the invariant and what
    the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.KernelBody7.lean ====
import proofs.«107691_j23957327577190_1_alg».proof.Proof.Gen.Kernel.Launch
import proofs.«107691_j23957327577190_1_alg».proof.Proof.Gen.Kernel.Skeleton
import proofs.«107691_j23957327577190_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 7: the body's triple and the proof data

The region's body reads each input window's whole staging block, computes one value from them and stores it over
the whole output block. Stated at the buffer contents `V` found when the region is entered: each window's block at a
grid point, the output block as a function of the input blocks, and the obligation that the body, run at any grid
point on buffers holding the input blocks, leaves exactly that output block and the inputs untouched. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, whether or not it was fetched there
    (an unfetched window's block index has not moved), for any proof data over the arrays `V` whose body leaves the
    block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, whether or not it was fetched there
    (an unfetched window's block index has not moved), for any proof data over the arrays `V` whose body leaves the
    block in place. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, whether or not it was fetched there
    (an unfetched window's block index has not moved), for any proof data over the arrays `V` whose body leaves the
    block in place. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each is the whole block -/

abbrev r7_0 : Rect S5000x40 := Rect.unit (s := S5000x40) ![0, 0] S5000x40.size inb_S5000x40_S5000x40_0_0
abbrev r7_1 : Rect S5000x1 := Rect.unit (s := S5000x1) ![0, 0] S5000x1.size inb_S5000x1_S5000x1_0_0
abbrev r7_2 : Rect S1x40 := Rect.unit (s := S1x40) ![0, 0] S1x40.size inb_S1x40_S1x40_0_0

/-! ## What the body leaves in the output window's buffer -/

/-- The output staging buffer after the body, from the input blocks: its one store, over the whole block. -/
def out7_3 (x0 : Vec F S5000x40 .f32) (x1 : Vec F S5000x1 .f32) (x2 : Vec F S1x40 .f32) : Vec F S5000x40 .f32 :=
  View.canon [⟨r7_0, k7_pay1 (View.ld x0 r7_0) (View.ld x1 r7_1) (View.ld x2 r7_2)⟩]

/-- The one store covers the buffer. -/
theorem cover7_3 (p0 : Vec F S5000x40 .f32) (y : S5000x40.Idx) :
    ∃ pc ∈ ([⟨r7_0, p0⟩] : List (View.Piece (Elt F) S5000x40 .f32)), y ∈ pc.1.set :=
  View.cover_of_tiled [⟨r7_0, p0⟩] S5000x40.size (by rfl) y

/-! ## The body's triple -/

set_option maxHeartbeats 1000000 in
/-- The body on whole staging buffers, the inputs' holding `xW` and the output's anything, runs to the continuation
    with the inputs' unchanged and the output's holding `out7_3` of the inputs. -/
theorem sound_kernel7 (c : Dev nD) (E : Set ℕ) (i : grid7.Coords) (arg1 : Memref sig .tc .vmem S5000x40 .f32) (harg1 : arg1.IsWhole) (arg2 : Memref sig .tc .vmem S5000x1 .f32) (harg2 : arg2.IsWhole) (arg3 : Memref sig .tc .vmem S1x40 .f32) (harg3 : arg3.IsWhole) (arg4 : Memref sig .tc .vmem S5000x40 .f32) (harg4 : arg4.IsWhole)
    (x0 : Vec F S5000x40 .f32) (x1 : Vec F S5000x1 .f32) (x2 : Vec F S1x40 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out7_3 x0 x1 x2)) -∗ K ⟨⟩))
      ⊢ wp frame (wpE (defs₀ (F := F)) Variants.none c none) E (cc7__bias_kernel i arg1 harg1 arg2 harg2 arg3 harg3 arg4 harg4) K := by
  simp only [cc7__bias_kernel_eq_skeleton]; unfold cc7__bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-! ## The region's proof data -/

/-- The proof data of the region on core `c`: the arrays as the region finds them; after the body at point `t` each
    input's buffer at its block and the output's at `out7_3` of the input blocks; the invariant is the rest of the
    memory, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' buffers hold their blocks, so the body's triple applies; the invariant and what
    the core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ (grid7.coords t) _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.LibRegionTrackedWhole.lean ====
/-
  A kernel region of a program of several regions, as a segment record, for a kernel that carries state between points
  and whose windows read and write pairwise distinct arrays.

  A region of @main launches one pipelined kernel: at every grid point each window's block is fetched into a staging
  buffer, the body runs, and each output window's buffer is written back. The rule for a program of several regions
  takes, per region, a record saying how the thread's resources are sorted before the region, what the body's invariant
  is made of, and how everything is put back afterwards.

  Here the kernel keeps scratch contents from one point to the next (an accumulator that a later point reads), so the
  invariant depends on the point: at point t it says what the scratch buffers hold after the points before t. The
  region's two ends need only this of it: the first invariant follows from the generator register and the scoped
  non-staging buffers at any contents whatever, and the last invariant gives those back. The windows' arrays are distinct
  whole buffers among the unscoped ones, so they split off at the contents `W` gives them and, at what the write-backs
  left, rejoin the others, which ride past the region untouched.
-/
import Idealize.ShloMosaic.Lib.Pipeline.Frame
import Idealize.ShloMosaic.Lib.Pipeline.Regions
import Idealize.ShloMosaic.Lib.Pipeline.RegionsLoop

noncomputable section

namespace LibRegionTrackedWhole

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type} {U : Type} [URA U]
variable {Λ₀ : Idealize.SL.Sem.Labels} {P : Type} [Fintype P]

local notation "𝕄" => MT nD τ sig Unit Val ℕ U ℕ

/-- What rides beside the buffers through every segment: the core's generator register at some state, and the core
    owing nothing. -/
abbrev Rest (c : Dev nD) : sProp 𝕄 :=
  iprop((∃ r, prngReg c r) ∗ ∃ S, owes (c : Thread nD τ) (0 : CellTallies nD τ sig Unit) S)

-- the library's lemmas are stated over the pinned configuration `pin pcs a p`; a record's fields over `pcs p`
set_option backward.isDefEq.respectTransparency.types false in
/-- The segment record of a region whose kernel carries scratch contents from point to point and whose windows read and
    write pairwise distinct arrays. Entered from every unscoped buffer at `W`, left at `W'`: the arrays split off the
    unscoped buffers at the contents `W` gives them (`hA`) and rejoin them at what the write-backs left (`hF`), the other
    buffers riding past (`hrest`). The invariant is the proof data's own, point by point: `hin` makes the first one from the
    generator register and the scoped buffers no window stages, `hout` gets them back from the last one. -/
def trackedWhole (pcs : P → PCfg sig Λ₀ Val) (a : (p : P) → (pcs p).Adm)
    (pdats : (p : P) → (c : Dev nD) → Dat τ Val Unit ℕ U ℕ (pin pcs a p) c)
    (defs₀ : Defs nD τ sig Val Λ₀) (𝒱₀ : Variants)
    (L : GSem nD τ sig → Finset Unit) (lv : GSem nD τ sig → Unit → ℕ) (p : P)
    (hw : WinFacts (pin pcs a p).spec)
    (hpos : ∀ w : Fin (pin pcs a p).W, 0 < ((pin pcs a p).spec w).block.numel)
    (harr : ∀ w, ((pin pcs a p).spec w).arr.IsWhole)
    (hstage : ∀ (w : Fin (pin pcs a p).W) (s : Fin ((pin pcs a p).spec w).nbuf), (((pin pcs a p).spec w).stage s).IsWhole)
    (hK : IsEmpty (Fin (pcs p).pre.K))
    (hin : ∀ c, iprop((∃ r, prngReg c r) ∗ scopedRest (pin pcs a p).spec c) ⊢ (pdats p c).Φ 0)
    (hout : ∀ c, (pdats p c).Φ (Fin.last (pin pcs a p).N) ⊢ iprop((∃ r, prngReg c r) ∗ scopedRest (pin pcs a p).spec c))
    (hq : ∀ c w, (pdats p c).q w = fullShare)
    (howed : ∀ c t, (pdats p c).owed t = 0)
    (hrec : ∀ c t, (pdats p c).recorded t = Set.univ)
    (hbody : ∀ c, BodyObligation (pdats p c) defs₀ 𝒱₀ () Set.univ)
    (W W' : Dev nD → Valuation τ sig Val)
    (hA : ∀ c w, (pdats p c).A w = W c (arrRef (pin pcs a p).spec w))
    (hF : ∀ c w, (pdats p c).arrAt w (pin pcs a p).N = W' c (arrRef (pin pcs a p).spec w))
    (hrest : ∀ c (b : Ref sig .tc), b ∉ Finset.univ.image (arrRef (pin pcs a p).spec) → W' c b = W c b) :
    RegionSeg pcs a pdats () defs₀ 𝒱₀ L lv p where
  win := hw.to₀
  block_pos := hpos
  stage_whole := hstage
  K := PEmpty
  osem k := k.elim
  ho := OwnSemFacts.none _
  hbody c := (hbody c).loose
  hwaits := hwaits_of_owed_zero pcs a pdats () L lv p howed
  pre c := iprop(StableHlo.held (c : Thread nD τ) (ucRefs τ sig) (W c) ∗ Rest c)
  post c := iprop(StableHlo.held (c : Thread nD τ) (ucRefs τ sig) (W' c) ∗ Rest c)
  X c := iprop(∃ r, prngReg c r)
  Y c := iprop(∃ r, prngReg c r)
  Z c := unscopedRest (pin pcs a p).spec c (fun b => W c b)
  hentry c := by
    -- the arrays split off the unscoped buffers; no table, so nothing is held for one; the core owes nothing
    haveI := hK
    have hsplit := arrays_of_unscopedBufs pcs a pdats hw harr c ((pdats p c).share_full (hq c)) (fun b => W c b) (hA c)
    rw [unscopedBufs_held] at hsplit
    have hnotable : (prefHeld (pcs p).pre c (fun _ => fullShare) (a p).1 : sProp 𝕄) = BI.emp := by
      unfold prefHeld; rw [Finset.univ_eq_empty, BI.bigSep_empty]
    rw [hnotable, ownSems0_none]
    iintro ⟨⟨Hheld, Hreg, Howes⟩, -, -⟩
    ihave Hsp := hsplit $$ Hheld
    icases Hsp with ⟨Harr, Hoth⟩
    imodintro
    isplitl [Harr]; · iexact Harr
    isplitr; · iempintro
    isplitl [Howes]
    · unfold Dat.owesAt owesWithin
      rw [howed c 0]
      icases Howes with ⟨%S, Howes⟩
      iexists S
      isplitr
      · ipureintro; intro x _; exact Or.inl (by rw [hrec c 0]; trivial)
      iexact Howes
    isplitl [Hreg]; · iexact Hreg
    iexact Hoth
  hin c := by
    iintro ⟨Hreg, -, Hsc⟩
    iapply (hin c)
    isplitl [Hreg]; · iexact Hreg
    iexact Hsc
  hout c := by
    rw [ownSems0_none]
    iintro Hinv
    ihave H := (hout c) $$ Hinv
    icases H with ⟨Hreg, Hsc⟩
    isplitl [Hreg]; · iexact Hreg
    isplitr; · iempintro
    iexact Hsc
  hexit c := by
    -- the arrays, at what the write-backs left, rejoin the buffers that rode past: every unscoped buffer at `W'`
    have hjoin := unscopedBufs_of_arrays pcs a hw harr c pdats ((pdats p c).share_full (hq c))
      (fun b => W c b) (fun b => W' c b) ((pdats p c).arrAt · (pin pcs a p).N) (hF c) (hrest c)
    rw [unscopedBufs_held] at hjoin
    iintro ⟨Harr, Howes, Hreg, Hoth⟩
    imodintro
    isplitl [Harr Hoth]
    · iapply hjoin; isplitl [Harr] <;> iassumption
    isplitl [Hreg]; · iexact Hreg
    unfold Dat.owesAt owesWithin
    rw [howed c (Fin.last _)]
    icases Howes with ⟨%S, -, Howes⟩
    iexists S; iexact Howes

end LibRegionTrackedWhole

end
-- ==== Proof.KernelRunCond.lean ====
/-
  The run of the whole program, given each kernel region's segment record: every weakly fair execution of @main from a
  memory with zero counters terminates, nothing faulting; the result array ends holding what the last region leaves in it,
  and every argument array ends holding its launch contents.

  Between two items of @main a core holds every unscoped buffer whole: the launch contents, then what each stretch of host
  operations computes from them, then what a region's write-backs leave in its output arrays. The regions' contributions
  are unknowns here (`outs`); the records say how each region is entered from the state before it and left at the state
  after it. The final state's buffers are read off the last of these valuations: the result at the last region's output,
  each argument back through every item to the launch.
-/
import proofs.«107691_j23957327577190_1_alg».proof.Proof.Gen.Kernel.Regions

set_option maxRecDepth 1524

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]
variable (m : (ℓ : Loc nD τ sig) → Buf (Elt F) ℓ) (outs : Outs (F := F))

-- the run rule's implicit arguments are found by unifying its conclusion with this one, which takes unfolding plain
-- definitions in a metavariable's type
set_option backward.isDefEq.respectTransparency.types false in
/-- The run, given the regions' records: the result array ends at what region 7 leaves in it, the arguments as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 8) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 9 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE8 : ∀ c : Dev nD, E 8 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V5 m c) ∗ E 0 c) ⊢ R0.pre c)
    (hpost0 : ∀ c : Dev nD, R0.post c ⊢ iprop(StableHlo.held (c : Thread nD τ) (Pipeline.ucRefs τ sig) (V6 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V8 m outs c) ∗ E 1 c) ⊢ R1.pre c)
    (hpost1 : ∀ c : Dev nD, R1.post c ⊢ iprop(StableHlo.held (c : Thread nD τ) (Pipeline.ucRefs τ sig) (V9 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V10 m outs c) ∗ E 2 c) ⊢ R2.pre c)
    (hpost2 : ∀ c : Dev nD, R2.post c ⊢ iprop(StableHlo.held (c : Thread nD τ) (Pipeline.ucRefs τ sig) (V11 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V12 m outs c) ∗ E 3 c) ⊢ R3.pre c)
    (hpost3 : ∀ c : Dev nD, R3.post c ⊢ iprop(StableHlo.held (c : Thread nD τ) (Pipeline.ucRefs τ sig) (V13 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V15 m outs c) ∗ E 4 c) ⊢ R4.pre c)
    (hpost4 : ∀ c : Dev nD, R4.post c ⊢ iprop(StableHlo.held (c : Thread nD τ) (Pipeline.ucRefs τ sig) (V16 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V17 m outs c) ∗ E 5 c) ⊢ R5.pre c)
    (hpost5 : ∀ c : Dev nD, R5.post c ⊢ iprop(StableHlo.held (c : Thread nD τ) (Pipeline.ucRefs τ sig) (V18 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V19 m outs c) ∗ E 6 c) ⊢ R6.pre c)
    (hpost6 : ∀ c : Dev nD, R6.post c ⊢ iprop(StableHlo.held (c : Thread nD τ) (Pipeline.ucRefs τ sig) (V20 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V22 m outs c) ∗ E 7 c) ⊢ R7.pre c)
    (hpost7 : ∀ c : Dev nD, R7.post c ⊢ iprop(StableHlo.held (c : Thread nD τ) (Pipeline.ucRefs τ sig) (V23 m outs c) ∗ E 8 c)) :
    θ_run defs (onTc (τ := τ) (main (F := F))) ⟨m, fun _ => 0, ρ⟩ (fun r => ∀ c : Dev nD,
      r.2.mem ((c.tc : Thread nD τ).loc main_v79) = outs 23 main_v79 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine Pipeline.θ_run_regions_kit_dev (pcfgs (F := F)) adm pdats ι cellOf_inj EP defs₀ 𝒱₀ L lv m ρ main
    (segs m outs 𝒱₀ L lv E ι pdats R0 R1 R2 R3 R4 R5 R6 R7)
    (fun c Q => by
      rewrite [main_chain c, Seg.run_eq_chain,
        show (segs m outs 𝒱₀ L lv E ι pdats R0 R1 R2 R3 R4 R5 R6 R7 c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          StableHlo.seq hostOps1_1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          StableHlo.seq hostOps4_1,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          StableHlo.seq hostOps7_1,
          Prog.lift (.customCall (Pipeline.entry 7) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V23 m outs c))
    (hch := fun c => ⟨.rfl, .rfl, .rfl, .rfl, .rfl, hpre0 c, hpost0 c, .rfl, hpre1 c, hpost1 c, hpre2 c, hpost2 c, hpre3 c, hpost3 c, .rfl, hpre4 c, hpost4 c, hpre5 c, hpost5 c, hpre6 c, hpost6 c, .rfl, hpre7 c, (hpost7 c).trans (sep_mono .rfl (hE8 c))⟩)
    (hinit := ?_) (QY := fun c s => s.mem ((c.tc : Thread nD τ).loc main_v79) = outs 23 main_v79 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V23 m outs c) s') $$ [Hh HSI]
    · isplitl [Hh] <;> iassumption
    icases Hr with ⟨%h, HSI⟩
    imodintro
    isplitr
    · ipureintro
      exact ⟨(h (Proc.devRef .tc main_v79) (Finset.mem_filter.mpr ⟨StableHlo.devRef_mem_tcRefs main_v79, by decide⟩)).trans (by simp only [V23, Function.update_self]),
        (h (Proc.devRef .tc main_arg0) (Finset.mem_filter.mpr ⟨StableHlo.devRef_mem_tcRefs main_arg0, by decide⟩)).trans (V23_main_arg0 m outs c),
        (h (Proc.devRef .tc main_arg1) (Finset.mem_filter.mpr ⟨StableHlo.devRef_mem_tcRefs main_arg1, by decide⟩)).trans (V23_main_arg1 m outs c),
        (h (Proc.devRef .tc main_arg2) (Finset.mem_filter.mpr ⟨StableHlo.devRef_mem_tcRefs main_arg2, by decide⟩)).trans (V23_main_arg2 m outs c),
        (h (Proc.devRef .tc main_arg3) (Finset.mem_filter.mpr ⟨StableHlo.devRef_mem_tcRefs main_arg3, by decide⟩)).trans (V23_main_arg3 m outs c),
        (h (Proc.devRef .tc main_arg4) (Finset.mem_filter.mpr ⟨StableHlo.devRef_mem_tcRefs main_arg4, by decide⟩)).trans (V23_main_arg4 m outs c),
        (h (Proc.devRef .tc main_arg5) (Finset.mem_filter.mpr ⟨StableHlo.devRef_mem_tcRefs main_arg5, by decide⟩)).trans (V23_main_arg5 m outs c),
        (h (Proc.devRef .tc main_arg6) (Finset.mem_filter.mpr ⟨StableHlo.devRef_mem_tcRefs main_arg6, by decide⟩)).trans (V23_main_arg6 m outs c),
        (h (Proc.devRef .tc main_arg7) (Finset.mem_filter.mpr ⟨StableHlo.devRef_mem_tcRefs main_arg7, by decide⟩)).trans (V23_main_arg7 m outs c),
        (h (Proc.devRef .tc main_arg8) (Finset.mem_filter.mpr ⟨StableHlo.devRef_mem_tcRefs main_arg8, by decide⟩)).trans (V23_main_arg8 m outs c),
        (h (Proc.devRef .tc main_arg9) (Finset.mem_filter.mpr ⟨StableHlo.devRef_mem_tcRefs main_arg9, by decide⟩)).trans (V23_main_arg9 m outs c),
        (h (Proc.devRef .tc main_arg10) (Finset.mem_filter.mpr ⟨StableHlo.devRef_mem_tcRefs main_arg10, by decide⟩)).trans (V23_main_arg10 m outs c),
        (h (Proc.devRef .tc main_arg11) (Finset.mem_filter.mpr ⟨StableHlo.devRef_mem_tcRefs main_arg11, by decide⟩)).trans (V23_main_arg11 m outs c),
        (h (Proc.devRef .tc main_arg12) (Finset.mem_filter.mpr ⟨StableHlo.devRef_mem_tcRefs main_arg12, by decide⟩)).trans (V23_main_arg12 m outs c)⟩
    · iexact HSI

end Cert.Kernel.Hand

end
-- ==== Proof.LibRegionRecord.lean ====
/-
  A kernel region of a program of several regions, as a segment record, for the plainest class of kernels.

  A region of @main launches one pipelined kernel: at every grid point each window's block is fetched into a
  staging buffer, the body runs, and each output window's buffer is written back. The library's rule for a program of
  several regions takes, per region, a record saying how the thread's resources are sorted before the region (the
  windows' arrays out of everything the core holds, the rest set aside), what the body's invariant is made of, and how
  everything is put back afterwards with the arrays at what the write-backs left.

  For a kernel whose body uses nothing but its staging buffers (no scratch carried between points, no semaphore of
  its own, no prefetched table, nothing owed to another core) the sorting is always the same, whatever the kernel
  computes:
    before   every unscoped buffer of the core at contents `W`, the generator register at some state, nothing owed;
    entry    the windows' arrays are distinct whole buffers among the unscoped ones, so they split off at the
             contents `W` gives them and the others ride past the region untouched;
    inside   the invariant is the core's scoped non-staging buffers and the generator register, the same at every point;
    exit     the arrays, at what the proof data says the write-backs left, rejoin the others: that is every unscoped
             buffer at any contents `W'` that has the arrays there (`hF`) and agrees with `W` elsewhere (`hrest`).
  `classA` builds that record from the layout facts of the region's windows, the body obligation, and `W`, `W'`.
  What the kernel computes enters only through the proof data's `after` (hence `arrAt`), which the caller relates to
  `W'` by `hF`; so the value of each output array after the region is available to a value claim by name.
-/
import Idealize.ShloMosaic.Lib.Pipeline.Frame
import Idealize.ShloMosaic.Lib.Pipeline.Regions
import Idealize.ShloMosaic.Lib.Pipeline.RegionsLoop

noncomputable section

namespace LibRegionRecord

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type} {U : Type} [URA U]
variable {Λ₀ : Idealize.SL.Sem.Labels} {P : Type} [Fintype P]

local notation "𝕄" => MT nD τ sig Unit Val ℕ U ℕ

/-- What rides beside the buffers through every segment: the core's generator register at some state, and the core
    owing nothing. -/
abbrev Rest (c : Dev nD) : sProp 𝕄 :=
  iprop((∃ r, prngReg c r) ∗ ∃ S, owes (c : Thread nD τ) (0 : CellTallies nD τ sig Unit) S)

-- the library's lemmas are stated over the pinned configuration `pin pcs a p`; a record's fields over `pcs p`
set_option backward.isDefEq.respectTransparency.types false in
/-- The segment record of a region whose kernel uses only its staging buffers: entered from every unscoped buffer at
    `W`, left at `W'`. -/
def classA (pcs : P → PCfg sig Λ₀ Val) (a : (p : P) → (pcs p).Adm)
    (pdats : (p : P) → (c : Dev nD) → Dat τ Val Unit ℕ U ℕ (pin pcs a p) c)
    (defs₀ : Defs nD τ sig Val Λ₀) (𝒱₀ : Variants)
    (L : GSem nD τ sig → Finset Unit) (lv : GSem nD τ sig → Unit → ℕ) (p : P)
    (hw : WinFacts (pin pcs a p).spec)
    (hpos : ∀ w : Fin (pin pcs a p).W, 0 < ((pin pcs a p).spec w).block.numel)
    (harr : ∀ w, ((pin pcs a p).spec w).arr.IsWhole)
    (hstage : ∀ (w : Fin (pin pcs a p).W) (s : Fin ((pin pcs a p).spec w).nbuf), (((pin pcs a p).spec w).stage s).IsWhole)
    (hK : IsEmpty (Fin (pcs p).pre.K))
    (hΦ : ∀ c t, (pdats p c).Φ t = ΦA (pin pcs a p).spec c)
    (hq : ∀ c w, (pdats p c).q w = fullShare)
    (howed : ∀ c t, (pdats p c).owed t = 0)
    (hrec : ∀ c t, (pdats p c).recorded t = Set.univ)
    (hbody : ∀ c, BodyObligation (pdats p c) defs₀ 𝒱₀ () Set.univ)
    (W W' : Dev nD → Valuation τ sig Val)
    (hA : ∀ c w, (pdats p c).A w = W c (arrRef (pin pcs a p).spec w))
    (hF : ∀ c w, (pdats p c).arrAt w (pin pcs a p).N = W' c (arrRef (pin pcs a p).spec w))
    (hrest : ∀ c (b : Ref sig .tc), b ∉ Finset.univ.image (arrRef (pin pcs a p).spec) → W' c b = W c b) :
    RegionSeg pcs a pdats () defs₀ 𝒱₀ L lv p where
  win := hw.to₀
  block_pos := hpos
  stage_whole := hstage
  K := PEmpty
  osem k := k.elim
  ho := OwnSemFacts.none _
  hbody c := (hbody c).loose
  hwaits := hwaits_of_owed_zero pcs a pdats () L lv p howed
  pre c := iprop(StableHlo.held (c : Thread nD τ) (ucRefs τ sig) (W c) ∗ Rest c)
  post c := iprop(StableHlo.held (c : Thread nD τ) (ucRefs τ sig) (W' c) ∗ Rest c)
  X c := iprop(∃ r, prngReg c r)
  Y c := iprop(∃ r, prngReg c r)
  Z c := unscopedRest (pin pcs a p).spec c (fun b => W c b)
  hentry c := by
    -- the arrays split off the unscoped buffers; no table, so nothing is held for one; the core owes nothing
    haveI := hK
    have hsplit := arrays_of_unscopedBufs pcs a pdats hw harr c ((pdats p c).share_full (hq c)) (fun b => W c b) (hA c)
    rw [unscopedBufs_held] at hsplit
    have hnotable : (prefHeld (pcs p).pre c (fun _ => fullShare) (a p).1 : sProp 𝕄) = BI.emp := by
      unfold prefHeld; rw [Finset.univ_eq_empty, BI.bigSep_empty]
    rw [hnotable, ownSems0_none]
    iintro ⟨⟨Hheld, Hreg, Howes⟩, -, -⟩
    ihave Hsp := hsplit $$ Hheld
    icases Hsp with ⟨Harr, Hoth⟩
    imodintro
    isplitl [Harr]; · iexact Harr
    isplitr; · iempintro
    isplitl [Howes]
    · unfold Dat.owesAt owesWithin
      rw [howed c 0]
      icases Howes with ⟨%S, Howes⟩
      iexists S
      isplitr
      · ipureintro; intro x _; exact Or.inl (by rw [hrec c 0]; trivial)
      iexact Howes
    isplitl [Hreg]; · iexact Hreg
    iexact Hoth
  hin c := by
    rw [hΦ c 0]; unfold ΦA
    iintro ⟨Hreg, -, Hsc⟩
    isplitl [Hsc]; · iexact Hsc
    iexact Hreg
  hout c := by
    rw [hΦ c (Fin.last _), ownSems0_none]; unfold ΦA
    iintro ⟨Hsc, Hreg⟩
    isplitl [Hreg]; · iexact Hreg
    isplitr; · iempintro
    iexact Hsc
  hexit c := by
    -- the arrays, at what the write-backs left, rejoin the buffers that rode past: every unscoped buffer at `W'`
    have hjoin := unscopedBufs_of_arrays pcs a hw harr c pdats ((pdats p c).share_full (hq c))
      (fun b => W c b) (fun b => W' c b) ((pdats p c).arrAt · (pin pcs a p).N) (hF c) (hrest c)
    rw [unscopedBufs_held] at hjoin
    iintro ⟨Harr, Howes, Hreg, Hoth⟩
    imodintro
    isplitl [Harr Hoth]
    · iapply hjoin; isplitl [Harr] <;> iassumption
    isplitl [Hreg]; · iexact Hreg
    unfold Dat.owesAt owesWithin
    rw [howed c (Fin.last _)]
    icases Howes with ⟨%S, -, Howes⟩
    iexists S; iexact Howes

-- the library's lemmas are stated over the pinned configuration `pin pcs a p`; a record's fields over `pcs p`
set_option backward.isDefEq.respectTransparency.types false in
/-- The same record when several INPUT windows of the kernel may read one and the same array, so that the windows' arrays
    are not pairwise distinct. The buffers behind the arrays still split off the unscoped buffers (distinct buffers, each
    whole); how each buffer's full share is dealt among the windows on it, and gathered again after the region, depends on
    the kernel and is asked of the caller: `hsplit` (from every array buffer whole at `W` to every window's array at that
    window's share, at the entry contents) and `hjoin` (back, from the exit contents, to every array buffer whole at
    `W'`). Everything else is as in `classA`. -/
def classShared (pcs : P → PCfg sig Λ₀ Val) (a : (p : P) → (pcs p).Adm)
    (pdats : (p : P) → (c : Dev nD) → Dat τ Val Unit ℕ U ℕ (pin pcs a p) c)
    (defs₀ : Defs nD τ sig Val Λ₀) (𝒱₀ : Variants)
    (L : GSem nD τ sig → Finset Unit) (lv : GSem nD τ sig → Unit → ℕ) (p : P)
    (hw : WinFacts₀ (pin pcs a p).spec)
    (hpos : ∀ w : Fin (pin pcs a p).W, 0 < ((pin pcs a p).spec w).block.numel)
    (hstage : ∀ (w : Fin (pin pcs a p).W) (s : Fin ((pin pcs a p).spec w).nbuf), (((pin pcs a p).spec w).stage s).IsWhole)
    (hK : IsEmpty (Fin (pcs p).pre.K))
    (hΦ : ∀ c t, (pdats p c).Φ t = ΦA (pin pcs a p).spec c)
    (howed : ∀ c t, (pdats p c).owed t = 0)
    (hrec : ∀ c t, (pdats p c).recorded t = Set.univ)
    (hbody : ∀ c, BodyObligation (pdats p c) defs₀ 𝒱₀ () Set.univ)
    (W W' : Dev nD → Valuation τ sig Val)
    (hsplit : ∀ c, (arrBufs (pin pcs a p).spec c (fun b => W c b) : sProp 𝕄) ⊢ (pdats p c).arrays ((pdats p c).arrAt · 0))
    (hjoin : ∀ c, (pdats p c).arrays ((pdats p c).arrAt · (pin pcs a p).N)
      ⊢ (arrBufs (pin pcs a p).spec c (fun b => W' c b) : sProp 𝕄))
    (hrest : ∀ c (b : Ref sig .tc), b ∉ Finset.univ.image (arrRef (pin pcs a p).spec) → W' c b = W c b) :
    RegionSeg pcs a pdats () defs₀ 𝒱₀ L lv p where
  win := hw
  block_pos := hpos
  stage_whole := hstage
  K := PEmpty
  osem k := k.elim
  ho := OwnSemFacts.none _
  hbody c := (hbody c).loose
  hwaits := hwaits_of_owed_zero pcs a pdats () L lv p howed
  pre c := iprop(StableHlo.held (c : Thread nD τ) (ucRefs τ sig) (W c) ∗ Rest c)
  post c := iprop(StableHlo.held (c : Thread nD τ) (ucRefs τ sig) (W' c) ∗ Rest c)
  X c := iprop(∃ r, prngReg c r)
  Y c := iprop(∃ r, prngReg c r)
  Z c := unscopedRest (pin pcs a p).spec c (fun b => W c b)
  hentry c := by
    haveI := hK
    have hub : StableHlo.held (c : Thread nD τ) (ucRefs τ sig) (W c)
        = iprop((arrBufs (pin pcs a p).spec c (fun b => W c b) : sProp 𝕄) ∗ unscopedRest (pin pcs a p).spec c (fun b => W c b)) := by
      rw [← unscopedBufs_held]; exact unscopedBufs_split₀ (pin pcs a) p hw.arr_unscoped c (fun b => W c b)
    have hnotable : (prefHeld (pcs p).pre c (fun _ => fullShare) (a p).1 : sProp 𝕄) = BI.emp := by
      unfold prefHeld; rw [Finset.univ_eq_empty, BI.bigSep_empty]
    rw [hnotable, ownSems0_none, hub]
    iintro ⟨⟨⟨Hbufs, Hoth⟩, Hreg, Howes⟩, -, -⟩
    ihave Harr := (hsplit c) $$ Hbufs
    imodintro
    isplitl [Harr]; · iexact Harr
    isplitr; · iempintro
    isplitl [Howes]
    · unfold Dat.owesAt owesWithin
      rw [howed c 0]
      icases Howes with ⟨%S, Howes⟩
      iexists S
      isplitr
      · ipureintro; intro x _; exact Or.inl (by rw [hrec c 0]; trivial)
      iexact Howes
    isplitl [Hreg]; · iexact Hreg
    iexact Hoth
  hin c := by
    rw [hΦ c 0]; unfold ΦA
    iintro ⟨Hreg, -, Hsc⟩
    isplitl [Hsc]; · iexact Hsc
    iexact Hreg
  hout c := by
    rw [hΦ c (Fin.last _), ownSems0_none]; unfold ΦA
    iintro ⟨Hsc, Hreg⟩
    isplitl [Hreg]; · iexact Hreg
    isplitr; · iempintro
    iexact Hsc
  hexit c := by
    have hub : StableHlo.held (c : Thread nD τ) (ucRefs τ sig) (W' c)
        = iprop((arrBufs (pin pcs a p).spec c (fun b => W' c b) : sProp 𝕄) ∗ unscopedRest (pin pcs a p).spec c (fun b => W' c b)) := by
      rw [← unscopedBufs_held]; exact unscopedBufs_split₀ (pin pcs a) p hw.arr_unscoped c (fun b => W' c b)
    have hoth : (unscopedRest (pin pcs a p).spec c (fun b => W c b) : sProp 𝕄)
        = unscopedRest (pin pcs a p).spec c (fun b => W' c b) := by
      unfold unscopedRest
      exact bigSep_congr fun b hb => by dsimp only; rw [hrest c b (Finset.mem_sdiff.mp hb).2]
    rw [hub, ← hoth]
    iintro ⟨Harr, Howes, Hreg, Hoth⟩
    ihave Hbufs := (hjoin c) $$ Harr
    imodintro
    isplitl [Hbufs Hoth]
    · isplitl [Hbufs]; · iexact Hbufs
      iexact Hoth
    isplitl [Hreg]; · iexact Hreg
    unfold Dat.owesAt owesWithin
    rw [howed c (Fin.last _)]
    icases Howes with ⟨%S, -, Howes⟩
    iexists S; iexact Howes

end LibRegionRecord

end
-- ==== Proof.LibRegionTracked.lean ====
/-
  A kernel region of a program of several regions, as a segment record, for a kernel that carries state between points.

  A region of @main launches one pipelined kernel: at every grid point each window's block is fetched into a staging
  buffer, the body runs, and each output window's buffer is written back. The rule for a program of several regions
  takes, per region, a record saying how the thread's resources are sorted before the region, what the body's invariant
  is made of, and how everything is put back afterwards.

  Here the kernel keeps scratch contents from one point to the next (an accumulator that a later point reads), so the
  invariant is not one assertion but depends on the point: at point t it says what the scratch buffers hold after the
  points before t. The region's two ends need only this of it: the first invariant follows from the generator register
  and the scoped non-staging buffers at any contents whatever, and the last invariant gives those back. Several input
  windows may read one and the same array; the buffers behind the arrays still split off the unscoped buffers, and the
  dealing of each buffer's full share among the windows on it, and its gathering after the region, is asked of the caller.
    before   every unscoped buffer of the core at contents `W`, the generator register at some state, nothing owed;
    entry    the array buffers split off at the contents `W` gives them and are dealt to the windows (`hsplit`); the
             others ride past the region untouched;
    inside   the proof data's invariant, point by point (`hin` at the first, `hout` at the last);
    exit     the windows' arrays, at what the write-backs left, are gathered into the array buffers at `W'` (`hjoin`) and
             rejoin the others, which `W'` leaves as `W` had them (`hrest`).
-/
import Idealize.ShloMosaic.Lib.Pipeline.Frame
import Idealize.ShloMosaic.Lib.Pipeline.Regions
import Idealize.ShloMosaic.Lib.Pipeline.RegionsLoop

noncomputable section

namespace LibRegionTracked

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type} {U : Type} [URA U]
variable {Λ₀ : Idealize.SL.Sem.Labels} {P : Type} [Fintype P]

local notation "𝕄" => MT nD τ sig Unit Val ℕ U ℕ

/-- What rides beside the buffers through every segment: the core's generator register at some state, and the core
    owing nothing. -/
abbrev Rest (c : Dev nD) : sProp 𝕄 :=
  iprop((∃ r, prngReg c r) ∗ ∃ S, owes (c : Thread nD τ) (0 : CellTallies nD τ sig Unit) S)

-- the library's lemmas are stated over the pinned configuration `pin pcs a p`; a record's fields over `pcs p`
set_option backward.isDefEq.respectTransparency.types false in
/-- The segment record of a region whose kernel carries scratch contents from point to point and whose input windows may
    share arrays. Entered from every unscoped buffer at `W`, left at `W'`; the buffers behind the arrays split off the
    unscoped buffers, and how each buffer's full share is dealt among the windows on it and gathered again is asked of
    the caller (`hsplit`, `hjoin`). The invariant is the proof data's own, point by point: `hin` makes the first one from
    the generator register and the scoped buffers no window stages, `hout` gets them back from the last one. -/
def trackedShared (pcs : P → PCfg sig Λ₀ Val) (a : (p : P) → (pcs p).Adm)
    (pdats : (p : P) → (c : Dev nD) → Dat τ Val Unit ℕ U ℕ (pin pcs a p) c)
    (defs₀ : Defs nD τ sig Val Λ₀) (𝒱₀ : Variants)
    (L : GSem nD τ sig → Finset Unit) (lv : GSem nD τ sig → Unit → ℕ) (p : P)
    (hw : WinFacts₀ (pin pcs a p).spec)
    (hpos : ∀ w : Fin (pin pcs a p).W, 0 < ((pin pcs a p).spec w).block.numel)
    (hstage : ∀ (w : Fin (pin pcs a p).W) (s : Fin ((pin pcs a p).spec w).nbuf), (((pin pcs a p).spec w).stage s).IsWhole)
    (hK : IsEmpty (Fin (pcs p).pre.K))
    (hin : ∀ c, iprop((∃ r, prngReg c r) ∗ scopedRest (pin pcs a p).spec c) ⊢ (pdats p c).Φ 0)
    (hout : ∀ c, (pdats p c).Φ (Fin.last (pin pcs a p).N) ⊢ iprop((∃ r, prngReg c r) ∗ scopedRest (pin pcs a p).spec c))
    (howed : ∀ c t, (pdats p c).owed t = 0)
    (hrec : ∀ c t, (pdats p c).recorded t = Set.univ)
    (hbody : ∀ c, BodyObligation (pdats p c) defs₀ 𝒱₀ () Set.univ)
    (W W' : Dev nD → Valuation τ sig Val)
    (hsplit : ∀ c, (arrBufs (pin pcs a p).spec c (fun b => W c b) : sProp 𝕄) ⊢ (pdats p c).arrays ((pdats p c).arrAt · 0))
    (hjoin : ∀ c, (pdats p c).arrays ((pdats p c).arrAt · (pin pcs a p).N)
      ⊢ (arrBufs (pin pcs a p).spec c (fun b => W' c b) : sProp 𝕄))
    (hrest : ∀ c (b : Ref sig .tc), b ∉ Finset.univ.image (arrRef (pin pcs a p).spec) → W' c b = W c b) :
    RegionSeg pcs a pdats () defs₀ 𝒱₀ L lv p where
  win := hw
  block_pos := hpos
  stage_whole := hstage
  K := PEmpty
  osem k := k.elim
  ho := OwnSemFacts.none _
  hbody c := (hbody c).loose
  hwaits := hwaits_of_owed_zero pcs a pdats () L lv p howed
  pre c := iprop(StableHlo.held (c : Thread nD τ) (ucRefs τ sig) (W c) ∗ Rest c)
  post c := iprop(StableHlo.held (c : Thread nD τ) (ucRefs τ sig) (W' c) ∗ Rest c)
  X c := iprop(∃ r, prngReg c r)
  Y c := iprop(∃ r, prngReg c r)
  Z c := unscopedRest (pin pcs a p).spec c (fun b => W c b)
  hentry c := by
    haveI := hK
    have hub : StableHlo.held (c : Thread nD τ) (ucRefs τ sig) (W c)
        = iprop((arrBufs (pin pcs a p).spec c (fun b => W c b) : sProp 𝕄) ∗ unscopedRest (pin pcs a p).spec c (fun b => W c b)) := by
      rw [← unscopedBufs_held]; exact unscopedBufs_split₀ (pin pcs a) p hw.arr_unscoped c (fun b => W c b)
    have hnotable : (prefHeld (pcs p).pre c (fun _ => fullShare) (a p).1 : sProp 𝕄) = BI.emp := by
      unfold prefHeld; rw [Finset.univ_eq_empty, BI.bigSep_empty]
    rw [hnotable, ownSems0_none, hub]
    iintro ⟨⟨⟨Hbufs, Hoth⟩, Hreg, Howes⟩, -, -⟩
    ihave Harr := (hsplit c) $$ Hbufs
    imodintro
    isplitl [Harr]; · iexact Harr
    isplitr; · iempintro
    isplitl [Howes]
    · unfold Dat.owesAt owesWithin
      rw [howed c 0]
      icases Howes with ⟨%S, Howes⟩
      iexists S
      isplitr
      · ipureintro; intro x _; exact Or.inl (by rw [hrec c 0]; trivial)
      iexact Howes
    isplitl [Hreg]; · iexact Hreg
    iexact Hoth
  hin c := by
    iintro ⟨Hreg, -, Hsc⟩
    iapply (hin c)
    isplitl [Hreg]; · iexact Hreg
    iexact Hsc
  hout c := by
    rw [ownSems0_none]
    iintro Hinv
    ihave H := (hout c) $$ Hinv
    icases H with ⟨Hreg, Hsc⟩
    isplitl [Hreg]; · iexact Hreg
    isplitr; · iempintro
    iexact Hsc
  hexit c := by
    have hub : StableHlo.held (c : Thread nD τ) (ucRefs τ sig) (W' c)
        = iprop((arrBufs (pin pcs a p).spec c (fun b => W' c b) : sProp 𝕄) ∗ unscopedRest (pin pcs a p).spec c (fun b => W' c b)) := by
      rw [← unscopedBufs_held]; exact unscopedBufs_split₀ (pin pcs a) p hw.arr_unscoped c (fun b => W' c b)
    have hoth : (unscopedRest (pin pcs a p).spec c (fun b => W c b) : sProp 𝕄)
        = unscopedRest (pin pcs a p).spec c (fun b => W' c b) := by
      unfold unscopedRest
      exact bigSep_congr fun b hb => by dsimp only; rw [hrest c b (Finset.mem_sdiff.mp hb).2]
    rw [hub, ← hoth]
    iintro ⟨Harr, Howes, Hreg, Hoth⟩
    ihave Hbufs := (hjoin c) $$ Harr
    imodintro
    isplitl [Hbufs Hoth]
    · isplitl [Hbufs]; · iexact Hbufs
      iexact Hoth
    isplitl [Hreg]; · iexact Hreg
    unfold Dat.owesAt owesWithin
    rw [howed c (Fin.last _)]
    icases Howes with ⟨%S, -, Howes⟩
    iexists S; iexact Howes

end LibRegionTracked

end
-- ==== Proof.KernelRun.lean ====
/-
  The run of the kernel's program: its eight kernel regions as segments among the stretches of host operations.

  Between two items of @main a core holds every unscoped buffer whole. The contents are a fold through @main: the launch
  contents, then what each stretch of host operations computes, then, after a region, the region's output arrays at what
  its write-backs leave and every other buffer as the region found it. Each region's proof data are taken at the
  contents the region is entered from; six regions use nothing but their staging buffers, two carry two scratch rows
  from point to point. The run ends with the result array at what the last region leaves and the arguments as launched.
-/
import proofs.«107691_j23957327577190_1_alg».proof.Proof.KernelBody0
import proofs.«107691_j23957327577190_1_alg».proof.Proof.KernelBody1
import proofs.«107691_j23957327577190_1_alg».proof.Proof.KernelBody2
import proofs.«107691_j23957327577190_1_alg».proof.Proof.KernelBody3
import proofs.«107691_j23957327577190_1_alg».proof.Proof.KernelBody4
import proofs.«107691_j23957327577190_1_alg».proof.Proof.KernelBody5
import proofs.«107691_j23957327577190_1_alg».proof.Proof.KernelBody6
import proofs.«107691_j23957327577190_1_alg».proof.Proof.KernelBody7
import proofs.«107691_j23957327577190_1_alg».proof.Proof.LibRegionTrackedWhole
import proofs.«107691_j23957327577190_1_alg».proof.Proof.KernelRunCond
import proofs.«107691_j23957327577190_1_alg».proof.Proof.LibRegionRecord
import proofs.«107691_j23957327577190_1_alg».proof.Proof.LibRegionTracked
import Idealize.ShloMosaic.Lib.Pipeline.Kit

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)
open Cert.Kernel Cert.Kernel.Gen

variable {F : FTy → Type} [FloatOps F]

/-! ## The plain regions' proof data: the invariant is the class's, nothing is owed, every share is full -/
section DatFacts
variable (V : (c : Dev nD) → (b : Ref sig .tc) → Buf (Elt F) ((c : Thread nD τ).loc b))
theorem dat0_Φ (c : Dev nD) (t) : (dat0 V c).Φ t = Pipeline.ΦA spec0 c := rfl
theorem dat0_q (c : Dev nD) (w) : (dat0 V c).q w = fullShare := rfl
theorem dat0_owed (c : Dev nD) (t) : (dat0 V c).owed t = 0 := rfl
theorem dat0_rec (c : Dev nD) (t) : (dat0 V c).recorded t = Set.univ := rfl
theorem dat2_Φ (c : Dev nD) (t) : (dat2 V c).Φ t = Pipeline.ΦA spec2 c := rfl
theorem dat2_q (c : Dev nD) (w) : (dat2 V c).q w = fullShare := rfl
theorem dat2_owed (c : Dev nD) (t) : (dat2 V c).owed t = 0 := rfl
theorem dat2_rec (c : Dev nD) (t) : (dat2 V c).recorded t = Set.univ := rfl
theorem dat3_Φ (c : Dev nD) (t) : (dat3 V c).Φ t = Pipeline.ΦA spec3 c := rfl
theorem dat3_q (c : Dev nD) (w) : (dat3 V c).q w = fullShare := rfl
theorem dat3_owed (c : Dev nD) (t) : (dat3 V c).owed t = 0 := rfl
theorem dat3_rec (c : Dev nD) (t) : (dat3 V c).recorded t = Set.univ := rfl
theorem dat5_Φ (c : Dev nD) (t) : (dat5 V c).Φ t = Pipeline.ΦA spec5 c := rfl
theorem dat5_q (c : Dev nD) (w) : (dat5 V c).q w = fullShare := rfl
theorem dat5_owed (c : Dev nD) (t) : (dat5 V c).owed t = 0 := rfl
theorem dat5_rec (c : Dev nD) (t) : (dat5 V c).recorded t = Set.univ := rfl
theorem dat6_Φ (c : Dev nD) (t) : (dat6 V c).Φ t = Pipeline.ΦA spec6 c := rfl
theorem dat6_q (c : Dev nD) (w) : (dat6 V c).q w = fullShare := rfl
theorem dat6_owed (c : Dev nD) (t) : (dat6 V c).owed t = 0 := rfl
theorem dat6_rec (c : Dev nD) (t) : (dat6 V c).recorded t = Set.univ := rfl
theorem dat7_Φ (c : Dev nD) (t) : (dat7 V c).Φ t = Pipeline.ΦA spec7 c := rfl
theorem dat7_q (c : Dev nD) (w) : (dat7 V c).q w = fullShare := rfl
theorem dat7_owed (c : Dev nD) (t) : (dat7 V c).owed t = 0 := rfl
theorem dat7_rec (c : Dev nD) (t) : (dat7 V c).recorded t = Set.univ := rfl
end DatFacts

section Fold

variable (m : (ℓ : Loc nD τ sig) → Buf (Elt F) ℓ)

local notation "𝕄" => MT nD τ sig Unit (Elt F) ℕ (UR sig nD τ) ℕ

/-! ## The buffers' contents between the items of @main

  The launch contents, then what each stretch of host operations computes, then, after a region, the region's output
  arrays at what its write-backs leave (the proof data's array after the last point) and every other buffer as the
  region found it. -/

/-- A core's buffer contents read at the TensorCore's references: what a region's proof data take. -/
abbrev atTc (X : Dev nD → Valuation τ sig (Elt F)) : (c : Dev nD) → (b : Ref sig .tc) → Buf (Elt F) ((c : Thread nD τ).loc b) :=
  fun c b => X c b

/-- When region 0 is entered: the launch contents after the first five stretches of host operations. -/
abbrev X5 : Dev nD → Valuation τ sig (Elt F) := fun c => V5 m c
/-- After region 0. -/
def X6 (c : Dev nD) : Valuation τ sig (Elt F) :=
  Function.update (X5 m c) main_v18 ((dat0 (atTc (X5 m)) c).arrAt 3 cfg0.N)
/-- When region 1 is entered. -/
abbrev X8 : Dev nD → Valuation τ sig (Elt F) := fun c => StableHlo.after hostOps1_1 (StableHlo.after hostOps1 (X6 m c))
/-- After region 1. -/
def X9 (c : Dev nD) : Valuation τ sig (Elt F) :=
  Function.update (Function.update (Function.update (X8 m c) main_v25_0 ((dat1 (atTc (X8 m)) c).arrAt 3 cfg1.N))
    main_v25_1 ((dat1 (atTc (X8 m)) c).arrAt 4 cfg1.N)) main_v25_2 ((dat1 (atTc (X8 m)) c).arrAt 5 cfg1.N)
/-- When region 2 is entered. -/
abbrev X10 : Dev nD → Valuation τ sig (Elt F) := fun c => StableHlo.after hostOps2 (X9 m c)
/-- After region 2. -/
def X11 (c : Dev nD) : Valuation τ sig (Elt F) :=
  Function.update (X10 m c) main_v43 ((dat2 (atTc (X10 m)) c).arrAt 5 cfg2.N)
/-- When region 3 is entered. -/
abbrev X12 : Dev nD → Valuation τ sig (Elt F) := fun c => StableHlo.after hostOps3 (X11 m c)
/-- After region 3. -/
def X13 (c : Dev nD) : Valuation τ sig (Elt F) :=
  Function.update (X12 m c) main_v45 ((dat3 (atTc (X12 m)) c).arrAt 3 cfg3.N)
/-- When region 4 is entered. -/
abbrev X15 : Dev nD → Valuation τ sig (Elt F) := fun c => StableHlo.after hostOps4_1 (StableHlo.after hostOps4 (X13 m c))
/-- After region 4. -/
def X16 (c : Dev nD) : Valuation τ sig (Elt F) :=
  Function.update (Function.update (Function.update (X15 m c) main_v52_0 ((dat4 (atTc (X15 m)) c).arrAt 3 cfg4.N))
    main_v52_1 ((dat4 (atTc (X15 m)) c).arrAt 4 cfg4.N)) main_v52_2 ((dat4 (atTc (X15 m)) c).arrAt 5 cfg4.N)
/-- When region 5 is entered. -/
abbrev X17 : Dev nD → Valuation τ sig (Elt F) := fun c => StableHlo.after hostOps5 (X16 m c)
/-- After region 5. -/
def X18 (c : Dev nD) : Valuation τ sig (Elt F) :=
  Function.update (X17 m c) main_v70 ((dat5 (atTc (X17 m)) c).arrAt 5 cfg5.N)
/-- When region 6 is entered. -/
abbrev X19 : Dev nD → Valuation τ sig (Elt F) := fun c => StableHlo.after hostOps6 (X18 m c)
/-- After region 6. -/
def X20 (c : Dev nD) : Valuation τ sig (Elt F) :=
  Function.update (X19 m c) main_v72 ((dat6 (atTc (X19 m)) c).arrAt 3 cfg6.N)
/-- When region 7 is entered. -/
abbrev X22 : Dev nD → Valuation τ sig (Elt F) := fun c => StableHlo.after hostOps7_1 (StableHlo.after hostOps7 (X20 m c))
/-- After region 7: the final contents. -/
def X23 (c : Dev nD) : Valuation τ sig (Elt F) :=
  Function.update (X22 m c) main_v79 ((dat7 (atTc (X22 m)) c).arrAt 3 cfg7.N)

/-- What the regions leave, as the run rule's unknowns: after item J−1 the buffers are at the J-th contents above. -/
def outs : Outs (F := F) := fun J r c => match J with
  | 6 => X6 m c r | 9 => X9 m c r | 11 => X11 m c r | 13 => X13 m c r
  | 16 => X16 m c r | 18 => X18 m c r | 20 => X20 m c r | _ => X23 m c r

/-! ## The run rule's valuations, at these unknowns, are the contents above -/

theorem V6_eq (c : Dev nD) : V6 m (outs m) c = X6 m c := by
  show Function.update (V5 m c) main_v18 (X6 m c main_v18) = X6 m c
  unfold X6; rw [Function.update_self]
theorem V8_eq (c : Dev nD) : V8 m (outs m) c = X8 m c := by
  show StableHlo.after hostOps1_1 (StableHlo.after hostOps1 (V6 m (outs m) c)) = _
  rw [V6_eq]
theorem V9_eq (c : Dev nD) : V9 m (outs m) c = X9 m c := by
  have h01 : (Proc.devRef .tc main_v25_0 : DevRef τ sig) ≠ Proc.devRef .tc main_v25_1 := StableHlo.devRef_ne_of_ne (by decide)
  have h02 : (Proc.devRef .tc main_v25_0 : DevRef τ sig) ≠ Proc.devRef .tc main_v25_2 := StableHlo.devRef_ne_of_ne (by decide)
  have h12 : (Proc.devRef .tc main_v25_1 : DevRef τ sig) ≠ Proc.devRef .tc main_v25_2 := StableHlo.devRef_ne_of_ne (by decide)
  show Function.update (Function.update (Function.update (V8 m (outs m) c) main_v25_0 (X9 m c main_v25_0)) main_v25_1 (X9 m c main_v25_1)) main_v25_2 (X9 m c main_v25_2) = X9 m c
  rw [V8_eq]; unfold X9
  simp only [Function.update_self, Function.update_of_ne h01, Function.update_of_ne h02, Function.update_of_ne h12]
theorem V10_eq (c : Dev nD) : V10 m (outs m) c = X10 m c := by
  show StableHlo.after hostOps2 (V9 m (outs m) c) = _
  rw [V9_eq]
theorem V11_eq (c : Dev nD) : V11 m (outs m) c = X11 m c := by
  show Function.update (V10 m (outs m) c) main_v43 (X11 m c main_v43) = X11 m c
  rw [V10_eq]; unfold X11; rw [Function.update_self]
theorem V12_eq (c : Dev nD) : V12 m (outs m) c = X12 m c := by
  show StableHlo.after hostOps3 (V11 m (outs m) c) = _
  rw [V11_eq]
theorem V13_eq (c : Dev nD) : V13 m (outs m) c = X13 m c := by
  show Function.update (V12 m (outs m) c) main_v45 (X13 m c main_v45) = X13 m c
  rw [V12_eq]; unfold X13; rw [Function.update_self]
theorem V15_eq (c : Dev nD) : V15 m (outs m) c = X15 m c := by
  show StableHlo.after hostOps4_1 (StableHlo.after hostOps4 (V13 m (outs m) c)) = _
  rw [V13_eq]
theorem V16_eq (c : Dev nD) : V16 m (outs m) c = X16 m c := by
  have h01 : (Proc.devRef .tc main_v52_0 : DevRef τ sig) ≠ Proc.devRef .tc main_v52_1 := StableHlo.devRef_ne_of_ne (by decide)
  have h02 : (Proc.devRef .tc main_v52_0 : DevRef τ sig) ≠ Proc.devRef .tc main_v52_2 := StableHlo.devRef_ne_of_ne (by decide)
  have h12 : (Proc.devRef .tc main_v52_1 : DevRef τ sig) ≠ Proc.devRef .tc main_v52_2 := StableHlo.devRef_ne_of_ne (by decide)
  show Function.update (Function.update (Function.update (V15 m (outs m) c) main_v52_0 (X16 m c main_v52_0)) main_v52_1 (X16 m c main_v52_1)) main_v52_2 (X16 m c main_v52_2) = X16 m c
  rw [V15_eq]; unfold X16
  simp only [Function.update_self, Function.update_of_ne h01, Function.update_of_ne h02, Function.update_of_ne h12]
theorem V17_eq (c : Dev nD) : V17 m (outs m) c = X17 m c := by
  show StableHlo.after hostOps5 (V16 m (outs m) c) = _
  rw [V16_eq]
theorem V18_eq (c : Dev nD) : V18 m (outs m) c = X18 m c := by
  show Function.update (V17 m (outs m) c) main_v70 (X18 m c main_v70) = X18 m c
  rw [V17_eq]; unfold X18; rw [Function.update_self]
theorem V19_eq (c : Dev nD) : V19 m (outs m) c = X19 m c := by
  show StableHlo.after hostOps6 (V18 m (outs m) c) = _
  rw [V18_eq]
theorem V20_eq (c : Dev nD) : V20 m (outs m) c = X20 m c := by
  show Function.update (V19 m (outs m) c) main_v72 (X20 m c main_v72) = X20 m c
  rw [V19_eq]; unfold X20; rw [Function.update_self]
theorem V22_eq (c : Dev nD) : V22 m (outs m) c = X22 m c := by
  show StableHlo.after hostOps7_1 (StableHlo.after hostOps7 (V20 m (outs m) c)) = _
  rw [V20_eq]
theorem V23_eq (c : Dev nD) : V23 m (outs m) c = X23 m c := by
  show Function.update (V22 m (outs m) c) main_v79 (X23 m c main_v79) = X23 m c
  rw [V22_eq]; unfold X23; rw [Function.update_self]

/-! ## The proof data family, the regions' records, the run -/

/-- No core owes another anything: no level is assigned. -/
abbrev L : GSem nD τ sig → Finset Unit := fun _ => ∅
abbrev lv : GSem nD τ sig → Unit → ℕ := fun _ _ => 0

/-- Every pipeline's proof data, each at its region's entry contents (a literal match on the pipeline's number). -/
def pdats : (p : Fin 8) → (c : Dev nD) → Dat τ (Elt F) Unit ℕ (UR sig nD τ) ℕ (cfgs p) c
  | ⟨0, _⟩ => fun c => dat0 (atTc (X5 m)) c
  | ⟨1, _⟩ => fun c => dat1 (atTc (X8 m)) c
  | ⟨2, _⟩ => fun c => dat2 (atTc (X10 m)) c
  | ⟨3, _⟩ => fun c => dat3 (atTc (X12 m)) c
  | ⟨4, _⟩ => fun c => dat4 (atTc (X15 m)) c
  | ⟨5, _⟩ => fun c => dat5 (atTc (X17 m)) c
  | ⟨6, _⟩ => fun c => dat6 (atTc (X19 m)) c
  | ⟨7, _⟩ => fun c => dat7 (atTc (X22 m)) c

/-- A reference that is none of a region's arrays other than its one output keeps, after the region, what it held. -/
theorem upd1_rest {X : Valuation τ sig (Elt F)} {o : Ref sig .tc} {v} {n : ℕ} {spec : Fin n → Pipeline.WinSpec sig 1}
    (ho : ∃ w, Pipeline.arrRef spec w = o) (b : Ref sig .tc) (hb : b ∉ Finset.univ.image (Pipeline.arrRef spec)) :
    Function.update X o v b = X b := by
  obtain ⟨w, hw⟩ := ho
  refine Function.update_of_ne (StableHlo.devRef_ne_of_ne fun e => hb ?_) _ _
  exact Finset.mem_image.mpr ⟨w, Finset.mem_univ _, hw.trans e.symm⟩

/-- Reading an updated valuation at the updated reference, when the two references are equal by a proof rather than by
    their spelling. -/
theorem update_at {X : Valuation τ sig (Elt F)} {a b : DevRef τ sig} (e : b = a) (v) : HEq (Function.update X a v b) v := by
  subst e; rw [Function.update_self]

/-- Region 0's windows' arrays, by name. -/
theorem arr0_0 : Pipeline.arrRef spec0 (0 : Fin 4) = main_arg0 := by decide
theorem arr0_1 : Pipeline.arrRef spec0 (1 : Fin 4) = main_arg3 := by decide
theorem arr0_2 : Pipeline.arrRef spec0 (2 : Fin 4) = main_v17 := by decide
theorem arr0_3 : Pipeline.arrRef spec0 (3 : Fin 4) = main_v18 := by decide
theorem X6_arr_0 (c : Dev nD) : (dat0 (atTc (X5 m)) c).arrAt (0 : Fin 4) cfg0.N = X6 m c (Pipeline.arrRef spec0 (0 : Fin 4)) := by
  have h0 : (Proc.devRef .tc (Pipeline.arrRef spec0 (0 : Fin 4)) : DevRef τ sig) ≠ Proc.devRef .tc main_v18 := StableHlo.devRef_ne_of_ne (by decide)
  unfold X6
  rw [Function.update_of_ne h0]
  exact ((dat0 (atTc (X5 m)) c).arrAt_in (0 : Fin 4) rfl _).trans (A_eq0 (atTc (X5 m)) c (0 : Fin 4))
theorem X6_arr_1 (c : Dev nD) : (dat0 (atTc (X5 m)) c).arrAt (1 : Fin 4) cfg0.N = X6 m c (Pipeline.arrRef spec0 (1 : Fin 4)) := by
  have h0 : (Proc.devRef .tc (Pipeline.arrRef spec0 (1 : Fin 4)) : DevRef τ sig) ≠ Proc.devRef .tc main_v18 := StableHlo.devRef_ne_of_ne (by decide)
  unfold X6
  rw [Function.update_of_ne h0]
  exact ((dat0 (atTc (X5 m)) c).arrAt_in (1 : Fin 4) rfl _).trans (A_eq0 (atTc (X5 m)) c (1 : Fin 4))
theorem X6_arr_2 (c : Dev nD) : (dat0 (atTc (X5 m)) c).arrAt (2 : Fin 4) cfg0.N = X6 m c (Pipeline.arrRef spec0 (2 : Fin 4)) := by
  have h0 : (Proc.devRef .tc (Pipeline.arrRef spec0 (2 : Fin 4)) : DevRef τ sig) ≠ Proc.devRef .tc main_v18 := StableHlo.devRef_ne_of_ne (by decide)
  unfold X6
  rw [Function.update_of_ne h0]
  exact ((dat0 (atTc (X5 m)) c).arrAt_in (2 : Fin 4) rfl _).trans (A_eq0 (atTc (X5 m)) c (2 : Fin 4))
theorem X6_arr_3 (c : Dev nD) : (dat0 (atTc (X5 m)) c).arrAt (3 : Fin 4) cfg0.N = X6 m c (Pipeline.arrRef spec0 (3 : Fin 4)) := by
  unfold X6
  exact (eq_of_heq (update_at (congrArg (Proc.devRef (τ := τ) .tc) arr0_3) _)).symm
theorem X6_arr (c : Dev nD) : ∀ w : Fin 4, (dat0 (atTc (X5 m)) c).arrAt w cfg0.N = X6 m c (Pipeline.arrRef spec0 w)
  | ⟨0, _⟩ => X6_arr_0 m c
  | ⟨1, _⟩ => X6_arr_1 m c
  | ⟨2, _⟩ => X6_arr_2 m c
  | ⟨3, _⟩ => X6_arr_3 m c
  | ⟨_ + 4, h⟩ => absurd h (Nat.not_lt.2 (Nat.le_add_left _ _))
theorem X6_rest (c : Dev nD) (b : Ref sig .tc) (hb : b ∉ Finset.univ.image (Pipeline.arrRef spec0)) : X6 m c b = X5 m c b := by
  unfold X6
  rw [Function.update_of_ne (StableHlo.devRef_ne_of_ne (fun e => hb (Finset.mem_image.mpr ⟨(3 : Fin 4), Finset.mem_univ _, arr0_3.trans e.symm⟩)) : (Proc.devRef .tc b : DevRef τ sig) ≠ Proc.devRef .tc main_v18)]

/-- Region 0 as a segment: entered from every unscoped buffer at the contents before it, left at the contents after it. -/
def R0 : RegionSeg (pcfgs (F := F)) adm (pdats m) () defs₀ Variants.none L lv 0 :=
  LibRegionRecord.classA (pcfgs (F := F)) adm (pdats m) defs₀ Variants.none L lv 0
    launch0.win launch0.block_pos launch0.arr_whole launch0.stage_whole ⟨fun k => k.elim0⟩
    (fun c t => dat0_Φ (atTc (X5 m)) c t) (fun c w => dat0_q (atTc (X5 m)) c w) (fun c t => dat0_owed (atTc (X5 m)) c t) (fun c t => dat0_rec (atTc (X5 m)) c t)
    (fun c => body_obligation0 (atTc (X5 m)) c) (X5 m) (X6 m)
    (fun c w => A_eq0 (atTc (X5 m)) c w) (fun c w => X6_arr m c w) (fun c b hb => X6_rest m c b hb)

/-- Region 1's windows' arrays, by name. -/
theorem arr1_0 : Pipeline.arrRef spec1 (0 : Fin 6) = main_v22 := by decide
theorem arr1_1 : Pipeline.arrRef spec1 (1 : Fin 6) = main_v23 := by decide
theorem arr1_2 : Pipeline.arrRef spec1 (2 : Fin 6) = main_v24 := by decide
theorem arr1_3 : Pipeline.arrRef spec1 (3 : Fin 6) = main_v25_0 := by decide
theorem arr1_4 : Pipeline.arrRef spec1 (4 : Fin 6) = main_v25_1 := by decide
theorem arr1_5 : Pipeline.arrRef spec1 (5 : Fin 6) = main_v25_2 := by decide
theorem X9_arr_0 (c : Dev nD) : (dat1 (atTc (X8 m)) c).arrAt (0 : Fin 6) cfg1.N = X9 m c (Pipeline.arrRef spec1 (0 : Fin 6)) := by
  have h0 : (Proc.devRef .tc (Pipeline.arrRef spec1 (0 : Fin 6)) : DevRef τ sig) ≠ Proc.devRef .tc main_v25_0 := StableHlo.devRef_ne_of_ne (by decide)
  have h1 : (Proc.devRef .tc (Pipeline.arrRef spec1 (0 : Fin 6)) : DevRef τ sig) ≠ Proc.devRef .tc main_v25_1 := StableHlo.devRef_ne_of_ne (by decide)
  have h2 : (Proc.devRef .tc (Pipeline.arrRef spec1 (0 : Fin 6)) : DevRef τ sig) ≠ Proc.devRef .tc main_v25_2 := StableHlo.devRef_ne_of_ne (by decide)
  unfold X9
  rw [Function.update_of_ne h2, Function.update_of_ne h1, Function.update_of_ne h0]
  exact ((dat1 (atTc (X8 m)) c).arrAt_in (0 : Fin 6) rfl _).trans (A_eq1 (atTc (X8 m)) c (0 : Fin 6))
theorem X9_arr_1 (c : Dev nD) : (dat1 (atTc (X8 m)) c).arrAt (1 : Fin 6) cfg1.N = X9 m c (Pipeline.arrRef spec1 (1 : Fin 6)) := by
  have h0 : (Proc.devRef .tc (Pipeline.arrRef spec1 (1 : Fin 6)) : DevRef τ sig) ≠ Proc.devRef .tc main_v25_0 := StableHlo.devRef_ne_of_ne (by decide)
  have h1 : (Proc.devRef .tc (Pipeline.arrRef spec1 (1 : Fin 6)) : DevRef τ sig) ≠ Proc.devRef .tc main_v25_1 := StableHlo.devRef_ne_of_ne (by decide)
  have h2 : (Proc.devRef .tc (Pipeline.arrRef spec1 (1 : Fin 6)) : DevRef τ sig) ≠ Proc.devRef .tc main_v25_2 := StableHlo.devRef_ne_of_ne (by decide)
  unfold X9
  rw [Function.update_of_ne h2, Function.update_of_ne h1, Function.update_of_ne h0]
  exact ((dat1 (atTc (X8 m)) c).arrAt_in (1 : Fin 6) rfl _).trans (A_eq1 (atTc (X8 m)) c (1 : Fin 6))
theorem X9_arr_2 (c : Dev nD) : (dat1 (atTc (X8 m)) c).arrAt (2 : Fin 6) cfg1.N = X9 m c (Pipeline.arrRef spec1 (2 : Fin 6)) := by
  have h0 : (Proc.devRef .tc (Pipeline.arrRef spec1 (2 : Fin 6)) : DevRef τ sig) ≠ Proc.devRef .tc main_v25_0 := StableHlo.devRef_ne_of_ne (by decide)
  have h1 : (Proc.devRef .tc (Pipeline.arrRef spec1 (2 : Fin 6)) : DevRef τ sig) ≠ Proc.devRef .tc main_v25_1 := StableHlo.devRef_ne_of_ne (by decide)
  have h2 : (Proc.devRef .tc (Pipeline.arrRef spec1 (2 : Fin 6)) : DevRef τ sig) ≠ Proc.devRef .tc main_v25_2 := StableHlo.devRef_ne_of_ne (by decide)
  unfold X9
  rw [Function.update_of_ne h2, Function.update_of_ne h1, Function.update_of_ne h0]
  exact ((dat1 (atTc (X8 m)) c).arrAt_in (2 : Fin 6) rfl _).trans (A_eq1 (atTc (X8 m)) c (2 : Fin 6))
theorem X9_arr_3 (c : Dev nD) : (dat1 (atTc (X8 m)) c).arrAt (3 : Fin 6) cfg1.N = X9 m c (Pipeline.arrRef spec1 (3 : Fin 6)) := by
  have h0 : (Proc.devRef .tc (Pipeline.arrRef spec1 (3 : Fin 6)) : DevRef τ sig) ≠ Proc.devRef .tc main_v25_1 := StableHlo.devRef_ne_of_ne (by decide)
  have h1 : (Proc.devRef .tc (Pipeline.arrRef spec1 (3 : Fin 6)) : DevRef τ sig) ≠ Proc.devRef .tc main_v25_2 := StableHlo.devRef_ne_of_ne (by decide)
  unfold X9
  rw [Function.update_of_ne h1, Function.update_of_ne h0]
  exact (eq_of_heq (update_at (congrArg (Proc.devRef (τ := τ) .tc) arr1_3) _)).symm
theorem X9_arr_4 (c : Dev nD) : (dat1 (atTc (X8 m)) c).arrAt (4 : Fin 6) cfg1.N = X9 m c (Pipeline.arrRef spec1 (4 : Fin 6)) := by
  have h0 : (Proc.devRef .tc (Pipeline.arrRef spec1 (4 : Fin 6)) : DevRef τ sig) ≠ Proc.devRef .tc main_v25_2 := StableHlo.devRef_ne_of_ne (by decide)
  unfold X9
  rw [Function.update_of_ne h0]
  exact (eq_of_heq (update_at (congrArg (Proc.devRef (τ := τ) .tc) arr1_4) _)).symm
theorem X9_arr_5 (c : Dev nD) : (dat1 (atTc (X8 m)) c).arrAt (5 : Fin 6) cfg1.N = X9 m c (Pipeline.arrRef spec1 (5 : Fin 6)) := by
  unfold X9
  exact (eq_of_heq (update_at (congrArg (Proc.devRef (τ := τ) .tc) arr1_5) _)).symm
theorem X9_arr (c : Dev nD) : ∀ w : Fin 6, (dat1 (atTc (X8 m)) c).arrAt w cfg1.N = X9 m c (Pipeline.arrRef spec1 w)
  | ⟨0, _⟩ => X9_arr_0 m c
  | ⟨1, _⟩ => X9_arr_1 m c
  | ⟨2, _⟩ => X9_arr_2 m c
  | ⟨3, _⟩ => X9_arr_3 m c
  | ⟨4, _⟩ => X9_arr_4 m c
  | ⟨5, _⟩ => X9_arr_5 m c
  | ⟨_ + 6, h⟩ => absurd h (Nat.not_lt.2 (Nat.le_add_left _ _))
theorem X9_rest (c : Dev nD) (b : Ref sig .tc) (hb : b ∉ Finset.univ.image (Pipeline.arrRef spec1)) : X9 m c b = X8 m c b := by
  unfold X9
  rw [Function.update_of_ne (StableHlo.devRef_ne_of_ne (fun e => hb (Finset.mem_image.mpr ⟨(5 : Fin 6), Finset.mem_univ _, arr1_5.trans e.symm⟩)) : (Proc.devRef .tc b : DevRef τ sig) ≠ Proc.devRef .tc main_v25_2)]
  rw [Function.update_of_ne (StableHlo.devRef_ne_of_ne (fun e => hb (Finset.mem_image.mpr ⟨(4 : Fin 6), Finset.mem_univ _, arr1_4.trans e.symm⟩)) : (Proc.devRef .tc b : DevRef τ sig) ≠ Proc.devRef .tc main_v25_1)]
  rw [Function.update_of_ne (StableHlo.devRef_ne_of_ne (fun e => hb (Finset.mem_image.mpr ⟨(3 : Fin 6), Finset.mem_univ _, arr1_3.trans e.symm⟩)) : (Proc.devRef .tc b : DevRef τ sig) ≠ Proc.devRef .tc main_v25_0)]

/-- Region 1 as a segment: entered from every unscoped buffer at the contents before it, left at the contents after it;
    its scratch rows are tracked point by point inside. -/
def R1 : RegionSeg (pcfgs (F := F)) adm (pdats m) () defs₀ Variants.none L lv 1 :=
  LibRegionTrackedWhole.trackedWhole (pcfgs (F := F)) adm (pdats m) defs₀ Variants.none L lv 1
    launch1.win launch1.block_pos launch1.arr_whole launch1.stage_whole ⟨fun k => k.elim0⟩
    (fun c => hin1 (atTc (X8 m)) c) (fun c => hout1 (atTc (X8 m)) c) (fun c w => dat1_q (atTc (X8 m)) c w) (fun c t => howed1 (atTc (X8 m)) c t) (fun c t => hrec1 (atTc (X8 m)) c t)
    (fun c => body_obligation1 (atTc (X8 m)) c) (X8 m) (X9 m)
    (fun c w => A_eq1 (atTc (X8 m)) c w) (fun c w => X9_arr m c w) (fun c b hb => X9_rest m c b hb)

/-- Region 2's windows' arrays, by name. -/
theorem arr2_0 : Pipeline.arrRef spec2 (0 : Fin 6) = main_v25_0 := by decide
theorem arr2_1 : Pipeline.arrRef spec2 (1 : Fin 6) = main_v40 := by decide
theorem arr2_2 : Pipeline.arrRef spec2 (2 : Fin 6) = main_v39 := by decide
theorem arr2_3 : Pipeline.arrRef spec2 (3 : Fin 6) = main_v41 := by decide
theorem arr2_4 : Pipeline.arrRef spec2 (4 : Fin 6) = main_v42 := by decide
theorem arr2_5 : Pipeline.arrRef spec2 (5 : Fin 6) = main_v43 := by decide
theorem X11_arr_0 (c : Dev nD) : (dat2 (atTc (X10 m)) c).arrAt (0 : Fin 6) cfg2.N = X11 m c (Pipeline.arrRef spec2 (0 : Fin 6)) := by
  have h0 : (Proc.devRef .tc (Pipeline.arrRef spec2 (0 : Fin 6)) : DevRef τ sig) ≠ Proc.devRef .tc main_v43 := StableHlo.devRef_ne_of_ne (by decide)
  unfold X11
  rw [Function.update_of_ne h0]
  exact ((dat2 (atTc (X10 m)) c).arrAt_in (0 : Fin 6) rfl _).trans (A_eq2 (atTc (X10 m)) c (0 : Fin 6))
theorem X11_arr_1 (c : Dev nD) : (dat2 (atTc (X10 m)) c).arrAt (1 : Fin 6) cfg2.N = X11 m c (Pipeline.arrRef spec2 (1 : Fin 6)) := by
  have h0 : (Proc.devRef .tc (Pipeline.arrRef spec2 (1 : Fin 6)) : DevRef τ sig) ≠ Proc.devRef .tc main_v43 := StableHlo.devRef_ne_of_ne (by decide)
  unfold X11
  rw [Function.update_of_ne h0]
  exact ((dat2 (atTc (X10 m)) c).arrAt_in (1 : Fin 6) rfl _).trans (A_eq2 (atTc (X10 m)) c (1 : Fin 6))
theorem X11_arr_2 (c : Dev nD) : (dat2 (atTc (X10 m)) c).arrAt (2 : Fin 6) cfg2.N = X11 m c (Pipeline.arrRef spec2 (2 : Fin 6)) := by
  have h0 : (Proc.devRef .tc (Pipeline.arrRef spec2 (2 : Fin 6)) : DevRef τ sig) ≠ Proc.devRef .tc main_v43 := StableHlo.devRef_ne_of_ne (by decide)
  unfold X11
  rw [Function.update_of_ne h0]
  exact ((dat2 (atTc (X10 m)) c).arrAt_in (2 : Fin 6) rfl _).trans (A_eq2 (atTc (X10 m)) c (2 : Fin 6))
theorem X11_arr_3 (c : Dev nD) : (dat2 (atTc (X10 m)) c).arrAt (3 : Fin 6) cfg2.N = X11 m c (Pipeline.arrRef spec2 (3 : Fin 6)) := by
  have h0 : (Proc.devRef .tc (Pipeline.arrRef spec2 (3 : Fin 6)) : DevRef τ sig) ≠ Proc.devRef .tc main_v43 := StableHlo.devRef_ne_of_ne (by decide)
  unfold X11
  rw [Function.update_of_ne h0]
  exact ((dat2 (atTc (X10 m)) c).arrAt_in (3 : Fin 6) rfl _).trans (A_eq2 (atTc (X10 m)) c (3 : Fin 6))
theorem X11_arr_4 (c : Dev nD) : (dat2 (atTc (X10 m)) c).arrAt (4 : Fin 6) cfg2.N = X11 m c (Pipeline.arrRef spec2 (4 : Fin 6)) := by
  have h0 : (Proc.devRef .tc (Pipeline.arrRef spec2 (4 : Fin 6)) : DevRef τ sig) ≠ Proc.devRef .tc main_v43 := StableHlo.devRef_ne_of_ne (by decide)
  unfold X11
  rw [Function.update_of_ne h0]
  exact ((dat2 (atTc (X10 m)) c).arrAt_in (4 : Fin 6) rfl _).trans (A_eq2 (atTc (X10 m)) c (4 : Fin 6))
theorem X11_arr_5 (c : Dev nD) : (dat2 (atTc (X10 m)) c).arrAt (5 : Fin 6) cfg2.N = X11 m c (Pipeline.arrRef spec2 (5 : Fin 6)) := by
  unfold X11
  exact (eq_of_heq (update_at (congrArg (Proc.devRef (τ := τ) .tc) arr2_5) _)).symm
theorem X11_arr (c : Dev nD) : ∀ w : Fin 6, (dat2 (atTc (X10 m)) c).arrAt w cfg2.N = X11 m c (Pipeline.arrRef spec2 w)
  | ⟨0, _⟩ => X11_arr_0 m c
  | ⟨1, _⟩ => X11_arr_1 m c
  | ⟨2, _⟩ => X11_arr_2 m c
  | ⟨3, _⟩ => X11_arr_3 m c
  | ⟨4, _⟩ => X11_arr_4 m c
  | ⟨5, _⟩ => X11_arr_5 m c
  | ⟨_ + 6, h⟩ => absurd h (Nat.not_lt.2 (Nat.le_add_left _ _))
theorem X11_rest (c : Dev nD) (b : Ref sig .tc) (hb : b ∉ Finset.univ.image (Pipeline.arrRef spec2)) : X11 m c b = X10 m c b := by
  unfold X11
  rw [Function.update_of_ne (StableHlo.devRef_ne_of_ne (fun e => hb (Finset.mem_image.mpr ⟨(5 : Fin 6), Finset.mem_univ _, arr2_5.trans e.symm⟩)) : (Proc.devRef .tc b : DevRef τ sig) ≠ Proc.devRef .tc main_v43)]

/-- Region 2 as a segment: entered from every unscoped buffer at the contents before it, left at the contents after it. -/
def R2 : RegionSeg (pcfgs (F := F)) adm (pdats m) () defs₀ Variants.none L lv 2 :=
  LibRegionRecord.classA (pcfgs (F := F)) adm (pdats m) defs₀ Variants.none L lv 2
    launch2.win launch2.block_pos launch2.arr_whole launch2.stage_whole ⟨fun k => k.elim0⟩
    (fun c t => dat2_Φ (atTc (X10 m)) c t) (fun c w => dat2_q (atTc (X10 m)) c w) (fun c t => dat2_owed (atTc (X10 m)) c t) (fun c t => dat2_rec (atTc (X10 m)) c t)
    (fun c => body_obligation2 (atTc (X10 m)) c) (X10 m) (X11 m)
    (fun c w => A_eq2 (atTc (X10 m)) c w) (fun c w => X11_arr m c w) (fun c b hb => X11_rest m c b hb)

/-- Region 3's windows' arrays, by name. -/
theorem arr3_0 : Pipeline.arrRef spec3 (0 : Fin 4) = main_v43 := by decide
theorem arr3_1 : Pipeline.arrRef spec3 (1 : Fin 4) = main_arg7 := by decide
theorem arr3_2 : Pipeline.arrRef spec3 (2 : Fin 4) = main_v44 := by decide
theorem arr3_3 : Pipeline.arrRef spec3 (3 : Fin 4) = main_v45 := by decide
theorem X13_arr_0 (c : Dev nD) : (dat3 (atTc (X12 m)) c).arrAt (0 : Fin 4) cfg3.N = X13 m c (Pipeline.arrRef spec3 (0 : Fin 4)) := by
  have h0 : (Proc.devRef .tc (Pipeline.arrRef spec3 (0 : Fin 4)) : DevRef τ sig) ≠ Proc.devRef .tc main_v45 := StableHlo.devRef_ne_of_ne (by decide)
  unfold X13
  rw [Function.update_of_ne h0]
  exact ((dat3 (atTc (X12 m)) c).arrAt_in (0 : Fin 4) rfl _).trans (A_eq3 (atTc (X12 m)) c (0 : Fin 4))
theorem X13_arr_1 (c : Dev nD) : (dat3 (atTc (X12 m)) c).arrAt (1 : Fin 4) cfg3.N = X13 m c (Pipeline.arrRef spec3 (1 : Fin 4)) := by
  have h0 : (Proc.devRef .tc (Pipeline.arrRef spec3 (1 : Fin 4)) : DevRef τ sig) ≠ Proc.devRef .tc main_v45 := StableHlo.devRef_ne_of_ne (by decide)
  unfold X13
  rw [Function.update_of_ne h0]
  exact ((dat3 (atTc (X12 m)) c).arrAt_in (1 : Fin 4) rfl _).trans (A_eq3 (atTc (X12 m)) c (1 : Fin 4))
theorem X13_arr_2 (c : Dev nD) : (dat3 (atTc (X12 m)) c).arrAt (2 : Fin 4) cfg3.N = X13 m c (Pipeline.arrRef spec3 (2 : Fin 4)) := by
  have h0 : (Proc.devRef .tc (Pipeline.arrRef spec3 (2 : Fin 4)) : DevRef τ sig) ≠ Proc.devRef .tc main_v45 := StableHlo.devRef_ne_of_ne (by decide)
  unfold X13
  rw [Function.update_of_ne h0]
  exact ((dat3 (atTc (X12 m)) c).arrAt_in (2 : Fin 4) rfl _).trans (A_eq3 (atTc (X12 m)) c (2 : Fin 4))
theorem X13_arr_3 (c : Dev nD) : (dat3 (atTc (X12 m)) c).arrAt (3 : Fin 4) cfg3.N = X13 m c (Pipeline.arrRef spec3 (3 : Fin 4)) := by
  unfold X13
  exact (eq_of_heq (update_at (congrArg (Proc.devRef (τ := τ) .tc) arr3_3) _)).symm
theorem X13_arr (c : Dev nD) : ∀ w : Fin 4, (dat3 (atTc (X12 m)) c).arrAt w cfg3.N = X13 m c (Pipeline.arrRef spec3 w)
  | ⟨0, _⟩ => X13_arr_0 m c
  | ⟨1, _⟩ => X13_arr_1 m c
  | ⟨2, _⟩ => X13_arr_2 m c
  | ⟨3, _⟩ => X13_arr_3 m c
  | ⟨_ + 4, h⟩ => absurd h (Nat.not_lt.2 (Nat.le_add_left _ _))
theorem X13_rest (c : Dev nD) (b : Ref sig .tc) (hb : b ∉ Finset.univ.image (Pipeline.arrRef spec3)) : X13 m c b = X12 m c b := by
  unfold X13
  rw [Function.update_of_ne (StableHlo.devRef_ne_of_ne (fun e => hb (Finset.mem_image.mpr ⟨(3 : Fin 4), Finset.mem_univ _, arr3_3.trans e.symm⟩)) : (Proc.devRef .tc b : DevRef τ sig) ≠ Proc.devRef .tc main_v45)]

/-- Region 3 as a segment: entered from every unscoped buffer at the contents before it, left at the contents after it. -/
def R3 : RegionSeg (pcfgs (F := F)) adm (pdats m) () defs₀ Variants.none L lv 3 :=
  LibRegionRecord.classA (pcfgs (F := F)) adm (pdats m) defs₀ Variants.none L lv 3
    launch3.win launch3.block_pos launch3.arr_whole launch3.stage_whole ⟨fun k => k.elim0⟩
    (fun c t => dat3_Φ (atTc (X12 m)) c t) (fun c w => dat3_q (atTc (X12 m)) c w) (fun c t => dat3_owed (atTc (X12 m)) c t) (fun c t => dat3_rec (atTc (X12 m)) c t)
    (fun c => body_obligation3 (atTc (X12 m)) c) (X12 m) (X13 m)
    (fun c w => A_eq3 (atTc (X12 m)) c w) (fun c w => X13_arr m c w) (fun c b hb => X13_rest m c b hb)

/-- Region 4's windows' arrays, by name. -/
theorem arr4_0 : Pipeline.arrRef spec4 (0 : Fin 6) = main_v49 := by decide
theorem arr4_1 : Pipeline.arrRef spec4 (1 : Fin 6) = main_v50 := by decide
theorem arr4_2 : Pipeline.arrRef spec4 (2 : Fin 6) = main_v51 := by decide
theorem arr4_3 : Pipeline.arrRef spec4 (3 : Fin 6) = main_v52_0 := by decide
theorem arr4_4 : Pipeline.arrRef spec4 (4 : Fin 6) = main_v52_1 := by decide
theorem arr4_5 : Pipeline.arrRef spec4 (5 : Fin 6) = main_v52_2 := by decide
theorem X16_arr_0 (c : Dev nD) : (dat4 (atTc (X15 m)) c).arrAt (0 : Fin 6) cfg4.N = X16 m c (Pipeline.arrRef spec4 (0 : Fin 6)) := by
  have h0 : (Proc.devRef .tc (Pipeline.arrRef spec4 (0 : Fin 6)) : DevRef τ sig) ≠ Proc.devRef .tc main_v52_0 := StableHlo.devRef_ne_of_ne (by decide)
  have h1 : (Proc.devRef .tc (Pipeline.arrRef spec4 (0 : Fin 6)) : DevRef τ sig) ≠ Proc.devRef .tc main_v52_1 := StableHlo.devRef_ne_of_ne (by decide)
  have h2 : (Proc.devRef .tc (Pipeline.arrRef spec4 (0 : Fin 6)) : DevRef τ sig) ≠ Proc.devRef .tc main_v52_2 := StableHlo.devRef_ne_of_ne (by decide)
  unfold X16
  rw [Function.update_of_ne h2, Function.update_of_ne h1, Function.update_of_ne h0]
  exact ((dat4 (atTc (X15 m)) c).arrAt_in (0 : Fin 6) rfl _).trans (A_eq4 (atTc (X15 m)) c (0 : Fin 6))
theorem X16_arr_1 (c : Dev nD) : (dat4 (atTc (X15 m)) c).arrAt (1 : Fin 6) cfg4.N = X16 m c (Pipeline.arrRef spec4 (1 : Fin 6)) := by
  have h0 : (Proc.devRef .tc (Pipeline.arrRef spec4 (1 : Fin 6)) : DevRef τ sig) ≠ Proc.devRef .tc main_v52_0 := StableHlo.devRef_ne_of_ne (by decide)
  have h1 : (Proc.devRef .tc (Pipeline.arrRef spec4 (1 : Fin 6)) : DevRef τ sig) ≠ Proc.devRef .tc main_v52_1 := StableHlo.devRef_ne_of_ne (by decide)
  have h2 : (Proc.devRef .tc (Pipeline.arrRef spec4 (1 : Fin 6)) : DevRef τ sig) ≠ Proc.devRef .tc main_v52_2 := StableHlo.devRef_ne_of_ne (by decide)
  unfold X16
  rw [Function.update_of_ne h2, Function.update_of_ne h1, Function.update_of_ne h0]
  exact ((dat4 (atTc (X15 m)) c).arrAt_in (1 : Fin 6) rfl _).trans (A_eq4 (atTc (X15 m)) c (1 : Fin 6))
theorem X16_arr_2 (c : Dev nD) : (dat4 (atTc (X15 m)) c).arrAt (2 : Fin 6) cfg4.N = X16 m c (Pipeline.arrRef spec4 (2 : Fin 6)) := by
  have h0 : (Proc.devRef .tc (Pipeline.arrRef spec4 (2 : Fin 6)) : DevRef τ sig) ≠ Proc.devRef .tc main_v52_0 := StableHlo.devRef_ne_of_ne (by decide)
  have h1 : (Proc.devRef .tc (Pipeline.arrRef spec4 (2 : Fin 6)) : DevRef τ sig) ≠ Proc.devRef .tc main_v52_1 := StableHlo.devRef_ne_of_ne (by decide)
  have h2 : (Proc.devRef .tc (Pipeline.arrRef spec4 (2 : Fin 6)) : DevRef τ sig) ≠ Proc.devRef .tc main_v52_2 := StableHlo.devRef_ne_of_ne (by decide)
  unfold X16
  rw [Function.update_of_ne h2, Function.update_of_ne h1, Function.update_of_ne h0]
  exact ((dat4 (atTc (X15 m)) c).arrAt_in (2 : Fin 6) rfl _).trans (A_eq4 (atTc (X15 m)) c (2 : Fin 6))
theorem X16_arr_3 (c : Dev nD) : (dat4 (atTc (X15 m)) c).arrAt (3 : Fin 6) cfg4.N = X16 m c (Pipeline.arrRef spec4 (3 : Fin 6)) := by
  have h0 : (Proc.devRef .tc (Pipeline.arrRef spec4 (3 : Fin 6)) : DevRef τ sig) ≠ Proc.devRef .tc main_v52_1 := StableHlo.devRef_ne_of_ne (by decide)
  have h1 : (Proc.devRef .tc (Pipeline.arrRef spec4 (3 : Fin 6)) : DevRef τ sig) ≠ Proc.devRef .tc main_v52_2 := StableHlo.devRef_ne_of_ne (by decide)
  unfold X16
  rw [Function.update_of_ne h1, Function.update_of_ne h0]
  exact (eq_of_heq (update_at (congrArg (Proc.devRef (τ := τ) .tc) arr4_3) _)).symm
theorem X16_arr_4 (c : Dev nD) : (dat4 (atTc (X15 m)) c).arrAt (4 : Fin 6) cfg4.N = X16 m c (Pipeline.arrRef spec4 (4 : Fin 6)) := by
  have h0 : (Proc.devRef .tc (Pipeline.arrRef spec4 (4 : Fin 6)) : DevRef τ sig) ≠ Proc.devRef .tc main_v52_2 := StableHlo.devRef_ne_of_ne (by decide)
  unfold X16
  rw [Function.update_of_ne h0]
  exact (eq_of_heq (update_at (congrArg (Proc.devRef (τ := τ) .tc) arr4_4) _)).symm
theorem X16_arr_5 (c : Dev nD) : (dat4 (atTc (X15 m)) c).arrAt (5 : Fin 6) cfg4.N = X16 m c (Pipeline.arrRef spec4 (5 : Fin 6)) := by
  unfold X16
  exact (eq_of_heq (update_at (congrArg (Proc.devRef (τ := τ) .tc) arr4_5) _)).symm
theorem X16_arr (c : Dev nD) : ∀ w : Fin 6, (dat4 (atTc (X15 m)) c).arrAt w cfg4.N = X16 m c (Pipeline.arrRef spec4 w)
  | ⟨0, _⟩ => X16_arr_0 m c
  | ⟨1, _⟩ => X16_arr_1 m c
  | ⟨2, _⟩ => X16_arr_2 m c
  | ⟨3, _⟩ => X16_arr_3 m c
  | ⟨4, _⟩ => X16_arr_4 m c
  | ⟨5, _⟩ => X16_arr_5 m c
  | ⟨_ + 6, h⟩ => absurd h (Nat.not_lt.2 (Nat.le_add_left _ _))
theorem X16_rest (c : Dev nD) (b : Ref sig .tc) (hb : b ∉ Finset.univ.image (Pipeline.arrRef spec4)) : X16 m c b = X15 m c b := by
  unfold X16
  rw [Function.update_of_ne (StableHlo.devRef_ne_of_ne (fun e => hb (Finset.mem_image.mpr ⟨(5 : Fin 6), Finset.mem_univ _, arr4_5.trans e.symm⟩)) : (Proc.devRef .tc b : DevRef τ sig) ≠ Proc.devRef .tc main_v52_2)]
  rw [Function.update_of_ne (StableHlo.devRef_ne_of_ne (fun e => hb (Finset.mem_image.mpr ⟨(4 : Fin 6), Finset.mem_univ _, arr4_4.trans e.symm⟩)) : (Proc.devRef .tc b : DevRef τ sig) ≠ Proc.devRef .tc main_v52_1)]
  rw [Function.update_of_ne (StableHlo.devRef_ne_of_ne (fun e => hb (Finset.mem_image.mpr ⟨(3 : Fin 6), Finset.mem_univ _, arr4_3.trans e.symm⟩)) : (Proc.devRef .tc b : DevRef τ sig) ≠ Proc.devRef .tc main_v52_0)]

/-- Region 4 as a segment: entered from every unscoped buffer at the contents before it, left at the contents after it;
    its scratch rows are tracked point by point inside. -/
def R4 : RegionSeg (pcfgs (F := F)) adm (pdats m) () defs₀ Variants.none L lv 4 :=
  LibRegionTrackedWhole.trackedWhole (pcfgs (F := F)) adm (pdats m) defs₀ Variants.none L lv 4
    launch4.win launch4.block_pos launch4.arr_whole launch4.stage_whole ⟨fun k => k.elim0⟩
    (fun c => hin4 (atTc (X15 m)) c) (fun c => hout4 (atTc (X15 m)) c) (fun c w => dat4_q (atTc (X15 m)) c w) (fun c t => howed4 (atTc (X15 m)) c t) (fun c t => hrec4 (atTc (X15 m)) c t)
    (fun c => body_obligation4 (atTc (X15 m)) c) (X15 m) (X16 m)
    (fun c w => A_eq4 (atTc (X15 m)) c w) (fun c w => X16_arr m c w) (fun c b hb => X16_rest m c b hb)

/-- Region 5's windows' arrays, by name. -/
theorem arr5_0 : Pipeline.arrRef spec5 (0 : Fin 6) = main_v52_0 := by decide
theorem arr5_1 : Pipeline.arrRef spec5 (1 : Fin 6) = main_v67 := by decide
theorem arr5_2 : Pipeline.arrRef spec5 (2 : Fin 6) = main_v66 := by decide
theorem arr5_3 : Pipeline.arrRef spec5 (3 : Fin 6) = main_v68 := by decide
theorem arr5_4 : Pipeline.arrRef spec5 (4 : Fin 6) = main_v69 := by decide
theorem arr5_5 : Pipeline.arrRef spec5 (5 : Fin 6) = main_v70 := by decide
theorem X18_arr_0 (c : Dev nD) : (dat5 (atTc (X17 m)) c).arrAt (0 : Fin 6) cfg5.N = X18 m c (Pipeline.arrRef spec5 (0 : Fin 6)) := by
  have h0 : (Proc.devRef .tc (Pipeline.arrRef spec5 (0 : Fin 6)) : DevRef τ sig) ≠ Proc.devRef .tc main_v70 := StableHlo.devRef_ne_of_ne (by decide)
  unfold X18
  rw [Function.update_of_ne h0]
  exact ((dat5 (atTc (X17 m)) c).arrAt_in (0 : Fin 6) rfl _).trans (A_eq5 (atTc (X17 m)) c (0 : Fin 6))
theorem X18_arr_1 (c : Dev nD) : (dat5 (atTc (X17 m)) c).arrAt (1 : Fin 6) cfg5.N = X18 m c (Pipeline.arrRef spec5 (1 : Fin 6)) := by
  have h0 : (Proc.devRef .tc (Pipeline.arrRef spec5 (1 : Fin 6)) : DevRef τ sig) ≠ Proc.devRef .tc main_v70 := StableHlo.devRef_ne_of_ne (by decide)
  unfold X18
  rw [Function.update_of_ne h0]
  exact ((dat5 (atTc (X17 m)) c).arrAt_in (1 : Fin 6) rfl _).trans (A_eq5 (atTc (X17 m)) c (1 : Fin 6))
theorem X18_arr_2 (c : Dev nD) : (dat5 (atTc (X17 m)) c).arrAt (2 : Fin 6) cfg5.N = X18 m c (Pipeline.arrRef spec5 (2 : Fin 6)) := by
  have h0 : (Proc.devRef .tc (Pipeline.arrRef spec5 (2 : Fin 6)) : DevRef τ sig) ≠ Proc.devRef .tc main_v70 := StableHlo.devRef_ne_of_ne (by decide)
  unfold X18
  rw [Function.update_of_ne h0]
  exact ((dat5 (atTc (X17 m)) c).arrAt_in (2 : Fin 6) rfl _).trans (A_eq5 (atTc (X17 m)) c (2 : Fin 6))
theorem X18_arr_3 (c : Dev nD) : (dat5 (atTc (X17 m)) c).arrAt (3 : Fin 6) cfg5.N = X18 m c (Pipeline.arrRef spec5 (3 : Fin 6)) := by
  have h0 : (Proc.devRef .tc (Pipeline.arrRef spec5 (3 : Fin 6)) : DevRef τ sig) ≠ Proc.devRef .tc main_v70 := StableHlo.devRef_ne_of_ne (by decide)
  unfold X18
  rw [Function.update_of_ne h0]
  exact ((dat5 (atTc (X17 m)) c).arrAt_in (3 : Fin 6) rfl _).trans (A_eq5 (atTc (X17 m)) c (3 : Fin 6))
theorem X18_arr_4 (c : Dev nD) : (dat5 (atTc (X17 m)) c).arrAt (4 : Fin 6) cfg5.N = X18 m c (Pipeline.arrRef spec5 (4 : Fin 6)) := by
  have h0 : (Proc.devRef .tc (Pipeline.arrRef spec5 (4 : Fin 6)) : DevRef τ sig) ≠ Proc.devRef .tc main_v70 := StableHlo.devRef_ne_of_ne (by decide)
  unfold X18
  rw [Function.update_of_ne h0]
  exact ((dat5 (atTc (X17 m)) c).arrAt_in (4 : Fin 6) rfl _).trans (A_eq5 (atTc (X17 m)) c (4 : Fin 6))
theorem X18_arr_5 (c : Dev nD) : (dat5 (atTc (X17 m)) c).arrAt (5 : Fin 6) cfg5.N = X18 m c (Pipeline.arrRef spec5 (5 : Fin 6)) := by
  unfold X18
  exact (eq_of_heq (update_at (congrArg (Proc.devRef (τ := τ) .tc) arr5_5) _)).symm
theorem X18_arr (c : Dev nD) : ∀ w : Fin 6, (dat5 (atTc (X17 m)) c).arrAt w cfg5.N = X18 m c (Pipeline.arrRef spec5 w)
  | ⟨0, _⟩ => X18_arr_0 m c
  | ⟨1, _⟩ => X18_arr_1 m c
  | ⟨2, _⟩ => X18_arr_2 m c
  | ⟨3, _⟩ => X18_arr_3 m c
  | ⟨4, _⟩ => X18_arr_4 m c
  | ⟨5, _⟩ => X18_arr_5 m c
  | ⟨_ + 6, h⟩ => absurd h (Nat.not_lt.2 (Nat.le_add_left _ _))
theorem X18_rest (c : Dev nD) (b : Ref sig .tc) (hb : b ∉ Finset.univ.image (Pipeline.arrRef spec5)) : X18 m c b = X17 m c b := by
  unfold X18
  rw [Function.update_of_ne (StableHlo.devRef_ne_of_ne (fun e => hb (Finset.mem_image.mpr ⟨(5 : Fin 6), Finset.mem_univ _, arr5_5.trans e.symm⟩)) : (Proc.devRef .tc b : DevRef τ sig) ≠ Proc.devRef .tc main_v70)]

/-- Region 5 as a segment: entered from every unscoped buffer at the contents before it, left at the contents after it. -/
def R5 : RegionSeg (pcfgs (F := F)) adm (pdats m) () defs₀ Variants.none L lv 5 :=
  LibRegionRecord.classA (pcfgs (F := F)) adm (pdats m) defs₀ Variants.none L lv 5
    launch5.win launch5.block_pos launch5.arr_whole launch5.stage_whole ⟨fun k => k.elim0⟩
    (fun c t => dat5_Φ (atTc (X17 m)) c t) (fun c w => dat5_q (atTc (X17 m)) c w) (fun c t => dat5_owed (atTc (X17 m)) c t) (fun c t => dat5_rec (atTc (X17 m)) c t)
    (fun c => body_obligation5 (atTc (X17 m)) c) (X17 m) (X18 m)
    (fun c w => A_eq5 (atTc (X17 m)) c w) (fun c w => X18_arr m c w) (fun c b hb => X18_rest m c b hb)

/-- Region 6's windows' arrays, by name. -/
theorem arr6_0 : Pipeline.arrRef spec6 (0 : Fin 4) = main_v70 := by decide
theorem arr6_1 : Pipeline.arrRef spec6 (1 : Fin 4) = main_arg11 := by decide
theorem arr6_2 : Pipeline.arrRef spec6 (2 : Fin 4) = main_v71 := by decide
theorem arr6_3 : Pipeline.arrRef spec6 (3 : Fin 4) = main_v72 := by decide
theorem X20_arr_0 (c : Dev nD) : (dat6 (atTc (X19 m)) c).arrAt (0 : Fin 4) cfg6.N = X20 m c (Pipeline.arrRef spec6 (0 : Fin 4)) := by
  have h0 : (Proc.devRef .tc (Pipeline.arrRef spec6 (0 : Fin 4)) : DevRef τ sig) ≠ Proc.devRef .tc main_v72 := StableHlo.devRef_ne_of_ne (by decide)
  unfold X20
  rw [Function.update_of_ne h0]
  exact ((dat6 (atTc (X19 m)) c).arrAt_in (0 : Fin 4) rfl _).trans (A_eq6 (atTc (X19 m)) c (0 : Fin 4))
theorem X20_arr_1 (c : Dev nD) : (dat6 (atTc (X19 m)) c).arrAt (1 : Fin 4) cfg6.N = X20 m c (Pipeline.arrRef spec6 (1 : Fin 4)) := by
  have h0 : (Proc.devRef .tc (Pipeline.arrRef spec6 (1 : Fin 4)) : DevRef τ sig) ≠ Proc.devRef .tc main_v72 := StableHlo.devRef_ne_of_ne (by decide)
  unfold X20
  rw [Function.update_of_ne h0]
  exact ((dat6 (atTc (X19 m)) c).arrAt_in (1 : Fin 4) rfl _).trans (A_eq6 (atTc (X19 m)) c (1 : Fin 4))
theorem X20_arr_2 (c : Dev nD) : (dat6 (atTc (X19 m)) c).arrAt (2 : Fin 4) cfg6.N = X20 m c (Pipeline.arrRef spec6 (2 : Fin 4)) := by
  have h0 : (Proc.devRef .tc (Pipeline.arrRef spec6 (2 : Fin 4)) : DevRef τ sig) ≠ Proc.devRef .tc main_v72 := StableHlo.devRef_ne_of_ne (by decide)
  unfold X20
  rw [Function.update_of_ne h0]
  exact ((dat6 (atTc (X19 m)) c).arrAt_in (2 : Fin 4) rfl _).trans (A_eq6 (atTc (X19 m)) c (2 : Fin 4))
theorem X20_arr_3 (c : Dev nD) : (dat6 (atTc (X19 m)) c).arrAt (3 : Fin 4) cfg6.N = X20 m c (Pipeline.arrRef spec6 (3 : Fin 4)) := by
  unfold X20
  exact (eq_of_heq (update_at (congrArg (Proc.devRef (τ := τ) .tc) arr6_3) _)).symm
theorem X20_arr (c : Dev nD) : ∀ w : Fin 4, (dat6 (atTc (X19 m)) c).arrAt w cfg6.N = X20 m c (Pipeline.arrRef spec6 w)
  | ⟨0, _⟩ => X20_arr_0 m c
  | ⟨1, _⟩ => X20_arr_1 m c
  | ⟨2, _⟩ => X20_arr_2 m c
  | ⟨3, _⟩ => X20_arr_3 m c
  | ⟨_ + 4, h⟩ => absurd h (Nat.not_lt.2 (Nat.le_add_left _ _))
theorem X20_rest (c : Dev nD) (b : Ref sig .tc) (hb : b ∉ Finset.univ.image (Pipeline.arrRef spec6)) : X20 m c b = X19 m c b := by
  unfold X20
  rw [Function.update_of_ne (StableHlo.devRef_ne_of_ne (fun e => hb (Finset.mem_image.mpr ⟨(3 : Fin 4), Finset.mem_univ _, arr6_3.trans e.symm⟩)) : (Proc.devRef .tc b : DevRef τ sig) ≠ Proc.devRef .tc main_v72)]

/-- Region 6 as a segment: entered from every unscoped buffer at the contents before it, left at the contents after it. -/
def R6 : RegionSeg (pcfgs (F := F)) adm (pdats m) () defs₀ Variants.none L lv 6 :=
  LibRegionRecord.classA (pcfgs (F := F)) adm (pdats m) defs₀ Variants.none L lv 6
    launch6.win launch6.block_pos launch6.arr_whole launch6.stage_whole ⟨fun k => k.elim0⟩
    (fun c t => dat6_Φ (atTc (X19 m)) c t) (fun c w => dat6_q (atTc (X19 m)) c w) (fun c t => dat6_owed (atTc (X19 m)) c t) (fun c t => dat6_rec (atTc (X19 m)) c t)
    (fun c => body_obligation6 (atTc (X19 m)) c) (X19 m) (X20 m)
    (fun c w => A_eq6 (atTc (X19 m)) c w) (fun c w => X20_arr m c w) (fun c b hb => X20_rest m c b hb)

/-- Region 7's windows' arrays, by name. -/
theorem arr7_0 : Pipeline.arrRef spec7 (0 : Fin 4) = main_v76 := by decide
theorem arr7_1 : Pipeline.arrRef spec7 (1 : Fin 4) = main_v77 := by decide
theorem arr7_2 : Pipeline.arrRef spec7 (2 : Fin 4) = main_v78 := by decide
theorem arr7_3 : Pipeline.arrRef spec7 (3 : Fin 4) = main_v79 := by decide
theorem X23_arr_0 (c : Dev nD) : (dat7 (atTc (X22 m)) c).arrAt (0 : Fin 4) cfg7.N = X23 m c (Pipeline.arrRef spec7 (0 : Fin 4)) := by
  have h0 : (Proc.devRef .tc (Pipeline.arrRef spec7 (0 : Fin 4)) : DevRef τ sig) ≠ Proc.devRef .tc main_v79 := StableHlo.devRef_ne_of_ne (by decide)
  unfold X23
  rw [Function.update_of_ne h0]
  exact ((dat7 (atTc (X22 m)) c).arrAt_in (0 : Fin 4) rfl _).trans (A_eq7 (atTc (X22 m)) c (0 : Fin 4))
theorem X23_arr_1 (c : Dev nD) : (dat7 (atTc (X22 m)) c).arrAt (1 : Fin 4) cfg7.N = X23 m c (Pipeline.arrRef spec7 (1 : Fin 4)) := by
  have h0 : (Proc.devRef .tc (Pipeline.arrRef spec7 (1 : Fin 4)) : DevRef τ sig) ≠ Proc.devRef .tc main_v79 := StableHlo.devRef_ne_of_ne (by decide)
  unfold X23
  rw [Function.update_of_ne h0]
  exact ((dat7 (atTc (X22 m)) c).arrAt_in (1 : Fin 4) rfl _).trans (A_eq7 (atTc (X22 m)) c (1 : Fin 4))
theorem X23_arr_2 (c : Dev nD) : (dat7 (atTc (X22 m)) c).arrAt (2 : Fin 4) cfg7.N = X23 m c (Pipeline.arrRef spec7 (2 : Fin 4)) := by
  have h0 : (Proc.devRef .tc (Pipeline.arrRef spec7 (2 : Fin 4)) : DevRef τ sig) ≠ Proc.devRef .tc main_v79 := StableHlo.devRef_ne_of_ne (by decide)
  unfold X23
  rw [Function.update_of_ne h0]
  exact ((dat7 (atTc (X22 m)) c).arrAt_in (2 : Fin 4) rfl _).trans (A_eq7 (atTc (X22 m)) c (2 : Fin 4))
theorem X23_arr_3 (c : Dev nD) : (dat7 (atTc (X22 m)) c).arrAt (3 : Fin 4) cfg7.N = X23 m c (Pipeline.arrRef spec7 (3 : Fin 4)) := by
  unfold X23
  exact (eq_of_heq (update_at (congrArg (Proc.devRef (τ := τ) .tc) arr7_3) _)).symm
theorem X23_arr (c : Dev nD) : ∀ w : Fin 4, (dat7 (atTc (X22 m)) c).arrAt w cfg7.N = X23 m c (Pipeline.arrRef spec7 w)
  | ⟨0, _⟩ => X23_arr_0 m c
  | ⟨1, _⟩ => X23_arr_1 m c
  | ⟨2, _⟩ => X23_arr_2 m c
  | ⟨3, _⟩ => X23_arr_3 m c
  | ⟨_ + 4, h⟩ => absurd h (Nat.not_lt.2 (Nat.le_add_left _ _))
theorem X23_rest (c : Dev nD) (b : Ref sig .tc) (hb : b ∉ Finset.univ.image (Pipeline.arrRef spec7)) : X23 m c b = X22 m c b := by
  unfold X23
  rw [Function.update_of_ne (StableHlo.devRef_ne_of_ne (fun e => hb (Finset.mem_image.mpr ⟨(3 : Fin 4), Finset.mem_univ _, arr7_3.trans e.symm⟩)) : (Proc.devRef .tc b : DevRef τ sig) ≠ Proc.devRef .tc main_v79)]

/-- Region 7 as a segment: entered from every unscoped buffer at the contents before it, left at the contents after it. -/
def R7 : RegionSeg (pcfgs (F := F)) adm (pdats m) () defs₀ Variants.none L lv 7 :=
  LibRegionRecord.classA (pcfgs (F := F)) adm (pdats m) defs₀ Variants.none L lv 7
    launch7.win launch7.block_pos launch7.arr_whole launch7.stage_whole ⟨fun k => k.elim0⟩
    (fun c t => dat7_Φ (atTc (X22 m)) c t) (fun c w => dat7_q (atTc (X22 m)) c w) (fun c t => dat7_owed (atTc (X22 m)) c t) (fun c t => dat7_rec (atTc (X22 m)) c t)
    (fun c => body_obligation7 (atTc (X22 m)) c) (X22 m) (X23 m)
    (fun c w => A_eq7 (atTc (X22 m)) c w) (fun c w => X23_arr m c w) (fun c b hb => X23_rest m c b hb)

/-- What rides beside the buffers between the items: the generator register at some state, and nothing owed. -/
abbrev E : Fin 9 → Dev nD → sProp 𝕄 := fun _ c => LibRegionRecord.Rest c

theorem outs_last (c : Dev nD) : outs m 23 main_v79 c = X23 m c main_v79 := rfl

-- the run rule's implicit arguments are found by unifying its conclusion with this one, which takes unfolding plain
-- definitions in a metavariable's type
set_option backward.isDefEq.respectTransparency.types false in
/-- THE RUN: every weakly fair execution of @main from a memory with zero counters terminates, nothing faulting; the
    result array ends at what region 7's write-backs leave in it, and every argument array as launched. -/
theorem run (ρ : Dev nD → PrngReg) :
    θ_run defs (onTc (τ := τ) (main (F := F))) ⟨m, fun _ => 0, ρ⟩ (fun r => ∀ c : Dev nD,
      r.2.mem ((c.tc : Thread nD τ).loc main_v79) = outs m 23 main_v79 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  run_cond m (EP := emb₁) (ι := ()) (𝒱₀ := Variants.none) (L := L) (lv := lv) (hL := fun _ _ => rfl) (ρ := ρ) (outs := outs m)
    (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := E)
    (hE0 := by
      refine Pipeline.initEach L lv fun c => ?_
      iintro ⟨⟨-, HO, -, Hp, -⟩, -⟩
      imodintro
      isplitl [Hp]; · iexists _; iexact Hp
      iexists ∅; iexact HO)
    (hE8 := fun c => by iintro ⟨-, HO⟩; iexact HO)
    (R0 := R0 m) (hpre0 := fun c => .rfl) (hpost0 := fun c => by rw [V6_eq]; exact .rfl)
    (R1 := R1 m) (hpre1 := fun c => by rw [V8_eq]; exact .rfl) (hpost1 := fun c => by rw [V9_eq]; exact .rfl)
    (R2 := R2 m) (hpre2 := fun c => by rw [V10_eq]; exact .rfl) (hpost2 := fun c => by rw [V11_eq]; exact .rfl)
    (R3 := R3 m) (hpre3 := fun c => by rw [V12_eq]; exact .rfl) (hpost3 := fun c => by rw [V13_eq]; exact .rfl)
    (R4 := R4 m) (hpre4 := fun c => by rw [V15_eq]; exact .rfl) (hpost4 := fun c => by rw [V16_eq]; exact .rfl)
    (R5 := R5 m) (hpre5 := fun c => by rw [V17_eq]; exact .rfl) (hpost5 := fun c => by rw [V18_eq]; exact .rfl)
    (R6 := R6 m) (hpre6 := fun c => by rw [V19_eq]; exact .rfl) (hpost6 := fun c => by rw [V20_eq]; exact .rfl)
    (R7 := R7 m) (hpre7 := fun c => by rw [V22_eq]; exact .rfl) (hpost7 := fun c => by rw [V23_eq]; exact .rfl)

end Fold

end Cert.Kernel.Hand

end
-- ==== Proof.KernelIdealBody0.lean ====
import proofs.«107691_j23957327577190_1_alg».proof.Proof.Gen.KernelIdeal.Launch
import proofs.«107691_j23957327577190_1_alg».proof.Proof.Gen.KernelIdeal.Skeleton
import proofs.«107691_j23957327577190_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 0: the body's triple and the proof data

The region's body reads each input window's whole staging block, computes one value from them and stores it over
the whole output block. Stated at the buffer contents `V` found when the region is entered: each window's block at a
grid point, the output block as a function of the input blocks, and the obligation that the body, run at any grid
point on buffers holding the input blocks, leaves exactly that output block and the inputs untouched. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not it was fetched there
    (an unfetched window's block index has not moved), for any proof data over the arrays `V` whose body leaves the
    block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether or not it was fetched there
    (an unfetched window's block index has not moved), for any proof data over the arrays `V` whose body leaves the
    block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether or not it was fetched there
    (an unfetched window's block index has not moved), for any proof data over the arrays `V` whose body leaves the
    block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole block -/

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S5000x1 := Rect.unit (s := S5000x1) ![0, 0] S5000x1.size inb_S5000x1_S5000x1_0_0

/-! ## What the body leaves in the output window's buffer -/

/-- The output staging buffer after the body, from the input blocks: its one store, over the whole block. -/
def out0_3 (x0 : Vec F S5000x128 .f32) (x1 : Vec F S128x128 .f32) (x2 : Vec F S5000x1 .f32) : Vec F S5000x128 .f32 :=
  View.canon [⟨r0_0, k0_pay1 (View.ld x0 r0_0) (View.ld x1 r0_1) (View.ld x2 r0_2)⟩]

/-- The one store covers the buffer. -/
theorem cover0_3 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

/-! ## The body's triple -/

set_option maxHeartbeats 1000000 in
/-- The body on whole staging buffers, the inputs' holding `xW` and the output's anything, runs to the continuation
    with the inputs' unchanged and the output's holding `out0_3` of the inputs. -/
theorem sound_kernel0 (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S5000x1 .f32) (harg3 : arg3.IsWhole) (arg4 : Memref sig .tc .vmem S5000x128 .f32) (harg4 : arg4.IsWhole)
    (x0 : Vec F S5000x128 .f32) (x1 : Vec F S128x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__matmul_scale_kernel i arg1 harg1 arg2 harg2 arg3 harg3 arg4 harg4) K := by
  simp only [cc0__matmul_scale_kernel_eq_skeleton]; unfold cc0__matmul_scale_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The region's proof data -/

/-- The proof data of the region on core `c`: the arrays as the region finds them; after the body at point `t` each
    input's buffer at its block and the output's at `out0_3` of the input blocks; the invariant is the rest of the
    memory, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdealRuns1.lean ====
/-
  The row-statistics kernel region 1: what its three control cases share.

  At grid point t the body forms h = x·s + b on a block of 5000 rows, stores it to the first output's block,
  clears two row accumulators if t is the first point, adds to them the column sums of h and of h·h, and, if t
  is the last point, copies the accumulators to the second and third outputs. Stated here: the two branch
  conditions as propositions in the grid coordinates, with the points at which they hold; the points at which the
  two late outputs are left untouched and are not written back; the buffers the body is called with; and the part
  of the thread's scoped buffers that the body uses (the two accumulators), split off the rest.
-/
import proofs.«107691_j23957327577190_1_alg».proof.Proof.Gen.KernelIdeal.Launch
import proofs.«107691_j23957327577190_1_alg».proof.Proof.Gen.KernelIdeal.Skeleton
import proofs.«107691_j23957327577190_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- The first branch is taken when the grid coordinate is zero. -/
abbrev cond1_0 (i : grid1.Coords) : Prop := (Scalar.cmpi .ne (Scalar.extui (Scalar.cmpi .eq (BitVec.ofNat 32 (i 0).val) 0#32)) 0#32) = 1#1
/-- Among the twenty points that is the first one. -/
theorem hcond1_0 : ∀ t : Fin cfg1.N, cond1_0 (grid1.coords t) ↔ t.val % 20 = 0 :=
  (by decide +kernel : ∀ t : Fin grid1.N, cond1_0 (grid1.coords t) ↔ t.val % 20 = 0)

/-- The second branch is taken when the grid coordinate is nineteen. -/
abbrev cond1_1 (i : grid1.Coords) : Prop := k1_cond2 i = 1#1
/-- Among the twenty points that is the last one. -/
theorem hcond1_1 : ∀ t : Fin cfg1.N, cond1_1 (grid1.coords t) ↔ t.val % 20 = 19 :=
  (by decide +kernel : ∀ t : Fin grid1.N, cond1_1 (grid1.coords t) ↔ t.val % 20 = 19)

/-! ## Where the windows are touched -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Before the last point the two late outputs are not stored into, -/
theorem idleAt1_4 : ∀ t : Fin cfg1.N, ¬cond1_1 (grid1.coords t) → cfg1.idle 4 (grid1.coords t) = true := by decide +kernel
theorem idleAt1_5 : ∀ t : Fin cfg1.N, ¬cond1_1 (grid1.coords t) → cfg1.idle 5 (grid1.coords t) = true := by decide +kernel
/-- and are not written back; -/
theorem noFlush1_4 : ∀ t : Fin cfg1.N, ¬cond1_1 (grid1.coords t) → (cfg1.win 4).flush t = false := by decide +kernel
theorem noFlush1_5 : ∀ t : Fin cfg1.N, ¬cond1_1 (grid1.coords t) → (cfg1.win 5).flush t = false := by decide +kernel
/-- at the last point they are stored into. -/
theorem liveAt1_4 : ∀ t : Fin cfg1.N, cond1_1 (grid1.coords t) → cfg1.idle 4 (grid1.coords t) = false := by decide +kernel
theorem liveAt1_5 : ∀ t : Fin cfg1.N, cond1_1 (grid1.coords t) → cfg1.idle 5 (grid1.coords t) = false := by decide +kernel

/-! ## The buffers the body is called with -/

/-- One staging buffer of each output, through which contents are stated (for a whole buffer the choice does not
    matter). -/
abbrev VO1_3 : View sig .tc .vmem S5000x128 .f32 := (Memref.whole cc1_stg3_0 : Memref sig .tc .vmem S5000x128 .f32).view
abbrev VO1_4 : View sig .tc .vmem S1x128 .f32 := (Memref.whole cc1_stg4_0 : Memref sig .tc .vmem S1x128 .f32).view
abbrev VO1_5 : View sig .tc .vmem S1x128 .f32 := (Memref.whole cc1_stg5_0 : Memref sig .tc .vmem S1x128 .f32).view
/-- Each window's current staging buffer at point `t`, and its wholeness. -/
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S5000x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
/-- The two row accumulators: whole scoped buffers passed beside the windows, -/
abbrev scM1_0 : Memref sig .tc .vmem S1x128 .f32 := Memref.whole cc1_scratch0
abbrev scM1_1 : Memref sig .tc .vmem S1x128 .f32 := Memref.whole cc1_scratch1
/-- and as views, through which their contents are stated. -/
abbrev VS1_0 : View sig .tc .vmem S1x128 .f32 := scM1_0.view
abbrev VS1_1 : View sig .tc .vmem S1x128 .f32 := scM1_1.view

/-- The scoped buffers no window stages, with the two accumulators named as owned buffers at some contents and the
    others left together. -/
theorem scopedRest1_eq (c : Dev nD) :
    (Pipeline.scopedRest (Ix := Unit) (Name := ℕ) (U := UR sig nD τ) (Lvl := ℕ) (Val := Elt F) spec1 c : sProp 𝕄)
      = iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) := by
  rw [scopedRest1_split]; simp only [scM1_0, scM1_1, owns_whole]; try rfl

end Cert.KernelIdeal.Hand

end
-- ==== Proof.KernelIdealRun1A.lean ====
/-
  The row-statistics kernel region 1, first grid point: the body on arbitrary whole buffers.

  At the first point the accumulators are cleared before the column sums are added, so what they held before does
  not matter; the two late outputs are not touched. The run below executes the body's memory operations one by one
  and records, per buffer stored into, the list of pieces written (last first).
-/
import proofs.«107691_j23957327577190_1_alg».proof.Proof.KernelIdealRuns1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first point, on whole buffers: the three inputs at their contents, the first output and the two
    accumulators at anything, the two late outputs at contents that are handed back untouched. It runs to a
    continuation that holds the inputs as they were, the late outputs as they were, and the first output and each
    accumulator with the recorded pieces written. -/
noncomputable def kernelRun1_A (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond1_0 i) (hc1 : ¬cond1_1 i)
    (x0 : Vec F S5000x128 .f32) (x1 : Vec F S5000x1 .f32) (x2 : Vec F S1x128 .f32) :
    Σ' (L3 : List (View.Piece (Elt F) S5000x128 .f32)) (LS0 : List (View.Piece (Elt F) S1x128 .f32)), { LS1 : List (View.Piece (Elt F) S1x128 .f32) //
      ∀ (xi4 : Vec F S1x128 .f32) (xi5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xi4 ∗ owns (c : Thread nD τ) arg6 fullShare xi5
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ owns (c : Thread nD τ) arg5 fullShare xi4 ∗ owns (c : Thread nD τ) arg6 fullShare xi5
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc1__bias_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc1__bias_stats_kernel_eq_skeleton]; unfold cc1__bias_stats_kernel_skel
    simp only [k1_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2
    obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.KernelIdeal.Hand

end
-- ==== Proof.KernelIdealRun1B.lean ====
/-
  The row-statistics kernel region 1, a grid point that is neither the first nor the last: the body on arbitrary
  whole buffers.

  Here the accumulators are read at what the point before left in them and the column sums are added; the two late
  outputs are not touched.
-/
import proofs.«107691_j23957327577190_1_alg».proof.Proof.KernelIdealRun1A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a middle point, on whole buffers: the three inputs at their contents, the first output at
    anything, the two accumulators at the carried contents, the two late outputs at contents that are handed back
    untouched. It runs to a continuation that holds the inputs and the late outputs as they were, and the first
    output and each accumulator with the recorded pieces written. -/
noncomputable def kernelRun1_B (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : ¬cond1_1 i)
    (x0 : Vec F S5000x128 .f32) (x1 : Vec F S5000x1 .f32) (x2 : Vec F S1x128 .f32) (xs0 : Vec F S1x128 .f32) (xs1 : Vec F S1x128 .f32) :
    Σ' (L3 : List (View.Piece (Elt F) S5000x128 .f32)) (LS0 : List (View.Piece (Elt F) S1x128 .f32)), { LS1 : List (View.Piece (Elt F) S1x128 .f32) //
      ∀ (xi4 : Vec F S1x128 .f32) (xi5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xi4 ∗ owns (c : Thread nD τ) arg6 fullShare xi5
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ owns (c : Thread nD τ) arg5 fullShare xi4 ∗ owns (c : Thread nD τ) arg6 fullShare xi5
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc1__bias_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc1__bias_stats_kernel_eq_skeleton]; unfold cc1__bias_stats_kernel_skel
    simp only [k1_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg5.eq_unread hf4; obtain rfl := harg6.eq_unread hf5
    obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.KernelIdeal.Hand

end
-- ==== Proof.KernelIdealRun1C.lean ====
/-
  The row-statistics kernel region 1, last grid point: the body on arbitrary whole buffers.

  Here the accumulators are read at what the point before left in them, the column sums are added, and the
  accumulators are then copied to the two late outputs.
-/
import proofs.«107691_j23957327577190_1_alg».proof.Proof.KernelIdealRun1B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the last point, on whole buffers: the three inputs at their contents, the three outputs at
    anything, the two accumulators at the carried contents. It runs to a continuation that holds the inputs as they
    were and each output and each accumulator with the recorded pieces written. -/
noncomputable def kernelRun1_C (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i)
    (x0 : Vec F S5000x128 .f32) (x1 : Vec F S5000x1 .f32) (x2 : Vec F S1x128 .f32) (xs0 : Vec F S1x128 .f32) (xs1 : Vec F S1x128 .f32) :
    Σ' (L3 : List (View.Piece (Elt F) S5000x128 .f32)) (L4 : List (View.Piece (Elt F) S1x128 .f32)) (L5 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc1__bias_stats_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc1__bias_stats_kernel_eq_skeleton]; unfold cc1__bias_stats_kernel_skel
    simp only [k1_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [HS0]; · iexists _; iexact HS0
    iexists _; iexact HS1

end Cert.KernelIdeal.Hand

end
-- ==== Proof.KernelIdealOuts1.lean ====
/-
  The row-statistics kernel region 1: what the buffers hold after each grid point.

  Per control case, the pieces the body's run recorded for a buffer cover it, so what the buffer holds afterwards is
  the pieces read back. Point by point: after the first point the accumulators hold the first block's column sums;
  after each later point, what the point before left plus that point's column sums; after the last point the two
  late outputs hold the accumulators. This is a recursion on the point, each step using what the step before left in
  the accumulators.
-/
import proofs.«107691_j23957327577190_1_alg».proof.Proof.KernelIdealRun1C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At the first point the pieces stored into the first output's block tile it, so they cover it. -/
theorem cover1_A_3 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond1_0 i) (hc1 : ¬cond1_1 i)
    (x0 : Vec F S5000x128 .f32) (x1 : Vec F S5000x1 .f32) (x2 : Vec F S1x128 .f32) (y : S5000x128.Idx) :
    ∃ pc ∈ (kernelRun1_A c i arg1 harg1 arg2 harg2 arg3 harg3 arg4 harg4 arg5 harg5 arg6 harg6 arg7 harg7 arg8 harg8 hc0 hc1 x0 x1 x2).1, y ∈ pc.1.set :=
  View.cover_of_tiledL (kernelRun1_A c i arg1 harg1 arg2 harg2 arg3 harg3 arg4 harg4 arg5 harg5 arg6 harg6 arg7 harg7 arg8 harg8 hc0 hc1 x0 x1 x2).1 S5000x128.size (by sl_kernel_rfl) y

/-- What the first output's block then holds: the pieces read back (over contents that, being covered, do not matter). -/
def out1_A_3 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond1_0 i) (hc1 : ¬cond1_1 i)
    (x0 : Vec F S5000x128 .f32) (x1 : Vec F S5000x1 .f32) (x2 : Vec F S1x128 .f32) : Vec F S5000x128 .f32 :=
  VO1_3.read (Elt F) (VO1_3.writes (Elt F) VO1_3.junk (kernelRun1_A c i arg1 harg1 arg2 harg2 arg3 harg3 arg4 harg4 arg5 harg5 arg6 harg6 arg7 harg7 arg8 harg8 hc0 hc1 x0 x1 x2).1)

/-- At the first point the pieces stored into the first accumulator tile it, so they cover it. -/
theorem cover1_A_s0 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond1_0 i) (hc1 : ¬cond1_1 i)
    (x0 : Vec F S5000x128 .f32) (x1 : Vec F S5000x1 .f32) (x2 : Vec F S1x128 .f32) (y : S1x128.Idx) :
    ∃ pc ∈ (kernelRun1_A c i arg1 harg1 arg2 harg2 arg3 harg3 arg4 harg4 arg5 harg5 arg6 harg6 arg7 harg7 arg8 harg8 hc0 hc1 x0 x1 x2).2.1, y ∈ pc.1.set :=
  View.cover_of_tiledL (kernelRun1_A c i arg1 harg1 arg2 harg2 arg3 harg3 arg4 harg4 arg5 harg5 arg6 harg6 arg7 harg7 arg8 harg8 hc0 hc1 x0 x1 x2).2.1 S1x128.size (by sl_kernel_rfl) y

/-- What the first accumulator then holds: the pieces read back (over contents that, being covered, do not matter). -/
def out1_A_s0 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond1_0 i) (hc1 : ¬cond1_1 i)
    (x0 : Vec F S5000x128 .f32) (x1 : Vec F S5000x1 .f32) (x2 : Vec F S1x128 .f32) : Vec F S1x128 .f32 :=
  VS1_0.read (Elt F) (VS1_0.writes (Elt F) VS1_0.junk (kernelRun1_A c i arg1 harg1 arg2 harg2 arg3 harg3 arg4 harg4 arg5 harg5 arg6 harg6 arg7 harg7 arg8 harg8 hc0 hc1 x0 x1 x2).2.1)

/-- At the first point the pieces stored into the second accumulator tile it, so they cover it. -/
theorem cover1_A_s1 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond1_0 i) (hc1 : ¬cond1_1 i)
    (x0 : Vec F S5000x128 .f32) (x1 : Vec F S5000x1 .f32) (x2 : Vec F S1x128 .f32) (y : S1x128.Idx) :
    ∃ pc ∈ (kernelRun1_A c i arg1 harg1 arg2 harg2 arg3 harg3 arg4 harg4 arg5 harg5 arg6 harg6 arg7 harg7 arg8 harg8 hc0 hc1 x0 x1 x2).2.2.1, y ∈ pc.1.set :=
  View.cover_of_tiledL (kernelRun1_A c i arg1 harg1 arg2 harg2 arg3 harg3 arg4 harg4 arg5 harg5 arg6 harg6 arg7 harg7 arg8 harg8 hc0 hc1 x0 x1 x2).2.2.1 S1x128.size (by sl_kernel_rfl) y

/-- What the second accumulator then holds: the pieces read back (over contents that, being covered, do not matter). -/
def out1_A_s1 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond1_0 i) (hc1 : ¬cond1_1 i)
    (x0 : Vec F S5000x128 .f32) (x1 : Vec F S5000x1 .f32) (x2 : Vec F S1x128 .f32) : Vec F S1x128 .f32 :=
  VS1_1.read (Elt F) (VS1_1.writes (Elt F) VS1_1.junk (kernelRun1_A c i arg1 harg1 arg2 harg2 arg3 harg3 arg4 harg4 arg5 harg5 arg6 harg6 arg7 harg7 arg8 harg8 hc0 hc1 x0 x1 x2).2.2.1)

/-- At a middle point the pieces stored into the first output's block tile it, so they cover it. -/
theorem cover1_B_3 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : ¬cond1_1 i)
    (x0 : Vec F S5000x128 .f32) (x1 : Vec F S5000x1 .f32) (x2 : Vec F S1x128 .f32) (xs0 : Vec F S1x128 .f32) (xs1 : Vec F S1x128 .f32) (y : S5000x128.Idx) :
    ∃ pc ∈ (kernelRun1_B c i arg1 harg1 arg2 harg2 arg3 harg3 arg4 harg4 arg5 harg5 arg6 harg6 arg7 harg7 arg8 harg8 hc0 hc1 x0 x1 x2 xs0 xs1).1, y ∈ pc.1.set :=
  View.cover_of_tiledL (kernelRun1_B c i arg1 harg1 arg2 harg2 arg3 harg3 arg4 harg4 arg5 harg5 arg6 harg6 arg7 harg7 arg8 harg8 hc0 hc1 x0 x1 x2 xs0 xs1).1 S5000x128.size (by sl_kernel_rfl) y

/-- What the first output's block then holds: the pieces read back (over contents that, being covered, do not matter). -/
def out1_B_3 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : ¬cond1_1 i)
    (x0 : Vec F S5000x128 .f32) (x1 : Vec F S5000x1 .f32) (x2 : Vec F S1x128 .f32) (xs0 : Vec F S1x128 .f32) (xs1 : Vec F S1x128 .f32) : Vec F S5000x128 .f32 :=
  VO1_3.read (Elt F) (VO1_3.writes (Elt F) VO1_3.junk (kernelRun1_B c i arg1 harg1 arg2 harg2 arg3 harg3 arg4 harg4 arg5 harg5 arg6 harg6 arg7 harg7 arg8 harg8 hc0 hc1 x0 x1 x2 xs0 xs1).1)

/-- At a middle point the pieces stored into the first accumulator tile it, so they cover it. -/
theorem cover1_B_s0 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : ¬cond1_1 i)
    (x0 : Vec F S5000x128 .f32) (x1 : Vec F S5000x1 .f32) (x2 : Vec F S1x128 .f32) (xs0 : Vec F S1x128 .f32) (xs1 : Vec F S1x128 .f32) (y : S1x128.Idx) :
    ∃ pc ∈ (kernelRun1_B c i arg1 harg1 arg2 harg2 arg3 harg3 arg4 harg4 arg5 harg5 arg6 harg6 arg7 harg7 arg8 harg8 hc0 hc1 x0 x1 x2 xs0 xs1).2.1, y ∈ pc.1.set :=
  View.cover_of_tiledL (kernelRun1_B c i arg1 harg1 arg2 harg2 arg3 harg3 arg4 harg4 arg5 harg5 arg6 harg6 arg7 harg7 arg8 harg8 hc0 hc1 x0 x1 x2 xs0 xs1).2.1 S1x128.size (by sl_kernel_rfl) y

/-- What the first accumulator then holds: the pieces read back (over contents that, being covered, do not matter). -/
def out1_B_s0 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : ¬cond1_1 i)
    (x0 : Vec F S5000x128 .f32) (x1 : Vec F S5000x1 .f32) (x2 : Vec F S1x128 .f32) (xs0 : Vec F S1x128 .f32) (xs1 : Vec F S1x128 .f32) : Vec F S1x128 .f32 :=
  VS1_0.read (Elt F) (VS1_0.writes (Elt F) VS1_0.junk (kernelRun1_B c i arg1 harg1 arg2 harg2 arg3 harg3 arg4 harg4 arg5 harg5 arg6 harg6 arg7 harg7 arg8 harg8 hc0 hc1 x0 x1 x2 xs0 xs1).2.1)

/-- At a middle point the pieces stored into the second accumulator tile it, so they cover it. -/
theorem cover1_B_s1 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : ¬cond1_1 i)
    (x0 : Vec F S5000x128 .f32) (x1 : Vec F S5000x1 .f32) (x2 : Vec F S1x128 .f32) (xs0 : Vec F S1x128 .f32) (xs1 : Vec F S1x128 .f32) (y : S1x128.Idx) :
    ∃ pc ∈ (kernelRun1_B c i arg1 harg1 arg2 harg2 arg3 harg3 arg4 harg4 arg5 harg5 arg6 harg6 arg7 harg7 arg8 harg8 hc0 hc1 x0 x1 x2 xs0 xs1).2.2.1, y ∈ pc.1.set :=
  View.cover_of_tiledL (kernelRun1_B c i arg1 harg1 arg2 harg2 arg3 harg3 arg4 harg4 arg5 harg5 arg6 harg6 arg7 harg7 arg8 harg8 hc0 hc1 x0 x1 x2 xs0 xs1).2.2.1 S1x128.size (by sl_kernel_rfl) y

/-- What the second accumulator then holds: the pieces read back (over contents that, being covered, do not matter). -/
def out1_B_s1 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : ¬cond1_1 i)
    (x0 : Vec F S5000x128 .f32) (x1 : Vec F S5000x1 .f32) (x2 : Vec F S1x128 .f32) (xs0 : Vec F S1x128 .f32) (xs1 : Vec F S1x128 .f32) : Vec F S1x128 .f32 :=
  VS1_1.read (Elt F) (VS1_1.writes (Elt F) VS1_1.junk (kernelRun1_B c i arg1 harg1 arg2 harg2 arg3 harg3 arg4 harg4 arg5 harg5 arg6 harg6 arg7 harg7 arg8 harg8 hc0 hc1 x0 x1 x2 xs0 xs1).2.2.1)

/-- At the last point the pieces stored into the first output's block tile it, so they cover it. -/
theorem cover1_C_3 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i)
    (x0 : Vec F S5000x128 .f32) (x1 : Vec F S5000x1 .f32) (x2 : Vec F S1x128 .f32) (xs0 : Vec F S1x128 .f32) (xs1 : Vec F S1x128 .f32) (y : S5000x128.Idx) :
    ∃ pc ∈ (kernelRun1_C c i arg1 harg1 arg2 harg2 arg3 harg3 arg4 harg4 arg5 harg5 arg6 harg6 arg7 harg7 arg8 harg8 hc0 hc1 x0 x1 x2 xs0 xs1).1, y ∈ pc.1.set :=
  View.cover_of_tiledL (kernelRun1_C c i arg1 harg1 arg2 harg2 arg3 harg3 arg4 harg4 arg5 harg5 arg6 harg6 arg7 harg7 arg8 harg8 hc0 hc1 x0 x1 x2 xs0 xs1).1 S5000x128.size (by sl_kernel_rfl) y

/-- What the first output's block then holds: the pieces read back (over contents that, being covered, do not matter). -/
def out1_C_3 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i)
    (x0 : Vec F S5000x128 .f32) (x1 : Vec F S5000x1 .f32) (x2 : Vec F S1x128 .f32) (xs0 : Vec F S1x128 .f32) (xs1 : Vec F S1x128 .f32) : Vec F S5000x128 .f32 :=
  VO1_3.read (Elt F) (VO1_3.writes (Elt F) VO1_3.junk (kernelRun1_C c i arg1 harg1 arg2 harg2 arg3 harg3 arg4 harg4 arg5 harg5 arg6 harg6 arg7 harg7 arg8 harg8 hc0 hc1 x0 x1 x2 xs0 xs1).1)

/-- At the last point the pieces stored into the second output tile it, so they cover it. -/
theorem cover1_C_4 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i)
    (x0 : Vec F S5000x128 .f32) (x1 : Vec F S5000x1 .f32) (x2 : Vec F S1x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 arg7 harg7 arg8 harg8 hc0 hc1 x0 x1 x2 xs0 xs1).2.1, y ∈ pc.1.set :=
  View.cover_of_tiledL (kernelRun1_C c i arg1 harg1 arg2 harg2 arg3 harg3 arg4 harg4 arg5 harg5 arg6 harg6 arg7 harg7 arg8 harg8 hc0 hc1 x0 x1 x2 xs0 xs1).2.1 S1x128.size (by sl_kernel_rfl) y

/-- What the second output then holds: the pieces read back (over contents that, being covered, do not matter). -/
def out1_C_4 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i)
    (x0 : Vec F S5000x128 .f32) (x1 : Vec F S5000x1 .f32) (x2 : Vec F S1x128 .f32) (xs0 : Vec F S1x128 .f32) (xs1 : Vec F S1x128 .f32) : Vec F S1x128 .f32 :=
  VO1_4.read (Elt F) (VO1_4.writes (Elt F) VO1_4.junk (kernelRun1_C c i arg1 harg1 arg2 harg2 arg3 harg3 arg4 harg4 arg5 harg5 arg6 harg6 arg7 harg7 arg8 harg8 hc0 hc1 x0 x1 x2 xs0 xs1).2.1)

/-- At the last point the pieces stored into the third output tile it, so they cover it. -/
theorem cover1_C_5 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i)
    (x0 : Vec F S5000x128 .f32) (x1 : Vec F S5000x1 .f32) (x2 : Vec F S1x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 arg7 harg7 arg8 harg8 hc0 hc1 x0 x1 x2 xs0 xs1).2.2.1, y ∈ pc.1.set :=
  View.cover_of_tiledL (kernelRun1_C c i arg1 harg1 arg2 harg2 arg3 harg3 arg4 harg4 arg5 harg5 arg6 harg6 arg7 harg7 arg8 harg8 hc0 hc1 x0 x1 x2 xs0 xs1).2.2.1 S1x128.size (by sl_kernel_rfl) y

/-- What the third output then holds: the pieces read back (over contents that, being covered, do not matter). -/
def out1_C_5 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i)
    (x0 : Vec F S5000x128 .f32) (x1 : Vec F S5000x1 .f32) (x2 : Vec F S1x128 .f32) (xs0 : Vec F S1x128 .f32) (xs1 : Vec F S1x128 .f32) : Vec F S1x128 .f32 :=
  VO1_5.read (Elt F) (VO1_5.writes (Elt F) VO1_5.junk (kernelRun1_C c i arg1 harg1 arg2 harg2 arg3 harg3 arg4 harg4 arg5 harg5 arg6 harg6 arg7 harg7 arg8 harg8 hc0 hc1 x0 x1 x2 xs0 xs1).2.2.1)

/-- At the last point the pieces stored into the first accumulator tile it, so they cover it. -/
theorem cover1_C_s0 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i)
    (x0 : Vec F S5000x128 .f32) (x1 : Vec F S5000x1 .f32) (x2 : Vec F S1x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 arg7 harg7 arg8 harg8 hc0 hc1 x0 x1 x2 xs0 xs1).2.2.2.1, y ∈ pc.1.set :=
  View.cover_of_tiledL (kernelRun1_C c i arg1 harg1 arg2 harg2 arg3 harg3 arg4 harg4 arg5 harg5 arg6 harg6 arg7 harg7 arg8 harg8 hc0 hc1 x0 x1 x2 xs0 xs1).2.2.2.1 S1x128.size (by sl_kernel_rfl) y

/-- What the first accumulator then holds: the pieces read back (over contents that, being covered, do not matter). -/
def out1_C_s0 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i)
    (x0 : Vec F S5000x128 .f32) (x1 : Vec F S5000x1 .f32) (x2 : Vec F S1x128 .f32) (xs0 : Vec F S1x128 .f32) (xs1 : Vec F S1x128 .f32) : Vec F S1x128 .f32 :=
  VS1_0.read (Elt F) (VS1_0.writes (Elt F) VS1_0.junk (kernelRun1_C c i arg1 harg1 arg2 harg2 arg3 harg3 arg4 harg4 arg5 harg5 arg6 harg6 arg7 harg7 arg8 harg8 hc0 hc1 x0 x1 x2 xs0 xs1).2.2.2.1)

/-- At the last point the pieces stored into the second accumulator tile it, so they cover it. -/
theorem cover1_C_s1 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i)
    (x0 : Vec F S5000x128 .f32) (x1 : Vec F S5000x1 .f32) (x2 : Vec F S1x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 arg7 harg7 arg8 harg8 hc0 hc1 x0 x1 x2 xs0 xs1).2.2.2.2.1, y ∈ pc.1.set :=
  View.cover_of_tiledL (kernelRun1_C c i arg1 harg1 arg2 harg2 arg3 harg3 arg4 harg4 arg5 harg5 arg6 harg6 arg7 harg7 arg8 harg8 hc0 hc1 x0 x1 x2 xs0 xs1).2.2.2.2.1 S1x128.size (by sl_kernel_rfl) y

/-- What the second accumulator then holds: the pieces read back (over contents that, being covered, do not matter). -/
def out1_C_s1 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i)
    (x0 : Vec F S5000x128 .f32) (x1 : Vec F S5000x1 .f32) (x2 : Vec F S1x128 .f32) (xs0 : Vec F S1x128 .f32) (xs1 : Vec F S1x128 .f32) : Vec F S1x128 .f32 :=
  VS1_1.read (Elt F) (VS1_1.writes (Elt F) VS1_1.junk (kernelRun1_C c i arg1 harg1 arg2 harg2 arg3 harg3 arg4 harg4 arg5 harg5 arg6 harg6 arg7 harg7 arg8 harg8 hc0 hc1 x0 x1 x2 xs0 xs1).2.2.2.2.1)

/-! ## The blocks of the input arrays -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## Point by point -/

/-- What the three outputs' staging buffers and the two accumulators hold after the body at position `n` (in this
    order). Where a late output is not stored into, its component is a placeholder that nothing reads. -/
def outsAt1 (c : Dev nD) : (n : ℕ) → n < cfg1.N → Vec F S5000x128 .f32 × Vec F S1x128 .f32 × Vec F S1x128 .f32 × Vec F S1x128 .f32 × Vec F S1x128 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), VO1_4.read (Elt F) VO1_4.junk, VO1_5.read (Elt F) VO1_5.junk, out1_A_s0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), out1_A_s1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h1 : (n + 1) % 20 = 19 then
      (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2, out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2, out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2, out1_C_s0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2, out1_C_s1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2)
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2, VO1_4.read (Elt F) VO1_4.junk, VO1_5.read (Elt F) VO1_5.junk, out1_B_s0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2, out1_B_s1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2)

/-- At the first point: the first case's contents. -/
theorem outsAt1_A (c : Dev nD) (t : Fin cfg1.N) (h0 : t.val % 20 = 0) (h1 : ¬t.val % 20 = 19) :
    outsAt1 V c t.val t.isLt = (out1_A_3 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t), VO1_4.read (Elt F) VO1_4.junk, VO1_5.read (Elt F) VO1_5.junk, out1_A_s0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t), out1_A_s1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t)) := by
  have hN : t.val < 20 := lt_of_lt_of_eq t.isLt (show cfg1.N = 20 from N_1)
  obtain ⟨n, hn⟩ := t
  cases n with
  | zero => exact rfl
  | succ n => exact (by exfalso; (try dsimp only at h0 hN); omega)

/-- At a middle point: the middle case's contents, over what the point before left in the accumulators. -/
theorem outsAt1_B (c : Dev nD) (t : Fin cfg1.N) (h0 : ¬t.val % 20 = 0) (h1 : ¬t.val % 20 = 19) :
    outsAt1 V c t.val t.isLt = (out1_B_3 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, VO1_4.read (Elt F) VO1_4.junk, VO1_5.read (Elt F) VO1_5.junk, out1_B_s0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_B_s1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h1).trans rfl

/-- At the last point: the last case's contents, over what the point before left in the accumulators. -/
theorem outsAt1_C (c : Dev nD) (t : Fin cfg1.N) (h0 : ¬t.val % 20 = 0) (h1 : t.val % 20 = 19) :
    outsAt1 V c t.val t.isLt = (out1_C_3 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_C_s0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_C_s1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_pos h1).trans rfl

/-! ## The invariant -/

/-- The region's invariant before position `n`: before the first point the generator register at some state beside
    every scoped buffer no window stages, each at any contents; afterwards the same with the two accumulators at
    what the point before left in them. -/
def PhiS1 (c : Dev nD) : (n : ℕ) → n ≤ cfg1.N → sProp 𝕄
  | 0, _ => iprop((∃ r, prngReg c r) ∗ Pipeline.scopedRest (Ix := Unit) (Name := ℕ) (U := UR sig nD τ) (Lvl := ℕ) (Val := Elt F) spec1 c)
  | n + 1, hn => iprop((∃ r, prngReg c r)
      ∗ iprop(owns (c : Thread nD τ) scM1_0 fullShare ((outsAt1 V c n hn).2.2.2.1) ∗ owns (c : Thread nD τ) scM1_1 fullShare ((outsAt1 V c n hn).2.2.2.2))
      ∗ Pipeline.scopedRestBut (Ix := Unit) (Name := ℕ) (U := UR sig nD τ) (Lvl := ℕ) (Val := Elt F) spec1 c [cc1_scratch0, cc1_scratch1])

theorem PhiS1_zero (c : Dev nD) (n : ℕ) (h : n ≤ cfg1.N) (hz : n = 0) :
    PhiS1 V c n h = iprop((∃ r, prngReg c r) ∗ Pipeline.scopedRest (Ix := Unit) (Name := ℕ) (U := UR sig nD τ) (Lvl := ℕ) (Val := Elt F) spec1 c) := by
  subst hz; rfl

theorem PhiS1_succ (c : Dev nD) (n : ℕ) (hn : n < cfg1.N) :
    PhiS1 V c (n + 1) hn = iprop((∃ r, prngReg c r)
      ∗ iprop(owns (c : Thread nD τ) scM1_0 fullShare ((outsAt1 V c n hn).2.2.2.1) ∗ owns (c : Thread nD τ) scM1_1 fullShare ((outsAt1 V c n hn).2.2.2.2))
      ∗ Pipeline.scopedRestBut (Ix := Unit) (Name := ℕ) (U := UR sig nD τ) (Lvl := ℕ) (Val := Elt F) spec1 c [cc1_scratch0, cc1_scratch1]) := rfl

theorem PhiS1_pos (c : Dev nD) (n : ℕ) (h : n ≤ cfg1.N) (hz : n ≠ 0) :
    PhiS1 V c n h = iprop((∃ r, prngReg c r)
      ∗ iprop(owns (c : Thread nD τ) scM1_0 fullShare ((outsAt1 V c (n - 1) (by omega)).2.2.2.1) ∗ owns (c : Thread nD τ) scM1_1 fullShare ((outsAt1 V c (n - 1) (by omega)).2.2.2.2))
      ∗ Pipeline.scopedRestBut (Ix := Unit) (Name := ℕ) (U := UR sig nD τ) (Lvl := ℕ) (Val := Elt F) spec1 c [cc1_scratch0, cc1_scratch1]) := by
  cases n with
  | zero => exact absurd rfl hz
  | succ n => rfl

end Cert.KernelIdeal.Hand

end
-- ==== Proof.KernelIdealBody1.lean ====
/-
  The row-statistics kernel region 1: the proof data of its pipeline and the body's obligation.

  The arrays are at the contents the region finds (a parameter). After the body at a point each input's staging
  buffer holds its block, the first output's the block of h, and the accumulators the running column sums; the two
  late outputs are written at the last point only, from the accumulators. The invariant before a point says what
  the accumulators hold (nothing before the first point). The body's obligation is shown case by case: the point's
  position decides the two branches, the run of that case applies, and what it leaves is what the recursion on the
  point names.
-/
import proofs.«107691_j23957327577190_1_alg».proof.Proof.KernelIdealOuts1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The proof data -/

/-- The proof data of the pipeline on core `c`: the arrays as the region finds them; after the body at point `t`
    each input's buffer at its block and each output's at what the recursion on the point names; the invariant
    the accumulators' contents after the points before; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2.1
    | ⟨5, _⟩ => (outsAt1 V c t.val t.isLt).2.2.1
  Φ t := PhiS1 V c t.val (Nat.le_of_lt_succ t.isLt)
  q _ := fullShare
  owed _ := 0

/-- The arrays of the proof data are the contents the region finds. -/
theorem A_eq1 (c : Dev nD) (w : Fin cfg1.W) : (dat1 V c).A w = V c (Pipeline.arrRef spec1 w) := by
  dsimp only [dat1]

theorem howed1 (c : Dev nD) (t : Fin (cfg1.N + 1)) : (dat1 V c).owed t = 0 := rfl
theorem dat1_q (c : Dev nD) (w : Fin cfg1.W) : (dat1 V c).q w = fullShare := rfl
theorem hrec1 (c : Dev nD) (t : Fin (cfg1.N + 1)) : (dat1 V c).recorded t = Set.univ := rfl

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2.1 := by dsimp only [dat1]
theorem after1_5 (c : Dev nD) (t : Fin cfg1.N) : (dat1 V c).after 5 t = (outsAt1 V c t.val t.isLt).2.2.1 := by dsimp only [dat1]

/-- Each input's current staging buffer holds its block at every point, fetched there or not: unfetched, the block
    index has not moved. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The body's obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' buffers hold their blocks; the point's position decides the two branches;
    the invariant hands the body the accumulators at what the point before left (at anything at the first point)
    and takes them back at this point's contents, the other scoped buffers and the generator register passing
    through unread; before the last point the late outputs are handed back as found; the core owes nothing
    throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 20 := lt_of_lt_of_eq t.isLt (show cfg1.N = 20 from N_1)
  rw [show (dat1 V c).leavesExact 0 t = owns (c : Thread nD τ) (ms1_0 t) fullShare ((dat1 V c).after 0 t) from by
        unfold Dat.leavesExact; rw [liveAt1_0 t], after1_0]
  rw [show (dat1 V c).leavesExact 1 t = owns (c : Thread nD τ) (ms1_1 t) fullShare ((dat1 V c).after 1 t) from by
        unfold Dat.leavesExact; rw [liveAt1_1 t], after1_1]
  rw [show (dat1 V c).leavesExact 2 t = owns (c : Thread nD τ) (ms1_2 t) fullShare ((dat1 V c).after 2 t) from by
        unfold Dat.leavesExact; rw [liveAt1_2 t], after1_2]
  rw [show (dat1 V c).leavesExact 3 t = owns (c : Thread nD τ) (ms1_3 t) fullShare ((dat1 V c).after 3 t) from by
        unfold Dat.leavesExact; rw [liveAt1_3 t], after1_3]
  by_cases h0 : t.val % 20 = 0
  · by_cases h1 : t.val % 20 = 19
    · exfalso; omega
    · rw [Dat.leavesExact_idle (dat1 V c) 4 t (idleAt1_4 t (fun h => h1 ((hcond1_1 t).mp h))) (noFlush1_4 t (fun h => h1 ((hcond1_1 t).mp h)))]
      rw [Dat.leavesExact_idle (dat1 V c) 5 t (idleAt1_5 t (fun h => h1 ((hcond1_1 t).mp h))) (noFlush1_5 t (fun h => h1 ((hcond1_1 t).mp h)))]
      rw [outsAt1_A V c t h0 h1]
      unfold out1_A_3 out1_A_s0 out1_A_s1; (try dsimp only)
      have hz : t.val = 0 := by omega
      rw [PhiS1_castSucc V c t, PhiS1_zero V c _ _ hz, scopedRest1_eq]
      iintro ⟨⟨Hg, ⟨HS0, HS1⟩, Hr⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t)).2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, ⟨%e3, H3⟩, H4, H5, ⟨%es0, HS0⟩, ⟨%es1, HS1⟩⟩
      isplitl [Hg HS0 HS1 Hr]
      · isplitl [Hg]; · iexact Hg
        isplitl [HS0 HS1]
        · isplitl [HS0]
          · (unfold owns; iexists _; isplitr; swap; iexact HS0; ipureintro; exact View.read_writes_of_cover _ _ _ _ _ (cover1_A_s0 c _ _ _ _ _ _ _ _ _ _ _ _ _ _ _ _ _ _ _ _ _ _))
          (unfold owns; iexists _; isplitr; swap; iexact HS1; ipureintro; exact View.read_writes_of_cover _ _ _ _ _ (cover1_A_s1 c _ _ _ _ _ _ _ _ _ _ _ _ _ _ _ _ _ _ _ _ _ _))
        iexact Hr
      isplitl [Ho]; · iexact Ho
      isplitl [H0]; · iexact H0
      isplitl [H1]; · iexact H1
      isplitl [H2]; · iexact H2
      isplitl [H3]
      · (unfold owns; iexists _; isplitr; swap; iexact H3; ipureintro; exact View.read_writes_of_cover _ _ _ _ _ (cover1_A_3 c _ _ _ _ _ _ _ _ _ _ _ _ _ _ _ _ _ _ _ _ _ _))
      isplitl [H4]; · iexists _; iexact H4
      iexists _; iexact H5
  · have hz : t.val ≠ 0 := fun e => h0 (by rw [e])
    by_cases h1 : t.val % 20 = 19
    · rw [show (dat1 V c).leavesExact 4 t = owns (c : Thread nD τ) (ms1_4 t) fullShare ((dat1 V c).after 4 t) from by
        unfold Dat.leavesExact; rw [liveAt1_4 t ((hcond1_1 t).mpr h1)], after1_4]
      rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold out1_C_3 out1_C_4 out1_C_5 out1_C_s0 out1_C_s1; (try dsimp only)
      rw [PhiS1_castSucc V c t, PhiS1_pos V c _ _ hz]
      iintro ⟨⟨Hg, ⟨HS0, HS1⟩, Hr⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) _ _).2.2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      iintro ⟨H0, H1, H2, ⟨%e3, H3⟩, ⟨%e4, H4⟩, ⟨%e5, H5⟩, ⟨%es0, HS0⟩, ⟨%es1, HS1⟩⟩
      isplitl [Hg HS0 HS1 Hr]
      · isplitl [Hg]; · iexact Hg
        isplitl [HS0 HS1]
        · isplitl [HS0]
          · (unfold owns; iexists _; isplitr; swap; iexact HS0; ipureintro; exact View.read_writes_of_cover _ _ _ _ _ (cover1_C_s0 c _ _ _ _ _ _ _ _ _ _ _ _ _ _ _ _ _ _ _ _ _ _ _ _))
          (unfold owns; iexists _; isplitr; swap; iexact HS1; ipureintro; exact View.read_writes_of_cover _ _ _ _ _ (cover1_C_s1 c _ _ _ _ _ _ _ _ _ _ _ _ _ _ _ _ _ _ _ _ _ _ _ _))
        iexact Hr
      isplitl [Ho]; · iexact Ho
      isplitl [H0]; · iexact H0
      isplitl [H1]; · iexact H1
      isplitl [H2]; · iexact H2
      isplitl [H3]
      · (unfold owns; iexists _; isplitr; swap; iexact H3; ipureintro; exact View.read_writes_of_cover _ _ _ _ _ (cover1_C_3 c _ _ _ _ _ _ _ _ _ _ _ _ _ _ _ _ _ _ _ _ _ _ _ _))
      isplitl [H4]
      · (unfold owns; iexists _; isplitr; swap; iexact H4; ipureintro; exact View.read_writes_of_cover _ _ _ _ _ (cover1_C_4 c _ _ _ _ _ _ _ _ _ _ _ _ _ _ _ _ _ _ _ _ _ _ _ _))
      (unfold owns; iexists _; isplitr; swap; iexact H5; ipureintro; exact View.read_writes_of_cover _ _ _ _ _ (cover1_C_5 c _ _ _ _ _ _ _ _ _ _ _ _ _ _ _ _ _ _ _ _ _ _ _ _))
    · rw [Dat.leavesExact_idle (dat1 V c) 4 t (idleAt1_4 t (fun h => h1 ((hcond1_1 t).mp h))) (noFlush1_4 t (fun h => h1 ((hcond1_1 t).mp h)))]
      rw [Dat.leavesExact_idle (dat1 V c) 5 t (idleAt1_5 t (fun h => h1 ((hcond1_1 t).mp h))) (noFlush1_5 t (fun h => h1 ((hcond1_1 t).mp h)))]
      rw [outsAt1_B V c t h0 h1]
      unfold out1_B_3 out1_B_s0 out1_B_s1; (try dsimp only)
      rw [PhiS1_castSucc V c t, PhiS1_pos V c _ _ hz]
      iintro ⟨⟨Hg, ⟨HS0, HS1⟩, Hr⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) _ _).2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, ⟨%e3, H3⟩, H4, H5, ⟨%es0, HS0⟩, ⟨%es1, HS1⟩⟩
      isplitl [Hg HS0 HS1 Hr]
      · isplitl [Hg]; · iexact Hg
        isplitl [HS0 HS1]
        · isplitl [HS0]
          · (unfold owns; iexists _; isplitr; swap; iexact HS0; ipureintro; exact View.read_writes_of_cover _ _ _ _ _ (cover1_B_s0 c _ _ _ _ _ _ _ _ _ _ _ _ _ _ _ _ _ _ _ _ _ _ _ _))
          (unfold owns; iexists _; isplitr; swap; iexact HS1; ipureintro; exact View.read_writes_of_cover _ _ _ _ _ (cover1_B_s1 c _ _ _ _ _ _ _ _ _ _ _ _ _ _ _ _ _ _ _ _ _ _ _ _))
        iexact Hr
      isplitl [Ho]; · iexact Ho
      isplitl [H0]; · iexact H0
      isplitl [H1]; · iexact H1
      isplitl [H2]; · iexact H2
      isplitl [H3]
      · (unfold owns; iexists _; isplitr; swap; iexact H3; ipureintro; exact View.read_writes_of_cover _ _ _ _ _ (cover1_B_3 c _ _ _ _ _ _ _ _ _ _ _ _ _ _ _ _ _ _ _ _ _ _ _ _))
      isplitl [H4]; · iexists _; iexact H4
      iexists _; iexact H5

/-- The body's obligation at every point. -/
theorem body_obligation1 (c : Dev nD) : BodyObligation (dat1 (F := F) V c) (defs₀ (F := F)) Variants.none () Set.univ := fun t => by
  rw [bigSep_W1, bigSep_W1]
  exact sound_body1 V c t

/-! ## The region's two ends -/

/-- What the region is entered with is the invariant before the first point. -/
theorem hin1 (c : Dev nD) :
    iprop((∃ r, prngReg c r) ∗ Pipeline.scopedRest (Ix := Unit) (Name := ℕ) (U := UR sig nD τ) (Lvl := ℕ) (Val := Elt F) spec1 c) ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back: what the accumulators hold is forgotten. -/
theorem hout1 (c : Dev nD) :
    (dat1 V c).Φ (Fin.last cfg1.N) ⊢ iprop((∃ r, prngReg c r) ∗ Pipeline.scopedRest (Ix := Unit) (Name := ℕ) (U := UR sig nD τ) (Lvl := ℕ) (Val := Elt F) spec1 c) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 20 := N_1; omega), scopedRest1_eq]
  iintro ⟨Hg, ⟨HS0, HS1⟩, Hr⟩
  isplitl [Hg]; · iexact Hg
  isplitl [HS0 HS1]
  · isplitl [HS0]; · iexists _; iexact HS0
    iexists _; iexact HS1
  iexact Hr

end Cert.KernelIdeal.Hand

end
-- ==== Proof.KernelIdealBody2.lean ====
import proofs.«107691_j23957327577190_1_alg».proof.Proof.Gen.KernelIdeal.Launch
import proofs.«107691_j23957327577190_1_alg».proof.Proof.Gen.KernelIdeal.Skeleton
import proofs.«107691_j23957327577190_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 2: the body's triple and the proof data

The region's body reads each input window's whole staging block, computes one value from them and stores it over
the whole output block. Stated at the buffer contents `V` found when the region is entered: each window's block at a
grid point, the output block as a function of the input blocks, and the obligation that the body, run at any grid
point on buffers holding the input blocks, leaves exactly that output block and the inputs untouched. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether or not it was fetched there
    (an unfetched window's block index has not moved), for any proof data over the arrays `V` whose body leaves the
    block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether or not it was fetched there
    (an unfetched window's block index has not moved), for any proof data over the arrays `V` whose body leaves the
    block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether or not it was fetched there
    (an unfetched window's block index has not moved), for any proof data over the arrays `V` whose body leaves the
    block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, whether or not it was fetched there
    (an unfetched window's block index has not moved), for any proof data over the arrays `V` whose body leaves the
    block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, whether or not it was fetched there
    (an unfetched window's block index has not moved), for any proof data over the arrays `V` whose body leaves the
    block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole block -/

abbrev r2_0 : Rect S5000x128 := Rect.unit (s := S5000x128) ![0, 0] S5000x128.size inb_S5000x128_S5000x128_0_0
abbrev r2_1 : Rect S1x128 := Rect.unit (s := S1x128) ![0, 0] S1x128.size inb_S1x128_S1x128_0_0

/-! ## What the body leaves in the output window's buffer -/

/-- The output staging buffer after the body, from the input blocks: its one store, over the whole block. -/
def out2_5 (x0 : Vec F S5000x128 .f32) (x1 : Vec F S1x128 .f32) (x2 : Vec F S1x128 .f32) (x3 : Vec F S1x128 .f32) (x4 : Vec F S1x128 .f32) : Vec F S5000x128 .f32 :=
  View.canon [⟨r2_0, k2_pay1 (View.ld x0 r2_0) (View.ld x1 r2_1) (View.ld x2 r2_1) (View.ld x3 r2_1) (View.ld x4 r2_1)⟩]

/-- The one store covers the buffer. -/
theorem cover2_5 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

/-! ## The body's triple -/

set_option maxHeartbeats 1000000 in
/-- The body on whole staging buffers, the inputs' holding `xW` and the output's anything, runs to the continuation
    with the inputs' unchanged and the output's holding `out2_5` of the inputs. -/
theorem sound_kernel2 (c : Dev nD) (E : Set ℕ) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__bn_relu_kernel i arg1 harg1 arg2 harg2 arg3 harg3 arg4 harg4 arg5 harg5 arg6 harg6) K := by
  simp only [cc2__bn_relu_kernel_eq_skeleton]; unfold cc2__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The region's proof data -/

/-- The proof data of the region on core `c`: the arrays as the region finds them; after the body at point `t` each
    input's buffer at its block and the output's at `out2_5` of the input blocks; the invariant is the rest of the
    memory, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KernelIdealBody3.lean ====
import proofs.«107691_j23957327577190_1_alg».proof.Proof.Gen.KernelIdeal.Launch
import proofs.«107691_j23957327577190_1_alg».proof.Proof.Gen.KernelIdeal.Skeleton
import proofs.«107691_j23957327577190_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 3: the body's triple and the proof data

The region's body reads each input window's whole staging block, computes one value from them and stores it over
the whole output block. Stated at the buffer contents `V` found when the region is entered: each window's block at a
grid point, the output block as a function of the input blocks, and the obligation that the body, run at any grid
point on buffers holding the input blocks, leaves exactly that output block and the inputs untouched. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether or not it was fetched there
    (an unfetched window's block index has not moved), for any proof data over the arrays `V` whose body leaves the
    block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, whether or not it was fetched there
    (an unfetched window's block index has not moved), for any proof data over the arrays `V` whose body leaves the
    block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, whether or not it was fetched there
    (an unfetched window's block index has not moved), for any proof data over the arrays `V` whose body leaves the
    block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each is the whole block -/

abbrev r3_0 : Rect S5000x128 := Rect.unit (s := S5000x128) ![0, 0] S5000x128.size inb_S5000x128_S5000x128_0_0
abbrev r3_1 : Rect S128x128 := Rect.unit (s := S128x128) ![0, 0] S128x128.size inb_S128x128_S128x128_0_0
abbrev r3_2 : Rect S5000x1 := Rect.unit (s := S5000x1) ![0, 0] S5000x1.size inb_S5000x1_S5000x1_0_0

/-! ## What the body leaves in the output window's buffer -/

/-- The output staging buffer after the body, from the input blocks: its one store, over the whole block. -/
def out3_3 (x0 : Vec F S5000x128 .f32) (x1 : Vec F S128x128 .f32) (x2 : Vec F S5000x1 .f32) : Vec F S5000x128 .f32 :=
  View.canon [⟨r3_0, k3_pay1 (View.ld x0 r3_0) (View.ld x1 r3_1) (View.ld x2 r3_2)⟩]

/-- The one store covers the buffer. -/
theorem cover3_3 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

/-! ## The body's triple -/

set_option maxHeartbeats 1000000 in
/-- The body on whole staging buffers, the inputs' holding `xW` and the output's anything, runs to the continuation
    with the inputs' unchanged and the output's holding `out3_3` of the inputs. -/
theorem sound_kernel3 (c : Dev nD) (E : Set ℕ) (i : grid3.Coords) (arg1 : Memref sig .tc .vmem S5000x128 .f32) (harg1 : arg1.IsWhole) (arg2 : Memref sig .tc .vmem S128x128 .f32) (harg2 : arg2.IsWhole) (arg3 : Memref sig .tc .vmem S5000x1 .f32) (harg3 : arg3.IsWhole) (arg4 : Memref sig .tc .vmem S5000x128 .f32) (harg4 : arg4.IsWhole)
    (x0 : Vec F S5000x128 .f32) (x1 : Vec F S128x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__matmul_scale_kernel i arg1 harg1 arg2 harg2 arg3 harg3 arg4 harg4) K := by
  simp only [cc3__matmul_scale_kernel_eq_skeleton]; unfold cc3__matmul_scale_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The region's proof data -/

/-- The proof data of the region on core `c`: the arrays as the region finds them; after the body at point `t` each
    input's buffer at its block and the output's at `out3_3` of the input blocks; the invariant is the rest of the
    memory, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the body's triple applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KernelIdealRuns4.lean ====
/-
  The row-statistics kernel region 4: what its three control cases share.

  At grid point t the body forms h = x·s + b on a block of 5000 rows, stores it to the first output's block,
  clears two row accumulators if t is the first point, adds to them the column sums of h and of h·h, and, if t
  is the last point, copies the accumulators to the second and third outputs. Stated here: the two branch
  conditions as propositions in the grid coordinates, with the points at which they hold; the points at which the
  two late outputs are left untouched and are not written back; the buffers the body is called with; and the part
  of the thread's scoped buffers that the body uses (the two accumulators), split off the rest.
-/
import proofs.«107691_j23957327577190_1_alg».proof.Proof.Gen.KernelIdeal.Launch
import proofs.«107691_j23957327577190_1_alg».proof.Proof.Gen.KernelIdeal.Skeleton
import proofs.«107691_j23957327577190_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- The first branch is taken when the grid coordinate is zero. -/
abbrev cond4_0 (i : grid4.Coords) : Prop := (Scalar.cmpi .ne (Scalar.extui (Scalar.cmpi .eq (BitVec.ofNat 32 (i 0).val) 0#32)) 0#32) = 1#1
/-- Among the twenty points that is the first one. -/
theorem hcond4_0 : ∀ t : Fin cfg4.N, cond4_0 (grid4.coords t) ↔ t.val % 20 = 0 :=
  (by decide +kernel : ∀ t : Fin grid4.N, cond4_0 (grid4.coords t) ↔ t.val % 20 = 0)

/-- The second branch is taken when the grid coordinate is nineteen. -/
abbrev cond4_1 (i : grid4.Coords) : Prop := k4_cond2 i = 1#1
/-- Among the twenty points that is the last one. -/
theorem hcond4_1 : ∀ t : Fin cfg4.N, cond4_1 (grid4.coords t) ↔ t.val % 20 = 19 :=
  (by decide +kernel : ∀ t : Fin grid4.N, cond4_1 (grid4.coords t) ↔ t.val % 20 = 19)

/-! ## Where the windows are touched -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
/-- Before the last point the two late outputs are not stored into, -/
theorem idleAt4_4 : ∀ t : Fin cfg4.N, ¬cond4_1 (grid4.coords t) → cfg4.idle 4 (grid4.coords t) = true := by decide +kernel
theorem idleAt4_5 : ∀ t : Fin cfg4.N, ¬cond4_1 (grid4.coords t) → cfg4.idle 5 (grid4.coords t) = true := by decide +kernel
/-- and are not written back; -/
theorem noFlush4_4 : ∀ t : Fin cfg4.N, ¬cond4_1 (grid4.coords t) → (cfg4.win 4).flush t = false := by decide +kernel
theorem noFlush4_5 : ∀ t : Fin cfg4.N, ¬cond4_1 (grid4.coords t) → (cfg4.win 5).flush t = false := by decide +kernel
/-- at the last point they are stored into. -/
theorem liveAt4_4 : ∀ t : Fin cfg4.N, cond4_1 (grid4.coords t) → cfg4.idle 4 (grid4.coords t) = false := by decide +kernel
theorem liveAt4_5 : ∀ t : Fin cfg4.N, cond4_1 (grid4.coords t) → cfg4.idle 5 (grid4.coords t) = false := by decide +kernel

/-! ## The buffers the body is called with -/

/-- One staging buffer of each output, through which contents are stated (for a whole buffer the choice does not
    matter). -/
abbrev VO4_3 : View sig .tc .vmem S5000x128 .f32 := (Memref.whole cc4_stg3_0 : Memref sig .tc .vmem S5000x128 .f32).view
abbrev VO4_4 : View sig .tc .vmem S1x128 .f32 := (Memref.whole cc4_stg4_0 : Memref sig .tc .vmem S1x128 .f32).view
abbrev VO4_5 : View sig .tc .vmem S1x128 .f32 := (Memref.whole cc4_stg5_0 : Memref sig .tc .vmem S1x128 .f32).view
/-- Each window's current staging buffer at point `t`, and its wholeness. -/
abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x1 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S5000x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x128 .f32 := win4_5.stage (cfg4.slots t 5)
abbrev hs4_5 (t : Fin cfg4.N) : (ms4_5 t).IsWhole := hstage4_5 ((cfg4.slots t 5).cast nbuf4_5)
/-- The two row accumulators: whole scoped buffers passed beside the windows, -/
abbrev scM4_0 : Memref sig .tc .vmem S1x128 .f32 := Memref.whole cc4_scratch0
abbrev scM4_1 : Memref sig .tc .vmem S1x128 .f32 := Memref.whole cc4_scratch1
/-- and as views, through which their contents are stated. -/
abbrev VS4_0 : View sig .tc .vmem S1x128 .f32 := scM4_0.view
abbrev VS4_1 : View sig .tc .vmem S1x128 .f32 := scM4_1.view

/-- The scoped buffers no window stages, with the two accumulators named as owned buffers at some contents and the
    others left together. -/
theorem scopedRest4_eq (c : Dev nD) :
    (Pipeline.scopedRest (Ix := Unit) (Name := ℕ) (U := UR sig nD τ) (Lvl := ℕ) (Val := Elt F) spec4 c : sProp 𝕄)
      = iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) := by
  rw [scopedRest4_split]; simp only [scM4_0, scM4_1, owns_whole]; try rfl

end Cert.KernelIdeal.Hand

end
-- ==== Proof.KernelIdealRun4A.lean ====
/-
  The row-statistics kernel region 4, first grid point: the body on arbitrary whole buffers.

  At the first point the accumulators are cleared before the column sums are added, so what they held before does
  not matter; the two late outputs are not touched. The run below executes the body's memory operations one by one
  and records, per buffer stored into, the list of pieces written (last first).
-/
import proofs.«107691_j23957327577190_1_alg».proof.Proof.KernelIdealRuns4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first point, on whole buffers: the three inputs at their contents, the first output and the two
    accumulators at anything, the two late outputs at contents that are handed back untouched. It runs to a
    continuation that holds the inputs as they were, the late outputs as they were, and the first output and each
    accumulator with the recorded pieces written. -/
noncomputable def kernelRun4_A (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (x0 : Vec F S5000x128 .f32) (x1 : Vec F S5000x1 .f32) (x2 : Vec F S1x128 .f32) :
    Σ' (L3 : List (View.Piece (Elt F) S5000x128 .f32)) (LS0 : List (View.Piece (Elt F) S1x128 .f32)), { LS1 : List (View.Piece (Elt F) S1x128 .f32) //
      ∀ (xi4 : Vec F S1x128 .f32) (xi5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xi4 ∗ owns (c : Thread nD τ) arg6 fullShare xi5
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ owns (c : Thread nD τ) arg5 fullShare xi4 ∗ owns (c : Thread nD τ) arg6 fullShare xi5
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc4__bias_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc4__bias_stats_kernel_eq_skeleton]; unfold cc4__bias_stats_kernel_skel
    simp only [k4_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2
    obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.KernelIdeal.Hand

end
-- ==== Proof.KernelIdealRun4B.lean ====
/-
  The row-statistics kernel region 4, a grid point that is neither the first nor the last: the body on arbitrary
  whole buffers.

  Here the accumulators are read at what the point before left in them and the column sums are added; the two late
  outputs are not touched.
-/
import proofs.«107691_j23957327577190_1_alg».proof.Proof.KernelIdealRun4A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a middle point, on whole buffers: the three inputs at their contents, the first output at
    anything, the two accumulators at the carried contents, the two late outputs at contents that are handed back
    untouched. It runs to a continuation that holds the inputs and the late outputs as they were, and the first
    output and each accumulator with the recorded pieces written. -/
noncomputable def kernelRun4_B (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (x0 : Vec F S5000x128 .f32) (x1 : Vec F S5000x1 .f32) (x2 : Vec F S1x128 .f32) (xs0 : Vec F S1x128 .f32) (xs1 : Vec F S1x128 .f32) :
    Σ' (L3 : List (View.Piece (Elt F) S5000x128 .f32)) (LS0 : List (View.Piece (Elt F) S1x128 .f32)), { LS1 : List (View.Piece (Elt F) S1x128 .f32) //
      ∀ (xi4 : Vec F S1x128 .f32) (xi5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xi4 ∗ owns (c : Thread nD τ) arg6 fullShare xi5
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ owns (c : Thread nD τ) arg5 fullShare xi4 ∗ owns (c : Thread nD τ) arg6 fullShare xi5
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc4__bias_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc4__bias_stats_kernel_eq_skeleton]; unfold cc4__bias_stats_kernel_skel
    simp only [k4_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg5.eq_unread hf4; obtain rfl := harg6.eq_unread hf5
    obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.KernelIdeal.Hand

end
-- ==== Proof.KernelIdealRun4C.lean ====
/-
  The row-statistics kernel region 4, last grid point: the body on arbitrary whole buffers.

  Here the accumulators are read at what the point before left in them, the column sums are added, and the
  accumulators are then copied to the two late outputs.
-/
import proofs.«107691_j23957327577190_1_alg».proof.Proof.KernelIdealRun4B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the last point, on whole buffers: the three inputs at their contents, the three outputs at
    anything, the two accumulators at the carried contents. It runs to a continuation that holds the inputs as they
    were and each output and each accumulator with the recorded pieces written. -/
noncomputable def kernelRun4_C (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S5000x1 .f32) (x2 : Vec F S1x128 .f32) (xs0 : Vec F S1x128 .f32) (xs1 : Vec F S1x128 .f32) :
    Σ' (L3 : List (View.Piece (Elt F) S5000x128 .f32)) (L4 : List (View.Piece (Elt F) S1x128 .f32)) (L5 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc4__bias_stats_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc4__bias_stats_kernel_eq_skeleton]; unfold cc4__bias_stats_kernel_skel
    simp only [k4_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [HS0]; · iexists _; iexact HS0
    iexists _; iexact HS1

end Cert.KernelIdeal.Hand

end
-- ==== Proof.KernelIdealOuts4.lean ====
/-
  The row-statistics kernel region 4: what the buffers hold after each grid point.

  Per control case, the pieces the body's run recorded for a buffer cover it, so what the buffer holds afterwards is
  the pieces read back. Point by point: after the first point the accumulators hold the first block's column sums;
  after each later point, what the point before left plus that point's column sums; after the last point the two
  late outputs hold the accumulators. This is a recursion on the point, each step using what the step before left in
  the accumulators.
-/
import proofs.«107691_j23957327577190_1_alg».proof.Proof.KernelIdealRun4C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At the first point the pieces stored into the first output's block tile it, so they cover it. -/
theorem cover4_A_3 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (x0 : Vec F S5000x128 .f32) (x1 : Vec F S5000x1 .f32) (x2 : Vec F S1x128 .f32) (y : S5000x128.Idx) :
    ∃ pc ∈ (kernelRun4_A c i arg1 harg1 arg2 harg2 arg3 harg3 arg4 harg4 arg5 harg5 arg6 harg6 arg7 harg7 arg8 harg8 hc0 hc1 x0 x1 x2).1, y ∈ pc.1.set :=
  View.cover_of_tiledL (kernelRun4_A c i arg1 harg1 arg2 harg2 arg3 harg3 arg4 harg4 arg5 harg5 arg6 harg6 arg7 harg7 arg8 harg8 hc0 hc1 x0 x1 x2).1 S5000x128.size (by sl_kernel_rfl) y

/-- What the first output's block then holds: the pieces read back (over contents that, being covered, do not matter). -/
def out4_A_3 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (x0 : Vec F S5000x128 .f32) (x1 : Vec F S5000x1 .f32) (x2 : Vec F S1x128 .f32) : Vec F S5000x128 .f32 :=
  VO4_3.read (Elt F) (VO4_3.writes (Elt F) VO4_3.junk (kernelRun4_A c i arg1 harg1 arg2 harg2 arg3 harg3 arg4 harg4 arg5 harg5 arg6 harg6 arg7 harg7 arg8 harg8 hc0 hc1 x0 x1 x2).1)

/-- At the first point the pieces stored into the first accumulator tile it, so they cover it. -/
theorem cover4_A_s0 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (x0 : Vec F S5000x128 .f32) (x1 : Vec F S5000x1 .f32) (x2 : Vec F S1x128 .f32) (y : S1x128.Idx) :
    ∃ pc ∈ (kernelRun4_A c i arg1 harg1 arg2 harg2 arg3 harg3 arg4 harg4 arg5 harg5 arg6 harg6 arg7 harg7 arg8 harg8 hc0 hc1 x0 x1 x2).2.1, y ∈ pc.1.set :=
  View.cover_of_tiledL (kernelRun4_A c i arg1 harg1 arg2 harg2 arg3 harg3 arg4 harg4 arg5 harg5 arg6 harg6 arg7 harg7 arg8 harg8 hc0 hc1 x0 x1 x2).2.1 S1x128.size (by sl_kernel_rfl) y

/-- What the first accumulator then holds: the pieces read back (over contents that, being covered, do not matter). -/
def out4_A_s0 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (x0 : Vec F S5000x128 .f32) (x1 : Vec F S5000x1 .f32) (x2 : Vec F S1x128 .f32) : Vec F S1x128 .f32 :=
  VS4_0.read (Elt F) (VS4_0.writes (Elt F) VS4_0.junk (kernelRun4_A c i arg1 harg1 arg2 harg2 arg3 harg3 arg4 harg4 arg5 harg5 arg6 harg6 arg7 harg7 arg8 harg8 hc0 hc1 x0 x1 x2).2.1)

/-- At the first point the pieces stored into the second accumulator tile it, so they cover it. -/
theorem cover4_A_s1 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (x0 : Vec F S5000x128 .f32) (x1 : Vec F S5000x1 .f32) (x2 : Vec F S1x128 .f32) (y : S1x128.Idx) :
    ∃ pc ∈ (kernelRun4_A c i arg1 harg1 arg2 harg2 arg3 harg3 arg4 harg4 arg5 harg5 arg6 harg6 arg7 harg7 arg8 harg8 hc0 hc1 x0 x1 x2).2.2.1, y ∈ pc.1.set :=
  View.cover_of_tiledL (kernelRun4_A c i arg1 harg1 arg2 harg2 arg3 harg3 arg4 harg4 arg5 harg5 arg6 harg6 arg7 harg7 arg8 harg8 hc0 hc1 x0 x1 x2).2.2.1 S1x128.size (by sl_kernel_rfl) y

/-- What the second accumulator then holds: the pieces read back (over contents that, being covered, do not matter). -/
def out4_A_s1 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (x0 : Vec F S5000x128 .f32) (x1 : Vec F S5000x1 .f32) (x2 : Vec F S1x128 .f32) : Vec F S1x128 .f32 :=
  VS4_1.read (Elt F) (VS4_1.writes (Elt F) VS4_1.junk (kernelRun4_A c i arg1 harg1 arg2 harg2 arg3 harg3 arg4 harg4 arg5 harg5 arg6 harg6 arg7 harg7 arg8 harg8 hc0 hc1 x0 x1 x2).2.2.1)

/-- At a middle point the pieces stored into the first output's block tile it, so they cover it. -/
theorem cover4_B_3 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (x0 : Vec F S5000x128 .f32) (x1 : Vec F S5000x1 .f32) (x2 : Vec F S1x128 .f32) (xs0 : Vec F S1x128 .f32) (xs1 : Vec F S1x128 .f32) (y : S5000x128.Idx) :
    ∃ pc ∈ (kernelRun4_B c i arg1 harg1 arg2 harg2 arg3 harg3 arg4 harg4 arg5 harg5 arg6 harg6 arg7 harg7 arg8 harg8 hc0 hc1 x0 x1 x2 xs0 xs1).1, y ∈ pc.1.set :=
  View.cover_of_tiledL (kernelRun4_B c i arg1 harg1 arg2 harg2 arg3 harg3 arg4 harg4 arg5 harg5 arg6 harg6 arg7 harg7 arg8 harg8 hc0 hc1 x0 x1 x2 xs0 xs1).1 S5000x128.size (by sl_kernel_rfl) y

/-- What the first output's block then holds: the pieces read back (over contents that, being covered, do not matter). -/
def out4_B_3 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (x0 : Vec F S5000x128 .f32) (x1 : Vec F S5000x1 .f32) (x2 : Vec F S1x128 .f32) (xs0 : Vec F S1x128 .f32) (xs1 : Vec F S1x128 .f32) : Vec F S5000x128 .f32 :=
  VO4_3.read (Elt F) (VO4_3.writes (Elt F) VO4_3.junk (kernelRun4_B c i arg1 harg1 arg2 harg2 arg3 harg3 arg4 harg4 arg5 harg5 arg6 harg6 arg7 harg7 arg8 harg8 hc0 hc1 x0 x1 x2 xs0 xs1).1)

/-- At a middle point the pieces stored into the first accumulator tile it, so they cover it. -/
theorem cover4_B_s0 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (x0 : Vec F S5000x128 .f32) (x1 : Vec F S5000x1 .f32) (x2 : Vec F S1x128 .f32) (xs0 : Vec F S1x128 .f32) (xs1 : Vec F S1x128 .f32) (y : S1x128.Idx) :
    ∃ pc ∈ (kernelRun4_B c i arg1 harg1 arg2 harg2 arg3 harg3 arg4 harg4 arg5 harg5 arg6 harg6 arg7 harg7 arg8 harg8 hc0 hc1 x0 x1 x2 xs0 xs1).2.1, y ∈ pc.1.set :=
  View.cover_of_tiledL (kernelRun4_B c i arg1 harg1 arg2 harg2 arg3 harg3 arg4 harg4 arg5 harg5 arg6 harg6 arg7 harg7 arg8 harg8 hc0 hc1 x0 x1 x2 xs0 xs1).2.1 S1x128.size (by sl_kernel_rfl) y

/-- What the first accumulator then holds: the pieces read back (over contents that, being covered, do not matter). -/
def out4_B_s0 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (x0 : Vec F S5000x128 .f32) (x1 : Vec F S5000x1 .f32) (x2 : Vec F S1x128 .f32) (xs0 : Vec F S1x128 .f32) (xs1 : Vec F S1x128 .f32) : Vec F S1x128 .f32 :=
  VS4_0.read (Elt F) (VS4_0.writes (Elt F) VS4_0.junk (kernelRun4_B c i arg1 harg1 arg2 harg2 arg3 harg3 arg4 harg4 arg5 harg5 arg6 harg6 arg7 harg7 arg8 harg8 hc0 hc1 x0 x1 x2 xs0 xs1).2.1)

/-- At a middle point the pieces stored into the second accumulator tile it, so they cover it. -/
theorem cover4_B_s1 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (x0 : Vec F S5000x128 .f32) (x1 : Vec F S5000x1 .f32) (x2 : Vec F S1x128 .f32) (xs0 : Vec F S1x128 .f32) (xs1 : Vec F S1x128 .f32) (y : S1x128.Idx) :
    ∃ pc ∈ (kernelRun4_B c i arg1 harg1 arg2 harg2 arg3 harg3 arg4 harg4 arg5 harg5 arg6 harg6 arg7 harg7 arg8 harg8 hc0 hc1 x0 x1 x2 xs0 xs1).2.2.1, y ∈ pc.1.set :=
  View.cover_of_tiledL (kernelRun4_B c i arg1 harg1 arg2 harg2 arg3 harg3 arg4 harg4 arg5 harg5 arg6 harg6 arg7 harg7 arg8 harg8 hc0 hc1 x0 x1 x2 xs0 xs1).2.2.1 S1x128.size (by sl_kernel_rfl) y

/-- What the second accumulator then holds: the pieces read back (over contents that, being covered, do not matter). -/
def out4_B_s1 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (x0 : Vec F S5000x128 .f32) (x1 : Vec F S5000x1 .f32) (x2 : Vec F S1x128 .f32) (xs0 : Vec F S1x128 .f32) (xs1 : Vec F S1x128 .f32) : Vec F S1x128 .f32 :=
  VS4_1.read (Elt F) (VS4_1.writes (Elt F) VS4_1.junk (kernelRun4_B c i arg1 harg1 arg2 harg2 arg3 harg3 arg4 harg4 arg5 harg5 arg6 harg6 arg7 harg7 arg8 harg8 hc0 hc1 x0 x1 x2 xs0 xs1).2.2.1)

/-- At the last point the pieces stored into the first output's block tile it, so they cover it. -/
theorem cover4_C_3 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S5000x1 .f32) (x2 : Vec F S1x128 .f32) (xs0 : Vec F S1x128 .f32) (xs1 : Vec F S1x128 .f32) (y : S5000x128.Idx) :
    ∃ pc ∈ (kernelRun4_C c i arg1 harg1 arg2 harg2 arg3 harg3 arg4 harg4 arg5 harg5 arg6 harg6 arg7 harg7 arg8 harg8 hc0 hc1 x0 x1 x2 xs0 xs1).1, y ∈ pc.1.set :=
  View.cover_of_tiledL (kernelRun4_C c i arg1 harg1 arg2 harg2 arg3 harg3 arg4 harg4 arg5 harg5 arg6 harg6 arg7 harg7 arg8 harg8 hc0 hc1 x0 x1 x2 xs0 xs1).1 S5000x128.size (by sl_kernel_rfl) y

/-- What the first output's block then holds: the pieces read back (over contents that, being covered, do not matter). -/
def out4_C_3 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S5000x1 .f32) (x2 : Vec F S1x128 .f32) (xs0 : Vec F S1x128 .f32) (xs1 : Vec F S1x128 .f32) : Vec F S5000x128 .f32 :=
  VO4_3.read (Elt F) (VO4_3.writes (Elt F) VO4_3.junk (kernelRun4_C c i arg1 harg1 arg2 harg2 arg3 harg3 arg4 harg4 arg5 harg5 arg6 harg6 arg7 harg7 arg8 harg8 hc0 hc1 x0 x1 x2 xs0 xs1).1)

/-- At the last point the pieces stored into the second output tile it, so they cover it. -/
theorem cover4_C_4 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S5000x1 .f32) (x2 : Vec F S1x128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 hc0 hc1 x0 x1 x2 xs0 xs1).2.1, y ∈ pc.1.set :=
  View.cover_of_tiledL (kernelRun4_C c i arg1 harg1 arg2 harg2 arg3 harg3 arg4 harg4 arg5 harg5 arg6 harg6 arg7 harg7 arg8 harg8 hc0 hc1 x0 x1 x2 xs0 xs1).2.1 S1x128.size (by sl_kernel_rfl) y

/-- What the second output then holds: the pieces read back (over contents that, being covered, do not matter). -/
def out4_C_4 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S5000x1 .f32) (x2 : Vec F S1x128 .f32) (xs0 : Vec F S1x128 .f32) (xs1 : Vec F S1x128 .f32) : Vec F S1x128 .f32 :=
  VO4_4.read (Elt F) (VO4_4.writes (Elt F) VO4_4.junk (kernelRun4_C c i arg1 harg1 arg2 harg2 arg3 harg3 arg4 harg4 arg5 harg5 arg6 harg6 arg7 harg7 arg8 harg8 hc0 hc1 x0 x1 x2 xs0 xs1).2.1)

/-- At the last point the pieces stored into the third output tile it, so they cover it. -/
theorem cover4_C_5 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S5000x1 .f32) (x2 : Vec F S1x128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 hc0 hc1 x0 x1 x2 xs0 xs1).2.2.1, y ∈ pc.1.set :=
  View.cover_of_tiledL (kernelRun4_C c i arg1 harg1 arg2 harg2 arg3 harg3 arg4 harg4 arg5 harg5 arg6 harg6 arg7 harg7 arg8 harg8 hc0 hc1 x0 x1 x2 xs0 xs1).2.2.1 S1x128.size (by sl_kernel_rfl) y

/-- What the third output then holds: the pieces read back (over contents that, being covered, do not matter). -/
def out4_C_5 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S5000x1 .f32) (x2 : Vec F S1x128 .f32) (xs0 : Vec F S1x128 .f32) (xs1 : Vec F S1x128 .f32) : Vec F S1x128 .f32 :=
  VO4_5.read (Elt F) (VO4_5.writes (Elt F) VO4_5.junk (kernelRun4_C c i arg1 harg1 arg2 harg2 arg3 harg3 arg4 harg4 arg5 harg5 arg6 harg6 arg7 harg7 arg8 harg8 hc0 hc1 x0 x1 x2 xs0 xs1).2.2.1)

/-- At the last point the pieces stored into the first accumulator tile it, so they cover it. -/
theorem cover4_C_s0 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S5000x1 .f32) (x2 : Vec F S1x128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 hc0 hc1 x0 x1 x2 xs0 xs1).2.2.2.1, y ∈ pc.1.set :=
  View.cover_of_tiledL (kernelRun4_C c i arg1 harg1 arg2 harg2 arg3 harg3 arg4 harg4 arg5 harg5 arg6 harg6 arg7 harg7 arg8 harg8 hc0 hc1 x0 x1 x2 xs0 xs1).2.2.2.1 S1x128.size (by sl_kernel_rfl) y

/-- What the first accumulator then holds: the pieces read back (over contents that, being covered, do not matter). -/
def out4_C_s0 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S5000x1 .f32) (x2 : Vec F S1x128 .f32) (xs0 : Vec F S1x128 .f32) (xs1 : Vec F S1x128 .f32) : Vec F S1x128 .f32 :=
  VS4_0.read (Elt F) (VS4_0.writes (Elt F) VS4_0.junk (kernelRun4_C c i arg1 harg1 arg2 harg2 arg3 harg3 arg4 harg4 arg5 harg5 arg6 harg6 arg7 harg7 arg8 harg8 hc0 hc1 x0 x1 x2 xs0 xs1).2.2.2.1)

/-- At the last point the pieces stored into the second accumulator tile it, so they cover it. -/
theorem cover4_C_s1 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S5000x1 .f32) (x2 : Vec F S1x128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 hc0 hc1 x0 x1 x2 xs0 xs1).2.2.2.2.1, y ∈ pc.1.set :=
  View.cover_of_tiledL (kernelRun4_C c i arg1 harg1 arg2 harg2 arg3 harg3 arg4 harg4 arg5 harg5 arg6 harg6 arg7 harg7 arg8 harg8 hc0 hc1 x0 x1 x2 xs0 xs1).2.2.2.2.1 S1x128.size (by sl_kernel_rfl) y

/-- What the second accumulator then holds: the pieces read back (over contents that, being covered, do not matter). -/
def out4_C_s1 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S5000x1 .f32) (x2 : Vec F S1x128 .f32) (xs0 : Vec F S1x128 .f32) (xs1 : Vec F S1x128 .f32) : Vec F S1x128 .f32 :=
  VS4_1.read (Elt F) (VS4_1.writes (Elt F) VS4_1.junk (kernelRun4_C c i arg1 harg1 arg2 harg2 arg3 harg3 arg4 harg4 arg5 harg5 arg6 harg6 arg7 harg7 arg8 harg8 hc0 hc1 x0 x1 x2 xs0 xs1).2.2.2.2.1)

/-! ## The blocks of the input arrays -/

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## Point by point -/

/-- What the three outputs' staging buffers and the two accumulators hold after the body at position `n` (in this
    order). Where a late output is not stored into, its component is a placeholder that nothing reads. -/
def outsAt4 (c : Dev nD) : (n : ℕ) → n < cfg4.N → Vec F S5000x128 .f32 × Vec F S1x128 .f32 × Vec F S1x128 .f32 × Vec F S1x128 .f32 × Vec F S1x128 .f32
  | 0, hn => (out4_A_3 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩), VO4_4.read (Elt F) VO4_4.junk, VO4_5.read (Elt F) VO4_5.junk, out4_A_s0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩), out4_A_s1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩))
  | n + 1, hn =>
    if h1 : (n + 1) % 20 = 19 then
      (out4_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => (fun h => by have hN : n + 1 < 20 := lt_of_lt_of_eq hn (show cfg4.N = 20 from N_4); (try dsimp only at h); omega) ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2.2.1 (outsAt4 c n (Nat.lt_of_succ_lt hn)).2.2.2.2, out4_C_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => (fun h => by have hN : n + 1 < 20 := lt_of_lt_of_eq hn (show cfg4.N = 20 from N_4); (try dsimp only at h); omega) ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2.2.1 (outsAt4 c n (Nat.lt_of_succ_lt hn)).2.2.2.2, out4_C_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => (fun h => by have hN : n + 1 < 20 := lt_of_lt_of_eq hn (show cfg4.N = 20 from N_4); (try dsimp only at h); omega) ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2.2.1 (outsAt4 c n (Nat.lt_of_succ_lt hn)).2.2.2.2, out4_C_s0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => (fun h => by have hN : n + 1 < 20 := lt_of_lt_of_eq hn (show cfg4.N = 20 from N_4); (try dsimp only at h); omega) ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2.2.1 (outsAt4 c n (Nat.lt_of_succ_lt hn)).2.2.2.2, out4_C_s1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => (fun h => by have hN : n + 1 < 20 := lt_of_lt_of_eq hn (show cfg4.N = 20 from N_4); (try dsimp only at h); omega) ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2.2.1 (outsAt4 c n (Nat.lt_of_succ_lt hn)).2.2.2.2)
    else
      (out4_B_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => (fun h => by have hN : n + 1 < 20 := lt_of_lt_of_eq hn (show cfg4.N = 20 from N_4); (try dsimp only at h); omega) ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.2.2.1 (outsAt4 c n (Nat.lt_of_succ_lt hn)).2.2.2.2, VO4_4.read (Elt F) VO4_4.junk, VO4_5.read (Elt F) VO4_5.junk, out4_B_s0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => (fun h => by have hN : n + 1 < 20 := lt_of_lt_of_eq hn (show cfg4.N = 20 from N_4); (try dsimp only at h); omega) ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.2.2.1 (outsAt4 c n (Nat.lt_of_succ_lt hn)).2.2.2.2, out4_B_s1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => (fun h => by have hN : n + 1 < 20 := lt_of_lt_of_eq hn (show cfg4.N = 20 from N_4); (try dsimp only at h); omega) ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.2.2.1 (outsAt4 c n (Nat.lt_of_succ_lt hn)).2.2.2.2)

/-- At the first point: the first case's contents. -/
theorem outsAt4_A (c : Dev nD) (t : Fin cfg4.N) (h0 : t.val % 20 = 0) (h1 : ¬t.val % 20 = 19) :
    outsAt4 V c t.val t.isLt = (out4_A_3 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) ((hcond4_0 t).mpr h0) (fun h => h1 ((hcond4_1 t).mp h)) (iblk4 V c 0 t) (iblk4 V c 1 t) (iblk4 V c 2 t), VO4_4.read (Elt F) VO4_4.junk, VO4_5.read (Elt F) VO4_5.junk, out4_A_s0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) ((hcond4_0 t).mpr h0) (fun h => h1 ((hcond4_1 t).mp h)) (iblk4 V c 0 t) (iblk4 V c 1 t) (iblk4 V c 2 t), out4_A_s1 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) ((hcond4_0 t).mpr h0) (fun h => h1 ((hcond4_1 t).mp h)) (iblk4 V c 0 t) (iblk4 V c 1 t) (iblk4 V c 2 t)) := by
  have hN : t.val < 20 := lt_of_lt_of_eq t.isLt (show cfg4.N = 20 from N_4)
  obtain ⟨n, hn⟩ := t
  cases n with
  | zero => exact rfl
  | succ n => exact (by exfalso; (try dsimp only at h0 hN); omega)

/-- At a middle point: the middle case's contents, over what the point before left in the accumulators. -/
theorem outsAt4_B (c : Dev nD) (t : Fin cfg4.N) (h0 : ¬t.val % 20 = 0) (h1 : ¬t.val % 20 = 19) :
    outsAt4 V c t.val t.isLt = (out4_B_3 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, VO4_4.read (Elt F) VO4_4.junk, VO4_5.read (Elt F) VO4_5.junk, out4_B_s0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_B_s1 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h1).trans rfl

/-- At the last point: the last case's contents, over what the point before left in the accumulators. -/
theorem outsAt4_C (c : Dev nD) (t : Fin cfg4.N) (h0 : ¬t.val % 20 = 0) (h1 : t.val % 20 = 19) :
    outsAt4 V c t.val t.isLt = (out4_C_3 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_C_4 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_C_5 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_C_s0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_C_s1 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_pos h1).trans rfl

/-! ## The invariant -/

/-- The region's invariant before position `n`: before the first point the generator register at some state beside
    every scoped buffer no window stages, each at any contents; afterwards the same with the two accumulators at
    what the point before left in them. -/
def PhiS4 (c : Dev nD) : (n : ℕ) → n ≤ cfg4.N → sProp 𝕄
  | 0, _ => iprop((∃ r, prngReg c r) ∗ Pipeline.scopedRest (Ix := Unit) (Name := ℕ) (U := UR sig nD τ) (Lvl := ℕ) (Val := Elt F) spec4 c)
  | n + 1, hn => iprop((∃ r, prngReg c r)
      ∗ iprop(owns (c : Thread nD τ) scM4_0 fullShare ((outsAt4 V c n hn).2.2.2.1) ∗ owns (c : Thread nD τ) scM4_1 fullShare ((outsAt4 V c n hn).2.2.2.2))
      ∗ Pipeline.scopedRestBut (Ix := Unit) (Name := ℕ) (U := UR sig nD τ) (Lvl := ℕ) (Val := Elt F) spec4 c [cc4_scratch0, cc4_scratch1])

theorem PhiS4_zero (c : Dev nD) (n : ℕ) (h : n ≤ cfg4.N) (hz : n = 0) :
    PhiS4 V c n h = iprop((∃ r, prngReg c r) ∗ Pipeline.scopedRest (Ix := Unit) (Name := ℕ) (U := UR sig nD τ) (Lvl := ℕ) (Val := Elt F) spec4 c) := by
  subst hz; rfl

theorem PhiS4_succ (c : Dev nD) (n : ℕ) (hn : n < cfg4.N) :
    PhiS4 V c (n + 1) hn = iprop((∃ r, prngReg c r)
      ∗ iprop(owns (c : Thread nD τ) scM4_0 fullShare ((outsAt4 V c n hn).2.2.2.1) ∗ owns (c : Thread nD τ) scM4_1 fullShare ((outsAt4 V c n hn).2.2.2.2))
      ∗ Pipeline.scopedRestBut (Ix := Unit) (Name := ℕ) (U := UR sig nD τ) (Lvl := ℕ) (Val := Elt F) spec4 c [cc4_scratch0, cc4_scratch1]) := rfl

theorem PhiS4_pos (c : Dev nD) (n : ℕ) (h : n ≤ cfg4.N) (hz : n ≠ 0) :
    PhiS4 V c n h = iprop((∃ r, prngReg c r)
      ∗ iprop(owns (c : Thread nD τ) scM4_0 fullShare ((outsAt4 V c (n - 1) (by omega)).2.2.2.1) ∗ owns (c : Thread nD τ) scM4_1 fullShare ((outsAt4 V c (n - 1) (by omega)).2.2.2.2))
      ∗ Pipeline.scopedRestBut (Ix := Unit) (Name := ℕ) (U := UR sig nD τ) (Lvl := ℕ) (Val := Elt F) spec4 c [cc4_scratch0, cc4_scratch1]) := by
  cases n with
  | zero => exact absurd rfl hz
  | succ n => rfl

end Cert.KernelIdeal.Hand

end
-- ==== Proof.KernelIdealBody4.lean ====
/-
  The row-statistics kernel region 4: the proof data of its pipeline and the body's obligation.

  The arrays are at the contents the region finds (a parameter). After the body at a point each input's staging
  buffer holds its block, the first output's the block of h, and the accumulators the running column sums; the two
  late outputs are written at the last point only, from the accumulators. The invariant before a point says what
  the accumulators hold (nothing before the first point). The body's obligation is shown case by case: the point's
  position decides the two branches, the run of that case applies, and what it leaves is what the recursion on the
  point names.
-/
import proofs.«107691_j23957327577190_1_alg».proof.Proof.KernelIdealOuts4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The proof data -/

/-- The proof data of the pipeline on core `c`: the arrays as the region finds them; after the body at point `t`
    each input's buffer at its block and each output's at what the recursion on the point names; the invariant
    the accumulators' contents after the points before; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
    | ⟨4, _⟩ => (outsAt4 V c t.val t.isLt).2.1
    | ⟨5, _⟩ => (outsAt4 V c t.val t.isLt).2.2.1
  Φ t := PhiS4 V c t.val (Nat.le_of_lt_succ t.isLt)
  q _ := fullShare
  owed _ := 0

/-- The arrays of the proof data are the contents the region finds. -/
theorem A_eq4 (c : Dev nD) (w : Fin cfg4.W) : (dat4 V c).A w = V c (Pipeline.arrRef spec4 w) := by
  dsimp only [dat4]

theorem howed4 (c : Dev nD) (t : Fin (cfg4.N + 1)) : (dat4 V c).owed t = 0 := rfl
theorem dat4_q (c : Dev nD) (w : Fin cfg4.W) : (dat4 V c).q w = fullShare := rfl
theorem hrec4 (c : Dev nD) (t : Fin (cfg4.N + 1)) : (dat4 V c).recorded t = Set.univ := rfl

/-- The invariant at a point's start, restated at the point's position. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]
theorem after4_4 (c : Dev nD) (t : Fin cfg4.N) : (dat4 V c).after 4 t = (outsAt4 V c t.val t.isLt).2.1 := by dsimp only [dat4]
theorem after4_5 (c : Dev nD) (t : Fin cfg4.N) : (dat4 V c).after 5 t = (outsAt4 V c t.val t.isLt).2.2.1 := by dsimp only [dat4]

/-- Each input's current staging buffer holds its block at every point, fetched there or not: unfetched, the block
    index has not moved. -/
theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)

/-! ## The body's obligation -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t)

set_option maxHeartbeats 4800000 in
/-- The body at any point. The inputs' buffers hold their blocks; the point's position decides the two branches;
    the invariant hands the body the accumulators at what the point before left (at anything at the first point)
    and takes them back at this point's contents, the other scoped buffers and the generator register passing
    through unread; before the last point the late outputs are handed back as found; the core owes nothing
    throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  have hN : t.val < 20 := lt_of_lt_of_eq t.isLt (show cfg4.N = 20 from N_4)
  rw [show (dat4 V c).leavesExact 0 t = owns (c : Thread nD τ) (ms4_0 t) fullShare ((dat4 V c).after 0 t) from by
        unfold Dat.leavesExact; rw [liveAt4_0 t], after4_0]
  rw [show (dat4 V c).leavesExact 1 t = owns (c : Thread nD τ) (ms4_1 t) fullShare ((dat4 V c).after 1 t) from by
        unfold Dat.leavesExact; rw [liveAt4_1 t], after4_1]
  rw [show (dat4 V c).leavesExact 2 t = owns (c : Thread nD τ) (ms4_2 t) fullShare ((dat4 V c).after 2 t) from by
        unfold Dat.leavesExact; rw [liveAt4_2 t], after4_2]
  rw [show (dat4 V c).leavesExact 3 t = owns (c : Thread nD τ) (ms4_3 t) fullShare ((dat4 V c).after 3 t) from by
        unfold Dat.leavesExact; rw [liveAt4_3 t], after4_3]
  by_cases h0 : t.val % 20 = 0
  · by_cases h1 : t.val % 20 = 19
    · exfalso; omega
    · rw [Dat.leavesExact_idle (dat4 V c) 4 t (idleAt4_4 t (fun h => h1 ((hcond4_1 t).mp h))) (noFlush4_4 t (fun h => h1 ((hcond4_1 t).mp h)))]
      rw [Dat.leavesExact_idle (dat4 V c) 5 t (idleAt4_5 t (fun h => h1 ((hcond4_1 t).mp h))) (noFlush4_5 t (fun h => h1 ((hcond4_1 t).mp h)))]
      rw [outsAt4_A V c t h0 h1]
      unfold out4_A_3 out4_A_s0 out4_A_s1; (try dsimp only)
      have hz : t.val = 0 := by omega
      rw [PhiS4_castSucc V c t, PhiS4_zero V c _ _ hz, scopedRest4_eq]
      iintro ⟨⟨Hg, ⟨HS0, HS1⟩, Hr⟩, Ho, ⟨%d0, H0⟩, ⟨%d1, H1⟩, ⟨%d2, H2⟩, ⟨%d3, H3⟩, ⟨%d4, H4⟩, ⟨%d5, H5⟩⟩
      iapply ((kernelRun4_A c (grid4.coords t) _ _ _ _ _ _ _ _ _ _ _ _ _ _ _ _ ((hcond4_0 t).mpr h0) (fun h => h1 ((hcond4_1 t).mp h)) (iblk4 V c 0 t) (iblk4 V c 1 t) (iblk4 V c 2 t)).2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, ⟨%e3, H3⟩, H4, H5, ⟨%es0, HS0⟩, ⟨%es1, HS1⟩⟩
      isplitl [Hg HS0 HS1 Hr]
      · isplitl [Hg]; · iexact Hg
        isplitl [HS0 HS1]
        · isplitl [HS0]
          · (unfold owns; iexists _; isplitr; swap; iexact HS0; ipureintro; exact View.read_writes_of_cover _ _ _ _ _ (cover4_A_s0 c _ _ _ _ _ _ _ _ _ _ _ _ _ _ _ _ _ _ _ _ _ _))
          (unfold owns; iexists _; isplitr; swap; iexact HS1; ipureintro; exact View.read_writes_of_cover _ _ _ _ _ (cover4_A_s1 c _ _ _ _ _ _ _ _ _ _ _ _ _ _ _ _ _ _ _ _ _ _))
        iexact Hr
      isplitl [Ho]; · iexact Ho
      isplitl [H0]; · iexact H0
      isplitl [H1]; · iexact H1
      isplitl [H2]; · iexact H2
      isplitl [H3]
      · (unfold owns; iexists _; isplitr; swap; iexact H3; ipureintro; exact View.read_writes_of_cover _ _ _ _ _ (cover4_A_3 c _ _ _ _ _ _ _ _ _ _ _ _ _ _ _ _ _ _ _ _ _ _))
      isplitl [H4]; · iexists _; iexact H4
      iexists _; iexact H5
  · have hz : t.val ≠ 0 := fun e => h0 (by rw [e])
    by_cases h1 : t.val % 20 = 19
    · rw [show (dat4 V c).leavesExact 4 t = owns (c : Thread nD τ) (ms4_4 t) fullShare ((dat4 V c).after 4 t) from by
        unfold Dat.leavesExact; rw [liveAt4_4 t ((hcond4_1 t).mpr h1)], after4_4]
      rw [show (dat4 V c).leavesExact 5 t = owns (c : Thread nD τ) (ms4_5 t) fullShare ((dat4 V c).after 5 t) from by
        unfold Dat.leavesExact; rw [liveAt4_5 t ((hcond4_1 t).mpr h1)], after4_5]
      rw [outsAt4_C V c t h0 h1]
      unfold out4_C_3 out4_C_4 out4_C_5 out4_C_s0 out4_C_s1; (try dsimp only)
      rw [PhiS4_castSucc V c t, PhiS4_pos V c _ _ hz]
      iintro ⟨⟨Hg, ⟨HS0, HS1⟩, Hr⟩, Ho, ⟨%d0, H0⟩, ⟨%d1, H1⟩, ⟨%d2, H2⟩, ⟨%d3, H3⟩, ⟨%d4, H4⟩, ⟨%d5, H5⟩⟩
      iapply ((kernelRun4_C c (grid4.coords t) _ _ _ _ _ _ _ _ _ _ _ _ _ _ _ _ (fun h => h0 ((hcond4_0 t).mp h)) ((hcond4_1 t).mpr h1) (iblk4 V c 0 t) (iblk4 V c 1 t) (iblk4 V c 2 t) _ _).2.2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      iintro ⟨H0, H1, H2, ⟨%e3, H3⟩, ⟨%e4, H4⟩, ⟨%e5, H5⟩, ⟨%es0, HS0⟩, ⟨%es1, HS1⟩⟩
      isplitl [Hg HS0 HS1 Hr]
      · isplitl [Hg]; · iexact Hg
        isplitl [HS0 HS1]
        · isplitl [HS0]
          · (unfold owns; iexists _; isplitr; swap; iexact HS0; ipureintro; exact View.read_writes_of_cover _ _ _ _ _ (cover4_C_s0 c _ _ _ _ _ _ _ _ _ _ _ _ _ _ _ _ _ _ _ _ _ _ _ _))
          (unfold owns; iexists _; isplitr; swap; iexact HS1; ipureintro; exact View.read_writes_of_cover _ _ _ _ _ (cover4_C_s1 c _ _ _ _ _ _ _ _ _ _ _ _ _ _ _ _ _ _ _ _ _ _ _ _))
        iexact Hr
      isplitl [Ho]; · iexact Ho
      isplitl [H0]; · iexact H0
      isplitl [H1]; · iexact H1
      isplitl [H2]; · iexact H2
      isplitl [H3]
      · (unfold owns; iexists _; isplitr; swap; iexact H3; ipureintro; exact View.read_writes_of_cover _ _ _ _ _ (cover4_C_3 c _ _ _ _ _ _ _ _ _ _ _ _ _ _ _ _ _ _ _ _ _ _ _ _))
      isplitl [H4]
      · (unfold owns; iexists _; isplitr; swap; iexact H4; ipureintro; exact View.read_writes_of_cover _ _ _ _ _ (cover4_C_4 c _ _ _ _ _ _ _ _ _ _ _ _ _ _ _ _ _ _ _ _ _ _ _ _))
      (unfold owns; iexists _; isplitr; swap; iexact H5; ipureintro; exact View.read_writes_of_cover _ _ _ _ _ (cover4_C_5 c _ _ _ _ _ _ _ _ _ _ _ _ _ _ _ _ _ _ _ _ _ _ _ _))
    · rw [Dat.leavesExact_idle (dat4 V c) 4 t (idleAt4_4 t (fun h => h1 ((hcond4_1 t).mp h))) (noFlush4_4 t (fun h => h1 ((hcond4_1 t).mp h)))]
      rw [Dat.leavesExact_idle (dat4 V c) 5 t (idleAt4_5 t (fun h => h1 ((hcond4_1 t).mp h))) (noFlush4_5 t (fun h => h1 ((hcond4_1 t).mp h)))]
      rw [outsAt4_B V c t h0 h1]
      unfold out4_B_3 out4_B_s0 out4_B_s1; (try dsimp only)
      rw [PhiS4_castSucc V c t, PhiS4_pos V c _ _ hz]
      iintro ⟨⟨Hg, ⟨HS0, HS1⟩, Hr⟩, Ho, ⟨%d0, H0⟩, ⟨%d1, H1⟩, ⟨%d2, H2⟩, ⟨%d3, H3⟩, ⟨%d4, H4⟩, ⟨%d5, H5⟩⟩
      iapply ((kernelRun4_B c (grid4.coords t) _ _ _ _ _ _ _ _ _ _ _ _ _ _ _ _ (fun h => h0 ((hcond4_0 t).mp h)) (fun h => h1 ((hcond4_1 t).mp h)) (iblk4 V c 0 t) (iblk4 V c 1 t) (iblk4 V c 2 t) _ _).2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, ⟨%e3, H3⟩, H4, H5, ⟨%es0, HS0⟩, ⟨%es1, HS1⟩⟩
      isplitl [Hg HS0 HS1 Hr]
      · isplitl [Hg]; · iexact Hg
        isplitl [HS0 HS1]
        · isplitl [HS0]
          · (unfold owns; iexists _; isplitr; swap; iexact HS0; ipureintro; exact View.read_writes_of_cover _ _ _ _ _ (cover4_B_s0 c _ _ _ _ _ _ _ _ _ _ _ _ _ _ _ _ _ _ _ _ _ _ _ _))
          (unfold owns; iexists _; isplitr; swap; iexact HS1; ipureintro; exact View.read_writes_of_cover _ _ _ _ _ (cover4_B_s1 c _ _ _ _ _ _ _ _ _ _ _ _ _ _ _ _ _ _ _ _ _ _ _ _))
        iexact Hr
      isplitl [Ho]; · iexact Ho
      isplitl [H0]; · iexact H0
      isplitl [H1]; · iexact H1
      isplitl [H2]; · iexact H2
      isplitl [H3]
      · (unfold owns; iexists _; isplitr; swap; iexact H3; ipureintro; exact View.read_writes_of_cover _ _ _ _ _ (cover4_B_3 c _ _ _ _ _ _ _ _ _ _ _ _ _ _ _ _ _ _ _ _ _ _ _ _))
      isplitl [H4]; · iexists _; iexact H4
      iexists _; iexact H5

/-- The body's obligation at every point. -/
theorem body_obligation4 (c : Dev nD) : BodyObligation (dat4 (F := F) V c) (defs₀ (F := F)) Variants.none () Set.univ := fun t => by
  rw [bigSep_W4, bigSep_W4]
  exact sound_body4 V c t

/-! ## The region's two ends -/

/-- What the region is entered with is the invariant before the first point. -/
theorem hin4 (c : Dev nD) :
    iprop((∃ r, prngReg c r) ∗ Pipeline.scopedRest (Ix := Unit) (Name := ℕ) (U := UR sig nD τ) (Lvl := ℕ) (Val := Elt F) spec4 c) ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives it back: what the accumulators hold is forgotten. -/
theorem hout4 (c : Dev nD) :
    (dat4 V c).Φ (Fin.last cfg4.N) ⊢ iprop((∃ r, prngReg c r) ∗ Pipeline.scopedRest (Ix := Unit) (Name := ℕ) (U := UR sig nD τ) (Lvl := ℕ) (Val := Elt F) spec4 c) := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 20 := N_4; omega), scopedRest4_eq]
  iintro ⟨Hg, ⟨HS0, HS1⟩, Hr⟩
  isplitl [Hg]; · iexact Hg
  isplitl [HS0 HS1]
  · isplitl [HS0]; · iexists _; iexact HS0
    iexists _; iexact HS1
  iexact Hr

end Cert.KernelIdeal.Hand

end
-- ==== Proof.KernelIdealBody5.lean ====
import proofs.«107691_j23957327577190_1_alg».proof.Proof.Gen.KernelIdeal.Launch
import proofs.«107691_j23957327577190_1_alg».proof.Proof.Gen.KernelIdeal.Skeleton
import proofs.«107691_j23957327577190_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 5: the body's triple and the proof data

The region's body reads each input window's whole staging block, computes one value from them and stores it over
the whole output block. Stated at the buffer contents `V` found when the region is entered: each window's block at a
grid point, the output block as a function of the input blocks, and the obligation that the body, run at any grid
point on buffers holding the input blocks, leaves exactly that output block and the inputs untouched. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, whether or not it was fetched there
    (an unfetched window's block index has not moved), for any proof data over the arrays `V` whose body leaves the
    block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, whether or not it was fetched there
    (an unfetched window's block index has not moved), for any proof data over the arrays `V` whose body leaves the
    block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, whether or not it was fetched there
    (an unfetched window's block index has not moved), for any proof data over the arrays `V` whose body leaves the
    block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, whether or not it was fetched there
    (an unfetched window's block index has not moved), for any proof data over the arrays `V` whose body leaves the
    block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, whether or not it was fetched there
    (an unfetched window's block index has not moved), for any proof data over the arrays `V` whose body leaves the
    block in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each is the whole block -/

abbrev r5_0 : Rect S5000x128 := Rect.unit (s := S5000x128) ![0, 0] S5000x128.size inb_S5000x128_S5000x128_0_0
abbrev r5_1 : Rect S1x128 := Rect.unit (s := S1x128) ![0, 0] S1x128.size inb_S1x128_S1x128_0_0

/-! ## What the body leaves in the output window's buffer -/

/-- The output staging buffer after the body, from the input blocks: its one store, over the whole block. -/
def out5_5 (x0 : Vec F S5000x128 .f32) (x1 : Vec F S1x128 .f32) (x2 : Vec F S1x128 .f32) (x3 : Vec F S1x128 .f32) (x4 : Vec F S1x128 .f32) : Vec F S5000x128 .f32 :=
  View.canon [⟨r5_0, k5_pay1 (View.ld x0 r5_0) (View.ld x1 r5_1) (View.ld x2 r5_1) (View.ld x3 r5_1) (View.ld x4 r5_1)⟩]

/-- The one store covers the buffer. -/
theorem cover5_5 (p0 : Vec F S5000x128 .f32) (y : S5000x128.Idx) :
    ∃ pc ∈ ([⟨r5_0, p0⟩] : List (View.Piece (Elt F) S5000x128 .f32)), y ∈ pc.1.set :=
  View.cover_of_tiled [⟨r5_0, p0⟩] S5000x128.size (by rfl) y

/-! ## The body's triple -/

set_option maxHeartbeats 1000000 in
/-- The body on whole staging buffers, the inputs' holding `xW` and the output's anything, runs to the continuation
    with the inputs' unchanged and the output's holding `out5_5` of the inputs. -/
theorem sound_kernel5 (c : Dev nD) (E : Set ℕ) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__bn_relu_kernel i arg1 harg1 arg2 harg2 arg3 harg3 arg4 harg4 arg5 harg5 arg6 harg6) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The region's proof data -/

/-- The proof data of the region on core `c`: the arrays as the region finds them; after the body at point `t` each
    input's buffer at its block and the output's at `out5_5` of the input blocks; the invariant is the rest of the
    memory, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' buffers hold their blocks, so the body's triple applies; the invariant and what
    the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KernelIdealBody6.lean ====
import proofs.«107691_j23957327577190_1_alg».proof.Proof.Gen.KernelIdeal.Launch
import proofs.«107691_j23957327577190_1_alg».proof.Proof.Gen.KernelIdeal.Skeleton
import proofs.«107691_j23957327577190_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 6: the body's triple and the proof data

The region's body reads each input window's whole staging block, computes one value from them and stores it over
the whole output block. Stated at the buffer contents `V` found when the region is entered: each window's block at a
grid point, the output block as a function of the input blocks, and the obligation that the body, run at any grid
point on buffers holding the input blocks, leaves exactly that output block and the inputs untouched. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, whether or not it was fetched there
    (an unfetched window's block index has not moved), for any proof data over the arrays `V` whose body leaves the
    block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, whether or not it was fetched there
    (an unfetched window's block index has not moved), for any proof data over the arrays `V` whose body leaves the
    block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, whether or not it was fetched there
    (an unfetched window's block index has not moved), for any proof data over the arrays `V` whose body leaves the
    block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each is the whole block -/

abbrev r6_0 : Rect S5000x128 := Rect.unit (s := S5000x128) ![0, 0] S5000x128.size inb_S5000x128_S5000x128_0_0
abbrev r6_1 : Rect S128x40 := Rect.unit (s := S128x40) ![0, 0] S128x40.size inb_S128x40_S128x40_0_0
abbrev r6_2 : Rect S5000x1 := Rect.unit (s := S5000x1) ![0, 0] S5000x1.size inb_S5000x1_S5000x1_0_0
abbrev r6_3 : Rect S5000x40 := Rect.unit (s := S5000x40) ![0, 0] S5000x40.size inb_S5000x40_S5000x40_0_0

/-! ## What the body leaves in the output window's buffer -/

/-- The output staging buffer after the body, from the input blocks: its one store, over the whole block. -/
def out6_3 (x0 : Vec F S5000x128 .f32) (x1 : Vec F S128x40 .f32) (x2 : Vec F S5000x1 .f32) : Vec F S5000x40 .f32 :=
  View.canon [⟨r6_3, k6_pay1 (View.ld x0 r6_0) (View.ld x1 r6_1) (View.ld x2 r6_2)⟩]

/-- The one store covers the buffer. -/
theorem cover6_3 (p0 : Vec F S5000x40 .f32) (y : S5000x40.Idx) :
    ∃ pc ∈ ([⟨r6_3, p0⟩] : List (View.Piece (Elt F) S5000x40 .f32)), y ∈ pc.1.set :=
  View.cover_of_tiled [⟨r6_3, p0⟩] S5000x40.size (by rfl) y

/-! ## The body's triple -/

set_option maxHeartbeats 1000000 in
/-- The body on whole staging buffers, the inputs' holding `xW` and the output's anything, runs to the continuation
    with the inputs' unchanged and the output's holding `out6_3` of the inputs. -/
theorem sound_kernel6 (c : Dev nD) (E : Set ℕ) (i : grid6.Coords) (arg1 : Memref sig .tc .vmem S5000x128 .f32) (harg1 : arg1.IsWhole) (arg2 : Memref sig .tc .vmem S128x40 .f32) (harg2 : arg2.IsWhole) (arg3 : Memref sig .tc .vmem S5000x1 .f32) (harg3 : arg3.IsWhole) (arg4 : Memref sig .tc .vmem S5000x40 .f32) (harg4 : arg4.IsWhole)
    (x0 : Vec F S5000x128 .f32) (x1 : Vec F S128x40 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__matmul_scale_kernel i arg1 harg1 arg2 harg2 arg3 harg3 arg4 harg4) K := by
  simp only [cc6__matmul_scale_kernel_eq_skeleton]; unfold cc6__matmul_scale_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The region's proof data -/

/-- The proof data of the region on core `c`: the arrays as the region finds them; after the body at point `t` each
    input's buffer at its block and the output's at `out6_3` of the input blocks; the invariant is the rest of the
    memory, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' buffers hold their blocks, so the body's triple applies; the invariant and what
    the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KernelIdealBody7.lean ====
import proofs.«107691_j23957327577190_1_alg».proof.Proof.Gen.KernelIdeal.Launch
import proofs.«107691_j23957327577190_1_alg».proof.Proof.Gen.KernelIdeal.Skeleton
import proofs.«107691_j23957327577190_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 7: the body's triple and the proof data

The region's body reads each input window's whole staging block, computes one value from them and stores it over
the whole output block. Stated at the buffer contents `V` found when the region is entered: each window's block at a
grid point, the output block as a function of the input blocks, and the obligation that the body, run at any grid
point on buffers holding the input blocks, leaves exactly that output block and the inputs untouched. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, whether or not it was fetched there
    (an unfetched window's block index has not moved), for any proof data over the arrays `V` whose body leaves the
    block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, whether or not it was fetched there
    (an unfetched window's block index has not moved), for any proof data over the arrays `V` whose body leaves the
    block in place. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, whether or not it was fetched there
    (an unfetched window's block index has not moved), for any proof data over the arrays `V` whose body leaves the
    block in place. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each is the whole block -/

abbrev r7_0 : Rect S5000x40 := Rect.unit (s := S5000x40) ![0, 0] S5000x40.size inb_S5000x40_S5000x40_0_0
abbrev r7_1 : Rect S5000x1 := Rect.unit (s := S5000x1) ![0, 0] S5000x1.size inb_S5000x1_S5000x1_0_0
abbrev r7_2 : Rect S1x40 := Rect.unit (s := S1x40) ![0, 0] S1x40.size inb_S1x40_S1x40_0_0

/-! ## What the body leaves in the output window's buffer -/

/-- The output staging buffer after the body, from the input blocks: its one store, over the whole block. -/
def out7_3 (x0 : Vec F S5000x40 .f32) (x1 : Vec F S5000x1 .f32) (x2 : Vec F S1x40 .f32) : Vec F S5000x40 .f32 :=
  View.canon [⟨r7_0, k7_pay1 (View.ld x0 r7_0) (View.ld x1 r7_1) (View.ld x2 r7_2)⟩]

/-- The one store covers the buffer. -/
theorem cover7_3 (p0 : Vec F S5000x40 .f32) (y : S5000x40.Idx) :
    ∃ pc ∈ ([⟨r7_0, p0⟩] : List (View.Piece (Elt F) S5000x40 .f32)), y ∈ pc.1.set :=
  View.cover_of_tiled [⟨r7_0, p0⟩] S5000x40.size (by rfl) y

/-! ## The body's triple -/

set_option maxHeartbeats 1000000 in
/-- The body on whole staging buffers, the inputs' holding `xW` and the output's anything, runs to the continuation
    with the inputs' unchanged and the output's holding `out7_3` of the inputs. -/
theorem sound_kernel7 (c : Dev nD) (E : Set ℕ) (i : grid7.Coords) (arg1 : Memref sig .tc .vmem S5000x40 .f32) (harg1 : arg1.IsWhole) (arg2 : Memref sig .tc .vmem S5000x1 .f32) (harg2 : arg2.IsWhole) (arg3 : Memref sig .tc .vmem S1x40 .f32) (harg3 : arg3.IsWhole) (arg4 : Memref sig .tc .vmem S5000x40 .f32) (harg4 : arg4.IsWhole)
    (x0 : Vec F S5000x40 .f32) (x1 : Vec F S5000x1 .f32) (x2 : Vec F S1x40 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out7_3 x0 x1 x2)) -∗ K ⟨⟩))
      ⊢ wp frame (wpE (defs₀ (F := F)) Variants.none c none) E (cc7__bias_kernel i arg1 harg1 arg2 harg2 arg3 harg3 arg4 harg4) K := by
  simp only [cc7__bias_kernel_eq_skeleton]; unfold cc7__bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-! ## The region's proof data -/

/-- The proof data of the region on core `c`: the arrays as the region finds them; after the body at point `t` each
    input's buffer at its block and the output's at `out7_3` of the input blocks; the invariant is the rest of the
    memory, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' buffers hold their blocks, so the body's triple applies; the invariant and what
    the core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ (grid7.coords t) _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KernelIdealRunCond.lean ====
/-
  The run of the whole program, given each kernel region's segment record: every weakly fair execution of @main from a
  memory with zero counters terminates, nothing faulting; the result array ends holding what the last region leaves in it,
  and every argument array ends holding its launch contents.

  Between two items of @main a core holds every unscoped buffer whole: the launch contents, then what each stretch of host
  operations computes from them, then what a region's write-backs leave in its output arrays. The regions' contributions
  are unknowns here (`outs`); the records say how each region is entered from the state before it and left at the state
  after it. The final state's buffers are read off the last of these valuations: the result at the last region's output,
  each argument back through every item to the launch.
-/
import proofs.«107691_j23957327577190_1_alg».proof.Proof.Gen.KernelIdeal.Regions

set_option maxRecDepth 1524

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]
variable (m : (ℓ : Loc nD τ sig) → Buf (Elt F) ℓ) (outs : Outs (F := F))

-- the run rule's implicit arguments are found by unifying its conclusion with this one, which takes unfolding plain
-- definitions in a metavariable's type
set_option backward.isDefEq.respectTransparency.types false in
/-- The run, given the regions' records: the result array ends at what region 7 leaves in it, the arguments as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 8) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 9 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE8 : ∀ c : Dev nD, E 8 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V5 m c) ∗ E 0 c) ⊢ R0.pre c)
    (hpost0 : ∀ c : Dev nD, R0.post c ⊢ iprop(StableHlo.held (c : Thread nD τ) (Pipeline.ucRefs τ sig) (V6 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V8 m outs c) ∗ E 1 c) ⊢ R1.pre c)
    (hpost1 : ∀ c : Dev nD, R1.post c ⊢ iprop(StableHlo.held (c : Thread nD τ) (Pipeline.ucRefs τ sig) (V9 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V10 m outs c) ∗ E 2 c) ⊢ R2.pre c)
    (hpost2 : ∀ c : Dev nD, R2.post c ⊢ iprop(StableHlo.held (c : Thread nD τ) (Pipeline.ucRefs τ sig) (V11 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V12 m outs c) ∗ E 3 c) ⊢ R3.pre c)
    (hpost3 : ∀ c : Dev nD, R3.post c ⊢ iprop(StableHlo.held (c : Thread nD τ) (Pipeline.ucRefs τ sig) (V13 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V15 m outs c) ∗ E 4 c) ⊢ R4.pre c)
    (hpost4 : ∀ c : Dev nD, R4.post c ⊢ iprop(StableHlo.held (c : Thread nD τ) (Pipeline.ucRefs τ sig) (V16 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V17 m outs c) ∗ E 5 c) ⊢ R5.pre c)
    (hpost5 : ∀ c : Dev nD, R5.post c ⊢ iprop(StableHlo.held (c : Thread nD τ) (Pipeline.ucRefs τ sig) (V18 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V19 m outs c) ∗ E 6 c) ⊢ R6.pre c)
    (hpost6 : ∀ c : Dev nD, R6.post c ⊢ iprop(StableHlo.held (c : Thread nD τ) (Pipeline.ucRefs τ sig) (V20 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V22 m outs c) ∗ E 7 c) ⊢ R7.pre c)
    (hpost7 : ∀ c : Dev nD, R7.post c ⊢ iprop(StableHlo.held (c : Thread nD τ) (Pipeline.ucRefs τ sig) (V23 m outs c) ∗ E 8 c)) :
    θ_run defs (onTc (τ := τ) (main (F := F))) ⟨m, fun _ => 0, ρ⟩ (fun r => ∀ c : Dev nD,
      r.2.mem ((c.tc : Thread nD τ).loc main_v79) = outs 23 main_v79 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine Pipeline.θ_run_regions_kit_dev (pcfgs (F := F)) adm pdats ι cellOf_inj EP defs₀ 𝒱₀ L lv m ρ main
    (segs m outs 𝒱₀ L lv E ι pdats R0 R1 R2 R3 R4 R5 R6 R7)
    (fun c Q => by
      rewrite [main_chain c, Seg.run_eq_chain,
        show (segs m outs 𝒱₀ L lv E ι pdats R0 R1 R2 R3 R4 R5 R6 R7 c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          StableHlo.seq hostOps1_1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          StableHlo.seq hostOps4_1,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          StableHlo.seq hostOps7_1,
          Prog.lift (.customCall (Pipeline.entry 7) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V23 m outs c))
    (hch := fun c => ⟨.rfl, .rfl, .rfl, .rfl, .rfl, hpre0 c, hpost0 c, .rfl, hpre1 c, hpost1 c, hpre2 c, hpost2 c, hpre3 c, hpost3 c, .rfl, hpre4 c, hpost4 c, hpre5 c, hpost5 c, hpre6 c, hpost6 c, .rfl, hpre7 c, (hpost7 c).trans (sep_mono .rfl (hE8 c))⟩)
    (hinit := ?_) (QY := fun c s => s.mem ((c.tc : Thread nD τ).loc main_v79) = outs 23 main_v79 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V23 m outs c) s') $$ [Hh HSI]
    · isplitl [Hh] <;> iassumption
    icases Hr with ⟨%h, HSI⟩
    imodintro
    isplitr
    · ipureintro
      exact ⟨(h (Proc.devRef .tc main_v79) (Finset.mem_filter.mpr ⟨StableHlo.devRef_mem_tcRefs main_v79, by decide⟩)).trans (by simp only [V23, Function.update_self]),
        (h (Proc.devRef .tc main_arg0) (Finset.mem_filter.mpr ⟨StableHlo.devRef_mem_tcRefs main_arg0, by decide⟩)).trans (V23_main_arg0 m outs c),
        (h (Proc.devRef .tc main_arg1) (Finset.mem_filter.mpr ⟨StableHlo.devRef_mem_tcRefs main_arg1, by decide⟩)).trans (V23_main_arg1 m outs c),
        (h (Proc.devRef .tc main_arg2) (Finset.mem_filter.mpr ⟨StableHlo.devRef_mem_tcRefs main_arg2, by decide⟩)).trans (V23_main_arg2 m outs c),
        (h (Proc.devRef .tc main_arg3) (Finset.mem_filter.mpr ⟨StableHlo.devRef_mem_tcRefs main_arg3, by decide⟩)).trans (V23_main_arg3 m outs c),
        (h (Proc.devRef .tc main_arg4) (Finset.mem_filter.mpr ⟨StableHlo.devRef_mem_tcRefs main_arg4, by decide⟩)).trans (V23_main_arg4 m outs c),
        (h (Proc.devRef .tc main_arg5) (Finset.mem_filter.mpr ⟨StableHlo.devRef_mem_tcRefs main_arg5, by decide⟩)).trans (V23_main_arg5 m outs c),
        (h (Proc.devRef .tc main_arg6) (Finset.mem_filter.mpr ⟨StableHlo.devRef_mem_tcRefs main_arg6, by decide⟩)).trans (V23_main_arg6 m outs c),
        (h (Proc.devRef .tc main_arg7) (Finset.mem_filter.mpr ⟨StableHlo.devRef_mem_tcRefs main_arg7, by decide⟩)).trans (V23_main_arg7 m outs c),
        (h (Proc.devRef .tc main_arg8) (Finset.mem_filter.mpr ⟨StableHlo.devRef_mem_tcRefs main_arg8, by decide⟩)).trans (V23_main_arg8 m outs c),
        (h (Proc.devRef .tc main_arg9) (Finset.mem_filter.mpr ⟨StableHlo.devRef_mem_tcRefs main_arg9, by decide⟩)).trans (V23_main_arg9 m outs c),
        (h (Proc.devRef .tc main_arg10) (Finset.mem_filter.mpr ⟨StableHlo.devRef_mem_tcRefs main_arg10, by decide⟩)).trans (V23_main_arg10 m outs c),
        (h (Proc.devRef .tc main_arg11) (Finset.mem_filter.mpr ⟨StableHlo.devRef_mem_tcRefs main_arg11, by decide⟩)).trans (V23_main_arg11 m outs c),
        (h (Proc.devRef .tc main_arg12) (Finset.mem_filter.mpr ⟨StableHlo.devRef_mem_tcRefs main_arg12, by decide⟩)).trans (V23_main_arg12 m outs c)⟩
    · iexact HSI

end Cert.KernelIdeal.Hand

end
-- ==== Proof.KernelIdealRun.lean ====
/-
  The run of the kernel's program: its eight kernel regions as segments among the stretches of host operations.

  Between two items of @main a core holds every unscoped buffer whole. The contents are a fold through @main: the launch
  contents, then what each stretch of host operations computes, then, after a region, the region's output arrays at what
  its write-backs leave and every other buffer as the region found it. Each region's proof data are taken at the
  contents the region is entered from; six regions use nothing but their staging buffers, two carry two scratch rows
  from point to point. The run ends with the result array at what the last region leaves and the arguments as launched.
-/
import proofs.«107691_j23957327577190_1_alg».proof.Proof.KernelIdealBody0
import proofs.«107691_j23957327577190_1_alg».proof.Proof.KernelIdealBody1
import proofs.«107691_j23957327577190_1_alg».proof.Proof.KernelIdealBody2
import proofs.«107691_j23957327577190_1_alg».proof.Proof.KernelIdealBody3
import proofs.«107691_j23957327577190_1_alg».proof.Proof.KernelIdealBody4
import proofs.«107691_j23957327577190_1_alg».proof.Proof.KernelIdealBody5
import proofs.«107691_j23957327577190_1_alg».proof.Proof.KernelIdealBody6
import proofs.«107691_j23957327577190_1_alg».proof.Proof.KernelIdealBody7
import proofs.«107691_j23957327577190_1_alg».proof.Proof.LibRegionTrackedWhole
import proofs.«107691_j23957327577190_1_alg».proof.Proof.KernelIdealRunCond
import proofs.«107691_j23957327577190_1_alg».proof.Proof.LibRegionRecord
import proofs.«107691_j23957327577190_1_alg».proof.Proof.LibRegionTracked
import Idealize.ShloMosaic.Lib.Pipeline.Kit

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)
open Cert.KernelIdeal Cert.KernelIdeal.Gen

variable {F : FTy → Type} [FloatOps F]

/-! ## The plain regions' proof data: the invariant is the class's, nothing is owed, every share is full -/
section DatFacts
variable (V : (c : Dev nD) → (b : Ref sig .tc) → Buf (Elt F) ((c : Thread nD τ).loc b))
theorem dat0_Φ (c : Dev nD) (t) : (dat0 V c).Φ t = Pipeline.ΦA spec0 c := rfl
theorem dat0_q (c : Dev nD) (w) : (dat0 V c).q w = fullShare := rfl
theorem dat0_owed (c : Dev nD) (t) : (dat0 V c).owed t = 0 := rfl
theorem dat0_rec (c : Dev nD) (t) : (dat0 V c).recorded t = Set.univ := rfl
theorem dat2_Φ (c : Dev nD) (t) : (dat2 V c).Φ t = Pipeline.ΦA spec2 c := rfl
theorem dat2_q (c : Dev nD) (w) : (dat2 V c).q w = fullShare := rfl
theorem dat2_owed (c : Dev nD) (t) : (dat2 V c).owed t = 0 := rfl
theorem dat2_rec (c : Dev nD) (t) : (dat2 V c).recorded t = Set.univ := rfl
theorem dat3_Φ (c : Dev nD) (t) : (dat3 V c).Φ t = Pipeline.ΦA spec3 c := rfl
theorem dat3_q (c : Dev nD) (w) : (dat3 V c).q w = fullShare := rfl
theorem dat3_owed (c : Dev nD) (t) : (dat3 V c).owed t = 0 := rfl
theorem dat3_rec (c : Dev nD) (t) : (dat3 V c).recorded t = Set.univ := rfl
theorem dat5_Φ (c : Dev nD) (t) : (dat5 V c).Φ t = Pipeline.ΦA spec5 c := rfl
theorem dat5_q (c : Dev nD) (w) : (dat5 V c).q w = fullShare := rfl
theorem dat5_owed (c : Dev nD) (t) : (dat5 V c).owed t = 0 := rfl
theorem dat5_rec (c : Dev nD) (t) : (dat5 V c).recorded t = Set.univ := rfl
theorem dat6_Φ (c : Dev nD) (t) : (dat6 V c).Φ t = Pipeline.ΦA spec6 c := rfl
theorem dat6_q (c : Dev nD) (w) : (dat6 V c).q w = fullShare := rfl
theorem dat6_owed (c : Dev nD) (t) : (dat6 V c).owed t = 0 := rfl
theorem dat6_rec (c : Dev nD) (t) : (dat6 V c).recorded t = Set.univ := rfl
theorem dat7_Φ (c : Dev nD) (t) : (dat7 V c).Φ t = Pipeline.ΦA spec7 c := rfl
theorem dat7_q (c : Dev nD) (w) : (dat7 V c).q w = fullShare := rfl
theorem dat7_owed (c : Dev nD) (t) : (dat7 V c).owed t = 0 := rfl
theorem dat7_rec (c : Dev nD) (t) : (dat7 V c).recorded t = Set.univ := rfl
end DatFacts

section Fold

variable (m : (ℓ : Loc nD τ sig) → Buf (Elt F) ℓ)

local notation "𝕄" => MT nD τ sig Unit (Elt F) ℕ (UR sig nD τ) ℕ

/-! ## The buffers' contents between the items of @main

  The launch contents, then what each stretch of host operations computes, then, after a region, the region's output
  arrays at what its write-backs leave (the proof data's array after the last point) and every other buffer as the
  region found it. -/

/-- A core's buffer contents read at the TensorCore's references: what a region's proof data take. -/
abbrev atTc (X : Dev nD → Valuation τ sig (Elt F)) : (c : Dev nD) → (b : Ref sig .tc) → Buf (Elt F) ((c : Thread nD τ).loc b) :=
  fun c b => X c b

/-- When region 0 is entered: the launch contents after the first five stretches of host operations. -/
abbrev X5 : Dev nD → Valuation τ sig (Elt F) := fun c => V5 m c
/-- After region 0. -/
def X6 (c : Dev nD) : Valuation τ sig (Elt F) :=
  Function.update (X5 m c) main_v18 ((dat0 (atTc (X5 m)) c).arrAt 3 cfg0.N)
/-- When region 1 is entered. -/
abbrev X8 : Dev nD → Valuation τ sig (Elt F) := fun c => StableHlo.after hostOps1_1 (StableHlo.after hostOps1 (X6 m c))
/-- After region 1. -/
def X9 (c : Dev nD) : Valuation τ sig (Elt F) :=
  Function.update (Function.update (Function.update (X8 m c) main_v25_0 ((dat1 (atTc (X8 m)) c).arrAt 3 cfg1.N))
    main_v25_1 ((dat1 (atTc (X8 m)) c).arrAt 4 cfg1.N)) main_v25_2 ((dat1 (atTc (X8 m)) c).arrAt 5 cfg1.N)
/-- When region 2 is entered. -/
abbrev X10 : Dev nD → Valuation τ sig (Elt F) := fun c => StableHlo.after hostOps2 (X9 m c)
/-- After region 2. -/
def X11 (c : Dev nD) : Valuation τ sig (Elt F) :=
  Function.update (X10 m c) main_v43 ((dat2 (atTc (X10 m)) c).arrAt 5 cfg2.N)
/-- When region 3 is entered. -/
abbrev X12 : Dev nD → Valuation τ sig (Elt F) := fun c => StableHlo.after hostOps3 (X11 m c)
/-- After region 3. -/
def X13 (c : Dev nD) : Valuation τ sig (Elt F) :=
  Function.update (X12 m c) main_v45 ((dat3 (atTc (X12 m)) c).arrAt 3 cfg3.N)
/-- When region 4 is entered. -/
abbrev X15 : Dev nD → Valuation τ sig (Elt F) := fun c => StableHlo.after hostOps4_1 (StableHlo.after hostOps4 (X13 m c))
/-- After region 4. -/
def X16 (c : Dev nD) : Valuation τ sig (Elt F) :=
  Function.update (Function.update (Function.update (X15 m c) main_v52_0 ((dat4 (atTc (X15 m)) c).arrAt 3 cfg4.N))
    main_v52_1 ((dat4 (atTc (X15 m)) c).arrAt 4 cfg4.N)) main_v52_2 ((dat4 (atTc (X15 m)) c).arrAt 5 cfg4.N)
/-- When region 5 is entered. -/
abbrev X17 : Dev nD → Valuation τ sig (Elt F) := fun c => StableHlo.after hostOps5 (X16 m c)
/-- After region 5. -/
def X18 (c : Dev nD) : Valuation τ sig (Elt F) :=
  Function.update (X17 m c) main_v70 ((dat5 (atTc (X17 m)) c).arrAt 5 cfg5.N)
/-- When region 6 is entered. -/
abbrev X19 : Dev nD → Valuation τ sig (Elt F) := fun c => StableHlo.after hostOps6 (X18 m c)
/-- After region 6. -/
def X20 (c : Dev nD) : Valuation τ sig (Elt F) :=
  Function.update (X19 m c) main_v72 ((dat6 (atTc (X19 m)) c).arrAt 3 cfg6.N)
/-- When region 7 is entered. -/
abbrev X22 : Dev nD → Valuation τ sig (Elt F) := fun c => StableHlo.after hostOps7_1 (StableHlo.after hostOps7 (X20 m c))
/-- After region 7: the final contents. -/
def X23 (c : Dev nD) : Valuation τ sig (Elt F) :=
  Function.update (X22 m c) main_v79 ((dat7 (atTc (X22 m)) c).arrAt 3 cfg7.N)

/-- What the regions leave, as the run rule's unknowns: after item J−1 the buffers are at the J-th contents above. -/
def outs : Outs (F := F) := fun J r c => match J with
  | 6 => X6 m c r | 9 => X9 m c r | 11 => X11 m c r | 13 => X13 m c r
  | 16 => X16 m c r | 18 => X18 m c r | 20 => X20 m c r | _ => X23 m c r

/-! ## The run rule's valuations, at these unknowns, are the contents above -/

theorem V6_eq (c : Dev nD) : V6 m (outs m) c = X6 m c := by
  show Function.update (V5 m c) main_v18 (X6 m c main_v18) = X6 m c
  unfold X6; rw [Function.update_self]
theorem V8_eq (c : Dev nD) : V8 m (outs m) c = X8 m c := by
  show StableHlo.after hostOps1_1 (StableHlo.after hostOps1 (V6 m (outs m) c)) = _
  rw [V6_eq]
theorem V9_eq (c : Dev nD) : V9 m (outs m) c = X9 m c := by
  have h01 : (Proc.devRef .tc main_v25_0 : DevRef τ sig) ≠ Proc.devRef .tc main_v25_1 := StableHlo.devRef_ne_of_ne (by decide)
  have h02 : (Proc.devRef .tc main_v25_0 : DevRef τ sig) ≠ Proc.devRef .tc main_v25_2 := StableHlo.devRef_ne_of_ne (by decide)
  have h12 : (Proc.devRef .tc main_v25_1 : DevRef τ sig) ≠ Proc.devRef .tc main_v25_2 := StableHlo.devRef_ne_of_ne (by decide)
  show Function.update (Function.update (Function.update (V8 m (outs m) c) main_v25_0 (X9 m c main_v25_0)) main_v25_1 (X9 m c main_v25_1)) main_v25_2 (X9 m c main_v25_2) = X9 m c
  rw [V8_eq]; unfold X9
  simp only [Function.update_self, Function.update_of_ne h01, Function.update_of_ne h02, Function.update_of_ne h12]
theorem V10_eq (c : Dev nD) : V10 m (outs m) c = X10 m c := by
  show StableHlo.after hostOps2 (V9 m (outs m) c) = _
  rw [V9_eq]
theorem V11_eq (c : Dev nD) : V11 m (outs m) c = X11 m c := by
  show Function.update (V10 m (outs m) c) main_v43 (X11 m c main_v43) = X11 m c
  rw [V10_eq]; unfold X11; rw [Function.update_self]
theorem V12_eq (c : Dev nD) : V12 m (outs m) c = X12 m c := by
  show StableHlo.after hostOps3 (V11 m (outs m) c) = _
  rw [V11_eq]
theorem V13_eq (c : Dev nD) : V13 m (outs m) c = X13 m c := by
  show Function.update (V12 m (outs m) c) main_v45 (X13 m c main_v45) = X13 m c
  rw [V12_eq]; unfold X13; rw [Function.update_self]
theorem V15_eq (c : Dev nD) : V15 m (outs m) c = X15 m c := by
  show StableHlo.after hostOps4_1 (StableHlo.after hostOps4 (V13 m (outs m) c)) = _
  rw [V13_eq]
theorem V16_eq (c : Dev nD) : V16 m (outs m) c = X16 m c := by
  have h01 : (Proc.devRef .tc main_v52_0 : DevRef τ sig) ≠ Proc.devRef .tc main_v52_1 := StableHlo.devRef_ne_of_ne (by decide)
  have h02 : (Proc.devRef .tc main_v52_0 : DevRef τ sig) ≠ Proc.devRef .tc main_v52_2 := StableHlo.devRef_ne_of_ne (by decide)
  have h12 : (Proc.devRef .tc main_v52_1 : DevRef τ sig) ≠ Proc.devRef .tc main_v52_2 := StableHlo.devRef_ne_of_ne (by decide)
  show Function.update (Function.update (Function.update (V15 m (outs m) c) main_v52_0 (X16 m c main_v52_0)) main_v52_1 (X16 m c main_v52_1)) main_v52_2 (X16 m c main_v52_2) = X16 m c
  rw [V15_eq]; unfold X16
  simp only [Function.update_self, Function.update_of_ne h01, Function.update_of_ne h02, Function.update_of_ne h12]
theorem V17_eq (c : Dev nD) : V17 m (outs m) c = X17 m c := by
  show StableHlo.after hostOps5 (V16 m (outs m) c) = _
  rw [V16_eq]
theorem V18_eq (c : Dev nD) : V18 m (outs m) c = X18 m c := by
  show Function.update (V17 m (outs m) c) main_v70 (X18 m c main_v70) = X18 m c
  rw [V17_eq]; unfold X18; rw [Function.update_self]
theorem V19_eq (c : Dev nD) : V19 m (outs m) c = X19 m c := by
  show StableHlo.after hostOps6 (V18 m (outs m) c) = _
  rw [V18_eq]
theorem V20_eq (c : Dev nD) : V20 m (outs m) c = X20 m c := by
  show Function.update (V19 m (outs m) c) main_v72 (X20 m c main_v72) = X20 m c
  rw [V19_eq]; unfold X20; rw [Function.update_self]
theorem V22_eq (c : Dev nD) : V22 m (outs m) c = X22 m c := by
  show StableHlo.after hostOps7_1 (StableHlo.after hostOps7 (V20 m (outs m) c)) = _
  rw [V20_eq]
theorem V23_eq (c : Dev nD) : V23 m (outs m) c = X23 m c := by
  show Function.update (V22 m (outs m) c) main_v79 (X23 m c main_v79) = X23 m c
  rw [V22_eq]; unfold X23; rw [Function.update_self]

/-! ## The proof data family, the regions' records, the run -/

/-- No core owes another anything: no level is assigned. -/
abbrev L : GSem nD τ sig → Finset Unit := fun _ => ∅
abbrev lv : GSem nD τ sig → Unit → ℕ := fun _ _ => 0

/-- Every pipeline's proof data, each at its region's entry contents (a literal match on the pipeline's number). -/
def pdats : (p : Fin 8) → (c : Dev nD) → Dat τ (Elt F) Unit ℕ (UR sig nD τ) ℕ (cfgs p) c
  | ⟨0, _⟩ => fun c => dat0 (atTc (X5 m)) c
  | ⟨1, _⟩ => fun c => dat1 (atTc (X8 m)) c
  | ⟨2, _⟩ => fun c => dat2 (atTc (X10 m)) c
  | ⟨3, _⟩ => fun c => dat3 (atTc (X12 m)) c
  | ⟨4, _⟩ => fun c => dat4 (atTc (X15 m)) c
  | ⟨5, _⟩ => fun c => dat5 (atTc (X17 m)) c
  | ⟨6, _⟩ => fun c => dat6 (atTc (X19 m)) c
  | ⟨7, _⟩ => fun c => dat7 (atTc (X22 m)) c

/-- A reference that is none of a region's arrays other than its one output keeps, after the region, what it held. -/
theorem upd1_rest {X : Valuation τ sig (Elt F)} {o : Ref sig .tc} {v} {n : ℕ} {spec : Fin n → Pipeline.WinSpec sig 1}
    (ho : ∃ w, Pipeline.arrRef spec w = o) (b : Ref sig .tc) (hb : b ∉ Finset.univ.image (Pipeline.arrRef spec)) :
    Function.update X o v b = X b := by
  obtain ⟨w, hw⟩ := ho
  refine Function.update_of_ne (StableHlo.devRef_ne_of_ne fun e => hb ?_) _ _
  exact Finset.mem_image.mpr ⟨w, Finset.mem_univ _, hw.trans e.symm⟩

/-- Reading an updated valuation at the updated reference, when the two references are equal by a proof rather than by
    their spelling. -/
theorem update_at {X : Valuation τ sig (Elt F)} {a b : DevRef τ sig} (e : b = a) (v) : HEq (Function.update X a v b) v := by
  subst e; rw [Function.update_self]

/-- Region 0's windows' arrays, by name. -/
theorem arr0_0 : Pipeline.arrRef spec0 (0 : Fin 4) = main_arg0 := by decide
theorem arr0_1 : Pipeline.arrRef spec0 (1 : Fin 4) = main_arg3 := by decide
theorem arr0_2 : Pipeline.arrRef spec0 (2 : Fin 4) = main_v17 := by decide
theorem arr0_3 : Pipeline.arrRef spec0 (3 : Fin 4) = main_v18 := by decide
theorem X6_arr_0 (c : Dev nD) : (dat0 (atTc (X5 m)) c).arrAt (0 : Fin 4) cfg0.N = X6 m c (Pipeline.arrRef spec0 (0 : Fin 4)) := by
  have h0 : (Proc.devRef .tc (Pipeline.arrRef spec0 (0 : Fin 4)) : DevRef τ sig) ≠ Proc.devRef .tc main_v18 := StableHlo.devRef_ne_of_ne (by decide)
  unfold X6
  rw [Function.update_of_ne h0]
  exact ((dat0 (atTc (X5 m)) c).arrAt_in (0 : Fin 4) rfl _).trans (A_eq0 (atTc (X5 m)) c (0 : Fin 4))
theorem X6_arr_1 (c : Dev nD) : (dat0 (atTc (X5 m)) c).arrAt (1 : Fin 4) cfg0.N = X6 m c (Pipeline.arrRef spec0 (1 : Fin 4)) := by
  have h0 : (Proc.devRef .tc (Pipeline.arrRef spec0 (1 : Fin 4)) : DevRef τ sig) ≠ Proc.devRef .tc main_v18 := StableHlo.devRef_ne_of_ne (by decide)
  unfold X6
  rw [Function.update_of_ne h0]
  exact ((dat0 (atTc (X5 m)) c).arrAt_in (1 : Fin 4) rfl _).trans (A_eq0 (atTc (X5 m)) c (1 : Fin 4))
theorem X6_arr_2 (c : Dev nD) : (dat0 (atTc (X5 m)) c).arrAt (2 : Fin 4) cfg0.N = X6 m c (Pipeline.arrRef spec0 (2 : Fin 4)) := by
  have h0 : (Proc.devRef .tc (Pipeline.arrRef spec0 (2 : Fin 4)) : DevRef τ sig) ≠ Proc.devRef .tc main_v18 := StableHlo.devRef_ne_of_ne (by decide)
  unfold X6
  rw [Function.update_of_ne h0]
  exact ((dat0 (atTc (X5 m)) c).arrAt_in (2 : Fin 4) rfl _).trans (A_eq0 (atTc (X5 m)) c (2 : Fin 4))
theorem X6_arr_3 (c : Dev nD) : (dat0 (atTc (X5 m)) c).arrAt (3 : Fin 4) cfg0.N = X6 m c (Pipeline.arrRef spec0 (3 : Fin 4)) := by
  unfold X6
  exact (eq_of_heq (update_at (congrArg (Proc.devRef (τ := τ) .tc) arr0_3) _)).symm
theorem X6_arr (c : Dev nD) : ∀ w : Fin 4, (dat0 (atTc (X5 m)) c).arrAt w cfg0.N = X6 m c (Pipeline.arrRef spec0 w)
  | ⟨0, _⟩ => X6_arr_0 m c
  | ⟨1, _⟩ => X6_arr_1 m c
  | ⟨2, _⟩ => X6_arr_2 m c
  | ⟨3, _⟩ => X6_arr_3 m c
  | ⟨_ + 4, h⟩ => absurd h (Nat.not_lt.2 (Nat.le_add_left _ _))
theorem X6_rest (c : Dev nD) (b : Ref sig .tc) (hb : b ∉ Finset.univ.image (Pipeline.arrRef spec0)) : X6 m c b = X5 m c b := by
  unfold X6
  rw [Function.update_of_ne (StableHlo.devRef_ne_of_ne (fun e => hb (Finset.mem_image.mpr ⟨(3 : Fin 4), Finset.mem_univ _, arr0_3.trans e.symm⟩)) : (Proc.devRef .tc b : DevRef τ sig) ≠ Proc.devRef .tc main_v18)]

/-- Region 0 as a segment: entered from every unscoped buffer at the contents before it, left at the contents after it. -/
def R0 : RegionSeg (pcfgs (F := F)) adm (pdats m) () defs₀ Variants.none L lv 0 :=
  LibRegionRecord.classA (pcfgs (F := F)) adm (pdats m) defs₀ Variants.none L lv 0
    launch0.win launch0.block_pos launch0.arr_whole launch0.stage_whole ⟨fun k => k.elim0⟩
    (fun c t => dat0_Φ (atTc (X5 m)) c t) (fun c w => dat0_q (atTc (X5 m)) c w) (fun c t => dat0_owed (atTc (X5 m)) c t) (fun c t => dat0_rec (atTc (X5 m)) c t)
    (fun c => body_obligation0 (atTc (X5 m)) c) (X5 m) (X6 m)
    (fun c w => A_eq0 (atTc (X5 m)) c w) (fun c w => X6_arr m c w) (fun c b hb => X6_rest m c b hb)

/-- Region 1's windows' arrays, by name. -/
theorem arr1_0 : Pipeline.arrRef spec1 (0 : Fin 6) = main_v22 := by decide
theorem arr1_1 : Pipeline.arrRef spec1 (1 : Fin 6) = main_v23 := by decide
theorem arr1_2 : Pipeline.arrRef spec1 (2 : Fin 6) = main_v24 := by decide
theorem arr1_3 : Pipeline.arrRef spec1 (3 : Fin 6) = main_v25_0 := by decide
theorem arr1_4 : Pipeline.arrRef spec1 (4 : Fin 6) = main_v25_1 := by decide
theorem arr1_5 : Pipeline.arrRef spec1 (5 : Fin 6) = main_v25_2 := by decide
theorem X9_arr_0 (c : Dev nD) : (dat1 (atTc (X8 m)) c).arrAt (0 : Fin 6) cfg1.N = X9 m c (Pipeline.arrRef spec1 (0 : Fin 6)) := by
  have h0 : (Proc.devRef .tc (Pipeline.arrRef spec1 (0 : Fin 6)) : DevRef τ sig) ≠ Proc.devRef .tc main_v25_0 := StableHlo.devRef_ne_of_ne (by decide)
  have h1 : (Proc.devRef .tc (Pipeline.arrRef spec1 (0 : Fin 6)) : DevRef τ sig) ≠ Proc.devRef .tc main_v25_1 := StableHlo.devRef_ne_of_ne (by decide)
  have h2 : (Proc.devRef .tc (Pipeline.arrRef spec1 (0 : Fin 6)) : DevRef τ sig) ≠ Proc.devRef .tc main_v25_2 := StableHlo.devRef_ne_of_ne (by decide)
  unfold X9
  rw [Function.update_of_ne h2, Function.update_of_ne h1, Function.update_of_ne h0]
  exact ((dat1 (atTc (X8 m)) c).arrAt_in (0 : Fin 6) rfl _).trans (A_eq1 (atTc (X8 m)) c (0 : Fin 6))
theorem X9_arr_1 (c : Dev nD) : (dat1 (atTc (X8 m)) c).arrAt (1 : Fin 6) cfg1.N = X9 m c (Pipeline.arrRef spec1 (1 : Fin 6)) := by
  have h0 : (Proc.devRef .tc (Pipeline.arrRef spec1 (1 : Fin 6)) : DevRef τ sig) ≠ Proc.devRef .tc main_v25_0 := StableHlo.devRef_ne_of_ne (by decide)
  have h1 : (Proc.devRef .tc (Pipeline.arrRef spec1 (1 : Fin 6)) : DevRef τ sig) ≠ Proc.devRef .tc main_v25_1 := StableHlo.devRef_ne_of_ne (by decide)
  have h2 : (Proc.devRef .tc (Pipeline.arrRef spec1 (1 : Fin 6)) : DevRef τ sig) ≠ Proc.devRef .tc main_v25_2 := StableHlo.devRef_ne_of_ne (by decide)
  unfold X9
  rw [Function.update_of_ne h2, Function.update_of_ne h1, Function.update_of_ne h0]
  exact ((dat1 (atTc (X8 m)) c).arrAt_in (1 : Fin 6) rfl _).trans (A_eq1 (atTc (X8 m)) c (1 : Fin 6))
theorem X9_arr_2 (c : Dev nD) : (dat1 (atTc (X8 m)) c).arrAt (2 : Fin 6) cfg1.N = X9 m c (Pipeline.arrRef spec1 (2 : Fin 6)) := by
  have h0 : (Proc.devRef .tc (Pipeline.arrRef spec1 (2 : Fin 6)) : DevRef τ sig) ≠ Proc.devRef .tc main_v25_0 := StableHlo.devRef_ne_of_ne (by decide)
  have h1 : (Proc.devRef .tc (Pipeline.arrRef spec1 (2 : Fin 6)) : DevRef τ sig) ≠ Proc.devRef .tc main_v25_1 := StableHlo.devRef_ne_of_ne (by decide)
  have h2 : (Proc.devRef .tc (Pipeline.arrRef spec1 (2 : Fin 6)) : DevRef τ sig) ≠ Proc.devRef .tc main_v25_2 := StableHlo.devRef_ne_of_ne (by decide)
  unfold X9
  rw [Function.update_of_ne h2, Function.update_of_ne h1, Function.update_of_ne h0]
  exact ((dat1 (atTc (X8 m)) c).arrAt_in (2 : Fin 6) rfl _).trans (A_eq1 (atTc (X8 m)) c (2 : Fin 6))
theorem X9_arr_3 (c : Dev nD) : (dat1 (atTc (X8 m)) c).arrAt (3 : Fin 6) cfg1.N = X9 m c (Pipeline.arrRef spec1 (3 : Fin 6)) := by
  have h0 : (Proc.devRef .tc (Pipeline.arrRef spec1 (3 : Fin 6)) : DevRef τ sig) ≠ Proc.devRef .tc main_v25_1 := StableHlo.devRef_ne_of_ne (by decide)
  have h1 : (Proc.devRef .tc (Pipeline.arrRef spec1 (3 : Fin 6)) : DevRef τ sig) ≠ Proc.devRef .tc main_v25_2 := StableHlo.devRef_ne_of_ne (by decide)
  unfold X9
  rw [Function.update_of_ne h1, Function.update_of_ne h0]
  exact (eq_of_heq (update_at (congrArg (Proc.devRef (τ := τ) .tc) arr1_3) _)).symm
theorem X9_arr_4 (c : Dev nD) : (dat1 (atTc (X8 m)) c).arrAt (4 : Fin 6) cfg1.N = X9 m c (Pipeline.arrRef spec1 (4 : Fin 6)) := by
  have h0 : (Proc.devRef .tc (Pipeline.arrRef spec1 (4 : Fin 6)) : DevRef τ sig) ≠ Proc.devRef .tc main_v25_2 := StableHlo.devRef_ne_of_ne (by decide)
  unfold X9
  rw [Function.update_of_ne h0]
  exact (eq_of_heq (update_at (congrArg (Proc.devRef (τ := τ) .tc) arr1_4) _)).symm
theorem X9_arr_5 (c : Dev nD) : (dat1 (atTc (X8 m)) c).arrAt (5 : Fin 6) cfg1.N = X9 m c (Pipeline.arrRef spec1 (5 : Fin 6)) := by
  unfold X9
  exact (eq_of_heq (update_at (congrArg (Proc.devRef (τ := τ) .tc) arr1_5) _)).symm
theorem X9_arr (c : Dev nD) : ∀ w : Fin 6, (dat1 (atTc (X8 m)) c).arrAt w cfg1.N = X9 m c (Pipeline.arrRef spec1 w)
  | ⟨0, _⟩ => X9_arr_0 m c
  | ⟨1, _⟩ => X9_arr_1 m c
  | ⟨2, _⟩ => X9_arr_2 m c
  | ⟨3, _⟩ => X9_arr_3 m c
  | ⟨4, _⟩ => X9_arr_4 m c
  | ⟨5, _⟩ => X9_arr_5 m c
  | ⟨_ + 6, h⟩ => absurd h (Nat.not_lt.2 (Nat.le_add_left _ _))
theorem X9_rest (c : Dev nD) (b : Ref sig .tc) (hb : b ∉ Finset.univ.image (Pipeline.arrRef spec1)) : X9 m c b = X8 m c b := by
  unfold X9
  rw [Function.update_of_ne (StableHlo.devRef_ne_of_ne (fun e => hb (Finset.mem_image.mpr ⟨(5 : Fin 6), Finset.mem_univ _, arr1_5.trans e.symm⟩)) : (Proc.devRef .tc b : DevRef τ sig) ≠ Proc.devRef .tc main_v25_2)]
  rw [Function.update_of_ne (StableHlo.devRef_ne_of_ne (fun e => hb (Finset.mem_image.mpr ⟨(4 : Fin 6), Finset.mem_univ _, arr1_4.trans e.symm⟩)) : (Proc.devRef .tc b : DevRef τ sig) ≠ Proc.devRef .tc main_v25_1)]
  rw [Function.update_of_ne (StableHlo.devRef_ne_of_ne (fun e => hb (Finset.mem_image.mpr ⟨(3 : Fin 6), Finset.mem_univ _, arr1_3.trans e.symm⟩)) : (Proc.devRef .tc b : DevRef τ sig) ≠ Proc.devRef .tc main_v25_0)]

/-- Region 1 as a segment: entered from every unscoped buffer at the contents before it, left at the contents after it;
    its scratch rows are tracked point by point inside. -/
def R1 : RegionSeg (pcfgs (F := F)) adm (pdats m) () defs₀ Variants.none L lv 1 :=
  LibRegionTrackedWhole.trackedWhole (pcfgs (F := F)) adm (pdats m) defs₀ Variants.none L lv 1
    launch1.win launch1.block_pos launch1.arr_whole launch1.stage_whole ⟨fun k => k.elim0⟩
    (fun c => hin1 (atTc (X8 m)) c) (fun c => hout1 (atTc (X8 m)) c) (fun c w => dat1_q (atTc (X8 m)) c w) (fun c t => howed1 (atTc (X8 m)) c t) (fun c t => hrec1 (atTc (X8 m)) c t)
    (fun c => body_obligation1 (atTc (X8 m)) c) (X8 m) (X9 m)
    (fun c w => A_eq1 (atTc (X8 m)) c w) (fun c w => X9_arr m c w) (fun c b hb => X9_rest m c b hb)

/-- Region 2's windows' arrays, by name. -/
theorem arr2_0 : Pipeline.arrRef spec2 (0 : Fin 6) = main_v25_0 := by decide
theorem arr2_1 : Pipeline.arrRef spec2 (1 : Fin 6) = main_v40 := by decide
theorem arr2_2 : Pipeline.arrRef spec2 (2 : Fin 6) = main_v39 := by decide
theorem arr2_3 : Pipeline.arrRef spec2 (3 : Fin 6) = main_v41 := by decide
theorem arr2_4 : Pipeline.arrRef spec2 (4 : Fin 6) = main_v42 := by decide
theorem arr2_5 : Pipeline.arrRef spec2 (5 : Fin 6) = main_v43 := by decide
theorem X11_arr_0 (c : Dev nD) : (dat2 (atTc (X10 m)) c).arrAt (0 : Fin 6) cfg2.N = X11 m c (Pipeline.arrRef spec2 (0 : Fin 6)) := by
  have h0 : (Proc.devRef .tc (Pipeline.arrRef spec2 (0 : Fin 6)) : DevRef τ sig) ≠ Proc.devRef .tc main_v43 := StableHlo.devRef_ne_of_ne (by decide)
  unfold X11
  rw [Function.update_of_ne h0]
  exact ((dat2 (atTc (X10 m)) c).arrAt_in (0 : Fin 6) rfl _).trans (A_eq2 (atTc (X10 m)) c (0 : Fin 6))
theorem X11_arr_1 (c : Dev nD) : (dat2 (atTc (X10 m)) c).arrAt (1 : Fin 6) cfg2.N = X11 m c (Pipeline.arrRef spec2 (1 : Fin 6)) := by
  have h0 : (Proc.devRef .tc (Pipeline.arrRef spec2 (1 : Fin 6)) : DevRef τ sig) ≠ Proc.devRef .tc main_v43 := StableHlo.devRef_ne_of_ne (by decide)
  unfold X11
  rw [Function.update_of_ne h0]
  exact ((dat2 (atTc (X10 m)) c).arrAt_in (1 : Fin 6) rfl _).trans (A_eq2 (atTc (X10 m)) c (1 : Fin 6))
theorem X11_arr_2 (c : Dev nD) : (dat2 (atTc (X10 m)) c).arrAt (2 : Fin 6) cfg2.N = X11 m c (Pipeline.arrRef spec2 (2 : Fin 6)) := by
  have h0 : (Proc.devRef .tc (Pipeline.arrRef spec2 (2 : Fin 6)) : DevRef τ sig) ≠ Proc.devRef .tc main_v43 := StableHlo.devRef_ne_of_ne (by decide)
  unfold X11
  rw [Function.update_of_ne h0]
  exact ((dat2 (atTc (X10 m)) c).arrAt_in (2 : Fin 6) rfl _).trans (A_eq2 (atTc (X10 m)) c (2 : Fin 6))
theorem X11_arr_3 (c : Dev nD) : (dat2 (atTc (X10 m)) c).arrAt (3 : Fin 6) cfg2.N = X11 m c (Pipeline.arrRef spec2 (3 : Fin 6)) := by
  have h0 : (Proc.devRef .tc (Pipeline.arrRef spec2 (3 : Fin 6)) : DevRef τ sig) ≠ Proc.devRef .tc main_v43 := StableHlo.devRef_ne_of_ne (by decide)
  unfold X11
  rw [Function.update_of_ne h0]
  exact ((dat2 (atTc (X10 m)) c).arrAt_in (3 : Fin 6) rfl _).trans (A_eq2 (atTc (X10 m)) c (3 : Fin 6))
theorem X11_arr_4 (c : Dev nD) : (dat2 (atTc (X10 m)) c).arrAt (4 : Fin 6) cfg2.N = X11 m c (Pipeline.arrRef spec2 (4 : Fin 6)) := by
  have h0 : (Proc.devRef .tc (Pipeline.arrRef spec2 (4 : Fin 6)) : DevRef τ sig) ≠ Proc.devRef .tc main_v43 := StableHlo.devRef_ne_of_ne (by decide)
  unfold X11
  rw [Function.update_of_ne h0]
  exact ((dat2 (atTc (X10 m)) c).arrAt_in (4 : Fin 6) rfl _).trans (A_eq2 (atTc (X10 m)) c (4 : Fin 6))
theorem X11_arr_5 (c : Dev nD) : (dat2 (atTc (X10 m)) c).arrAt (5 : Fin 6) cfg2.N = X11 m c (Pipeline.arrRef spec2 (5 : Fin 6)) := by
  unfold X11
  exact (eq_of_heq (update_at (congrArg (Proc.devRef (τ := τ) .tc) arr2_5) _)).symm
theorem X11_arr (c : Dev nD) : ∀ w : Fin 6, (dat2 (atTc (X10 m)) c).arrAt w cfg2.N = X11 m c (Pipeline.arrRef spec2 w)
  | ⟨0, _⟩ => X11_arr_0 m c
  | ⟨1, _⟩ => X11_arr_1 m c
  | ⟨2, _⟩ => X11_arr_2 m c
  | ⟨3, _⟩ => X11_arr_3 m c
  | ⟨4, _⟩ => X11_arr_4 m c
  | ⟨5, _⟩ => X11_arr_5 m c
  | ⟨_ + 6, h⟩ => absurd h (Nat.not_lt.2 (Nat.le_add_left _ _))
theorem X11_rest (c : Dev nD) (b : Ref sig .tc) (hb : b ∉ Finset.univ.image (Pipeline.arrRef spec2)) : X11 m c b = X10 m c b := by
  unfold X11
  rw [Function.update_of_ne (StableHlo.devRef_ne_of_ne (fun e => hb (Finset.mem_image.mpr ⟨(5 : Fin 6), Finset.mem_univ _, arr2_5.trans e.symm⟩)) : (Proc.devRef .tc b : DevRef τ sig) ≠ Proc.devRef .tc main_v43)]

/-- Region 2 as a segment: entered from every unscoped buffer at the contents before it, left at the contents after it. -/
def R2 : RegionSeg (pcfgs (F := F)) adm (pdats m) () defs₀ Variants.none L lv 2 :=
  LibRegionRecord.classA (pcfgs (F := F)) adm (pdats m) defs₀ Variants.none L lv 2
    launch2.win launch2.block_pos launch2.arr_whole launch2.stage_whole ⟨fun k => k.elim0⟩
    (fun c t => dat2_Φ (atTc (X10 m)) c t) (fun c w => dat2_q (atTc (X10 m)) c w) (fun c t => dat2_owed (atTc (X10 m)) c t) (fun c t => dat2_rec (atTc (X10 m)) c t)
    (fun c => body_obligation2 (atTc (X10 m)) c) (X10 m) (X11 m)
    (fun c w => A_eq2 (atTc (X10 m)) c w) (fun c w => X11_arr m c w) (fun c b hb => X11_rest m c b hb)

/-- Region 3's windows' arrays, by name. -/
theorem arr3_0 : Pipeline.arrRef spec3 (0 : Fin 4) = main_v43 := by decide
theorem arr3_1 : Pipeline.arrRef spec3 (1 : Fin 4) = main_arg7 := by decide
theorem arr3_2 : Pipeline.arrRef spec3 (2 : Fin 4) = main_v44 := by decide
theorem arr3_3 : Pipeline.arrRef spec3 (3 : Fin 4) = main_v45 := by decide
theorem X13_arr_0 (c : Dev nD) : (dat3 (atTc (X12 m)) c).arrAt (0 : Fin 4) cfg3.N = X13 m c (Pipeline.arrRef spec3 (0 : Fin 4)) := by
  have h0 : (Proc.devRef .tc (Pipeline.arrRef spec3 (0 : Fin 4)) : DevRef τ sig) ≠ Proc.devRef .tc main_v45 := StableHlo.devRef_ne_of_ne (by decide)
  unfold X13
  rw [Function.update_of_ne h0]
  exact ((dat3 (atTc (X12 m)) c).arrAt_in (0 : Fin 4) rfl _).trans (A_eq3 (atTc (X12 m)) c (0 : Fin 4))
theorem X13_arr_1 (c : Dev nD) : (dat3 (atTc (X12 m)) c).arrAt (1 : Fin 4) cfg3.N = X13 m c (Pipeline.arrRef spec3 (1 : Fin 4)) := by
  have h0 : (Proc.devRef .tc (Pipeline.arrRef spec3 (1 : Fin 4)) : DevRef τ sig) ≠ Proc.devRef .tc main_v45 := StableHlo.devRef_ne_of_ne (by decide)
  unfold X13
  rw [Function.update_of_ne h0]
  exact ((dat3 (atTc (X12 m)) c).arrAt_in (1 : Fin 4) rfl _).trans (A_eq3 (atTc (X12 m)) c (1 : Fin 4))
theorem X13_arr_2 (c : Dev nD) : (dat3 (atTc (X12 m)) c).arrAt (2 : Fin 4) cfg3.N = X13 m c (Pipeline.arrRef spec3 (2 : Fin 4)) := by
  have h0 : (Proc.devRef .tc (Pipeline.arrRef spec3 (2 : Fin 4)) : DevRef τ sig) ≠ Proc.devRef .tc main_v45 := StableHlo.devRef_ne_of_ne (by decide)
  unfold X13
  rw [Function.update_of_ne h0]
  exact ((dat3 (atTc (X12 m)) c).arrAt_in (2 : Fin 4) rfl _).trans (A_eq3 (atTc (X12 m)) c (2 : Fin 4))
theorem X13_arr_3 (c : Dev nD) : (dat3 (atTc (X12 m)) c).arrAt (3 : Fin 4) cfg3.N = X13 m c (Pipeline.arrRef spec3 (3 : Fin 4)) := by
  unfold X13
  exact (eq_of_heq (update_at (congrArg (Proc.devRef (τ := τ) .tc) arr3_3) _)).symm
theorem X13_arr (c : Dev nD) : ∀ w : Fin 4, (dat3 (atTc (X12 m)) c).arrAt w cfg3.N = X13 m c (Pipeline.arrRef spec3 w)
  | ⟨0, _⟩ => X13_arr_0 m c
  | ⟨1, _⟩ => X13_arr_1 m c
  | ⟨2, _⟩ => X13_arr_2 m c
  | ⟨3, _⟩ => X13_arr_3 m c
  | ⟨_ + 4, h⟩ => absurd h (Nat.not_lt.2 (Nat.le_add_left _ _))
theorem X13_rest (c : Dev nD) (b : Ref sig .tc) (hb : b ∉ Finset.univ.image (Pipeline.arrRef spec3)) : X13 m c b = X12 m c b := by
  unfold X13
  rw [Function.update_of_ne (StableHlo.devRef_ne_of_ne (fun e => hb (Finset.mem_image.mpr ⟨(3 : Fin 4), Finset.mem_univ _, arr3_3.trans e.symm⟩)) : (Proc.devRef .tc b : DevRef τ sig) ≠ Proc.devRef .tc main_v45)]

/-- Region 3 as a segment: entered from every unscoped buffer at the contents before it, left at the contents after it. -/
def R3 : RegionSeg (pcfgs (F := F)) adm (pdats m) () defs₀ Variants.none L lv 3 :=
  LibRegionRecord.classA (pcfgs (F := F)) adm (pdats m) defs₀ Variants.none L lv 3
    launch3.win launch3.block_pos launch3.arr_whole launch3.stage_whole ⟨fun k => k.elim0⟩
    (fun c t => dat3_Φ (atTc (X12 m)) c t) (fun c w => dat3_q (atTc (X12 m)) c w) (fun c t => dat3_owed (atTc (X12 m)) c t) (fun c t => dat3_rec (atTc (X12 m)) c t)
    (fun c => body_obligation3 (atTc (X12 m)) c) (X12 m) (X13 m)
    (fun c w => A_eq3 (atTc (X12 m)) c w) (fun c w => X13_arr m c w) (fun c b hb => X13_rest m c b hb)

/-- Region 4's windows' arrays, by name. -/
theorem arr4_0 : Pipeline.arrRef spec4 (0 : Fin 6) = main_v49 := by decide
theorem arr4_1 : Pipeline.arrRef spec4 (1 : Fin 6) = main_v50 := by decide
theorem arr4_2 : Pipeline.arrRef spec4 (2 : Fin 6) = main_v51 := by decide
theorem arr4_3 : Pipeline.arrRef spec4 (3 : Fin 6) = main_v52_0 := by decide
theorem arr4_4 : Pipeline.arrRef spec4 (4 : Fin 6) = main_v52_1 := by decide
theorem arr4_5 : Pipeline.arrRef spec4 (5 : Fin 6) = main_v52_2 := by decide
theorem X16_arr_0 (c : Dev nD) : (dat4 (atTc (X15 m)) c).arrAt (0 : Fin 6) cfg4.N = X16 m c (Pipeline.arrRef spec4 (0 : Fin 6)) := by
  have h0 : (Proc.devRef .tc (Pipeline.arrRef spec4 (0 : Fin 6)) : DevRef τ sig) ≠ Proc.devRef .tc main_v52_0 := StableHlo.devRef_ne_of_ne (by decide)
  have h1 : (Proc.devRef .tc (Pipeline.arrRef spec4 (0 : Fin 6)) : DevRef τ sig) ≠ Proc.devRef .tc main_v52_1 := StableHlo.devRef_ne_of_ne (by decide)
  have h2 : (Proc.devRef .tc (Pipeline.arrRef spec4 (0 : Fin 6)) : DevRef τ sig) ≠ Proc.devRef .tc main_v52_2 := StableHlo.devRef_ne_of_ne (by decide)
  unfold X16
  rw [Function.update_of_ne h2, Function.update_of_ne h1, Function.update_of_ne h0]
  exact ((dat4 (atTc (X15 m)) c).arrAt_in (0 : Fin 6) rfl _).trans (A_eq4 (atTc (X15 m)) c (0 : Fin 6))
theorem X16_arr_1 (c : Dev nD) : (dat4 (atTc (X15 m)) c).arrAt (1 : Fin 6) cfg4.N = X16 m c (Pipeline.arrRef spec4 (1 : Fin 6)) := by
  have h0 : (Proc.devRef .tc (Pipeline.arrRef spec4 (1 : Fin 6)) : DevRef τ sig) ≠ Proc.devRef .tc main_v52_0 := StableHlo.devRef_ne_of_ne (by decide)
  have h1 : (Proc.devRef .tc (Pipeline.arrRef spec4 (1 : Fin 6)) : DevRef τ sig) ≠ Proc.devRef .tc main_v52_1 := StableHlo.devRef_ne_of_ne (by decide)
  have h2 : (Proc.devRef .tc (Pipeline.arrRef spec4 (1 : Fin 6)) : DevRef τ sig) ≠ Proc.devRef .tc main_v52_2 := StableHlo.devRef_ne_of_ne (by decide)
  unfold X16
  rw [Function.update_of_ne h2, Function.update_of_ne h1, Function.update_of_ne h0]
  exact ((dat4 (atTc (X15 m)) c).arrAt_in (1 : Fin 6) rfl _).trans (A_eq4 (atTc (X15 m)) c (1 : Fin 6))
theorem X16_arr_2 (c : Dev nD) : (dat4 (atTc (X15 m)) c).arrAt (2 : Fin 6) cfg4.N = X16 m c (Pipeline.arrRef spec4 (2 : Fin 6)) := by
  have h0 : (Proc.devRef .tc (Pipeline.arrRef spec4 (2 : Fin 6)) : DevRef τ sig) ≠ Proc.devRef .tc main_v52_0 := StableHlo.devRef_ne_of_ne (by decide)
  have h1 : (Proc.devRef .tc (Pipeline.arrRef spec4 (2 : Fin 6)) : DevRef τ sig) ≠ Proc.devRef .tc main_v52_1 := StableHlo.devRef_ne_of_ne (by decide)
  have h2 : (Proc.devRef .tc (Pipeline.arrRef spec4 (2 : Fin 6)) : DevRef τ sig) ≠ Proc.devRef .tc main_v52_2 := StableHlo.devRef_ne_of_ne (by decide)
  unfold X16
  rw [Function.update_of_ne h2, Function.update_of_ne h1, Function.update_of_ne h0]
  exact ((dat4 (atTc (X15 m)) c).arrAt_in (2 : Fin 6) rfl _).trans (A_eq4 (atTc (X15 m)) c (2 : Fin 6))
theorem X16_arr_3 (c : Dev nD) : (dat4 (atTc (X15 m)) c).arrAt (3 : Fin 6) cfg4.N = X16 m c (Pipeline.arrRef spec4 (3 : Fin 6)) := by
  have h0 : (Proc.devRef .tc (Pipeline.arrRef spec4 (3 : Fin 6)) : DevRef τ sig) ≠ Proc.devRef .tc main_v52_1 := StableHlo.devRef_ne_of_ne (by decide)
  have h1 : (Proc.devRef .tc (Pipeline.arrRef spec4 (3 : Fin 6)) : DevRef τ sig) ≠ Proc.devRef .tc main_v52_2 := StableHlo.devRef_ne_of_ne (by decide)
  unfold X16
  rw [Function.update_of_ne h1, Function.update_of_ne h0]
  exact (eq_of_heq (update_at (congrArg (Proc.devRef (τ := τ) .tc) arr4_3) _)).symm
theorem X16_arr_4 (c : Dev nD) : (dat4 (atTc (X15 m)) c).arrAt (4 : Fin 6) cfg4.N = X16 m c (Pipeline.arrRef spec4 (4 : Fin 6)) := by
  have h0 : (Proc.devRef .tc (Pipeline.arrRef spec4 (4 : Fin 6)) : DevRef τ sig) ≠ Proc.devRef .tc main_v52_2 := StableHlo.devRef_ne_of_ne (by decide)
  unfold X16
  rw [Function.update_of_ne h0]
  exact (eq_of_heq (update_at (congrArg (Proc.devRef (τ := τ) .tc) arr4_4) _)).symm
theorem X16_arr_5 (c : Dev nD) : (dat4 (atTc (X15 m)) c).arrAt (5 : Fin 6) cfg4.N = X16 m c (Pipeline.arrRef spec4 (5 : Fin 6)) := by
  unfold X16
  exact (eq_of_heq (update_at (congrArg (Proc.devRef (τ := τ) .tc) arr4_5) _)).symm
theorem X16_arr (c : Dev nD) : ∀ w : Fin 6, (dat4 (atTc (X15 m)) c).arrAt w cfg4.N = X16 m c (Pipeline.arrRef spec4 w)
  | ⟨0, _⟩ => X16_arr_0 m c
  | ⟨1, _⟩ => X16_arr_1 m c
  | ⟨2, _⟩ => X16_arr_2 m c
  | ⟨3, _⟩ => X16_arr_3 m c
  | ⟨4, _⟩ => X16_arr_4 m c
  | ⟨5, _⟩ => X16_arr_5 m c
  | ⟨_ + 6, h⟩ => absurd h (Nat.not_lt.2 (Nat.le_add_left _ _))
theorem X16_rest (c : Dev nD) (b : Ref sig .tc) (hb : b ∉ Finset.univ.image (Pipeline.arrRef spec4)) : X16 m c b = X15 m c b := by
  unfold X16
  rw [Function.update_of_ne (StableHlo.devRef_ne_of_ne (fun e => hb (Finset.mem_image.mpr ⟨(5 : Fin 6), Finset.mem_univ _, arr4_5.trans e.symm⟩)) : (Proc.devRef .tc b : DevRef τ sig) ≠ Proc.devRef .tc main_v52_2)]
  rw [Function.update_of_ne (StableHlo.devRef_ne_of_ne (fun e => hb (Finset.mem_image.mpr ⟨(4 : Fin 6), Finset.mem_univ _, arr4_4.trans e.symm⟩)) : (Proc.devRef .tc b : DevRef τ sig) ≠ Proc.devRef .tc main_v52_1)]
  rw [Function.update_of_ne (StableHlo.devRef_ne_of_ne (fun e => hb (Finset.mem_image.mpr ⟨(3 : Fin 6), Finset.mem_univ _, arr4_3.trans e.symm⟩)) : (Proc.devRef .tc b : DevRef τ sig) ≠ Proc.devRef .tc main_v52_0)]

/-- Region 4 as a segment: entered from every unscoped buffer at the contents before it, left at the contents after it;
    its scratch rows are tracked point by point inside. -/
def R4 : RegionSeg (pcfgs (F := F)) adm (pdats m) () defs₀ Variants.none L lv 4 :=
  LibRegionTrackedWhole.trackedWhole (pcfgs (F := F)) adm (pdats m) defs₀ Variants.none L lv 4
    launch4.win launch4.block_pos launch4.arr_whole launch4.stage_whole ⟨fun k => k.elim0⟩
    (fun c => hin4 (atTc (X15 m)) c) (fun c => hout4 (atTc (X15 m)) c) (fun c w => dat4_q (atTc (X15 m)) c w) (fun c t => howed4 (atTc (X15 m)) c t) (fun c t => hrec4 (atTc (X15 m)) c t)
    (fun c => body_obligation4 (atTc (X15 m)) c) (X15 m) (X16 m)
    (fun c w => A_eq4 (atTc (X15 m)) c w) (fun c w => X16_arr m c w) (fun c b hb => X16_rest m c b hb)

/-- Region 5's windows' arrays, by name. -/
theorem arr5_0 : Pipeline.arrRef spec5 (0 : Fin 6) = main_v52_0 := by decide
theorem arr5_1 : Pipeline.arrRef spec5 (1 : Fin 6) = main_v67 := by decide
theorem arr5_2 : Pipeline.arrRef spec5 (2 : Fin 6) = main_v66 := by decide
theorem arr5_3 : Pipeline.arrRef spec5 (3 : Fin 6) = main_v68 := by decide
theorem arr5_4 : Pipeline.arrRef spec5 (4 : Fin 6) = main_v69 := by decide
theorem arr5_5 : Pipeline.arrRef spec5 (5 : Fin 6) = main_v70 := by decide
theorem X18_arr_0 (c : Dev nD) : (dat5 (atTc (X17 m)) c).arrAt (0 : Fin 6) cfg5.N = X18 m c (Pipeline.arrRef spec5 (0 : Fin 6)) := by
  have h0 : (Proc.devRef .tc (Pipeline.arrRef spec5 (0 : Fin 6)) : DevRef τ sig) ≠ Proc.devRef .tc main_v70 := StableHlo.devRef_ne_of_ne (by decide)
  unfold X18
  rw [Function.update_of_ne h0]
  exact ((dat5 (atTc (X17 m)) c).arrAt_in (0 : Fin 6) rfl _).trans (A_eq5 (atTc (X17 m)) c (0 : Fin 6))
theorem X18_arr_1 (c : Dev nD) : (dat5 (atTc (X17 m)) c).arrAt (1 : Fin 6) cfg5.N = X18 m c (Pipeline.arrRef spec5 (1 : Fin 6)) := by
  have h0 : (Proc.devRef .tc (Pipeline.arrRef spec5 (1 : Fin 6)) : DevRef τ sig) ≠ Proc.devRef .tc main_v70 := StableHlo.devRef_ne_of_ne (by decide)
  unfold X18
  rw [Function.update_of_ne h0]
  exact ((dat5 (atTc (X17 m)) c).arrAt_in (1 : Fin 6) rfl _).trans (A_eq5 (atTc (X17 m)) c (1 : Fin 6))
theorem X18_arr_2 (c : Dev nD) : (dat5 (atTc (X17 m)) c).arrAt (2 : Fin 6) cfg5.N = X18 m c (Pipeline.arrRef spec5 (2 : Fin 6)) := by
  have h0 : (Proc.devRef .tc (Pipeline.arrRef spec5 (2 : Fin 6)) : DevRef τ sig) ≠ Proc.devRef .tc main_v70 := StableHlo.devRef_ne_of_ne (by decide)
  unfold X18
  rw [Function.update_of_ne h0]
  exact ((dat5 (atTc (X17 m)) c).arrAt_in (2 : Fin 6) rfl _).trans (A_eq5 (atTc (X17 m)) c (2 : Fin 6))
theorem X18_arr_3 (c : Dev nD) : (dat5 (atTc (X17 m)) c).arrAt (3 : Fin 6) cfg5.N = X18 m c (Pipeline.arrRef spec5 (3 : Fin 6)) := by
  have h0 : (Proc.devRef .tc (Pipeline.arrRef spec5 (3 : Fin 6)) : DevRef τ sig) ≠ Proc.devRef .tc main_v70 := StableHlo.devRef_ne_of_ne (by decide)
  unfold X18
  rw [Function.update_of_ne h0]
  exact ((dat5 (atTc (X17 m)) c).arrAt_in (3 : Fin 6) rfl _).trans (A_eq5 (atTc (X17 m)) c (3 : Fin 6))
theorem X18_arr_4 (c : Dev nD) : (dat5 (atTc (X17 m)) c).arrAt (4 : Fin 6) cfg5.N = X18 m c (Pipeline.arrRef spec5 (4 : Fin 6)) := by
  have h0 : (Proc.devRef .tc (Pipeline.arrRef spec5 (4 : Fin 6)) : DevRef τ sig) ≠ Proc.devRef .tc main_v70 := StableHlo.devRef_ne_of_ne (by decide)
  unfold X18
  rw [Function.update_of_ne h0]
  exact ((dat5 (atTc (X17 m)) c).arrAt_in (4 : Fin 6) rfl _).trans (A_eq5 (atTc (X17 m)) c (4 : Fin 6))
theorem X18_arr_5 (c : Dev nD) : (dat5 (atTc (X17 m)) c).arrAt (5 : Fin 6) cfg5.N = X18 m c (Pipeline.arrRef spec5 (5 : Fin 6)) := by
  unfold X18
  exact (eq_of_heq (update_at (congrArg (Proc.devRef (τ := τ) .tc) arr5_5) _)).symm
theorem X18_arr (c : Dev nD) : ∀ w : Fin 6, (dat5 (atTc (X17 m)) c).arrAt w cfg5.N = X18 m c (Pipeline.arrRef spec5 w)
  | ⟨0, _⟩ => X18_arr_0 m c
  | ⟨1, _⟩ => X18_arr_1 m c
  | ⟨2, _⟩ => X18_arr_2 m c
  | ⟨3, _⟩ => X18_arr_3 m c
  | ⟨4, _⟩ => X18_arr_4 m c
  | ⟨5, _⟩ => X18_arr_5 m c
  | ⟨_ + 6, h⟩ => absurd h (Nat.not_lt.2 (Nat.le_add_left _ _))
theorem X18_rest (c : Dev nD) (b : Ref sig .tc) (hb : b ∉ Finset.univ.image (Pipeline.arrRef spec5)) : X18 m c b = X17 m c b := by
  unfold X18
  rw [Function.update_of_ne (StableHlo.devRef_ne_of_ne (fun e => hb (Finset.mem_image.mpr ⟨(5 : Fin 6), Finset.mem_univ _, arr5_5.trans e.symm⟩)) : (Proc.devRef .tc b : DevRef τ sig) ≠ Proc.devRef .tc main_v70)]

/-- Region 5 as a segment: entered from every unscoped buffer at the contents before it, left at the contents after it. -/
def R5 : RegionSeg (pcfgs (F := F)) adm (pdats m) () defs₀ Variants.none L lv 5 :=
  LibRegionRecord.classA (pcfgs (F := F)) adm (pdats m) defs₀ Variants.none L lv 5
    launch5.win launch5.block_pos launch5.arr_whole launch5.stage_whole ⟨fun k => k.elim0⟩
    (fun c t => dat5_Φ (atTc (X17 m)) c t) (fun c w => dat5_q (atTc (X17 m)) c w) (fun c t => dat5_owed (atTc (X17 m)) c t) (fun c t => dat5_rec (atTc (X17 m)) c t)
    (fun c => body_obligation5 (atTc (X17 m)) c) (X17 m) (X18 m)
    (fun c w => A_eq5 (atTc (X17 m)) c w) (fun c w => X18_arr m c w) (fun c b hb => X18_rest m c b hb)

/-- Region 6's windows' arrays, by name. -/
theorem arr6_0 : Pipeline.arrRef spec6 (0 : Fin 4) = main_v70 := by decide
theorem arr6_1 : Pipeline.arrRef spec6 (1 : Fin 4) = main_arg11 := by decide
theorem arr6_2 : Pipeline.arrRef spec6 (2 : Fin 4) = main_v71 := by decide
theorem arr6_3 : Pipeline.arrRef spec6 (3 : Fin 4) = main_v72 := by decide
theorem X20_arr_0 (c : Dev nD) : (dat6 (atTc (X19 m)) c).arrAt (0 : Fin 4) cfg6.N = X20 m c (Pipeline.arrRef spec6 (0 : Fin 4)) := by
  have h0 : (Proc.devRef .tc (Pipeline.arrRef spec6 (0 : Fin 4)) : DevRef τ sig) ≠ Proc.devRef .tc main_v72 := StableHlo.devRef_ne_of_ne (by decide)
  unfold X20
  rw [Function.update_of_ne h0]
  exact ((dat6 (atTc (X19 m)) c).arrAt_in (0 : Fin 4) rfl _).trans (A_eq6 (atTc (X19 m)) c (0 : Fin 4))
theorem X20_arr_1 (c : Dev nD) : (dat6 (atTc (X19 m)) c).arrAt (1 : Fin 4) cfg6.N = X20 m c (Pipeline.arrRef spec6 (1 : Fin 4)) := by
  have h0 : (Proc.devRef .tc (Pipeline.arrRef spec6 (1 : Fin 4)) : DevRef τ sig) ≠ Proc.devRef .tc main_v72 := StableHlo.devRef_ne_of_ne (by decide)
  unfold X20
  rw [Function.update_of_ne h0]
  exact ((dat6 (atTc (X19 m)) c).arrAt_in (1 : Fin 4) rfl _).trans (A_eq6 (atTc (X19 m)) c (1 : Fin 4))
theorem X20_arr_2 (c : Dev nD) : (dat6 (atTc (X19 m)) c).arrAt (2 : Fin 4) cfg6.N = X20 m c (Pipeline.arrRef spec6 (2 : Fin 4)) := by
  have h0 : (Proc.devRef .tc (Pipeline.arrRef spec6 (2 : Fin 4)) : DevRef τ sig) ≠ Proc.devRef .tc main_v72 := StableHlo.devRef_ne_of_ne (by decide)
  unfold X20
  rw [Function.update_of_ne h0]
  exact ((dat6 (atTc (X19 m)) c).arrAt_in (2 : Fin 4) rfl _).trans (A_eq6 (atTc (X19 m)) c (2 : Fin 4))
theorem X20_arr_3 (c : Dev nD) : (dat6 (atTc (X19 m)) c).arrAt (3 : Fin 4) cfg6.N = X20 m c (Pipeline.arrRef spec6 (3 : Fin 4)) := by
  unfold X20
  exact (eq_of_heq (update_at (congrArg (Proc.devRef (τ := τ) .tc) arr6_3) _)).symm
theorem X20_arr (c : Dev nD) : ∀ w : Fin 4, (dat6 (atTc (X19 m)) c).arrAt w cfg6.N = X20 m c (Pipeline.arrRef spec6 w)
  | ⟨0, _⟩ => X20_arr_0 m c
  | ⟨1, _⟩ => X20_arr_1 m c
  | ⟨2, _⟩ => X20_arr_2 m c
  | ⟨3, _⟩ => X20_arr_3 m c
  | ⟨_ + 4, h⟩ => absurd h (Nat.not_lt.2 (Nat.le_add_left _ _))
theorem X20_rest (c : Dev nD) (b : Ref sig .tc) (hb : b ∉ Finset.univ.image (Pipeline.arrRef spec6)) : X20 m c b = X19 m c b := by
  unfold X20
  rw [Function.update_of_ne (StableHlo.devRef_ne_of_ne (fun e => hb (Finset.mem_image.mpr ⟨(3 : Fin 4), Finset.mem_univ _, arr6_3.trans e.symm⟩)) : (Proc.devRef .tc b : DevRef τ sig) ≠ Proc.devRef .tc main_v72)]

/-- Region 6 as a segment: entered from every unscoped buffer at the contents before it, left at the contents after it. -/
def R6 : RegionSeg (pcfgs (F := F)) adm (pdats m) () defs₀ Variants.none L lv 6 :=
  LibRegionRecord.classA (pcfgs (F := F)) adm (pdats m) defs₀ Variants.none L lv 6
    launch6.win launch6.block_pos launch6.arr_whole launch6.stage_whole ⟨fun k => k.elim0⟩
    (fun c t => dat6_Φ (atTc (X19 m)) c t) (fun c w => dat6_q (atTc (X19 m)) c w) (fun c t => dat6_owed (atTc (X19 m)) c t) (fun c t => dat6_rec (atTc (X19 m)) c t)
    (fun c => body_obligation6 (atTc (X19 m)) c) (X19 m) (X20 m)
    (fun c w => A_eq6 (atTc (X19 m)) c w) (fun c w => X20_arr m c w) (fun c b hb => X20_rest m c b hb)

/-- Region 7's windows' arrays, by name. -/
theorem arr7_0 : Pipeline.arrRef spec7 (0 : Fin 4) = main_v76 := by decide
theorem arr7_1 : Pipeline.arrRef spec7 (1 : Fin 4) = main_v77 := by decide
theorem arr7_2 : Pipeline.arrRef spec7 (2 : Fin 4) = main_v78 := by decide
theorem arr7_3 : Pipeline.arrRef spec7 (3 : Fin 4) = main_v79 := by decide
theorem X23_arr_0 (c : Dev nD) : (dat7 (atTc (X22 m)) c).arrAt (0 : Fin 4) cfg7.N = X23 m c (Pipeline.arrRef spec7 (0 : Fin 4)) := by
  have h0 : (Proc.devRef .tc (Pipeline.arrRef spec7 (0 : Fin 4)) : DevRef τ sig) ≠ Proc.devRef .tc main_v79 := StableHlo.devRef_ne_of_ne (by decide)
  unfold X23
  rw [Function.update_of_ne h0]
  exact ((dat7 (atTc (X22 m)) c).arrAt_in (0 : Fin 4) rfl _).trans (A_eq7 (atTc (X22 m)) c (0 : Fin 4))
theorem X23_arr_1 (c : Dev nD) : (dat7 (atTc (X22 m)) c).arrAt (1 : Fin 4) cfg7.N = X23 m c (Pipeline.arrRef spec7 (1 : Fin 4)) := by
  have h0 : (Proc.devRef .tc (Pipeline.arrRef spec7 (1 : Fin 4)) : DevRef τ sig) ≠ Proc.devRef .tc main_v79 := StableHlo.devRef_ne_of_ne (by decide)
  unfold X23
  rw [Function.update_of_ne h0]
  exact ((dat7 (atTc (X22 m)) c).arrAt_in (1 : Fin 4) rfl _).trans (A_eq7 (atTc (X22 m)) c (1 : Fin 4))
theorem X23_arr_2 (c : Dev nD) : (dat7 (atTc (X22 m)) c).arrAt (2 : Fin 4) cfg7.N = X23 m c (Pipeline.arrRef spec7 (2 : Fin 4)) := by
  have h0 : (Proc.devRef .tc (Pipeline.arrRef spec7 (2 : Fin 4)) : DevRef τ sig) ≠ Proc.devRef .tc main_v79 := StableHlo.devRef_ne_of_ne (by decide)
  unfold X23
  rw [Function.update_of_ne h0]
  exact ((dat7 (atTc (X22 m)) c).arrAt_in (2 : Fin 4) rfl _).trans (A_eq7 (atTc (X22 m)) c (2 : Fin 4))
theorem X23_arr_3 (c : Dev nD) : (dat7 (atTc (X22 m)) c).arrAt (3 : Fin 4) cfg7.N = X23 m c (Pipeline.arrRef spec7 (3 : Fin 4)) := by
  unfold X23
  exact (eq_of_heq (update_at (congrArg (Proc.devRef (τ := τ) .tc) arr7_3) _)).symm
theorem X23_arr (c : Dev nD) : ∀ w : Fin 4, (dat7 (atTc (X22 m)) c).arrAt w cfg7.N = X23 m c (Pipeline.arrRef spec7 w)
  | ⟨0, _⟩ => X23_arr_0 m c
  | ⟨1, _⟩ => X23_arr_1 m c
  | ⟨2, _⟩ => X23_arr_2 m c
  | ⟨3, _⟩ => X23_arr_3 m c
  | ⟨_ + 4, h⟩ => absurd h (Nat.not_lt.2 (Nat.le_add_left _ _))
theorem X23_rest (c : Dev nD) (b : Ref sig .tc) (hb : b ∉ Finset.univ.image (Pipeline.arrRef spec7)) : X23 m c b = X22 m c b := by
  unfold X23
  rw [Function.update_of_ne (StableHlo.devRef_ne_of_ne (fun e => hb (Finset.mem_image.mpr ⟨(3 : Fin 4), Finset.mem_univ _, arr7_3.trans e.symm⟩)) : (Proc.devRef .tc b : DevRef τ sig) ≠ Proc.devRef .tc main_v79)]

/-- Region 7 as a segment: entered from every unscoped buffer at the contents before it, left at the contents after it. -/
def R7 : RegionSeg (pcfgs (F := F)) adm (pdats m) () defs₀ Variants.none L lv 7 :=
  LibRegionRecord.classA (pcfgs (F := F)) adm (pdats m) defs₀ Variants.none L lv 7
    launch7.win launch7.block_pos launch7.arr_whole launch7.stage_whole ⟨fun k => k.elim0⟩
    (fun c t => dat7_Φ (atTc (X22 m)) c t) (fun c w => dat7_q (atTc (X22 m)) c w) (fun c t => dat7_owed (atTc (X22 m)) c t) (fun c t => dat7_rec (atTc (X22 m)) c t)
    (fun c => body_obligation7 (atTc (X22 m)) c) (X22 m) (X23 m)
    (fun c w => A_eq7 (atTc (X22 m)) c w) (fun c w => X23_arr m c w) (fun c b hb => X23_rest m c b hb)

/-- What rides beside the buffers between the items: the generator register at some state, and nothing owed. -/
abbrev E : Fin 9 → Dev nD → sProp 𝕄 := fun _ c => LibRegionRecord.Rest c

theorem outs_last (c : Dev nD) : outs m 23 main_v79 c = X23 m c main_v79 := rfl

-- the run rule's implicit arguments are found by unifying its conclusion with this one, which takes unfolding plain
-- definitions in a metavariable's type
set_option backward.isDefEq.respectTransparency.types false in
/-- THE RUN: every weakly fair execution of @main from a memory with zero counters terminates, nothing faulting; the
    result array ends at what region 7's write-backs leave in it, and every argument array as launched. -/
theorem run (ρ : Dev nD → PrngReg) :
    θ_run defs (onTc (τ := τ) (main (F := F))) ⟨m, fun _ => 0, ρ⟩ (fun r => ∀ c : Dev nD,
      r.2.mem ((c.tc : Thread nD τ).loc main_v79) = outs m 23 main_v79 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  run_cond m (EP := emb₁) (ι := ()) (𝒱₀ := Variants.none) (L := L) (lv := lv) (hL := fun _ _ => rfl) (ρ := ρ) (outs := outs m)
    (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := E)
    (hE0 := by
      refine Pipeline.initEach L lv fun c => ?_
      iintro ⟨⟨-, HO, -, Hp, -⟩, -⟩
      imodintro
      isplitl [Hp]; · iexists _; iexact Hp
      iexists ∅; iexact HO)
    (hE8 := fun c => by iintro ⟨-, HO⟩; iexact HO)
    (R0 := R0 m) (hpre0 := fun c => .rfl) (hpost0 := fun c => by rw [V6_eq]; exact .rfl)
    (R1 := R1 m) (hpre1 := fun c => by rw [V8_eq]; exact .rfl) (hpost1 := fun c => by rw [V9_eq]; exact .rfl)
    (R2 := R2 m) (hpre2 := fun c => by rw [V10_eq]; exact .rfl) (hpost2 := fun c => by rw [V11_eq]; exact .rfl)
    (R3 := R3 m) (hpre3 := fun c => by rw [V12_eq]; exact .rfl) (hpost3 := fun c => by rw [V13_eq]; exact .rfl)
    (R4 := R4 m) (hpre4 := fun c => by rw [V15_eq]; exact .rfl) (hpost4 := fun c => by rw [V16_eq]; exact .rfl)
    (R5 := R5 m) (hpre5 := fun c => by rw [V17_eq]; exact .rfl) (hpost5 := fun c => by rw [V18_eq]; exact .rfl)
    (R6 := R6 m) (hpre6 := fun c => by rw [V19_eq]; exact .rfl) (hpost6 := fun c => by rw [V20_eq]; exact .rfl)
    (R7 := R7 m) (hpre7 := fun c => by rw [V22_eq]; exact .rfl) (hpost7 := fun c => by rw [V23_eq]; exact .rfl)

end Fold

end Cert.KernelIdeal.Hand

end
-- ==== Proof.RefRunOps.lean ====
import proofs.«107691_j23957327577190_1_alg».proof.ReferenceIdeal
import Idealize.ShloMosaic.Lib.StableHlo.Run

set_option synthInstance.maxSize 4096

noncomputable section

namespace Cert.ReferenceIdeal.Hand

open Cert.ReferenceIdeal Idealize.ShloMosaic Idealize.ShloMosaic.TcCoe Idealize.SL.Sem Idealize.ShloMosaic.StableHlo
open Facts₀ Facts

variable {F : FTy → Type} [FloatOps F] [Facts]

/-! The reference program's host operations as literal lists, in program order: each outlined function's
operations stand at its call site over that call's own buffers. The list is cut into stretches that each
compute one mathematical stage. -/

/-- Operations 1 … 30 of 207 — the two degree norms: ones scattered at the source and at the destination indices, clamped below at one, raised to the power −1/2. -/
abbrev opsA : List (HloOp τ sig (Elt F)) :=
  [ StableHlo.nullary main_cst (constant S_ .f32 0x3F800000#32),
    StableHlo.unary main_cst main_v0 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v1 (broadcastInDim S100000 ![] bcast_S_S100000 : (⟨S_, .f32⟩ : BufTy).Contents (Elt F) → (⟨S100000, .f32⟩ : BufTy).Contents (Elt F)),
    StableHlo.unary main_arg1 main_v2 (broadcastInDim S1600000x1 ![0] bcast_S1600000_S1600000x1_0 : (⟨S1600000, .i32⟩ : BufTy).Contents (Elt F) → (⟨S1600000x1, .i32⟩ : BufTy).Contents (Elt F)),
    StableHlo.ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x00000000#32),
    StableHlo.unary main_cst_1 main_v4 (broadcastInDim S100000 ![] bcast_S_S100000 : (⟨S_, .f32⟩ : BufTy).Contents (Elt F) → (⟨S100000, .f32⟩ : BufTy).Contents (Elt F)),
    StableHlo.unary main_arg2 main_v5 (broadcastInDim S1600000x1 ![0] bcast_S1600000_S1600000x1_0 : (⟨S1600000, .i32⟩ : BufTy).Contents (Elt F) → (⟨S1600000x1, .i32⟩ : BufTy).Contents (Elt F)),
    StableHlo.ternary main_v4 main_v5 main_v0 main_v6 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_2 (constant S_ .f32 0x3F800000#32),
    StableHlo.unary main_cst_2 main_v7 (broadcastInDim S100000 ![] bcast_S_S100000 : (⟨S_, .f32⟩ : BufTy).Contents (Elt F) → (⟨S100000, .f32⟩ : BufTy).Contents (Elt F)),
    StableHlo.binary main_v3 main_v7 main_v8 (cmpf .olt : (⟨S100000, .f32⟩ : BufTy).Contents (Elt F) → (⟨S100000, .f32⟩ : BufTy).Contents (Elt F) → (⟨S100000, .i1⟩ : BufTy).Contents (Elt F)),
    StableHlo.nullary main_cst_3 (constant S_ .f32 0x3F800000#32),
    StableHlo.TRef.unary (.of main_cst_3 : StableHlo.TRef sig ⟨S_, .f32⟩) main_call0.v0 id,
    StableHlo.TRef.unary main_call0.v0 main_call0.v1 (broadcastInDim S100000 ![] bcast_S_S100000),
    StableHlo.TRef.ternary (.of main_v8 : StableHlo.TRef sig ⟨S100000, .i1⟩) main_call0.v1 (.of main_v3 : StableHlo.TRef sig ⟨S100000, .f32⟩) main_call0.v2 select,
    StableHlo.nullary main_cst_4 (constant S_ .f32 0xBF000000#32),
    StableHlo.unary main_cst_4 main_v10 (broadcastInDim S100000 ![] bcast_S_S100000 : (⟨S_, .f32⟩ : BufTy).Contents (Elt F) → (⟨S100000, .f32⟩ : BufTy).Contents (Elt F)),
    StableHlo.binary main_v9 main_v10 main_v11 (Host.powf : (⟨S100000, .f32⟩ : BufTy).Contents (Elt F) → (⟨S100000, .f32⟩ : BufTy).Contents (Elt F) → (⟨S100000, .f32⟩ : BufTy).Contents (Elt F)),
    StableHlo.nullary main_cst_5 (constant S_ .f32 0x3F800000#32),
    StableHlo.unary main_cst_5 main_v12 (broadcastInDim S100000 ![] bcast_S_S100000 : (⟨S_, .f32⟩ : BufTy).Contents (Elt F) → (⟨S100000, .f32⟩ : BufTy).Contents (Elt F)),
    StableHlo.binary main_v6 main_v12 main_v13 (cmpf .olt : (⟨S100000, .f32⟩ : BufTy).Contents (Elt F) → (⟨S100000, .f32⟩ : BufTy).Contents (Elt F) → (⟨S100000, .i1⟩ : BufTy).Contents (Elt F)),
    StableHlo.nullary main_cst_6 (constant S_ .f32 0x3F800000#32),
    StableHlo.TRef.unary (.of main_cst_6 : StableHlo.TRef sig ⟨S_, .f32⟩) main_call1.v0 id,
    StableHlo.TRef.unary main_call1.v0 main_call1.v1 (broadcastInDim S100000 ![] bcast_S_S100000),
    StableHlo.TRef.ternary (.of main_v13 : StableHlo.TRef sig ⟨S100000, .i1⟩) main_call1.v1 (.of main_v6 : StableHlo.TRef sig ⟨S100000, .f32⟩) main_call1.v2 select,
    StableHlo.nullary main_cst_7 (constant S_ .f32 0xBF000000#32),
    StableHlo.unary main_cst_7 main_v15 (broadcastInDim S100000 ![] bcast_S_S100000 : (⟨S_, .f32⟩ : BufTy).Contents (Elt F) → (⟨S100000, .f32⟩ : BufTy).Contents (Elt F)),
    StableHlo.binary main_v14 main_v15 main_v16 (Host.powf : (⟨S100000, .f32⟩ : BufTy).Contents (Elt F) → (⟨S100000, .f32⟩ : BufTy).Contents (Elt F) → (⟨S100000, .f32⟩ : BufTy).Contents (Elt F)) ]

/-- Operations 31 … 67 of 207 — first graph convolution: the feature product, the source-side scaling, the gather along the edges, the scatter-add at the destinations, the destination-side scaling and the bias. -/
abbrev opsB1 : List (HloOp τ sig (Elt F)) :=
  [ StableHlo.binary main_arg0 main_arg3 main_v17 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v11 main_v18 (broadcastInDim S100000x1 ![0] bcast_S100000_S100000x1_0 : (⟨S100000, .f32⟩ : BufTy).Contents (Elt F) → (⟨S100000x1, .f32⟩ : BufTy).Contents (Elt F)),
    StableHlo.unary main_v18 main_v19 (broadcastInDim S100000x128 ![0, 1] bcast_S100000x1_S100000x128_0_1 : (⟨S100000x1, .f32⟩ : BufTy).Contents (Elt F) → (⟨S100000x128, .f32⟩ : BufTy).Contents (Elt F)),
    StableHlo.binary main_v17 main_v19 main_v20 (mulf : (⟨S100000x128, .f32⟩ : BufTy).Contents (Elt F) → (⟨S100000x128, .f32⟩ : BufTy).Contents (Elt F) → (⟨S100000x128, .f32⟩ : BufTy).Contents (Elt F)),
    StableHlo.TRef.nullary main_call2.c (constantI S_ 32 0#32),
    StableHlo.TRef.unary main_call2.c main_call2.v0 (broadcastInDim S1600000 ![] bcast_S_S1600000),
    StableHlo.TRef.binary (.of main_arg1 : StableHlo.TRef sig ⟨S1600000, .i32⟩) main_call2.v0 main_call2.v1 (cmpi .slt),
    StableHlo.TRef.nullary main_call2.c_0 (constantI S_ 32 100000#32),
    StableHlo.TRef.unary main_call2.c_0 main_call2.v2 (broadcastInDim S1600000 ![] bcast_S_S1600000),
    StableHlo.TRef.binary (.of main_arg1 : StableHlo.TRef sig ⟨S1600000, .i32⟩) main_call2.v2 main_call2.v3 addi,
    StableHlo.TRef.ternary main_call2.v1 main_call2.v3 (.of main_arg1 : StableHlo.TRef sig ⟨S1600000, .i32⟩) main_call2.call0.v0 select,
    StableHlo.TRef.unary main_call2.call0.v0 main_call2.v5 (broadcastInDim S1600000x1 ![0] bcast_S1600000_S1600000x1_0),
    StableHlo.TRef.nullary main_call2.c_1 (constantI S1 32 99999#32),
    StableHlo.TRef.nullary main_call2.c_2 (constantI S_ 32 0#32),
    StableHlo.TRef.unary main_call2.c_2 main_call2.v6 (broadcastInDim S1600000x1 ![] bcast_S_S1600000x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S1600000x1 ![0, 1] bcast_S1x1_S1600000x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S1600000x1_S1600000_d1 h_S_),
    StableHlo.TRef.binary (.of main_v20 : StableHlo.TRef sig ⟨S100000x128, .f32⟩) main_call2.v5 main_call2.v13 (fun x i => Host.gather gather_S100000x128_S1600000x1_S1600000x128_1_0_n_n_0_1_1128 x i),
    StableHlo.TRef.unary main_call2.v12 main_call2.v14 (broadcastInDim S1600000x128 ![0] bcast_S1600000_S1600000x128_0),
    StableHlo.TRef.nullary main_call2.cst (constant S_ .f32 0x7FC00000#32),
    StableHlo.TRef.unary main_call2.cst main_call2.v15 (broadcastInDim S1600000x128 ![] bcast_S_S1600000x128),
    StableHlo.TRef.ternary main_call2.v14 main_call2.v13 main_call2.v15 main_call2.v16 select,
    StableHlo.nullary main_cst_8 (constant S_ .f32 0x00000000#32),
    StableHlo.unary main_cst_8 main_v22 (broadcastInDim S100000x128 ![] bcast_S_S100000x128 : (⟨S_, .f32⟩ : BufTy).Contents (Elt F) → (⟨S100000x128, .f32⟩ : BufTy).Contents (Elt F)),
    StableHlo.unary main_arg2 main_v23 (broadcastInDim S1600000x1 ![0] bcast_S1600000_S1600000x1_0 : (⟨S1600000, .i32⟩ : BufTy).Contents (Elt F) → (⟨S1600000x1, .i32⟩ : BufTy).Contents (Elt F)),
    StableHlo.ternary main_v22 main_v23 main_v21 main_v24 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v16 main_v25 (broadcastInDim S100000x1 ![0] bcast_S100000_S100000x1_0 : (⟨S100000, .f32⟩ : BufTy).Contents (Elt F) → (⟨S100000x1, .f32⟩ : BufTy).Contents (Elt F)),
    StableHlo.unary main_v25 main_v26 (broadcastInDim S100000x128 ![0, 1] bcast_S100000x1_S100000x128_0_1 : (⟨S100000x1, .f32⟩ : BufTy).Contents (Elt F) → (⟨S100000x128, .f32⟩ : BufTy).Contents (Elt F)),
    StableHlo.binary main_v24 main_v26 main_v27 (mulf : (⟨S100000x128, .f32⟩ : BufTy).Contents (Elt F) → (⟨S100000x128, .f32⟩ : BufTy).Contents (Elt F) → (⟨S100000x128, .f32⟩ : BufTy).Contents (Elt F)),
    StableHlo.unary main_arg4 main_v28 (broadcastInDim S1x128 ![1] bcast_S128_S1x128_1 : (⟨S128, .f32⟩ : BufTy).Contents (Elt F) → (⟨S1x128, .f32⟩ : BufTy).Contents (Elt F)),
    StableHlo.unary main_v28 main_v29 (broadcastInDim S100000x128 ![0, 1] bcast_S1x128_S100000x128_0_1 : (⟨S1x128, .f32⟩ : BufTy).Contents (Elt F) → (⟨S100000x128, .f32⟩ : BufTy).Contents (Elt F)),
    StableHlo.binary main_v27 main_v29 main_v30 (addf : (⟨S100000x128, .f32⟩ : BufTy).Contents (Elt F) → (⟨S100000x128, .f32⟩ : BufTy).Contents (Elt F) → (⟨S100000x128, .f32⟩ : BufTy).Contents (Elt F)) ]

/-- Operations 68 … 86 of 207 — first batch normalisation, first half: the column means, the centred squares and their means, the centred values and the constant ε. -/
abbrev opsC1a : List (HloOp τ sig (Elt F)) :=
  [ StableHlo.nullary main_cst_9 (constant S_ .f32 0x00000000#32),
    StableHlo.binary main_v30 main_cst_9 main_v31 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_10 (constant S_ .f32 0x47C35000#32),
    StableHlo.unary main_cst_10 main_v32 (broadcastInDim S128 ![] bcast_S_S128 : (⟨S_, .f32⟩ : BufTy).Contents (Elt F) → (⟨S128, .f32⟩ : BufTy).Contents (Elt F)),
    StableHlo.binary main_v31 main_v32 main_v33 (Host.divf : (⟨S128, .f32⟩ : BufTy).Contents (Elt F) → (⟨S128, .f32⟩ : BufTy).Contents (Elt F) → (⟨S128, .f32⟩ : BufTy).Contents (Elt F)),
    StableHlo.unary main_v33 main_v34 (broadcastInDim S1x128 ![1] bcast_S128_S1x128_1 : (⟨S128, .f32⟩ : BufTy).Contents (Elt F) → (⟨S1x128, .f32⟩ : BufTy).Contents (Elt F)),
    StableHlo.unary main_v34 main_v35 (broadcastInDim S100000x128 ![0, 1] bcast_S1x128_S100000x128_0_1 : (⟨S1x128, .f32⟩ : BufTy).Contents (Elt F) → (⟨S100000x128, .f32⟩ : BufTy).Contents (Elt F)),
    StableHlo.binary main_v30 main_v35 main_v36 (subf : (⟨S100000x128, .f32⟩ : BufTy).Contents (Elt F) → (⟨S100000x128, .f32⟩ : BufTy).Contents (Elt F) → (⟨S100000x128, .f32⟩ : BufTy).Contents (Elt F)),
    StableHlo.binary main_v36 main_v36 main_v37 (mulf : (⟨S100000x128, .f32⟩ : BufTy).Contents (Elt F) → (⟨S100000x128, .f32⟩ : BufTy).Contents (Elt F) → (⟨S100000x128, .f32⟩ : BufTy).Contents (Elt F)),
    StableHlo.nullary main_cst_11 (constant S_ .f32 0x00000000#32),
    StableHlo.binary main_v37 main_cst_11 main_v38 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_12 (constant S_ .f32 0x47C35000#32),
    StableHlo.unary main_cst_12 main_v39 (broadcastInDim S128 ![] bcast_S_S128 : (⟨S_, .f32⟩ : BufTy).Contents (Elt F) → (⟨S128, .f32⟩ : BufTy).Contents (Elt F)),
    StableHlo.binary main_v38 main_v39 main_v40 (Host.divf : (⟨S128, .f32⟩ : BufTy).Contents (Elt F) → (⟨S128, .f32⟩ : BufTy).Contents (Elt F) → (⟨S128, .f32⟩ : BufTy).Contents (Elt F)),
    StableHlo.unary main_v33 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S100000x128 ![0, 1] bcast_S1x128_S100000x128_0_1 : (⟨S1x128, .f32⟩ : BufTy).Contents (Elt F) → (⟨S100000x128, .f32⟩ : BufTy).Contents (Elt F)),
    StableHlo.binary main_v30 main_v42 main_v43 (subf : (⟨S100000x128, .f32⟩ : BufTy).Contents (Elt F) → (⟨S100000x128, .f32⟩ : BufTy).Contents (Elt F) → (⟨S100000x128, .f32⟩ : BufTy).Contents (Elt F)),
    StableHlo.nullary main_cst_13 (constant S_ .f32 0x3727C5AC#32),
    StableHlo.unary main_cst_13 main_v44 (broadcastInDim S128 ![] bcast_S_S128 : (⟨S_, .f32⟩ : BufTy).Contents (Elt F) → (⟨S128, .f32⟩ : BufTy).Contents (Elt F)) ]

/-- Operations 87 … 100 of 207 — first batch normalisation, second half: the reciprocal square root of variance plus ε, scale, shift, and the maximum with zero. -/
abbrev opsC1b : List (HloOp τ sig (Elt F)) :=
  [ StableHlo.binary main_v40 main_v44 main_v45 (addf : (⟨S128, .f32⟩ : BufTy).Contents (Elt F) → (⟨S128, .f32⟩ : BufTy).Contents (Elt F) → (⟨S128, .f32⟩ : BufTy).Contents (Elt F)),
    StableHlo.unary main_v45 main_v46 (Host.rsqrt : (⟨S128, .f32⟩ : BufTy).Contents (Elt F) → (⟨S128, .f32⟩ : BufTy).Contents (Elt F)),
    StableHlo.unary main_v46 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S100000x128 ![0, 1] bcast_S1x128_S100000x128_0_1 : (⟨S1x128, .f32⟩ : BufTy).Contents (Elt F) → (⟨S100000x128, .f32⟩ : BufTy).Contents (Elt F)),
    StableHlo.binary main_v43 main_v48 main_v49 (mulf : (⟨S100000x128, .f32⟩ : BufTy).Contents (Elt F) → (⟨S100000x128, .f32⟩ : BufTy).Contents (Elt F) → (⟨S100000x128, .f32⟩ : BufTy).Contents (Elt F)),
    StableHlo.unary main_arg5 main_v50 (broadcastInDim S1x128 ![1] bcast_S128_S1x128_1 : (⟨S128, .f32⟩ : BufTy).Contents (Elt F) → (⟨S1x128, .f32⟩ : BufTy).Contents (Elt F)),
    StableHlo.unary main_v50 main_v51 (broadcastInDim S100000x128 ![0, 1] bcast_S1x128_S100000x128_0_1 : (⟨S1x128, .f32⟩ : BufTy).Contents (Elt F) → (⟨S100000x128, .f32⟩ : BufTy).Contents (Elt F)),
    StableHlo.binary main_v49 main_v51 main_v52 (mulf : (⟨S100000x128, .f32⟩ : BufTy).Contents (Elt F) → (⟨S100000x128, .f32⟩ : BufTy).Contents (Elt F) → (⟨S100000x128, .f32⟩ : BufTy).Contents (Elt F)),
    StableHlo.unary main_arg6 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S100000x128 ![0, 1] bcast_S1x128_S100000x128_0_1 : (⟨S1x128, .f32⟩ : BufTy).Contents (Elt F) → (⟨S100000x128, .f32⟩ : BufTy).Contents (Elt F)),
    StableHlo.binary main_v52 main_v54 main_v55 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v55 : StableHlo.TRef sig ⟨S100000x128, .f32⟩) main_call3.v0 main_call3.v1 maximumf ]

/-- Operations 101 … 137 of 207 — second graph convolution. -/
abbrev opsB2 : List (HloOp τ sig (Elt F)) :=
  [ StableHlo.binary main_v56 main_arg7 main_v57 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v11 main_v58 (broadcastInDim S100000x1 ![0] bcast_S100000_S100000x1_0 : (⟨S100000, .f32⟩ : BufTy).Contents (Elt F) → (⟨S100000x1, .f32⟩ : BufTy).Contents (Elt F)),
    StableHlo.unary main_v58 main_v59 (broadcastInDim S100000x128 ![0, 1] bcast_S100000x1_S100000x128_0_1 : (⟨S100000x1, .f32⟩ : BufTy).Contents (Elt F) → (⟨S100000x128, .f32⟩ : BufTy).Contents (Elt F)),
    StableHlo.binary main_v57 main_v59 main_v60 (mulf : (⟨S100000x128, .f32⟩ : BufTy).Contents (Elt F) → (⟨S100000x128, .f32⟩ : BufTy).Contents (Elt F) → (⟨S100000x128, .f32⟩ : BufTy).Contents (Elt F)),
    StableHlo.TRef.nullary main_call4.c (constantI S_ 32 0#32),
    StableHlo.TRef.unary main_call4.c main_call4.v0 (broadcastInDim S1600000 ![] bcast_S_S1600000),
    StableHlo.TRef.binary (.of main_arg1 : StableHlo.TRef sig ⟨S1600000, .i32⟩) main_call4.v0 main_call4.v1 (cmpi .slt),
    StableHlo.TRef.nullary main_call4.c_0 (constantI S_ 32 100000#32),
    StableHlo.TRef.unary main_call4.c_0 main_call4.v2 (broadcastInDim S1600000 ![] bcast_S_S1600000),
    StableHlo.TRef.binary (.of main_arg1 : StableHlo.TRef sig ⟨S1600000, .i32⟩) main_call4.v2 main_call4.v3 addi,
    StableHlo.TRef.ternary main_call4.v1 main_call4.v3 (.of main_arg1 : StableHlo.TRef sig ⟨S1600000, .i32⟩) main_call4.call0.v0 select,
    StableHlo.TRef.unary main_call4.call0.v0 main_call4.v5 (broadcastInDim S1600000x1 ![0] bcast_S1600000_S1600000x1_0),
    StableHlo.TRef.nullary main_call4.c_1 (constantI S1 32 99999#32),
    StableHlo.TRef.nullary main_call4.c_2 (constantI S_ 32 0#32),
    StableHlo.TRef.unary main_call4.c_2 main_call4.v6 (broadcastInDim S1600000x1 ![] bcast_S_S1600000x1),
    StableHlo.TRef.binary main_call4.v5 main_call4.v6 main_call4.v7 (cmpi .sge),
    StableHlo.TRef.unary main_call4.c_1 main_call4.v8 (broadcastInDim S1x1 ![1] bcast_S1_S1x1_1),
    StableHlo.TRef.unary main_call4.v8 main_call4.v9 (broadcastInDim S1600000x1 ![0, 1] bcast_S1x1_S1600000x1_0_1),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S1600000x1_S1600000_d1 h_S_),
    StableHlo.TRef.binary (.of main_v60 : StableHlo.TRef sig ⟨S100000x128, .f32⟩) main_call4.v5 main_call4.v13 (fun x i => Host.gather gather_S100000x128_S1600000x1_S1600000x128_1_0_n_n_0_1_1128 x i),
    StableHlo.TRef.unary main_call4.v12 main_call4.v14 (broadcastInDim S1600000x128 ![0] bcast_S1600000_S1600000x128_0),
    StableHlo.TRef.nullary main_call4.cst (constant S_ .f32 0x7FC00000#32),
    StableHlo.TRef.unary main_call4.cst main_call4.v15 (broadcastInDim S1600000x128 ![] bcast_S_S1600000x128),
    StableHlo.TRef.ternary main_call4.v14 main_call4.v13 main_call4.v15 main_call4.v16 select,
    StableHlo.nullary main_cst_14 (constant S_ .f32 0x00000000#32),
    StableHlo.unary main_cst_14 main_v62 (broadcastInDim S100000x128 ![] bcast_S_S100000x128 : (⟨S_, .f32⟩ : BufTy).Contents (Elt F) → (⟨S100000x128, .f32⟩ : BufTy).Contents (Elt F)),
    StableHlo.unary main_arg2 main_v63 (broadcastInDim S1600000x1 ![0] bcast_S1600000_S1600000x1_0 : (⟨S1600000, .i32⟩ : BufTy).Contents (Elt F) → (⟨S1600000x1, .i32⟩ : BufTy).Contents (Elt F)),
    StableHlo.ternary main_v62 main_v63 main_v61 main_v64 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v16 main_v65 (broadcastInDim S100000x1 ![0] bcast_S100000_S100000x1_0 : (⟨S100000, .f32⟩ : BufTy).Contents (Elt F) → (⟨S100000x1, .f32⟩ : BufTy).Contents (Elt F)),
    StableHlo.unary main_v65 main_v66 (broadcastInDim S100000x128 ![0, 1] bcast_S100000x1_S100000x128_0_1 : (⟨S100000x1, .f32⟩ : BufTy).Contents (Elt F) → (⟨S100000x128, .f32⟩ : BufTy).Contents (Elt F)),
    StableHlo.binary main_v64 main_v66 main_v67 (mulf : (⟨S100000x128, .f32⟩ : BufTy).Contents (Elt F) → (⟨S100000x128, .f32⟩ : BufTy).Contents (Elt F) → (⟨S100000x128, .f32⟩ : BufTy).Contents (Elt F)),
    StableHlo.unary main_arg8 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S100000x128 ![0, 1] bcast_S1x128_S100000x128_0_1 : (⟨S1x128, .f32⟩ : BufTy).Contents (Elt F) → (⟨S100000x128, .f32⟩ : BufTy).Contents (Elt F)),
    StableHlo.binary main_v67 main_v69 main_v70 (addf : (⟨S100000x128, .f32⟩ : BufTy).Contents (Elt F) → (⟨S100000x128, .f32⟩ : BufTy).Contents (Elt F) → (⟨S100000x128, .f32⟩ : BufTy).Contents (Elt F)) ]

/-- Operations 138 … 170 of 207 — second batch normalisation and the maximum with zero. -/
abbrev opsC2 : List (HloOp τ sig (Elt F)) :=
  [ StableHlo.nullary main_cst_15 (constant S_ .f32 0x00000000#32),
    StableHlo.binary main_v70 main_cst_15 main_v71 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_16 (constant S_ .f32 0x47C35000#32),
    StableHlo.unary main_cst_16 main_v72 (broadcastInDim S128 ![] bcast_S_S128 : (⟨S_, .f32⟩ : BufTy).Contents (Elt F) → (⟨S128, .f32⟩ : BufTy).Contents (Elt F)),
    StableHlo.binary main_v71 main_v72 main_v73 (Host.divf : (⟨S128, .f32⟩ : BufTy).Contents (Elt F) → (⟨S128, .f32⟩ : BufTy).Contents (Elt F) → (⟨S128, .f32⟩ : BufTy).Contents (Elt F)),
    StableHlo.unary main_v73 main_v74 (broadcastInDim S1x128 ![1] bcast_S128_S1x128_1 : (⟨S128, .f32⟩ : BufTy).Contents (Elt F) → (⟨S1x128, .f32⟩ : BufTy).Contents (Elt F)),
    StableHlo.unary main_v74 main_v75 (broadcastInDim S100000x128 ![0, 1] bcast_S1x128_S100000x128_0_1 : (⟨S1x128, .f32⟩ : BufTy).Contents (Elt F) → (⟨S100000x128, .f32⟩ : BufTy).Contents (Elt F)),
    StableHlo.binary main_v70 main_v75 main_v76 (subf : (⟨S100000x128, .f32⟩ : BufTy).Contents (Elt F) → (⟨S100000x128, .f32⟩ : BufTy).Contents (Elt F) → (⟨S100000x128, .f32⟩ : BufTy).Contents (Elt F)),
    StableHlo.binary main_v76 main_v76 main_v77 (mulf : (⟨S100000x128, .f32⟩ : BufTy).Contents (Elt F) → (⟨S100000x128, .f32⟩ : BufTy).Contents (Elt F) → (⟨S100000x128, .f32⟩ : BufTy).Contents (Elt F)),
    StableHlo.nullary main_cst_17 (constant S_ .f32 0x00000000#32),
    StableHlo.binary main_v77 main_cst_17 main_v78 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_18 (constant S_ .f32 0x47C35000#32),
    StableHlo.unary main_cst_18 main_v79 (broadcastInDim S128 ![] bcast_S_S128 : (⟨S_, .f32⟩ : BufTy).Contents (Elt F) → (⟨S128, .f32⟩ : BufTy).Contents (Elt F)),
    StableHlo.binary main_v78 main_v79 main_v80 (Host.divf : (⟨S128, .f32⟩ : BufTy).Contents (Elt F) → (⟨S128, .f32⟩ : BufTy).Contents (Elt F) → (⟨S128, .f32⟩ : BufTy).Contents (Elt F)),
    StableHlo.unary main_v73 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S100000x128 ![0, 1] bcast_S1x128_S100000x128_0_1 : (⟨S1x128, .f32⟩ : BufTy).Contents (Elt F) → (⟨S100000x128, .f32⟩ : BufTy).Contents (Elt F)),
    StableHlo.binary main_v70 main_v82 main_v83 (subf : (⟨S100000x128, .f32⟩ : BufTy).Contents (Elt F) → (⟨S100000x128, .f32⟩ : BufTy).Contents (Elt F) → (⟨S100000x128, .f32⟩ : BufTy).Contents (Elt F)),
    StableHlo.nullary main_cst_19 (constant S_ .f32 0x3727C5AC#32),
    StableHlo.unary main_cst_19 main_v84 (broadcastInDim S128 ![] bcast_S_S128 : (⟨S_, .f32⟩ : BufTy).Contents (Elt F) → (⟨S128, .f32⟩ : BufTy).Contents (Elt F)),
    StableHlo.binary main_v80 main_v84 main_v85 (addf : (⟨S128, .f32⟩ : BufTy).Contents (Elt F) → (⟨S128, .f32⟩ : BufTy).Contents (Elt F) → (⟨S128, .f32⟩ : BufTy).Contents (Elt F)),
    StableHlo.unary main_v85 main_v86 (Host.rsqrt : (⟨S128, .f32⟩ : BufTy).Contents (Elt F) → (⟨S128, .f32⟩ : BufTy).Contents (Elt F)),
    StableHlo.unary main_v86 main_v87 (broadcastInDim S1x128 ![1] bcast_S128_S1x128_1 : (⟨S128, .f32⟩ : BufTy).Contents (Elt F) → (⟨S1x128, .f32⟩ : BufTy).Contents (Elt F)),
    StableHlo.unary main_v87 main_v88 (broadcastInDim S100000x128 ![0, 1] bcast_S1x128_S100000x128_0_1 : (⟨S1x128, .f32⟩ : BufTy).Contents (Elt F) → (⟨S100000x128, .f32⟩ : BufTy).Contents (Elt F)),
    StableHlo.binary main_v83 main_v88 main_v89 (mulf : (⟨S100000x128, .f32⟩ : BufTy).Contents (Elt F) → (⟨S100000x128, .f32⟩ : BufTy).Contents (Elt F) → (⟨S100000x128, .f32⟩ : BufTy).Contents (Elt F)),
    StableHlo.unary main_arg9 main_v90 (broadcastInDim S1x128 ![1] bcast_S128_S1x128_1 : (⟨S128, .f32⟩ : BufTy).Contents (Elt F) → (⟨S1x128, .f32⟩ : BufTy).Contents (Elt F)),
    StableHlo.unary main_v90 main_v91 (broadcastInDim S100000x128 ![0, 1] bcast_S1x128_S100000x128_0_1 : (⟨S1x128, .f32⟩ : BufTy).Contents (Elt F) → (⟨S100000x128, .f32⟩ : BufTy).Contents (Elt F)),
    StableHlo.binary main_v89 main_v91 main_v92 (mulf : (⟨S100000x128, .f32⟩ : BufTy).Contents (Elt F) → (⟨S100000x128, .f32⟩ : BufTy).Contents (Elt F) → (⟨S100000x128, .f32⟩ : BufTy).Contents (Elt F)),
    StableHlo.unary main_arg10 main_v93 (broadcastInDim S1x128 ![1] bcast_S128_S1x128_1 : (⟨S128, .f32⟩ : BufTy).Contents (Elt F) → (⟨S1x128, .f32⟩ : BufTy).Contents (Elt F)),
    StableHlo.unary main_v93 main_v94 (broadcastInDim S100000x128 ![0, 1] bcast_S1x128_S100000x128_0_1 : (⟨S1x128, .f32⟩ : BufTy).Contents (Elt F) → (⟨S100000x128, .f32⟩ : BufTy).Contents (Elt F)),
    StableHlo.binary main_v92 main_v94 main_v95 (addf : (⟨S100000x128, .f32⟩ : BufTy).Contents (Elt F) → (⟨S100000x128, .f32⟩ : BufTy).Contents (Elt F) → (⟨S100000x128, .f32⟩ : BufTy).Contents (Elt F)),
    StableHlo.TRef.nullary main_call5.cst (constant S_ .f32 0x00000000#32),
    StableHlo.TRef.unary main_call5.cst main_call5.v0 (broadcastInDim S100000x128 ![] bcast_S_S100000x128),
    StableHlo.TRef.binary (.of main_v95 : StableHlo.TRef sig ⟨S100000x128, .f32⟩) main_call5.v0 main_call5.v1 maximumf ]

/-- Operations 171 … 172 of 207 — third graph convolution, its first two operations: the feature product and the source norm as a column. -/
abbrev opsB3a : List (HloOp τ sig (Elt F)) :=
  [ StableHlo.binary main_v96 main_arg11 main_v97 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    StableHlo.unary main_v11 main_v98 (broadcastInDim S100000x1 ![0] bcast_S100000_S100000x1_0 : (⟨S100000, .f32⟩ : BufTy).Contents (Elt F) → (⟨S100000x1, .f32⟩ : BufTy).Contents (Elt F)) ]

/-- Operations 173 … 207 of 207 — third graph convolution, the rest: source-side scaling, gather, scatter-add, destination-side scaling, bias. -/
abbrev opsB3b : List (HloOp τ sig (Elt F)) :=
  [ StableHlo.unary main_v98 main_v99 (broadcastInDim S100000x40 ![0, 1] bcast_S100000x1_S100000x40_0_1 : (⟨S100000x1, .f32⟩ : BufTy).Contents (Elt F) → (⟨S100000x40, .f32⟩ : BufTy).Contents (Elt F)),
    StableHlo.binary main_v97 main_v99 main_v100 (mulf : (⟨S100000x40, .f32⟩ : BufTy).Contents (Elt F) → (⟨S100000x40, .f32⟩ : BufTy).Contents (Elt F) → (⟨S100000x40, .f32⟩ : BufTy).Contents (Elt F)),
    StableHlo.TRef.nullary main_call6.c (constantI S_ 32 0#32),
    StableHlo.TRef.unary main_call6.c main_call6.v0 (broadcastInDim S1600000 ![] bcast_S_S1600000),
    StableHlo.TRef.binary (.of main_arg1 : StableHlo.TRef sig ⟨S1600000, .i32⟩) main_call6.v0 main_call6.v1 (cmpi .slt),
    StableHlo.TRef.nullary main_call6.c_0 (constantI S_ 32 100000#32),
    StableHlo.TRef.unary main_call6.c_0 main_call6.v2 (broadcastInDim S1600000 ![] bcast_S_S1600000),
    StableHlo.TRef.binary (.of main_arg1 : StableHlo.TRef sig ⟨S1600000, .i32⟩) main_call6.v2 main_call6.v3 addi,
    StableHlo.TRef.ternary main_call6.v1 main_call6.v3 (.of main_arg1 : StableHlo.TRef sig ⟨S1600000, .i32⟩) main_call6.call0.v0 select,
    StableHlo.TRef.unary main_call6.call0.v0 main_call6.v5 (broadcastInDim S1600000x1 ![0] bcast_S1600000_S1600000x1_0),
    StableHlo.TRef.nullary main_call6.c_1 (constantI S1 32 99999#32),
    StableHlo.TRef.nullary main_call6.c_2 (constantI S_ 32 0#32),
    StableHlo.TRef.unary main_call6.c_2 main_call6.v6 (broadcastInDim S1600000x1 ![] bcast_S_S1600000x1),
    StableHlo.TRef.binary main_call6.v5 main_call6.v6 main_call6.v7 (cmpi .sge),
    StableHlo.TRef.unary main_call6.c_1 main_call6.v8 (broadcastInDim S1x1 ![1] bcast_S1_S1x1_1),
    StableHlo.TRef.unary main_call6.v8 main_call6.v9 (broadcastInDim S1600000x1 ![0, 1] bcast_S1x1_S1600000x1_0_1),
    StableHlo.TRef.binary main_call6.v5 main_call6.v9 main_call6.v10 (cmpi .sle),
    StableHlo.TRef.binary main_call6.v7 main_call6.v10 main_call6.v11 andi,
    StableHlo.TRef.nullary main_call6.c_3 (constantI S_ 1 1#1),
    StableHlo.TRef.binary main_call6.v11 main_call6.c_3 main_call6.v12 (fun x v => Host.reduce IntOp.andi x v reducesTo_S1600000x1_S1600000_d1 h_S_),
    StableHlo.TRef.binary (.of main_v100 : StableHlo.TRef sig ⟨S100000x40, .f32⟩) main_call6.v5 main_call6.v13 (fun x i => Host.gather gather_S100000x40_S1600000x1_S1600000x40_1_0_n_n_0_1_140 x i),
    StableHlo.TRef.unary main_call6.v12 main_call6.v14 (broadcastInDim S1600000x40 ![0] bcast_S1600000_S1600000x40_0),
    StableHlo.TRef.nullary main_call6.cst (constant S_ .f32 0x7FC00000#32),
    StableHlo.TRef.unary main_call6.cst main_call6.v15 (broadcastInDim S1600000x40 ![] bcast_S_S1600000x40),
    StableHlo.TRef.ternary main_call6.v14 main_call6.v13 main_call6.v15 main_call6.v16 select,
    StableHlo.nullary main_cst_20 (constant S_ .f32 0x00000000#32),
    StableHlo.unary main_cst_20 main_v102 (broadcastInDim S100000x40 ![] bcast_S_S100000x40 : (⟨S_, .f32⟩ : BufTy).Contents (Elt F) → (⟨S100000x40, .f32⟩ : BufTy).Contents (Elt F)),
    StableHlo.unary main_arg2 main_v103 (broadcastInDim S1600000x1 ![0] bcast_S1600000_S1600000x1_0 : (⟨S1600000, .i32⟩ : BufTy).Contents (Elt F) → (⟨S1600000x1, .i32⟩ : BufTy).Contents (Elt F)),
    StableHlo.ternary main_v102 main_v103 main_v101 main_v104 ((fun x i u => Host.scatterAdd scatter_S100000x40_S1600000x1_S1600000x40_1_0_0_1 x i u) : (⟨S100000x40, .f32⟩ : BufTy).Contents (Elt F) → (⟨S1600000x1, .i32⟩ : BufTy).Contents (Elt F) → (⟨S1600000x40, .f32⟩ : BufTy).Contents (Elt F) → (⟨S100000x40, .f32⟩ : BufTy).Contents (Elt F)),
    StableHlo.unary main_v16 main_v105 (broadcastInDim S100000x1 ![0] bcast_S100000_S100000x1_0 : (⟨S100000, .f32⟩ : BufTy).Contents (Elt F) → (⟨S100000x1, .f32⟩ : BufTy).Contents (Elt F)),
    StableHlo.unary main_v105 main_v106 (broadcastInDim S100000x40 ![0, 1] bcast_S100000x1_S100000x40_0_1 : (⟨S100000x1, .f32⟩ : BufTy).Contents (Elt F) → (⟨S100000x40, .f32⟩ : BufTy).Contents (Elt F)),
    StableHlo.binary main_v104 main_v106 main_v107 (mulf : (⟨S100000x40, .f32⟩ : BufTy).Contents (Elt F) → (⟨S100000x40, .f32⟩ : BufTy).Contents (Elt F) → (⟨S100000x40, .f32⟩ : BufTy).Contents (Elt F)),
    StableHlo.unary main_arg12 main_v108 (broadcastInDim S1x40 ![1] bcast_S40_S1x40_1 : (⟨S40, .f32⟩ : BufTy).Contents (Elt F) → (⟨S1x40, .f32⟩ : BufTy).Contents (Elt F)),
    StableHlo.unary main_v108 main_v109 (broadcastInDim S100000x40 ![0, 1] bcast_S1x40_S100000x40_0_1 : (⟨S1x40, .f32⟩ : BufTy).Contents (Elt F) → (⟨S100000x40, .f32⟩ : BufTy).Contents (Elt F)),
    StableHlo.binary main_v107 main_v109 main_v110 (addf : (⟨S100000x40, .f32⟩ : BufTy).Contents (Elt F) → (⟨S100000x40, .f32⟩ : BufTy).Contents (Elt F) → (⟨S100000x40, .f32⟩ : BufTy).Contents (Elt F)) ]

/-- The whole program: the stretches in order. -/
abbrev ops : List (HloOp τ sig (Elt F)) :=
  opsA ++ (opsB1 ++ (opsC1a ++ (opsC1b ++ (opsB2 ++ (opsC2 ++ (opsB3a ++ opsB3b))))))

theorem opsA_sub : (opsA : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub ..⟩

theorem opsB1_sub : (opsB1 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., unary_bufs_sub .., unary_bufs_sub .., binary_bufs_sub .., unary_bufs_sub .., unary_bufs_sub .., binary_bufs_sub ..⟩

theorem opsC1a_sub : (opsC1a : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub ..⟩

theorem opsC1b_sub : (opsC1b : List (HloOp τ sig (Elt F))).Forall fun op => op.bufs ⊆ tcRefs τ sig :=
  ⟨binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem opsB2_sub : (opsB2 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., unary_bufs_sub .., unary_bufs_sub .., binary_bufs_sub .., unary_bufs_sub .., unary_bufs_sub .., binary_bufs_sub ..⟩

theorem opsC2_sub : (opsC2 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem opsB3a_sub : (opsB3a : List (HloOp τ sig (Elt F))).Forall fun op => op.bufs ⊆ tcRefs τ sig :=
  ⟨binary_bufs_sub .., unary_bufs_sub ..⟩

theorem opsB3b_sub : (opsB3b : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., unary_bufs_sub .., unary_bufs_sub .., binary_bufs_sub .., unary_bufs_sub .., unary_bufs_sub .., binary_bufs_sub ..⟩

end Cert.ReferenceIdeal.Hand

end
-- ==== Proof.RefRunMain.lean ====
import proofs.«107691_j23957327577190_1_alg».proof.Proof.RefRunOps

set_option synthInstance.maxSize 4096

noncomputable section

namespace Cert.ReferenceIdeal.Hand

open Cert.ReferenceIdeal Idealize.ShloMosaic Idealize.ShloMosaic.TcCoe Idealize.SL.Sem Idealize.ShloMosaic.StableHlo
open Facts₀ Facts

variable {F : FTy → Type} [FloatOps F] [Facts]

/-! The program is the straight line of its operations: each of the three printed windows is the line of its
stretches (the outlined functions unfolded at their calls, sequencing reassociated), and the whole is their
concatenation. Then the run: every buffer ends at the fold of the operations over the launch contents. -/

set_option maxRecDepth 8192 in
set_option maxHeartbeats 4000000 in
theorem main_part0_eq (c : Dev nD) : main_part0 (F := F) c = seq (opsA ++ (opsB1 ++ opsC1a)) := by
  simp only [main_part0, fn_where.body, fn_where_0.body, fn_take.body, seq, List.cons_append, List.nil_append,
    bind_assoc, pure_bind]
  rfl

set_option maxRecDepth 8192 in
set_option maxHeartbeats 4000000 in
theorem main_part1_eq (c : Dev nD) : main_part1 (F := F) c = seq (opsC1b ++ (opsB2 ++ (opsC2 ++ opsB3a))) := by
  simp only [main_part1, fn_relu.body, fn_where_0.body, fn_take.body, seq, List.cons_append, List.nil_append,
    bind_assoc, pure_bind]
  rfl

set_option maxRecDepth 8192 in
set_option maxHeartbeats 4000000 in
theorem main_part2_eq (c : Dev nD) : main_part2 (F := F) c = seq opsB3b := by
  simp only [main_part2, fn_where_0.body, fn_take_1.body, seq, bind_assoc, pure_bind]

theorem ops_split : (ops : List (HloOp τ sig (Elt F)))
    = (opsA ++ (opsB1 ++ opsC1a)) ++ ((opsC1b ++ (opsB2 ++ (opsC2 ++ opsB3a))) ++ opsB3b) := by
  simp only [ops, List.append_assoc]

theorem main_eq (c : Dev nD) : main (F := F) c = seq ops := by
  rw [ops_split, seq_append (opsA ++ (opsB1 ++ opsC1a)) _,
    seq_append (opsC1b ++ (opsB2 ++ (opsC2 ++ opsB3a))) opsB3b,
    ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h | h | h | h | h
    exacts [List.forall_iff_forall_mem.mp opsA_sub op h, List.forall_iff_forall_mem.mp opsB1_sub op h,
      List.forall_iff_forall_mem.mp opsC1a_sub op h, List.forall_iff_forall_mem.mp opsC1b_sub op h,
      List.forall_iff_forall_mem.mp opsB2_sub op h, List.forall_iff_forall_mem.mp opsC2_sub op h,
      List.forall_iff_forall_mem.mp opsB3a_sub op h, List.forall_iff_forall_mem.mp opsB3b_sub op h]

theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsB1_fresh : (opsB1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsC1a_fresh : (opsC1a : List (HloOp τ sig (Elt F))).Forall fun op => op.fresh = ∅ :=
  ⟨rfl, rfl, rfl, rfl, rfl, rfl, rfl, rfl, rfl, rfl, rfl, rfl, rfl, rfl, rfl, rfl, rfl, rfl, rfl⟩

theorem opsC1b_fresh : (opsC1b : List (HloOp τ sig (Elt F))).Forall fun op => op.fresh = ∅ :=
  ⟨rfl, rfl, rfl, rfl, rfl, rfl, rfl, rfl, rfl, rfl, rfl, rfl, rfl, rfl⟩

theorem opsB2_fresh : (opsB2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsC2_fresh : (opsC2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsB3a_fresh : (opsB3a : List (HloOp τ sig (Elt F))).Forall fun op => op.fresh = ∅ :=
  ⟨rfl, rfl⟩

theorem opsB3b_fresh : (opsB3b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_fresh : ∀ op ∈ (ops : List (HloOp τ sig (Elt F))), op.fresh = ∅ := fun op h => by
  simp only [ops, List.mem_append] at h
  rcases h with h | h | h | h | h | h | h | h
  exacts [List.forall_iff_forall_mem.mp opsA_fresh op h, List.forall_iff_forall_mem.mp opsB1_fresh op h,
    List.forall_iff_forall_mem.mp opsC1a_fresh op h, List.forall_iff_forall_mem.mp opsC1b_fresh op h,
    List.forall_iff_forall_mem.mp opsB2_fresh op h, List.forall_iff_forall_mem.mp opsC2_fresh op h,
    List.forall_iff_forall_mem.mp opsB3a_fresh op h, List.forall_iff_forall_mem.mp opsB3b_fresh op h]

/-- From any memory with zero counters every weakly fair execution of the program terminates, and each buffer of each
    device then holds the fold of the operations over that device's launch contents. -/
theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.Hand

end
-- ==== Proof.RefRunKeep.lean ====
import proofs.«107691_j23957327577190_1_alg».proof.Proof.RefRunMain

set_option synthInstance.maxSize 4096

noncomputable section

namespace Cert.ReferenceIdeal.Hand

open Cert.ReferenceIdeal Idealize.ShloMosaic Idealize.ShloMosaic.TcCoe Idealize.SL.Sem Idealize.ShloMosaic.StableHlo
open Facts₀ Facts

variable {F : FTy → Type} [FloatOps F] [Facts]

/-! Which buffers each stretch writes, and hence which it leaves alone: every operation writes exactly its result
buffer, so a buffer outside a stretch's list of results holds after the stretch what it held before. The thirteen
argument buffers are in no list: the whole program leaves them unchanged. -/

/-- An operation that writes one listed buffer writes inside the list. -/
theorem writes_sub_of_mem {Val : EltTy → Type} {op : HloOp τ sig Val} {y : Ref sig .tc} {W : List (Ref sig .tc)}
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

/-- Running two lists one after the other is running their concatenation. -/
theorem after_app {Val : EltTy → Type} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

/-- The buffers the stretch `opsA` writes, in order. -/
abbrev opsA_W : List (Ref sig .tc) :=
  [main_cst, main_v0, main_cst_0, main_v1, main_v2, main_v3, main_cst_1, main_v4, main_v5, main_v6, main_cst_2, main_v7, main_v8, main_cst_3, main_call0_v0, main_call0_v1, main_v9, main_cst_4, main_v10, main_v11, main_cst_5, main_v12, main_v13, main_cst_6, main_call1_v0, main_call1_v1, main_v14, main_cst_7, main_v15, main_v16]

theorem opsA_writes : (opsA : List (HloOp τ sig (Elt F))).Forall fun op =>
    op.writes ⊆ (opsA_W.map (Proc.devRef (τ := τ) .tc)).toFinset :=
  ⟨writes_sub_of_mem (y := main_cst) rfl (by decide),
    writes_sub_of_mem (y := main_v0) rfl (by decide),
    writes_sub_of_mem (y := main_cst_0) rfl (by decide),
    writes_sub_of_mem (y := main_v1) rfl (by decide),
    writes_sub_of_mem (y := main_v2) rfl (by decide),
    writes_sub_of_mem (y := main_v3) rfl (by decide),
    writes_sub_of_mem (y := main_cst_1) rfl (by decide),
    writes_sub_of_mem (y := main_v4) rfl (by decide),
    writes_sub_of_mem (y := main_v5) rfl (by decide),
    writes_sub_of_mem (y := main_v6) rfl (by decide),
    writes_sub_of_mem (y := main_cst_2) rfl (by decide),
    writes_sub_of_mem (y := main_v7) rfl (by decide),
    writes_sub_of_mem (y := main_v8) rfl (by decide),
    writes_sub_of_mem (y := main_cst_3) rfl (by decide),
    writes_sub_of_mem (y := main_call0_v0) rfl (by decide),
    writes_sub_of_mem (y := main_call0_v1) rfl (by decide),
    writes_sub_of_mem (y := main_v9) rfl (by decide),
    writes_sub_of_mem (y := main_cst_4) rfl (by decide),
    writes_sub_of_mem (y := main_v10) rfl (by decide),
    writes_sub_of_mem (y := main_v11) rfl (by decide),
    writes_sub_of_mem (y := main_cst_5) rfl (by decide),
    writes_sub_of_mem (y := main_v12) rfl (by decide),
    writes_sub_of_mem (y := main_v13) rfl (by decide),
    writes_sub_of_mem (y := main_cst_6) rfl (by decide),
    writes_sub_of_mem (y := main_call1_v0) rfl (by decide),
    writes_sub_of_mem (y := main_call1_v1) rfl (by decide),
    writes_sub_of_mem (y := main_v14) rfl (by decide),
    writes_sub_of_mem (y := main_cst_7) rfl (by decide),
    writes_sub_of_mem (y := main_v15) rfl (by decide),
    writes_sub_of_mem (y := main_v16) rfl (by decide)⟩

theorem opsA_keep (V : Valuation τ sig (Elt F)) (r : Ref sig .tc) (h : r ∉ opsA_W) :
    after opsA V (Proc.devRef .tc r) = V (Proc.devRef .tc r) :=
  after_of_writes_sub opsA V opsA_writes h

/-- The buffers the stretch `opsB1` writes, in order. -/
abbrev opsB1_W : List (Ref sig .tc) :=
  [main_v17, main_v18, main_v19, main_v20, main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v21, main_cst_8, main_v22, main_v23, main_v24, main_v25, main_v26, main_v27, main_v28, main_v29, main_v30]

theorem opsB1_writes : (opsB1 : List (HloOp τ sig (Elt F))).Forall fun op =>
    op.writes ⊆ (opsB1_W.map (Proc.devRef (τ := τ) .tc)).toFinset :=
  ⟨writes_sub_of_mem (y := main_v17) rfl (by decide),
    writes_sub_of_mem (y := main_v18) rfl (by decide),
    writes_sub_of_mem (y := main_v19) rfl (by decide),
    writes_sub_of_mem (y := main_v20) rfl (by decide),
    writes_sub_of_mem (y := main_call2_c) rfl (by decide),
    writes_sub_of_mem (y := main_call2_v0) rfl (by decide),
    writes_sub_of_mem (y := main_call2_v1) rfl (by decide),
    writes_sub_of_mem (y := main_call2_c_0) rfl (by decide),
    writes_sub_of_mem (y := main_call2_v2) rfl (by decide),
    writes_sub_of_mem (y := main_call2_v3) rfl (by decide),
    writes_sub_of_mem (y := main_call2_v4) rfl (by decide),
    writes_sub_of_mem (y := main_call2_v5) rfl (by decide),
    writes_sub_of_mem (y := main_call2_c_1) rfl (by decide),
    writes_sub_of_mem (y := main_call2_c_2) rfl (by decide),
    writes_sub_of_mem (y := main_call2_v6) rfl (by decide),
    writes_sub_of_mem (y := main_call2_v7) rfl (by decide),
    writes_sub_of_mem (y := main_call2_v8) rfl (by decide),
    writes_sub_of_mem (y := main_call2_v9) rfl (by decide),
    writes_sub_of_mem (y := main_call2_v10) rfl (by decide),
    writes_sub_of_mem (y := main_call2_v11) rfl (by decide),
    writes_sub_of_mem (y := main_call2_c_3) rfl (by decide),
    writes_sub_of_mem (y := main_call2_v12) rfl (by decide),
    writes_sub_of_mem (y := main_call2_v13) rfl (by decide),
    writes_sub_of_mem (y := main_call2_v14) rfl (by decide),
    writes_sub_of_mem (y := main_call2_cst) rfl (by decide),
    writes_sub_of_mem (y := main_call2_v15) rfl (by decide),
    writes_sub_of_mem (y := main_v21) rfl (by decide),
    writes_sub_of_mem (y := main_cst_8) rfl (by decide),
    writes_sub_of_mem (y := main_v22) rfl (by decide),
    writes_sub_of_mem (y := main_v23) rfl (by decide),
    writes_sub_of_mem (y := main_v24) rfl (by decide),
    writes_sub_of_mem (y := main_v25) rfl (by decide),
    writes_sub_of_mem (y := main_v26) rfl (by decide),
    writes_sub_of_mem (y := main_v27) rfl (by decide),
    writes_sub_of_mem (y := main_v28) rfl (by decide),
    writes_sub_of_mem (y := main_v29) rfl (by decide),
    writes_sub_of_mem (y := main_v30) rfl (by decide)⟩

theorem opsB1_keep (V : Valuation τ sig (Elt F)) (r : Ref sig .tc) (h : r ∉ opsB1_W) :
    after opsB1 V (Proc.devRef .tc r) = V (Proc.devRef .tc r) :=
  after_of_writes_sub opsB1 V opsB1_writes h

/-- The buffers the stretch `opsC1a` writes, in order. -/
abbrev opsC1a_W : List (Ref sig .tc) :=
  [main_cst_9, main_v31, main_cst_10, main_v32, main_v33, main_v34, main_v35, main_v36, main_v37, main_cst_11, main_v38, main_cst_12, main_v39, main_v40, main_v41, main_v42, main_v43, main_cst_13, main_v44]

theorem opsC1a_writes : (opsC1a : List (HloOp τ sig (Elt F))).Forall fun op =>
    op.writes ⊆ (opsC1a_W.map (Proc.devRef (τ := τ) .tc)).toFinset :=
  ⟨writes_sub_of_mem (y := main_cst_9) rfl (by decide),
    writes_sub_of_mem (y := main_v31) rfl (by decide),
    writes_sub_of_mem (y := main_cst_10) rfl (by decide),
    writes_sub_of_mem (y := main_v32) rfl (by decide),
    writes_sub_of_mem (y := main_v33) rfl (by decide),
    writes_sub_of_mem (y := main_v34) rfl (by decide),
    writes_sub_of_mem (y := main_v35) rfl (by decide),
    writes_sub_of_mem (y := main_v36) rfl (by decide),
    writes_sub_of_mem (y := main_v37) rfl (by decide),
    writes_sub_of_mem (y := main_cst_11) rfl (by decide),
    writes_sub_of_mem (y := main_v38) rfl (by decide),
    writes_sub_of_mem (y := main_cst_12) rfl (by decide),
    writes_sub_of_mem (y := main_v39) rfl (by decide),
    writes_sub_of_mem (y := main_v40) rfl (by decide),
    writes_sub_of_mem (y := main_v41) rfl (by decide),
    writes_sub_of_mem (y := main_v42) rfl (by decide),
    writes_sub_of_mem (y := main_v43) rfl (by decide),
    writes_sub_of_mem (y := main_cst_13) rfl (by decide),
    writes_sub_of_mem (y := main_v44) rfl (by decide)⟩

theorem opsC1a_keep (V : Valuation τ sig (Elt F)) (r : Ref sig .tc) (h : r ∉ opsC1a_W) :
    after opsC1a V (Proc.devRef .tc r) = V (Proc.devRef .tc r) :=
  after_of_writes_sub opsC1a V opsC1a_writes h

/-- The buffers the stretch `opsC1b` writes, in order. -/
abbrev opsC1b_W : List (Ref sig .tc) :=
  [main_v45, main_v46, main_v47, main_v48, main_v49, main_v50, main_v51, main_v52, main_v53, main_v54, main_v55, main_call3_cst, main_call3_v0, main_v56]

theorem opsC1b_writes : (opsC1b : List (HloOp τ sig (Elt F))).Forall fun op =>
    op.writes ⊆ (opsC1b_W.map (Proc.devRef (τ := τ) .tc)).toFinset :=
  ⟨writes_sub_of_mem (y := main_v45) rfl (by decide),
    writes_sub_of_mem (y := main_v46) rfl (by decide),
    writes_sub_of_mem (y := main_v47) rfl (by decide),
    writes_sub_of_mem (y := main_v48) rfl (by decide),
    writes_sub_of_mem (y := main_v49) rfl (by decide),
    writes_sub_of_mem (y := main_v50) rfl (by decide),
    writes_sub_of_mem (y := main_v51) rfl (by decide),
    writes_sub_of_mem (y := main_v52) rfl (by decide),
    writes_sub_of_mem (y := main_v53) rfl (by decide),
    writes_sub_of_mem (y := main_v54) rfl (by decide),
    writes_sub_of_mem (y := main_v55) rfl (by decide),
    writes_sub_of_mem (y := main_call3_cst) rfl (by decide),
    writes_sub_of_mem (y := main_call3_v0) rfl (by decide),
    writes_sub_of_mem (y := main_v56) rfl (by decide)⟩

theorem opsC1b_keep (V : Valuation τ sig (Elt F)) (r : Ref sig .tc) (h : r ∉ opsC1b_W) :
    after opsC1b V (Proc.devRef .tc r) = V (Proc.devRef .tc r) :=
  after_of_writes_sub opsC1b V opsC1b_writes h

/-- The buffers the stretch `opsB2` writes, in order. -/
abbrev opsB2_W : List (Ref sig .tc) :=
  [main_v57, main_v58, main_v59, main_v60, main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v61, main_cst_14, main_v62, main_v63, main_v64, main_v65, main_v66, main_v67, main_v68, main_v69, main_v70]

theorem opsB2_writes : (opsB2 : List (HloOp τ sig (Elt F))).Forall fun op =>
    op.writes ⊆ (opsB2_W.map (Proc.devRef (τ := τ) .tc)).toFinset :=
  ⟨writes_sub_of_mem (y := main_v57) rfl (by decide),
    writes_sub_of_mem (y := main_v58) rfl (by decide),
    writes_sub_of_mem (y := main_v59) rfl (by decide),
    writes_sub_of_mem (y := main_v60) rfl (by decide),
    writes_sub_of_mem (y := main_call4_c) rfl (by decide),
    writes_sub_of_mem (y := main_call4_v0) rfl (by decide),
    writes_sub_of_mem (y := main_call4_v1) rfl (by decide),
    writes_sub_of_mem (y := main_call4_c_0) rfl (by decide),
    writes_sub_of_mem (y := main_call4_v2) rfl (by decide),
    writes_sub_of_mem (y := main_call4_v3) rfl (by decide),
    writes_sub_of_mem (y := main_call4_v4) rfl (by decide),
    writes_sub_of_mem (y := main_call4_v5) rfl (by decide),
    writes_sub_of_mem (y := main_call4_c_1) rfl (by decide),
    writes_sub_of_mem (y := main_call4_c_2) rfl (by decide),
    writes_sub_of_mem (y := main_call4_v6) rfl (by decide),
    writes_sub_of_mem (y := main_call4_v7) rfl (by decide),
    writes_sub_of_mem (y := main_call4_v8) rfl (by decide),
    writes_sub_of_mem (y := main_call4_v9) rfl (by decide),
    writes_sub_of_mem (y := main_call4_v10) rfl (by decide),
    writes_sub_of_mem (y := main_call4_v11) rfl (by decide),
    writes_sub_of_mem (y := main_call4_c_3) rfl (by decide),
    writes_sub_of_mem (y := main_call4_v12) rfl (by decide),
    writes_sub_of_mem (y := main_call4_v13) rfl (by decide),
    writes_sub_of_mem (y := main_call4_v14) rfl (by decide),
    writes_sub_of_mem (y := main_call4_cst) rfl (by decide),
    writes_sub_of_mem (y := main_call4_v15) rfl (by decide),
    writes_sub_of_mem (y := main_v61) rfl (by decide),
    writes_sub_of_mem (y := main_cst_14) rfl (by decide),
    writes_sub_of_mem (y := main_v62) rfl (by decide),
    writes_sub_of_mem (y := main_v63) rfl (by decide),
    writes_sub_of_mem (y := main_v64) rfl (by decide),
    writes_sub_of_mem (y := main_v65) rfl (by decide),
    writes_sub_of_mem (y := main_v66) rfl (by decide),
    writes_sub_of_mem (y := main_v67) rfl (by decide),
    writes_sub_of_mem (y := main_v68) rfl (by decide),
    writes_sub_of_mem (y := main_v69) rfl (by decide),
    writes_sub_of_mem (y := main_v70) rfl (by decide)⟩

theorem opsB2_keep (V : Valuation τ sig (Elt F)) (r : Ref sig .tc) (h : r ∉ opsB2_W) :
    after opsB2 V (Proc.devRef .tc r) = V (Proc.devRef .tc r) :=
  after_of_writes_sub opsB2 V opsB2_writes h

/-- The buffers the stretch `opsC2` writes, in order. -/
abbrev opsC2_W : List (Ref sig .tc) :=
  [main_cst_15, main_v71, main_cst_16, main_v72, main_v73, main_v74, main_v75, main_v76, main_v77, main_cst_17, main_v78, main_cst_18, main_v79, main_v80, main_v81, main_v82, main_v83, main_cst_19, main_v84, main_v85, main_v86, main_v87, main_v88, main_v89, main_v90, main_v91, main_v92, main_v93, main_v94, main_v95, main_call5_cst, main_call5_v0, main_v96]

theorem opsC2_writes : (opsC2 : List (HloOp τ sig (Elt F))).Forall fun op =>
    op.writes ⊆ (opsC2_W.map (Proc.devRef (τ := τ) .tc)).toFinset :=
  ⟨writes_sub_of_mem (y := main_cst_15) rfl (by decide),
    writes_sub_of_mem (y := main_v71) rfl (by decide),
    writes_sub_of_mem (y := main_cst_16) rfl (by decide),
    writes_sub_of_mem (y := main_v72) rfl (by decide),
    writes_sub_of_mem (y := main_v73) rfl (by decide),
    writes_sub_of_mem (y := main_v74) rfl (by decide),
    writes_sub_of_mem (y := main_v75) rfl (by decide),
    writes_sub_of_mem (y := main_v76) rfl (by decide),
    writes_sub_of_mem (y := main_v77) rfl (by decide),
    writes_sub_of_mem (y := main_cst_17) rfl (by decide),
    writes_sub_of_mem (y := main_v78) rfl (by decide),
    writes_sub_of_mem (y := main_cst_18) rfl (by decide),
    writes_sub_of_mem (y := main_v79) rfl (by decide),
    writes_sub_of_mem (y := main_v80) rfl (by decide),
    writes_sub_of_mem (y := main_v81) rfl (by decide),
    writes_sub_of_mem (y := main_v82) rfl (by decide),
    writes_sub_of_mem (y := main_v83) rfl (by decide),
    writes_sub_of_mem (y := main_cst_19) rfl (by decide),
    writes_sub_of_mem (y := main_v84) rfl (by decide),
    writes_sub_of_mem (y := main_v85) rfl (by decide),
    writes_sub_of_mem (y := main_v86) rfl (by decide),
    writes_sub_of_mem (y := main_v87) rfl (by decide),
    writes_sub_of_mem (y := main_v88) rfl (by decide),
    writes_sub_of_mem (y := main_v89) rfl (by decide),
    writes_sub_of_mem (y := main_v90) rfl (by decide),
    writes_sub_of_mem (y := main_v91) rfl (by decide),
    writes_sub_of_mem (y := main_v92) rfl (by decide),
    writes_sub_of_mem (y := main_v93) rfl (by decide),
    writes_sub_of_mem (y := main_v94) rfl (by decide),
    writes_sub_of_mem (y := main_v95) rfl (by decide),
    writes_sub_of_mem (y := main_call5_cst) rfl (by decide),
    writes_sub_of_mem (y := main_call5_v0) rfl (by decide),
    writes_sub_of_mem (y := main_v96) rfl (by decide)⟩

theorem opsC2_keep (V : Valuation τ sig (Elt F)) (r : Ref sig .tc) (h : r ∉ opsC2_W) :
    after opsC2 V (Proc.devRef .tc r) = V (Proc.devRef .tc r) :=
  after_of_writes_sub opsC2 V opsC2_writes h

/-- The buffers the stretch `opsB3a` writes, in order. -/
abbrev opsB3a_W : List (Ref sig .tc) :=
  [main_v97, main_v98]

theorem opsB3a_writes : (opsB3a : List (HloOp τ sig (Elt F))).Forall fun op =>
    op.writes ⊆ (opsB3a_W.map (Proc.devRef (τ := τ) .tc)).toFinset :=
  ⟨writes_sub_of_mem (y := main_v97) rfl (by decide),
    writes_sub_of_mem (y := main_v98) rfl (by decide)⟩

theorem opsB3a_keep (V : Valuation τ sig (Elt F)) (r : Ref sig .tc) (h : r ∉ opsB3a_W) :
    after opsB3a V (Proc.devRef .tc r) = V (Proc.devRef .tc r) :=
  after_of_writes_sub opsB3a V opsB3a_writes h

/-- The buffers the stretch `opsB3b` writes, in order. -/
abbrev opsB3b_W : List (Ref sig .tc) :=
  [main_v99, main_v100, main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v101, main_cst_20, main_v102, main_v103, main_v104, main_v105, main_v106, main_v107, main_v108, main_v109, main_v110]

theorem opsB3b_writes : (opsB3b : List (HloOp τ sig (Elt F))).Forall fun op =>
    op.writes ⊆ (opsB3b_W.map (Proc.devRef (τ := τ) .tc)).toFinset :=
  ⟨writes_sub_of_mem (y := main_v99) rfl (by decide),
    writes_sub_of_mem (y := main_v100) rfl (by decide),
    writes_sub_of_mem (y := main_call6_c) rfl (by decide),
    writes_sub_of_mem (y := main_call6_v0) rfl (by decide),
    writes_sub_of_mem (y := main_call6_v1) rfl (by decide),
    writes_sub_of_mem (y := main_call6_c_0) rfl (by decide),
    writes_sub_of_mem (y := main_call6_v2) rfl (by decide),
    writes_sub_of_mem (y := main_call6_v3) rfl (by decide),
    writes_sub_of_mem (y := main_call6_v4) rfl (by decide),
    writes_sub_of_mem (y := main_call6_v5) rfl (by decide),
    writes_sub_of_mem (y := main_call6_c_1) rfl (by decide),
    writes_sub_of_mem (y := main_call6_c_2) rfl (by decide),
    writes_sub_of_mem (y := main_call6_v6) rfl (by decide),
    writes_sub_of_mem (y := main_call6_v7) rfl (by decide),
    writes_sub_of_mem (y := main_call6_v8) rfl (by decide),
    writes_sub_of_mem (y := main_call6_v9) rfl (by decide),
    writes_sub_of_mem (y := main_call6_v10) rfl (by decide),
    writes_sub_of_mem (y := main_call6_v11) rfl (by decide),
    writes_sub_of_mem (y := main_call6_c_3) rfl (by decide),
    writes_sub_of_mem (y := main_call6_v12) rfl (by decide),
    writes_sub_of_mem (y := main_call6_v13) rfl (by decide),
    writes_sub_of_mem (y := main_call6_v14) rfl (by decide),
    writes_sub_of_mem (y := main_call6_cst) rfl (by decide),
    writes_sub_of_mem (y := main_call6_v15) rfl (by decide),
    writes_sub_of_mem (y := main_v101) rfl (by decide),
    writes_sub_of_mem (y := main_cst_20) rfl (by decide),
    writes_sub_of_mem (y := main_v102) rfl (by decide),
    writes_sub_of_mem (y := main_v103) rfl (by decide),
    writes_sub_of_mem (y := main_v104) rfl (by decide),
    writes_sub_of_mem (y := main_v105) rfl (by decide),
    writes_sub_of_mem (y := main_v106) rfl (by decide),
    writes_sub_of_mem (y := main_v107) rfl (by decide),
    writes_sub_of_mem (y := main_v108) rfl (by decide),
    writes_sub_of_mem (y := main_v109) rfl (by decide),
    writes_sub_of_mem (y := main_v110) rfl (by decide)⟩

theorem opsB3b_keep (V : Valuation τ sig (Elt F)) (r : Ref sig .tc) (h : r ∉ opsB3b_W) :
    after opsB3b V (Proc.devRef .tc r) = V (Proc.devRef .tc r) :=
  after_of_writes_sub opsB3b V opsB3b_writes h

/-- The program's fold, stretch by stretch. -/
theorem after_ops (V : Valuation τ sig (Elt F)) :
    after ops V = after opsB3b (after opsB3a (after opsC2 (after opsB2 (after opsC1b (after opsC1a (after opsB1
      (after opsA V))))))) := by
  simp only [ops, after_app]

/-- A buffer no stretch writes keeps its contents through the program. -/
theorem ops_keep (V : Valuation τ sig (Elt F)) (r : Ref sig .tc) (hA : r ∉ opsA_W) (hB1 : r ∉ opsB1_W)
    (hC1a : r ∉ opsC1a_W) (hC1b : r ∉ opsC1b_W) (hB2 : r ∉ opsB2_W) (hC2 : r ∉ opsC2_W) (hB3a : r ∉ opsB3a_W)
    (hB3b : r ∉ opsB3b_W) : after ops V (Proc.devRef .tc r) = V (Proc.devRef .tc r) := by
  rw [after_ops, opsB3b_keep _ _ hB3b, opsB3a_keep _ _ hB3a, opsC2_keep _ _ hC2, opsB2_keep _ _ hB2,
    opsC1b_keep _ _ hC1b, opsC1a_keep _ _ hC1a, opsB1_keep _ _ hB1, opsA_keep _ _ hA]

theorem ops_arg0 (V : Valuation τ sig (Elt F)) :
    after ops V (Proc.devRef .tc main_arg0) = V (Proc.devRef .tc main_arg0) :=
  ops_keep V main_arg0 (by decide) (by decide) (by decide) (by decide) (by decide) (by decide) (by decide) (by decide)

theorem ops_arg1 (V : Valuation τ sig (Elt F)) :
    after ops V (Proc.devRef .tc main_arg1) = V (Proc.devRef .tc main_arg1) :=
  ops_keep V main_arg1 (by decide) (by decide) (by decide) (by decide) (by decide) (by decide) (by decide) (by decide)

theorem ops_arg2 (V : Valuation τ sig (Elt F)) :
    after ops V (Proc.devRef .tc main_arg2) = V (Proc.devRef .tc main_arg2) :=
  ops_keep V main_arg2 (by decide) (by decide) (by decide) (by decide) (by decide) (by decide) (by decide) (by decide)

theorem ops_arg3 (V : Valuation τ sig (Elt F)) :
    after ops V (Proc.devRef .tc main_arg3) = V (Proc.devRef .tc main_arg3) :=
  ops_keep V main_arg3 (by decide) (by decide) (by decide) (by decide) (by decide) (by decide) (by decide) (by decide)

theorem ops_arg4 (V : Valuation τ sig (Elt F)) :
    after ops V (Proc.devRef .tc main_arg4) = V (Proc.devRef .tc main_arg4) :=
  ops_keep V main_arg4 (by decide) (by decide) (by decide) (by decide) (by decide) (by decide) (by decide) (by decide)

theorem ops_arg5 (V : Valuation τ sig (Elt F)) :
    after ops V (Proc.devRef .tc main_arg5) = V (Proc.devRef .tc main_arg5) :=
  ops_keep V main_arg5 (by decide) (by decide) (by decide) (by decide) (by decide) (by decide) (by decide) (by decide)

theorem ops_arg6 (V : Valuation τ sig (Elt F)) :
    after ops V (Proc.devRef .tc main_arg6) = V (Proc.devRef .tc main_arg6) :=
  ops_keep V main_arg6 (by decide) (by decide) (by decide) (by decide) (by decide) (by decide) (by decide) (by decide)

theorem ops_arg7 (V : Valuation τ sig (Elt F)) :
    after ops V (Proc.devRef .tc main_arg7) = V (Proc.devRef .tc main_arg7) :=
  ops_keep V main_arg7 (by decide) (by decide) (by decide) (by decide) (by decide) (by decide) (by decide) (by decide)

theorem ops_arg8 (V : Valuation τ sig (Elt F)) :
    after ops V (Proc.devRef .tc main_arg8) = V (Proc.devRef .tc main_arg8) :=
  ops_keep V main_arg8 (by decide) (by decide) (by decide) (by decide) (by decide) (by decide) (by decide) (by decide)

theorem ops_arg9 (V : Valuation τ sig (Elt F)) :
    after ops V (Proc.devRef .tc main_arg9) = V (Proc.devRef .tc main_arg9) :=
  ops_keep V main_arg9 (by decide) (by decide) (by decide) (by decide) (by decide) (by decide) (by decide) (by decide)

theorem ops_arg10 (V : Valuation τ sig (Elt F)) :
    after ops V (Proc.devRef .tc main_arg10) = V (Proc.devRef .tc main_arg10) :=
  ops_keep V main_arg10 (by decide) (by decide) (by decide) (by decide) (by decide) (by decide) (by decide) (by decide)

theorem ops_arg11 (V : Valuation τ sig (Elt F)) :
    after ops V (Proc.devRef .tc main_arg11) = V (Proc.devRef .tc main_arg11) :=
  ops_keep V main_arg11 (by decide) (by decide) (by decide) (by decide) (by decide) (by decide) (by decide) (by decide)

theorem ops_arg12 (V : Valuation τ sig (Elt F)) :
    after ops V (Proc.devRef .tc main_arg12) = V (Proc.devRef .tc main_arg12) :=
  ops_keep V main_arg12 (by decide) (by decide) (by decide) (by decide) (by decide) (by decide) (by decide) (by decide)

/-- From any memory with zero counters every weakly fair execution of the program terminates; on each device the
    result buffer then holds the fold of the operations over the launch contents, and the thirteen argument buffers
    hold what they held at launch. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v110)
        = after ops (fun b => m (c, b)) (Proc.devRef .tc main_v110)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨h c main_v110,
      (h c main_arg0).trans (ops_arg0 _),
      (h c main_arg1).trans (ops_arg1 _),
      (h c main_arg2).trans (ops_arg2 _),
      (h c main_arg3).trans (ops_arg3 _),
      (h c main_arg4).trans (ops_arg4 _),
      (h c main_arg5).trans (ops_arg5 _),
      (h c main_arg6).trans (ops_arg6 _),
      (h c main_arg7).trans (ops_arg7 _),
      (h c main_arg8).trans (ops_arg8 _),
      (h c main_arg9).trans (ops_arg9 _),
      (h c main_arg10).trans (ops_arg10 _),
      (h c main_arg11).trans (ops_arg11 _),
      (h c main_arg12).trans (ops_arg12 _)⟩)
    (run_all m ρ)

end Cert.ReferenceIdeal.Hand

end
-- ==== Proof.Frames.lean ====
/-
  The three programs run to the end, fault nowhere and leave their argument arrays as launched.

  Each of the kernel's two programs (as printed, and read at the ideal instance) runs as its eight kernel regions among
  stretches of host operations; the run's post also names the result array, which a frame claim drops. The reference is
  a pure host program: its run is the operations' run.
-/
import proofs.«107691_j23957327577190_1_alg».proof.Defs
import proofs.«107691_j23957327577190_1_alg».proof.Proof.Gen.Kernel
import proofs.«107691_j23957327577190_1_alg».proof.Proof.Gen.KernelIdeal
import proofs.«107691_j23957327577190_1_alg».proof.Proof.Gen.ReferenceIdeal
import proofs.«107691_j23957327577190_1_alg».proof.Proof.Gen.Pre_finite_inputs
import proofs.«107691_j23957327577190_1_alg».proof.Proof.KernelRun
import proofs.«107691_j23957327577190_1_alg».proof.Proof.KernelIdealRun
import proofs.«107691_j23957327577190_1_alg».proof.Proof.RefRunKeep

noncomputable section

namespace Cert.Proof.Frames

open Idealize.ShloMosaic Idealize.SL.Sem

attribute [local instance] Cert.Kernel.Gen.facts Cert.KernelIdeal.Gen.facts Cert.ReferenceIdeal.Gen.facts Cert.Pre_finite_inputs.Gen.facts

theorem frame_p : Cert.frame_Kernel := fun m ρ _ =>
  (θ_run Cert.Kernel.defs _ _).mono (fun _ h c => (h c).2) (Cert.Kernel.Hand.run (F := Bits) m ρ)

theorem frame_pi : Cert.frame_KernelIdeal := fun m ρ _ =>
  (θ_run Cert.KernelIdeal.defs _ _).mono (fun _ h c => (h c).2) (Cert.KernelIdeal.Hand.run (F := Ideal) m ρ)

theorem frame_ri : Cert.frame_ReferenceIdeal := fun m ρ _ =>
  (θ_run Cert.ReferenceIdeal.defs _ _).mono (fun _ h c => (h c).2) (Cert.ReferenceIdeal.Hand.run (F := Ideal) m ρ)

end Cert.Proof.Frames

end
-- ==== Proof.KernelIdealHostDefs.lean ====
/-
  The plain array arithmetic between the kernel regions of the graph-convolution program, as functions of arrays.

  Between its kernel regions the program computes, on whole arrays:

    kDeg idx      the number of edges whose end (entry of idx) is each node: a scatter-add of ones into zeros
    kNorm idx     (max-like guard: a degree below 1 is replaced by 1) raised to the power −1/2, per node
    kTakeIdx src  the edge sources with negative entries wrapped by the number of nodes, as a column of start indices
    kTakeOk src   whether each wrapped source lies in 0 … 99999
    kTake h src   row src(e) of h for every edge e, or the fill value where the source is out of range
    kAgg h src dst  the sum, for every node v, of the rows taken at the edges whose destination is v
    kMeanRow s    s / 100000, entry by entry
    kInvRow s ss  1 / √(ss / 100000 − (s / 100000) · (s / 100000) + ε), entry by entry
    colOfVec v    a vector [n] kept as a column [n, 1];   rowOfVec v   a vector [n] kept as a row [1, n]

  Each is the composition, operation by operation and in the printed order, of the operations the program lists;
  every float constant is read at the extended reals.
-/
import proofs.«107691_j23957327577190_1_alg».proof.Proof.Gen.KernelIdeal
import Idealize.ShloMosaic.Lib.ValueIdx
import Idealize.ShloMosaic.Lib.ValueLayout

noncomputable section

namespace Cert.KernelIdeal.Hand

open Idealize.ShloMosaic Idealize.ShloMosaic.ValueIdx
open Cert.KernelIdeal Cert.KernelIdeal.Gen

/-! ### Vectors kept as columns and rows -/

/-- A vector [n] kept as a column [n, 1]. -/
def colOfVec {α : Type} {n : Nat} (v : (⟨1, ![n]⟩ : Shape).Idx → α) (h : (⟨1, ![n]⟩ : Shape).ShapeCasts ⟨2, ![n, 1]⟩) :
    (⟨2, ![n, 1]⟩ : Shape).Idx → α := shapeCast ⟨2, ![n, 1]⟩ v h

/-- A vector [n] kept as a row [1, n]. -/
def rowOfVec {α : Type} {n : Nat} (v : (⟨1, ![n]⟩ : Shape).Idx → α) (h : (⟨1, ![n]⟩ : Shape).ShapeCasts ⟨2, ![1, n]⟩) :
    (⟨2, ![1, n]⟩ : Shape).Idx → α := shapeCast ⟨2, ![1, n]⟩ v h

/-- A row [1, n] kept as a vector [n]. -/
def vecOfRow {α : Type} {n : Nat} (v : (⟨2, ![1, n]⟩ : Shape).Idx → α) (h : (⟨2, ![1, n]⟩ : Shape).ShapeCasts ⟨1, ![n]⟩) :
    (⟨1, ![n]⟩ : Shape).Idx → α := shapeCast ⟨1, ![n]⟩ v h

/-- Entry (p, 0) of the column is entry p of the vector. -/
theorem colOfVec_ix2 {α : Type} {n : Nat} (v : (⟨1, ![n]⟩ : Shape).Idx → α) (h : (⟨1, ![n]⟩ : Shape).ShapeCasts ⟨2, ![n, 1]⟩)
    (p : Fin n) (u : Fin 1) : colOfVec v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- Entry (0, q) of the row is entry q of the vector. -/
theorem rowOfVec_ix2 {α : Type} {n : Nat} (v : (⟨1, ![n]⟩ : Shape).Idx → α) (h : (⟨1, ![n]⟩ : Shape).ShapeCasts ⟨2, ![1, n]⟩)
    (u : Fin 1) (q : Fin n) : rowOfVec v h (ix2 u q) = v (ix1 q) :=
  shapeCast_a_1a_apply v h u q

/-- Entry q of the vector is entry (0, q) of the row. -/
theorem vecOfRow_ix1 {α : Type} {n : Nat} (v : (⟨2, ![1, n]⟩ : Shape).Idx → α) (h : (⟨2, ![1, n]⟩ : Shape).ShapeCasts ⟨1, ![n]⟩)
    (q : Fin n) : vecOfRow v h (ix1 q) = v (ix2 (0 : Fin 1) q) :=
  shapeCast_1a_a_apply v h q

/-! ### The degree normalisation -/

/-- The number of entries of idx equal to each node: ones scattered and added into zeros. -/
def kDeg (idx : IVec S1600000 32) : FVec Ideal S100000 .f32 :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 idx)
    (broadcastInDim S1600000 ![] bcast_S_S1600000 (constant (F := Ideal) S_ .f32 0x3F800000#32))

/-- Whether each degree is below 1. -/
def kDegLow (d : FVec Ideal S100000 .f32) : IVec S100000 1 :=
  cmpf .olt d (broadcastInDim S100000 ![] bcast_S_S100000 (constant (F := Ideal) S_ .f32 0x3F800000#32))

/-- A degree below 1 replaced by 1. -/
def kDegGuard (d : FVec Ideal S100000 .f32) : FVec Ideal S100000 .f32 :=
  select (kDegLow d) (broadcastInDim S100000 ![] bcast_S_S100000 (constant (F := Ideal) S_ .f32 0x3F800000#32)) d

/-- The guarded degree raised to the power −1/2. -/
def kNorm (idx : IVec S1600000 32) : FVec Ideal S100000 .f32 :=
  Host.powf (kDegGuard (kDeg idx)) (broadcastInDim S100000 ![] bcast_S_S100000 (constant (F := Ideal) S_ .f32 0xBF000000#32))

/-! ### Taking rows along the edges and adding them up per node -/

/-- The edge sources, a negative one wrapped by adding the number of nodes, as a column of start indices. -/
def kTakeIdx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Whether each wrapped source lies in 0 … 99999. -/
def kTakeOk (src : IVec S1600000 32) : IVec S1600000 1 :=
  Host.reduce IntOp.andi
    (andi (cmpi .sge (kTakeIdx src) (broadcastInDim S1600000x1 ![] bcast_S_S1600000x1 (constantI S_ 32 0#32)))
      (cmpi .sle (kTakeIdx src)
        (broadcastInDim S1600000x1 ![0, 1] bcast_S1x1_S1600000x1_0_1
          (broadcastInDim S1x1 ![1] bcast_S1_S1x1_1 (constantI S1 32 99999#32)))))
    (constantI S_ 1 1#1) reducesTo_S1600000x1_S1600000_d1 h_S_

/-- Row src(e) of h for every edge e; the fill value where the source is out of range. 128 features. -/
def kTake128 (h : FVec Ideal S100000x128 .f32) (src : IVec S1600000 32) : FVec Ideal S1600000x128 .f32 :=
  select (broadcastInDim S1600000x128 ![0] bcast_S1600000_S1600000x128_0 (kTakeOk src))
    (Host.gather gather_S100000x128_S1600000x1_S1600000x128_1_0_n_n_0_1_1128 h (kTakeIdx src))
    (broadcastInDim S1600000x128 ![] bcast_S_S1600000x128 (constant (F := Ideal) S_ .f32 0x7FC00000#32))

/-- The same with 40 features. -/
def kTake40 (h : FVec Ideal S100000x40 .f32) (src : IVec S1600000 32) : FVec Ideal S1600000x40 .f32 :=
  select (broadcastInDim S1600000x40 ![0] bcast_S1600000_S1600000x40_0 (kTakeOk src))
    (Host.gather gather_S100000x40_S1600000x1_S1600000x40_1_0_n_n_0_1_140 h (kTakeIdx src))
    (broadcastInDim S1600000x40 ![] bcast_S_S1600000x40 (constant (F := Ideal) S_ .f32 0x7FC00000#32))

/-- For every node, the sum of the rows u taken at the edges whose destination is the node. 128 features. -/
def kScat128 (u : FVec Ideal S1600000x128 .f32) (dst : IVec S1600000 32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst) u

/-- The same with 40 features. -/
def kScat40 (u : FVec Ideal S1600000x40 .f32) (dst : IVec S1600000 32) : FVec Ideal S100000x40 .f32 :=
  Host.scatterAdd scatter_S100000x40_S1600000x1_S1600000x40_1_0_0_1
    (broadcastInDim S100000x40 ![] bcast_S_S100000x40 (constant (F := Ideal) S_ .f32 0x00000000#32))
    (broadcastInDim S1600000x1 ![0] bcast_S1600000_S1600000x1_0 dst) u

/-- Neighbourhood aggregation: rows of h taken along the edge sources, added up per destination. 128 features. -/
def kAgg128 (h : FVec Ideal S100000x128 .f32) (src dst : IVec S1600000 32) : FVec Ideal S100000x128 .f32 :=
  kScat128 (kTake128 h src) dst

/-- The same with 40 features. -/
def kAgg40 (h : FVec Ideal S100000x40 .f32) (src dst : IVec S1600000 32) : FVec Ideal S100000x40 .f32 :=
  kScat40 (kTake40 h src) dst

/-! ### The moments of batch normalisation from the column sums -/

/-- A vector of 128 sums divided by 100000. -/
def kMeanVec (s : FVec Ideal S1x128 .f32) : FVec Ideal S128 .f32 :=
  Host.divf (vecOfRow s shapeCasts_S1x128_S128)
    (broadcastInDim S128 ![] bcast_S_S128 (constant (F := Ideal) S_ .f32 0x47C35000#32))

/-- s / 100000 as a row. -/
def kMeanRow (s : FVec Ideal S1x128 .f32) : FVec Ideal S1x128 .f32 :=
  rowOfVec (kMeanVec s) shapeCasts_S128_S1x128

/-- 1 / √(ss / 100000 − (s / 100000) · (s / 100000) + ε) as a row. -/
def kInvRow (s ss : FVec Ideal S1x128 .f32) : FVec Ideal S1x128 .f32 :=
  rowOfVec
    (Host.divf (broadcastInDim S128 ![] bcast_S_S128 (constant (F := Ideal) S_ .f32 0x3F800000#32))
      (Host.sqrt
        (addf (subf (kMeanVec ss) (mulf (kMeanVec s) (kMeanVec s)))
          (broadcastInDim S128 ![] bcast_S_S128 (constant (F := Ideal) S_ .f32 0x3727C5AC#32)))))
    shapeCasts_S128_S1x128

end Cert.KernelIdeal.Hand

end
-- ==== Proof.KernelIdealHostStretchNorm.lean ====
/-
  What the stretches of plain array operations that compute the degree normalisation leave in the buffers they
  write, from ANY contents W of the buffers before the stretch: each result buffer holds the stretch's operations
  applied, in order, to the contents of the buffers the stretch reads.
-/
import proofs.«107691_j23957327577190_1_alg».proof.Proof.Gen.KernelIdeal.Regions
import proofs.«107691_j23957327577190_1_alg».proof.Proof.KernelIdealHostDefs
import Idealize.ShloMosaic.Lib.StableHlo.Run

-- deciding that two of the program's 253 references differ recurses past the default depth
set_option maxRecDepth 1524

noncomputable section

namespace Cert.KernelIdeal.Hand

open Idealize.ShloMosaic Idealize.ShloMosaic.TcCoe
open Cert.KernelIdeal Cert.KernelIdeal.Gen

variable (W : Valuation τ sig (Elt Ideal))

/-! ### The first stretch: both degree vectors, the first comparison, the constant 1 -/

theorem s0_v3 : StableHlo.after hostOps0 W (main_v3 : DevRef τ sig) = kDeg (W (main_arg1 : DevRef τ sig)) := by
  after_results <;> rfl

theorem s0_v6 : StableHlo.after hostOps0 W (main_v6 : DevRef τ sig) = kDeg (W (main_arg2 : DevRef τ sig)) := by
  after_results <;> rfl

theorem s0_v8 : StableHlo.after hostOps0 W (main_v8 : DevRef τ sig) = kDegLow (kDeg (W (main_arg1 : DevRef τ sig))) := by
  after_results <;> rfl

theorem s0_cst3 : StableHlo.after hostOps0 W (main_cst_3 : DevRef τ sig) = constant (F := Ideal) S_ .f32 0x3F800000#32 := by
  after_results

/-! ### The guard of the first degree vector -/

theorem s01_v9 : StableHlo.after hostOps0_1 W (main_v9 : DevRef τ sig)
    = select (W (main_v8 : DevRef τ sig) : IVec S100000 1)
        (broadcastInDim S100000 ![] bcast_S_S100000 (W (main_cst_3 : DevRef τ sig) : FVec Ideal S_ .f32))
        (W (main_v3 : DevRef τ sig) : FVec Ideal S100000 .f32) := by
  after_results <;> rfl

/-! ### The first power, the second comparison, the constant 1 -/

theorem s02_v11 : StableHlo.after hostOps0_2 W (main_v11 : DevRef τ sig)
    = Host.powf (W (main_v9 : DevRef τ sig) : FVec Ideal S100000 .f32)
        (broadcastInDim S100000 ![] bcast_S_S100000 (constant (F := Ideal) S_ .f32 0xBF000000#32)) := by
  after_results <;> rfl

theorem s02_v13 : StableHlo.after hostOps0_2 W (main_v13 : DevRef τ sig) = kDegLow (W (main_v6 : DevRef τ sig)) := by
  after_results <;> rfl

theorem s02_cst6 : StableHlo.after hostOps0_2 W (main_cst_6 : DevRef τ sig) = constant (F := Ideal) S_ .f32 0x3F800000#32 := by
  after_results

/-! ### The guard of the second degree vector -/

theorem s03_v14 : StableHlo.after hostOps0_3 W (main_v14 : DevRef τ sig)
    = select (W (main_v13 : DevRef τ sig) : IVec S100000 1)
        (broadcastInDim S100000 ![] bcast_S_S100000 (W (main_cst_6 : DevRef τ sig) : FVec Ideal S_ .f32))
        (W (main_v6 : DevRef τ sig) : FVec Ideal S100000 .f32) := by
  after_results <;> rfl

/-! ### The second power; the first normalisation kept as a column -/

theorem s04_v16 : StableHlo.after hostOps0_4 W (main_v16 : DevRef τ sig)
    = Host.powf (W (main_v14 : DevRef τ sig) : FVec Ideal S100000 .f32)
        (broadcastInDim S100000 ![] bcast_S_S100000 (constant (F := Ideal) S_ .f32 0xBF000000#32)) := by
  after_results <;> rfl

theorem s04_v17 : StableHlo.after hostOps0_4 W (main_v17 : DevRef τ sig)
    = colOfVec (W (main_v11 : DevRef τ sig) : FVec Ideal S100000 .f32) shapeCasts_S100000_S100000x1 := by
  after_results <;> rfl

/-! ### The later single reshapes of the first normalisation -/

theorem s3_v44 : StableHlo.after hostOps3 W (main_v44 : DevRef τ sig)
    = colOfVec (W (main_v11 : DevRef τ sig) : FVec Ideal S100000 .f32) shapeCasts_S100000_S100000x1 := by
  after_results <;> rfl

theorem s6_v71 : StableHlo.after hostOps6 W (main_v71 : DevRef τ sig)
    = colOfVec (W (main_v11 : DevRef τ sig) : FVec Ideal S100000 .f32) shapeCasts_S100000_S100000x1 := by
  after_results <;> rfl

end Cert.KernelIdeal.Hand

end
-- ==== Proof.KernelIdealHostStretchAgg.lean ====
/-
  What the stretches of plain array operations that take rows along the edges and add them up per node leave in
  the buffers they write, from ANY contents W of the buffers before the stretch. A take is twenty-three operations;
  it is read in three parts (the index wrap and the lower range check; the upper range check and their conjunction;
  the gather and the fill), each from the contents the part before leaves.
-/
import proofs.«107691_j23957327577190_1_alg».proof.Proof.Gen.KernelIdeal.Regions
import proofs.«107691_j23957327577190_1_alg».proof.Proof.KernelIdealHostDefs
import Idealize.ShloMosaic.Lib.StableHlo.Run

-- deciding that two of the program's 253 references differ recurses past the default depth
set_option maxRecDepth 1524

noncomputable section

namespace Cert.KernelIdeal.Hand

open Idealize.ShloMosaic Idealize.ShloMosaic.TcCoe
open Cert.KernelIdeal Cert.KernelIdeal.Gen

-- comparing two spellings of a reduction must not unfold it into a fold over its 1600000 elements
attribute [local irreducible] Host.reduce

variable (W : Valuation τ sig (Elt Ideal))

/-- Running a list of operations is running its first part, then the rest. -/
theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih (op.result V)

/-- Running a list is running its first k operations, then the others. -/
theorem after_take_drop {Val : EltTy → Type} (k : Nat) (l : List (HloOp τ sig Val)) (V : Valuation τ sig Val) :
    StableHlo.after l V = StableHlo.after (l.drop k) (StableHlo.after (l.take k) V) := by
  rw [← after_append, List.take_append_drop]

/-! ### The rows taken for the first aggregation -/

/-- The first twelve operations leave the wrapped sources as a column of start indices … -/
theorem hostOps1_a_v5 : StableHlo.after (List.take 12 hostOps1) W (main_call2_v5 : DevRef τ sig) = kTakeIdx (W (main_arg1 : DevRef τ sig)) := by
  simp only [List.take_succ_cons, List.take_zero]
  after_results <;> rfl

/-- … the comparison of each with 0 … -/
theorem hostOps1_a_v7 : StableHlo.after (List.take 12 hostOps1) W (main_call2_v7 : DevRef τ sig)
    = cmpi .sge (kTakeIdx (W (main_arg1 : DevRef τ sig))) (broadcastInDim S1600000x1 ![] bcast_S_S1600000x1 (constantI S_ 32 0#32)) := by
  simp only [List.take_succ_cons, List.take_zero]
  after_results <;> rfl

/-- … and the constant 99999. -/
theorem hostOps1_a_c1 : StableHlo.after (List.take 12 hostOps1) W (main_call2_c_1 : DevRef τ sig) = constantI S1 32 99999#32 := by
  simp only [List.take_succ_cons, List.take_zero]
  after_results <;> rfl

/-- They do not write the table the rows are taken from. -/
theorem hostOps1_a_h : StableHlo.after (List.take 12 hostOps1) W (main_v18 : DevRef τ sig) = W (main_v18 : DevRef τ sig) := by
  simp only [List.take_succ_cons, List.take_zero]
  after_results

/-- The next six operations, from any contents: the range check completed. -/
theorem hostOps1_m_v12 : StableHlo.after (List.take 6 (List.drop 12 hostOps1)) W (main_call2_v12 : DevRef τ sig)
    = Host.reduce IntOp.andi
        (andi (W (main_call2_v7 : DevRef τ sig) : IVec S1600000x1 1)
          (cmpi .sle (W (main_call2_v5 : DevRef τ sig) : IVec S1600000x1 32)
            (broadcastInDim S1600000x1 ![0, 1] bcast_S1x1_S1600000x1_0_1
              (broadcastInDim S1x1 ![1] bcast_S1_S1x1_1 (W (main_call2_c_1 : DevRef τ sig) : IVec S1 32)))))
        (constantI S_ 1 1#1) reducesTo_S1600000x1_S1600000_d1 h_S_ := by
  simp only [List.drop_succ_cons, List.drop_zero, List.take_succ_cons, List.take_zero]
  after_results <;> rfl

/-- They write neither the start indices nor the table. -/
theorem hostOps1_m_v5 : StableHlo.after (List.take 6 (List.drop 12 hostOps1)) W (main_call2_v5 : DevRef τ sig) = W (main_call2_v5 : DevRef τ sig) := by
  simp only [List.drop_succ_cons, List.drop_zero, List.take_succ_cons, List.take_zero]
  after_results

theorem hostOps1_m_h : StableHlo.after (List.take 6 (List.drop 12 hostOps1)) W (main_v18 : DevRef τ sig) = W (main_v18 : DevRef τ sig) := by
  simp only [List.drop_succ_cons, List.drop_zero, List.take_succ_cons, List.take_zero]
  after_results

/-- The last five operations, from any contents: the gather and the fill. -/
theorem hostOps1_e : StableHlo.after (List.drop 6 (List.drop 12 hostOps1)) W (main_v19 : DevRef τ sig)
    = select (broadcastInDim S1600000x128 ![0] bcast_S1600000_S1600000x128_0 (W (main_call2_v12 : DevRef τ sig) : IVec S1600000 1))
      (Host.gather gather_S100000x128_S1600000x1_S1600000x128_1_0_n_n_0_1_1128 (W (main_v18 : DevRef τ sig)) (W (main_call2_v5 : DevRef τ sig) : IVec S1600000x1 32))
      (broadcastInDim S1600000x128 ![] bcast_S_S1600000x128 (constant (F := Ideal) S_ .f32 0x7FC00000#32)) := by
  simp only [List.drop_succ_cons, List.drop_zero]
  after_results <;> rfl

theorem hostOps1_out : StableHlo.after hostOps1 W (main_v19 : DevRef τ sig)
    = kTake128 (W (main_v18 : DevRef τ sig)) (W (main_arg1 : DevRef τ sig)) := by
  rw [after_take_drop 12 hostOps1, after_take_drop 6 (List.drop 12 hostOps1), hostOps1_e, hostOps1_m_v12, hostOps1_m_v5, hostOps1_m_h,
    hostOps1_a_v5, hostOps1_a_v7, hostOps1_a_c1, hostOps1_a_h]
  rfl

theorem hostOps1_1_v22 : StableHlo.after hostOps1_1 W (main_v22 : DevRef τ sig)
    = kScat128 (W (main_v19 : DevRef τ sig)) (W (main_arg2 : DevRef τ sig)) := by
  after_results <;> rfl

theorem hostOps1_1_v23 : StableHlo.after hostOps1_1 W (main_v23 : DevRef τ sig)
    = colOfVec (W (main_v16 : DevRef τ sig) : FVec Ideal S100000 .f32) shapeCasts_S100000_S100000x1 := by
  after_results <;> rfl

theorem hostOps1_1_v24 : StableHlo.after hostOps1_1 W (main_v24 : DevRef τ sig)
    = rowOfVec (W (main_arg4 : DevRef τ sig) : FVec Ideal S128 .f32) shapeCasts_S128_S1x128 := by
  after_results <;> rfl

/-! ### The rows taken for the second aggregation -/

/-- The first twelve operations leave the wrapped sources as a column of start indices … -/
theorem hostOps4_a_v5 : StableHlo.after (List.take 12 hostOps4) W (main_call3_v5 : DevRef τ sig) = kTakeIdx (W (main_arg1 : DevRef τ sig)) := by
  simp only [List.take_succ_cons, List.take_zero]
  after_results <;> rfl

/-- … the comparison of each with 0 … -/
theorem hostOps4_a_v7 : StableHlo.after (List.take 12 hostOps4) W (main_call3_v7 : DevRef τ sig)
    = cmpi .sge (kTakeIdx (W (main_arg1 : DevRef τ sig))) (broadcastInDim S1600000x1 ![] bcast_S_S1600000x1 (constantI S_ 32 0#32)) := by
  simp only [List.take_succ_cons, List.take_zero]
  after_results <;> rfl

/-- … and the constant 99999. -/
theorem hostOps4_a_c1 : StableHlo.after (List.take 12 hostOps4) W (main_call3_c_1 : DevRef τ sig) = constantI S1 32 99999#32 := by
  simp only [List.take_succ_cons, List.take_zero]
  after_results <;> rfl

/-- They do not write the table the rows are taken from. -/
theorem hostOps4_a_h : StableHlo.after (List.take 12 hostOps4) W (main_v45 : DevRef τ sig) = W (main_v45 : DevRef τ sig) := by
  simp only [List.take_succ_cons, List.take_zero]
  after_results

/-- The next six operations, from any contents: the range check completed. -/
theorem hostOps4_m_v12 : StableHlo.after (List.take 6 (List.drop 12 hostOps4)) W (main_call3_v12 : DevRef τ sig)
    = Host.reduce IntOp.andi
        (andi (W (main_call3_v7 : DevRef τ sig) : IVec S1600000x1 1)
          (cmpi .sle (W (main_call3_v5 : DevRef τ sig) : IVec S1600000x1 32)
            (broadcastInDim S1600000x1 ![0, 1] bcast_S1x1_S1600000x1_0_1
              (broadcastInDim S1x1 ![1] bcast_S1_S1x1_1 (W (main_call3_c_1 : DevRef τ sig) : IVec S1 32)))))
        (constantI S_ 1 1#1) reducesTo_S1600000x1_S1600000_d1 h_S_ := by
  simp only [List.drop_succ_cons, List.drop_zero, List.take_succ_cons, List.take_zero]
  after_results <;> rfl

/-- They write neither the start indices nor the table. -/
theorem hostOps4_m_v5 : StableHlo.after (List.take 6 (List.drop 12 hostOps4)) W (main_call3_v5 : DevRef τ sig) = W (main_call3_v5 : DevRef τ sig) := by
  simp only [List.drop_succ_cons, List.drop_zero, List.take_succ_cons, List.take_zero]
  after_results

theorem hostOps4_m_h : StableHlo.after (List.take 6 (List.drop 12 hostOps4)) W (main_v45 : DevRef τ sig) = W (main_v45 : DevRef τ sig) := by
  simp only [List.drop_succ_cons, List.drop_zero, List.take_succ_cons, List.take_zero]
  after_results

/-- The last five operations, from any contents: the gather and the fill. -/
theorem hostOps4_e : StableHlo.after (List.drop 6 (List.drop 12 hostOps4)) W (main_v46 : DevRef τ sig)
    = select (broadcastInDim S1600000x128 ![0] bcast_S1600000_S1600000x128_0 (W (main_call3_v12 : DevRef τ sig) : IVec S1600000 1))
      (Host.gather gather_S100000x128_S1600000x1_S1600000x128_1_0_n_n_0_1_1128 (W (main_v45 : DevRef τ sig)) (W (main_call3_v5 : DevRef τ sig) : IVec S1600000x1 32))
      (broadcastInDim S1600000x128 ![] bcast_S_S1600000x128 (constant (F := Ideal) S_ .f32 0x7FC00000#32)) := by
  simp only [List.drop_succ_cons, List.drop_zero]
  after_results <;> rfl

theorem hostOps4_out : StableHlo.after hostOps4 W (main_v46 : DevRef τ sig)
    = kTake128 (W (main_v45 : DevRef τ sig)) (W (main_arg1 : DevRef τ sig)) := by
  rw [after_take_drop 12 hostOps4, after_take_drop 6 (List.drop 12 hostOps4), hostOps4_e, hostOps4_m_v12, hostOps4_m_v5, hostOps4_m_h,
    hostOps4_a_v5, hostOps4_a_v7, hostOps4_a_c1, hostOps4_a_h]
  rfl

theorem hostOps4_1_v49 : StableHlo.after hostOps4_1 W (main_v49 : DevRef τ sig)
    = kScat128 (W (main_v46 : DevRef τ sig)) (W (main_arg2 : DevRef τ sig)) := by
  after_results <;> rfl

theorem hostOps4_1_v50 : StableHlo.after hostOps4_1 W (main_v50 : DevRef τ sig)
    = colOfVec (W (main_v16 : DevRef τ sig) : FVec Ideal S100000 .f32) shapeCasts_S100000_S100000x1 := by
  after_results <;> rfl

theorem hostOps4_1_v51 : StableHlo.after hostOps4_1 W (main_v51 : DevRef τ sig)
    = rowOfVec (W (main_arg8 : DevRef τ sig) : FVec Ideal S128 .f32) shapeCasts_S128_S1x128 := by
  after_results <;> rfl

/-! ### The rows taken for the third aggregation -/

/-- The first twelve operations leave the wrapped sources as a column of start indices … -/
theorem hostOps7_a_v5 : StableHlo.after (List.take 12 hostOps7) W (main_call4_v5 : DevRef τ sig) = kTakeIdx (W (main_arg1 : DevRef τ sig)) := by
  simp only [List.take_succ_cons, List.take_zero]
  after_results <;> rfl

/-- … the comparison of each with 0 … -/
theorem hostOps7_a_v7 : StableHlo.after (List.take 12 hostOps7) W (main_call4_v7 : DevRef τ sig)
    = cmpi .sge (kTakeIdx (W (main_arg1 : DevRef τ sig))) (broadcastInDim S1600000x1 ![] bcast_S_S1600000x1 (constantI S_ 32 0#32)) := by
  simp only [List.take_succ_cons, List.take_zero]
  after_results <;> rfl

/-- … and the constant 99999. -/
theorem hostOps7_a_c1 : StableHlo.after (List.take 12 hostOps7) W (main_call4_c_1 : DevRef τ sig) = constantI S1 32 99999#32 := by
  simp only [List.take_succ_cons, List.take_zero]
  after_results <;> rfl

/-- They do not write the table the rows are taken from. -/
theorem hostOps7_a_h : StableHlo.after (List.take 12 hostOps7) W (main_v72 : DevRef τ sig) = W (main_v72 : DevRef τ sig) := by
  simp only [List.take_succ_cons, List.take_zero]
  after_results

/-- The next six operations, from any contents: the range check completed. -/
theorem hostOps7_m_v12 : StableHlo.after (List.take 6 (List.drop 12 hostOps7)) W (main_call4_v12 : DevRef τ sig)
    = Host.reduce IntOp.andi
        (andi (W (main_call4_v7 : DevRef τ sig) : IVec S1600000x1 1)
          (cmpi .sle (W (main_call4_v5 : DevRef τ sig) : IVec S1600000x1 32)
            (broadcastInDim S1600000x1 ![0, 1] bcast_S1x1_S1600000x1_0_1
              (broadcastInDim S1x1 ![1] bcast_S1_S1x1_1 (W (main_call4_c_1 : DevRef τ sig) : IVec S1 32)))))
        (constantI S_ 1 1#1) reducesTo_S1600000x1_S1600000_d1 h_S_ := by
  simp only [List.drop_succ_cons, List.drop_zero, List.take_succ_cons, List.take_zero]
  after_results <;> rfl

/-- They write neither the start indices nor the table. -/
theorem hostOps7_m_v5 : StableHlo.after (List.take 6 (List.drop 12 hostOps7)) W (main_call4_v5 : DevRef τ sig) = W (main_call4_v5 : DevRef τ sig) := by
  simp only [List.drop_succ_cons, List.drop_zero, List.take_succ_cons, List.take_zero]
  after_results

theorem hostOps7_m_h : StableHlo.after (List.take 6 (List.drop 12 hostOps7)) W (main_v72 : DevRef τ sig) = W (main_v72 : DevRef τ sig) := by
  simp only [List.drop_succ_cons, List.drop_zero, List.take_succ_cons, List.take_zero]
  after_results

/-- The last five operations, from any contents: the gather and the fill. -/
theorem hostOps7_e : StableHlo.after (List.drop 6 (List.drop 12 hostOps7)) W (main_v73 : DevRef τ sig)
    = select (broadcastInDim S1600000x40 ![0] bcast_S1600000_S1600000x40_0 (W (main_call4_v12 : DevRef τ sig) : IVec S1600000 1))
      (Host.gather gather_S100000x40_S1600000x1_S1600000x40_1_0_n_n_0_1_140 (W (main_v72 : DevRef τ sig)) (W (main_call4_v5 : DevRef τ sig) : IVec S1600000x1 32))
      (broadcastInDim S1600000x40 ![] bcast_S_S1600000x40 (constant (F := Ideal) S_ .f32 0x7FC00000#32)) := by
  simp only [List.drop_succ_cons, List.drop_zero]
  after_results <;> rfl

theorem hostOps7_out : StableHlo.after hostOps7 W (main_v73 : DevRef τ sig)
    = kTake40 (W (main_v72 : DevRef τ sig)) (W (main_arg1 : DevRef τ sig)) := by
  rw [after_take_drop 12 hostOps7, after_take_drop 6 (List.drop 12 hostOps7), hostOps7_e, hostOps7_m_v12, hostOps7_m_v5, hostOps7_m_h,
    hostOps7_a_v5, hostOps7_a_v7, hostOps7_a_c1, hostOps7_a_h]
  rfl

theorem hostOps7_1_v76 : StableHlo.after hostOps7_1 W (main_v76 : DevRef τ sig)
    = kScat40 (W (main_v73 : DevRef τ sig)) (W (main_arg2 : DevRef τ sig)) := by
  after_results <;> rfl

theorem hostOps7_1_v77 : StableHlo.after hostOps7_1 W (main_v77 : DevRef τ sig)
    = colOfVec (W (main_v16 : DevRef τ sig) : FVec Ideal S100000 .f32) shapeCasts_S100000_S100000x1 := by
  after_results <;> rfl

theorem hostOps7_1_v78 : StableHlo.after hostOps7_1 W (main_v78 : DevRef τ sig)
    = rowOfVec (W (main_arg12 : DevRef τ sig) : FVec Ideal S40 .f32) shapeCasts_S40_S1x40 := by
  after_results <;> rfl

end Cert.KernelIdeal.Hand

end
-- ==== Proof.KernelIdealHostStretchMoments.lean ====
/-
  What the two stretches of plain array operations that turn a layer's column sums into the moments of batch
  normalisation leave in the buffers they write, from ANY contents W of the buffers before the stretch.
-/
import proofs.«107691_j23957327577190_1_alg».proof.Proof.Gen.KernelIdeal.Regions
import proofs.«107691_j23957327577190_1_alg».proof.Proof.KernelIdealHostDefs
import Idealize.ShloMosaic.Lib.StableHlo.Run

-- deciding that two of the program's 253 references differ recurses past the default depth
set_option maxRecDepth 1524

noncomputable section

namespace Cert.KernelIdeal.Hand

open Idealize.ShloMosaic Idealize.ShloMosaic.TcCoe
open Cert.KernelIdeal Cert.KernelIdeal.Gen

variable (W : Valuation τ sig (Elt Ideal))

/-! ### First batch normalisation -/

theorem s2_v40 : StableHlo.after hostOps2 W (main_v40 : DevRef τ sig) = kMeanRow (W (main_v25_1 : DevRef τ sig)) := by
  after_results <;> rfl

theorem s2_v39 : StableHlo.after hostOps2 W (main_v39 : DevRef τ sig)
    = kInvRow (W (main_v25_1 : DevRef τ sig)) (W (main_v25_2 : DevRef τ sig)) := by
  after_results <;> rfl

theorem s2_v41 : StableHlo.after hostOps2 W (main_v41 : DevRef τ sig)
    = rowOfVec (W (main_arg5 : DevRef τ sig) : FVec Ideal S128 .f32) shapeCasts_S128_S1x128 := by
  after_results <;> rfl

theorem s2_v42 : StableHlo.after hostOps2 W (main_v42 : DevRef τ sig)
    = rowOfVec (W (main_arg6 : DevRef τ sig) : FVec Ideal S128 .f32) shapeCasts_S128_S1x128 := by
  after_results <;> rfl

/-! ### Second batch normalisation -/

theorem s5_v67 : StableHlo.after hostOps5 W (main_v67 : DevRef τ sig) = kMeanRow (W (main_v52_1 : DevRef τ sig)) := by
  after_results <;> rfl

theorem s5_v66 : StableHlo.after hostOps5 W (main_v66 : DevRef τ sig)
    = kInvRow (W (main_v52_1 : DevRef τ sig)) (W (main_v52_2 : DevRef τ sig)) := by
  after_results <;> rfl

theorem s5_v68 : StableHlo.after hostOps5 W (main_v68 : DevRef τ sig)
    = rowOfVec (W (main_arg9 : DevRef τ sig) : FVec Ideal S128 .f32) shapeCasts_S128_S1x128 := by
  after_results <;> rfl

theorem s5_v69 : StableHlo.after hostOps5 W (main_v69 : DevRef τ sig)
    = rowOfVec (W (main_arg10 : DevRef τ sig) : FVec Ideal S128 .f32) shapeCasts_S128_S1x128 := by
  after_results <;> rfl

end Cert.KernelIdeal.Hand

end
-- ==== Proof.LibGcnBnSpec.lean ====
/-
  Whole-array functions of a graph-convolution layer with batch normalisation, over the extended reals.

  For node features kept as a matrix [P, K], weights [K, Q], a per-node scale kept as a column [P, 1] and per-feature
  parameters kept as rows [1, Q]:

    prodScaled a w s (p, q) = (∑ k, a (p, k) · w (k, q)) · s (p, 0)      the projected features, each node's row rescaled
    scaleBias x s b (p, q)  = x (p, q) · s (p, 0) + b (0, q)              the aggregated rows rescaled, plus the bias row
    colSum x (0, q)         = ∑ p, x (p, q)                               a feature's sum over all nodes
    colSumSq x (0, q)       = ∑ p, x (p, q) · x (p, q)                    a feature's sum of squares over all nodes
    normRelu x μ r g β (p, q) = max (((x (p, q) − μ q) · r q) · g q + β q) 0   normalise, rescale, shift, clamp below at 0

  Entry (p, q) of each of the first, second and last reads row p of its matrix operands and column q of the rows, and
  nothing else: that is what lets a block of rows of the result be computed from the same block of rows of the operands.
-/
import Idealize.ShloMosaic.Lib.ValueIdx
import Idealize.ShloMosaic.PureOps.Ideal.Laws

noncomputable section

namespace GcnBn

open Idealize.ShloMosaic Idealize.ShloMosaic.ValueIdx

variable {P P' K Q : Nat}

/-- A matrix of extended reals with P rows and Q columns. -/
abbrev Mat (P Q : Nat) : Type := (⟨2, ![P, Q]⟩ : Shape).Idx → EReal

/-- The index (0, q) of the row kept as [1, Q] that entry i of a [P, Q] matrix reads. -/
abbrev rowOf (i : (⟨2, ![P, Q]⟩ : Shape).Idx) : (⟨2, ![1, Q]⟩ : Shape).Idx := ix2 (0 : Fin 1) (n1 := Q) (i 1)

/-- The index (p, 0) of the column kept as [P, 1] that entry i of a [P, Q] matrix reads. -/
abbrev colOf (i : (⟨2, ![P, Q]⟩ : Shape).Idx) : (⟨2, ![P, 1]⟩ : Shape).Idx := ix2 (n0 := P) (i 0) (0 : Fin 1)

/-- (∑ k, a (p, k) · w (k, q)) · s (p, 0). -/
def prodScaled (a : Mat P K) (w : Mat K Q) (s : Mat P 1) : Mat P Q :=
  fun i => (∑ k : Fin K, a (ix2 (n0 := P) (i 0) k) * w (ix2 k (n1 := Q) (i 1))) * s (colOf i)

theorem prodScaled_ix2 (a : Mat P K) (w : Mat K Q) (s : Mat P 1) (p : Fin P) (q : Fin Q) :
    prodScaled a w s (ix2 p q) = (∑ k : Fin K, a (ix2 p k) * w (ix2 k q)) * s (ix2 p (0 : Fin 1)) := rfl

/-- x (p, q) · s (p, 0) + b (0, q). -/
def scaleBias (x : Mat P Q) (s : Mat P 1) (b : Mat 1 Q) : Mat P Q :=
  fun i => x i * s (colOf i) + b (rowOf i)

theorem scaleBias_ix2 (x : Mat P Q) (s : Mat P 1) (b : Mat 1 Q) (p : Fin P) (q : Fin Q) :
    scaleBias x s b (ix2 p q) = x (ix2 p q) * s (ix2 p (0 : Fin 1)) + b (ix2 (0 : Fin 1) q) := rfl

/-- ∑ p, x (p, q), kept as a row [1, Q]. -/
def colSum (x : Mat P Q) : Mat 1 Q :=
  fun i => ∑ p : Fin P, x (ix2 p (n1 := Q) (i 1))

theorem colSum_ix2 (x : Mat P Q) (u : Fin 1) (q : Fin Q) : colSum x (ix2 u q) = ∑ p : Fin P, x (ix2 p q) := rfl

/-- ∑ p, x (p, q) · x (p, q), kept as a row [1, Q]. -/
def colSumSq (x : Mat P Q) : Mat 1 Q :=
  fun i => ∑ p : Fin P, x (ix2 p (n1 := Q) (i 1)) * x (ix2 p (n1 := Q) (i 1))

theorem colSumSq_ix2 (x : Mat P Q) (u : Fin 1) (q : Fin Q) :
    colSumSq x (ix2 u q) = ∑ p : Fin P, x (ix2 p q) * x (ix2 p q) := rfl

/-- max (((x (p, q) − μ q) · r q) · g q + β q) 0. -/
def normRelu (x : Mat P Q) (mu r g be : Mat 1 Q) : Mat P Q :=
  fun i => max (((x i - mu (rowOf i)) * r (rowOf i)) * g (rowOf i) + be (rowOf i)) 0

theorem normRelu_ix2 (x : Mat P Q) (mu r g be : Mat 1 Q) (p : Fin P) (q : Fin Q) :
    normRelu x mu r g be (ix2 p q)
      = max (((x (ix2 p q) - mu (ix2 (0 : Fin 1) q)) * r (ix2 (0 : Fin 1) q)) * g (ix2 (0 : Fin 1) q) + be (ix2 (0 : Fin 1) q)) 0 := rfl

end GcnBn

end
-- ==== Proof.LibGcnBnVec.lean ====
/-
  A vector kept as a one-column or one-row matrix, over the extended reals.

  A per-node quantity [P] read as the column [P, 1] that scales the rows of a [P, Q] matrix, and a per-feature quantity
  [Q] read as the row [1, Q] that is added to (or scales) every row.
-/
import proofs.«107691_j23957327577190_1_alg».proof.Proof.LibGcnBnSpec

noncomputable section

namespace GcnBn

open Idealize.ShloMosaic Idealize.ShloMosaic.ValueIdx

variable {P Q : Nat}

/-- A vector of extended reals of length P. -/
abbrev Vec1 (P : Nat) : Type := (⟨1, ![P]⟩ : Shape).Idx → EReal

/-- The vector v as the column (p, 0) ↦ v p. -/
def asCol (v : Vec1 P) : Mat P 1 := fun i => v (ix1 (n := P) (i 0))

theorem asCol_ix2 (v : Vec1 P) (p : Fin P) (u : Fin 1) : asCol v (ix2 p u) = v (ix1 p) := rfl

/-- The vector v as the row (0, q) ↦ v q. -/
def asRow (v : Vec1 Q) : Mat 1 Q := fun i => v (ix1 (n := Q) (i 1))

theorem asRow_ix2 (v : Vec1 Q) (u : Fin 1) (q : Fin Q) : asRow v (ix2 u q) = v (ix1 q) := rfl

end GcnBn

end
-- ==== Proof.KernelIdealHostTerms.lean ====
/-
  What every kernel region of the program reads at its entry, as a function of the launch arrays and of the arrays
  the earlier regions left: between the regions the program runs stretches of plain array operations, and the buffers
  a region reads hold those operations (the functions of the definitions module) applied to the launch contents of
  the argument buffers and to the earlier regions' outputs. A buffer that no operation in between writes keeps its contents.
-/
import proofs.«107691_j23957327577190_1_alg».proof.Proof.Gen.KernelIdeal.Regions
import proofs.«107691_j23957327577190_1_alg».proof.Proof.KernelIdealHostDefs
import proofs.«107691_j23957327577190_1_alg».proof.Proof.KernelIdealHostStretchNorm
import proofs.«107691_j23957327577190_1_alg».proof.Proof.KernelIdealHostStretchAgg
import proofs.«107691_j23957327577190_1_alg».proof.Proof.KernelIdealHostStretchMoments
import proofs.«107691_j23957327577190_1_alg».proof.Proof.LibGcnBnVec
import Idealize.ShloMosaic.Lib.StableHlo.Run

-- deciding that two of the program's 253 references differ recurses past the default depth
set_option maxRecDepth 1524

noncomputable section

namespace Cert.KernelIdeal.Hand

open Idealize.ShloMosaic Idealize.ShloMosaic.TcCoe
open Cert.KernelIdeal Cert.KernelIdeal.Gen

open Idealize.ShloMosaic.ValueIdx

/-- A vector of extended reals kept as a column by a reshape is the column (p, 0) ↦ v p. -/
theorem colOfVec_eq_asCol {n : Nat} (v : (⟨1, ![n]⟩ : Shape).Idx → EReal) (h : (⟨1, ![n]⟩ : Shape).ShapeCasts ⟨2, ![n, 1]⟩) :
    colOfVec v h = GcnBn.asCol v := by
  funext i
  obtain ⟨p, u, rfl⟩ : ∃ p u, i = ix2 p u := ⟨i 0, i 1, eq_ix2 i⟩
  rw [colOfVec_ix2]
  rfl

/-- A vector of extended reals kept as a row by a reshape is the row (0, q) ↦ v q. -/
theorem rowOfVec_eq_asRow {n : Nat} (v : (⟨1, ![n]⟩ : Shape).Idx → EReal) (h : (⟨1, ![n]⟩ : Shape).ShapeCasts ⟨2, ![1, n]⟩) :
    rowOfVec v h = GcnBn.asRow v := by
  funext i
  obtain ⟨u, q, rfl⟩ : ∃ u q, i = ix2 u q := ⟨i 0, i 1, eq_ix2 i⟩
  rw [rowOfVec_ix2]
  rfl

variable (m : (ℓ : Loc nD τ sig) → Buf (Elt Ideal) ℓ) (outs : Outs (F := Ideal)) (c : Dev nD)

/-! ### The two degree normalisations -/

/-- After the third stretch the first normalisation vector is the normalisation of the edge sources' degrees. -/
theorem V3_v11 : (V3 m c main_v11 : FVec Ideal S100000 .f32) = kNorm (m ((c : Thread nD τ).loc main_arg1)) := by
  have h3 : (V3 m c main_v11 : FVec Ideal S100000 .f32) = Host.powf (V2 m c main_v9 : FVec Ideal S100000 .f32) (broadcastInDim S100000 ![] bcast_S_S100000 (constant (F := Ideal) S_ .f32 0xBF000000#32)) := s02_v11 (V2 m c)
  have h2 : (V2 m c main_v9 : FVec Ideal S100000 .f32) = select (V1 m c main_v8 : IVec S100000 1)
      (broadcastInDim S100000 ![] bcast_S_S100000 (V1 m c main_cst_3 : FVec Ideal S_ .f32)) (V1 m c main_v3 : FVec Ideal S100000 .f32) := s01_v9 (V1 m c)
  have h8 : (V1 m c main_v8 : IVec S100000 1) = kDegLow (kDeg (V0 m c main_arg1)) := s0_v8 (V0 m c)
  have hc : (V1 m c main_cst_3 : FVec Ideal S_ .f32) = constant (F := Ideal) S_ .f32 0x3F800000#32 := s0_cst3 (V0 m c)
  have hv : (V1 m c main_v3 : FVec Ideal S100000 .f32) = kDeg (V0 m c main_arg1) := s0_v3 (V0 m c)
  rw [h3, h2, h8, hc, hv]
  rfl

/-- After the fifth stretch the second normalisation vector is the normalisation of the edge destinations' degrees. -/
theorem V5_v16 : (V5 m c main_v16 : FVec Ideal S100000 .f32) = kNorm (m ((c : Thread nD τ).loc main_arg2)) := by
  have h5 : (V5 m c main_v16 : FVec Ideal S100000 .f32) = Host.powf (V4 m c main_v14 : FVec Ideal S100000 .f32) (broadcastInDim S100000 ![] bcast_S_S100000 (constant (F := Ideal) S_ .f32 0xBF000000#32)) := s04_v16 (V4 m c)
  have h4 : (V4 m c main_v14 : FVec Ideal S100000 .f32) = select (V3 m c main_v13 : IVec S100000 1)
      (broadcastInDim S100000 ![] bcast_S_S100000 (V3 m c main_cst_6 : FVec Ideal S_ .f32)) (V3 m c main_v6 : FVec Ideal S100000 .f32) := s03_v14 (V3 m c)
  have h13 : (V3 m c main_v13 : IVec S100000 1) = kDegLow (V2 m c main_v6 : FVec Ideal S100000 .f32) := s02_v13 (V2 m c)
  have hc : (V3 m c main_cst_6 : FVec Ideal S_ .f32) = constant (F := Ideal) S_ .f32 0x3F800000#32 := s02_cst6 (V2 m c)
  have h6 : (V3 m c main_v6 : FVec Ideal S100000 .f32) = (V2 m c main_v6 : FVec Ideal S100000 .f32) := V3_of m c main_v6 (by decide)
  have h6' : (V2 m c main_v6 : FVec Ideal S100000 .f32) = kDeg (V0 m c main_arg2) := (V2_of m c main_v6 (by decide)).trans (s0_v6 (V0 m c))
  rw [h5, h4, h13, hc, h6, h6']
  rfl

/-! ### What region 0 (item 5) reads -/

theorem V5_v17 : (V5 m c main_v17 : FVec Ideal S100000x1 .f32) = GcnBn.asCol (kNorm (m ((c : Thread nD τ).loc main_arg1))) := by
  have h : (V5 m c main_v17 : FVec Ideal S100000x1 .f32) = colOfVec (V4 m c main_v11 : FVec Ideal S100000 .f32) shapeCasts_S100000_S100000x1 := s04_v17 (V4 m c)
  have h' : (V4 m c main_v11 : FVec Ideal S100000 .f32) = (V3 m c main_v11 : FVec Ideal S100000 .f32) := (V4_of m c main_v11 (by decide)).trans <| rfl
  rw [h, h', V3_v11, colOfVec_eq_asCol]

theorem V5_arg0 : V5 m c main_arg0 = m ((c : Thread nD τ).loc main_arg0) := (V5_of m c main_arg0 (by decide)).trans <| (V4_of m c main_arg0 (by decide)).trans <| (V3_of m c main_arg0 (by decide)).trans <| (V2_of m c main_arg0 (by decide)).trans <| (V1_of m c main_arg0 (by decide)).trans <| rfl

theorem V5_arg3 : V5 m c main_arg3 = m ((c : Thread nD τ).loc main_arg3) := (V5_of m c main_arg3 (by decide)).trans <| (V4_of m c main_arg3 (by decide)).trans <| (V3_of m c main_arg3 (by decide)).trans <| (V2_of m c main_arg3 (by decide)).trans <| (V1_of m c main_arg3 (by decide)).trans <| rfl

/-! ### What region 1 (item 8) reads -/

theorem V8_v22 : (V8 m outs c main_v22 : FVec Ideal S100000x128 .f32)
    = kAgg128 (outs 6 main_v18 c) (m ((c : Thread nD τ).loc main_arg1)) (m ((c : Thread nD τ).loc main_arg2)) := by
  have h : (V8 m outs c main_v22 : FVec Ideal S100000x128 .f32)
      = kScat128 (V7 m outs c main_v19) (V7 m outs c main_arg2) := hostOps1_1_v22 (V7 m outs c)
  have h' : (V7 m outs c main_v19 : FVec Ideal S1600000x128 .f32)
      = kTake128 (V6 m outs c main_v18) (V6 m outs c main_arg1) := hostOps1_out (V6 m outs c)
  have eh : V6 m outs c main_v18 = outs 6 main_v18 c := by simp only [V6, Function.update_self]
  have e1 : V6 m outs c main_arg1 = m ((c : Thread nD τ).loc main_arg1) := (V6_of m outs c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl
  have e2 : V7 m outs c main_arg2 = m ((c : Thread nD τ).loc main_arg2) := (V7_of m outs c main_arg2 (by decide)).trans <| (V6_of m outs c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans <| rfl
  rw [h, h', eh, e1, e2]
  rfl

theorem V8_v23 : (V8 m outs c main_v23 : FVec Ideal S100000x1 .f32) = GcnBn.asCol (kNorm (m ((c : Thread nD τ).loc main_arg2))) := by
  have h : (V8 m outs c main_v23 : FVec Ideal S100000x1 .f32) = colOfVec (V7 m outs c main_v16 : FVec Ideal S100000 .f32) shapeCasts_S100000_S100000x1 := hostOps1_1_v23 (V7 m outs c)
  have h' : (V7 m outs c main_v16 : FVec Ideal S100000 .f32) = (V5 m c main_v16 : FVec Ideal S100000 .f32) := (V7_of m outs c main_v16 (by decide)).trans <| (V6_of m outs c main_v16 (by decide)).trans <| rfl
  rw [h, h', V5_v16, colOfVec_eq_asCol]

theorem V8_v24 : (V8 m outs c main_v24 : FVec Ideal S1x128 .f32) = GcnBn.asRow (m ((c : Thread nD τ).loc main_arg4) : FVec Ideal S128 .f32) := by
  have h : (V8 m outs c main_v24 : FVec Ideal S1x128 .f32) = rowOfVec (V7 m outs c main_arg4 : FVec Ideal S128 .f32) shapeCasts_S128_S1x128 := hostOps1_1_v24 (V7 m outs c)
  have h' : V7 m outs c main_arg4 = m ((c : Thread nD τ).loc main_arg4) := (V7_of m outs c main_arg4 (by decide)).trans <| (V6_of m outs c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide)).trans <| rfl
  rw [h, h', rowOfVec_eq_asRow]

/-! ### What region 2 (item 10) reads -/

theorem V10_v25_0 : V10 m outs c main_v25_0 = outs 9 main_v25_0 c := by
  have h : V10 m outs c main_v25_0 = V9 m outs c main_v25_0 := V10_of m outs c main_v25_0 (by decide)
  have h' : V9 m outs c main_v25_0 = outs 9 main_v25_0 c := by simp only [V9, Function.update_self, Function.update_of_ne (StableHlo.devRef_ne_of_ne (by decide : main_v25_0 ≠ main_v25_1) : (Proc.devRef .tc main_v25_0 : DevRef τ sig) ≠ Proc.devRef .tc main_v25_1), Function.update_of_ne (StableHlo.devRef_ne_of_ne (by decide : main_v25_0 ≠ main_v25_2) : (Proc.devRef .tc main_v25_0 : DevRef τ sig) ≠ Proc.devRef .tc main_v25_2)]
  rw [h, h']

theorem V10_v40 : (V10 m outs c main_v40 : FVec Ideal S1x128 .f32) = kMeanRow (outs 9 main_v25_1 c) := by
  have h : (V10 m outs c main_v40 : FVec Ideal S1x128 .f32) = kMeanRow (V9 m outs c main_v25_1) := s2_v40 (V9 m outs c)
  have e1 : V9 m outs c main_v25_1 = outs 9 main_v25_1 c := by simp only [V9, Function.update_self, Function.update_of_ne (StableHlo.devRef_ne_of_ne (by decide : main_v25_1 ≠ main_v25_2) : (Proc.devRef .tc main_v25_1 : DevRef τ sig) ≠ Proc.devRef .tc main_v25_2)]
  rw [h, e1]

theorem V10_v39 : (V10 m outs c main_v39 : FVec Ideal S1x128 .f32) = kInvRow (outs 9 main_v25_1 c) (outs 9 main_v25_2 c) := by
  have h : (V10 m outs c main_v39 : FVec Ideal S1x128 .f32) = kInvRow (V9 m outs c main_v25_1) (V9 m outs c main_v25_2) := s2_v39 (V9 m outs c)
  have e1 : V9 m outs c main_v25_1 = outs 9 main_v25_1 c := by simp only [V9, Function.update_self, Function.update_of_ne (StableHlo.devRef_ne_of_ne (by decide : main_v25_1 ≠ main_v25_2) : (Proc.devRef .tc main_v25_1 : DevRef τ sig) ≠ Proc.devRef .tc main_v25_2)]
  have e2 : V9 m outs c main_v25_2 = outs 9 main_v25_2 c := by simp only [V9, Function.update_self]
  rw [h, e1, e2]

theorem V10_v41 : (V10 m outs c main_v41 : FVec Ideal S1x128 .f32) = GcnBn.asRow (m ((c : Thread nD τ).loc main_arg5) : FVec Ideal S128 .f32) := by
  have h : (V10 m outs c main_v41 : FVec Ideal S1x128 .f32) = rowOfVec (V9 m outs c main_arg5 : FVec Ideal S128 .f32) shapeCasts_S128_S1x128 := s2_v41 (V9 m outs c)
  have h' : V9 m outs c main_arg5 = m ((c : Thread nD τ).loc main_arg5) := (V9_of m outs c main_arg5 (by decide)).trans <| (V8_of m outs c main_arg5 (by decide)).trans <| (V7_of m outs c main_arg5 (by decide)).trans <| (V6_of m outs c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide)).trans <| rfl
  rw [h, h', rowOfVec_eq_asRow]

theorem V10_v42 : (V10 m outs c main_v42 : FVec Ideal S1x128 .f32) = GcnBn.asRow (m ((c : Thread nD τ).loc main_arg6) : FVec Ideal S128 .f32) := by
  have h : (V10 m outs c main_v42 : FVec Ideal S1x128 .f32) = rowOfVec (V9 m outs c main_arg6 : FVec Ideal S128 .f32) shapeCasts_S128_S1x128 := s2_v42 (V9 m outs c)
  have h' : V9 m outs c main_arg6 = m ((c : Thread nD τ).loc main_arg6) := (V9_of m outs c main_arg6 (by decide)).trans <| (V8_of m outs c main_arg6 (by decide)).trans <| (V7_of m outs c main_arg6 (by decide)).trans <| (V6_of m outs c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide)).trans <| rfl
  rw [h, h', rowOfVec_eq_asRow]

/-! ### What region 3 (item 12) reads -/

theorem V12_v43 : V12 m outs c main_v43 = outs 11 main_v43 c := by
  have h : V12 m outs c main_v43 = V11 m outs c main_v43 := V12_of m outs c main_v43 (by decide)
  have h' : V11 m outs c main_v43 = outs 11 main_v43 c := by simp only [V11, Function.update_self]
  rw [h, h']

theorem V12_arg7 : V12 m outs c main_arg7 = m ((c : Thread nD τ).loc main_arg7) := (V12_of m outs c main_arg7 (by decide)).trans <| (V11_of m outs c main_arg7 (by decide)).trans <| (V10_of m outs c main_arg7 (by decide)).trans <| (V9_of m outs c main_arg7 (by decide)).trans <| (V8_of m outs c main_arg7 (by decide)).trans <| (V7_of m outs c main_arg7 (by decide)).trans <| (V6_of m outs c main_arg7 (by decide)).trans <| (V5_of m c main_arg7 (by decide)).trans <| (V4_of m c main_arg7 (by decide)).trans <| (V3_of m c main_arg7 (by decide)).trans <| (V2_of m c main_arg7 (by decide)).trans <| (V1_of m c main_arg7 (by decide)).trans <| rfl

theorem V12_v44 : (V12 m outs c main_v44 : FVec Ideal S100000x1 .f32) = GcnBn.asCol (kNorm (m ((c : Thread nD τ).loc main_arg1))) := by
  have h : (V12 m outs c main_v44 : FVec Ideal S100000x1 .f32) = colOfVec (V11 m outs c main_v11 : FVec Ideal S100000 .f32) shapeCasts_S100000_S100000x1 := s3_v44 (V11 m outs c)
  have h' : (V11 m outs c main_v11 : FVec Ideal S100000 .f32) = (V3 m c main_v11 : FVec Ideal S100000 .f32) := (V11_of m outs c main_v11 (by decide)).trans <| (V10_of m outs c main_v11 (by decide)).trans <| (V9_of m outs c main_v11 (by decide)).trans <| (V8_of m outs c main_v11 (by decide)).trans <| (V7_of m outs c main_v11 (by decide)).trans <| (V6_of m outs c main_v11 (by decide)).trans <| (V5_of m c main_v11 (by decide)).trans <| (V4_of m c main_v11 (by decide)).trans <| rfl
  rw [h, h', V3_v11, colOfVec_eq_asCol]

/-! ### What region 4 (item 15) reads -/

theorem V15_v49 : (V15 m outs c main_v49 : FVec Ideal S100000x128 .f32)
    = kAgg128 (outs 13 main_v45 c) (m ((c : Thread nD τ).loc main_arg1)) (m ((c : Thread nD τ).loc main_arg2)) := by
  have h : (V15 m outs c main_v49 : FVec Ideal S100000x128 .f32)
      = kScat128 (V14 m outs c main_v46) (V14 m outs c main_arg2) := hostOps4_1_v49 (V14 m outs c)
  have h' : (V14 m outs c main_v46 : FVec Ideal S1600000x128 .f32)
      = kTake128 (V13 m outs c main_v45) (V13 m outs c main_arg1) := hostOps4_out (V13 m outs c)
  have eh : V13 m outs c main_v45 = outs 13 main_v45 c := by simp only [V13, Function.update_self]
  have e1 : V13 m outs c main_arg1 = m ((c : Thread nD τ).loc main_arg1) := (V13_of m outs c main_arg1 (by decide)).trans <| (V12_of m outs c main_arg1 (by decide)).trans <| (V11_of m outs c main_arg1 (by decide)).trans <| (V10_of m outs c main_arg1 (by decide)).trans <| (V9_of m outs c main_arg1 (by decide)).trans <| (V8_of m outs c main_arg1 (by decide)).trans <| (V7_of m outs c main_arg1 (by decide)).trans <| (V6_of m outs c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl
  have e2 : V14 m outs c main_arg2 = m ((c : Thread nD τ).loc main_arg2) := (V14_of m outs c main_arg2 (by decide)).trans <| (V13_of m outs c main_arg2 (by decide)).trans <| (V12_of m outs c main_arg2 (by decide)).trans <| (V11_of m outs c main_arg2 (by decide)).trans <| (V10_of m outs c main_arg2 (by decide)).trans <| (V9_of m outs c main_arg2 (by decide)).trans <| (V8_of m outs c main_arg2 (by decide)).trans <| (V7_of m outs c main_arg2 (by decide)).trans <| (V6_of m outs c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans <| rfl
  rw [h, h', eh, e1, e2]
  rfl

theorem V15_v50 : (V15 m outs c main_v50 : FVec Ideal S100000x1 .f32) = GcnBn.asCol (kNorm (m ((c : Thread nD τ).loc main_arg2))) := by
  have h : (V15 m outs c main_v50 : FVec Ideal S100000x1 .f32) = colOfVec (V14 m outs c main_v16 : FVec Ideal S100000 .f32) shapeCasts_S100000_S100000x1 := hostOps4_1_v50 (V14 m outs c)
  have h' : (V14 m outs c main_v16 : FVec Ideal S100000 .f32) = (V5 m c main_v16 : FVec Ideal S100000 .f32) := (V14_of m outs c main_v16 (by decide)).trans <| (V13_of m outs c main_v16 (by decide)).trans <| (V12_of m outs c main_v16 (by decide)).trans <| (V11_of m outs c main_v16 (by decide)).trans <| (V10_of m outs c main_v16 (by decide)).trans <| (V9_of m outs c main_v16 (by decide)).trans <| (V8_of m outs c main_v16 (by decide)).trans <| (V7_of m outs c main_v16 (by decide)).trans <| (V6_of m outs c main_v16 (by decide)).trans <| rfl
  rw [h, h', V5_v16, colOfVec_eq_asCol]

theorem V15_v51 : (V15 m outs c main_v51 : FVec Ideal S1x128 .f32) = GcnBn.asRow (m ((c : Thread nD τ).loc main_arg8) : FVec Ideal S128 .f32) := by
  have h : (V15 m outs c main_v51 : FVec Ideal S1x128 .f32) = rowOfVec (V14 m outs c main_arg8 : FVec Ideal S128 .f32) shapeCasts_S128_S1x128 := hostOps4_1_v51 (V14 m outs c)
  have h' : V14 m outs c main_arg8 = m ((c : Thread nD τ).loc main_arg8) := (V14_of m outs c main_arg8 (by decide)).trans <| (V13_of m outs c main_arg8 (by decide)).trans <| (V12_of m outs c main_arg8 (by decide)).trans <| (V11_of m outs c main_arg8 (by decide)).trans <| (V10_of m outs c main_arg8 (by decide)).trans <| (V9_of m outs c main_arg8 (by decide)).trans <| (V8_of m outs c main_arg8 (by decide)).trans <| (V7_of m outs c main_arg8 (by decide)).trans <| (V6_of m outs c main_arg8 (by decide)).trans <| (V5_of m c main_arg8 (by decide)).trans <| (V4_of m c main_arg8 (by decide)).trans <| (V3_of m c main_arg8 (by decide)).trans <| (V2_of m c main_arg8 (by decide)).trans <| (V1_of m c main_arg8 (by decide)).trans <| rfl
  rw [h, h', rowOfVec_eq_asRow]

/-! ### What region 5 (item 17) reads -/

theorem V17_v52_0 : V17 m outs c main_v52_0 = outs 16 main_v52_0 c := by
  have h : V17 m outs c main_v52_0 = V16 m outs c main_v52_0 := V17_of m outs c main_v52_0 (by decide)
  have h' : V16 m outs c main_v52_0 = outs 16 main_v52_0 c := by simp only [V16, Function.update_self, Function.update_of_ne (StableHlo.devRef_ne_of_ne (by decide : main_v52_0 ≠ main_v52_1) : (Proc.devRef .tc main_v52_0 : DevRef τ sig) ≠ Proc.devRef .tc main_v52_1), Function.update_of_ne (StableHlo.devRef_ne_of_ne (by decide : main_v52_0 ≠ main_v52_2) : (Proc.devRef .tc main_v52_0 : DevRef τ sig) ≠ Proc.devRef .tc main_v52_2)]
  rw [h, h']

theorem V17_v67 : (V17 m outs c main_v67 : FVec Ideal S1x128 .f32) = kMeanRow (outs 16 main_v52_1 c) := by
  have h : (V17 m outs c main_v67 : FVec Ideal S1x128 .f32) = kMeanRow (V16 m outs c main_v52_1) := s5_v67 (V16 m outs c)
  have e1 : V16 m outs c main_v52_1 = outs 16 main_v52_1 c := by simp only [V16, Function.update_self, Function.update_of_ne (StableHlo.devRef_ne_of_ne (by decide : main_v52_1 ≠ main_v52_2) : (Proc.devRef .tc main_v52_1 : DevRef τ sig) ≠ Proc.devRef .tc main_v52_2)]
  rw [h, e1]

theorem V17_v66 : (V17 m outs c main_v66 : FVec Ideal S1x128 .f32) = kInvRow (outs 16 main_v52_1 c) (outs 16 main_v52_2 c) := by
  have h : (V17 m outs c main_v66 : FVec Ideal S1x128 .f32) = kInvRow (V16 m outs c main_v52_1) (V16 m outs c main_v52_2) := s5_v66 (V16 m outs c)
  have e1 : V16 m outs c main_v52_1 = outs 16 main_v52_1 c := by simp only [V16, Function.update_self, Function.update_of_ne (StableHlo.devRef_ne_of_ne (by decide : main_v52_1 ≠ main_v52_2) : (Proc.devRef .tc main_v52_1 : DevRef τ sig) ≠ Proc.devRef .tc main_v52_2)]
  have e2 : V16 m outs c main_v52_2 = outs 16 main_v52_2 c := by simp only [V16, Function.update_self]
  rw [h, e1, e2]

theorem V17_v68 : (V17 m outs c main_v68 : FVec Ideal S1x128 .f32) = GcnBn.asRow (m ((c : Thread nD τ).loc main_arg9) : FVec Ideal S128 .f32) := by
  have h : (V17 m outs c main_v68 : FVec Ideal S1x128 .f32) = rowOfVec (V16 m outs c main_arg9 : FVec Ideal S128 .f32) shapeCasts_S128_S1x128 := s5_v68 (V16 m outs c)
  have h' : V16 m outs c main_arg9 = m ((c : Thread nD τ).loc main_arg9) := (V16_of m outs c main_arg9 (by decide)).trans <| (V15_of m outs c main_arg9 (by decide)).trans <| (V14_of m outs c main_arg9 (by decide)).trans <| (V13_of m outs c main_arg9 (by decide)).trans <| (V12_of m outs c main_arg9 (by decide)).trans <| (V11_of m outs c main_arg9 (by decide)).trans <| (V10_of m outs c main_arg9 (by decide)).trans <| (V9_of m outs c main_arg9 (by decide)).trans <| (V8_of m outs c main_arg9 (by decide)).trans <| (V7_of m outs c main_arg9 (by decide)).trans <| (V6_of m outs c main_arg9 (by decide)).trans <| (V5_of m c main_arg9 (by decide)).trans <| (V4_of m c main_arg9 (by decide)).trans <| (V3_of m c main_arg9 (by decide)).trans <| (V2_of m c main_arg9 (by decide)).trans <| (V1_of m c main_arg9 (by decide)).trans <| rfl
  rw [h, h', rowOfVec_eq_asRow]

theorem V17_v69 : (V17 m outs c main_v69 : FVec Ideal S1x128 .f32) = GcnBn.asRow (m ((c : Thread nD τ).loc main_arg10) : FVec Ideal S128 .f32) := by
  have h : (V17 m outs c main_v69 : FVec Ideal S1x128 .f32) = rowOfVec (V16 m outs c main_arg10 : FVec Ideal S128 .f32) shapeCasts_S128_S1x128 := s5_v69 (V16 m outs c)
  have h' : V16 m outs c main_arg10 = m ((c : Thread nD τ).loc main_arg10) := (V16_of m outs c main_arg10 (by decide)).trans <| (V15_of m outs c main_arg10 (by decide)).trans <| (V14_of m outs c main_arg10 (by decide)).trans <| (V13_of m outs c main_arg10 (by decide)).trans <| (V12_of m outs c main_arg10 (by decide)).trans <| (V11_of m outs c main_arg10 (by decide)).trans <| (V10_of m outs c main_arg10 (by decide)).trans <| (V9_of m outs c main_arg10 (by decide)).trans <| (V8_of m outs c main_arg10 (by decide)).trans <| (V7_of m outs c main_arg10 (by decide)).trans <| (V6_of m outs c main_arg10 (by decide)).trans <| (V5_of m c main_arg10 (by decide)).trans <| (V4_of m c main_arg10 (by decide)).trans <| (V3_of m c main_arg10 (by decide)).trans <| (V2_of m c main_arg10 (by decide)).trans <| (V1_of m c main_arg10 (by decide)).trans <| rfl
  rw [h, h', rowOfVec_eq_asRow]

/-! ### What region 6 (item 19) reads -/

theorem V19_v70 : V19 m outs c main_v70 = outs 18 main_v70 c := by
  have h : V19 m outs c main_v70 = V18 m outs c main_v70 := V19_of m outs c main_v70 (by decide)
  have h' : V18 m outs c main_v70 = outs 18 main_v70 c := by simp only [V18, Function.update_self]
  rw [h, h']

theorem V19_arg11 : V19 m outs c main_arg11 = m ((c : Thread nD τ).loc main_arg11) := (V19_of m outs c main_arg11 (by decide)).trans <| (V18_of m outs c main_arg11 (by decide)).trans <| (V17_of m outs c main_arg11 (by decide)).trans <| (V16_of m outs c main_arg11 (by decide)).trans <| (V15_of m outs c main_arg11 (by decide)).trans <| (V14_of m outs c main_arg11 (by decide)).trans <| (V13_of m outs c main_arg11 (by decide)).trans <| (V12_of m outs c main_arg11 (by decide)).trans <| (V11_of m outs c main_arg11 (by decide)).trans <| (V10_of m outs c main_arg11 (by decide)).trans <| (V9_of m outs c main_arg11 (by decide)).trans <| (V8_of m outs c main_arg11 (by decide)).trans <| (V7_of m outs c main_arg11 (by decide)).trans <| (V6_of m outs c main_arg11 (by decide)).trans <| (V5_of m c main_arg11 (by decide)).trans <| (V4_of m c main_arg11 (by decide)).trans <| (V3_of m c main_arg11 (by decide)).trans <| (V2_of m c main_arg11 (by decide)).trans <| (V1_of m c main_arg11 (by decide)).trans <| rfl

theorem V19_v71 : (V19 m outs c main_v71 : FVec Ideal S100000x1 .f32) = GcnBn.asCol (kNorm (m ((c : Thread nD τ).loc main_arg1))) := by
  have h : (V19 m outs c main_v71 : FVec Ideal S100000x1 .f32) = colOfVec (V18 m outs c main_v11 : FVec Ideal S100000 .f32) shapeCasts_S100000_S100000x1 := s6_v71 (V18 m outs c)
  have h' : (V18 m outs c main_v11 : FVec Ideal S100000 .f32) = (V3 m c main_v11 : FVec Ideal S100000 .f32) := (V18_of m outs c main_v11 (by decide)).trans <| (V17_of m outs c main_v11 (by decide)).trans <| (V16_of m outs c main_v11 (by decide)).trans <| (V15_of m outs c main_v11 (by decide)).trans <| (V14_of m outs c main_v11 (by decide)).trans <| (V13_of m outs c main_v11 (by decide)).trans <| (V12_of m outs c main_v11 (by decide)).trans <| (V11_of m outs c main_v11 (by decide)).trans <| (V10_of m outs c main_v11 (by decide)).trans <| (V9_of m outs c main_v11 (by decide)).trans <| (V8_of m outs c main_v11 (by decide)).trans <| (V7_of m outs c main_v11 (by decide)).trans <| (V6_of m outs c main_v11 (by decide)).trans <| (V5_of m c main_v11 (by decide)).trans <| (V4_of m c main_v11 (by decide)).trans <| rfl
  rw [h, h', V3_v11, colOfVec_eq_asCol]

/-! ### What region 7 (item 22) reads -/

theorem V22_v76 : (V22 m outs c main_v76 : FVec Ideal S100000x40 .f32)
    = kAgg40 (outs 20 main_v72 c) (m ((c : Thread nD τ).loc main_arg1)) (m ((c : Thread nD τ).loc main_arg2)) := by
  have h : (V22 m outs c main_v76 : FVec Ideal S100000x40 .f32)
      = kScat40 (V21 m outs c main_v73) (V21 m outs c main_arg2) := hostOps7_1_v76 (V21 m outs c)
  have h' : (V21 m outs c main_v73 : FVec Ideal S1600000x40 .f32)
      = kTake40 (V20 m outs c main_v72) (V20 m outs c main_arg1) := hostOps7_out (V20 m outs c)
  have eh : V20 m outs c main_v72 = outs 20 main_v72 c := by simp only [V20, Function.update_self]
  have e1 : V20 m outs c main_arg1 = m ((c : Thread nD τ).loc main_arg1) := (V20_of m outs c main_arg1 (by decide)).trans <| (V19_of m outs c main_arg1 (by decide)).trans <| (V18_of m outs c main_arg1 (by decide)).trans <| (V17_of m outs c main_arg1 (by decide)).trans <| (V16_of m outs c main_arg1 (by decide)).trans <| (V15_of m outs c main_arg1 (by decide)).trans <| (V14_of m outs c main_arg1 (by decide)).trans <| (V13_of m outs c main_arg1 (by decide)).trans <| (V12_of m outs c main_arg1 (by decide)).trans <| (V11_of m outs c main_arg1 (by decide)).trans <| (V10_of m outs c main_arg1 (by decide)).trans <| (V9_of m outs c main_arg1 (by decide)).trans <| (V8_of m outs c main_arg1 (by decide)).trans <| (V7_of m outs c main_arg1 (by decide)).trans <| (V6_of m outs c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl
  have e2 : V21 m outs c main_arg2 = m ((c : Thread nD τ).loc main_arg2) := (V21_of m outs c main_arg2 (by decide)).trans <| (V20_of m outs c main_arg2 (by decide)).trans <| (V19_of m outs c main_arg2 (by decide)).trans <| (V18_of m outs c main_arg2 (by decide)).trans <| (V17_of m outs c main_arg2 (by decide)).trans <| (V16_of m outs c main_arg2 (by decide)).trans <| (V15_of m outs c main_arg2 (by decide)).trans <| (V14_of m outs c main_arg2 (by decide)).trans <| (V13_of m outs c main_arg2 (by decide)).trans <| (V12_of m outs c main_arg2 (by decide)).trans <| (V11_of m outs c main_arg2 (by decide)).trans <| (V10_of m outs c main_arg2 (by decide)).trans <| (V9_of m outs c main_arg2 (by decide)).trans <| (V8_of m outs c main_arg2 (by decide)).trans <| (V7_of m outs c main_arg2 (by decide)).trans <| (V6_of m outs c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans <| rfl
  rw [h, h', eh, e1, e2]
  rfl

theorem V22_v77 : (V22 m outs c main_v77 : FVec Ideal S100000x1 .f32) = GcnBn.asCol (kNorm (m ((c : Thread nD τ).loc main_arg2))) := by
  have h : (V22 m outs c main_v77 : FVec Ideal S100000x1 .f32) = colOfVec (V21 m outs c main_v16 : FVec Ideal S100000 .f32) shapeCasts_S100000_S100000x1 := hostOps7_1_v77 (V21 m outs c)
  have h' : (V21 m outs c main_v16 : FVec Ideal S100000 .f32) = (V5 m c main_v16 : FVec Ideal S100000 .f32) := (V21_of m outs c main_v16 (by decide)).trans <| (V20_of m outs c main_v16 (by decide)).trans <| (V19_of m outs c main_v16 (by decide)).trans <| (V18_of m outs c main_v16 (by decide)).trans <| (V17_of m outs c main_v16 (by decide)).trans <| (V16_of m outs c main_v16 (by decide)).trans <| (V15_of m outs c main_v16 (by decide)).trans <| (V14_of m outs c main_v16 (by decide)).trans <| (V13_of m outs c main_v16 (by decide)).trans <| (V12_of m outs c main_v16 (by decide)).trans <| (V11_of m outs c main_v16 (by decide)).trans <| (V10_of m outs c main_v16 (by decide)).trans <| (V9_of m outs c main_v16 (by decide)).trans <| (V8_of m outs c main_v16 (by decide)).trans <| (V7_of m outs c main_v16 (by decide)).trans <| (V6_of m outs c main_v16 (by decide)).trans <| rfl
  rw [h, h', V5_v16, colOfVec_eq_asCol]

theorem V22_v78 : (V22 m outs c main_v78 : FVec Ideal S1x40 .f32) = GcnBn.asRow (m ((c : Thread nD τ).loc main_arg12) : FVec Ideal S40 .f32) := by
  have h : (V22 m outs c main_v78 : FVec Ideal S1x40 .f32) = rowOfVec (V21 m outs c main_arg12 : FVec Ideal S40 .f32) shapeCasts_S40_S1x40 := hostOps7_1_v78 (V21 m outs c)
  have h' : V21 m outs c main_arg12 = m ((c : Thread nD τ).loc main_arg12) := (V21_of m outs c main_arg12 (by decide)).trans <| (V20_of m outs c main_arg12 (by decide)).trans <| (V19_of m outs c main_arg12 (by decide)).trans <| (V18_of m outs c main_arg12 (by decide)).trans <| (V17_of m outs c main_arg12 (by decide)).trans <| (V16_of m outs c main_arg12 (by decide)).trans <| (V15_of m outs c main_arg12 (by decide)).trans <| (V14_of m outs c main_arg12 (by decide)).trans <| (V13_of m outs c main_arg12 (by decide)).trans <| (V12_of m outs c main_arg12 (by decide)).trans <| (V11_of m outs c main_arg12 (by decide)).trans <| (V10_of m outs c main_arg12 (by decide)).trans <| (V9_of m outs c main_arg12 (by decide)).trans <| (V8_of m outs c main_arg12 (by decide)).trans <| (V7_of m outs c main_arg12 (by decide)).trans <| (V6_of m outs c main_arg12 (by decide)).trans <| (V5_of m c main_arg12 (by decide)).trans <| (V4_of m c main_arg12 (by decide)).trans <| (V3_of m c main_arg12 (by decide)).trans <| (V2_of m c main_arg12 (by decide)).trans <| (V1_of m c main_arg12 (by decide)).trans <| rfl
  rw [h, h', rowOfVec_eq_asRow]

end Cert.KernelIdeal.Hand

end
-- ==== Proof.LibBlockValue.lean ====
import Idealize.ShloMosaic.Lib.ValueIdx
import Idealize.ShloMosaic.Lib.Pipeline.Value
import Idealize.ShloMosaic.PureOps.Ideal.Laws

/-!
  Vector operations read at one index (p, q), over the extended reals: the product of an m×k by a k×n matrix
  accumulated into zero is the sum over the contracted coordinate; a column [m, 1] laid along every column of an
  [m, n] matrix reads its row's entry; a row [1, n] laid along every row reads its column's entry.
-/

noncomputable section

namespace BlockValue

open Idealize.ShloMosaic Idealize.ShloMosaic.ValueIdx

variable {m k n : Nat}

/-- (A · B + 0) (a, b) = ∑ c, A (a, c) · B (c, b), for the dimension numbers that contract the left operand's
    columns with the right operand's rows. -/
theorem matmul_zero_ix2 {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A column [m, 1] laid along the n columns of an [m, n] matrix reads, at (a, b), the column's entry a. -/
theorem broadcastCol_ix2 {α : Type} (x : (⟨2, ![m, 1]⟩ : Shape).Idx → α)
    (h : (⟨2, ![m, 1]⟩ : Shape).Broadcasts ⟨2, ![m, n]⟩) (a : Fin m) (b : Fin n) :
    broadcastTo ⟨2, ![m, n]⟩ x h (ix2 a b) = x (ix2 a (0 : Fin 1)) := by
  refine broadcastTo_apply x h (ix2 a b) (ix2 a (0 : Fin 1)) fun ax => ?_
  match ax with
  | ⟨0, _⟩ =>
    show a.val = if m = 1 then 0 else a.val
    split
    · have := a.isLt; omega
    · rfl
  | ⟨1, _⟩ => rfl

/-- A row [1, n] laid along the m rows of an [m, n] matrix reads, at (a, b), the row's entry b. -/
theorem broadcastRow_ix2 {α : Type} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 (0 : Fin 1) b) := by
  refine broadcastTo_apply x h (ix2 a b) (ix2 (0 : Fin 1) b) fun ax => ?_
  match ax with
  | ⟨0, _⟩ => rfl
  | ⟨1, _⟩ =>
    show b.val = if n = 1 then 0 else b.val
    split
    · have := b.isLt; omega
    · rfl

end BlockValue

end
-- ==== Proof.Value0.lean ====
import proofs.«107691_j23957327577190_1_alg».proof.Proof.KernelIdealBody0
import proofs.«107691_j23957327577190_1_alg».proof.Proof.LibGcnBnSpec
import proofs.«107691_j23957327577190_1_alg».proof.Proof.LibBlockValue
import Idealize.ShloMosaic.Lib.Pipeline.Value

/-! # Kernel region 0: the output array as one function of the input arrays

Over the extended reals. The body's value at an index of a block; the block a grid point writes back as that block of
one whole-array function of the input arrays; the blocks cover the output array (row r lies in the block of point
r / 5000); hence the output array after the region is that function of the input arrays. -/

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz0 : (![0, 0] : Fin 2 → Nat) = fun _ => 0 := funext fun a => by fin_cases a <;> rfl

/-- The body's value at (p, q) of a block: the product of the feature block's row p with the weights' column q, times
    the scale block's entry p. The format narrowing before the product is the identity on extended reals. -/
theorem k0_pay1_ix2 (x0 : Vec Ideal S5000x128 .f32) (x1 : Vec Ideal S128x128 .f32) (x2 : Vec Ideal S5000x1 .f32) (p : Fin 5000) (q : Fin 128) :
    k0_pay1 x0 x1 x2 (ix2 p q) = (∑ k : Fin 128, x0 (ix2 p k) * x1 (ix2 k q)) * x2 (ix2 p (0 : Fin 1)) := by
  show matmul (F := Ideal) dot_S5000x128_S128x128_S5000x128_1_0_0_1_n_n none (truncf .bf16 x0 bitsLt_bf16_f32) (truncf .bf16 x1 bitsLt_bf16_f32) (constant S5000x128 .f32 0x00000000#32) (ix2 p q)
      * broadcastTo S5000x128 (shapeCast S5000x1 x2 shapeCasts_S5000x1_S5000x1) broadcasts_S5000x1_S5000x128 (ix2 p q) = _
  rw [shapeCast_self, BlockValue.broadcastCol_ix2]
  exact congrArg (· * x2 (ix2 p (0 : Fin 1))) (BlockValue.matmul_zero_ix2 dot_S5000x128_S128x128_S5000x128_1_0_0_1_n_n_wf none _ _ p q)

/-- The index maps over the grid: at point t the feature, scale and output windows are on row block t, the weights on
    their one block. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The body's value on the input arrays' blocks at point t, at (p, q) of the block, is the whole-array function at
    that entry's place in the output array: each operand entry read is the array entry the function reads. -/
theorem block0_eq (A0 : GcnBn.Mat 100000 128) (A1 : GcnBn.Mat 128 128) (A2 : GcnBn.Mat 100000 1) (t : Fin cfg0.N) (p : Fin 5000) (q : Fin 128) :
    k0_pay1 (F := Ideal) (fun y => A0 (((cfg0.win 0).blk t).view.emb y)) (fun y => A1 (((cfg0.win 1).blk t).view.emb y)) (fun y => A2 (((cfg0.win 2).blk t).view.emb y)) (ix2 p q)
      = GcnBn.prodScaled (P := 100000) (K := 128) (Q := 128) A0 A1 A2 (((cfg0.win 3).blk t).view.emb (ix2 p q)) := by
  obtain ⟨e00, e01, e10, e11, e20, e21, e30, e31⟩ := idx_facts0 t
  rw [k0_pay1_ix2]
  show (∑ k : Fin 128, A0 (((cfg0.win 0).blk t).view.emb (ix2 p k)) * A1 (((cfg0.win 1).blk t).view.emb (ix2 k q))) * A2 (((cfg0.win 2).blk t).view.emb (ix2 p (0 : Fin 1)))
    = (∑ k : Fin 128, A0 (ix2 ((((cfg0.win 3).blk t).view.emb (ix2 p q)) 0) k) * A1 (ix2 k ((((cfg0.win 3).blk t).view.emb (ix2 p q)) 1))) * A2 (ix2 ((((cfg0.win 3).blk t).view.emb (ix2 p q)) 0) (0 : Fin 1))
  have h0 : ∀ k : Fin 128, (((cfg0.win 0).blk t).view.emb (ix2 p k)) = ix2 ((((cfg0.win 3).blk t).view.emb (ix2 p q)) 0) k := fun k => by
    funext a; apply Fin.ext
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * k.val = k.val; omega
  have h1 : ∀ k : Fin 128, (((cfg0.win 1).blk t).view.emb (ix2 k q)) = ix2 k ((((cfg0.win 3).blk t).view.emb (ix2 p q)) 1) := fun k => by
    funext a; apply Fin.ext
    match a with
    | ⟨0, _⟩ => show win0_1.index t (0 : Fin 2) * 128 + 1 * k.val = k.val; omega
    | ⟨1, _⟩ => show win0_1.index t (1 : Fin 2) * 128 + 1 * q.val = win0_3.index t (1 : Fin 2) * 128 + 1 * q.val; omega
  have h2 : (((cfg0.win 2).blk t).view.emb (ix2 p (0 : Fin 1))) = ix2 ((((cfg0.win 3).blk t).view.emb (ix2 p q)) 0) (0 : Fin 1) := by
    funext a; apply Fin.ext
    match a with
    | ⟨0, _⟩ => show win0_2.index t (0 : Fin 2) * 5000 + 1 * p.val = win0_3.index t (0 : Fin 2) * 5000 + 1 * p.val; omega
    | ⟨1, _⟩ => show win0_2.index t (1 : Fin 2) * 1 + 1 * 0 = 0; omega
  rw [h2]
  exact congrArg (· * _) (Finset.sum_congr rfl fun k _ => congrArg₂ (· * ·) (congrArg A0 (h0 k)) (congrArg A1 (h1 k)))

set_option maxHeartbeats 1000000 in
/-- What point t writes back is block t of the whole-array function. -/
theorem flushed0_eq (c : Dev nD) (t : Fin cfg0.N) :
    (dat0 V c).flushed 3 t = ((cfg0.win 3).blk t).view.read (Elt Ideal)
      (GcnBn.prodScaled (P := 100000) (K := 128) (Q := 128) (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz0]
  simp only [View.ld_unit_zero (S := S5000x128) hz0, View.ld_unit_zero (S := S128x128) hz0, View.ld_unit_zero (S := S5000x1) hz0]
  funext j
  obtain ⟨p, q, rfl⟩ : ∃ (p : Fin 5000) (q : Fin 128), j = ix2 p q := ⟨j 0, j 1, eq_ix2 j⟩
  exact block0_eq (V c (Pipeline.arrRef spec0 0)) (V c (Pipeline.arrRef spec0 1)) (V c (Pipeline.arrRef spec0 2)) t p q

/-- An index of the output array is in point t's block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v18).slice (win0_3.rect t)).set ↔ _
  rw [View.set_slice_whole, Rect.mem_set_unit]
  exact Iff.rfl

/-- Every index of the output array is in the block of the point its row selects: row r is in row block r / 5000. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : (i 0).val / 5000 < cfg0.N := lt_of_lt_of_eq (by omega : (i 0).val / 5000 < 20) N_0.symm
  refine ⟨⟨(i 0).val / 5000, hN⟩, flush0_3 _, ?_⟩
  rw [mem_blk0]
  have e := idx_facts0 ⟨(i 0).val / 5000, hN⟩
  have e30 : win0_3.index ⟨(i 0).val / 5000, hN⟩ (0 : Fin 2) = (i 0).val / 5000 := e.2.2.2.2.2.2.1
  have e31 : win0_3.index ⟨(i 0).val / 5000, hN⟩ (1 : Fin 2) = 0 := e.2.2.2.2.2.2.2
  intro a
  match a with
  | ⟨0, _⟩ =>
    show win0_3.index ⟨(i 0).val / 5000, hN⟩ (0 : Fin 2) * 5000 ≤ (i 0).val ∧ (i 0).val < win0_3.index ⟨(i 0).val / 5000, hN⟩ (0 : Fin 2) * 5000 + 5000
    rw [e30]; omega
  | ⟨1, _⟩ =>
    show win0_3.index ⟨(i 0).val / 5000, hN⟩ (1 : Fin 2) * 128 ≤ (i 1).val ∧ (i 1).val < win0_3.index ⟨(i 0).val / 5000, hN⟩ (1 : Fin 2) * 128 + 128
    rw [e31]; omega

/-- The output array after the region is the whole-array function of the input arrays. -/
theorem final0 (c : Dev nD) : (dat0 (F := Ideal) V c).arrAt 3 cfg0.N
    = GcnBn.prodScaled (P := 100000) (K := 128) (Q := 128) (V c (Pipeline.arrRef spec0 0)) (V c (Pipeline.arrRef spec0 1)) (V c (Pipeline.arrRef spec0 2)) :=
  (dat0 V c).arrAt_eq_of_cover 3 _ (fun t _ => flushed0_eq V c t) cover0

end Cert.KernelIdeal.Hand

end
-- ==== Proof.Value1Cases.lean ====
/-
  The row-statistics kernel region 1: what each control case leaves in the buffers, as values.

  In every case the first output's block is h = x·s + b of the three input blocks. The first accumulator ends as what
  it held plus the column sums of h, the second as what it held plus the column sums of h·h; at the first point what
  they held is the zero row. At the last point the second and third outputs receive the two accumulators.
-/
import proofs.«107691_j23957327577190_1_alg».proof.Proof.KernelIdealBody1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz1 : (![0, 0] : Fin 2 → Nat) = fun _ => 0 := funext fun a => by fin_cases a <;> rfl

theorem val1_A_3 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond1_0 i) (hc1 : ¬cond1_1 i)
    (x0 : Vec F S5000x128 .f32) (x1 : Vec F S5000x1 .f32) (x2 : Vec F S1x128 .f32) :
    out1_A_3 c i arg1 harg1 arg2 harg2 arg3 harg3 arg4 harg4 arg5 harg5 arg6 harg6 arg7 harg7 arg8 harg8 hc0 hc1 x0 x1 x2 = k1_pay1 x0 x1 x2 := by
  unfold out1_A_3
  rw [View.read_writes_eq_canon _ _ _ (cover1_A_3 c i arg1 harg1 arg2 harg2 arg3 harg3 arg4 harg4 arg5 harg5 arg6 harg6 arg7 harg7 arg8 harg8 hc0 hc1 x0 x1 x2)]
  unfold kernelRun1_A
  dsimp only
  try sl_unfold_words
  simp only [View.canon_cons_unit_zero (S := S1x128) hz1, View.canon_cons_unit_zero (S := S5000x128) hz1,
    View.canon_unit_zero (S := S1x128) hz1, View.canon_unit_zero (S := S5000x128) hz1,
    View.readCov_unit_zero (S := S1x128) _ hz1, View.readAt_eq_ld,
    harg1.read_unread, harg2.read_unread, harg3.read_unread, harg7.read_unread, harg8.read_unread,
    View.ld_unit_zero (S := S5000x128) hz1, View.ld_unit_zero (S := S5000x1) hz1, View.ld_unit_zero (S := S1x128) hz1]

theorem val1_A_s0 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond1_0 i) (hc1 : ¬cond1_1 i)
    (x0 : Vec F S5000x128 .f32) (x1 : Vec F S5000x1 .f32) (x2 : Vec F S1x128 .f32) :
    out1_A_s0 c i arg1 harg1 arg2 harg2 arg3 harg3 arg4 harg4 arg5 harg5 arg6 harg6 arg7 harg7 arg8 harg8 hc0 hc1 x0 x1 x2 = k1_pay4 x0 x1 x2 (k1_pay2 (F := F)) := by
  unfold out1_A_s0
  rw [View.read_writes_eq_canon _ _ _ (cover1_A_s0 c i arg1 harg1 arg2 harg2 arg3 harg3 arg4 harg4 arg5 harg5 arg6 harg6 arg7 harg7 arg8 harg8 hc0 hc1 x0 x1 x2)]
  unfold kernelRun1_A
  dsimp only
  try sl_unfold_words
  simp only [View.canon_cons_unit_zero (S := S1x128) hz1, View.canon_cons_unit_zero (S := S5000x128) hz1,
    View.canon_unit_zero (S := S1x128) hz1, View.canon_unit_zero (S := S5000x128) hz1,
    View.readCov_unit_zero (S := S1x128) _ hz1, View.readAt_eq_ld,
    harg1.read_unread, harg2.read_unread, harg3.read_unread, harg7.read_unread, harg8.read_unread,
    View.ld_unit_zero (S := S5000x128) hz1, View.ld_unit_zero (S := S5000x1) hz1, View.ld_unit_zero (S := S1x128) hz1]

theorem val1_A_s1 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond1_0 i) (hc1 : ¬cond1_1 i)
    (x0 : Vec F S5000x128 .f32) (x1 : Vec F S5000x1 .f32) (x2 : Vec F S1x128 .f32) :
    out1_A_s1 c i arg1 harg1 arg2 harg2 arg3 harg3 arg4 harg4 arg5 harg5 arg6 harg6 arg7 harg7 arg8 harg8 hc0 hc1 x0 x1 x2 = k1_pay5 x0 x1 x2 (k1_pay3 (F := F)) := by
  unfold out1_A_s1
  rw [View.read_writes_eq_canon _ _ _ (cover1_A_s1 c i arg1 harg1 arg2 harg2 arg3 harg3 arg4 harg4 arg5 harg5 arg6 harg6 arg7 harg7 arg8 harg8 hc0 hc1 x0 x1 x2)]
  unfold kernelRun1_A
  dsimp only
  try sl_unfold_words
  simp only [View.canon_cons_unit_zero (S := S1x128) hz1, View.canon_cons_unit_zero (S := S5000x128) hz1,
    View.canon_unit_zero (S := S1x128) hz1, View.canon_unit_zero (S := S5000x128) hz1,
    View.readCov_unit_zero (S := S1x128) _ hz1, View.readAt_eq_ld,
    harg1.read_unread, harg2.read_unread, harg3.read_unread, harg7.read_unread, harg8.read_unread,
    View.ld_unit_zero (S := S5000x128) hz1, View.ld_unit_zero (S := S5000x1) hz1, View.ld_unit_zero (S := S1x128) hz1]

theorem val1_B_3 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : ¬cond1_1 i)
    (x0 : Vec F S5000x128 .f32) (x1 : Vec F S5000x1 .f32) (x2 : Vec F S1x128 .f32) (xs0 xs1 : Vec F S1x128 .f32) :
    out1_B_3 c i arg1 harg1 arg2 harg2 arg3 harg3 arg4 harg4 arg5 harg5 arg6 harg6 arg7 harg7 arg8 harg8 hc0 hc1 x0 x1 x2 xs0 xs1 = k1_pay1 x0 x1 x2 := by
  unfold out1_B_3
  rw [View.read_writes_eq_canon _ _ _ (cover1_B_3 c i arg1 harg1 arg2 harg2 arg3 harg3 arg4 harg4 arg5 harg5 arg6 harg6 arg7 harg7 arg8 harg8 hc0 hc1 x0 x1 x2 xs0 xs1)]
  unfold kernelRun1_B
  dsimp only
  try sl_unfold_words
  simp only [View.canon_cons_unit_zero (S := S1x128) hz1, View.canon_cons_unit_zero (S := S5000x128) hz1,
    View.canon_unit_zero (S := S1x128) hz1, View.canon_unit_zero (S := S5000x128) hz1,
    View.readCov_unit_zero (S := S1x128) _ hz1, View.readAt_eq_ld,
    harg1.read_unread, harg2.read_unread, harg3.read_unread, harg7.read_unread, harg8.read_unread,
    View.ld_unit_zero (S := S5000x128) hz1, View.ld_unit_zero (S := S5000x1) hz1, View.ld_unit_zero (S := S1x128) hz1]

theorem val1_B_s0 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : ¬cond1_1 i)
    (x0 : Vec F S5000x128 .f32) (x1 : Vec F S5000x1 .f32) (x2 : Vec F S1x128 .f32) (xs0 xs1 : Vec F S1x128 .f32) :
    out1_B_s0 c i arg1 harg1 arg2 harg2 arg3 harg3 arg4 harg4 arg5 harg5 arg6 harg6 arg7 harg7 arg8 harg8 hc0 hc1 x0 x1 x2 xs0 xs1 = k1_pay4 x0 x1 x2 xs0 := by
  unfold out1_B_s0
  rw [View.read_writes_eq_canon _ _ _ (cover1_B_s0 c i arg1 harg1 arg2 harg2 arg3 harg3 arg4 harg4 arg5 harg5 arg6 harg6 arg7 harg7 arg8 harg8 hc0 hc1 x0 x1 x2 xs0 xs1)]
  unfold kernelRun1_B
  dsimp only
  try sl_unfold_words
  simp only [View.canon_cons_unit_zero (S := S1x128) hz1, View.canon_cons_unit_zero (S := S5000x128) hz1,
    View.canon_unit_zero (S := S1x128) hz1, View.canon_unit_zero (S := S5000x128) hz1,
    View.readCov_unit_zero (S := S1x128) _ hz1, View.readAt_eq_ld,
    harg1.read_unread, harg2.read_unread, harg3.read_unread, harg7.read_unread, harg8.read_unread,
    View.ld_unit_zero (S := S5000x128) hz1, View.ld_unit_zero (S := S5000x1) hz1, View.ld_unit_zero (S := S1x128) hz1]

theorem val1_B_s1 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : ¬cond1_1 i)
    (x0 : Vec F S5000x128 .f32) (x1 : Vec F S5000x1 .f32) (x2 : Vec F S1x128 .f32) (xs0 xs1 : Vec F S1x128 .f32) :
    out1_B_s1 c i arg1 harg1 arg2 harg2 arg3 harg3 arg4 harg4 arg5 harg5 arg6 harg6 arg7 harg7 arg8 harg8 hc0 hc1 x0 x1 x2 xs0 xs1 = k1_pay5 x0 x1 x2 xs1 := by
  unfold out1_B_s1
  rw [View.read_writes_eq_canon _ _ _ (cover1_B_s1 c i arg1 harg1 arg2 harg2 arg3 harg3 arg4 harg4 arg5 harg5 arg6 harg6 arg7 harg7 arg8 harg8 hc0 hc1 x0 x1 x2 xs0 xs1)]
  unfold kernelRun1_B
  dsimp only
  try sl_unfold_words
  simp only [View.canon_cons_unit_zero (S := S1x128) hz1, View.canon_cons_unit_zero (S := S5000x128) hz1,
    View.canon_unit_zero (S := S1x128) hz1, View.canon_unit_zero (S := S5000x128) hz1,
    View.readCov_unit_zero (S := S1x128) _ hz1, View.readAt_eq_ld,
    harg1.read_unread, harg2.read_unread, harg3.read_unread, harg7.read_unread, harg8.read_unread,
    View.ld_unit_zero (S := S5000x128) hz1, View.ld_unit_zero (S := S5000x1) hz1, View.ld_unit_zero (S := S1x128) hz1]

theorem val1_C_3 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i)
    (x0 : Vec F S5000x128 .f32) (x1 : Vec F S5000x1 .f32) (x2 : Vec F S1x128 .f32) (xs0 xs1 : Vec F S1x128 .f32) :
    out1_C_3 c i arg1 harg1 arg2 harg2 arg3 harg3 arg4 harg4 arg5 harg5 arg6 harg6 arg7 harg7 arg8 harg8 hc0 hc1 x0 x1 x2 xs0 xs1 = k1_pay1 x0 x1 x2 := by
  unfold out1_C_3
  rw [View.read_writes_eq_canon _ _ _ (cover1_C_3 c i arg1 harg1 arg2 harg2 arg3 harg3 arg4 harg4 arg5 harg5 arg6 harg6 arg7 harg7 arg8 harg8 hc0 hc1 x0 x1 x2 xs0 xs1)]
  unfold kernelRun1_C
  dsimp only
  try sl_unfold_words
  simp only [View.canon_cons_unit_zero (S := S1x128) hz1, View.canon_cons_unit_zero (S := S5000x128) hz1,
    View.canon_unit_zero (S := S1x128) hz1, View.canon_unit_zero (S := S5000x128) hz1,
    View.readCov_unit_zero (S := S1x128) _ hz1, View.readAt_eq_ld,
    harg1.read_unread, harg2.read_unread, harg3.read_unread, harg7.read_unread, harg8.read_unread,
    View.ld_unit_zero (S := S5000x128) hz1, View.ld_unit_zero (S := S5000x1) hz1, View.ld_unit_zero (S := S1x128) hz1]

theorem val1_C_4 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i)
    (x0 : Vec F S5000x128 .f32) (x1 : Vec F S5000x1 .f32) (x2 : Vec F S1x128 .f32) (xs0 xs1 : Vec F S1x128 .f32) :
    out1_C_4 c i arg1 harg1 arg2 harg2 arg3 harg3 arg4 harg4 arg5 harg5 arg6 harg6 arg7 harg7 arg8 harg8 hc0 hc1 x0 x1 x2 xs0 xs1 = k1_pay4 x0 x1 x2 xs0 := by
  unfold out1_C_4
  rw [View.read_writes_eq_canon _ _ _ (cover1_C_4 c i arg1 harg1 arg2 harg2 arg3 harg3 arg4 harg4 arg5 harg5 arg6 harg6 arg7 harg7 arg8 harg8 hc0 hc1 x0 x1 x2 xs0 xs1)]
  unfold kernelRun1_C
  dsimp only
  try sl_unfold_words
  simp only [View.canon_cons_unit_zero (S := S1x128) hz1, View.canon_cons_unit_zero (S := S5000x128) hz1,
    View.canon_unit_zero (S := S1x128) hz1, View.canon_unit_zero (S := S5000x128) hz1,
    View.readCov_unit_zero (S := S1x128) _ hz1, View.readAt_eq_ld,
    harg1.read_unread, harg2.read_unread, harg3.read_unread, harg7.read_unread, harg8.read_unread,
    View.ld_unit_zero (S := S5000x128) hz1, View.ld_unit_zero (S := S5000x1) hz1, View.ld_unit_zero (S := S1x128) hz1]

theorem val1_C_5 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i)
    (x0 : Vec F S5000x128 .f32) (x1 : Vec F S5000x1 .f32) (x2 : Vec F S1x128 .f32) (xs0 xs1 : Vec F S1x128 .f32) :
    out1_C_5 c i arg1 harg1 arg2 harg2 arg3 harg3 arg4 harg4 arg5 harg5 arg6 harg6 arg7 harg7 arg8 harg8 hc0 hc1 x0 x1 x2 xs0 xs1 = k1_pay5 x0 x1 x2 xs1 := by
  unfold out1_C_5
  rw [View.read_writes_eq_canon _ _ _ (cover1_C_5 c i arg1 harg1 arg2 harg2 arg3 harg3 arg4 harg4 arg5 harg5 arg6 harg6 arg7 harg7 arg8 harg8 hc0 hc1 x0 x1 x2 xs0 xs1)]
  unfold kernelRun1_C
  dsimp only
  try sl_unfold_words
  simp only [View.canon_cons_unit_zero (S := S1x128) hz1, View.canon_cons_unit_zero (S := S5000x128) hz1,
    View.canon_unit_zero (S := S1x128) hz1, View.canon_unit_zero (S := S5000x128) hz1,
    View.readCov_unit_zero (S := S1x128) _ hz1, View.readAt_eq_ld,
    harg1.read_unread, harg2.read_unread, harg3.read_unread, harg7.read_unread, harg8.read_unread,
    View.ld_unit_zero (S := S5000x128) hz1, View.ld_unit_zero (S := S5000x1) hz1, View.ld_unit_zero (S := S1x128) hz1]

theorem val1_C_s0 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i)
    (x0 : Vec F S5000x128 .f32) (x1 : Vec F S5000x1 .f32) (x2 : Vec F S1x128 .f32) (xs0 xs1 : Vec F S1x128 .f32) :
    out1_C_s0 c i arg1 harg1 arg2 harg2 arg3 harg3 arg4 harg4 arg5 harg5 arg6 harg6 arg7 harg7 arg8 harg8 hc0 hc1 x0 x1 x2 xs0 xs1 = k1_pay4 x0 x1 x2 xs0 := by
  unfold out1_C_s0
  rw [View.read_writes_eq_canon _ _ _ (cover1_C_s0 c i arg1 harg1 arg2 harg2 arg3 harg3 arg4 harg4 arg5 harg5 arg6 harg6 arg7 harg7 arg8 harg8 hc0 hc1 x0 x1 x2 xs0 xs1)]
  unfold kernelRun1_C
  dsimp only
  try sl_unfold_words
  simp only [View.canon_cons_unit_zero (S := S1x128) hz1, View.canon_cons_unit_zero (S := S5000x128) hz1,
    View.canon_unit_zero (S := S1x128) hz1, View.canon_unit_zero (S := S5000x128) hz1,
    View.readCov_unit_zero (S := S1x128) _ hz1, View.readAt_eq_ld,
    harg1.read_unread, harg2.read_unread, harg3.read_unread, harg7.read_unread, harg8.read_unread,
    View.ld_unit_zero (S := S5000x128) hz1, View.ld_unit_zero (S := S5000x1) hz1, View.ld_unit_zero (S := S1x128) hz1]

theorem val1_C_s1 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i)
    (x0 : Vec F S5000x128 .f32) (x1 : Vec F S5000x1 .f32) (x2 : Vec F S1x128 .f32) (xs0 xs1 : Vec F S1x128 .f32) :
    out1_C_s1 c i arg1 harg1 arg2 harg2 arg3 harg3 arg4 harg4 arg5 harg5 arg6 harg6 arg7 harg7 arg8 harg8 hc0 hc1 x0 x1 x2 xs0 xs1 = k1_pay5 x0 x1 x2 xs1 := by
  unfold out1_C_s1
  rw [View.read_writes_eq_canon _ _ _ (cover1_C_s1 c i arg1 harg1 arg2 harg2 arg3 harg3 arg4 harg4 arg5 harg5 arg6 harg6 arg7 harg7 arg8 harg8 hc0 hc1 x0 x1 x2 xs0 xs1)]
  unfold kernelRun1_C
  dsimp only
  try sl_unfold_words
  simp only [View.canon_cons_unit_zero (S := S1x128) hz1, View.canon_cons_unit_zero (S := S5000x128) hz1,
    View.canon_unit_zero (S := S1x128) hz1, View.canon_unit_zero (S := S5000x128) hz1,
    View.readCov_unit_zero (S := S1x128) _ hz1, View.readAt_eq_ld,
    harg1.read_unread, harg2.read_unread, harg3.read_unread, harg7.read_unread, harg8.read_unread,
    View.ld_unit_zero (S := S5000x128) hz1, View.ld_unit_zero (S := S5000x1) hz1, View.ld_unit_zero (S := S1x128) hz1]

end Cert.KernelIdeal.Hand

end
-- ==== Proof.LibRowBlockSum.lean ====
/-
  Column sums of a matrix taken a block of rows at a time.

  For a matrix f with P rows over the extended reals, the sum of column q over the first m rows is written as a sum over
  the naturals below m (a row index past the last row contributes 0). Adding the sum over the next B rows gives the sum
  over the first m + B rows, and the sum over the first P rows is the column's sum over all rows. A running sum that
  starts at 0 and adds one block of rows after another therefore ends at the column sum, whatever the block size.
-/
import Idealize.ShloMosaic.Lib.ValueIdx

noncomputable section

namespace RowBlockSum

open Idealize.ShloMosaic Idealize.ShloMosaic.ValueIdx

variable {P Q : Nat}

/-- Entry (j, q) of f, or 0 when j is past the last row. -/
def rowAt (f : (⟨2, ![P, Q]⟩ : Shape).Idx → EReal) (q : Fin Q) (j : ℕ) : EReal :=
  if h : j < P then f (ix2 ⟨j, h⟩ q) else 0

theorem rowAt_of_lt (f : (⟨2, ![P, Q]⟩ : Shape).Idx → EReal) (q : Fin Q) {j : ℕ} (h : j < P) :
    rowAt f q j = f (ix2 ⟨j, h⟩ q) := dif_pos h

/-- The sum of column q of f over the first m rows. -/
def partialSum (f : (⟨2, ![P, Q]⟩ : Shape).Idx → EReal) (q : Fin Q) (m : ℕ) : EReal :=
  ∑ j ∈ Finset.range m, rowAt f q j

theorem partialSum_zero (f : (⟨2, ![P, Q]⟩ : Shape).Idx → EReal) (q : Fin Q) : partialSum f q 0 = 0 := by
  unfold partialSum; rw [Finset.range_zero, Finset.sum_empty]

/-- Over all P rows it is the column's sum. -/
theorem partialSum_all (f : (⟨2, ![P, Q]⟩ : Shape).Idx → EReal) (q : Fin Q) :
    partialSum f q P = ∑ p : Fin P, f (ix2 p q) := by
  unfold partialSum
  rw [Finset.sum_range]
  exact Finset.sum_congr rfl fun p _ => rowAt_of_lt f q p.isLt

/-- Adding the next B rows' entries (given as g, entry k being row m + k) extends the sum to the first m + B rows. -/
theorem partialSum_add_block (f : (⟨2, ![P, Q]⟩ : Shape).Idx → EReal) (q : Fin Q) (m B : ℕ) (hB : m + B ≤ P)
    (g : Fin B → EReal) (hg : ∀ k : Fin B, g k = f (ix2 ⟨m + k.val, by have := k.isLt; omega⟩ q)) :
    partialSum f q m + ∑ k : Fin B, g k = partialSum f q (m + B) := by
  unfold partialSum
  rw [Finset.sum_range_add, Finset.sum_range (fun x => rowAt f q (m + x))]
  congr 1
  exact Finset.sum_congr rfl fun k _ => by
    rw [hg k, rowAt_of_lt f q (by have := k.isLt; omega : m + k.val < P)]

end RowBlockSum

end
-- ==== Proof.Value1.lean ====
/-
  The row-statistics kernel region 1: its three output arrays as whole-array functions of its input arrays.

  Over the extended reals. With h (p, q) = x (p, q) · s (p, 0) + b (0, q) on all 100000 rows: the first output array
  ends as h, since the block written back at grid point t is rows 5000·t … 5000·t + 4999 of h and the twenty blocks
  cover the array. The accumulators after point n hold, in column q, the sums of h (·, q) and of h (·, q)² over the
  first 5000·(n + 1) rows: by induction on n, each point adding its own block of rows to what the point before left,
  the first point starting from the zero row. After the last point that is the sum over all rows, which the last point
  copies to the second and third outputs; their one block is the whole row.
-/
import proofs.«107691_j23957327577190_1_alg».proof.Proof.Value1Cases
import proofs.«107691_j23957327577190_1_alg».proof.Proof.LibGcnBnSpec
import proofs.«107691_j23957327577190_1_alg».proof.Proof.LibBlockValue
import proofs.«107691_j23957327577190_1_alg».proof.Proof.LibRowBlockSum
import Idealize.ShloMosaic.Lib.Pipeline.Value
import Idealize.ShloMosaic.Lib.ValueLayout

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-! ## The body's values at an index -/

/-- h at (p, q) of a block: the entry times its row's scale plus its column's bias. -/
theorem k1_pay1_ix2 (x0 : Vec Ideal S5000x128 .f32) (x1 : Vec Ideal S5000x1 .f32) (x2 : Vec Ideal S1x128 .f32) (p : Fin 5000) (q : Fin 128) :
    k1_pay1 x0 x1 x2 (ix2 p q) = x0 (ix2 p q) * x1 (ix2 p (0 : Fin 1)) + x2 (ix2 (0 : Fin 1) q) := by
  show shapeCast S5000x128 x0 shapeCasts_S5000x128_S5000x128 (ix2 p q)
      * broadcastTo S5000x128 (shapeCast S5000x1 x1 shapeCasts_S5000x1_S5000x1) broadcasts_S5000x1_S5000x128 (ix2 p q)
      + broadcastTo S5000x128 (shapeCast S1x128 x2 shapeCasts_S1x128_S1x128) broadcasts_S1x128_S5000x128 (ix2 p q) = _
  rw [shapeCast_self, shapeCast_self, shapeCast_self, BlockValue.broadcastCol_ix2, BlockValue.broadcastRow_ix2]

/-- The zero rows the first point stores. -/
theorem k1_pay2_ix2 (u : Fin 1) (q : Fin 128) : k1_pay2 (F := Ideal) (ix2 u q) = 0 := by
  show shapeCast S1x128 (broadcast S1x128 (Scalar.ofBits (F := Ideal) .f32 0x00000000#32)) shapeCasts_S1x128_S1x128 (ix2 u q) = 0
  rw [shapeCast_self]
  exact Ideal.ofBits_zero_f32
theorem k1_pay3_ix2 (u : Fin 1) (q : Fin 128) : k1_pay3 (F := Ideal) (ix2 u q) = 0 := by
  show shapeCast S1x128 (broadcast S1x128 (Scalar.ofBits (F := Ideal) .f32 0x00000000#32)) shapeCasts_S1x128_S1x128 (ix2 u q) = 0
  rw [shapeCast_self]
  exact Ideal.ofBits_zero_f32

/-- The source index over lane q with row k inserted is (k, q). -/
theorem lift1_eq (q : Fin 128) (k : Fin 5000) :
    reduces_S5000x128_S128.lift (ix1 q) k = (ix2 k q : S5000x128.Idx) := by
  funext a
  match a with
  | ⟨0, _⟩ => rfl
  | ⟨1, _⟩ => rfl

/-- The first accumulator's new row: what it held plus the block's column sums of h. -/
theorem k1_pay4_ix2 (x0 : Vec Ideal S5000x128 .f32) (x1 : Vec Ideal S5000x1 .f32) (x2 : Vec Ideal S1x128 .f32) (v14 : Vec Ideal S1x128 .f32) (u : Fin 1) (q : Fin 128) :
    k1_pay4 x0 x1 x2 v14 (ix2 u q) = v14 (ix2 u q) + ∑ k : Fin 5000, k1_pay1 x0 x1 x2 (ix2 k q) := by
  show shapeCast S1x128 (addf v14 (shapeCast S1x128 (multiReduction .add [0] S128 (k1_pay1 x0 x1 x2) 0x00000000#32 reduces_S5000x128_S128 (.inl rfl) rfl) shapeCasts_S128_S1x128)) shapeCasts_S1x128_S1x128 (ix2 u q) = _
  rw [shapeCast_self]
  show v14 (ix2 u q) + shapeCast S1x128 (multiReduction .add [0] S128 (k1_pay1 x0 x1 x2) 0x00000000#32 reduces_S5000x128_S128 (.inl rfl) rfl) shapeCasts_S128_S1x128 (ix2 u q) = _
  rw [shapeCast_a_1a_apply]
  refine congrArg (v14 (ix2 u q) + ·) ((Ideal.multiReduction_add_single _ _ _ _ _ _).trans ?_)
  exact Finset.sum_congr rfl fun k _ => congrArg (k1_pay1 x0 x1 x2) (lift1_eq q k)

/-- The second accumulator's new row: what it held plus the block's column sums of h·h. -/
theorem k1_pay5_ix2 (x0 : Vec Ideal S5000x128 .f32) (x1 : Vec Ideal S5000x1 .f32) (x2 : Vec Ideal S1x128 .f32) (v21 : Vec Ideal S1x128 .f32) (u : Fin 1) (q : Fin 128) :
    k1_pay5 x0 x1 x2 v21 (ix2 u q) = v21 (ix2 u q) + ∑ k : Fin 5000, k1_pay1 x0 x1 x2 (ix2 k q) * k1_pay1 x0 x1 x2 (ix2 k q) := by
  show shapeCast S1x128 (addf v21 (shapeCast S1x128 (multiReduction .add [0] S128 (mulf (k1_pay1 x0 x1 x2) (k1_pay1 x0 x1 x2)) 0x00000000#32 reduces_S5000x128_S128 (.inl rfl) rfl) shapeCasts_S128_S1x128)) shapeCasts_S1x128_S1x128 (ix2 u q) = _
  rw [shapeCast_self]
  show v21 (ix2 u q) + shapeCast S1x128 (multiReduction .add [0] S128 (mulf (k1_pay1 x0 x1 x2) (k1_pay1 x0 x1 x2)) 0x00000000#32 reduces_S5000x128_S128 (.inl rfl) rfl) shapeCasts_S128_S1x128 (ix2 u q) = _
  rw [shapeCast_a_1a_apply]
  refine congrArg (v21 (ix2 u q) + ·) ((Ideal.multiReduction_add_single _ _ _ _ _ _).trans ?_)
  exact Finset.sum_congr rfl fun k _ => by rw [lift1_eq q k]; rfl

/-! ## Blocks of rows -/

/-- The index maps over the grid: at point t the first two inputs and the first output are on row block t; the bias
    and the two late outputs on their one block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- Entry (p, q) of the first output's block at point t sits at row 5000·t + p of the array. -/
theorem emb1_3_eq (t : Fin cfg1.N) (p : Fin 5000) (q : Fin 128) (h : 5000 * t.val + p.val < 100000) :
    ((cfg1.win 3).blk t).view.emb (ix2 p q) = (ix2 (⟨5000 * t.val + p.val, h⟩ : Fin 100000) q : S100000x128.Idx) := by
  obtain ⟨-, -, -, -, -, -, e30, e31, -⟩ := idx_facts1 t
  funext a; apply Fin.ext
  match a with
  | ⟨0, _⟩ => show win1_3.index t (0 : Fin 2) * 5000 + 1 * p.val = 5000 * t.val + p.val; omega
  | ⟨1, _⟩ => show win1_3.index t (1 : Fin 2) * 128 + 1 * q.val = q.val; omega

/-- h computed on the input arrays' blocks at point t, at (p, q) of the block, is h of the whole arrays at that
    entry's place in the output array. -/
theorem block1_eq (A0 : GcnBn.Mat 100000 128) (A1 : GcnBn.Mat 100000 1) (A2 : GcnBn.Mat 1 128) (t : Fin cfg1.N) (p : Fin 5000) (q : Fin 128) :
    k1_pay1 (F := Ideal) (fun y => A0 (((cfg1.win 0).blk t).view.emb y)) (fun y => A1 (((cfg1.win 1).blk t).view.emb y)) (fun y => A2 (((cfg1.win 2).blk t).view.emb y)) (ix2 p q)
      = GcnBn.scaleBias (P := 100000) (Q := 128) A0 A1 A2 (((cfg1.win 3).blk t).view.emb (ix2 p q)) := by
  obtain ⟨e00, e01, e10, e11, e20, e21, e30, e31, -⟩ := idx_facts1 t
  rw [k1_pay1_ix2]
  show A0 (((cfg1.win 0).blk t).view.emb (ix2 p q)) * A1 (((cfg1.win 1).blk t).view.emb (ix2 p (0 : Fin 1))) + A2 (((cfg1.win 2).blk t).view.emb (ix2 (0 : Fin 1) q))
    = A0 (((cfg1.win 3).blk t).view.emb (ix2 p q)) * A1 (ix2 ((((cfg1.win 3).blk t).view.emb (ix2 p q)) 0) (0 : Fin 1)) + A2 (ix2 (0 : Fin 1) ((((cfg1.win 3).blk t).view.emb (ix2 p q)) 1))
  have h0 : (((cfg1.win 0).blk t).view.emb (ix2 p q)) = (((cfg1.win 3).blk t).view.emb (ix2 p q)) := by
    funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 128 + 1 * q.val = win1_3.index t (1 : Fin 2) * 128 + 1 * q.val; omega
  have h1 : (((cfg1.win 1).blk t).view.emb (ix2 p (0 : Fin 1))) = ix2 ((((cfg1.win 3).blk t).view.emb (ix2 p q)) 0) (0 : Fin 1) := by
    funext a; apply Fin.ext
    match a with
    | ⟨0, _⟩ => show win1_1.index t (0 : Fin 2) * 5000 + 1 * p.val = win1_3.index t (0 : Fin 2) * 5000 + 1 * p.val; omega
    | ⟨1, _⟩ => show win1_1.index t (1 : Fin 2) * 1 + 1 * 0 = 0; omega
  have h2 : (((cfg1.win 2).blk t).view.emb (ix2 (0 : Fin 1) q)) = ix2 (0 : Fin 1) ((((cfg1.win 3).blk t).view.emb (ix2 p q)) 1) := by
    funext a; apply Fin.ext
    match a with
    | ⟨0, _⟩ => show win1_2.index t (0 : Fin 2) * 1 + 1 * 0 = 0; omega
    | ⟨1, _⟩ => show win1_2.index t (1 : Fin 2) * 128 + 1 * q.val = win1_3.index t (1 : Fin 2) * 128 + 1 * q.val; omega
  rw [h0, h1, h2]
  rfl

variable (V : (c : Dev nD) → (b : Ref sig .tc) → Buf (Elt Ideal) ((c : Thread nD τ).loc b))

/-- h of the whole input arrays. -/
abbrev H1 (c : Dev nD) : GcnBn.Mat 100000 128 := GcnBn.scaleBias (P := 100000) (Q := 128) (V c (Pipeline.arrRef spec1 0)) (V c (Pipeline.arrRef spec1 1)) (V c (Pipeline.arrRef spec1 2))
/-- Its entrywise square. -/
abbrev Hsq1 (c : Dev nD) : GcnBn.Mat 100000 128 := fun i => H1 V c i * H1 V c i

/-- h on the blocks at point t, at (p, q), is h of the whole arrays at row 5000·t + p. -/
theorem blockRow1_eq (c : Dev nD) (t : Fin cfg1.N) (p : Fin 5000) (q : Fin 128) (h : 5000 * t.val + p.val < 100000) :
    k1_pay1 (iblk1 V c 0 t) (iblk1 V c 1 t) (iblk1 V c 2 t) (ix2 p q) = H1 V c (ix2 (⟨5000 * t.val + p.val, h⟩ : Fin 100000) q) := by
  rw [← emb1_3_eq t p q h]
  exact block1_eq (V c (Pipeline.arrRef spec1 0)) (V c (Pipeline.arrRef spec1 1)) (V c (Pipeline.arrRef spec1 2)) t p q

/-! ## The first output -/

/-- In every case the first output's block after point t is h of the three input blocks. -/
theorem out1_3_eq (c : Dev nD) (t : Fin cfg1.N) :
    (outsAt1 V c t.val t.isLt).1 = k1_pay1 (iblk1 V c 0 t) (iblk1 V c 1 t) (iblk1 V c 2 t) := by
  have hN : t.val < 20 := lt_of_lt_of_eq t.isLt (show cfg1.N = 20 from N_1)
  by_cases h0 : t.val % 20 = 0
  · have h1 : ¬t.val % 20 = 19 := by omega
    rw [outsAt1_A V c t h0 h1]
    dsimp only
    rw [val1_A_3]
  · by_cases h1 : t.val % 20 = 19
    · rw [outsAt1_C V c t h0 h1]
      dsimp only
      rw [val1_C_3]
    · rw [outsAt1_B V c t h0 h1]
      dsimp only
      rw [val1_B_3]

set_option maxHeartbeats 1000000 in
/-- What point t writes back into the first output is block t of h. -/
theorem flushed1_3_eq (c : Dev nD) (t : Fin cfg1.N) :
    (dat1 V c).flushed 3 t = ((cfg1.win 3).blk t).view.read (Elt Ideal) (H1 V c) := by
  show (cfg1.win 3).cut (grid1.coords t) ((dat1 V c).after 3 t) = _
  rw [after1_3, out1_3_eq]
  funext j
  obtain ⟨p, q, rfl⟩ : ∃ (p : Fin 5000) (q : Fin 128), j = ix2 p q := ⟨j 0, j 1, eq_ix2 j⟩
  exact block1_eq (V c (Pipeline.arrRef spec1 0)) (V c (Pipeline.arrRef spec1 1)) (V c (Pipeline.arrRef spec1 2)) t p q

/-- An index of the first output array is in point t's block iff each coordinate is in the block's range. -/
theorem mem_blk1_3 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v25_0).slice (win1_3.rect t)).set ↔ _
  rw [View.set_slice_whole, Rect.mem_set_unit]
  exact Iff.rfl

/-- Row r of the first output array is in row block r / 5000. -/
theorem cover1_3 (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : (i 0).val / 5000 < cfg1.N := lt_of_lt_of_eq (by omega : (i 0).val / 5000 < 20) N_1.symm
  refine ⟨⟨(i 0).val / 5000, hN⟩, flush1_3 _, ?_⟩
  rw [mem_blk1_3]
  obtain ⟨-, -, -, -, -, -, e30, e31, -⟩ := idx_facts1 ⟨(i 0).val / 5000, hN⟩
  have e30' : win1_3.index ⟨(i 0).val / 5000, hN⟩ (0 : Fin 2) = (i 0).val / 5000 := e30
  intro a
  match a with
  | ⟨0, _⟩ =>
    show win1_3.index ⟨(i 0).val / 5000, hN⟩ (0 : Fin 2) * 5000 ≤ (i 0).val ∧ (i 0).val < win1_3.index ⟨(i 0).val / 5000, hN⟩ (0 : Fin 2) * 5000 + 5000
    rw [e30']; omega
  | ⟨1, _⟩ =>
    show win1_3.index ⟨(i 0).val / 5000, hN⟩ (1 : Fin 2) * 128 ≤ (i 1).val ∧ (i 1).val < win1_3.index ⟨(i 0).val / 5000, hN⟩ (1 : Fin 2) * 128 + 128
    rw [e31]; omega

/-- The first output array after the region is h of the input arrays. -/
theorem final1_h (c : Dev nD) : (dat1 (F := Ideal) V c).arrAt 3 cfg1.N = GcnBn.scaleBias (P := 100000) (Q := 128) (V c (Pipeline.arrRef spec1 0)) (V c (Pipeline.arrRef spec1 1)) (V c (Pipeline.arrRef spec1 2)) :=
  (dat1 V c).arrAt_eq_of_cover 3 _ (fun t _ => flushed1_3_eq V c t) cover1_3

/-! ## The accumulators -/

/-- Column q of the running sum after point n: the sum of f (·, q) over the first 5000·(n + 1) rows. -/
def acc1 (f : GcnBn.Mat 100000 128) (n : ℕ) : Vec Ideal S1x128 .f32 :=
  fun i => RowBlockSum.partialSum f (i 1) (5000 * (n + 1))

/-- One point's step for the sums of h: from the sum over the rows before block t to the sum through block t. -/
theorem pay4_acc1 (c : Dev nD) (t : Fin cfg1.N) (xs : Vec Ideal S1x128 .f32)
    (hxs : ∀ (u : Fin 1) (q : Fin 128), xs (ix2 u q) = RowBlockSum.partialSum (H1 V c) q (5000 * t.val)) :
    k1_pay4 (iblk1 V c 0 t) (iblk1 V c 1 t) (iblk1 V c 2 t) xs = acc1 (H1 V c) t.val := by
  have hN : t.val < 20 := lt_of_lt_of_eq t.isLt (show cfg1.N = 20 from N_1)
  funext j
  obtain ⟨u, q, rfl⟩ : ∃ (u : Fin 1) (q : Fin 128), j = ix2 u q := ⟨j 0, j 1, eq_ix2 j⟩
  rw [k1_pay4_ix2, hxs]
  show _ = RowBlockSum.partialSum (H1 V c) q (5000 * (t.val + 1))
  rw [Nat.mul_succ]
  exact RowBlockSum.partialSum_add_block (H1 V c) q (5000 * t.val) 5000 (by omega) _
    (fun k => blockRow1_eq V c t k q (by have := k.isLt; omega))

/-- The same for the sums of h·h. -/
theorem pay5_acc1 (c : Dev nD) (t : Fin cfg1.N) (xs : Vec Ideal S1x128 .f32)
    (hxs : ∀ (u : Fin 1) (q : Fin 128), xs (ix2 u q) = RowBlockSum.partialSum (Hsq1 V c) q (5000 * t.val)) :
    k1_pay5 (iblk1 V c 0 t) (iblk1 V c 1 t) (iblk1 V c 2 t) xs = acc1 (Hsq1 V c) t.val := by
  have hN : t.val < 20 := lt_of_lt_of_eq t.isLt (show cfg1.N = 20 from N_1)
  funext j
  obtain ⟨u, q, rfl⟩ : ∃ (u : Fin 1) (q : Fin 128), j = ix2 u q := ⟨j 0, j 1, eq_ix2 j⟩
  rw [k1_pay5_ix2, hxs]
  show _ = RowBlockSum.partialSum (Hsq1 V c) q (5000 * (t.val + 1))
  rw [Nat.mul_succ]
  exact RowBlockSum.partialSum_add_block (Hsq1 V c) q (5000 * t.val) 5000 (by omega) _
    (fun k => by rw [blockRow1_eq V c t k q (by have := k.isLt; omega)])

/-- After point n the accumulators hold the sums over the first 5000·(n + 1) rows: by induction on n. -/
theorem acc1_eq (c : Dev nD) : ∀ (n : ℕ) (hn : n < cfg1.N),
    (outsAt1 V c n hn).2.2.2.1 = acc1 (H1 V c) n ∧ (outsAt1 V c n hn).2.2.2.2 = acc1 (Hsq1 V c) n
  | 0, hn => by
    rw [outsAt1_A V c ⟨0, hn⟩ (Nat.zero_mod _) (by dsimp only; omega)]
    dsimp only
    rw [val1_A_s0, val1_A_s1]
    exact ⟨pay4_acc1 V c ⟨0, hn⟩ _ (fun u q => by
        rw [k1_pay2_ix2]; show (0 : EReal) = RowBlockSum.partialSum _ q (5000 * 0)
        rw [Nat.mul_zero, RowBlockSum.partialSum_zero]),
      pay5_acc1 V c ⟨0, hn⟩ _ (fun u q => by
        rw [k1_pay3_ix2]; show (0 : EReal) = RowBlockSum.partialSum _ q (5000 * 0)
        rw [Nat.mul_zero, RowBlockSum.partialSum_zero])⟩
  | n + 1, hn => by
    obtain ⟨ih0, ih1⟩ := acc1_eq c n (Nat.lt_of_succ_lt hn)
    have hN : n + 1 < 20 := lt_of_lt_of_eq hn (show cfg1.N = 20 from N_1)
    have h0 : ¬(⟨n + 1, hn⟩ : Fin cfg1.N).val % 20 = 0 := by dsimp only; omega
    by_cases h1 : (⟨n + 1, hn⟩ : Fin cfg1.N).val % 20 = 19
    · rw [outsAt1_C V c ⟨n + 1, hn⟩ h0 h1]
      dsimp only
      rw [val1_C_s0, val1_C_s1]
      show k1_pay4 _ _ _ (outsAt1 V c n _).2.2.2.1 = _ ∧ k1_pay5 _ _ _ (outsAt1 V c n _).2.2.2.2 = _
      rw [ih0, ih1]
      exact ⟨pay4_acc1 V c ⟨n + 1, hn⟩ _ (fun u q => rfl), pay5_acc1 V c ⟨n + 1, hn⟩ _ (fun u q => rfl)⟩
    · rw [outsAt1_B V c ⟨n + 1, hn⟩ h0 h1]
      dsimp only
      rw [val1_B_s0, val1_B_s1]
      show k1_pay4 _ _ _ (outsAt1 V c n _).2.2.2.1 = _ ∧ k1_pay5 _ _ _ (outsAt1 V c n _).2.2.2.2 = _
      rw [ih0, ih1]
      exact ⟨pay4_acc1 V c ⟨n + 1, hn⟩ _ (fun u q => rfl), pay5_acc1 V c ⟨n + 1, hn⟩ _ (fun u q => rfl)⟩

/-! ## The two late outputs -/

/-- After the last point the running sums are over all rows. -/
theorem acc1_last_4 (c : Dev nD) : acc1 (H1 V c) 19 = GcnBn.colSum (H1 V c) := by
  funext j
  obtain ⟨u, q, rfl⟩ : ∃ (u : Fin 1) (q : Fin 128), j = ix2 u q := ⟨j 0, j 1, eq_ix2 j⟩
  rw [GcnBn.colSum_ix2]
  exact RowBlockSum.partialSum_all (H1 V c) q
theorem acc1_last_5 (c : Dev nD) : acc1 (Hsq1 V c) 19 = GcnBn.colSumSq (H1 V c) := by
  funext j
  obtain ⟨u, q, rfl⟩ : ∃ (u : Fin 1) (q : Fin 128), j = ix2 u q := ⟨j 0, j 1, eq_ix2 j⟩
  rw [GcnBn.colSumSq_ix2]
  exact RowBlockSum.partialSum_all (Hsq1 V c) q

set_option maxHeartbeats 1000000 in
/-- What the last point writes back into output 2 is the whole row of column sums. -/
theorem flushed1_4_eq (c : Dev nD) (t : Fin cfg1.N) (hf : (cfg1.win 4).flush t = true) :
    (dat1 V c).flushed 4 t = ((cfg1.win 4).blk t).view.read (Elt Ideal) (GcnBn.colSum (H1 V c)) := by
  have hN : t.val < 20 := lt_of_lt_of_eq t.isLt (show cfg1.N = 20 from N_1)
  have h19 : t.val % 20 = 19 := (flush1_4 t).mp hf
  have h0 : ¬t.val % 20 = 0 := by omega
  have ht : t.val = 19 := by omega
  obtain ⟨-, -, -, -, -, -, -, -, e40, e41, e50, e51⟩ := idx_facts1 t
  show (cfg1.win 4).cut (grid1.coords t) ((dat1 V c).after 4 t) = _
  rw [after1_4, outsAt1_C V c t h0 h19]
  dsimp only
  rw [val1_C_4, (acc1_eq V c (t.val - 1) _).1,
    pay4_acc1 V c t (acc1 (H1 V c) (t.val - 1)) (fun u q => by
      show RowBlockSum.partialSum _ q (5000 * (t.val - 1 + 1)) = _
      rw [show t.val - 1 + 1 = t.val from by omega])]
  rw [ht, acc1_last_4]
  have hz' : (fun a => win1_4.index t a * main_v25_1.ty.shape.size a) = fun _ => 0 := funext fun a => by
    match a with
    | ⟨0, _⟩ => show win1_4.index t (0 : Fin 2) * 1 = 0; omega
    | ⟨1, _⟩ => show win1_4.index t (1 : Fin 2) * 128 = 0; omega
  exact (Memref.read_access_unit_zero (Elt Ideal) main_v25_1 hz' (fun a => by rw [congrFun hz' a]; simp) (GcnBn.colSum (H1 V c))).symm

/-- The one index block of output 2 is the whole row, and the last point writes it back. -/
theorem cover1_4 (i : S1x128.Idx) : ∃ t : Fin cfg1.N, (cfg1.win 4).flush t = true ∧ i ∈ ((cfg1.win 4).blk t).view.set := by
  have hi0 : (i 0).val < 1 := (i 0).isLt
  have hi1 : (i 1).val < 128 := (i 1).isLt
  have hN : 19 < cfg1.N := lt_of_lt_of_eq (by omega : 19 < 20) N_1.symm
  refine ⟨⟨19, hN⟩, (flush1_4 _).mpr rfl, ?_⟩
  obtain ⟨-, -, -, -, -, -, -, -, e40, e41, e50, e51⟩ := idx_facts1 ⟨19, hN⟩
  show i ∈ ((View.whole main_v25_1).slice (win1_4.rect ⟨19, hN⟩)).set
  rw [View.set_slice_whole, Rect.mem_set_unit]
  intro a
  match a with
  | ⟨0, _⟩ =>
    show win1_4.index ⟨19, hN⟩ (0 : Fin 2) * 1 ≤ (i 0).val ∧ (i 0).val < win1_4.index ⟨19, hN⟩ (0 : Fin 2) * 1 + 1
    omega
  | ⟨1, _⟩ =>
    show win1_4.index ⟨19, hN⟩ (1 : Fin 2) * 128 ≤ (i 1).val ∧ (i 1).val < win1_4.index ⟨19, hN⟩ (1 : Fin 2) * 128 + 128
    omega

set_option maxHeartbeats 1000000 in
/-- What the last point writes back into output 3 is the whole row of column sums of squares. -/
theorem flushed1_5_eq (c : Dev nD) (t : Fin cfg1.N) (hf : (cfg1.win 5).flush t = true) :
    (dat1 V c).flushed 5 t = ((cfg1.win 5).blk t).view.read (Elt Ideal) (GcnBn.colSumSq (H1 V c)) := by
  have hN : t.val < 20 := lt_of_lt_of_eq t.isLt (show cfg1.N = 20 from N_1)
  have h19 : t.val % 20 = 19 := (flush1_5 t).mp hf
  have h0 : ¬t.val % 20 = 0 := by omega
  have ht : t.val = 19 := by omega
  obtain ⟨-, -, -, -, -, -, -, -, e40, e41, e50, e51⟩ := idx_facts1 t
  show (cfg1.win 5).cut (grid1.coords t) ((dat1 V c).after 5 t) = _
  rw [after1_5, outsAt1_C V c t h0 h19]
  dsimp only
  rw [val1_C_5, (acc1_eq V c (t.val - 1) _).2,
    pay5_acc1 V c t (acc1 (Hsq1 V c) (t.val - 1)) (fun u q => by
      show RowBlockSum.partialSum _ q (5000 * (t.val - 1 + 1)) = _
      rw [show t.val - 1 + 1 = t.val from by omega])]
  rw [ht, acc1_last_5]
  have hz' : (fun a => win1_5.index t a * main_v25_2.ty.shape.size a) = fun _ => 0 := funext fun a => by
    match a with
    | ⟨0, _⟩ => show win1_5.index t (0 : Fin 2) * 1 = 0; omega
    | ⟨1, _⟩ => show win1_5.index t (1 : Fin 2) * 128 = 0; omega
  exact (Memref.read_access_unit_zero (Elt Ideal) main_v25_2 hz' (fun a => by rw [congrFun hz' a]; simp) (GcnBn.colSumSq (H1 V c))).symm

/-- The one index block of output 3 is the whole row, and the last point writes it back. -/
theorem cover1_5 (i : S1x128.Idx) : ∃ t : Fin cfg1.N, (cfg1.win 5).flush t = true ∧ i ∈ ((cfg1.win 5).blk t).view.set := by
  have hi0 : (i 0).val < 1 := (i 0).isLt
  have hi1 : (i 1).val < 128 := (i 1).isLt
  have hN : 19 < cfg1.N := lt_of_lt_of_eq (by omega : 19 < 20) N_1.symm
  refine ⟨⟨19, hN⟩, (flush1_5 _).mpr rfl, ?_⟩
  obtain ⟨-, -, -, -, -, -, -, -, e40, e41, e50, e51⟩ := idx_facts1 ⟨19, hN⟩
  show i ∈ ((View.whole main_v25_2).slice (win1_5.rect ⟨19, hN⟩)).set
  rw [View.set_slice_whole, Rect.mem_set_unit]
  intro a
  match a with
  | ⟨0, _⟩ =>
    show win1_5.index ⟨19, hN⟩ (0 : Fin 2) * 1 ≤ (i 0).val ∧ (i 0).val < win1_5.index ⟨19, hN⟩ (0 : Fin 2) * 1 + 1
    omega
  | ⟨1, _⟩ =>
    show win1_5.index ⟨19, hN⟩ (1 : Fin 2) * 128 ≤ (i 1).val ∧ (i 1).val < win1_5.index ⟨19, hN⟩ (1 : Fin 2) * 128 + 128
    omega

/-- The second output array after the region is the row of h's column sums. -/
theorem final1_sum (c : Dev nD) : (dat1 (F := Ideal) V c).arrAt 4 cfg1.N = GcnBn.colSum (GcnBn.scaleBias (P := 100000) (Q := 128) (V c (Pipeline.arrRef spec1 0)) (V c (Pipeline.arrRef spec1 1)) (V c (Pipeline.arrRef spec1 2))) :=
  (dat1 V c).arrAt_eq_of_cover 4 _ (fun t hf => flushed1_4_eq V c t hf) cover1_4

/-- The third output array after the region is the row of h's column sums of squares. -/
theorem final1_sumsq (c : Dev nD) : (dat1 (F := Ideal) V c).arrAt 5 cfg1.N = GcnBn.colSumSq (GcnBn.scaleBias (P := 100000) (Q := 128) (V c (Pipeline.arrRef spec1 0)) (V c (Pipeline.arrRef spec1 1)) (V c (Pipeline.arrRef spec1 2))) :=
  (dat1 V c).arrAt_eq_of_cover 5 _ (fun t hf => flushed1_5_eq V c t hf) cover1_5

end Cert.KernelIdeal.Hand

end
-- ==== Proof.Value2.lean ====
import proofs.«107691_j23957327577190_1_alg».proof.Proof.KernelIdealBody2
import proofs.«107691_j23957327577190_1_alg».proof.Proof.LibGcnBnSpec
import proofs.«107691_j23957327577190_1_alg».proof.Proof.LibBlockValue
import Idealize.ShloMosaic.Lib.Pipeline.Value

/-! # Kernel region 2: the output array as one function of the input arrays

Over the extended reals. The body's value at an index of a block; the block a grid point writes back as that block of
one whole-array function of the input arrays; the blocks cover the output array (row r lies in the block of point
r / 5000); hence the output array after the region is that function of the input arrays. -/

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz2 : (![0, 0] : Fin 2 → Nat) = fun _ => 0 := funext fun a => by fin_cases a <;> rfl

/-- The body's value at (p, q) of a block: the feature entry minus the mean row's entry q, times the two scale rows'
    entries q, plus the shift row's entry q, clamped below at 0. -/
theorem k2_pay1_ix2 (x0 : Vec Ideal S5000x128 .f32) (x1 x2 x3 x4 : Vec Ideal S1x128 .f32) (p : Fin 5000) (q : Fin 128) :
    k2_pay1 x0 x1 x2 x3 x4 (ix2 p q)
      = max (((x0 (ix2 p q) - x1 (ix2 (0 : Fin 1) q)) * x2 (ix2 (0 : Fin 1) q)) * x3 (ix2 (0 : Fin 1) q) + x4 (ix2 (0 : Fin 1) q)) 0 := by
  show max ((((shapeCast S5000x128 x0 shapeCasts_S5000x128_S5000x128 (ix2 p q) : Ideal .f32) - broadcastTo S5000x128 (shapeCast S1x128 x1 shapeCasts_S1x128_S1x128) broadcasts_S1x128_S5000x128 (ix2 p q)) * broadcastTo S5000x128 (shapeCast S1x128 x2 shapeCasts_S1x128_S1x128) broadcasts_S1x128_S5000x128 (ix2 p q)) * broadcastTo S5000x128 (shapeCast S1x128 x3 shapeCasts_S1x128_S1x128) broadcasts_S1x128_S5000x128 (ix2 p q) + broadcastTo S5000x128 (shapeCast S1x128 x4 shapeCasts_S1x128_S1x128) broadcasts_S1x128_S5000x128 (ix2 p q))
      (Ideal.ofBits .f32 0x00000000#32) = _
  rw [Ideal.ofBits_zero_f32]
  simp only [shapeCast_self, BlockValue.broadcastRow_ix2]

/-- The index maps over the grid: at point t the feature and output windows are on row block t, each parameter row on
    its one block. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The body's value on the input arrays' blocks at point t, at (p, q) of the block, is the whole-array function at
    that entry's place in the output array: each operand entry read is the array entry the function reads. -/
theorem block2_eq (A0 : GcnBn.Mat 100000 128) (A1 A2 A3 A4 : GcnBn.Mat 1 128) (t : Fin cfg2.N) (p : Fin 5000) (q : Fin 128) :
    k2_pay1 (F := Ideal) (fun y => A0 (((cfg2.win 0).blk t).view.emb y)) (fun y => A1 (((cfg2.win 1).blk t).view.emb y)) (fun y => A2 (((cfg2.win 2).blk t).view.emb y)) (fun y => A3 (((cfg2.win 3).blk t).view.emb y)) (fun y => A4 (((cfg2.win 4).blk t).view.emb y)) (ix2 p q)
      = GcnBn.normRelu (P := 100000) (Q := 128) A0 A1 A2 A3 A4 (((cfg2.win 5).blk t).view.emb (ix2 p q)) := by
  obtain ⟨e00, e01, e10, e11, e20, e21, e30, e31, e40, e41, e50, e51⟩ := idx_facts2 t
  rw [k2_pay1_ix2]
  show max (((A0 (((cfg2.win 0).blk t).view.emb (ix2 p q)) - A1 (((cfg2.win 1).blk t).view.emb (ix2 (0 : Fin 1) q))) * A2 (((cfg2.win 2).blk t).view.emb (ix2 (0 : Fin 1) q))) * A3 (((cfg2.win 3).blk t).view.emb (ix2 (0 : Fin 1) q)) + A4 (((cfg2.win 4).blk t).view.emb (ix2 (0 : Fin 1) q))) 0
    = max (((A0 (((cfg2.win 5).blk t).view.emb (ix2 p q)) - A1 (ix2 (0 : Fin 1) ((((cfg2.win 5).blk t).view.emb (ix2 p q)) 1))) * A2 (ix2 (0 : Fin 1) ((((cfg2.win 5).blk t).view.emb (ix2 p q)) 1))) * A3 (ix2 (0 : Fin 1) ((((cfg2.win 5).blk t).view.emb (ix2 p q)) 1)) + A4 (ix2 (0 : Fin 1) ((((cfg2.win 5).blk t).view.emb (ix2 p q)) 1))) 0
  have h0 : (((cfg2.win 0).blk t).view.emb (ix2 p q)) = (((cfg2.win 5).blk t).view.emb (ix2 p q)) := by
    funext a; apply Fin.ext
    match a with
    | ⟨0, _⟩ => show win2_0.index t (0 : Fin 2) * 5000 + 1 * p.val = win2_5.index t (0 : Fin 2) * 5000 + 1 * p.val; omega
    | ⟨1, _⟩ => show win2_0.index t (1 : Fin 2) * 128 + 1 * q.val = win2_5.index t (1 : Fin 2) * 128 + 1 * q.val; omega
  have h1 : (((cfg2.win 1).blk t).view.emb (ix2 (0 : Fin 1) q)) = ix2 (0 : Fin 1) ((((cfg2.win 5).blk t).view.emb (ix2 p q)) 1) := by
    funext a; apply Fin.ext
    match a with
    | ⟨0, _⟩ => show win2_1.index t (0 : Fin 2) * 1 + 1 * 0 = 0; omega
    | ⟨1, _⟩ => show win2_1.index t (1 : Fin 2) * 128 + 1 * q.val = win2_5.index t (1 : Fin 2) * 128 + 1 * q.val; omega
  have h2 : (((cfg2.win 2).blk t).view.emb (ix2 (0 : Fin 1) q)) = ix2 (0 : Fin 1) ((((cfg2.win 5).blk t).view.emb (ix2 p q)) 1) := by
    funext a; apply Fin.ext
    match a with
    | ⟨0, _⟩ => show win2_2.index t (0 : Fin 2) * 1 + 1 * 0 = 0; omega
    | ⟨1, _⟩ => show win2_2.index t (1 : Fin 2) * 128 + 1 * q.val = win2_5.index t (1 : Fin 2) * 128 + 1 * q.val; omega
  have h3 : (((cfg2.win 3).blk t).view.emb (ix2 (0 : Fin 1) q)) = ix2 (0 : Fin 1) ((((cfg2.win 5).blk t).view.emb (ix2 p q)) 1) := by
    funext a; apply Fin.ext
    match a with
    | ⟨0, _⟩ => show win2_3.index t (0 : Fin 2) * 1 + 1 * 0 = 0; omega
    | ⟨1, _⟩ => show win2_3.index t (1 : Fin 2) * 128 + 1 * q.val = win2_5.index t (1 : Fin 2) * 128 + 1 * q.val; omega
  have h4 : (((cfg2.win 4).blk t).view.emb (ix2 (0 : Fin 1) q)) = ix2 (0 : Fin 1) ((((cfg2.win 5).blk t).view.emb (ix2 p q)) 1) := by
    funext a; apply Fin.ext
    match a with
    | ⟨0, _⟩ => show win2_4.index t (0 : Fin 2) * 1 + 1 * 0 = 0; omega
    | ⟨1, _⟩ => show win2_4.index t (1 : Fin 2) * 128 + 1 * q.val = win2_5.index t (1 : Fin 2) * 128 + 1 * q.val; omega
  rw [h0, h1, h2, h3, h4] <;> rfl

set_option maxHeartbeats 1000000 in
/-- What point t writes back is block t of the whole-array function. -/
theorem flushed2_eq (c : Dev nD) (t : Fin cfg2.N) :
    (dat2 V c).flushed 5 t = ((cfg2.win 5).blk t).view.read (Elt Ideal)
      (GcnBn.normRelu (P := 100000) (Q := 128) (V c (Pipeline.arrRef spec2 0)) (V c (Pipeline.arrRef spec2 1)) (V c (Pipeline.arrRef spec2 2)) (V c (Pipeline.arrRef spec2 3)) (V c (Pipeline.arrRef spec2 4))) := by
  show (cfg2.win 5).cut (grid2.coords t) ((dat2 V c).after 5 t) = _
  rw [after2_5]
  unfold out2_5
  rw [View.canon_unit_zero hz2]
  simp only [View.ld_unit_zero (S := S5000x128) hz2, View.ld_unit_zero (S := S1x128) hz2]
  funext j
  obtain ⟨p, q, rfl⟩ : ∃ (p : Fin 5000) (q : Fin 128), j = ix2 p q := ⟨j 0, j 1, eq_ix2 j⟩
  exact block2_eq (V c (Pipeline.arrRef spec2 0)) (V c (Pipeline.arrRef spec2 1)) (V c (Pipeline.arrRef spec2 2)) (V c (Pipeline.arrRef spec2 3)) (V c (Pipeline.arrRef spec2 4)) t p q

/-- An index of the output array is in point t's block iff each coordinate is in the block's range on its axis. -/
theorem mem_blk2 (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v43).slice (win2_5.rect t)).set ↔ _
  rw [View.set_slice_whole, Rect.mem_set_unit]
  exact Iff.rfl

/-- Every index of the output array is in the block of the point its row selects: row r is in row block r / 5000. -/
theorem cover2 (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  have hN : (i 0).val / 5000 < cfg2.N := lt_of_lt_of_eq (by omega : (i 0).val / 5000 < 20) N_2.symm
  refine ⟨⟨(i 0).val / 5000, hN⟩, flush2_5 _, ?_⟩
  rw [mem_blk2]
  have e := idx_facts2 ⟨(i 0).val / 5000, hN⟩
  have e30 : win2_5.index ⟨(i 0).val / 5000, hN⟩ (0 : Fin 2) = (i 0).val / 5000 := e.2.2.2.2.2.2.2.2.2.2.1
  have e31 : win2_5.index ⟨(i 0).val / 5000, hN⟩ (1 : Fin 2) = 0 := e.2.2.2.2.2.2.2.2.2.2.2
  intro a
  match a with
  | ⟨0, _⟩ =>
    show win2_5.index ⟨(i 0).val / 5000, hN⟩ (0 : Fin 2) * 5000 ≤ (i 0).val ∧ (i 0).val < win2_5.index ⟨(i 0).val / 5000, hN⟩ (0 : Fin 2) * 5000 + 5000
    rw [e30]; omega
  | ⟨1, _⟩ =>
    show win2_5.index ⟨(i 0).val / 5000, hN⟩ (1 : Fin 2) * 128 ≤ (i 1).val ∧ (i 1).val < win2_5.index ⟨(i 0).val / 5000, hN⟩ (1 : Fin 2) * 128 + 128
    rw [e31]; omega

/-- The output array after the region is the whole-array function of the input arrays. -/
theorem final2 (c : Dev nD) : (dat2 (F := Ideal) V c).arrAt 5 cfg2.N
    = GcnBn.normRelu (P := 100000) (Q := 128) (V c (Pipeline.arrRef spec2 0)) (V c (Pipeline.arrRef spec2 1)) (V c (Pipeline.arrRef spec2 2)) (V c (Pipeline.arrRef spec2 3)) (V c (Pipeline.arrRef spec2 4)) :=
  (dat2 V c).arrAt_eq_of_cover 5 _ (fun t _ => flushed2_eq V c t) cover2

end Cert.KernelIdeal.Hand

end
-- ==== Proof.Value3.lean ====
import proofs.«107691_j23957327577190_1_alg».proof.Proof.KernelIdealBody3
import proofs.«107691_j23957327577190_1_alg».proof.Proof.LibGcnBnSpec
import proofs.«107691_j23957327577190_1_alg».proof.Proof.LibBlockValue
import Idealize.ShloMosaic.Lib.Pipeline.Value

/-! # Kernel region 3: the output array as one function of the input arrays

Over the extended reals. The body's value at an index of a block; the block a grid point writes back as that block of
one whole-array function of the input arrays; the blocks cover the output array (row r lies in the block of point
r / 5000); hence the output array after the region is that function of the input arrays. -/

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz3 : (![0, 0] : Fin 2 → Nat) = fun _ => 0 := funext fun a => by fin_cases a <;> rfl

/-- The body's value at (p, q) of a block: the product of the feature block's row p with the weights' column q, times
    the scale block's entry p. The format narrowing before the product is the identity on extended reals. -/
theorem k3_pay1_ix2 (x0 : Vec Ideal S5000x128 .f32) (x1 : Vec Ideal S128x128 .f32) (x2 : Vec Ideal S5000x1 .f32) (p : Fin 5000) (q : Fin 128) :
    k3_pay1 x0 x1 x2 (ix2 p q) = (∑ k : Fin 128, x0 (ix2 p k) * x1 (ix2 k q)) * x2 (ix2 p (0 : Fin 1)) := by
  show matmul (F := Ideal) dot_S5000x128_S128x128_S5000x128_1_0_0_1_n_n none (truncf .bf16 (shapeCast S5000x128 x0 shapeCasts_S5000x128_S5000x128) bitsLt_bf16_f32) (truncf .bf16 x1 bitsLt_bf16_f32) (constant S5000x128 .f32 0x00000000#32) (ix2 p q)
      * broadcastTo S5000x128 (shapeCast S5000x1 x2 shapeCasts_S5000x1_S5000x1) broadcasts_S5000x1_S5000x128 (ix2 p q) = _
  simp only [shapeCast_self]
  rw [BlockValue.broadcastCol_ix2]
  exact congrArg (· * x2 (ix2 p (0 : Fin 1))) (BlockValue.matmul_zero_ix2 dot_S5000x128_S128x128_S5000x128_1_0_0_1_n_n_wf none _ _ p q)

/-- The index maps over the grid: at point t the feature, scale and output windows are on row block t, the weights on
    their one block. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- The body's value on the input arrays' blocks at point t, at (p, q) of the block, is the whole-array function at
    that entry's place in the output array: each operand entry read is the array entry the function reads. -/
theorem block3_eq (A0 : GcnBn.Mat 100000 128) (A1 : GcnBn.Mat 128 128) (A2 : GcnBn.Mat 100000 1) (t : Fin cfg3.N) (p : Fin 5000) (q : Fin 128) :
    k3_pay1 (F := Ideal) (fun y => A0 (((cfg3.win 0).blk t).view.emb y)) (fun y => A1 (((cfg3.win 1).blk t).view.emb y)) (fun y => A2 (((cfg3.win 2).blk t).view.emb y)) (ix2 p q)
      = GcnBn.prodScaled (P := 100000) (K := 128) (Q := 128) A0 A1 A2 (((cfg3.win 3).blk t).view.emb (ix2 p q)) := by
  obtain ⟨e00, e01, e10, e11, e20, e21, e30, e31⟩ := idx_facts3 t
  rw [k3_pay1_ix2]
  show (∑ k : Fin 128, A0 (((cfg3.win 0).blk t).view.emb (ix2 p k)) * A1 (((cfg3.win 1).blk t).view.emb (ix2 k q))) * A2 (((cfg3.win 2).blk t).view.emb (ix2 p (0 : Fin 1)))
    = (∑ k : Fin 128, A0 (ix2 ((((cfg3.win 3).blk t).view.emb (ix2 p q)) 0) k) * A1 (ix2 k ((((cfg3.win 3).blk t).view.emb (ix2 p q)) 1))) * A2 (ix2 ((((cfg3.win 3).blk t).view.emb (ix2 p q)) 0) (0 : Fin 1))
  have h0 : ∀ k : Fin 128, (((cfg3.win 0).blk t).view.emb (ix2 p k)) = ix2 ((((cfg3.win 3).blk t).view.emb (ix2 p q)) 0) k := fun k => by
    funext a; apply Fin.ext
    match a with
    | ⟨0, _⟩ => show win3_0.index t (0 : Fin 2) * 5000 + 1 * p.val = win3_3.index t (0 : Fin 2) * 5000 + 1 * p.val; omega
    | ⟨1, _⟩ => show win3_0.index t (1 : Fin 2) * 128 + 1 * k.val = k.val; omega
  have h1 : ∀ k : Fin 128, (((cfg3.win 1).blk t).view.emb (ix2 k q)) = ix2 k ((((cfg3.win 3).blk t).view.emb (ix2 p q)) 1) := fun k => by
    funext a; apply Fin.ext
    match a with
    | ⟨0, _⟩ => show win3_1.index t (0 : Fin 2) * 128 + 1 * k.val = k.val; omega
    | ⟨1, _⟩ => show win3_1.index t (1 : Fin 2) * 128 + 1 * q.val = win3_3.index t (1 : Fin 2) * 128 + 1 * q.val; omega
  have h2 : (((cfg3.win 2).blk t).view.emb (ix2 p (0 : Fin 1))) = ix2 ((((cfg3.win 3).blk t).view.emb (ix2 p q)) 0) (0 : Fin 1) := by
    funext a; apply Fin.ext
    match a with
    | ⟨0, _⟩ => show win3_2.index t (0 : Fin 2) * 5000 + 1 * p.val = win3_3.index t (0 : Fin 2) * 5000 + 1 * p.val; omega
    | ⟨1, _⟩ => show win3_2.index t (1 : Fin 2) * 1 + 1 * 0 = 0; omega
  rw [h2]
  exact congrArg (· * _) (Finset.sum_congr rfl fun k _ => congrArg₂ (· * ·) (congrArg A0 (h0 k)) (congrArg A1 (h1 k)))

set_option maxHeartbeats 1000000 in
/-- What point t writes back is block t of the whole-array function. -/
theorem flushed3_eq (c : Dev nD) (t : Fin cfg3.N) :
    (dat3 V c).flushed 3 t = ((cfg3.win 3).blk t).view.read (Elt Ideal)
      (GcnBn.prodScaled (P := 100000) (K := 128) (Q := 128) (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz3]
  simp only [View.ld_unit_zero (S := S5000x128) hz3, View.ld_unit_zero (S := S128x128) hz3, View.ld_unit_zero (S := S5000x1) hz3]
  funext j
  obtain ⟨p, q, rfl⟩ : ∃ (p : Fin 5000) (q : Fin 128), j = ix2 p q := ⟨j 0, j 1, eq_ix2 j⟩
  exact block3_eq (V c (Pipeline.arrRef spec3 0)) (V c (Pipeline.arrRef spec3 1)) (V c (Pipeline.arrRef spec3 2)) t p q

/-- An index of the output array is in point t's block iff each coordinate is in the block's range on its axis. -/
theorem mem_blk3 (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v45).slice (win3_3.rect t)).set ↔ _
  rw [View.set_slice_whole, Rect.mem_set_unit]
  exact Iff.rfl

/-- Every index of the output array is in the block of the point its row selects: row r is in row block r / 5000. -/
theorem cover3 (i : S100000x128.Idx) : ∃ t : Fin cfg3.N, (cfg3.win 3).flush t = true ∧ i ∈ ((cfg3.win 3).blk t).view.set := by
  have hi0 : (i 0).val < 100000 := (i 0).isLt
  have hi1 : (i 1).val < 128 := (i 1).isLt
  have hN : (i 0).val / 5000 < cfg3.N := lt_of_lt_of_eq (by omega : (i 0).val / 5000 < 20) N_3.symm
  refine ⟨⟨(i 0).val / 5000, hN⟩, flush3_3 _, ?_⟩
  rw [mem_blk3]
  have e := idx_facts3 ⟨(i 0).val / 5000, hN⟩
  have e30 : win3_3.index ⟨(i 0).val / 5000, hN⟩ (0 : Fin 2) = (i 0).val / 5000 := e.2.2.2.2.2.2.1
  have e31 : win3_3.index ⟨(i 0).val / 5000, hN⟩ (1 : Fin 2) = 0 := e.2.2.2.2.2.2.2
  intro a
  match a with
  | ⟨0, _⟩ =>
    show win3_3.index ⟨(i 0).val / 5000, hN⟩ (0 : Fin 2) * 5000 ≤ (i 0).val ∧ (i 0).val < win3_3.index ⟨(i 0).val / 5000, hN⟩ (0 : Fin 2) * 5000 + 5000
    rw [e30]; omega
  | ⟨1, _⟩ =>
    show win3_3.index ⟨(i 0).val / 5000, hN⟩ (1 : Fin 2) * 128 ≤ (i 1).val ∧ (i 1).val < win3_3.index ⟨(i 0).val / 5000, hN⟩ (1 : Fin 2) * 128 + 128
    rw [e31]; omega

/-- The output array after the region is the whole-array function of the input arrays. -/
theorem final3 (c : Dev nD) : (dat3 (F := Ideal) V c).arrAt 3 cfg3.N
    = GcnBn.prodScaled (P := 100000) (K := 128) (Q := 128) (V c (Pipeline.arrRef spec3 0)) (V c (Pipeline.arrRef spec3 1)) (V c (Pipeline.arrRef spec3 2)) :=
  (dat3 V c).arrAt_eq_of_cover 3 _ (fun t _ => flushed3_eq V c t) cover3

end Cert.KernelIdeal.Hand

end
-- ==== Proof.Value4Cases.lean ====
/-
  The row-statistics kernel region 4: what each control case leaves in the buffers, as values.

  In every case the first output's block is h = x·s + b of the three input blocks. The first accumulator ends as what
  it held plus the column sums of h, the second as what it held plus the column sums of h·h; at the first point what
  they held is the zero row. At the last point the second and third outputs receive the two accumulators.
-/
import proofs.«107691_j23957327577190_1_alg».proof.Proof.KernelIdealBody4
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz4 : (![0, 0] : Fin 2 → Nat) = fun _ => 0 := funext fun a => by fin_cases a <;> rfl

theorem val4_A_3 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (x0 : Vec F S5000x128 .f32) (x1 : Vec F S5000x1 .f32) (x2 : Vec F S1x128 .f32) :
    out4_A_3 c i arg1 harg1 arg2 harg2 arg3 harg3 arg4 harg4 arg5 harg5 arg6 harg6 arg7 harg7 arg8 harg8 hc0 hc1 x0 x1 x2 = k4_pay1 x0 x1 x2 := by
  unfold out4_A_3
  rw [View.read_writes_eq_canon _ _ _ (cover4_A_3 c i arg1 harg1 arg2 harg2 arg3 harg3 arg4 harg4 arg5 harg5 arg6 harg6 arg7 harg7 arg8 harg8 hc0 hc1 x0 x1 x2)]
  unfold kernelRun4_A
  dsimp only
  try sl_unfold_words
  simp only [View.canon_cons_unit_zero (S := S1x128) hz4, View.canon_cons_unit_zero (S := S5000x128) hz4,
    View.canon_unit_zero (S := S1x128) hz4, View.canon_unit_zero (S := S5000x128) hz4,
    View.readCov_unit_zero (S := S1x128) _ hz4, View.readAt_eq_ld,
    harg1.read_unread, harg2.read_unread, harg3.read_unread, harg7.read_unread, harg8.read_unread,
    View.ld_unit_zero (S := S5000x128) hz4, View.ld_unit_zero (S := S5000x1) hz4, View.ld_unit_zero (S := S1x128) hz4]

theorem val4_A_s0 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (x0 : Vec F S5000x128 .f32) (x1 : Vec F S5000x1 .f32) (x2 : Vec F S1x128 .f32) :
    out4_A_s0 c i arg1 harg1 arg2 harg2 arg3 harg3 arg4 harg4 arg5 harg5 arg6 harg6 arg7 harg7 arg8 harg8 hc0 hc1 x0 x1 x2 = k4_pay4 x0 x1 x2 (k4_pay2 (F := F)) := by
  unfold out4_A_s0
  rw [View.read_writes_eq_canon _ _ _ (cover4_A_s0 c i arg1 harg1 arg2 harg2 arg3 harg3 arg4 harg4 arg5 harg5 arg6 harg6 arg7 harg7 arg8 harg8 hc0 hc1 x0 x1 x2)]
  unfold kernelRun4_A
  dsimp only
  try sl_unfold_words
  simp only [View.canon_cons_unit_zero (S := S1x128) hz4, View.canon_cons_unit_zero (S := S5000x128) hz4,
    View.canon_unit_zero (S := S1x128) hz4, View.canon_unit_zero (S := S5000x128) hz4,
    View.readCov_unit_zero (S := S1x128) _ hz4, View.readAt_eq_ld,
    harg1.read_unread, harg2.read_unread, harg3.read_unread, harg7.read_unread, harg8.read_unread,
    View.ld_unit_zero (S := S5000x128) hz4, View.ld_unit_zero (S := S5000x1) hz4, View.ld_unit_zero (S := S1x128) hz4]

theorem val4_A_s1 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (x0 : Vec F S5000x128 .f32) (x1 : Vec F S5000x1 .f32) (x2 : Vec F S1x128 .f32) :
    out4_A_s1 c i arg1 harg1 arg2 harg2 arg3 harg3 arg4 harg4 arg5 harg5 arg6 harg6 arg7 harg7 arg8 harg8 hc0 hc1 x0 x1 x2 = k4_pay5 x0 x1 x2 (k4_pay3 (F := F)) := by
  unfold out4_A_s1
  rw [View.read_writes_eq_canon _ _ _ (cover4_A_s1 c i arg1 harg1 arg2 harg2 arg3 harg3 arg4 harg4 arg5 harg5 arg6 harg6 arg7 harg7 arg8 harg8 hc0 hc1 x0 x1 x2)]
  unfold kernelRun4_A
  dsimp only
  try sl_unfold_words
  simp only [View.canon_cons_unit_zero (S := S1x128) hz4, View.canon_cons_unit_zero (S := S5000x128) hz4,
    View.canon_unit_zero (S := S1x128) hz4, View.canon_unit_zero (S := S5000x128) hz4,
    View.readCov_unit_zero (S := S1x128) _ hz4, View.readAt_eq_ld,
    harg1.read_unread, harg2.read_unread, harg3.read_unread, harg7.read_unread, harg8.read_unread,
    View.ld_unit_zero (S := S5000x128) hz4, View.ld_unit_zero (S := S5000x1) hz4, View.ld_unit_zero (S := S1x128) hz4]

theorem val4_B_3 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (x0 : Vec F S5000x128 .f32) (x1 : Vec F S5000x1 .f32) (x2 : Vec F S1x128 .f32) (xs0 xs1 : Vec F S1x128 .f32) :
    out4_B_3 c i arg1 harg1 arg2 harg2 arg3 harg3 arg4 harg4 arg5 harg5 arg6 harg6 arg7 harg7 arg8 harg8 hc0 hc1 x0 x1 x2 xs0 xs1 = k4_pay1 x0 x1 x2 := by
  unfold out4_B_3
  rw [View.read_writes_eq_canon _ _ _ (cover4_B_3 c i arg1 harg1 arg2 harg2 arg3 harg3 arg4 harg4 arg5 harg5 arg6 harg6 arg7 harg7 arg8 harg8 hc0 hc1 x0 x1 x2 xs0 xs1)]
  unfold kernelRun4_B
  dsimp only
  try sl_unfold_words
  simp only [View.canon_cons_unit_zero (S := S1x128) hz4, View.canon_cons_unit_zero (S := S5000x128) hz4,
    View.canon_unit_zero (S := S1x128) hz4, View.canon_unit_zero (S := S5000x128) hz4,
    View.readCov_unit_zero (S := S1x128) _ hz4, View.readAt_eq_ld,
    harg1.read_unread, harg2.read_unread, harg3.read_unread, harg7.read_unread, harg8.read_unread,
    View.ld_unit_zero (S := S5000x128) hz4, View.ld_unit_zero (S := S5000x1) hz4, View.ld_unit_zero (S := S1x128) hz4]

theorem val4_B_s0 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (x0 : Vec F S5000x128 .f32) (x1 : Vec F S5000x1 .f32) (x2 : Vec F S1x128 .f32) (xs0 xs1 : Vec F S1x128 .f32) :
    out4_B_s0 c i arg1 harg1 arg2 harg2 arg3 harg3 arg4 harg4 arg5 harg5 arg6 harg6 arg7 harg7 arg8 harg8 hc0 hc1 x0 x1 x2 xs0 xs1 = k4_pay4 x0 x1 x2 xs0 := by
  unfold out4_B_s0
  rw [View.read_writes_eq_canon _ _ _ (cover4_B_s0 c i arg1 harg1 arg2 harg2 arg3 harg3 arg4 harg4 arg5 harg5 arg6 harg6 arg7 harg7 arg8 harg8 hc0 hc1 x0 x1 x2 xs0 xs1)]
  unfold kernelRun4_B
  dsimp only
  try sl_unfold_words
  simp only [View.canon_cons_unit_zero (S := S1x128) hz4, View.canon_cons_unit_zero (S := S5000x128) hz4,
    View.canon_unit_zero (S := S1x128) hz4, View.canon_unit_zero (S := S5000x128) hz4,
    View.readCov_unit_zero (S := S1x128) _ hz4, View.readAt_eq_ld,
    harg1.read_unread, harg2.read_unread, harg3.read_unread, harg7.read_unread, harg8.read_unread,
    View.ld_unit_zero (S := S5000x128) hz4, View.ld_unit_zero (S := S5000x1) hz4, View.ld_unit_zero (S := S1x128) hz4]

theorem val4_B_s1 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (x0 : Vec F S5000x128 .f32) (x1 : Vec F S5000x1 .f32) (x2 : Vec F S1x128 .f32) (xs0 xs1 : Vec F S1x128 .f32) :
    out4_B_s1 c i arg1 harg1 arg2 harg2 arg3 harg3 arg4 harg4 arg5 harg5 arg6 harg6 arg7 harg7 arg8 harg8 hc0 hc1 x0 x1 x2 xs0 xs1 = k4_pay5 x0 x1 x2 xs1 := by
  unfold out4_B_s1
  rw [View.read_writes_eq_canon _ _ _ (cover4_B_s1 c i arg1 harg1 arg2 harg2 arg3 harg3 arg4 harg4 arg5 harg5 arg6 harg6 arg7 harg7 arg8 harg8 hc0 hc1 x0 x1 x2 xs0 xs1)]
  unfold kernelRun4_B
  dsimp only
  try sl_unfold_words
  simp only [View.canon_cons_unit_zero (S := S1x128) hz4, View.canon_cons_unit_zero (S := S5000x128) hz4,
    View.canon_unit_zero (S := S1x128) hz4, View.canon_unit_zero (S := S5000x128) hz4,
    View.readCov_unit_zero (S := S1x128) _ hz4, View.readAt_eq_ld,
    harg1.read_unread, harg2.read_unread, harg3.read_unread, harg7.read_unread, harg8.read_unread,
    View.ld_unit_zero (S := S5000x128) hz4, View.ld_unit_zero (S := S5000x1) hz4, View.ld_unit_zero (S := S1x128) hz4]

theorem val4_C_3 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S5000x1 .f32) (x2 : Vec F S1x128 .f32) (xs0 xs1 : Vec F S1x128 .f32) :
    out4_C_3 c i arg1 harg1 arg2 harg2 arg3 harg3 arg4 harg4 arg5 harg5 arg6 harg6 arg7 harg7 arg8 harg8 hc0 hc1 x0 x1 x2 xs0 xs1 = k4_pay1 x0 x1 x2 := by
  unfold out4_C_3
  rw [View.read_writes_eq_canon _ _ _ (cover4_C_3 c i arg1 harg1 arg2 harg2 arg3 harg3 arg4 harg4 arg5 harg5 arg6 harg6 arg7 harg7 arg8 harg8 hc0 hc1 x0 x1 x2 xs0 xs1)]
  unfold kernelRun4_C
  dsimp only
  try sl_unfold_words
  simp only [View.canon_cons_unit_zero (S := S1x128) hz4, View.canon_cons_unit_zero (S := S5000x128) hz4,
    View.canon_unit_zero (S := S1x128) hz4, View.canon_unit_zero (S := S5000x128) hz4,
    View.readCov_unit_zero (S := S1x128) _ hz4, View.readAt_eq_ld,
    harg1.read_unread, harg2.read_unread, harg3.read_unread, harg7.read_unread, harg8.read_unread,
    View.ld_unit_zero (S := S5000x128) hz4, View.ld_unit_zero (S := S5000x1) hz4, View.ld_unit_zero (S := S1x128) hz4]

theorem val4_C_4 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S5000x1 .f32) (x2 : Vec F S1x128 .f32) (xs0 xs1 : Vec F S1x128 .f32) :
    out4_C_4 c i arg1 harg1 arg2 harg2 arg3 harg3 arg4 harg4 arg5 harg5 arg6 harg6 arg7 harg7 arg8 harg8 hc0 hc1 x0 x1 x2 xs0 xs1 = k4_pay4 x0 x1 x2 xs0 := by
  unfold out4_C_4
  rw [View.read_writes_eq_canon _ _ _ (cover4_C_4 c i arg1 harg1 arg2 harg2 arg3 harg3 arg4 harg4 arg5 harg5 arg6 harg6 arg7 harg7 arg8 harg8 hc0 hc1 x0 x1 x2 xs0 xs1)]
  unfold kernelRun4_C
  dsimp only
  try sl_unfold_words
  simp only [View.canon_cons_unit_zero (S := S1x128) hz4, View.canon_cons_unit_zero (S := S5000x128) hz4,
    View.canon_unit_zero (S := S1x128) hz4, View.canon_unit_zero (S := S5000x128) hz4,
    View.readCov_unit_zero (S := S1x128) _ hz4, View.readAt_eq_ld,
    harg1.read_unread, harg2.read_unread, harg3.read_unread, harg7.read_unread, harg8.read_unread,
    View.ld_unit_zero (S := S5000x128) hz4, View.ld_unit_zero (S := S5000x1) hz4, View.ld_unit_zero (S := S1x128) hz4]

theorem val4_C_5 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S5000x1 .f32) (x2 : Vec F S1x128 .f32) (xs0 xs1 : Vec F S1x128 .f32) :
    out4_C_5 c i arg1 harg1 arg2 harg2 arg3 harg3 arg4 harg4 arg5 harg5 arg6 harg6 arg7 harg7 arg8 harg8 hc0 hc1 x0 x1 x2 xs0 xs1 = k4_pay5 x0 x1 x2 xs1 := by
  unfold out4_C_5
  rw [View.read_writes_eq_canon _ _ _ (cover4_C_5 c i arg1 harg1 arg2 harg2 arg3 harg3 arg4 harg4 arg5 harg5 arg6 harg6 arg7 harg7 arg8 harg8 hc0 hc1 x0 x1 x2 xs0 xs1)]
  unfold kernelRun4_C
  dsimp only
  try sl_unfold_words
  simp only [View.canon_cons_unit_zero (S := S1x128) hz4, View.canon_cons_unit_zero (S := S5000x128) hz4,
    View.canon_unit_zero (S := S1x128) hz4, View.canon_unit_zero (S := S5000x128) hz4,
    View.readCov_unit_zero (S := S1x128) _ hz4, View.readAt_eq_ld,
    harg1.read_unread, harg2.read_unread, harg3.read_unread, harg7.read_unread, harg8.read_unread,
    View.ld_unit_zero (S := S5000x128) hz4, View.ld_unit_zero (S := S5000x1) hz4, View.ld_unit_zero (S := S1x128) hz4]

theorem val4_C_s0 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S5000x1 .f32) (x2 : Vec F S1x128 .f32) (xs0 xs1 : Vec F S1x128 .f32) :
    out4_C_s0 c i arg1 harg1 arg2 harg2 arg3 harg3 arg4 harg4 arg5 harg5 arg6 harg6 arg7 harg7 arg8 harg8 hc0 hc1 x0 x1 x2 xs0 xs1 = k4_pay4 x0 x1 x2 xs0 := by
  unfold out4_C_s0
  rw [View.read_writes_eq_canon _ _ _ (cover4_C_s0 c i arg1 harg1 arg2 harg2 arg3 harg3 arg4 harg4 arg5 harg5 arg6 harg6 arg7 harg7 arg8 harg8 hc0 hc1 x0 x1 x2 xs0 xs1)]
  unfold kernelRun4_C
  dsimp only
  try sl_unfold_words
  simp only [View.canon_cons_unit_zero (S := S1x128) hz4, View.canon_cons_unit_zero (S := S5000x128) hz4,
    View.canon_unit_zero (S := S1x128) hz4, View.canon_unit_zero (S := S5000x128) hz4,
    View.readCov_unit_zero (S := S1x128) _ hz4, View.readAt_eq_ld,
    harg1.read_unread, harg2.read_unread, harg3.read_unread, harg7.read_unread, harg8.read_unread,
    View.ld_unit_zero (S := S5000x128) hz4, View.ld_unit_zero (S := S5000x1) hz4, View.ld_unit_zero (S := S1x128) hz4]

theorem val4_C_s1 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S5000x1 .f32) (x2 : Vec F S1x128 .f32) (xs0 xs1 : Vec F S1x128 .f32) :
    out4_C_s1 c i arg1 harg1 arg2 harg2 arg3 harg3 arg4 harg4 arg5 harg5 arg6 harg6 arg7 harg7 arg8 harg8 hc0 hc1 x0 x1 x2 xs0 xs1 = k4_pay5 x0 x1 x2 xs1 := by
  unfold out4_C_s1
  rw [View.read_writes_eq_canon _ _ _ (cover4_C_s1 c i arg1 harg1 arg2 harg2 arg3 harg3 arg4 harg4 arg5 harg5 arg6 harg6 arg7 harg7 arg8 harg8 hc0 hc1 x0 x1 x2 xs0 xs1)]
  unfold kernelRun4_C
  dsimp only
  try sl_unfold_words
  simp only [View.canon_cons_unit_zero (S := S1x128) hz4, View.canon_cons_unit_zero (S := S5000x128) hz4,
    View.canon_unit_zero (S := S1x128) hz4, View.canon_unit_zero (S := S5000x128) hz4,
    View.readCov_unit_zero (S := S1x128) _ hz4, View.readAt_eq_ld,
    harg1.read_unread, harg2.read_unread, harg3.read_unread, harg7.read_unread, harg8.read_unread,
    View.ld_unit_zero (S := S5000x128) hz4, View.ld_unit_zero (S := S5000x1) hz4, View.ld_unit_zero (S := S1x128) hz4]

end Cert.KernelIdeal.Hand

end
-- ==== Proof.Value4.lean ====
/-
  The row-statistics kernel region 4: its three output arrays as whole-array functions of its input arrays.

  Over the extended reals. With h (p, q) = x (p, q) · s (p, 0) + b (0, q) on all 100000 rows: the first output array
  ends as h, since the block written back at grid point t is rows 5000·t … 5000·t + 4999 of h and the twenty blocks
  cover the array. The accumulators after point n hold, in column q, the sums of h (·, q) and of h (·, q)² over the
  first 5000·(n + 1) rows: by induction on n, each point adding its own block of rows to what the point before left,
  the first point starting from the zero row. After the last point that is the sum over all rows, which the last point
  copies to the second and third outputs; their one block is the whole row.
-/
import proofs.«107691_j23957327577190_1_alg».proof.Proof.Value4Cases
import proofs.«107691_j23957327577190_1_alg».proof.Proof.LibGcnBnSpec
import proofs.«107691_j23957327577190_1_alg».proof.Proof.LibBlockValue
import proofs.«107691_j23957327577190_1_alg».proof.Proof.LibRowBlockSum
import Idealize.ShloMosaic.Lib.Pipeline.Value
import Idealize.ShloMosaic.Lib.ValueLayout

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-! ## The body's values at an index -/

/-- h at (p, q) of a block: the entry times its row's scale plus its column's bias. -/
theorem k4_pay1_ix2 (x0 : Vec Ideal S5000x128 .f32) (x1 : Vec Ideal S5000x1 .f32) (x2 : Vec Ideal S1x128 .f32) (p : Fin 5000) (q : Fin 128) :
    k4_pay1 x0 x1 x2 (ix2 p q) = x0 (ix2 p q) * x1 (ix2 p (0 : Fin 1)) + x2 (ix2 (0 : Fin 1) q) := by
  show shapeCast S5000x128 x0 shapeCasts_S5000x128_S5000x128 (ix2 p q)
      * broadcastTo S5000x128 (shapeCast S5000x1 x1 shapeCasts_S5000x1_S5000x1) broadcasts_S5000x1_S5000x128 (ix2 p q)
      + broadcastTo S5000x128 (shapeCast S1x128 x2 shapeCasts_S1x128_S1x128) broadcasts_S1x128_S5000x128 (ix2 p q) = _
  rw [shapeCast_self, shapeCast_self, shapeCast_self, BlockValue.broadcastCol_ix2, BlockValue.broadcastRow_ix2]

/-- The zero rows the first point stores. -/
theorem k4_pay2_ix2 (u : Fin 1) (q : Fin 128) : k4_pay2 (F := Ideal) (ix2 u q) = 0 := by
  show shapeCast S1x128 (broadcast S1x128 (Scalar.ofBits (F := Ideal) .f32 0x00000000#32)) shapeCasts_S1x128_S1x128 (ix2 u q) = 0
  rw [shapeCast_self]
  exact Ideal.ofBits_zero_f32
theorem k4_pay3_ix2 (u : Fin 1) (q : Fin 128) : k4_pay3 (F := Ideal) (ix2 u q) = 0 := by
  show shapeCast S1x128 (broadcast S1x128 (Scalar.ofBits (F := Ideal) .f32 0x00000000#32)) shapeCasts_S1x128_S1x128 (ix2 u q) = 0
  rw [shapeCast_self]
  exact Ideal.ofBits_zero_f32

/-- The source index over lane q with row k inserted is (k, q). -/
theorem lift4_eq (q : Fin 128) (k : Fin 5000) :
    reduces_S5000x128_S128.lift (ix1 q) k = (ix2 k q : S5000x128.Idx) := by
  funext a
  match a with
  | ⟨0, _⟩ => rfl
  | ⟨1, _⟩ => rfl

/-- The first accumulator's new row: what it held plus the block's column sums of h. -/
theorem k4_pay4_ix2 (x0 : Vec Ideal S5000x128 .f32) (x1 : Vec Ideal S5000x1 .f32) (x2 : Vec Ideal S1x128 .f32) (v14 : Vec Ideal S1x128 .f32) (u : Fin 1) (q : Fin 128) :
    k4_pay4 x0 x1 x2 v14 (ix2 u q) = v14 (ix2 u q) + ∑ k : Fin 5000, k4_pay1 x0 x1 x2 (ix2 k q) := by
  show shapeCast S1x128 (addf v14 (shapeCast S1x128 (multiReduction .add [0] S128 (k4_pay1 x0 x1 x2) 0x00000000#32 reduces_S5000x128_S128 (.inl rfl) rfl) shapeCasts_S128_S1x128)) shapeCasts_S1x128_S1x128 (ix2 u q) = _
  rw [shapeCast_self]
  show v14 (ix2 u q) + shapeCast S1x128 (multiReduction .add [0] S128 (k4_pay1 x0 x1 x2) 0x00000000#32 reduces_S5000x128_S128 (.inl rfl) rfl) shapeCasts_S128_S1x128 (ix2 u q) = _
  rw [shapeCast_a_1a_apply]
  refine congrArg (v14 (ix2 u q) + ·) ((Ideal.multiReduction_add_single _ _ _ _ _ _).trans ?_)
  exact Finset.sum_congr rfl fun k _ => congrArg (k4_pay1 x0 x1 x2) (lift4_eq q k)

/-- The second accumulator's new row: what it held plus the block's column sums of h·h. -/
theorem k4_pay5_ix2 (x0 : Vec Ideal S5000x128 .f32) (x1 : Vec Ideal S5000x1 .f32) (x2 : Vec Ideal S1x128 .f32) (v21 : Vec Ideal S1x128 .f32) (u : Fin 1) (q : Fin 128) :
    k4_pay5 x0 x1 x2 v21 (ix2 u q) = v21 (ix2 u q) + ∑ k : Fin 5000, k4_pay1 x0 x1 x2 (ix2 k q) * k4_pay1 x0 x1 x2 (ix2 k q) := by
  show shapeCast S1x128 (addf v21 (shapeCast S1x128 (multiReduction .add [0] S128 (mulf (k4_pay1 x0 x1 x2) (k4_pay1 x0 x1 x2)) 0x00000000#32 reduces_S5000x128_S128 (.inl rfl) rfl) shapeCasts_S128_S1x128)) shapeCasts_S1x128_S1x128 (ix2 u q) = _
  rw [shapeCast_self]
  show v21 (ix2 u q) + shapeCast S1x128 (multiReduction .add [0] S128 (mulf (k4_pay1 x0 x1 x2) (k4_pay1 x0 x1 x2)) 0x00000000#32 reduces_S5000x128_S128 (.inl rfl) rfl) shapeCasts_S128_S1x128 (ix2 u q) = _
  rw [shapeCast_a_1a_apply]
  refine congrArg (v21 (ix2 u q) + ·) ((Ideal.multiReduction_add_single _ _ _ _ _ _).trans ?_)
  exact Finset.sum_congr rfl fun k _ => by rw [lift4_eq q k]; rfl

/-! ## Blocks of rows -/

/-- The index maps over the grid: at point t the first two inputs and the first output are on row block t; the bias
    and the two late outputs on their one block. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-- Entry (p, q) of the first output's block at point t sits at row 5000·t + p of the array. -/
theorem emb4_3_eq (t : Fin cfg4.N) (p : Fin 5000) (q : Fin 128) (h : 5000 * t.val + p.val < 100000) :
    ((cfg4.win 3).blk t).view.emb (ix2 p q) = (ix2 (⟨5000 * t.val + p.val, h⟩ : Fin 100000) q : S100000x128.Idx) := by
  obtain ⟨-, -, -, -, -, -, e30, e31, -⟩ := idx_facts4 t
  funext a; apply Fin.ext
  match a with
  | ⟨0, _⟩ => show win4_3.index t (0 : Fin 2) * 5000 + 1 * p.val = 5000 * t.val + p.val; omega
  | ⟨1, _⟩ => show win4_3.index t (1 : Fin 2) * 128 + 1 * q.val = q.val; omega

/-- h computed on the input arrays' blocks at point t, at (p, q) of the block, is h of the whole arrays at that
    entry's place in the output array. -/
theorem block4_eq (A0 : GcnBn.Mat 100000 128) (A1 : GcnBn.Mat 100000 1) (A2 : GcnBn.Mat 1 128) (t : Fin cfg4.N) (p : Fin 5000) (q : Fin 128) :
    k4_pay1 (F := Ideal) (fun y => A0 (((cfg4.win 0).blk t).view.emb y)) (fun y => A1 (((cfg4.win 1).blk t).view.emb y)) (fun y => A2 (((cfg4.win 2).blk t).view.emb y)) (ix2 p q)
      = GcnBn.scaleBias (P := 100000) (Q := 128) A0 A1 A2 (((cfg4.win 3).blk t).view.emb (ix2 p q)) := by
  obtain ⟨e00, e01, e10, e11, e20, e21, e30, e31, -⟩ := idx_facts4 t
  rw [k4_pay1_ix2]
  show A0 (((cfg4.win 0).blk t).view.emb (ix2 p q)) * A1 (((cfg4.win 1).blk t).view.emb (ix2 p (0 : Fin 1))) + A2 (((cfg4.win 2).blk t).view.emb (ix2 (0 : Fin 1) q))
    = A0 (((cfg4.win 3).blk t).view.emb (ix2 p q)) * A1 (ix2 ((((cfg4.win 3).blk t).view.emb (ix2 p q)) 0) (0 : Fin 1)) + A2 (ix2 (0 : Fin 1) ((((cfg4.win 3).blk t).view.emb (ix2 p q)) 1))
  have h0 : (((cfg4.win 0).blk t).view.emb (ix2 p q)) = (((cfg4.win 3).blk t).view.emb (ix2 p q)) := by
    funext a; apply Fin.ext
    match a with
    | ⟨0, _⟩ => show win4_0.index t (0 : Fin 2) * 5000 + 1 * p.val = win4_3.index t (0 : Fin 2) * 5000 + 1 * p.val; omega
    | ⟨1, _⟩ => show win4_0.index t (1 : Fin 2) * 128 + 1 * q.val = win4_3.index t (1 : Fin 2) * 128 + 1 * q.val; omega
  have h1 : (((cfg4.win 1).blk t).view.emb (ix2 p (0 : Fin 1))) = ix2 ((((cfg4.win 3).blk t).view.emb (ix2 p q)) 0) (0 : Fin 1) := by
    funext a; apply Fin.ext
    match a with
    | ⟨0, _⟩ => show win4_1.index t (0 : Fin 2) * 5000 + 1 * p.val = win4_3.index t (0 : Fin 2) * 5000 + 1 * p.val; omega
    | ⟨1, _⟩ => show win4_1.index t (1 : Fin 2) * 1 + 1 * 0 = 0; omega
  have h2 : (((cfg4.win 2).blk t).view.emb (ix2 (0 : Fin 1) q)) = ix2 (0 : Fin 1) ((((cfg4.win 3).blk t).view.emb (ix2 p q)) 1) := by
    funext a; apply Fin.ext
    match a with
    | ⟨0, _⟩ => show win4_2.index t (0 : Fin 2) * 1 + 1 * 0 = 0; omega
    | ⟨1, _⟩ => show win4_2.index t (1 : Fin 2) * 128 + 1 * q.val = win4_3.index t (1 : Fin 2) * 128 + 1 * q.val; omega
  rw [h0, h1, h2]
  rfl

variable (V : (c : Dev nD) → (b : Ref sig .tc) → Buf (Elt Ideal) ((c : Thread nD τ).loc b))

/-- h of the whole input arrays. -/
abbrev H4 (c : Dev nD) : GcnBn.Mat 100000 128 := GcnBn.scaleBias (P := 100000) (Q := 128) (V c (Pipeline.arrRef spec4 0)) (V c (Pipeline.arrRef spec4 1)) (V c (Pipeline.arrRef spec4 2))
/-- Its entrywise square. -/
abbrev Hsq4 (c : Dev nD) : GcnBn.Mat 100000 128 := fun i => H4 V c i * H4 V c i

/-- h on the blocks at point t, at (p, q), is h of the whole arrays at row 5000·t + p. -/
theorem blockRow4_eq (c : Dev nD) (t : Fin cfg4.N) (p : Fin 5000) (q : Fin 128) (h : 5000 * t.val + p.val < 100000) :
    k4_pay1 (iblk4 V c 0 t) (iblk4 V c 1 t) (iblk4 V c 2 t) (ix2 p q) = H4 V c (ix2 (⟨5000 * t.val + p.val, h⟩ : Fin 100000) q) := by
  rw [← emb4_3_eq t p q h]
  exact block4_eq (V c (Pipeline.arrRef spec4 0)) (V c (Pipeline.arrRef spec4 1)) (V c (Pipeline.arrRef spec4 2)) t p q

/-! ## The first output -/

/-- In every case the first output's block after point t is h of the three input blocks. -/
theorem out4_3_eq (c : Dev nD) (t : Fin cfg4.N) :
    (outsAt4 V c t.val t.isLt).1 = k4_pay1 (iblk4 V c 0 t) (iblk4 V c 1 t) (iblk4 V c 2 t) := by
  have hN : t.val < 20 := lt_of_lt_of_eq t.isLt (show cfg4.N = 20 from N_4)
  by_cases h0 : t.val % 20 = 0
  · have h1 : ¬t.val % 20 = 19 := by omega
    rw [outsAt4_A V c t h0 h1]
    dsimp only
    rw [val4_A_3]
  · by_cases h1 : t.val % 20 = 19
    · rw [outsAt4_C V c t h0 h1]
      dsimp only
      rw [val4_C_3]
    · rw [outsAt4_B V c t h0 h1]
      dsimp only
      rw [val4_B_3]

set_option maxHeartbeats 1000000 in
/-- What point t writes back into the first output is block t of h. -/
theorem flushed4_3_eq (c : Dev nD) (t : Fin cfg4.N) :
    (dat4 V c).flushed 3 t = ((cfg4.win 3).blk t).view.read (Elt Ideal) (H4 V c) := by
  show (cfg4.win 3).cut (grid4.coords t) ((dat4 V c).after 3 t) = _
  rw [after4_3, out4_3_eq]
  funext j
  obtain ⟨p, q, rfl⟩ : ∃ (p : Fin 5000) (q : Fin 128), j = ix2 p q := ⟨j 0, j 1, eq_ix2 j⟩
  exact block4_eq (V c (Pipeline.arrRef spec4 0)) (V c (Pipeline.arrRef spec4 1)) (V c (Pipeline.arrRef spec4 2)) t p q

/-- An index of the first output array is in point t's block iff each coordinate is in the block's range. -/
theorem mem_blk4_3 (t : Fin cfg4.N) (i : S100000x128.Idx) :
    i ∈ ((cfg4.win 3).blk t).view.set ↔ ∀ a : Fin 2, win4_3.index t a * S5000x128.size a ≤ (i a).val ∧ (i a).val < win4_3.index t a * S5000x128.size a + S5000x128.size a := by
  show i ∈ ((View.whole main_v52_0).slice (win4_3.rect t)).set ↔ _
  rw [View.set_slice_whole, Rect.mem_set_unit]
  exact Iff.rfl

/-- Row r of the first output array is in row block r / 5000. -/
theorem cover4_3 (i : S100000x128.Idx) : ∃ t : Fin cfg4.N, (cfg4.win 3).flush t = true ∧ i ∈ ((cfg4.win 3).blk t).view.set := by
  have hi0 : (i 0).val < 100000 := (i 0).isLt
  have hi1 : (i 1).val < 128 := (i 1).isLt
  have hN : (i 0).val / 5000 < cfg4.N := lt_of_lt_of_eq (by omega : (i 0).val / 5000 < 20) N_4.symm
  refine ⟨⟨(i 0).val / 5000, hN⟩, flush4_3 _, ?_⟩
  rw [mem_blk4_3]
  obtain ⟨-, -, -, -, -, -, e30, e31, -⟩ := idx_facts4 ⟨(i 0).val / 5000, hN⟩
  have e30' : win4_3.index ⟨(i 0).val / 5000, hN⟩ (0 : Fin 2) = (i 0).val / 5000 := e30
  intro a
  match a with
  | ⟨0, _⟩ =>
    show win4_3.index ⟨(i 0).val / 5000, hN⟩ (0 : Fin 2) * 5000 ≤ (i 0).val ∧ (i 0).val < win4_3.index ⟨(i 0).val / 5000, hN⟩ (0 : Fin 2) * 5000 + 5000
    rw [e30']; omega
  | ⟨1, _⟩ =>
    show win4_3.index ⟨(i 0).val / 5000, hN⟩ (1 : Fin 2) * 128 ≤ (i 1).val ∧ (i 1).val < win4_3.index ⟨(i 0).val / 5000, hN⟩ (1 : Fin 2) * 128 + 128
    rw [e31]; omega

/-- The first output array after the region is h of the input arrays. -/
theorem final4_h (c : Dev nD) : (dat4 (F := Ideal) V c).arrAt 3 cfg4.N = GcnBn.scaleBias (P := 100000) (Q := 128) (V c (Pipeline.arrRef spec4 0)) (V c (Pipeline.arrRef spec4 1)) (V c (Pipeline.arrRef spec4 2)) :=
  (dat4 V c).arrAt_eq_of_cover 3 _ (fun t _ => flushed4_3_eq V c t) cover4_3

/-! ## The accumulators -/

/-- Column q of the running sum after point n: the sum of f (·, q) over the first 5000·(n + 1) rows. -/
def acc4 (f : GcnBn.Mat 100000 128) (n : ℕ) : Vec Ideal S1x128 .f32 :=
  fun i => RowBlockSum.partialSum f (i 1) (5000 * (n + 1))

/-- One point's step for the sums of h: from the sum over the rows before block t to the sum through block t. -/
theorem pay4_acc4 (c : Dev nD) (t : Fin cfg4.N) (xs : Vec Ideal S1x128 .f32)
    (hxs : ∀ (u : Fin 1) (q : Fin 128), xs (ix2 u q) = RowBlockSum.partialSum (H4 V c) q (5000 * t.val)) :
    k4_pay4 (iblk4 V c 0 t) (iblk4 V c 1 t) (iblk4 V c 2 t) xs = acc4 (H4 V c) t.val := by
  have hN : t.val < 20 := lt_of_lt_of_eq t.isLt (show cfg4.N = 20 from N_4)
  funext j
  obtain ⟨u, q, rfl⟩ : ∃ (u : Fin 1) (q : Fin 128), j = ix2 u q := ⟨j 0, j 1, eq_ix2 j⟩
  rw [k4_pay4_ix2, hxs]
  show _ = RowBlockSum.partialSum (H4 V c) q (5000 * (t.val + 1))
  rw [Nat.mul_succ]
  exact RowBlockSum.partialSum_add_block (H4 V c) q (5000 * t.val) 5000 (by omega) _
    (fun k => blockRow4_eq V c t k q (by have := k.isLt; omega))

/-- The same for the sums of h·h. -/
theorem pay5_acc4 (c : Dev nD) (t : Fin cfg4.N) (xs : Vec Ideal S1x128 .f32)
    (hxs : ∀ (u : Fin 1) (q : Fin 128), xs (ix2 u q) = RowBlockSum.partialSum (Hsq4 V c) q (5000 * t.val)) :
    k4_pay5 (iblk4 V c 0 t) (iblk4 V c 1 t) (iblk4 V c 2 t) xs = acc4 (Hsq4 V c) t.val := by
  have hN : t.val < 20 := lt_of_lt_of_eq t.isLt (show cfg4.N = 20 from N_4)
  funext j
  obtain ⟨u, q, rfl⟩ : ∃ (u : Fin 1) (q : Fin 128), j = ix2 u q := ⟨j 0, j 1, eq_ix2 j⟩
  rw [k4_pay5_ix2, hxs]
  show _ = RowBlockSum.partialSum (Hsq4 V c) q (5000 * (t.val + 1))
  rw [Nat.mul_succ]
  exact RowBlockSum.partialSum_add_block (Hsq4 V c) q (5000 * t.val) 5000 (by omega) _
    (fun k => by rw [blockRow4_eq V c t k q (by have := k.isLt; omega)])

/-- After point n the accumulators hold the sums over the first 5000·(n + 1) rows: by induction on n. -/
theorem acc4_eq (c : Dev nD) : ∀ (n : ℕ) (hn : n < cfg4.N),
    (outsAt4 V c n hn).2.2.2.1 = acc4 (H4 V c) n ∧ (outsAt4 V c n hn).2.2.2.2 = acc4 (Hsq4 V c) n
  | 0, hn => by
    rw [outsAt4_A V c ⟨0, hn⟩ (Nat.zero_mod _) (by dsimp only; omega)]
    dsimp only
    rw [val4_A_s0, val4_A_s1]
    exact ⟨pay4_acc4 V c ⟨0, hn⟩ _ (fun u q => by
        rw [k4_pay2_ix2]; show (0 : EReal) = RowBlockSum.partialSum _ q (5000 * 0)
        rw [Nat.mul_zero, RowBlockSum.partialSum_zero]),
      pay5_acc4 V c ⟨0, hn⟩ _ (fun u q => by
        rw [k4_pay3_ix2]; show (0 : EReal) = RowBlockSum.partialSum _ q (5000 * 0)
        rw [Nat.mul_zero, RowBlockSum.partialSum_zero])⟩
  | n + 1, hn => by
    obtain ⟨ih0, ih1⟩ := acc4_eq c n (Nat.lt_of_succ_lt hn)
    have hN : n + 1 < 20 := lt_of_lt_of_eq hn (show cfg4.N = 20 from N_4)
    have h0 : ¬(⟨n + 1, hn⟩ : Fin cfg4.N).val % 20 = 0 := by dsimp only; omega
    by_cases h1 : (⟨n + 1, hn⟩ : Fin cfg4.N).val % 20 = 19
    · rw [outsAt4_C V c ⟨n + 1, hn⟩ h0 h1]
      dsimp only
      rw [val4_C_s0, val4_C_s1]
      show k4_pay4 _ _ _ (outsAt4 V c n _).2.2.2.1 = _ ∧ k4_pay5 _ _ _ (outsAt4 V c n _).2.2.2.2 = _
      rw [ih0, ih1]
      exact ⟨pay4_acc4 V c ⟨n + 1, hn⟩ _ (fun u q => rfl), pay5_acc4 V c ⟨n + 1, hn⟩ _ (fun u q => rfl)⟩
    · rw [outsAt4_B V c ⟨n + 1, hn⟩ h0 h1]
      dsimp only
      rw [val4_B_s0, val4_B_s1]
      show k4_pay4 _ _ _ (outsAt4 V c n _).2.2.2.1 = _ ∧ k4_pay5 _ _ _ (outsAt4 V c n _).2.2.2.2 = _
      rw [ih0, ih1]
      exact ⟨pay4_acc4 V c ⟨n + 1, hn⟩ _ (fun u q => rfl), pay5_acc4 V c ⟨n + 1, hn⟩ _ (fun u q => rfl)⟩

/-! ## The two late outputs -/

/-- After the last point the running sums are over all rows. -/
theorem acc4_last_4 (c : Dev nD) : acc4 (H4 V c) 19 = GcnBn.colSum (H4 V c) := by
  funext j
  obtain ⟨u, q, rfl⟩ : ∃ (u : Fin 1) (q : Fin 128), j = ix2 u q := ⟨j 0, j 1, eq_ix2 j⟩
  rw [GcnBn.colSum_ix2]
  exact RowBlockSum.partialSum_all (H4 V c) q
theorem acc4_last_5 (c : Dev nD) : acc4 (Hsq4 V c) 19 = GcnBn.colSumSq (H4 V c) := by
  funext j
  obtain ⟨u, q, rfl⟩ : ∃ (u : Fin 1) (q : Fin 128), j = ix2 u q := ⟨j 0, j 1, eq_ix2 j⟩
  rw [GcnBn.colSumSq_ix2]
  exact RowBlockSum.partialSum_all (Hsq4 V c) q

set_option maxHeartbeats 1000000 in
/-- What the last point writes back into output 2 is the whole row of column sums. -/
theorem flushed4_4_eq (c : Dev nD) (t : Fin cfg4.N) (hf : (cfg4.win 4).flush t = true) :
    (dat4 V c).flushed 4 t = ((cfg4.win 4).blk t).view.read (Elt Ideal) (GcnBn.colSum (H4 V c)) := by
  have hN : t.val < 20 := lt_of_lt_of_eq t.isLt (show cfg4.N = 20 from N_4)
  have h19 : t.val % 20 = 19 := (flush4_4 t).mp hf
  have h0 : ¬t.val % 20 = 0 := by omega
  have ht : t.val = 19 := by omega
  obtain ⟨-, -, -, -, -, -, -, -, e40, e41, e50, e51⟩ := idx_facts4 t
  show (cfg4.win 4).cut (grid4.coords t) ((dat4 V c).after 4 t) = _
  rw [after4_4, outsAt4_C V c t h0 h19]
  dsimp only
  rw [val4_C_4, (acc4_eq V c (t.val - 1) _).1,
    pay4_acc4 V c t (acc4 (H4 V c) (t.val - 1)) (fun u q => by
      show RowBlockSum.partialSum _ q (5000 * (t.val - 1 + 1)) = _
      rw [show t.val - 1 + 1 = t.val from by omega])]
  rw [ht, acc4_last_4]
  have hz' : (fun a => win4_4.index t a * main_v52_1.ty.shape.size a) = fun _ => 0 := funext fun a => by
    match a with
    | ⟨0, _⟩ => show win4_4.index t (0 : Fin 2) * 1 = 0; omega
    | ⟨1, _⟩ => show win4_4.index t (1 : Fin 2) * 128 = 0; omega
  exact (Memref.read_access_unit_zero (Elt Ideal) main_v52_1 hz' (fun a => by rw [congrFun hz' a]; simp) (GcnBn.colSum (H4 V c))).symm

/-- The one index block of output 2 is the whole row, and the last point writes it back. -/
theorem cover4_4 (i : S1x128.Idx) : ∃ t : Fin cfg4.N, (cfg4.win 4).flush t = true ∧ i ∈ ((cfg4.win 4).blk t).view.set := by
  have hi0 : (i 0).val < 1 := (i 0).isLt
  have hi1 : (i 1).val < 128 := (i 1).isLt
  have hN : 19 < cfg4.N := lt_of_lt_of_eq (by omega : 19 < 20) N_4.symm
  refine ⟨⟨19, hN⟩, (flush4_4 _).mpr rfl, ?_⟩
  obtain ⟨-, -, -, -, -, -, -, -, e40, e41, e50, e51⟩ := idx_facts4 ⟨19, hN⟩
  show i ∈ ((View.whole main_v52_1).slice (win4_4.rect ⟨19, hN⟩)).set
  rw [View.set_slice_whole, Rect.mem_set_unit]
  intro a
  match a with
  | ⟨0, _⟩ =>
    show win4_4.index ⟨19, hN⟩ (0 : Fin 2) * 1 ≤ (i 0).val ∧ (i 0).val < win4_4.index ⟨19, hN⟩ (0 : Fin 2) * 1 + 1
    omega
  | ⟨1, _⟩ =>
    show win4_4.index ⟨19, hN⟩ (1 : Fin 2) * 128 ≤ (i 1).val ∧ (i 1).val < win4_4.index ⟨19, hN⟩ (1 : Fin 2) * 128 + 128
    omega

set_option maxHeartbeats 1000000 in
/-- What the last point writes back into output 3 is the whole row of column sums of squares. -/
theorem flushed4_5_eq (c : Dev nD) (t : Fin cfg4.N) (hf : (cfg4.win 5).flush t = true) :
    (dat4 V c).flushed 5 t = ((cfg4.win 5).blk t).view.read (Elt Ideal) (GcnBn.colSumSq (H4 V c)) := by
  have hN : t.val < 20 := lt_of_lt_of_eq t.isLt (show cfg4.N = 20 from N_4)
  have h19 : t.val % 20 = 19 := (flush4_5 t).mp hf
  have h0 : ¬t.val % 20 = 0 := by omega
  have ht : t.val = 19 := by omega
  obtain ⟨-, -, -, -, -, -, -, -, e40, e41, e50, e51⟩ := idx_facts4 t
  show (cfg4.win 5).cut (grid4.coords t) ((dat4 V c).after 5 t) = _
  rw [after4_5, outsAt4_C V c t h0 h19]
  dsimp only
  rw [val4_C_5, (acc4_eq V c (t.val - 1) _).2,
    pay5_acc4 V c t (acc4 (Hsq4 V c) (t.val - 1)) (fun u q => by
      show RowBlockSum.partialSum _ q (5000 * (t.val - 1 + 1)) = _
      rw [show t.val - 1 + 1 = t.val from by omega])]
  rw [ht, acc4_last_5]
  have hz' : (fun a => win4_5.index t a * main_v52_2.ty.shape.size a) = fun _ => 0 := funext fun a => by
    match a with
    | ⟨0, _⟩ => show win4_5.index t (0 : Fin 2) * 1 = 0; omega
    | ⟨1, _⟩ => show win4_5.index t (1 : Fin 2) * 128 = 0; omega
  exact (Memref.read_access_unit_zero (Elt Ideal) main_v52_2 hz' (fun a => by rw [congrFun hz' a]; simp) (GcnBn.colSumSq (H4 V c))).symm

/-- The one index block of output 3 is the whole row, and the last point writes it back. -/
theorem cover4_5 (i : S1x128.Idx) : ∃ t : Fin cfg4.N, (cfg4.win 5).flush t = true ∧ i ∈ ((cfg4.win 5).blk t).view.set := by
  have hi0 : (i 0).val < 1 := (i 0).isLt
  have hi1 : (i 1).val < 128 := (i 1).isLt
  have hN : 19 < cfg4.N := lt_of_lt_of_eq (by omega : 19 < 20) N_4.symm
  refine ⟨⟨19, hN⟩, (flush4_5 _).mpr rfl, ?_⟩
  obtain ⟨-, -, -, -, -, -, -, -, e40, e41, e50, e51⟩ := idx_facts4 ⟨19, hN⟩
  show i ∈ ((View.whole main_v52_2).slice (win4_5.rect ⟨19, hN⟩)).set
  rw [View.set_slice_whole, Rect.mem_set_unit]
  intro a
  match a with
  | ⟨0, _⟩ =>
    show win4_5.index ⟨19, hN⟩ (0 : Fin 2) * 1 ≤ (i 0).val ∧ (i 0).val < win4_5.index ⟨19, hN⟩ (0 : Fin 2) * 1 + 1
    omega
  | ⟨1, _⟩ =>
    show win4_5.index ⟨19, hN⟩ (1 : Fin 2) * 128 ≤ (i 1).val ∧ (i 1).val < win4_5.index ⟨19, hN⟩ (1 : Fin 2) * 128 + 128
    omega

/-- The second output array after the region is the row of h's column sums. -/
theorem final4_sum (c : Dev nD) : (dat4 (F := Ideal) V c).arrAt 4 cfg4.N = GcnBn.colSum (GcnBn.scaleBias (P := 100000) (Q := 128) (V c (Pipeline.arrRef spec4 0)) (V c (Pipeline.arrRef spec4 1)) (V c (Pipeline.arrRef spec4 2))) :=
  (dat4 V c).arrAt_eq_of_cover 4 _ (fun t hf => flushed4_4_eq V c t hf) cover4_4

/-- The third output array after the region is the row of h's column sums of squares. -/
theorem final4_sumsq (c : Dev nD) : (dat4 (F := Ideal) V c).arrAt 5 cfg4.N = GcnBn.colSumSq (GcnBn.scaleBias (P := 100000) (Q := 128) (V c (Pipeline.arrRef spec4 0)) (V c (Pipeline.arrRef spec4 1)) (V c (Pipeline.arrRef spec4 2))) :=
  (dat4 V c).arrAt_eq_of_cover 5 _ (fun t hf => flushed4_5_eq V c t hf) cover4_5

end Cert.KernelIdeal.Hand

end
-- ==== Proof.Value5.lean ====
import proofs.«107691_j23957327577190_1_alg».proof.Proof.KernelIdealBody5
import proofs.«107691_j23957327577190_1_alg».proof.Proof.LibGcnBnSpec
import proofs.«107691_j23957327577190_1_alg».proof.Proof.LibBlockValue
import Idealize.ShloMosaic.Lib.Pipeline.Value

/-! # Kernel region 5: the output array as one function of the input arrays

Over the extended reals. The body's value at an index of a block; the block a grid point writes back as that block of
one whole-array function of the input arrays; the blocks cover the output array (row r lies in the block of point
r / 5000); hence the output array after the region is that function of the input arrays. -/

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz5 : (![0, 0] : Fin 2 → Nat) = fun _ => 0 := funext fun a => by fin_cases a <;> rfl

/-- The body's value at (p, q) of a block: the feature entry minus the mean row's entry q, times the two scale rows'
    entries q, plus the shift row's entry q, clamped below at 0. -/
theorem k5_pay1_ix2 (x0 : Vec Ideal S5000x128 .f32) (x1 x2 x3 x4 : Vec Ideal S1x128 .f32) (p : Fin 5000) (q : Fin 128) :
    k5_pay1 x0 x1 x2 x3 x4 (ix2 p q)
      = max (((x0 (ix2 p q) - x1 (ix2 (0 : Fin 1) q)) * x2 (ix2 (0 : Fin 1) q)) * x3 (ix2 (0 : Fin 1) q) + x4 (ix2 (0 : Fin 1) q)) 0 := by
  show max ((((shapeCast S5000x128 x0 shapeCasts_S5000x128_S5000x128 (ix2 p q) : Ideal .f32) - broadcastTo S5000x128 (shapeCast S1x128 x1 shapeCasts_S1x128_S1x128) broadcasts_S1x128_S5000x128 (ix2 p q)) * broadcastTo S5000x128 (shapeCast S1x128 x2 shapeCasts_S1x128_S1x128) broadcasts_S1x128_S5000x128 (ix2 p q)) * broadcastTo S5000x128 (shapeCast S1x128 x3 shapeCasts_S1x128_S1x128) broadcasts_S1x128_S5000x128 (ix2 p q) + broadcastTo S5000x128 (shapeCast S1x128 x4 shapeCasts_S1x128_S1x128) broadcasts_S1x128_S5000x128 (ix2 p q))
      (Ideal.ofBits .f32 0x00000000#32) = _
  rw [Ideal.ofBits_zero_f32]
  simp only [shapeCast_self, BlockValue.broadcastRow_ix2]

/-- The index maps over the grid: at point t the feature and output windows are on row block t, each parameter row on
    its one block. -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The body's value on the input arrays' blocks at point t, at (p, q) of the block, is the whole-array function at
    that entry's place in the output array: each operand entry read is the array entry the function reads. -/
theorem block5_eq (A0 : GcnBn.Mat 100000 128) (A1 A2 A3 A4 : GcnBn.Mat 1 128) (t : Fin cfg5.N) (p : Fin 5000) (q : Fin 128) :
    k5_pay1 (F := Ideal) (fun y => A0 (((cfg5.win 0).blk t).view.emb y)) (fun y => A1 (((cfg5.win 1).blk t).view.emb y)) (fun y => A2 (((cfg5.win 2).blk t).view.emb y)) (fun y => A3 (((cfg5.win 3).blk t).view.emb y)) (fun y => A4 (((cfg5.win 4).blk t).view.emb y)) (ix2 p q)
      = GcnBn.normRelu (P := 100000) (Q := 128) A0 A1 A2 A3 A4 (((cfg5.win 5).blk t).view.emb (ix2 p q)) := by
  obtain ⟨e00, e01, e10, e11, e20, e21, e30, e31, e40, e41, e50, e51⟩ := idx_facts5 t
  rw [k5_pay1_ix2]
  show max (((A0 (((cfg5.win 0).blk t).view.emb (ix2 p q)) - A1 (((cfg5.win 1).blk t).view.emb (ix2 (0 : Fin 1) q))) * A2 (((cfg5.win 2).blk t).view.emb (ix2 (0 : Fin 1) q))) * A3 (((cfg5.win 3).blk t).view.emb (ix2 (0 : Fin 1) q)) + A4 (((cfg5.win 4).blk t).view.emb (ix2 (0 : Fin 1) q))) 0
    = max (((A0 (((cfg5.win 5).blk t).view.emb (ix2 p q)) - A1 (ix2 (0 : Fin 1) ((((cfg5.win 5).blk t).view.emb (ix2 p q)) 1))) * A2 (ix2 (0 : Fin 1) ((((cfg5.win 5).blk t).view.emb (ix2 p q)) 1))) * A3 (ix2 (0 : Fin 1) ((((cfg5.win 5).blk t).view.emb (ix2 p q)) 1)) + A4 (ix2 (0 : Fin 1) ((((cfg5.win 5).blk t).view.emb (ix2 p q)) 1))) 0
  have h0 : (((cfg5.win 0).blk t).view.emb (ix2 p q)) = (((cfg5.win 5).blk t).view.emb (ix2 p q)) := by
    funext a; apply Fin.ext
    match a with
    | ⟨0, _⟩ => show win5_0.index t (0 : Fin 2) * 5000 + 1 * p.val = win5_5.index t (0 : Fin 2) * 5000 + 1 * p.val; omega
    | ⟨1, _⟩ => show win5_0.index t (1 : Fin 2) * 128 + 1 * q.val = win5_5.index t (1 : Fin 2) * 128 + 1 * q.val; omega
  have h1 : (((cfg5.win 1).blk t).view.emb (ix2 (0 : Fin 1) q)) = ix2 (0 : Fin 1) ((((cfg5.win 5).blk t).view.emb (ix2 p q)) 1) := by
    funext a; apply Fin.ext
    match a with
    | ⟨0, _⟩ => show win5_1.index t (0 : Fin 2) * 1 + 1 * 0 = 0; omega
    | ⟨1, _⟩ => show win5_1.index t (1 : Fin 2) * 128 + 1 * q.val = win5_5.index t (1 : Fin 2) * 128 + 1 * q.val; omega
  have h2 : (((cfg5.win 2).blk t).view.emb (ix2 (0 : Fin 1) q)) = ix2 (0 : Fin 1) ((((cfg5.win 5).blk t).view.emb (ix2 p q)) 1) := by
    funext a; apply Fin.ext
    match a with
    | ⟨0, _⟩ => show win5_2.index t (0 : Fin 2) * 1 + 1 * 0 = 0; omega
    | ⟨1, _⟩ => show win5_2.index t (1 : Fin 2) * 128 + 1 * q.val = win5_5.index t (1 : Fin 2) * 128 + 1 * q.val; omega
  have h3 : (((cfg5.win 3).blk t).view.emb (ix2 (0 : Fin 1) q)) = ix2 (0 : Fin 1) ((((cfg5.win 5).blk t).view.emb (ix2 p q)) 1) := by
    funext a; apply Fin.ext
    match a with
    | ⟨0, _⟩ => show win5_3.index t (0 : Fin 2) * 1 + 1 * 0 = 0; omega
    | ⟨1, _⟩ => show win5_3.index t (1 : Fin 2) * 128 + 1 * q.val = win5_5.index t (1 : Fin 2) * 128 + 1 * q.val; omega
  have h4 : (((cfg5.win 4).blk t).view.emb (ix2 (0 : Fin 1) q)) = ix2 (0 : Fin 1) ((((cfg5.win 5).blk t).view.emb (ix2 p q)) 1) := by
    funext a; apply Fin.ext
    match a with
    | ⟨0, _⟩ => show win5_4.index t (0 : Fin 2) * 1 + 1 * 0 = 0; omega
    | ⟨1, _⟩ => show win5_4.index t (1 : Fin 2) * 128 + 1 * q.val = win5_5.index t (1 : Fin 2) * 128 + 1 * q.val; omega
  rw [h0, h1, h2, h3, h4] <;> rfl

set_option maxHeartbeats 1000000 in
/-- What point t writes back is block t of the whole-array function. -/
theorem flushed5_eq (c : Dev nD) (t : Fin cfg5.N) :
    (dat5 V c).flushed 5 t = ((cfg5.win 5).blk t).view.read (Elt Ideal)
      (GcnBn.normRelu (P := 100000) (Q := 128) (V c (Pipeline.arrRef spec5 0)) (V c (Pipeline.arrRef spec5 1)) (V c (Pipeline.arrRef spec5 2)) (V c (Pipeline.arrRef spec5 3)) (V c (Pipeline.arrRef spec5 4))) := by
  show (cfg5.win 5).cut (grid5.coords t) ((dat5 V c).after 5 t) = _
  rw [after5_5]
  unfold out5_5
  rw [View.canon_unit_zero hz5]
  simp only [View.ld_unit_zero (S := S5000x128) hz5, View.ld_unit_zero (S := S1x128) hz5]
  funext j
  obtain ⟨p, q, rfl⟩ : ∃ (p : Fin 5000) (q : Fin 128), j = ix2 p q := ⟨j 0, j 1, eq_ix2 j⟩
  exact block5_eq (V c (Pipeline.arrRef spec5 0)) (V c (Pipeline.arrRef spec5 1)) (V c (Pipeline.arrRef spec5 2)) (V c (Pipeline.arrRef spec5 3)) (V c (Pipeline.arrRef spec5 4)) t p q

/-- An index of the output array is in point t's block iff each coordinate is in the block's range on its axis. -/
theorem mem_blk5 (t : Fin cfg5.N) (i : S100000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v70).slice (win5_5.rect t)).set ↔ _
  rw [View.set_slice_whole, Rect.mem_set_unit]
  exact Iff.rfl

/-- Every index of the output array is in the block of the point its row selects: row r is in row block r / 5000. -/
theorem cover5 (i : S100000x128.Idx) : ∃ t : Fin cfg5.N, (cfg5.win 5).flush t = true ∧ i ∈ ((cfg5.win 5).blk t).view.set := by
  have hi0 : (i 0).val < 100000 := (i 0).isLt
  have hi1 : (i 1).val < 128 := (i 1).isLt
  have hN : (i 0).val / 5000 < cfg5.N := lt_of_lt_of_eq (by omega : (i 0).val / 5000 < 20) N_5.symm
  refine ⟨⟨(i 0).val / 5000, hN⟩, flush5_5 _, ?_⟩
  rw [mem_blk5]
  have e := idx_facts5 ⟨(i 0).val / 5000, hN⟩
  have e30 : win5_5.index ⟨(i 0).val / 5000, hN⟩ (0 : Fin 2) = (i 0).val / 5000 := e.2.2.2.2.2.2.2.2.2.2.1
  have e31 : win5_5.index ⟨(i 0).val / 5000, hN⟩ (1 : Fin 2) = 0 := e.2.2.2.2.2.2.2.2.2.2.2
  intro a
  match a with
  | ⟨0, _⟩ =>
    show win5_5.index ⟨(i 0).val / 5000, hN⟩ (0 : Fin 2) * 5000 ≤ (i 0).val ∧ (i 0).val < win5_5.index ⟨(i 0).val / 5000, hN⟩ (0 : Fin 2) * 5000 + 5000
    rw [e30]; omega
  | ⟨1, _⟩ =>
    show win5_5.index ⟨(i 0).val / 5000, hN⟩ (1 : Fin 2) * 128 ≤ (i 1).val ∧ (i 1).val < win5_5.index ⟨(i 0).val / 5000, hN⟩ (1 : Fin 2) * 128 + 128
    rw [e31]; omega

/-- The output array after the region is the whole-array function of the input arrays. -/
theorem final5 (c : Dev nD) : (dat5 (F := Ideal) V c).arrAt 5 cfg5.N
    = GcnBn.normRelu (P := 100000) (Q := 128) (V c (Pipeline.arrRef spec5 0)) (V c (Pipeline.arrRef spec5 1)) (V c (Pipeline.arrRef spec5 2)) (V c (Pipeline.arrRef spec5 3)) (V c (Pipeline.arrRef spec5 4)) :=
  (dat5 V c).arrAt_eq_of_cover 5 _ (fun t _ => flushed5_eq V c t) cover5

end Cert.KernelIdeal.Hand

end
-- ==== Proof.Value6.lean ====
import proofs.«107691_j23957327577190_1_alg».proof.Proof.KernelIdealBody6
import proofs.«107691_j23957327577190_1_alg».proof.Proof.LibGcnBnSpec
import proofs.«107691_j23957327577190_1_alg».proof.Proof.LibBlockValue
import Idealize.ShloMosaic.Lib.Pipeline.Value

/-! # Kernel region 6: the output array as one function of the input arrays

Over the extended reals. The body's value at an index of a block; the block a grid point writes back as that block of
one whole-array function of the input arrays; the blocks cover the output array (row r lies in the block of point
r / 5000); hence the output array after the region is that function of the input arrays. -/

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz6 : (![0, 0] : Fin 2 → Nat) = fun _ => 0 := funext fun a => by fin_cases a <;> rfl

/-- The body's value at (p, q) of a block: the product of the feature block's row p with the weights' column q, times
    the scale block's entry p. The format narrowing before the product is the identity on extended reals. -/
theorem k6_pay1_ix2 (x0 : Vec Ideal S5000x128 .f32) (x1 : Vec Ideal S128x40 .f32) (x2 : Vec Ideal S5000x1 .f32) (p : Fin 5000) (q : Fin 40) :
    k6_pay1 x0 x1 x2 (ix2 p q) = (∑ k : Fin 128, x0 (ix2 p k) * x1 (ix2 k q)) * x2 (ix2 p (0 : Fin 1)) := by
  show matmul (F := Ideal) dot_S5000x128_S128x40_S5000x40_1_0_0_1_n_n none (truncf .bf16 (shapeCast S5000x128 x0 shapeCasts_S5000x128_S5000x128) bitsLt_bf16_f32) (truncf .bf16 x1 bitsLt_bf16_f32) (constant S5000x40 .f32 0x00000000#32) (ix2 p q)
      * broadcastTo S5000x40 (shapeCast S5000x1 x2 shapeCasts_S5000x1_S5000x1) broadcasts_S5000x1_S5000x40 (ix2 p q) = _
  simp only [shapeCast_self]
  rw [BlockValue.broadcastCol_ix2]
  exact congrArg (· * x2 (ix2 p (0 : Fin 1))) (BlockValue.matmul_zero_ix2 dot_S5000x128_S128x40_S5000x40_1_0_0_1_n_n_wf none _ _ p q)

/-- The index maps over the grid: at point t the feature, scale and output windows are on row block t, the weights on
    their one block. -/
theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0 :=
  (by decide +kernel : ∀ t : Fin grid6.N, _)

/-- The body's value on the input arrays' blocks at point t, at (p, q) of the block, is the whole-array function at
    that entry's place in the output array: each operand entry read is the array entry the function reads. -/
theorem block6_eq (A0 : GcnBn.Mat 100000 128) (A1 : GcnBn.Mat 128 40) (A2 : GcnBn.Mat 100000 1) (t : Fin cfg6.N) (p : Fin 5000) (q : Fin 40) :
    k6_pay1 (F := Ideal) (fun y => A0 (((cfg6.win 0).blk t).view.emb y)) (fun y => A1 (((cfg6.win 1).blk t).view.emb y)) (fun y => A2 (((cfg6.win 2).blk t).view.emb y)) (ix2 p q)
      = GcnBn.prodScaled (P := 100000) (K := 128) (Q := 40) A0 A1 A2 (((cfg6.win 3).blk t).view.emb (ix2 p q)) := by
  obtain ⟨e00, e01, e10, e11, e20, e21, e30, e31⟩ := idx_facts6 t
  rw [k6_pay1_ix2]
  show (∑ k : Fin 128, A0 (((cfg6.win 0).blk t).view.emb (ix2 p k)) * A1 (((cfg6.win 1).blk t).view.emb (ix2 k q))) * A2 (((cfg6.win 2).blk t).view.emb (ix2 p (0 : Fin 1)))
    = (∑ k : Fin 128, A0 (ix2 ((((cfg6.win 3).blk t).view.emb (ix2 p q)) 0) k) * A1 (ix2 k ((((cfg6.win 3).blk t).view.emb (ix2 p q)) 1))) * A2 (ix2 ((((cfg6.win 3).blk t).view.emb (ix2 p q)) 0) (0 : Fin 1))
  have h0 : ∀ k : Fin 128, (((cfg6.win 0).blk t).view.emb (ix2 p k)) = ix2 ((((cfg6.win 3).blk t).view.emb (ix2 p q)) 0) k := fun k => by
    funext a; apply Fin.ext
    match a with
    | ⟨0, _⟩ => show win6_0.index t (0 : Fin 2) * 5000 + 1 * p.val = win6_3.index t (0 : Fin 2) * 5000 + 1 * p.val; omega
    | ⟨1, _⟩ => show win6_0.index t (1 : Fin 2) * 128 + 1 * k.val = k.val; omega
  have h1 : ∀ k : Fin 128, (((cfg6.win 1).blk t).view.emb (ix2 k q)) = ix2 k ((((cfg6.win 3).blk t).view.emb (ix2 p q)) 1) := fun k => by
    funext a; apply Fin.ext
    match a with
    | ⟨0, _⟩ => show win6_1.index t (0 : Fin 2) * 128 + 1 * k.val = k.val; omega
    | ⟨1, _⟩ => show win6_1.index t (1 : Fin 2) * 40 + 1 * q.val = win6_3.index t (1 : Fin 2) * 40 + 1 * q.val; omega
  have h2 : (((cfg6.win 2).blk t).view.emb (ix2 p (0 : Fin 1))) = ix2 ((((cfg6.win 3).blk t).view.emb (ix2 p q)) 0) (0 : Fin 1) := by
    funext a; apply Fin.ext
    match a with
    | ⟨0, _⟩ => show win6_2.index t (0 : Fin 2) * 5000 + 1 * p.val = win6_3.index t (0 : Fin 2) * 5000 + 1 * p.val; omega
    | ⟨1, _⟩ => show win6_2.index t (1 : Fin 2) * 1 + 1 * 0 = 0; omega
  rw [h2]
  exact congrArg (· * _) (Finset.sum_congr rfl fun k _ => congrArg₂ (· * ·) (congrArg A0 (h0 k)) (congrArg A1 (h1 k)))

set_option maxHeartbeats 1000000 in
/-- What point t writes back is block t of the whole-array function. -/
theorem flushed6_eq (c : Dev nD) (t : Fin cfg6.N) :
    (dat6 V c).flushed 3 t = ((cfg6.win 3).blk t).view.read (Elt Ideal)
      (GcnBn.prodScaled (P := 100000) (K := 128) (Q := 40) (V c (Pipeline.arrRef spec6 0)) (V c (Pipeline.arrRef spec6 1)) (V c (Pipeline.arrRef spec6 2))) := by
  show (cfg6.win 3).cut (grid6.coords t) ((dat6 V c).after 3 t) = _
  rw [after6_3]
  unfold out6_3
  rw [View.canon_unit_zero hz6]
  simp only [View.ld_unit_zero (S := S5000x128) hz6, View.ld_unit_zero (S := S128x40) hz6, View.ld_unit_zero (S := S5000x1) hz6]
  funext j
  obtain ⟨p, q, rfl⟩ : ∃ (p : Fin 5000) (q : Fin 40), j = ix2 p q := ⟨j 0, j 1, eq_ix2 j⟩
  exact block6_eq (V c (Pipeline.arrRef spec6 0)) (V c (Pipeline.arrRef spec6 1)) (V c (Pipeline.arrRef spec6 2)) t p q

/-- An index of the output array is in point t's block iff each coordinate is in the block's range on its axis. -/
theorem mem_blk6 (t : Fin cfg6.N) (i : S100000x40.Idx) :
    i ∈ ((cfg6.win 3).blk t).view.set ↔ ∀ a : Fin 2, win6_3.index t a * S5000x40.size a ≤ (i a).val ∧ (i a).val < win6_3.index t a * S5000x40.size a + S5000x40.size a := by
  show i ∈ ((View.whole main_v72).slice (win6_3.rect t)).set ↔ _
  rw [View.set_slice_whole, Rect.mem_set_unit]
  exact Iff.rfl

/-- Every index of the output array is in the block of the point its row selects: row r is in row block r / 5000. -/
theorem cover6 (i : S100000x40.Idx) : ∃ t : Fin cfg6.N, (cfg6.win 3).flush t = true ∧ i ∈ ((cfg6.win 3).blk t).view.set := by
  have hi0 : (i 0).val < 100000 := (i 0).isLt
  have hi1 : (i 1).val < 40 := (i 1).isLt
  have hN : (i 0).val / 5000 < cfg6.N := lt_of_lt_of_eq (by omega : (i 0).val / 5000 < 20) N_6.symm
  refine ⟨⟨(i 0).val / 5000, hN⟩, flush6_3 _, ?_⟩
  rw [mem_blk6]
  have e := idx_facts6 ⟨(i 0).val / 5000, hN⟩
  have e30 : win6_3.index ⟨(i 0).val / 5000, hN⟩ (0 : Fin 2) = (i 0).val / 5000 := e.2.2.2.2.2.2.1
  have e31 : win6_3.index ⟨(i 0).val / 5000, hN⟩ (1 : Fin 2) = 0 := e.2.2.2.2.2.2.2
  intro a
  match a with
  | ⟨0, _⟩ =>
    show win6_3.index ⟨(i 0).val / 5000, hN⟩ (0 : Fin 2) * 5000 ≤ (i 0).val ∧ (i 0).val < win6_3.index ⟨(i 0).val / 5000, hN⟩ (0 : Fin 2) * 5000 + 5000
    rw [e30]; omega
  | ⟨1, _⟩ =>
    show win6_3.index ⟨(i 0).val / 5000, hN⟩ (1 : Fin 2) * 40 ≤ (i 1).val ∧ (i 1).val < win6_3.index ⟨(i 0).val / 5000, hN⟩ (1 : Fin 2) * 40 + 40
    rw [e31]; omega

/-- The output array after the region is the whole-array function of the input arrays. -/
theorem final6 (c : Dev nD) : (dat6 (F := Ideal) V c).arrAt 3 cfg6.N
    = GcnBn.prodScaled (P := 100000) (K := 128) (Q := 40) (V c (Pipeline.arrRef spec6 0)) (V c (Pipeline.arrRef spec6 1)) (V c (Pipeline.arrRef spec6 2)) :=
  (dat6 V c).arrAt_eq_of_cover 3 _ (fun t _ => flushed6_eq V c t) cover6

end Cert.KernelIdeal.Hand

end
-- ==== Proof.Value7.lean ====
import proofs.«107691_j23957327577190_1_alg».proof.Proof.KernelIdealBody7
import proofs.«107691_j23957327577190_1_alg».proof.Proof.LibGcnBnSpec
import proofs.«107691_j23957327577190_1_alg».proof.Proof.LibBlockValue
import Idealize.ShloMosaic.Lib.Pipeline.Value

/-! # Kernel region 7: the output array as one function of the input arrays

Over the extended reals. The body's value at an index of a block; the block a grid point writes back as that block of
one whole-array function of the input arrays; the blocks cover the output array (row r lies in the block of point
r / 5000); hence the output array after the region is that function of the input arrays. -/

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz7 : (![0, 0] : Fin 2 → Nat) = fun _ => 0 := funext fun a => by fin_cases a <;> rfl

/-- The body's value at (p, q) of a block: the feature entry times the scale block's entry p, plus the bias row's
    entry q. -/
theorem k7_pay1_ix2 (x0 : Vec Ideal S5000x40 .f32) (x1 : Vec Ideal S5000x1 .f32) (x2 : Vec Ideal S1x40 .f32) (p : Fin 5000) (q : Fin 40) :
    k7_pay1 x0 x1 x2 (ix2 p q) = x0 (ix2 p q) * x1 (ix2 p (0 : Fin 1)) + x2 (ix2 (0 : Fin 1) q) := by
  show (shapeCast S5000x40 x0 shapeCasts_S5000x40_S5000x40 (ix2 p q) : Ideal .f32)
        * broadcastTo S5000x40 (shapeCast S5000x1 x1 shapeCasts_S5000x1_S5000x1) broadcasts_S5000x1_S5000x40 (ix2 p q)
      + broadcastTo S5000x40 (shapeCast S1x40 x2 shapeCasts_S1x40_S1x40) broadcasts_S1x40_S5000x40 (ix2 p q) = _
  simp only [shapeCast_self, BlockValue.broadcastRow_ix2, BlockValue.broadcastCol_ix2]

/-- The index maps over the grid: at point t the feature, scale and output windows are on row block t, the bias row on
    its one block. -/
theorem idx_facts7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- The body's value on the input arrays' blocks at point t, at (p, q) of the block, is the whole-array function at
    that entry's place in the output array: each operand entry read is the array entry the function reads. -/
theorem block7_eq (A0 : GcnBn.Mat 100000 40) (A1 : GcnBn.Mat 100000 1) (A2 : GcnBn.Mat 1 40) (t : Fin cfg7.N) (p : Fin 5000) (q : Fin 40) :
    k7_pay1 (F := Ideal) (fun y => A0 (((cfg7.win 0).blk t).view.emb y)) (fun y => A1 (((cfg7.win 1).blk t).view.emb y)) (fun y => A2 (((cfg7.win 2).blk t).view.emb y)) (ix2 p q)
      = GcnBn.scaleBias (P := 100000) (Q := 40) A0 A1 A2 (((cfg7.win 3).blk t).view.emb (ix2 p q)) := by
  obtain ⟨e00, e01, e10, e11, e20, e21, e30, e31⟩ := idx_facts7 t
  rw [k7_pay1_ix2]
  show A0 (((cfg7.win 0).blk t).view.emb (ix2 p q)) * A1 (((cfg7.win 1).blk t).view.emb (ix2 p (0 : Fin 1))) + A2 (((cfg7.win 2).blk t).view.emb (ix2 (0 : Fin 1) q))
    = A0 (((cfg7.win 3).blk t).view.emb (ix2 p q)) * A1 (ix2 ((((cfg7.win 3).blk t).view.emb (ix2 p q)) 0) (0 : Fin 1)) + A2 (ix2 (0 : Fin 1) ((((cfg7.win 3).blk t).view.emb (ix2 p q)) 1))
  have h0 : (((cfg7.win 0).blk t).view.emb (ix2 p q)) = (((cfg7.win 3).blk t).view.emb (ix2 p q)) := by
    funext a; apply Fin.ext
    match a with
    | ⟨0, _⟩ => show win7_0.index t (0 : Fin 2) * 5000 + 1 * p.val = win7_3.index t (0 : Fin 2) * 5000 + 1 * p.val; omega
    | ⟨1, _⟩ => show win7_0.index t (1 : Fin 2) * 40 + 1 * q.val = win7_3.index t (1 : Fin 2) * 40 + 1 * q.val; omega
  have h1 : (((cfg7.win 1).blk t).view.emb (ix2 p (0 : Fin 1))) = ix2 ((((cfg7.win 3).blk t).view.emb (ix2 p q)) 0) (0 : Fin 1) := by
    funext a; apply Fin.ext
    match a with
    | ⟨0, _⟩ => show win7_1.index t (0 : Fin 2) * 5000 + 1 * p.val = win7_3.index t (0 : Fin 2) * 5000 + 1 * p.val; omega
    | ⟨1, _⟩ => show win7_1.index t (1 : Fin 2) * 1 + 1 * 0 = 0; omega
  have h2 : (((cfg7.win 2).blk t).view.emb (ix2 (0 : Fin 1) q)) = ix2 (0 : Fin 1) ((((cfg7.win 3).blk t).view.emb (ix2 p q)) 1) := by
    funext a; apply Fin.ext
    match a with
    | ⟨0, _⟩ => show win7_2.index t (0 : Fin 2) * 1 + 1 * 0 = 0; omega
    | ⟨1, _⟩ => show win7_2.index t (1 : Fin 2) * 40 + 1 * q.val = win7_3.index t (1 : Fin 2) * 40 + 1 * q.val; omega
  rw [h0, h1, h2] <;> rfl

set_option maxHeartbeats 1000000 in
/-- What point t writes back is block t of the whole-array function. -/
theorem flushed7_eq (c : Dev nD) (t : Fin cfg7.N) :
    (dat7 V c).flushed 3 t = ((cfg7.win 3).blk t).view.read (Elt Ideal)
      (GcnBn.scaleBias (P := 100000) (Q := 40) (V c (Pipeline.arrRef spec7 0)) (V c (Pipeline.arrRef spec7 1)) (V c (Pipeline.arrRef spec7 2))) := by
  show (cfg7.win 3).cut (grid7.coords t) ((dat7 V c).after 3 t) = _
  rw [after7_3]
  unfold out7_3
  rw [View.canon_unit_zero hz7]
  simp only [View.ld_unit_zero (S := S5000x40) hz7, View.ld_unit_zero (S := S5000x1) hz7, View.ld_unit_zero (S := S1x40) hz7]
  funext j
  obtain ⟨p, q, rfl⟩ : ∃ (p : Fin 5000) (q : Fin 40), j = ix2 p q := ⟨j 0, j 1, eq_ix2 j⟩
  exact block7_eq (V c (Pipeline.arrRef spec7 0)) (V c (Pipeline.arrRef spec7 1)) (V c (Pipeline.arrRef spec7 2)) t p q

/-- An index of the output array is in point t's block iff each coordinate is in the block's range on its axis. -/
theorem mem_blk7 (t : Fin cfg7.N) (i : S100000x40.Idx) :
    i ∈ ((cfg7.win 3).blk t).view.set ↔ ∀ a : Fin 2, win7_3.index t a * S5000x40.size a ≤ (i a).val ∧ (i a).val < win7_3.index t a * S5000x40.size a + S5000x40.size a := by
  show i ∈ ((View.whole main_v79).slice (win7_3.rect t)).set ↔ _
  rw [View.set_slice_whole, Rect.mem_set_unit]
  exact Iff.rfl

/-- Every index of the output array is in the block of the point its row selects: row r is in row block r / 5000. -/
theorem cover7 (i : S100000x40.Idx) : ∃ t : Fin cfg7.N, (cfg7.win 3).flush t = true ∧ i ∈ ((cfg7.win 3).blk t).view.set := by
  have hi0 : (i 0).val < 100000 := (i 0).isLt
  have hi1 : (i 1).val < 40 := (i 1).isLt
  have hN : (i 0).val / 5000 < cfg7.N := lt_of_lt_of_eq (by omega : (i 0).val / 5000 < 20) N_7.symm
  refine ⟨⟨(i 0).val / 5000, hN⟩, flush7_3 _, ?_⟩
  rw [mem_blk7]
  have e := idx_facts7 ⟨(i 0).val / 5000, hN⟩
  have e30 : win7_3.index ⟨(i 0).val / 5000, hN⟩ (0 : Fin 2) = (i 0).val / 5000 := e.2.2.2.2.2.2.1
  have e31 : win7_3.index ⟨(i 0).val / 5000, hN⟩ (1 : Fin 2) = 0 := e.2.2.2.2.2.2.2
  intro a
  match a with
  | ⟨0, _⟩ =>
    show win7_3.index ⟨(i 0).val / 5000, hN⟩ (0 : Fin 2) * 5000 ≤ (i 0).val ∧ (i 0).val < win7_3.index ⟨(i 0).val / 5000, hN⟩ (0 : Fin 2) * 5000 + 5000
    rw [e30]; omega
  | ⟨1, _⟩ =>
    show win7_3.index ⟨(i 0).val / 5000, hN⟩ (1 : Fin 2) * 40 ≤ (i 1).val ∧ (i 1).val < win7_3.index ⟨(i 0).val / 5000, hN⟩ (1 : Fin 2) * 40 + 40
    rw [e31]; omega

/-- The output array after the region is the whole-array function of the input arrays. -/
theorem final7 (c : Dev nD) : (dat7 (F := Ideal) V c).arrAt 3 cfg7.N
    = GcnBn.scaleBias (P := 100000) (Q := 40) (V c (Pipeline.arrRef spec7 0)) (V c (Pipeline.arrRef spec7 1)) (V c (Pipeline.arrRef spec7 2)) :=
  (dat7 V c).arrAt_eq_of_cover 3 _ (fun t _ => flushed7_eq V c t) cover7

end Cert.KernelIdeal.Hand

end
-- ==== Proof.KernelOutDefs.lean ====
import proofs.«107691_j23957327577190_1_alg».proof.Proof.KernelIdealHostDefs
import proofs.«107691_j23957327577190_1_alg».proof.Proof.LibGcnBnSpec
import proofs.«107691_j23957327577190_1_alg».proof.Proof.LibGcnBnVec

/-!
  The kernel program's result as one term of its thirteen argument arrays, over the extended reals: the definitions.

  One graph convolution: project the features, rescale each node's row by the source-side degree norm, add the rows
  up along the edges, rescale by the destination-side degree norm, add the bias. One hidden layer: normalise each
  feature by its mean and inverse deviation over all nodes (both from the feature's sum and sum of squares), rescale,
  shift, clamp below at 0. The result: convolution, hidden layer, convolution, hidden layer, convolution.
-/

noncomputable section

namespace Cert.KernelIdeal.Hand

open Idealize.ShloMosaic
open Cert.KernelIdeal Cert.KernelIdeal.Gen

/-- One graph convolution to 128 features. -/
def kConv128 (h : GcnBn.Mat 100000 128) (W : GcnBn.Mat 128 128) (b : GcnBn.Vec1 128) (src dst : IVec S1600000 32) : GcnBn.Mat 100000 128 :=
  GcnBn.scaleBias (kAgg128 (GcnBn.prodScaled h W (GcnBn.asCol (kNorm src))) src dst) (GcnBn.asCol (kNorm dst)) (GcnBn.asRow b)

/-- One graph convolution to 40 features. -/
def kConv40 (h : GcnBn.Mat 100000 128) (W : GcnBn.Mat 128 40) (b : GcnBn.Vec1 40) (src dst : IVec S1600000 32) : GcnBn.Mat 100000 40 :=
  GcnBn.scaleBias (kAgg40 (GcnBn.prodScaled h W (GcnBn.asCol (kNorm src))) src dst) (GcnBn.asCol (kNorm dst)) (GcnBn.asRow b)

/-- One hidden layer: normalise by the moments taken from the column sums, rescale, shift, clamp below at 0. -/
def kHidden (y : GcnBn.Mat 100000 128) (g be : GcnBn.Vec1 128) : GcnBn.Mat 100000 128 :=
  GcnBn.normRelu y (kMeanRow (GcnBn.colSum y)) (kInvRow (GcnBn.colSum y) (GcnBn.colSumSq y)) (GcnBn.asRow g) (GcnBn.asRow be)

/-- The result as one term of the thirteen arguments. -/
def kOut (a0 : GcnBn.Mat 100000 128) (a1 a2 : IVec S1600000 32) (a3 : GcnBn.Mat 128 128) (a4 a5 a6 : GcnBn.Vec1 128)
    (a7 : GcnBn.Mat 128 128) (a8 a9 a10 : GcnBn.Vec1 128) (a11 : GcnBn.Mat 128 40) (a12 : GcnBn.Vec1 40) : GcnBn.Mat 100000 40 :=
  kConv40 (kHidden (kConv128 (kHidden (kConv128 a0 a3 a4 a1 a2) a5 a6) a7 a8 a1 a2) a9 a10) a11 a12 a1 a2

end Cert.KernelIdeal.Hand

end
-- ==== Proof.KernelValue.lean ====
import proofs.«107691_j23957327577190_1_alg».proof.Proof.KernelIdealRun
import proofs.«107691_j23957327577190_1_alg».proof.Proof.KernelIdealHostTerms
import proofs.«107691_j23957327577190_1_alg».proof.Proof.Value0
import proofs.«107691_j23957327577190_1_alg».proof.Proof.Value1
import proofs.«107691_j23957327577190_1_alg».proof.Proof.Value2
import proofs.«107691_j23957327577190_1_alg».proof.Proof.Value3
import proofs.«107691_j23957327577190_1_alg».proof.Proof.Value4
import proofs.«107691_j23957327577190_1_alg».proof.Proof.Value5
import proofs.«107691_j23957327577190_1_alg».proof.Proof.Value6
import proofs.«107691_j23957327577190_1_alg».proof.Proof.Value7
import proofs.«107691_j23957327577190_1_alg».proof.Proof.LibGcnBnVec
import proofs.«107691_j23957327577190_1_alg».proof.Proof.KernelOutDefs

/-!
  The kernel program's result is one term of its thirteen argument arrays, over the extended reals: the term that
  composes convolution, hidden layer, convolution, hidden layer, convolution.

  What each kernel region leaves in its output arrays is stated in terms of what the regions before it left and of the
  arguments, region by region; the result is their composition.
-/

noncomputable section

namespace Cert.KernelIdeal.Hand

open Idealize.ShloMosaic Idealize.ShloMosaic.TcCoe
open Cert.KernelIdeal Cert.KernelIdeal.Gen
open Idealize.ShloMosaic.ValueIdx

variable (m : (ℓ : Loc nD τ sig) → Buf (Elt Ideal) ℓ) (c : Dev nD)

/-! ## What each region reads, window by window -/

theorem in0_0 : (atTc (X5 m) c (Pipeline.arrRef spec0 (0 : Fin 4)) : GcnBn.Mat 100000 128) = (m ((c : Thread nD τ).loc main_arg0)) :=
  V5_arg0 m c
theorem in0_1 : (atTc (X5 m) c (Pipeline.arrRef spec0 (1 : Fin 4)) : GcnBn.Mat 128 128) = (m ((c : Thread nD τ).loc main_arg3)) :=
  V5_arg3 m c
theorem in0_2 : (atTc (X5 m) c (Pipeline.arrRef spec0 (2 : Fin 4)) : GcnBn.Mat 100000 1) = GcnBn.asCol (kNorm (m ((c : Thread nD τ).loc main_arg1))) :=
  V5_v17 m c

theorem in1_0 : (atTc (X8 m) c (Pipeline.arrRef spec1 (0 : Fin 6)) : GcnBn.Mat 100000 128) = kAgg128 (outs m 6 main_v18 c) (m ((c : Thread nD τ).loc main_arg1)) (m ((c : Thread nD τ).loc main_arg2)) :=
  (congrFun (V8_eq m c) _).symm.trans (V8_v22 m (outs m) c)
theorem in1_1 : (atTc (X8 m) c (Pipeline.arrRef spec1 (1 : Fin 6)) : GcnBn.Mat 100000 1) = GcnBn.asCol (kNorm (m ((c : Thread nD τ).loc main_arg2))) :=
  (congrFun (V8_eq m c) _).symm.trans (V8_v23 m (outs m) c)
theorem in1_2 : (atTc (X8 m) c (Pipeline.arrRef spec1 (2 : Fin 6)) : GcnBn.Mat 1 128) = GcnBn.asRow (m ((c : Thread nD τ).loc main_arg4)) :=
  (congrFun (V8_eq m c) _).symm.trans (V8_v24 m (outs m) c)

theorem in2_0 : (atTc (X10 m) c (Pipeline.arrRef spec2 (0 : Fin 6)) : GcnBn.Mat 100000 128) = (outs m 9 main_v25_0 c) :=
  (congrFun (V10_eq m c) _).symm.trans (V10_v25_0 m (outs m) c)
theorem in2_1 : (atTc (X10 m) c (Pipeline.arrRef spec2 (1 : Fin 6)) : GcnBn.Mat 1 128) = kMeanRow (outs m 9 main_v25_1 c) :=
  (congrFun (V10_eq m c) _).symm.trans (V10_v40 m (outs m) c)
theorem in2_2 : (atTc (X10 m) c (Pipeline.arrRef spec2 (2 : Fin 6)) : GcnBn.Mat 1 128) = kInvRow (outs m 9 main_v25_1 c) (outs m 9 main_v25_2 c) :=
  (congrFun (V10_eq m c) _).symm.trans (V10_v39 m (outs m) c)
theorem in2_3 : (atTc (X10 m) c (Pipeline.arrRef spec2 (3 : Fin 6)) : GcnBn.Mat 1 128) = GcnBn.asRow (m ((c : Thread nD τ).loc main_arg5)) :=
  (congrFun (V10_eq m c) _).symm.trans (V10_v41 m (outs m) c)
theorem in2_4 : (atTc (X10 m) c (Pipeline.arrRef spec2 (4 : Fin 6)) : GcnBn.Mat 1 128) = GcnBn.asRow (m ((c : Thread nD τ).loc main_arg6)) :=
  (congrFun (V10_eq m c) _).symm.trans (V10_v42 m (outs m) c)

theorem in3_0 : (atTc (X12 m) c (Pipeline.arrRef spec3 (0 : Fin 4)) : GcnBn.Mat 100000 128) = (outs m 11 main_v43 c) :=
  (congrFun (V12_eq m c) _).symm.trans (V12_v43 m (outs m) c)
theorem in3_1 : (atTc (X12 m) c (Pipeline.arrRef spec3 (1 : Fin 4)) : GcnBn.Mat 128 128) = (m ((c : Thread nD τ).loc main_arg7)) :=
  (congrFun (V12_eq m c) _).symm.trans (V12_arg7 m (outs m) c)
theorem in3_2 : (atTc (X12 m) c (Pipeline.arrRef spec3 (2 : Fin 4)) : GcnBn.Mat 100000 1) = GcnBn.asCol (kNorm (m ((c : Thread nD τ).loc main_arg1))) :=
  (congrFun (V12_eq m c) _).symm.trans (V12_v44 m (outs m) c)

theorem in4_0 : (atTc (X15 m) c (Pipeline.arrRef spec4 (0 : Fin 6)) : GcnBn.Mat 100000 128) = kAgg128 (outs m 13 main_v45 c) (m ((c : Thread nD τ).loc main_arg1)) (m ((c : Thread nD τ).loc main_arg2)) :=
  (congrFun (V15_eq m c) _).symm.trans (V15_v49 m (outs m) c)
theorem in4_1 : (atTc (X15 m) c (Pipeline.arrRef spec4 (1 : Fin 6)) : GcnBn.Mat 100000 1) = GcnBn.asCol (kNorm (m ((c : Thread nD τ).loc main_arg2))) :=
  (congrFun (V15_eq m c) _).symm.trans (V15_v50 m (outs m) c)
theorem in4_2 : (atTc (X15 m) c (Pipeline.arrRef spec4 (2 : Fin 6)) : GcnBn.Mat 1 128) = GcnBn.asRow (m ((c : Thread nD τ).loc main_arg8)) :=
  (congrFun (V15_eq m c) _).symm.trans (V15_v51 m (outs m) c)

theorem in5_0 : (atTc (X17 m) c (Pipeline.arrRef spec5 (0 : Fin 6)) : GcnBn.Mat 100000 128) = (outs m 16 main_v52_0 c) :=
  (congrFun (V17_eq m c) _).symm.trans (V17_v52_0 m (outs m) c)
theorem in5_1 : (atTc (X17 m) c (Pipeline.arrRef spec5 (1 : Fin 6)) : GcnBn.Mat 1 128) = kMeanRow (outs m 16 main_v52_1 c) :=
  (congrFun (V17_eq m c) _).symm.trans (V17_v67 m (outs m) c)
theorem in5_2 : (atTc (X17 m) c (Pipeline.arrRef spec5 (2 : Fin 6)) : GcnBn.Mat 1 128) = kInvRow (outs m 16 main_v52_1 c) (outs m 16 main_v52_2 c) :=
  (congrFun (V17_eq m c) _).symm.trans (V17_v66 m (outs m) c)
theorem in5_3 : (atTc (X17 m) c (Pipeline.arrRef spec5 (3 : Fin 6)) : GcnBn.Mat 1 128) = GcnBn.asRow (m ((c : Thread nD τ).loc main_arg9)) :=
  (congrFun (V17_eq m c) _).symm.trans (V17_v68 m (outs m) c)
theorem in5_4 : (atTc (X17 m) c (Pipeline.arrRef spec5 (4 : Fin 6)) : GcnBn.Mat 1 128) = GcnBn.asRow (m ((c : Thread nD τ).loc main_arg10)) :=
  (congrFun (V17_eq m c) _).symm.trans (V17_v69 m (outs m) c)

theorem in6_0 : (atTc (X19 m) c (Pipeline.arrRef spec6 (0 : Fin 4)) : GcnBn.Mat 100000 128) = (outs m 18 main_v70 c) :=
  (congrFun (V19_eq m c) _).symm.trans (V19_v70 m (outs m) c)
theorem in6_1 : (atTc (X19 m) c (Pipeline.arrRef spec6 (1 : Fin 4)) : GcnBn.Mat 128 40) = (m ((c : Thread nD τ).loc main_arg11)) :=
  (congrFun (V19_eq m c) _).symm.trans (V19_arg11 m (outs m) c)
theorem in6_2 : (atTc (X19 m) c (Pipeline.arrRef spec6 (2 : Fin 4)) : GcnBn.Mat 100000 1) = GcnBn.asCol (kNorm (m ((c : Thread nD τ).loc main_arg1))) :=
  (congrFun (V19_eq m c) _).symm.trans (V19_v71 m (outs m) c)

theorem in7_0 : (atTc (X22 m) c (Pipeline.arrRef spec7 (0 : Fin 4)) : GcnBn.Mat 100000 40) = kAgg40 (outs m 20 main_v72 c) (m ((c : Thread nD τ).loc main_arg1)) (m ((c : Thread nD τ).loc main_arg2)) :=
  (congrFun (V22_eq m c) _).symm.trans (V22_v76 m (outs m) c)
theorem in7_1 : (atTc (X22 m) c (Pipeline.arrRef spec7 (1 : Fin 4)) : GcnBn.Mat 100000 1) = GcnBn.asCol (kNorm (m ((c : Thread nD τ).loc main_arg2))) :=
  (congrFun (V22_eq m c) _).symm.trans (V22_v77 m (outs m) c)
theorem in7_2 : (atTc (X22 m) c (Pipeline.arrRef spec7 (2 : Fin 4)) : GcnBn.Mat 1 40) = GcnBn.asRow (m ((c : Thread nD τ).loc main_arg12)) :=
  (congrFun (V22_eq m c) _).symm.trans (V22_v78 m (outs m) c)

/-! ## What each region leaves, in terms of what the regions before it left -/

/-- What region 0 leaves. -/
theorem region0_out : outs m 6 main_v18 c = GcnBn.prodScaled (P := 100000) (K := 128) (Q := 128) (m ((c : Thread nD τ).loc main_arg0)) (m ((c : Thread nD τ).loc main_arg3)) (GcnBn.asCol (kNorm (m ((c : Thread nD τ).loc main_arg1)))) := by
  show X6 m c main_v18 = _
  unfold X6
  rw [Function.update_self, final0 (atTc (X5 m)) c, in0_0 m c, in0_1 m c, in0_2 m c]

/-- What region 1 leaves: the rescaled, biased aggregate, -/
theorem region1_h : outs m 9 main_v25_0 c = (GcnBn.scaleBias (P := 100000) (Q := 128) (kAgg128 (outs m 6 main_v18 c) (m ((c : Thread nD τ).loc main_arg1)) (m ((c : Thread nD τ).loc main_arg2))) (GcnBn.asCol (kNorm (m ((c : Thread nD τ).loc main_arg2)))) (GcnBn.asRow (m ((c : Thread nD τ).loc main_arg4)))) := by
  show X9 m c main_v25_0 = _
  unfold X9
  simp only [Function.update_self, Function.update_of_ne (StableHlo.devRef_ne_of_ne (by decide : main_v25_0 ≠ main_v25_1) : (Proc.devRef .tc main_v25_0 : DevRef τ sig) ≠ Proc.devRef .tc main_v25_1), Function.update_of_ne (StableHlo.devRef_ne_of_ne (by decide : main_v25_0 ≠ main_v25_2) : (Proc.devRef .tc main_v25_0 : DevRef τ sig) ≠ Proc.devRef .tc main_v25_2), Function.update_of_ne (StableHlo.devRef_ne_of_ne (by decide : main_v25_1 ≠ main_v25_2) : (Proc.devRef .tc main_v25_1 : DevRef τ sig) ≠ Proc.devRef .tc main_v25_2)]
  rw [final1_h (atTc (X8 m)) c, in1_0 m c, in1_1 m c, in1_2 m c]

/-- its column sums, -/
theorem region1_sum : outs m 9 main_v25_1 c = GcnBn.colSum (GcnBn.scaleBias (P := 100000) (Q := 128) (kAgg128 (outs m 6 main_v18 c) (m ((c : Thread nD τ).loc main_arg1)) (m ((c : Thread nD τ).loc main_arg2))) (GcnBn.asCol (kNorm (m ((c : Thread nD τ).loc main_arg2)))) (GcnBn.asRow (m ((c : Thread nD τ).loc main_arg4)))) := by
  show X9 m c main_v25_1 = _
  unfold X9
  simp only [Function.update_self, Function.update_of_ne (StableHlo.devRef_ne_of_ne (by decide : main_v25_0 ≠ main_v25_1) : (Proc.devRef .tc main_v25_0 : DevRef τ sig) ≠ Proc.devRef .tc main_v25_1), Function.update_of_ne (StableHlo.devRef_ne_of_ne (by decide : main_v25_0 ≠ main_v25_2) : (Proc.devRef .tc main_v25_0 : DevRef τ sig) ≠ Proc.devRef .tc main_v25_2), Function.update_of_ne (StableHlo.devRef_ne_of_ne (by decide : main_v25_1 ≠ main_v25_2) : (Proc.devRef .tc main_v25_1 : DevRef τ sig) ≠ Proc.devRef .tc main_v25_2)]
  rw [final1_sum (atTc (X8 m)) c, in1_0 m c, in1_1 m c, in1_2 m c]

/-- and its column sums of squares. -/
theorem region1_sumsq : outs m 9 main_v25_2 c = GcnBn.colSumSq (GcnBn.scaleBias (P := 100000) (Q := 128) (kAgg128 (outs m 6 main_v18 c) (m ((c : Thread nD τ).loc main_arg1)) (m ((c : Thread nD τ).loc main_arg2))) (GcnBn.asCol (kNorm (m ((c : Thread nD τ).loc main_arg2)))) (GcnBn.asRow (m ((c : Thread nD τ).loc main_arg4)))) := by
  show X9 m c main_v25_2 = _
  unfold X9
  simp only [Function.update_self, Function.update_of_ne (StableHlo.devRef_ne_of_ne (by decide : main_v25_0 ≠ main_v25_1) : (Proc.devRef .tc main_v25_0 : DevRef τ sig) ≠ Proc.devRef .tc main_v25_1), Function.update_of_ne (StableHlo.devRef_ne_of_ne (by decide : main_v25_0 ≠ main_v25_2) : (Proc.devRef .tc main_v25_0 : DevRef τ sig) ≠ Proc.devRef .tc main_v25_2), Function.update_of_ne (StableHlo.devRef_ne_of_ne (by decide : main_v25_1 ≠ main_v25_2) : (Proc.devRef .tc main_v25_1 : DevRef τ sig) ≠ Proc.devRef .tc main_v25_2)]
  rw [final1_sumsq (atTc (X8 m)) c, in1_0 m c, in1_1 m c, in1_2 m c]

/-- What region 2 leaves. -/
theorem region2_out : outs m 11 main_v43 c = GcnBn.normRelu (P := 100000) (Q := 128) (outs m 9 main_v25_0 c) (kMeanRow (outs m 9 main_v25_1 c)) (kInvRow (outs m 9 main_v25_1 c) (outs m 9 main_v25_2 c)) (GcnBn.asRow (m ((c : Thread nD τ).loc main_arg5))) (GcnBn.asRow (m ((c : Thread nD τ).loc main_arg6))) := by
  show X11 m c main_v43 = _
  unfold X11
  rw [Function.update_self, final2 (atTc (X10 m)) c, in2_0 m c, in2_1 m c, in2_2 m c, in2_3 m c, in2_4 m c]

/-- What region 3 leaves. -/
theorem region3_out : outs m 13 main_v45 c = GcnBn.prodScaled (P := 100000) (K := 128) (Q := 128) (outs m 11 main_v43 c) (m ((c : Thread nD τ).loc main_arg7)) (GcnBn.asCol (kNorm (m ((c : Thread nD τ).loc main_arg1)))) := by
  show X13 m c main_v45 = _
  unfold X13
  rw [Function.update_self, final3 (atTc (X12 m)) c, in3_0 m c, in3_1 m c, in3_2 m c]

/-- What region 4 leaves: the rescaled, biased aggregate, -/
theorem region4_h : outs m 16 main_v52_0 c = (GcnBn.scaleBias (P := 100000) (Q := 128) (kAgg128 (outs m 13 main_v45 c) (m ((c : Thread nD τ).loc main_arg1)) (m ((c : Thread nD τ).loc main_arg2))) (GcnBn.asCol (kNorm (m ((c : Thread nD τ).loc main_arg2)))) (GcnBn.asRow (m ((c : Thread nD τ).loc main_arg8)))) := by
  show X16 m c main_v52_0 = _
  unfold X16
  simp only [Function.update_self, Function.update_of_ne (StableHlo.devRef_ne_of_ne (by decide : main_v52_0 ≠ main_v52_1) : (Proc.devRef .tc main_v52_0 : DevRef τ sig) ≠ Proc.devRef .tc main_v52_1), Function.update_of_ne (StableHlo.devRef_ne_of_ne (by decide : main_v52_0 ≠ main_v52_2) : (Proc.devRef .tc main_v52_0 : DevRef τ sig) ≠ Proc.devRef .tc main_v52_2), Function.update_of_ne (StableHlo.devRef_ne_of_ne (by decide : main_v52_1 ≠ main_v52_2) : (Proc.devRef .tc main_v52_1 : DevRef τ sig) ≠ Proc.devRef .tc main_v52_2)]
  rw [final4_h (atTc (X15 m)) c, in4_0 m c, in4_1 m c, in4_2 m c]

/-- its column sums, -/
theorem region4_sum : outs m 16 main_v52_1 c = GcnBn.colSum (GcnBn.scaleBias (P := 100000) (Q := 128) (kAgg128 (outs m 13 main_v45 c) (m ((c : Thread nD τ).loc main_arg1)) (m ((c : Thread nD τ).loc main_arg2))) (GcnBn.asCol (kNorm (m ((c : Thread nD τ).loc main_arg2)))) (GcnBn.asRow (m ((c : Thread nD τ).loc main_arg8)))) := by
  show X16 m c main_v52_1 = _
  unfold X16
  simp only [Function.update_self, Function.update_of_ne (StableHlo.devRef_ne_of_ne (by decide : main_v52_0 ≠ main_v52_1) : (Proc.devRef .tc main_v52_0 : DevRef τ sig) ≠ Proc.devRef .tc main_v52_1), Function.update_of_ne (StableHlo.devRef_ne_of_ne (by decide : main_v52_0 ≠ main_v52_2) : (Proc.devRef .tc main_v52_0 : DevRef τ sig) ≠ Proc.devRef .tc main_v52_2), Function.update_of_ne (StableHlo.devRef_ne_of_ne (by decide : main_v52_1 ≠ main_v52_2) : (Proc.devRef .tc main_v52_1 : DevRef τ sig) ≠ Proc.devRef .tc main_v52_2)]
  rw [final4_sum (atTc (X15 m)) c, in4_0 m c, in4_1 m c, in4_2 m c]

/-- and its column sums of squares. -/
theorem region4_sumsq : outs m 16 main_v52_2 c = GcnBn.colSumSq (GcnBn.scaleBias (P := 100000) (Q := 128) (kAgg128 (outs m 13 main_v45 c) (m ((c : Thread nD τ).loc main_arg1)) (m ((c : Thread nD τ).loc main_arg2))) (GcnBn.asCol (kNorm (m ((c : Thread nD τ).loc main_arg2)))) (GcnBn.asRow (m ((c : Thread nD τ).loc main_arg8)))) := by
  show X16 m c main_v52_2 = _
  unfold X16
  simp only [Function.update_self, Function.update_of_ne (StableHlo.devRef_ne_of_ne (by decide : main_v52_0 ≠ main_v52_1) : (Proc.devRef .tc main_v52_0 : DevRef τ sig) ≠ Proc.devRef .tc main_v52_1), Function.update_of_ne (StableHlo.devRef_ne_of_ne (by decide : main_v52_0 ≠ main_v52_2) : (Proc.devRef .tc main_v52_0 : DevRef τ sig) ≠ Proc.devRef .tc main_v52_2), Function.update_of_ne (StableHlo.devRef_ne_of_ne (by decide : main_v52_1 ≠ main_v52_2) : (Proc.devRef .tc main_v52_1 : DevRef τ sig) ≠ Proc.devRef .tc main_v52_2)]
  rw [final4_sumsq (atTc (X15 m)) c, in4_0 m c, in4_1 m c, in4_2 m c]

/-- What region 5 leaves. -/
theorem region5_out : outs m 18 main_v70 c = GcnBn.normRelu (P := 100000) (Q := 128) (outs m 16 main_v52_0 c) (kMeanRow (outs m 16 main_v52_1 c)) (kInvRow (outs m 16 main_v52_1 c) (outs m 16 main_v52_2 c)) (GcnBn.asRow (m ((c : Thread nD τ).loc main_arg9))) (GcnBn.asRow (m ((c : Thread nD τ).loc main_arg10))) := by
  show X18 m c main_v70 = _
  unfold X18
  rw [Function.update_self, final5 (atTc (X17 m)) c, in5_0 m c, in5_1 m c, in5_2 m c, in5_3 m c, in5_4 m c]

/-- What region 6 leaves. -/
theorem region6_out : outs m 20 main_v72 c = GcnBn.prodScaled (P := 100000) (K := 128) (Q := 40) (outs m 18 main_v70 c) (m ((c : Thread nD τ).loc main_arg11)) (GcnBn.asCol (kNorm (m ((c : Thread nD τ).loc main_arg1)))) := by
  show X20 m c main_v72 = _
  unfold X20
  rw [Function.update_self, final6 (atTc (X19 m)) c, in6_0 m c, in6_1 m c, in6_2 m c]

/-- What region 7 leaves. -/
theorem region7_out : outs m 23 main_v79 c = GcnBn.scaleBias (P := 100000) (Q := 40) (kAgg40 (outs m 20 main_v72 c) (m ((c : Thread nD τ).loc main_arg1)) (m ((c : Thread nD τ).loc main_arg2))) (GcnBn.asCol (kNorm (m ((c : Thread nD τ).loc main_arg2)))) (GcnBn.asRow (m ((c : Thread nD τ).loc main_arg12))) := by
  show X23 m c main_v79 = _
  unfold X23
  rw [Function.update_self, final7 (atTc (X22 m)) c, in7_0 m c, in7_1 m c, in7_2 m c]

/-! ## The result -/

/-- The result array after the run is the one term of the thirteen arguments. -/
theorem kernel_out : outs m 23 main_v79 c
    = kOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [region7_out, region6_out, region5_out, region4_h, region4_sum, region4_sumsq, region3_out, region2_out,
    region1_h, region1_sum, region1_sumsq, region0_out]
  rfl

end Cert.KernelIdeal.Hand

end
-- ==== Proof.RefRunDefs.lean ====
import proofs.«107691_j23957327577190_1_alg».proof.ReferenceIdeal
import Idealize.ShloMosaic.Lib.StableHlo.Run
import Idealize.ShloMosaic.PureOps.Ideal

set_option synthInstance.maxSize 4096

noncomputable section

namespace Cert.ReferenceIdeal.Hand

open Cert.ReferenceIdeal Idealize.ShloMosaic Idealize.ShloMosaic.TcCoe Idealize.SL.Sem Idealize.ShloMosaic.StableHlo
open Facts₀ Facts

variable [Facts]

/-! The reference's result as a composed pure term of its thirteen argument arrays, at the ideal instance, built in
layers: the degree norm of an index array; the row gather along the edges with its index normalisation and
validity mask; the scatter-add aggregation at the destinations; one graph convolution; one batch normalisation
followed by the maximum with zero; and the three-layer composition. -/

/-- An array of shape `s` and element type `e` at the ideal instance. -/
abbrev Arr (s : Shape) (e : EltTy) : Type := (⟨s, e⟩ : BufTy).Contents (Elt Ideal)

/-- The degree of every node: ones accumulated at the given node indices into zeros. -/
def degOf (idx : Arr S1600000 .i32) : Arr S100000 .f32 :=
  Host.scatterAdd (F := Ideal) (φ := .f32) scatter_S100000_S1600000x1_S1600000_n_0_0_1
    (broadcastInDim S100000 ![] bcast_S_S100000 (constant (F := Ideal) S_ .f32 0x00000000#32))
    (broadcastInDim S1600000x1 ![0] bcast_S1600000_S1600000x1_0 idx)
    (broadcastInDim S1600000 ![] bcast_S_S1600000 (constant (F := Ideal) S_ .f32 0x3F800000#32))

/-- The degree norm: the degree clamped below at one (one where the degree is less than one), to the power −1/2. -/
def normOf (idx : Arr S1600000 .i32) : Arr S100000 .f32 :=
  Host.powf (F := Ideal) (φ := .f32)
    (select
      (cmpf (F := Ideal) (φ := .f32) .olt (degOf idx)
        (broadcastInDim S100000 ![] bcast_S_S100000 (constant (F := Ideal) S_ .f32 0x3F800000#32)))
      (broadcastInDim S100000 ![] bcast_S_S100000 (constant (F := Ideal) S_ .f32 0x3F800000#32))
      (degOf idx))
    (broadcastInDim S100000 ![] bcast_S_S100000 (constant (F := Ideal) S_ .f32 0xBF000000#32))

/-- The gather's row index: a negative index is shifted up by the number of rows. -/
def takeIdx (src : Arr S1600000 .i32) : Arr S1600000 .i32 :=
  select (cmpi .slt src (broadcastInDim S1600000 ![] bcast_S_S1600000 (constantI S_ 32 0#32)))
    (addi src (broadcastInDim S1600000 ![] bcast_S_S1600000 (constantI S_ 32 100000#32)))
    src

/-- The row indices as a column of index vectors. -/
def takeIdxCol (src : Arr S1600000 .i32) : Arr S1600000x1 .i32 :=
  broadcastInDim S1600000x1 ![0] bcast_S1600000_S1600000x1_0 (takeIdx src)

/-- Which edges carry a valid row index: at least zero and at most the last row. -/
def takeValid (src : Arr S1600000 .i32) : Arr S1600000 .i1 :=
  Host.reduce IntOp.andi
    (andi
      (cmpi .sge (takeIdxCol src) (broadcastInDim S1600000x1 ![] bcast_S_S1600000x1 (constantI S_ 32 0#32)))
      (cmpi .sle (takeIdxCol src)
        (broadcastInDim S1600000x1 ![0, 1] bcast_S1x1_S1600000x1_0_1
          (broadcastInDim S1x1 ![1] bcast_S1_S1x1_1 (constantI S1 32 99999#32)))))
    (constantI S_ 1 1#1) reducesTo_S1600000x1_S1600000_d1 h_S_

/-- The rows of `h` gathered along the edges: row `src e` at edge `e` where the index is valid, the NaN fill elsewhere. -/
def takeRows128 (h : Arr S100000x128 .f32) (src : Arr S1600000 .i32) : Arr S1600000x128 .f32 :=
  select (broadcastInDim S1600000x128 ![0] bcast_S1600000_S1600000x128_0 (takeValid src))
    (Host.gather gather_S100000x128_S1600000x1_S1600000x128_1_0_n_n_0_1_1128 h (takeIdxCol src))
    (broadcastInDim S1600000x128 ![] bcast_S_S1600000x128 (constant (F := Ideal) S_ .f32 0x7FC00000#32))

/-- The same over rows of width forty. -/
def takeRows40 (h : Arr S100000x40 .f32) (src : Arr S1600000 .i32) : Arr S1600000x40 .f32 :=
  select (broadcastInDim S1600000x40 ![0] bcast_S1600000_S1600000x40_0 (takeValid src))
    (Host.gather gather_S100000x40_S1600000x1_S1600000x40_1_0_n_n_0_1_140 h (takeIdxCol src))
    (broadcastInDim S1600000x40 ![] bcast_S_S1600000x40 (constant (F := Ideal) S_ .f32 0x7FC00000#32))

/-- The edge messages summed at their destination nodes, from zeros. -/
def aggregate128 (msg : Arr S1600000x128 .f32) (dst : Arr S1600000 .i32) : Arr S100000x128 .f32 :=
  Host.scatterAdd (F := Ideal) (φ := .f32) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    msg

/-- The same over rows of width forty. -/
def aggregate40 (msg : Arr S1600000x40 .f32) (dst : Arr S1600000 .i32) : Arr S100000x40 .f32 :=
  Host.scatterAdd (F := Ideal) (φ := .f32) scatter_S100000x40_S1600000x1_S1600000x40_1_0_0_1
    (broadcastInDim S100000x40 ![] bcast_S_S100000x40 (constant (F := Ideal) S_ .f32 0x00000000#32))
    (broadcastInDim S1600000x1 ![0] bcast_S1600000_S1600000x1_0 dst)
    msg

/-- A per-node value repeated along each row. -/
def colBcast128 (v : Arr S100000 .f32) : Arr S100000x128 .f32 :=
  broadcastInDim S100000x128 ![0, 1] bcast_S100000x1_S100000x128_0_1
    (broadcastInDim S100000x1 ![0] bcast_S100000_S100000x1_0 v)

/-- The same over rows of width forty. -/
def colBcast40 (v : Arr S100000 .f32) : Arr S100000x40 .f32 :=
  broadcastInDim S100000x40 ![0, 1] bcast_S100000x1_S100000x40_0_1
    (broadcastInDim S100000x1 ![0] bcast_S100000_S100000x1_0 v)

/-- A per-column value repeated down each column. -/
def rowBcast128 (v : Arr S128 .f32) : Arr S100000x128 .f32 :=
  broadcastInDim S100000x128 ![0, 1] bcast_S1x128_S100000x128_0_1
    (broadcastInDim S1x128 ![1] bcast_S128_S1x128_1 v)

/-- The same over rows of width forty. -/
def rowBcast40 (v : Arr S40 .f32) : Arr S100000x40 .f32 :=
  broadcastInDim S100000x40 ![0, 1] bcast_S1x40_S100000x40_0_1
    (broadcastInDim S1x40 ![1] bcast_S40_S1x40_1 v)

/-- One graph convolution of width 128: the features times the weights, scaled by the source norm, gathered along the
    edges, summed at the destinations, scaled by the destination norm, plus the bias. -/
def conv128 (h : Arr S100000x128 .f32) (W : Arr S128x128 .f32) (b : Arr S128 .f32) (src dst : Arr S1600000 .i32)
    (no ni : Arr S100000 .f32) : Arr S100000x128 .f32 :=
  addf (F := Ideal) (φ := .f32)
    (mulf (F := Ideal) (φ := .f32)
      (aggregate128
        (takeRows128
          (mulf (F := Ideal) (φ := .f32) (Host.dotGeneral (F := Ideal) (φ₁ := .f32) (φ₂ := .f32) dot_S100000x128_S128x128_S100000x128_1_0_0_1_n_n none h W)
            (colBcast128 no))
          src)
        dst)
      (colBcast128 ni))
    (rowBcast128 b)

/-- The last graph convolution, to width forty. -/
def conv40 (h : Arr S100000x128 .f32) (W : Arr S128x40 .f32) (b : Arr S40 .f32) (src dst : Arr S1600000 .i32)
    (no ni : Arr S100000 .f32) : Arr S100000x40 .f32 :=
  addf (F := Ideal) (φ := .f32)
    (mulf (F := Ideal) (φ := .f32)
      (aggregate40
        (takeRows40
          (mulf (F := Ideal) (φ := .f32) (Host.dotGeneral (F := Ideal) (φ₁ := .f32) (φ₂ := .f32) dot_S100000x128_S128x40_S100000x40_1_0_0_1_n_n none h W)
            (colBcast40 no))
          src)
        dst)
      (colBcast40 ni))
    (rowBcast40 b)

/-- The mean of each column: the column sums divided by the number of rows. -/
def colMean (h : Arr S100000x128 .f32) : Arr S128 .f32 :=
  Host.divf (F := Ideal) (φ := .f32)
    (Host.reduceAdd (F := Ideal) (φ := .f32) h (constant (F := Ideal) S_ .f32 0x00000000#32) reducesTo_S100000x128_S128_d0 h_S_)
    (broadcastInDim S128 ![] bcast_S_S128 (constant (F := Ideal) S_ .f32 0x47C35000#32))

/-- Each entry minus its column's mean. -/
def centred (h : Arr S100000x128 .f32) : Arr S100000x128 .f32 :=
  subf (F := Ideal) (φ := .f32) h (rowBcast128 (colMean h))

/-- The variance of each column: the mean of the centred squares. -/
def colVar (h : Arr S100000x128 .f32) : Arr S128 .f32 :=
  colMean (mulf (F := Ideal) (φ := .f32) (centred h) (centred h))

/-- Batch normalisation over the rows with scale `g` and shift `be`, then the maximum with zero. -/
def bnRelu (h : Arr S100000x128 .f32) (g be : Arr S128 .f32) : Arr S100000x128 .f32 :=
  maximumf (F := Ideal) (φ := .f32)
    (addf (F := Ideal) (φ := .f32)
      (mulf (F := Ideal) (φ := .f32)
        (mulf (F := Ideal) (φ := .f32) (centred h)
          (rowBcast128
            (Host.rsqrt (F := Ideal) (φ := .f32)
              (addf (F := Ideal) (φ := .f32) (colVar h)
                (broadcastInDim S128 ![] bcast_S_S128 (constant (F := Ideal) S_ .f32 0x3727C5AC#32))))))
        (rowBcast128 g))
      (rowBcast128 be))
    (broadcastInDim S100000x128 ![] bcast_S_S100000x128 (constant (F := Ideal) S_ .f32 0x00000000#32))

/-- The whole result: three graph convolutions over the two degree norms, the first two each followed by batch
    normalisation and the maximum with zero. -/
def refOut (a0 : Arr S100000x128 .f32) (a1 a2 : Arr S1600000 .i32) (a3 : Arr S128x128 .f32) (a4 a5 a6 : Arr S128 .f32)
    (a7 : Arr S128x128 .f32) (a8 a9 a10 : Arr S128 .f32) (a11 : Arr S128x40 .f32) (a12 : Arr S40 .f32) :
    Arr S100000x40 .f32 :=
  conv40
    (bnRelu
      (conv128 (bnRelu (conv128 a0 a3 a4 a1 a2 (normOf a1) (normOf a2)) a5 a6) a7 a8 a1 a2 (normOf a1) (normOf a2))
      a9 a10)
    a11 a12 a1 a2 (normOf a1) (normOf a2)

end Cert.ReferenceIdeal.Hand

end
-- ==== Proof.RefCasts.lean ====
/-
  Contents moved between a tensor value's type and the type of the buffer that holds it.

  A buffer that holds a value of an outlined function's body is referred to together with the value's type; contents
  are carried to the buffer's own type and back along the equation between the two. Carried there and back they are
  unchanged, for any such reference. For a literal buffer the equation holds by computation, the two types are the
  same, and carrying contents either way changes nothing: one such statement per buffer that an outlined function's
  call names, and per buffer of the caller that a call is handed.
-/
import proofs.«107691_j23957327577190_1_alg».proof.ReferenceIdeal
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo

variable {Val : EltTy → Type}

/-- Contents carried to a buffer's own type and back are the contents. -/
theorem ofBuf_toBuf {T : BufTy} (x : TRef sig T) (v : T.Contents Val) : x.ofBuf (x.toBuf v) = v := by
  obtain ⟨r, h, h2, h3⟩ := x
  subst h
  rfl

/-- And the other way round. -/
theorem toBuf_ofBuf {T : BufTy} (x : TRef sig T) (v : x.ref.ty.Contents Val) : x.toBuf (x.ofBuf v) = v := by
  obtain ⟨r, h, h2, h3⟩ := x
  subst h
  rfl

theorem toBuf_call0_v0 (h1 : main_call0_v0.ty = ⟨S_, .f32⟩) (h2 : main_call0_v0.space ≠ .host) (h3 : main_call0_v0.isScoped = false) (v : (⟨S_, .f32⟩ : BufTy).Contents Val) :
    (TRef.of (sig := sig) (T := ⟨S_, .f32⟩) main_call0_v0 h1 h2 h3).toBuf v = v := rfl
theorem ofBuf_call0_v0 (h1 : main_call0_v0.ty = ⟨S_, .f32⟩) (h2 : main_call0_v0.space ≠ .host) (h3 : main_call0_v0.isScoped = false) (v : main_call0_v0.ty.Contents Val) :
    (TRef.of (sig := sig) (T := ⟨S_, .f32⟩) main_call0_v0 h1 h2 h3).ofBuf v = v := rfl
theorem toBuf_call0_v1 (h1 : main_call0_v1.ty = ⟨S100000, .f32⟩) (h2 : main_call0_v1.space ≠ .host) (h3 : main_call0_v1.isScoped = false) (v : (⟨S100000, .f32⟩ : BufTy).Contents Val) :
    (TRef.of (sig := sig) (T := ⟨S100000, .f32⟩) main_call0_v1 h1 h2 h3).toBuf v = v := rfl
theorem ofBuf_call0_v1 (h1 : main_call0_v1.ty = ⟨S100000, .f32⟩) (h2 : main_call0_v1.space ≠ .host) (h3 : main_call0_v1.isScoped = false) (v : main_call0_v1.ty.Contents Val) :
    (TRef.of (sig := sig) (T := ⟨S100000, .f32⟩) main_call0_v1 h1 h2 h3).ofBuf v = v := rfl
theorem toBuf_v9 (h1 : main_v9.ty = ⟨S100000, .f32⟩) (h2 : main_v9.space ≠ .host) (h3 : main_v9.isScoped = false) (v : (⟨S100000, .f32⟩ : BufTy).Contents Val) :
    (TRef.of (sig := sig) (T := ⟨S100000, .f32⟩) main_v9 h1 h2 h3).toBuf v = v := rfl
theorem ofBuf_v9 (h1 : main_v9.ty = ⟨S100000, .f32⟩) (h2 : main_v9.space ≠ .host) (h3 : main_v9.isScoped = false) (v : main_v9.ty.Contents Val) :
    (TRef.of (sig := sig) (T := ⟨S100000, .f32⟩) main_v9 h1 h2 h3).ofBuf v = v := rfl
theorem toBuf_call1_v0 (h1 : main_call1_v0.ty = ⟨S_, .f32⟩) (h2 : main_call1_v0.space ≠ .host) (h3 : main_call1_v0.isScoped = false) (v : (⟨S_, .f32⟩ : BufTy).Contents Val) :
    (TRef.of (sig := sig) (T := ⟨S_, .f32⟩) main_call1_v0 h1 h2 h3).toBuf v = v := rfl
theorem ofBuf_call1_v0 (h1 : main_call1_v0.ty = ⟨S_, .f32⟩) (h2 : main_call1_v0.space ≠ .host) (h3 : main_call1_v0.isScoped = false) (v : main_call1_v0.ty.Contents Val) :
    (TRef.of (sig := sig) (T := ⟨S_, .f32⟩) main_call1_v0 h1 h2 h3).ofBuf v = v := rfl
theorem toBuf_call1_v1 (h1 : main_call1_v1.ty = ⟨S100000, .f32⟩) (h2 : main_call1_v1.space ≠ .host) (h3 : main_call1_v1.isScoped = false) (v : (⟨S100000, .f32⟩ : BufTy).Contents Val) :
    (TRef.of (sig := sig) (T := ⟨S100000, .f32⟩) main_call1_v1 h1 h2 h3).toBuf v = v := rfl
theorem ofBuf_call1_v1 (h1 : main_call1_v1.ty = ⟨S100000, .f32⟩) (h2 : main_call1_v1.space ≠ .host) (h3 : main_call1_v1.isScoped = false) (v : main_call1_v1.ty.Contents Val) :
    (TRef.of (sig := sig) (T := ⟨S100000, .f32⟩) main_call1_v1 h1 h2 h3).ofBuf v = v := rfl
theorem toBuf_v14 (h1 : main_v14.ty = ⟨S100000, .f32⟩) (h2 : main_v14.space ≠ .host) (h3 : main_v14.isScoped = false) (v : (⟨S100000, .f32⟩ : BufTy).Contents Val) :
    (TRef.of (sig := sig) (T := ⟨S100000, .f32⟩) main_v14 h1 h2 h3).toBuf v = v := rfl
theorem ofBuf_v14 (h1 : main_v14.ty = ⟨S100000, .f32⟩) (h2 : main_v14.space ≠ .host) (h3 : main_v14.isScoped = false) (v : main_v14.ty.Contents Val) :
    (TRef.of (sig := sig) (T := ⟨S100000, .f32⟩) main_v14 h1 h2 h3).ofBuf v = v := rfl
theorem toBuf_call2_v4 (h1 : main_call2_v4.ty = ⟨S1600000, .i32⟩) (h2 : main_call2_v4.space ≠ .host) (h3 : main_call2_v4.isScoped = false) (v : (⟨S1600000, .i32⟩ : BufTy).Contents Val) :
    (TRef.of (sig := sig) (T := ⟨S1600000, .i32⟩) main_call2_v4 h1 h2 h3).toBuf v = v := rfl
theorem ofBuf_call2_v4 (h1 : main_call2_v4.ty = ⟨S1600000, .i32⟩) (h2 : main_call2_v4.space ≠ .host) (h3 : main_call2_v4.isScoped = false) (v : main_call2_v4.ty.Contents Val) :
    (TRef.of (sig := sig) (T := ⟨S1600000, .i32⟩) main_call2_v4 h1 h2 h3).ofBuf v = v := rfl
theorem toBuf_call2_c (h1 : main_call2_c.ty = ⟨S_, .i32⟩) (h2 : main_call2_c.space ≠ .host) (h3 : main_call2_c.isScoped = false) (v : (⟨S_, .i32⟩ : BufTy).Contents Val) :
    (TRef.of (sig := sig) (T := ⟨S_, .i32⟩) main_call2_c h1 h2 h3).toBuf v = v := rfl
theorem ofBuf_call2_c (h1 : main_call2_c.ty = ⟨S_, .i32⟩) (h2 : main_call2_c.space ≠ .host) (h3 : main_call2_c.isScoped = false) (v : main_call2_c.ty.Contents Val) :
    (TRef.of (sig := sig) (T := ⟨S_, .i32⟩) main_call2_c h1 h2 h3).ofBuf v = v := rfl
theorem toBuf_call2_v0 (h1 : main_call2_v0.ty = ⟨S1600000, .i32⟩) (h2 : main_call2_v0.space ≠ .host) (h3 : main_call2_v0.isScoped = false) (v : (⟨S1600000, .i32⟩ : BufTy).Contents Val) :
    (TRef.of (sig := sig) (T := ⟨S1600000, .i32⟩) main_call2_v0 h1 h2 h3).toBuf v = v := rfl
theorem ofBuf_call2_v0 (h1 : main_call2_v0.ty = ⟨S1600000, .i32⟩) (h2 : main_call2_v0.space ≠ .host) (h3 : main_call2_v0.isScoped = false) (v : main_call2_v0.ty.Contents Val) :
    (TRef.of (sig := sig) (T := ⟨S1600000, .i32⟩) main_call2_v0 h1 h2 h3).ofBuf v = v := rfl
theorem toBuf_call2_v1 (h1 : main_call2_v1.ty = ⟨S1600000, .i1⟩) (h2 : main_call2_v1.space ≠ .host) (h3 : main_call2_v1.isScoped = false) (v : (⟨S1600000, .i1⟩ : BufTy).Contents Val) :
    (TRef.of (sig := sig) (T := ⟨S1600000, .i1⟩) main_call2_v1 h1 h2 h3).toBuf v = v := rfl
theorem ofBuf_call2_v1 (h1 : main_call2_v1.ty = ⟨S1600000, .i1⟩) (h2 : main_call2_v1.space ≠ .host) (h3 : main_call2_v1.isScoped = false) (v : main_call2_v1.ty.Contents Val) :
    (TRef.of (sig := sig) (T := ⟨S1600000, .i1⟩) main_call2_v1 h1 h2 h3).ofBuf v = v := rfl
theorem toBuf_call2_c_0 (h1 : main_call2_c_0.ty = ⟨S_, .i32⟩) (h2 : main_call2_c_0.space ≠ .host) (h3 : main_call2_c_0.isScoped = false) (v : (⟨S_, .i32⟩ : BufTy).Contents Val) :
    (TRef.of (sig := sig) (T := ⟨S_, .i32⟩) main_call2_c_0 h1 h2 h3).toBuf v = v := rfl
theorem ofBuf_call2_c_0 (h1 : main_call2_c_0.ty = ⟨S_, .i32⟩) (h2 : main_call2_c_0.space ≠ .host) (h3 : main_call2_c_0.isScoped = false) (v : main_call2_c_0.ty.Contents Val) :
    (TRef.of (sig := sig) (T := ⟨S_, .i32⟩) main_call2_c_0 h1 h2 h3).ofBuf v = v := rfl
theorem toBuf_call2_v2 (h1 : main_call2_v2.ty = ⟨S1600000, .i32⟩) (h2 : main_call2_v2.space ≠ .host) (h3 : main_call2_v2.isScoped = false) (v : (⟨S1600000, .i32⟩ : BufTy).Contents Val) :
    (TRef.of (sig := sig) (T := ⟨S1600000, .i32⟩) main_call2_v2 h1 h2 h3).toBuf v = v := rfl
theorem ofBuf_call2_v2 (h1 : main_call2_v2.ty = ⟨S1600000, .i32⟩) (h2 : main_call2_v2.space ≠ .host) (h3 : main_call2_v2.isScoped = false) (v : main_call2_v2.ty.Contents Val) :
    (TRef.of (sig := sig) (T := ⟨S1600000, .i32⟩) main_call2_v2 h1 h2 h3).ofBuf v = v := rfl
theorem toBuf_call2_v3 (h1 : main_call2_v3.ty = ⟨S1600000, .i32⟩) (h2 : main_call2_v3.space ≠ .host) (h3 : main_call2_v3.isScoped = false) (v : (⟨S1600000, .i32⟩ : BufTy).Contents Val) :
    (TRef.of (sig := sig) (T := ⟨S1600000, .i32⟩) main_call2_v3 h1 h2 h3).toBuf v = v := rfl
theorem ofBuf_call2_v3 (h1 : main_call2_v3.ty = ⟨S1600000, .i32⟩) (h2 : main_call2_v3.space ≠ .host) (h3 : main_call2_v3.isScoped = false) (v : main_call2_v3.ty.Contents Val) :
    (TRef.of (sig := sig) (T := ⟨S1600000, .i32⟩) main_call2_v3 h1 h2 h3).ofBuf v = v := rfl
theorem toBuf_call2_v5 (h1 : main_call2_v5.ty = ⟨S1600000x1, .i32⟩) (h2 : main_call2_v5.space ≠ .host) (h3 : main_call2_v5.isScoped = false) (v : (⟨S1600000x1, .i32⟩ : BufTy).Contents Val) :
    (TRef.of (sig := sig) (T := ⟨S1600000x1, .i32⟩) main_call2_v5 h1 h2 h3).toBuf v = v := rfl
theorem ofBuf_call2_v5 (h1 : main_call2_v5.ty = ⟨S1600000x1, .i32⟩) (h2 : main_call2_v5.space ≠ .host) (h3 : main_call2_v5.isScoped = false) (v : main_call2_v5.ty.Contents Val) :
    (TRef.of (sig := sig) (T := ⟨S1600000x1, .i32⟩) main_call2_v5 h1 h2 h3).ofBuf v = v := rfl
theorem toBuf_call2_c_1 (h1 : main_call2_c_1.ty = ⟨S1, .i32⟩) (h2 : main_call2_c_1.space ≠ .host) (h3 : main_call2_c_1.isScoped = false) (v : (⟨S1, .i32⟩ : BufTy).Contents Val) :
    (TRef.of (sig := sig) (T := ⟨S1, .i32⟩) main_call2_c_1 h1 h2 h3).toBuf v = v := rfl
theorem ofBuf_call2_c_1 (h1 : main_call2_c_1.ty = ⟨S1, .i32⟩) (h2 : main_call2_c_1.space ≠ .host) (h3 : main_call2_c_1.isScoped = false) (v : main_call2_c_1.ty.Contents Val) :
    (TRef.of (sig := sig) (T := ⟨S1, .i32⟩) main_call2_c_1 h1 h2 h3).ofBuf v = v := rfl
theorem toBuf_call2_c_2 (h1 : main_call2_c_2.ty = ⟨S_, .i32⟩) (h2 : main_call2_c_2.space ≠ .host) (h3 : main_call2_c_2.isScoped = false) (v : (⟨S_, .i32⟩ : BufTy).Contents Val) :
    (TRef.of (sig := sig) (T := ⟨S_, .i32⟩) main_call2_c_2 h1 h2 h3).toBuf v = v := rfl
theorem ofBuf_call2_c_2 (h1 : main_call2_c_2.ty = ⟨S_, .i32⟩) (h2 : main_call2_c_2.space ≠ .host) (h3 : main_call2_c_2.isScoped = false) (v : main_call2_c_2.ty.Contents Val) :
    (TRef.of (sig := sig) (T := ⟨S_, .i32⟩) main_call2_c_2 h1 h2 h3).ofBuf v = v := rfl
theorem toBuf_call2_v6 (h1 : main_call2_v6.ty = ⟨S1600000x1, .i32⟩) (h2 : main_call2_v6.space ≠ .host) (h3 : main_call2_v6.isScoped = false) (v : (⟨S1600000x1, .i32⟩ : BufTy).Contents Val) :
    (TRef.of (sig := sig) (T := ⟨S1600000x1, .i32⟩) main_call2_v6 h1 h2 h3).toBuf v = v := rfl
theorem ofBuf_call2_v6 (h1 : main_call2_v6.ty = ⟨S1600000x1, .i32⟩) (h2 : main_call2_v6.space ≠ .host) (h3 : main_call2_v6.isScoped = false) (v : main_call2_v6.ty.Contents Val) :
    (TRef.of (sig := sig) (T := ⟨S1600000x1, .i32⟩) main_call2_v6 h1 h2 h3).ofBuf v = v := rfl
theorem toBuf_call2_v7 (h1 : main_call2_v7.ty = ⟨S1600000x1, .i1⟩) (h2 : main_call2_v7.space ≠ .host) (h3 : main_call2_v7.isScoped = false) (v : (⟨S1600000x1, .i1⟩ : BufTy).Contents Val) :
    (TRef.of (sig := sig) (T := ⟨S1600000x1, .i1⟩) main_call2_v7 h1 h2 h3).toBuf v = v := rfl
theorem ofBuf_call2_v7 (h1 : main_call2_v7.ty = ⟨S1600000x1, .i1⟩) (h2 : main_call2_v7.space ≠ .host) (h3 : main_call2_v7.isScoped = false) (v : main_call2_v7.ty.Contents Val) :
    (TRef.of (sig := sig) (T := ⟨S1600000x1, .i1⟩) main_call2_v7 h1 h2 h3).ofBuf v = v := rfl
theorem toBuf_call2_v8 (h1 : main_call2_v8.ty = ⟨S1x1, .i32⟩) (h2 : main_call2_v8.space ≠ .host) (h3 : main_call2_v8.isScoped = false) (v : (⟨S1x1, .i32⟩ : BufTy).Contents Val) :
    (TRef.of (sig := sig) (T := ⟨S1x1, .i32⟩) main_call2_v8 h1 h2 h3).toBuf v = v := rfl
theorem ofBuf_call2_v8 (h1 : main_call2_v8.ty = ⟨S1x1, .i32⟩) (h2 : main_call2_v8.space ≠ .host) (h3 : main_call2_v8.isScoped = false) (v : main_call2_v8.ty.Contents Val) :
    (TRef.of (sig := sig) (T := ⟨S1x1, .i32⟩) main_call2_v8 h1 h2 h3).ofBuf v = v := rfl
theorem toBuf_call2_v9 (h1 : main_call2_v9.ty = ⟨S1600000x1, .i32⟩) (h2 : main_call2_v9.space ≠ .host) (h3 : main_call2_v9.isScoped = false) (v : (⟨S1600000x1, .i32⟩ : BufTy).Contents Val) :
    (TRef.of (sig := sig) (T := ⟨S1600000x1, .i32⟩) main_call2_v9 h1 h2 h3).toBuf v = v := rfl
theorem ofBuf_call2_v9 (h1 : main_call2_v9.ty = ⟨S1600000x1, .i32⟩) (h2 : main_call2_v9.space ≠ .host) (h3 : main_call2_v9.isScoped = false) (v : main_call2_v9.ty.Contents Val) :
    (TRef.of (sig := sig) (T := ⟨S1600000x1, .i32⟩) main_call2_v9 h1 h2 h3).ofBuf v = v := rfl
theorem toBuf_call2_v10 (h1 : main_call2_v10.ty = ⟨S1600000x1, .i1⟩) (h2 : main_call2_v10.space ≠ .host) (h3 : main_call2_v10.isScoped = false) (v : (⟨S1600000x1, .i1⟩ : BufTy).Contents Val) :
    (TRef.of (sig := sig) (T := ⟨S1600000x1, .i1⟩) main_call2_v10 h1 h2 h3).toBuf v = v := rfl
theorem ofBuf_call2_v10 (h1 : main_call2_v10.ty = ⟨S1600000x1, .i1⟩) (h2 : main_call2_v10.space ≠ .host) (h3 : main_call2_v10.isScoped = false) (v : main_call2_v10.ty.Contents Val) :
    (TRef.of (sig := sig) (T := ⟨S1600000x1, .i1⟩) main_call2_v10 h1 h2 h3).ofBuf v = v := rfl
theorem toBuf_call2_v11 (h1 : main_call2_v11.ty = ⟨S1600000x1, .i1⟩) (h2 : main_call2_v11.space ≠ .host) (h3 : main_call2_v11.isScoped = false) (v : (⟨S1600000x1, .i1⟩ : BufTy).Contents Val) :
    (TRef.of (sig := sig) (T := ⟨S1600000x1, .i1⟩) main_call2_v11 h1 h2 h3).toBuf v = v := rfl
theorem ofBuf_call2_v11 (h1 : main_call2_v11.ty = ⟨S1600000x1, .i1⟩) (h2 : main_call2_v11.space ≠ .host) (h3 : main_call2_v11.isScoped = false) (v : main_call2_v11.ty.Contents Val) :
    (TRef.of (sig := sig) (T := ⟨S1600000x1, .i1⟩) main_call2_v11 h1 h2 h3).ofBuf v = v := rfl
theorem toBuf_call2_c_3 (h1 : main_call2_c_3.ty = ⟨S_, .i1⟩) (h2 : main_call2_c_3.space ≠ .host) (h3 : main_call2_c_3.isScoped = false) (v : (⟨S_, .i1⟩ : BufTy).Contents Val) :
    (TRef.of (sig := sig) (T := ⟨S_, .i1⟩) main_call2_c_3 h1 h2 h3).toBuf v = v := rfl
theorem ofBuf_call2_c_3 (h1 : main_call2_c_3.ty = ⟨S_, .i1⟩) (h2 : main_call2_c_3.space ≠ .host) (h3 : main_call2_c_3.isScoped = false) (v : main_call2_c_3.ty.Contents Val) :
    (TRef.of (sig := sig) (T := ⟨S_, .i1⟩) main_call2_c_3 h1 h2 h3).ofBuf v = v := rfl
theorem toBuf_call2_v12 (h1 : main_call2_v12.ty = ⟨S1600000, .i1⟩) (h2 : main_call2_v12.space ≠ .host) (h3 : main_call2_v12.isScoped = false) (v : (⟨S1600000, .i1⟩ : BufTy).Contents Val) :
    (TRef.of (sig := sig) (T := ⟨S1600000, .i1⟩) main_call2_v12 h1 h2 h3).toBuf v = v := rfl
theorem ofBuf_call2_v12 (h1 : main_call2_v12.ty = ⟨S1600000, .i1⟩) (h2 : main_call2_v12.space ≠ .host) (h3 : main_call2_v12.isScoped = false) (v : main_call2_v12.ty.Contents Val) :
    (TRef.of (sig := sig) (T := ⟨S1600000, .i1⟩) main_call2_v12 h1 h2 h3).ofBuf v = v := rfl
theorem toBuf_call2_v13 (h1 : main_call2_v13.ty = ⟨S1600000x128, .f32⟩) (h2 : main_call2_v13.space ≠ .host) (h3 : main_call2_v13.isScoped = false) (v : (⟨S1600000x128, .f32⟩ : BufTy).Contents Val) :
    (TRef.of (sig := sig) (T := ⟨S1600000x128, .f32⟩) main_call2_v13 h1 h2 h3).toBuf v = v := rfl
theorem ofBuf_call2_v13 (h1 : main_call2_v13.ty = ⟨S1600000x128, .f32⟩) (h2 : main_call2_v13.space ≠ .host) (h3 : main_call2_v13.isScoped = false) (v : main_call2_v13.ty.Contents Val) :
    (TRef.of (sig := sig) (T := ⟨S1600000x128, .f32⟩) main_call2_v13 h1 h2 h3).ofBuf v = v := rfl
theorem toBuf_call2_v14 (h1 : main_call2_v14.ty = ⟨S1600000x128, .i1⟩) (h2 : main_call2_v14.space ≠ .host) (h3 : main_call2_v14.isScoped = false) (v : (⟨S1600000x128, .i1⟩ : BufTy).Contents Val) :
    (TRef.of (sig := sig) (T := ⟨S1600000x128, .i1⟩) main_call2_v14 h1 h2 h3).toBuf v = v := rfl
theorem ofBuf_call2_v14 (h1 : main_call2_v14.ty = ⟨S1600000x128, .i1⟩) (h2 : main_call2_v14.space ≠ .host) (h3 : main_call2_v14.isScoped = false) (v : main_call2_v14.ty.Contents Val) :
    (TRef.of (sig := sig) (T := ⟨S1600000x128, .i1⟩) main_call2_v14 h1 h2 h3).ofBuf v = v := rfl
theorem toBuf_call2_cst (h1 : main_call2_cst.ty = ⟨S_, .f32⟩) (h2 : main_call2_cst.space ≠ .host) (h3 : main_call2_cst.isScoped = false) (v : (⟨S_, .f32⟩ : BufTy).Contents Val) :
    (TRef.of (sig := sig) (T := ⟨S_, .f32⟩) main_call2_cst h1 h2 h3).toBuf v = v := rfl
theorem ofBuf_call2_cst (h1 : main_call2_cst.ty = ⟨S_, .f32⟩) (h2 : main_call2_cst.space ≠ .host) (h3 : main_call2_cst.isScoped = false) (v : main_call2_cst.ty.Contents Val) :
    (TRef.of (sig := sig) (T := ⟨S_, .f32⟩) main_call2_cst h1 h2 h3).ofBuf v = v := rfl
theorem toBuf_call2_v15 (h1 : main_call2_v15.ty = ⟨S1600000x128, .f32⟩) (h2 : main_call2_v15.space ≠ .host) (h3 : main_call2_v15.isScoped = false) (v : (⟨S1600000x128, .f32⟩ : BufTy).Contents Val) :
    (TRef.of (sig := sig) (T := ⟨S1600000x128, .f32⟩) main_call2_v15 h1 h2 h3).toBuf v = v := rfl
theorem ofBuf_call2_v15 (h1 : main_call2_v15.ty = ⟨S1600000x128, .f32⟩) (h2 : main_call2_v15.space ≠ .host) (h3 : main_call2_v15.isScoped = false) (v : main_call2_v15.ty.Contents Val) :
    (TRef.of (sig := sig) (T := ⟨S1600000x128, .f32⟩) main_call2_v15 h1 h2 h3).ofBuf v = v := rfl
theorem toBuf_v21 (h1 : main_v21.ty = ⟨S1600000x128, .f32⟩) (h2 : main_v21.space ≠ .host) (h3 : main_v21.isScoped = false) (v : (⟨S1600000x128, .f32⟩ : BufTy).Contents Val) :
    (TRef.of (sig := sig) (T := ⟨S1600000x128, .f32⟩) main_v21 h1 h2 h3).toBuf v = v := rfl
theorem ofBuf_v21 (h1 : main_v21.ty = ⟨S1600000x128, .f32⟩) (h2 : main_v21.space ≠ .host) (h3 : main_v21.isScoped = false) (v : main_v21.ty.Contents Val) :
    (TRef.of (sig := sig) (T := ⟨S1600000x128, .f32⟩) main_v21 h1 h2 h3).ofBuf v = v := rfl
theorem toBuf_call3_cst (h1 : main_call3_cst.ty = ⟨S_, .f32⟩) (h2 : main_call3_cst.space ≠ .host) (h3 : main_call3_cst.isScoped = false) (v : (⟨S_, .f32⟩ : BufTy).Contents Val) :
    (TRef.of (sig := sig) (T := ⟨S_, .f32⟩) main_call3_cst h1 h2 h3).toBuf v = v := rfl
theorem ofBuf_call3_cst (h1 : main_call3_cst.ty = ⟨S_, .f32⟩) (h2 : main_call3_cst.space ≠ .host) (h3 : main_call3_cst.isScoped = false) (v : main_call3_cst.ty.Contents Val) :
    (TRef.of (sig := sig) (T := ⟨S_, .f32⟩) main_call3_cst h1 h2 h3).ofBuf v = v := rfl
theorem toBuf_call3_v0 (h1 : main_call3_v0.ty = ⟨S100000x128, .f32⟩) (h2 : main_call3_v0.space ≠ .host) (h3 : main_call3_v0.isScoped = false) (v : (⟨S100000x128, .f32⟩ : BufTy).Contents Val) :
    (TRef.of (sig := sig) (T := ⟨S100000x128, .f32⟩) main_call3_v0 h1 h2 h3).toBuf v = v := rfl
theorem ofBuf_call3_v0 (h1 : main_call3_v0.ty = ⟨S100000x128, .f32⟩) (h2 : main_call3_v0.space ≠ .host) (h3 : main_call3_v0.isScoped = false) (v : main_call3_v0.ty.Contents Val) :
    (TRef.of (sig := sig) (T := ⟨S100000x128, .f32⟩) main_call3_v0 h1 h2 h3).ofBuf v = v := rfl
theorem toBuf_v56 (h1 : main_v56.ty = ⟨S100000x128, .f32⟩) (h2 : main_v56.space ≠ .host) (h3 : main_v56.isScoped = false) (v : (⟨S100000x128, .f32⟩ : BufTy).Contents Val) :
    (TRef.of (sig := sig) (T := ⟨S100000x128, .f32⟩) main_v56 h1 h2 h3).toBuf v = v := rfl
theorem ofBuf_v56 (h1 : main_v56.ty = ⟨S100000x128, .f32⟩) (h2 : main_v56.space ≠ .host) (h3 : main_v56.isScoped = false) (v : main_v56.ty.Contents Val) :
    (TRef.of (sig := sig) (T := ⟨S100000x128, .f32⟩) main_v56 h1 h2 h3).ofBuf v = v := rfl
theorem toBuf_call4_v4 (h1 : main_call4_v4.ty = ⟨S1600000, .i32⟩) (h2 : main_call4_v4.space ≠ .host) (h3 : main_call4_v4.isScoped = false) (v : (⟨S1600000, .i32⟩ : BufTy).Contents Val) :
    (TRef.of (sig := sig) (T := ⟨S1600000, .i32⟩) main_call4_v4 h1 h2 h3).toBuf v = v := rfl
theorem ofBuf_call4_v4 (h1 : main_call4_v4.ty = ⟨S1600000, .i32⟩) (h2 : main_call4_v4.space ≠ .host) (h3 : main_call4_v4.isScoped = false) (v : main_call4_v4.ty.Contents Val) :
    (TRef.of (sig := sig) (T := ⟨S1600000, .i32⟩) main_call4_v4 h1 h2 h3).ofBuf v = v := rfl
theorem toBuf_call4_c (h1 : main_call4_c.ty = ⟨S_, .i32⟩) (h2 : main_call4_c.space ≠ .host) (h3 : main_call4_c.isScoped = false) (v : (⟨S_, .i32⟩ : BufTy).Contents Val) :
    (TRef.of (sig := sig) (T := ⟨S_, .i32⟩) main_call4_c h1 h2 h3).toBuf v = v := rfl
theorem ofBuf_call4_c (h1 : main_call4_c.ty = ⟨S_, .i32⟩) (h2 : main_call4_c.space ≠ .host) (h3 : main_call4_c.isScoped = false) (v : main_call4_c.ty.Contents Val) :
    (TRef.of (sig := sig) (T := ⟨S_, .i32⟩) main_call4_c h1 h2 h3).ofBuf v = v := rfl
theorem toBuf_call4_v0 (h1 : main_call4_v0.ty = ⟨S1600000, .i32⟩) (h2 : main_call4_v0.space ≠ .host) (h3 : main_call4_v0.isScoped = false) (v : (⟨S1600000, .i32⟩ : BufTy).Contents Val) :
    (TRef.of (sig := sig) (T := ⟨S1600000, .i32⟩) main_call4_v0 h1 h2 h3).toBuf v = v := rfl
theorem ofBuf_call4_v0 (h1 : main_call4_v0.ty = ⟨S1600000, .i32⟩) (h2 : main_call4_v0.space ≠ .host) (h3 : main_call4_v0.isScoped = false) (v : main_call4_v0.ty.Contents Val) :
    (TRef.of (sig := sig) (T := ⟨S1600000, .i32⟩) main_call4_v0 h1 h2 h3).ofBuf v = v := rfl
theorem toBuf_call4_v1 (h1 : main_call4_v1.ty = ⟨S1600000, .i1⟩) (h2 : main_call4_v1.space ≠ .host) (h3 : main_call4_v1.isScoped = false) (v : (⟨S1600000, .i1⟩ : BufTy).Contents Val) :
    (TRef.of (sig := sig) (T := ⟨S1600000, .i1⟩) main_call4_v1 h1 h2 h3).toBuf v = v := rfl
theorem ofBuf_call4_v1 (h1 : main_call4_v1.ty = ⟨S1600000, .i1⟩) (h2 : main_call4_v1.space ≠ .host) (h3 : main_call4_v1.isScoped = false) (v : main_call4_v1.ty.Contents Val) :
    (TRef.of (sig := sig) (T := ⟨S1600000, .i1⟩) main_call4_v1 h1 h2 h3).ofBuf v = v := rfl
theorem toBuf_call4_c_0 (h1 : main_call4_c_0.ty = ⟨S_, .i32⟩) (h2 : main_call4_c_0.space ≠ .host) (h3 : main_call4_c_0.isScoped = false) (v : (⟨S_, .i32⟩ : BufTy).Contents Val) :
    (TRef.of (sig := sig) (T := ⟨S_, .i32⟩) main_call4_c_0 h1 h2 h3).toBuf v = v := rfl
theorem ofBuf_call4_c_0 (h1 : main_call4_c_0.ty = ⟨S_, .i32⟩) (h2 : main_call4_c_0.space ≠ .host) (h3 : main_call4_c_0.isScoped = false) (v : main_call4_c_0.ty.Contents Val) :
    (TRef.of (sig := sig) (T := ⟨S_, .i32⟩) main_call4_c_0 h1 h2 h3).ofBuf v = v := rfl
theorem toBuf_call4_v2 (h1 : main_call4_v2.ty = ⟨S1600000, .i32⟩) (h2 : main_call4_v2.space ≠ .host) (h3 : main_call4_v2.isScoped = false) (v : (⟨S1600000, .i32⟩ : BufTy).Contents Val) :
    (TRef.of (sig := sig) (T := ⟨S1600000, .i32⟩) main_call4_v2 h1 h2 h3).toBuf v = v := rfl
theorem ofBuf_call4_v2 (h1 : main_call4_v2.ty = ⟨S1600000, .i32⟩) (h2 : main_call4_v2.space ≠ .host) (h3 : main_call4_v2.isScoped = false) (v : main_call4_v2.ty.Contents Val) :
    (TRef.of (sig := sig) (T := ⟨S1600000, .i32⟩) main_call4_v2 h1 h2 h3).ofBuf v = v := rfl
theorem toBuf_call4_v3 (h1 : main_call4_v3.ty = ⟨S1600000, .i32⟩) (h2 : main_call4_v3.space ≠ .host) (h3 : main_call4_v3.isScoped = false) (v : (⟨S1600000, .i32⟩ : BufTy).Contents Val) :
    (TRef.of (sig := sig) (T := ⟨S1600000, .i32⟩) main_call4_v3 h1 h2 h3).toBuf v = v := rfl
theorem ofBuf_call4_v3 (h1 : main_call4_v3.ty = ⟨S1600000, .i32⟩) (h2 : main_call4_v3.space ≠ .host) (h3 : main_call4_v3.isScoped = false) (v : main_call4_v3.ty.Contents Val) :
    (TRef.of (sig := sig) (T := ⟨S1600000, .i32⟩) main_call4_v3 h1 h2 h3).ofBuf v = v := rfl
theorem toBuf_call4_v5 (h1 : main_call4_v5.ty = ⟨S1600000x1, .i32⟩) (h2 : main_call4_v5.space ≠ .host) (h3 : main_call4_v5.isScoped = false) (v : (⟨S1600000x1, .i32⟩ : BufTy).Contents Val) :
    (TRef.of (sig := sig) (T := ⟨S1600000x1, .i32⟩) main_call4_v5 h1 h2 h3).toBuf v = v := rfl
theorem ofBuf_call4_v5 (h1 : main_call4_v5.ty = ⟨S1600000x1, .i32⟩) (h2 : main_call4_v5.space ≠ .host) (h3 : main_call4_v5.isScoped = false) (v : main_call4_v5.ty.Contents Val) :
    (TRef.of (sig := sig) (T := ⟨S1600000x1, .i32⟩) main_call4_v5 h1 h2 h3).ofBuf v = v := rfl
theorem toBuf_call4_c_1 (h1 : main_call4_c_1.ty = ⟨S1, .i32⟩) (h2 : main_call4_c_1.space ≠ .host) (h3 : main_call4_c_1.isScoped = false) (v : (⟨S1, .i32⟩ : BufTy).Contents Val) :
    (TRef.of (sig := sig) (T := ⟨S1, .i32⟩) main_call4_c_1 h1 h2 h3).toBuf v = v := rfl
theorem ofBuf_call4_c_1 (h1 : main_call4_c_1.ty = ⟨S1, .i32⟩) (h2 : main_call4_c_1.space ≠ .host) (h3 : main_call4_c_1.isScoped = false) (v : main_call4_c_1.ty.Contents Val) :
    (TRef.of (sig := sig) (T := ⟨S1, .i32⟩) main_call4_c_1 h1 h2 h3).ofBuf v = v := rfl
theorem toBuf_call4_c_2 (h1 : main_call4_c_2.ty = ⟨S_, .i32⟩) (h2 : main_call4_c_2.space ≠ .host) (h3 : main_call4_c_2.isScoped = false) (v : (⟨S_, .i32⟩ : BufTy).Contents Val) :
    (TRef.of (sig := sig) (T := ⟨S_, .i32⟩) main_call4_c_2 h1 h2 h3).toBuf v = v := rfl
theorem ofBuf_call4_c_2 (h1 : main_call4_c_2.ty = ⟨S_, .i32⟩) (h2 : main_call4_c_2.space ≠ .host) (h3 : main_call4_c_2.isScoped = false) (v : main_call4_c_2.ty.Contents Val) :
    (TRef.of (sig := sig) (T := ⟨S_, .i32⟩) main_call4_c_2 h1 h2 h3).ofBuf v = v := rfl
theorem toBuf_call4_v6 (h1 : main_call4_v6.ty = ⟨S1600000x1, .i32⟩) (h2 : main_call4_v6.space ≠ .host) (h3 : main_call4_v6.isScoped = false) (v : (⟨S1600000x1, .i32⟩ : BufTy).Contents Val) :
    (TRef.of (sig := sig) (T := ⟨S1600000x1, .i32⟩) main_call4_v6 h1 h2 h3).toBuf v = v := rfl
theorem ofBuf_call4_v6 (h1 : main_call4_v6.ty = ⟨S1600000x1, .i32⟩) (h2 : main_call4_v6.space ≠ .host) (h3 : main_call4_v6.isScoped = false) (v : main_call4_v6.ty.Contents Val) :
    (TRef.of (sig := sig) (T := ⟨S1600000x1, .i32⟩) main_call4_v6 h1 h2 h3).ofBuf v = v := rfl
theorem toBuf_call4_v7 (h1 : main_call4_v7.ty = ⟨S1600000x1, .i1⟩) (h2 : main_call4_v7.space ≠ .host) (h3 : main_call4_v7.isScoped = false) (v : (⟨S1600000x1, .i1⟩ : BufTy).Contents Val) :
    (TRef.of (sig := sig) (T := ⟨S1600000x1, .i1⟩) main_call4_v7 h1 h2 h3).toBuf v = v := rfl
theorem ofBuf_call4_v7 (h1 : main_call4_v7.ty = ⟨S1600000x1, .i1⟩) (h2 : main_call4_v7.space ≠ .host) (h3 : main_call4_v7.isScoped = false) (v : main_call4_v7.ty.Contents Val) :
    (TRef.of (sig := sig) (T := ⟨S1600000x1, .i1⟩) main_call4_v7 h1 h2 h3).ofBuf v = v := rfl
theorem toBuf_call4_v8 (h1 : main_call4_v8.ty = ⟨S1x1, .i32⟩) (h2 : main_call4_v8.space ≠ .host) (h3 : main_call4_v8.isScoped = false) (v : (⟨S1x1, .i32⟩ : BufTy).Contents Val) :
    (TRef.of (sig := sig) (T := ⟨S1x1, .i32⟩) main_call4_v8 h1 h2 h3).toBuf v = v := rfl
theorem ofBuf_call4_v8 (h1 : main_call4_v8.ty = ⟨S1x1, .i32⟩) (h2 : main_call4_v8.space ≠ .host) (h3 : main_call4_v8.isScoped = false) (v : main_call4_v8.ty.Contents Val) :
    (TRef.of (sig := sig) (T := ⟨S1x1, .i32⟩) main_call4_v8 h1 h2 h3).ofBuf v = v := rfl
theorem toBuf_call4_v9 (h1 : main_call4_v9.ty = ⟨S1600000x1, .i32⟩) (h2 : main_call4_v9.space ≠ .host) (h3 : main_call4_v9.isScoped = false) (v : (⟨S1600000x1, .i32⟩ : BufTy).Contents Val) :
    (TRef.of (sig := sig) (T := ⟨S1600000x1, .i32⟩) main_call4_v9 h1 h2 h3).toBuf v = v := rfl
theorem ofBuf_call4_v9 (h1 : main_call4_v9.ty = ⟨S1600000x1, .i32⟩) (h2 : main_call4_v9.space ≠ .host) (h3 : main_call4_v9.isScoped = false) (v : main_call4_v9.ty.Contents Val) :
    (TRef.of (sig := sig) (T := ⟨S1600000x1, .i32⟩) main_call4_v9 h1 h2 h3).ofBuf v = v := rfl
theorem toBuf_call4_v10 (h1 : main_call4_v10.ty = ⟨S1600000x1, .i1⟩) (h2 : main_call4_v10.space ≠ .host) (h3 : main_call4_v10.isScoped = false) (v : (⟨S1600000x1, .i1⟩ : BufTy).Contents Val) :
    (TRef.of (sig := sig) (T := ⟨S1600000x1, .i1⟩) main_call4_v10 h1 h2 h3).toBuf v = v := rfl
theorem ofBuf_call4_v10 (h1 : main_call4_v10.ty = ⟨S1600000x1, .i1⟩) (h2 : main_call4_v10.space ≠ .host) (h3 : main_call4_v10.isScoped = false) (v : main_call4_v10.ty.Contents Val) :
    (TRef.of (sig := sig) (T := ⟨S1600000x1, .i1⟩) main_call4_v10 h1 h2 h3).ofBuf v = v := rfl
theorem toBuf_call4_v11 (h1 : main_call4_v11.ty = ⟨S1600000x1, .i1⟩) (h2 : main_call4_v11.space ≠ .host) (h3 : main_call4_v11.isScoped = false) (v : (⟨S1600000x1, .i1⟩ : BufTy).Contents Val) :
    (TRef.of (sig := sig) (T := ⟨S1600000x1, .i1⟩) main_call4_v11 h1 h2 h3).toBuf v = v := rfl
theorem ofBuf_call4_v11 (h1 : main_call4_v11.ty = ⟨S1600000x1, .i1⟩) (h2 : main_call4_v11.space ≠ .host) (h3 : main_call4_v11.isScoped = false) (v : main_call4_v11.ty.Contents Val) :
    (TRef.of (sig := sig) (T := ⟨S1600000x1, .i1⟩) main_call4_v11 h1 h2 h3).ofBuf v = v := rfl
theorem toBuf_call4_c_3 (h1 : main_call4_c_3.ty = ⟨S_, .i1⟩) (h2 : main_call4_c_3.space ≠ .host) (h3 : main_call4_c_3.isScoped = false) (v : (⟨S_, .i1⟩ : BufTy).Contents Val) :
    (TRef.of (sig := sig) (T := ⟨S_, .i1⟩) main_call4_c_3 h1 h2 h3).toBuf v = v := rfl
theorem ofBuf_call4_c_3 (h1 : main_call4_c_3.ty = ⟨S_, .i1⟩) (h2 : main_call4_c_3.space ≠ .host) (h3 : main_call4_c_3.isScoped = false) (v : main_call4_c_3.ty.Contents Val) :
    (TRef.of (sig := sig) (T := ⟨S_, .i1⟩) main_call4_c_3 h1 h2 h3).ofBuf v = v := rfl
theorem toBuf_call4_v12 (h1 : main_call4_v12.ty = ⟨S1600000, .i1⟩) (h2 : main_call4_v12.space ≠ .host) (h3 : main_call4_v12.isScoped = false) (v : (⟨S1600000, .i1⟩ : BufTy).Contents Val) :
    (TRef.of (sig := sig) (T := ⟨S1600000, .i1⟩) main_call4_v12 h1 h2 h3).toBuf v = v := rfl
theorem ofBuf_call4_v12 (h1 : main_call4_v12.ty = ⟨S1600000, .i1⟩) (h2 : main_call4_v12.space ≠ .host) (h3 : main_call4_v12.isScoped = false) (v : main_call4_v12.ty.Contents Val) :
    (TRef.of (sig := sig) (T := ⟨S1600000, .i1⟩) main_call4_v12 h1 h2 h3).ofBuf v = v := rfl
theorem toBuf_call4_v13 (h1 : main_call4_v13.ty = ⟨S1600000x128, .f32⟩) (h2 : main_call4_v13.space ≠ .host) (h3 : main_call4_v13.isScoped = false) (v : (⟨S1600000x128, .f32⟩ : BufTy).Contents Val) :
    (TRef.of (sig := sig) (T := ⟨S1600000x128, .f32⟩) main_call4_v13 h1 h2 h3).toBuf v = v := rfl
theorem ofBuf_call4_v13 (h1 : main_call4_v13.ty = ⟨S1600000x128, .f32⟩) (h2 : main_call4_v13.space ≠ .host) (h3 : main_call4_v13.isScoped = false) (v : main_call4_v13.ty.Contents Val) :
    (TRef.of (sig := sig) (T := ⟨S1600000x128, .f32⟩) main_call4_v13 h1 h2 h3).ofBuf v = v := rfl
theorem toBuf_call4_v14 (h1 : main_call4_v14.ty = ⟨S1600000x128, .i1⟩) (h2 : main_call4_v14.space ≠ .host) (h3 : main_call4_v14.isScoped = false) (v : (⟨S1600000x128, .i1⟩ : BufTy).Contents Val) :
    (TRef.of (sig := sig) (T := ⟨S1600000x128, .i1⟩) main_call4_v14 h1 h2 h3).toBuf v = v := rfl
theorem ofBuf_call4_v14 (h1 : main_call4_v14.ty = ⟨S1600000x128, .i1⟩) (h2 : main_call4_v14.space ≠ .host) (h3 : main_call4_v14.isScoped = false) (v : main_call4_v14.ty.Contents Val) :
    (TRef.of (sig := sig) (T := ⟨S1600000x128, .i1⟩) main_call4_v14 h1 h2 h3).ofBuf v = v := rfl
theorem toBuf_call4_cst (h1 : main_call4_cst.ty = ⟨S_, .f32⟩) (h2 : main_call4_cst.space ≠ .host) (h3 : main_call4_cst.isScoped = false) (v : (⟨S_, .f32⟩ : BufTy).Contents Val) :
    (TRef.of (sig := sig) (T := ⟨S_, .f32⟩) main_call4_cst h1 h2 h3).toBuf v = v := rfl
theorem ofBuf_call4_cst (h1 : main_call4_cst.ty = ⟨S_, .f32⟩) (h2 : main_call4_cst.space ≠ .host) (h3 : main_call4_cst.isScoped = false) (v : main_call4_cst.ty.Contents Val) :
    (TRef.of (sig := sig) (T := ⟨S_, .f32⟩) main_call4_cst h1 h2 h3).ofBuf v = v := rfl
theorem toBuf_call4_v15 (h1 : main_call4_v15.ty = ⟨S1600000x128, .f32⟩) (h2 : main_call4_v15.space ≠ .host) (h3 : main_call4_v15.isScoped = false) (v : (⟨S1600000x128, .f32⟩ : BufTy).Contents Val) :
    (TRef.of (sig := sig) (T := ⟨S1600000x128, .f32⟩) main_call4_v15 h1 h2 h3).toBuf v = v := rfl
theorem ofBuf_call4_v15 (h1 : main_call4_v15.ty = ⟨S1600000x128, .f32⟩) (h2 : main_call4_v15.space ≠ .host) (h3 : main_call4_v15.isScoped = false) (v : main_call4_v15.ty.Contents Val) :
    (TRef.of (sig := sig) (T := ⟨S1600000x128, .f32⟩) main_call4_v15 h1 h2 h3).ofBuf v = v := rfl
theorem toBuf_v61 (h1 : main_v61.ty = ⟨S1600000x128, .f32⟩) (h2 : main_v61.space ≠ .host) (h3 : main_v61.isScoped = false) (v : (⟨S1600000x128, .f32⟩ : BufTy).Contents Val) :
    (TRef.of (sig := sig) (T := ⟨S1600000x128, .f32⟩) main_v61 h1 h2 h3).toBuf v = v := rfl
theorem ofBuf_v61 (h1 : main_v61.ty = ⟨S1600000x128, .f32⟩) (h2 : main_v61.space ≠ .host) (h3 : main_v61.isScoped = false) (v : main_v61.ty.Contents Val) :
    (TRef.of (sig := sig) (T := ⟨S1600000x128, .f32⟩) main_v61 h1 h2 h3).ofBuf v = v := rfl
theorem toBuf_call5_cst (h1 : main_call5_cst.ty = ⟨S_, .f32⟩) (h2 : main_call5_cst.space ≠ .host) (h3 : main_call5_cst.isScoped = false) (v : (⟨S_, .f32⟩ : BufTy).Contents Val) :
    (TRef.of (sig := sig) (T := ⟨S_, .f32⟩) main_call5_cst h1 h2 h3).toBuf v = v := rfl
theorem ofBuf_call5_cst (h1 : main_call5_cst.ty = ⟨S_, .f32⟩) (h2 : main_call5_cst.space ≠ .host) (h3 : main_call5_cst.isScoped = false) (v : main_call5_cst.ty.Contents Val) :
    (TRef.of (sig := sig) (T := ⟨S_, .f32⟩) main_call5_cst h1 h2 h3).ofBuf v = v := rfl
theorem toBuf_call5_v0 (h1 : main_call5_v0.ty = ⟨S100000x128, .f32⟩) (h2 : main_call5_v0.space ≠ .host) (h3 : main_call5_v0.isScoped = false) (v : (⟨S100000x128, .f32⟩ : BufTy).Contents Val) :
    (TRef.of (sig := sig) (T := ⟨S100000x128, .f32⟩) main_call5_v0 h1 h2 h3).toBuf v = v := rfl
theorem ofBuf_call5_v0 (h1 : main_call5_v0.ty = ⟨S100000x128, .f32⟩) (h2 : main_call5_v0.space ≠ .host) (h3 : main_call5_v0.isScoped = false) (v : main_call5_v0.ty.Contents Val) :
    (TRef.of (sig := sig) (T := ⟨S100000x128, .f32⟩) main_call5_v0 h1 h2 h3).ofBuf v = v := rfl
theorem toBuf_v96 (h1 : main_v96.ty = ⟨S100000x128, .f32⟩) (h2 : main_v96.space ≠ .host) (h3 : main_v96.isScoped = false) (v : (⟨S100000x128, .f32⟩ : BufTy).Contents Val) :
    (TRef.of (sig := sig) (T := ⟨S100000x128, .f32⟩) main_v96 h1 h2 h3).toBuf v = v := rfl
theorem ofBuf_v96 (h1 : main_v96.ty = ⟨S100000x128, .f32⟩) (h2 : main_v96.space ≠ .host) (h3 : main_v96.isScoped = false) (v : main_v96.ty.Contents Val) :
    (TRef.of (sig := sig) (T := ⟨S100000x128, .f32⟩) main_v96 h1 h2 h3).ofBuf v = v := rfl
theorem toBuf_call6_v4 (h1 : main_call6_v4.ty = ⟨S1600000, .i32⟩) (h2 : main_call6_v4.space ≠ .host) (h3 : main_call6_v4.isScoped = false) (v : (⟨S1600000, .i32⟩ : BufTy).Contents Val) :
    (TRef.of (sig := sig) (T := ⟨S1600000, .i32⟩) main_call6_v4 h1 h2 h3).toBuf v = v := rfl
theorem ofBuf_call6_v4 (h1 : main_call6_v4.ty = ⟨S1600000, .i32⟩) (h2 : main_call6_v4.space ≠ .host) (h3 : main_call6_v4.isScoped = false) (v : main_call6_v4.ty.Contents Val) :
    (TRef.of (sig := sig) (T := ⟨S1600000, .i32⟩) main_call6_v4 h1 h2 h3).ofBuf v = v := rfl
theorem toBuf_call6_c (h1 : main_call6_c.ty = ⟨S_, .i32⟩) (h2 : main_call6_c.space ≠ .host) (h3 : main_call6_c.isScoped = false) (v : (⟨S_, .i32⟩ : BufTy).Contents Val) :
    (TRef.of (sig := sig) (T := ⟨S_, .i32⟩) main_call6_c h1 h2 h3).toBuf v = v := rfl
theorem ofBuf_call6_c (h1 : main_call6_c.ty = ⟨S_, .i32⟩) (h2 : main_call6_c.space ≠ .host) (h3 : main_call6_c.isScoped = false) (v : main_call6_c.ty.Contents Val) :
    (TRef.of (sig := sig) (T := ⟨S_, .i32⟩) main_call6_c h1 h2 h3).ofBuf v = v := rfl
theorem toBuf_call6_v0 (h1 : main_call6_v0.ty = ⟨S1600000, .i32⟩) (h2 : main_call6_v0.space ≠ .host) (h3 : main_call6_v0.isScoped = false) (v : (⟨S1600000, .i32⟩ : BufTy).Contents Val) :
    (TRef.of (sig := sig) (T := ⟨S1600000, .i32⟩) main_call6_v0 h1 h2 h3).toBuf v = v := rfl
theorem ofBuf_call6_v0 (h1 : main_call6_v0.ty = ⟨S1600000, .i32⟩) (h2 : main_call6_v0.space ≠ .host) (h3 : main_call6_v0.isScoped = false) (v : main_call6_v0.ty.Contents Val) :
    (TRef.of (sig := sig) (T := ⟨S1600000, .i32⟩) main_call6_v0 h1 h2 h3).ofBuf v = v := rfl
theorem toBuf_call6_v1 (h1 : main_call6_v1.ty = ⟨S1600000, .i1⟩) (h2 : main_call6_v1.space ≠ .host) (h3 : main_call6_v1.isScoped = false) (v : (⟨S1600000, .i1⟩ : BufTy).Contents Val) :
    (TRef.of (sig := sig) (T := ⟨S1600000, .i1⟩) main_call6_v1 h1 h2 h3).toBuf v = v := rfl
theorem ofBuf_call6_v1 (h1 : main_call6_v1.ty = ⟨S1600000, .i1⟩) (h2 : main_call6_v1.space ≠ .host) (h3 : main_call6_v1.isScoped = false) (v : main_call6_v1.ty.Contents Val) :
    (TRef.of (sig := sig) (T := ⟨S1600000, .i1⟩) main_call6_v1 h1 h2 h3).ofBuf v = v := rfl
theorem toBuf_call6_c_0 (h1 : main_call6_c_0.ty = ⟨S_, .i32⟩) (h2 : main_call6_c_0.space ≠ .host) (h3 : main_call6_c_0.isScoped = false) (v : (⟨S_, .i32⟩ : BufTy).Contents Val) :
    (TRef.of (sig := sig) (T := ⟨S_, .i32⟩) main_call6_c_0 h1 h2 h3).toBuf v = v := rfl
theorem ofBuf_call6_c_0 (h1 : main_call6_c_0.ty = ⟨S_, .i32⟩) (h2 : main_call6_c_0.space ≠ .host) (h3 : main_call6_c_0.isScoped = false) (v : main_call6_c_0.ty.Contents Val) :
    (TRef.of (sig := sig) (T := ⟨S_, .i32⟩) main_call6_c_0 h1 h2 h3).ofBuf v = v := rfl
theorem toBuf_call6_v2 (h1 : main_call6_v2.ty = ⟨S1600000, .i32⟩) (h2 : main_call6_v2.space ≠ .host) (h3 : main_call6_v2.isScoped = false) (v : (⟨S1600000, .i32⟩ : BufTy).Contents Val) :
    (TRef.of (sig := sig) (T := ⟨S1600000, .i32⟩) main_call6_v2 h1 h2 h3).toBuf v = v := rfl
theorem ofBuf_call6_v2 (h1 : main_call6_v2.ty = ⟨S1600000, .i32⟩) (h2 : main_call6_v2.space ≠ .host) (h3 : main_call6_v2.isScoped = false) (v : main_call6_v2.ty.Contents Val) :
    (TRef.of (sig := sig) (T := ⟨S1600000, .i32⟩) main_call6_v2 h1 h2 h3).ofBuf v = v := rfl
theorem toBuf_call6_v3 (h1 : main_call6_v3.ty = ⟨S1600000, .i32⟩) (h2 : main_call6_v3.space ≠ .host) (h3 : main_call6_v3.isScoped = false) (v : (⟨S1600000, .i32⟩ : BufTy).Contents Val) :
    (TRef.of (sig := sig) (T := ⟨S1600000, .i32⟩) main_call6_v3 h1 h2 h3).toBuf v = v := rfl
theorem ofBuf_call6_v3 (h1 : main_call6_v3.ty = ⟨S1600000, .i32⟩) (h2 : main_call6_v3.space ≠ .host) (h3 : main_call6_v3.isScoped = false) (v : main_call6_v3.ty.Contents Val) :
    (TRef.of (sig := sig) (T := ⟨S1600000, .i32⟩) main_call6_v3 h1 h2 h3).ofBuf v = v := rfl
theorem toBuf_call6_v5 (h1 : main_call6_v5.ty = ⟨S1600000x1, .i32⟩) (h2 : main_call6_v5.space ≠ .host) (h3 : main_call6_v5.isScoped = false) (v : (⟨S1600000x1, .i32⟩ : BufTy).Contents Val) :
    (TRef.of (sig := sig) (T := ⟨S1600000x1, .i32⟩) main_call6_v5 h1 h2 h3).toBuf v = v := rfl
theorem ofBuf_call6_v5 (h1 : main_call6_v5.ty = ⟨S1600000x1, .i32⟩) (h2 : main_call6_v5.space ≠ .host) (h3 : main_call6_v5.isScoped = false) (v : main_call6_v5.ty.Contents Val) :
    (TRef.of (sig := sig) (T := ⟨S1600000x1, .i32⟩) main_call6_v5 h1 h2 h3).ofBuf v = v := rfl
theorem toBuf_call6_c_1 (h1 : main_call6_c_1.ty = ⟨S1, .i32⟩) (h2 : main_call6_c_1.space ≠ .host) (h3 : main_call6_c_1.isScoped = false) (v : (⟨S1, .i32⟩ : BufTy).Contents Val) :
    (TRef.of (sig := sig) (T := ⟨S1, .i32⟩) main_call6_c_1 h1 h2 h3).toBuf v = v := rfl
theorem ofBuf_call6_c_1 (h1 : main_call6_c_1.ty = ⟨S1, .i32⟩) (h2 : main_call6_c_1.space ≠ .host) (h3 : main_call6_c_1.isScoped = false) (v : main_call6_c_1.ty.Contents Val) :
    (TRef.of (sig := sig) (T := ⟨S1, .i32⟩) main_call6_c_1 h1 h2 h3).ofBuf v = v := rfl
theorem toBuf_call6_c_2 (h1 : main_call6_c_2.ty = ⟨S_, .i32⟩) (h2 : main_call6_c_2.space ≠ .host) (h3 : main_call6_c_2.isScoped = false) (v : (⟨S_, .i32⟩ : BufTy).Contents Val) :
    (TRef.of (sig := sig) (T := ⟨S_, .i32⟩) main_call6_c_2 h1 h2 h3).toBuf v = v := rfl
theorem ofBuf_call6_c_2 (h1 : main_call6_c_2.ty = ⟨S_, .i32⟩) (h2 : main_call6_c_2.space ≠ .host) (h3 : main_call6_c_2.isScoped = false) (v : main_call6_c_2.ty.Contents Val) :
    (TRef.of (sig := sig) (T := ⟨S_, .i32⟩) main_call6_c_2 h1 h2 h3).ofBuf v = v := rfl
theorem toBuf_call6_v6 (h1 : main_call6_v6.ty = ⟨S1600000x1, .i32⟩) (h2 : main_call6_v6.space ≠ .host) (h3 : main_call6_v6.isScoped = false) (v : (⟨S1600000x1, .i32⟩ : BufTy).Contents Val) :
    (TRef.of (sig := sig) (T := ⟨S1600000x1, .i32⟩) main_call6_v6 h1 h2 h3).toBuf v = v := rfl
theorem ofBuf_call6_v6 (h1 : main_call6_v6.ty = ⟨S1600000x1, .i32⟩) (h2 : main_call6_v6.space ≠ .host) (h3 : main_call6_v6.isScoped = false) (v : main_call6_v6.ty.Contents Val) :
    (TRef.of (sig := sig) (T := ⟨S1600000x1, .i32⟩) main_call6_v6 h1 h2 h3).ofBuf v = v := rfl
theorem toBuf_call6_v7 (h1 : main_call6_v7.ty = ⟨S1600000x1, .i1⟩) (h2 : main_call6_v7.space ≠ .host) (h3 : main_call6_v7.isScoped = false) (v : (⟨S1600000x1, .i1⟩ : BufTy).Contents Val) :
    (TRef.of (sig := sig) (T := ⟨S1600000x1, .i1⟩) main_call6_v7 h1 h2 h3).toBuf v = v := rfl
theorem ofBuf_call6_v7 (h1 : main_call6_v7.ty = ⟨S1600000x1, .i1⟩) (h2 : main_call6_v7.space ≠ .host) (h3 : main_call6_v7.isScoped = false) (v : main_call6_v7.ty.Contents Val) :
    (TRef.of (sig := sig) (T := ⟨S1600000x1, .i1⟩) main_call6_v7 h1 h2 h3).ofBuf v = v := rfl
theorem toBuf_call6_v8 (h1 : main_call6_v8.ty = ⟨S1x1, .i32⟩) (h2 : main_call6_v8.space ≠ .host) (h3 : main_call6_v8.isScoped = false) (v : (⟨S1x1, .i32⟩ : BufTy).Contents Val) :
    (TRef.of (sig := sig) (T := ⟨S1x1, .i32⟩) main_call6_v8 h1 h2 h3).toBuf v = v := rfl
theorem ofBuf_call6_v8 (h1 : main_call6_v8.ty = ⟨S1x1, .i32⟩) (h2 : main_call6_v8.space ≠ .host) (h3 : main_call6_v8.isScoped = false) (v : main_call6_v8.ty.Contents Val) :
    (TRef.of (sig := sig) (T := ⟨S1x1, .i32⟩) main_call6_v8 h1 h2 h3).ofBuf v = v := rfl
theorem toBuf_call6_v9 (h1 : main_call6_v9.ty = ⟨S1600000x1, .i32⟩) (h2 : main_call6_v9.space ≠ .host) (h3 : main_call6_v9.isScoped = false) (v : (⟨S1600000x1, .i32⟩ : BufTy).Contents Val) :
    (TRef.of (sig := sig) (T := ⟨S1600000x1, .i32⟩) main_call6_v9 h1 h2 h3).toBuf v = v := rfl
theorem ofBuf_call6_v9 (h1 : main_call6_v9.ty = ⟨S1600000x1, .i32⟩) (h2 : main_call6_v9.space ≠ .host) (h3 : main_call6_v9.isScoped = false) (v : main_call6_v9.ty.Contents Val) :
    (TRef.of (sig := sig) (T := ⟨S1600000x1, .i32⟩) main_call6_v9 h1 h2 h3).ofBuf v = v := rfl
theorem toBuf_call6_v10 (h1 : main_call6_v10.ty = ⟨S1600000x1, .i1⟩) (h2 : main_call6_v10.space ≠ .host) (h3 : main_call6_v10.isScoped = false) (v : (⟨S1600000x1, .i1⟩ : BufTy).Contents Val) :
    (TRef.of (sig := sig) (T := ⟨S1600000x1, .i1⟩) main_call6_v10 h1 h2 h3).toBuf v = v := rfl
theorem ofBuf_call6_v10 (h1 : main_call6_v10.ty = ⟨S1600000x1, .i1⟩) (h2 : main_call6_v10.space ≠ .host) (h3 : main_call6_v10.isScoped = false) (v : main_call6_v10.ty.Contents Val) :
    (TRef.of (sig := sig) (T := ⟨S1600000x1, .i1⟩) main_call6_v10 h1 h2 h3).ofBuf v = v := rfl
theorem toBuf_call6_v11 (h1 : main_call6_v11.ty = ⟨S1600000x1, .i1⟩) (h2 : main_call6_v11.space ≠ .host) (h3 : main_call6_v11.isScoped = false) (v : (⟨S1600000x1, .i1⟩ : BufTy).Contents Val) :
    (TRef.of (sig := sig) (T := ⟨S1600000x1, .i1⟩) main_call6_v11 h1 h2 h3).toBuf v = v := rfl
theorem ofBuf_call6_v11 (h1 : main_call6_v11.ty = ⟨S1600000x1, .i1⟩) (h2 : main_call6_v11.space ≠ .host) (h3 : main_call6_v11.isScoped = false) (v : main_call6_v11.ty.Contents Val) :
    (TRef.of (sig := sig) (T := ⟨S1600000x1, .i1⟩) main_call6_v11 h1 h2 h3).ofBuf v = v := rfl
theorem toBuf_call6_c_3 (h1 : main_call6_c_3.ty = ⟨S_, .i1⟩) (h2 : main_call6_c_3.space ≠ .host) (h3 : main_call6_c_3.isScoped = false) (v : (⟨S_, .i1⟩ : BufTy).Contents Val) :
    (TRef.of (sig := sig) (T := ⟨S_, .i1⟩) main_call6_c_3 h1 h2 h3).toBuf v = v := rfl
theorem ofBuf_call6_c_3 (h1 : main_call6_c_3.ty = ⟨S_, .i1⟩) (h2 : main_call6_c_3.space ≠ .host) (h3 : main_call6_c_3.isScoped = false) (v : main_call6_c_3.ty.Contents Val) :
    (TRef.of (sig := sig) (T := ⟨S_, .i1⟩) main_call6_c_3 h1 h2 h3).ofBuf v = v := rfl
theorem toBuf_call6_v12 (h1 : main_call6_v12.ty = ⟨S1600000, .i1⟩) (h2 : main_call6_v12.space ≠ .host) (h3 : main_call6_v12.isScoped = false) (v : (⟨S1600000, .i1⟩ : BufTy).Contents Val) :
    (TRef.of (sig := sig) (T := ⟨S1600000, .i1⟩) main_call6_v12 h1 h2 h3).toBuf v = v := rfl
theorem ofBuf_call6_v12 (h1 : main_call6_v12.ty = ⟨S1600000, .i1⟩) (h2 : main_call6_v12.space ≠ .host) (h3 : main_call6_v12.isScoped = false) (v : main_call6_v12.ty.Contents Val) :
    (TRef.of (sig := sig) (T := ⟨S1600000, .i1⟩) main_call6_v12 h1 h2 h3).ofBuf v = v := rfl
theorem toBuf_call6_v13 (h1 : main_call6_v13.ty = ⟨S1600000x40, .f32⟩) (h2 : main_call6_v13.space ≠ .host) (h3 : main_call6_v13.isScoped = false) (v : (⟨S1600000x40, .f32⟩ : BufTy).Contents Val) :
    (TRef.of (sig := sig) (T := ⟨S1600000x40, .f32⟩) main_call6_v13 h1 h2 h3).toBuf v = v := rfl
theorem ofBuf_call6_v13 (h1 : main_call6_v13.ty = ⟨S1600000x40, .f32⟩) (h2 : main_call6_v13.space ≠ .host) (h3 : main_call6_v13.isScoped = false) (v : main_call6_v13.ty.Contents Val) :
    (TRef.of (sig := sig) (T := ⟨S1600000x40, .f32⟩) main_call6_v13 h1 h2 h3).ofBuf v = v := rfl
theorem toBuf_call6_v14 (h1 : main_call6_v14.ty = ⟨S1600000x40, .i1⟩) (h2 : main_call6_v14.space ≠ .host) (h3 : main_call6_v14.isScoped = false) (v : (⟨S1600000x40, .i1⟩ : BufTy).Contents Val) :
    (TRef.of (sig := sig) (T := ⟨S1600000x40, .i1⟩) main_call6_v14 h1 h2 h3).toBuf v = v := rfl
theorem ofBuf_call6_v14 (h1 : main_call6_v14.ty = ⟨S1600000x40, .i1⟩) (h2 : main_call6_v14.space ≠ .host) (h3 : main_call6_v14.isScoped = false) (v : main_call6_v14.ty.Contents Val) :
    (TRef.of (sig := sig) (T := ⟨S1600000x40, .i1⟩) main_call6_v14 h1 h2 h3).ofBuf v = v := rfl
theorem toBuf_call6_cst (h1 : main_call6_cst.ty = ⟨S_, .f32⟩) (h2 : main_call6_cst.space ≠ .host) (h3 : main_call6_cst.isScoped = false) (v : (⟨S_, .f32⟩ : BufTy).Contents Val) :
    (TRef.of (sig := sig) (T := ⟨S_, .f32⟩) main_call6_cst h1 h2 h3).toBuf v = v := rfl
theorem ofBuf_call6_cst (h1 : main_call6_cst.ty = ⟨S_, .f32⟩) (h2 : main_call6_cst.space ≠ .host) (h3 : main_call6_cst.isScoped = false) (v : main_call6_cst.ty.Contents Val) :
    (TRef.of (sig := sig) (T := ⟨S_, .f32⟩) main_call6_cst h1 h2 h3).ofBuf v = v := rfl
theorem toBuf_call6_v15 (h1 : main_call6_v15.ty = ⟨S1600000x40, .f32⟩) (h2 : main_call6_v15.space ≠ .host) (h3 : main_call6_v15.isScoped = false) (v : (⟨S1600000x40, .f32⟩ : BufTy).Contents Val) :
    (TRef.of (sig := sig) (T := ⟨S1600000x40, .f32⟩) main_call6_v15 h1 h2 h3).toBuf v = v := rfl
theorem ofBuf_call6_v15 (h1 : main_call6_v15.ty = ⟨S1600000x40, .f32⟩) (h2 : main_call6_v15.space ≠ .host) (h3 : main_call6_v15.isScoped = false) (v : main_call6_v15.ty.Contents Val) :
    (TRef.of (sig := sig) (T := ⟨S1600000x40, .f32⟩) main_call6_v15 h1 h2 h3).ofBuf v = v := rfl
theorem toBuf_v101 (h1 : main_v101.ty = ⟨S1600000x40, .f32⟩) (h2 : main_v101.space ≠ .host) (h3 : main_v101.isScoped = false) (v : (⟨S1600000x40, .f32⟩ : BufTy).Contents Val) :
    (TRef.of (sig := sig) (T := ⟨S1600000x40, .f32⟩) main_v101 h1 h2 h3).toBuf v = v := rfl
theorem ofBuf_v101 (h1 : main_v101.ty = ⟨S1600000x40, .f32⟩) (h2 : main_v101.space ≠ .host) (h3 : main_v101.isScoped = false) (v : main_v101.ty.Contents Val) :
    (TRef.of (sig := sig) (T := ⟨S1600000x40, .f32⟩) main_v101 h1 h2 h3).ofBuf v = v := rfl
theorem toBuf_cst_3 (h1 : main_cst_3.ty = ⟨S_, .f32⟩) (h2 : main_cst_3.space ≠ .host) (h3 : main_cst_3.isScoped = false) (v : (⟨S_, .f32⟩ : BufTy).Contents Val) :
    (TRef.of (sig := sig) (T := ⟨S_, .f32⟩) main_cst_3 h1 h2 h3).toBuf v = v := rfl
theorem ofBuf_cst_3 (h1 : main_cst_3.ty = ⟨S_, .f32⟩) (h2 : main_cst_3.space ≠ .host) (h3 : main_cst_3.isScoped = false) (v : main_cst_3.ty.Contents Val) :
    (TRef.of (sig := sig) (T := ⟨S_, .f32⟩) main_cst_3 h1 h2 h3).ofBuf v = v := rfl
theorem toBuf_v8 (h1 : main_v8.ty = ⟨S100000, .i1⟩) (h2 : main_v8.space ≠ .host) (h3 : main_v8.isScoped = false) (v : (⟨S100000, .i1⟩ : BufTy).Contents Val) :
    (TRef.of (sig := sig) (T := ⟨S100000, .i1⟩) main_v8 h1 h2 h3).toBuf v = v := rfl
theorem ofBuf_v8 (h1 : main_v8.ty = ⟨S100000, .i1⟩) (h2 : main_v8.space ≠ .host) (h3 : main_v8.isScoped = false) (v : main_v8.ty.Contents Val) :
    (TRef.of (sig := sig) (T := ⟨S100000, .i1⟩) main_v8 h1 h2 h3).ofBuf v = v := rfl
theorem toBuf_v3 (h1 : main_v3.ty = ⟨S100000, .f32⟩) (h2 : main_v3.space ≠ .host) (h3 : main_v3.isScoped = false) (v : (⟨S100000, .f32⟩ : BufTy).Contents Val) :
    (TRef.of (sig := sig) (T := ⟨S100000, .f32⟩) main_v3 h1 h2 h3).toBuf v = v := rfl
theorem ofBuf_v3 (h1 : main_v3.ty = ⟨S100000, .f32⟩) (h2 : main_v3.space ≠ .host) (h3 : main_v3.isScoped = false) (v : main_v3.ty.Contents Val) :
    (TRef.of (sig := sig) (T := ⟨S100000, .f32⟩) main_v3 h1 h2 h3).ofBuf v = v := rfl
theorem toBuf_cst_6 (h1 : main_cst_6.ty = ⟨S_, .f32⟩) (h2 : main_cst_6.space ≠ .host) (h3 : main_cst_6.isScoped = false) (v : (⟨S_, .f32⟩ : BufTy).Contents Val) :
    (TRef.of (sig := sig) (T := ⟨S_, .f32⟩) main_cst_6 h1 h2 h3).toBuf v = v := rfl
theorem ofBuf_cst_6 (h1 : main_cst_6.ty = ⟨S_, .f32⟩) (h2 : main_cst_6.space ≠ .host) (h3 : main_cst_6.isScoped = false) (v : main_cst_6.ty.Contents Val) :
    (TRef.of (sig := sig) (T := ⟨S_, .f32⟩) main_cst_6 h1 h2 h3).ofBuf v = v := rfl
theorem toBuf_v13 (h1 : main_v13.ty = ⟨S100000, .i1⟩) (h2 : main_v13.space ≠ .host) (h3 : main_v13.isScoped = false) (v : (⟨S100000, .i1⟩ : BufTy).Contents Val) :
    (TRef.of (sig := sig) (T := ⟨S100000, .i1⟩) main_v13 h1 h2 h3).toBuf v = v := rfl
theorem ofBuf_v13 (h1 : main_v13.ty = ⟨S100000, .i1⟩) (h2 : main_v13.space ≠ .host) (h3 : main_v13.isScoped = false) (v : main_v13.ty.Contents Val) :
    (TRef.of (sig := sig) (T := ⟨S100000, .i1⟩) main_v13 h1 h2 h3).ofBuf v = v := rfl
theorem toBuf_v6 (h1 : main_v6.ty = ⟨S100000, .f32⟩) (h2 : main_v6.space ≠ .host) (h3 : main_v6.isScoped = false) (v : (⟨S100000, .f32⟩ : BufTy).Contents Val) :
    (TRef.of (sig := sig) (T := ⟨S100000, .f32⟩) main_v6 h1 h2 h3).toBuf v = v := rfl
theorem ofBuf_v6 (h1 : main_v6.ty = ⟨S100000, .f32⟩) (h2 : main_v6.space ≠ .host) (h3 : main_v6.isScoped = false) (v : main_v6.ty.Contents Val) :
    (TRef.of (sig := sig) (T := ⟨S100000, .f32⟩) main_v6 h1 h2 h3).ofBuf v = v := rfl
theorem toBuf_arg1 (h1 : main_arg1.ty = ⟨S1600000, .i32⟩) (h2 : main_arg1.space ≠ .host) (h3 : main_arg1.isScoped = false) (v : (⟨S1600000, .i32⟩ : BufTy).Contents Val) :
    (TRef.of (sig := sig) (T := ⟨S1600000, .i32⟩) main_arg1 h1 h2 h3).toBuf v = v := rfl
theorem ofBuf_arg1 (h1 : main_arg1.ty = ⟨S1600000, .i32⟩) (h2 : main_arg1.space ≠ .host) (h3 : main_arg1.isScoped = false) (v : main_arg1.ty.Contents Val) :
    (TRef.of (sig := sig) (T := ⟨S1600000, .i32⟩) main_arg1 h1 h2 h3).ofBuf v = v := rfl
theorem toBuf_v20 (h1 : main_v20.ty = ⟨S100000x128, .f32⟩) (h2 : main_v20.space ≠ .host) (h3 : main_v20.isScoped = false) (v : (⟨S100000x128, .f32⟩ : BufTy).Contents Val) :
    (TRef.of (sig := sig) (T := ⟨S100000x128, .f32⟩) main_v20 h1 h2 h3).toBuf v = v := rfl
theorem ofBuf_v20 (h1 : main_v20.ty = ⟨S100000x128, .f32⟩) (h2 : main_v20.space ≠ .host) (h3 : main_v20.isScoped = false) (v : main_v20.ty.Contents Val) :
    (TRef.of (sig := sig) (T := ⟨S100000x128, .f32⟩) main_v20 h1 h2 h3).ofBuf v = v := rfl
theorem toBuf_v55 (h1 : main_v55.ty = ⟨S100000x128, .f32⟩) (h2 : main_v55.space ≠ .host) (h3 : main_v55.isScoped = false) (v : (⟨S100000x128, .f32⟩ : BufTy).Contents Val) :
    (TRef.of (sig := sig) (T := ⟨S100000x128, .f32⟩) main_v55 h1 h2 h3).toBuf v = v := rfl
theorem ofBuf_v55 (h1 : main_v55.ty = ⟨S100000x128, .f32⟩) (h2 : main_v55.space ≠ .host) (h3 : main_v55.isScoped = false) (v : main_v55.ty.Contents Val) :
    (TRef.of (sig := sig) (T := ⟨S100000x128, .f32⟩) main_v55 h1 h2 h3).ofBuf v = v := rfl
theorem toBuf_v60 (h1 : main_v60.ty = ⟨S100000x128, .f32⟩) (h2 : main_v60.space ≠ .host) (h3 : main_v60.isScoped = false) (v : (⟨S100000x128, .f32⟩ : BufTy).Contents Val) :
    (TRef.of (sig := sig) (T := ⟨S100000x128, .f32⟩) main_v60 h1 h2 h3).toBuf v = v := rfl
theorem ofBuf_v60 (h1 : main_v60.ty = ⟨S100000x128, .f32⟩) (h2 : main_v60.space ≠ .host) (h3 : main_v60.isScoped = false) (v : main_v60.ty.Contents Val) :
    (TRef.of (sig := sig) (T := ⟨S100000x128, .f32⟩) main_v60 h1 h2 h3).ofBuf v = v := rfl
theorem toBuf_v95 (h1 : main_v95.ty = ⟨S100000x128, .f32⟩) (h2 : main_v95.space ≠ .host) (h3 : main_v95.isScoped = false) (v : (⟨S100000x128, .f32⟩ : BufTy).Contents Val) :
    (TRef.of (sig := sig) (T := ⟨S100000x128, .f32⟩) main_v95 h1 h2 h3).toBuf v = v := rfl
theorem ofBuf_v95 (h1 : main_v95.ty = ⟨S100000x128, .f32⟩) (h2 : main_v95.space ≠ .host) (h3 : main_v95.isScoped = false) (v : main_v95.ty.Contents Val) :
    (TRef.of (sig := sig) (T := ⟨S100000x128, .f32⟩) main_v95 h1 h2 h3).ofBuf v = v := rfl
theorem toBuf_v100 (h1 : main_v100.ty = ⟨S100000x40, .f32⟩) (h2 : main_v100.space ≠ .host) (h3 : main_v100.isScoped = false) (v : (⟨S100000x40, .f32⟩ : BufTy).Contents Val) :
    (TRef.of (sig := sig) (T := ⟨S100000x40, .f32⟩) main_v100 h1 h2 h3).toBuf v = v := rfl
theorem ofBuf_v100 (h1 : main_v100.ty = ⟨S100000x40, .f32⟩) (h2 : main_v100.space ≠ .host) (h3 : main_v100.isScoped = false) (v : main_v100.ty.Contents Val) :
    (TRef.of (sig := sig) (T := ⟨S100000x40, .f32⟩) main_v100 h1 h2 h3).ofBuf v = v := rfl

end Cert.ReferenceIdeal.Hand

end
-- ==== Proof.RefRunSegA.lean ====
import proofs.«107691_j23957327577190_1_alg».proof.Proof.RefRunOps
import proofs.«107691_j23957327577190_1_alg».proof.Proof.RefRunDefs
import proofs.«107691_j23957327577190_1_alg».proof.Proof.RefCasts

set_option synthInstance.maxSize 4096

noncomputable section

namespace Cert.ReferenceIdeal.Hand

open Cert.ReferenceIdeal Idealize.ShloMosaic Idealize.ShloMosaic.TcCoe Idealize.SL.Sem Idealize.ShloMosaic.StableHlo
open Facts₀ Facts

variable [Facts]

/-! The first stretch, read at its two results from any contents: each degree norm is the norm of its index array.
The outlined functions' operations carry transports between a buffer's type and the value's type; these are the
identity at the literal buffers and are removed before the two sides are compared. -/

set_option maxRecDepth 8192 in
set_option maxHeartbeats 4000000 in
/-- After the first stretch the source-side norm is the degree norm of the source indices. -/
theorem opsA_v11 (W : Valuation τ sig (Elt Ideal)) :
    after (opsA (F := Ideal)) W (Proc.devRef .tc main_v11)
      = normOf (W (Proc.devRef .tc main_arg1)) := by
  simp only [opsA, List.cons_append, List.nil_append]
  after_results_simp
  simp only [ofBuf_toBuf]
  rw [toBuf_v9, ofBuf_v8, ofBuf_v3, ofBuf_cst_3]
  rfl

set_option maxRecDepth 8192 in
set_option maxHeartbeats 4000000 in
/-- After the first stretch the destination-side norm is the degree norm of the destination indices. -/
theorem opsA_v16 (W : Valuation τ sig (Elt Ideal)) :
    after (opsA (F := Ideal)) W (Proc.devRef .tc main_v16)
      = normOf (W (Proc.devRef .tc main_arg2)) := by
  simp only [opsA, List.cons_append, List.nil_append]
  after_results_simp
  simp only [ofBuf_toBuf]
  rw [toBuf_v14, ofBuf_v13, ofBuf_v6, ofBuf_cst_6]
  rfl

end Cert.ReferenceIdeal.Hand

end
-- ==== Proof.RefRunSegB1.lean ====
import proofs.«107691_j23957327577190_1_alg».proof.Proof.RefRunOps
import proofs.«107691_j23957327577190_1_alg».proof.Proof.RefRunDefs
import proofs.«107691_j23957327577190_1_alg».proof.Proof.RefCasts

set_option synthInstance.maxSize 4096

noncomputable section

namespace Cert.ReferenceIdeal.Hand

open Cert.ReferenceIdeal Idealize.ShloMosaic Idealize.ShloMosaic.TcCoe Idealize.SL.Sem Idealize.ShloMosaic.StableHlo
open Facts₀ Facts

variable [Facts]

/-! The second stretch, read at its result from any contents: the first graph convolution. -/

set_option maxRecDepth 8192 in
set_option maxHeartbeats 4000000 in
/-- After the second stretch its result is the graph convolution of the features with the first weights and bias over the two norms held before it. -/
theorem opsB1_v30 (W : Valuation τ sig (Elt Ideal)) :
    after (opsB1 (F := Ideal)) W (Proc.devRef .tc main_v30)
      = conv128 (W (Proc.devRef .tc main_arg0)) (W (Proc.devRef .tc main_arg3)) (W (Proc.devRef .tc main_arg4)) (W (Proc.devRef .tc main_arg1)) (W (Proc.devRef .tc main_arg2))
          (W (Proc.devRef .tc main_v11)) (W (Proc.devRef .tc main_v16)) := by
  simp only [opsB1, List.cons_append, List.nil_append]
  after_results_simp
  simp only [ofBuf_toBuf]
  rw [toBuf_v21, ofBuf_v20, ofBuf_arg1]
  rfl

end Cert.ReferenceIdeal.Hand

end
-- ==== Proof.RefRunSegC1.lean ====
import proofs.«107691_j23957327577190_1_alg».proof.Proof.RefRunOps
import proofs.«107691_j23957327577190_1_alg».proof.Proof.RefRunDefs
import proofs.«107691_j23957327577190_1_alg».proof.Proof.RefCasts

set_option synthInstance.maxSize 4096

noncomputable section

namespace Cert.ReferenceIdeal.Hand

open Cert.ReferenceIdeal Idealize.ShloMosaic Idealize.ShloMosaic.TcCoe Idealize.SL.Sem Idealize.ShloMosaic.StableHlo
open Facts₀ Facts

variable [Facts]

/-! The third and fourth stretches together, read at their result from any contents: the first batch normalisation and the maximum with zero. -/

set_option maxRecDepth 8192 in
set_option maxHeartbeats 4000000 in
/-- After the two stretches their result is the normalised, scaled, shifted and clamped first convolution. -/
theorem opsC1_v56 (W : Valuation τ sig (Elt Ideal)) :
    after (opsC1b (F := Ideal)) (after (opsC1a (F := Ideal)) W) (Proc.devRef .tc main_v56)
      = bnRelu (W (Proc.devRef .tc main_v30)) (W (Proc.devRef .tc main_arg5)) (W (Proc.devRef .tc main_arg6)) := by
  simp only [opsC1a, opsC1b, List.cons_append, List.nil_append]
  after_results_simp
  simp only [ofBuf_toBuf]
  rw [toBuf_v56, ofBuf_v55]
  rfl

end Cert.ReferenceIdeal.Hand

end
-- ==== Proof.RefRunSegB2.lean ====
import proofs.«107691_j23957327577190_1_alg».proof.Proof.RefRunOps
import proofs.«107691_j23957327577190_1_alg».proof.Proof.RefRunDefs
import proofs.«107691_j23957327577190_1_alg».proof.Proof.RefCasts

set_option synthInstance.maxSize 4096

noncomputable section

namespace Cert.ReferenceIdeal.Hand

open Cert.ReferenceIdeal Idealize.ShloMosaic Idealize.ShloMosaic.TcCoe Idealize.SL.Sem Idealize.ShloMosaic.StableHlo
open Facts₀ Facts

variable [Facts]

/-! The fifth stretch, read at its result from any contents: the second graph convolution. -/

set_option maxRecDepth 8192 in
set_option maxHeartbeats 4000000 in
/-- After the fifth stretch its result is the graph convolution of the first layer's output with the second weights and bias. -/
theorem opsB2_v70 (W : Valuation τ sig (Elt Ideal)) :
    after (opsB2 (F := Ideal)) W (Proc.devRef .tc main_v70)
      = conv128 (W (Proc.devRef .tc main_v56)) (W (Proc.devRef .tc main_arg7)) (W (Proc.devRef .tc main_arg8)) (W (Proc.devRef .tc main_arg1)) (W (Proc.devRef .tc main_arg2))
          (W (Proc.devRef .tc main_v11)) (W (Proc.devRef .tc main_v16)) := by
  simp only [opsB2, List.cons_append, List.nil_append]
  after_results_simp
  simp only [ofBuf_toBuf]
  rw [toBuf_v61, ofBuf_v60, ofBuf_arg1]
  rfl

end Cert.ReferenceIdeal.Hand

end
-- ==== Proof.RefRunSegC2.lean ====
import proofs.«107691_j23957327577190_1_alg».proof.Proof.RefRunOps
import proofs.«107691_j23957327577190_1_alg».proof.Proof.RefRunDefs
import proofs.«107691_j23957327577190_1_alg».proof.Proof.RefCasts

set_option synthInstance.maxSize 4096

noncomputable section

namespace Cert.ReferenceIdeal.Hand

open Cert.ReferenceIdeal Idealize.ShloMosaic Idealize.ShloMosaic.TcCoe Idealize.SL.Sem Idealize.ShloMosaic.StableHlo
open Facts₀ Facts

variable [Facts]

/-! The sixth stretch, read at its result from any contents: the second batch normalisation and the maximum with zero. -/

set_option maxRecDepth 8192 in
set_option maxHeartbeats 4000000 in
/-- After the sixth stretch its result is the normalised, scaled, shifted and clamped second convolution. -/
theorem opsC2_v96 (W : Valuation τ sig (Elt Ideal)) :
    after (opsC2 (F := Ideal)) W (Proc.devRef .tc main_v96)
      = bnRelu (W (Proc.devRef .tc main_v70)) (W (Proc.devRef .tc main_arg9)) (W (Proc.devRef .tc main_arg10)) := by
  simp only [opsC2, List.cons_append, List.nil_append]
  after_results_simp
  simp only [ofBuf_toBuf]
  rw [toBuf_v96, ofBuf_v95]
  rfl

end Cert.ReferenceIdeal.Hand

end
-- ==== Proof.RefRunSegB3.lean ====
import proofs.«107691_j23957327577190_1_alg».proof.Proof.RefRunOps
import proofs.«107691_j23957327577190_1_alg».proof.Proof.RefRunDefs
import proofs.«107691_j23957327577190_1_alg».proof.Proof.RefCasts

set_option synthInstance.maxSize 4096

noncomputable section

namespace Cert.ReferenceIdeal.Hand

open Cert.ReferenceIdeal Idealize.ShloMosaic Idealize.ShloMosaic.TcCoe Idealize.SL.Sem Idealize.ShloMosaic.StableHlo
open Facts₀ Facts

variable [Facts]

/-! The last two stretches together, read at their result from any contents: the third graph convolution, to width forty. -/

set_option maxRecDepth 8192 in
set_option maxHeartbeats 4000000 in
/-- After the last two stretches the program's result is the graph convolution of the second layer's output with the third weights and bias. -/
theorem opsB3_v110 (W : Valuation τ sig (Elt Ideal)) :
    after (opsB3b (F := Ideal)) (after (opsB3a (F := Ideal)) W) (Proc.devRef .tc main_v110)
      = conv40 (W (Proc.devRef .tc main_v96)) (W (Proc.devRef .tc main_arg11)) (W (Proc.devRef .tc main_arg12)) (W (Proc.devRef .tc main_arg1)) (W (Proc.devRef .tc main_arg2))
          (W (Proc.devRef .tc main_v11)) (W (Proc.devRef .tc main_v16)) := by
  simp only [opsB3a, opsB3b, List.cons_append, List.nil_append]
  after_results_simp
  simp only [ofBuf_toBuf]
  rw [toBuf_v101, ofBuf_v100, ofBuf_arg1]
  rfl

end Cert.ReferenceIdeal.Hand

end
-- ==== Proof.RefRunOut.lean ====
import proofs.«107691_j23957327577190_1_alg».proof.Proof.RefRunKeep
import proofs.«107691_j23957327577190_1_alg».proof.Proof.RefRunDefs
import proofs.«107691_j23957327577190_1_alg».proof.Proof.RefRunSegA
import proofs.«107691_j23957327577190_1_alg».proof.Proof.RefRunSegB1
import proofs.«107691_j23957327577190_1_alg».proof.Proof.RefRunSegC1
import proofs.«107691_j23957327577190_1_alg».proof.Proof.RefRunSegB2
import proofs.«107691_j23957327577190_1_alg».proof.Proof.RefRunSegC2
import proofs.«107691_j23957327577190_1_alg».proof.Proof.RefRunSegB3

set_option synthInstance.maxSize 4096

noncomputable section

namespace Cert.ReferenceIdeal.Hand

open Cert.ReferenceIdeal Idealize.ShloMosaic Idealize.ShloMosaic.TcCoe Idealize.SL.Sem Idealize.ShloMosaic.StableHlo
open Facts₀ Facts

variable [Facts]

/-! The program's result as the layered term: the fold is read stretch by stretch, each stretch's result by its own
lemma and every buffer a stretch does not write carried through it unchanged, down to the launch contents of the
thirteen arguments. -/

set_option maxRecDepth 8192 in
set_option maxHeartbeats 4000000 in
/-- From any contents, the result buffer after the whole program is the three-layer term of the argument buffers. -/
theorem out_eq (V : Valuation τ sig (Elt Ideal)) :
    after (ops (F := Ideal)) V (Proc.devRef .tc main_v110)
      = refOut (V (Proc.devRef .tc main_arg0))
          (V (Proc.devRef .tc main_arg1))
          (V (Proc.devRef .tc main_arg2))
          (V (Proc.devRef .tc main_arg3))
          (V (Proc.devRef .tc main_arg4))
          (V (Proc.devRef .tc main_arg5))
          (V (Proc.devRef .tc main_arg6))
          (V (Proc.devRef .tc main_arg7))
          (V (Proc.devRef .tc main_arg8))
          (V (Proc.devRef .tc main_arg9))
          (V (Proc.devRef .tc main_arg10))
          (V (Proc.devRef .tc main_arg11))
          (V (Proc.devRef .tc main_arg12)) := by
  rw [after_ops, opsB3_v110, opsC2_v96]
  rw [opsC2_keep _ main_arg11 (by decide), opsC2_keep _ main_arg12 (by decide), opsC2_keep _ main_arg1 (by decide), opsC2_keep _ main_arg2 (by decide), opsC2_keep _ main_v11 (by decide), opsC2_keep _ main_v16 (by decide)]
  rw [opsB2_v70]
  rw [opsB2_keep _ main_arg9 (by decide), opsB2_keep _ main_arg10 (by decide), opsB2_keep _ main_arg11 (by decide), opsB2_keep _ main_arg12 (by decide), opsB2_keep _ main_arg1 (by decide), opsB2_keep _ main_arg2 (by decide), opsB2_keep _ main_v11 (by decide), opsB2_keep _ main_v16 (by decide)]
  rw [opsC1_v56]
  rw [opsC1b_keep _ main_arg7 (by decide), opsC1b_keep _ main_arg8 (by decide), opsC1b_keep _ main_arg9 (by decide), opsC1b_keep _ main_arg10 (by decide), opsC1b_keep _ main_arg11 (by decide), opsC1b_keep _ main_arg12 (by decide), opsC1b_keep _ main_arg1 (by decide), opsC1b_keep _ main_arg2 (by decide), opsC1b_keep _ main_v11 (by decide), opsC1b_keep _ main_v16 (by decide)]
  rw [opsC1a_keep _ main_arg7 (by decide), opsC1a_keep _ main_arg8 (by decide), opsC1a_keep _ main_arg9 (by decide), opsC1a_keep _ main_arg10 (by decide), opsC1a_keep _ main_arg11 (by decide), opsC1a_keep _ main_arg12 (by decide), opsC1a_keep _ main_arg1 (by decide), opsC1a_keep _ main_arg2 (by decide), opsC1a_keep _ main_v11 (by decide), opsC1a_keep _ main_v16 (by decide)]
  rw [opsB1_v30]
  rw [opsB1_keep _ main_arg5 (by decide), opsB1_keep _ main_arg6 (by decide), opsB1_keep _ main_arg7 (by decide), opsB1_keep _ main_arg8 (by decide), opsB1_keep _ main_arg9 (by decide), opsB1_keep _ main_arg10 (by decide), opsB1_keep _ main_arg11 (by decide), opsB1_keep _ main_arg12 (by decide), opsB1_keep _ main_arg1 (by decide), opsB1_keep _ main_arg2 (by decide), opsB1_keep _ main_v11 (by decide), opsB1_keep _ main_v16 (by decide)]
  rw [opsA_v11, opsA_v16]
  rw [opsA_keep _ main_arg0 (by decide), opsA_keep _ main_arg1 (by decide), opsA_keep _ main_arg2 (by decide), opsA_keep _ main_arg3 (by decide), opsA_keep _ main_arg4 (by decide), opsA_keep _ main_arg5 (by decide), opsA_keep _ main_arg6 (by decide), opsA_keep _ main_arg7 (by decide), opsA_keep _ main_arg8 (by decide), opsA_keep _ main_arg9 (by decide), opsA_keep _ main_arg10 (by decide), opsA_keep _ main_arg11 (by decide), opsA_keep _ main_arg12 (by decide)]
  rfl

/-- From any memory with zero counters every weakly fair execution of the program at the ideal instance terminates;
    on each device the result buffer then holds the three-layer term of the arguments' launch contents, and the
    thirteen argument buffers hold what they held at launch. -/
theorem run_out (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v110)
        = refOut (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c).1.trans (out_eq _), (h c).2⟩) (run m ρ)

end Cert.ReferenceIdeal.Hand

end
-- ==== Proof.LibErealAlgebra.lean ====
/-
  Algebra on the extended reals for sums of products whose factors are real numbers.

  The extended reals are a commutative additive monoid and a commutative multiplicative monoid, but
  multiplication does not distribute over addition when the common factor is infinite
  (`⊤ * (1 + -1) = 0` while `⊤ * 1 + ⊤ * -1 = ⊥`). Every law below that moves a factor across a sum
  therefore asks that the factors be real numbers; the laws that only regroup or reorder a sum do not.

  * `IsReal x`: the extended real `x` is (the image of) a real number; closed under `0`, `1`, `+`, `*`,
    `max`, finite sums, and the quotient by a nonzero real.
  * `quot_eq_mul_recip`: dividing by a nonzero real is multiplying by the quotient `1 / c` computed first.
  * `sum_mul_add_indicator`: a row times a matrix column to which a unit vector was added is the row times the
    column plus the row's entry at the unit vector's position — the identity that folds a residual
    connection `h + h·Wᵀ` into one product `h·(W + I)ᵀ`.
-/
import Idealize.ShloMosaic.PureOps.Ideal

noncomputable section

namespace ErealAlgebra

open Idealize.ShloMosaic

/-- The extended real `x` is a real number. -/
def IsReal (x : EReal) : Prop := ∃ r : ℝ, x = (r : EReal)

theorem IsReal.coe (r : ℝ) : IsReal (r : EReal) := ⟨r, rfl⟩

theorem IsReal.zero : IsReal (0 : EReal) := ⟨0, by simp⟩

theorem IsReal.one : IsReal (1 : EReal) := ⟨1, by simp⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

/-- A finite sum of real numbers is a real number. -/
theorem IsReal.sum {ι : Type*} (s : Finset ι) (f : ι → EReal) (hf : ∀ i ∈ s, IsReal (f i)) :
    IsReal (∑ i ∈ s, f i) := by
  classical
  induction s using Finset.induction_on with
  | empty => simpa using IsReal.zero
  | insert a s ha ih =>
    rw [Finset.sum_insert ha]
    exact (hf a (Finset.mem_insert_self a s)).add (ih fun i hi => hf i (Finset.mem_insert_of_mem hi))

/-- The quotient of a real number by a nonzero real number is a real number. -/
theorem IsReal.div_coe {x : EReal} (hx : IsReal x) {c : ℝ} (hc : c ≠ 0) : IsReal (Ideal.div x (c : EReal)) := by
  rw [Ideal.div_coe hc]
  exact hx.mul (IsReal.coe _)

/-- Dividing by a nonzero real `c` is multiplying by the quotient `1 / c` computed first, for every extended
    real dividend. -/
theorem quot_eq_mul_recip (s : EReal) {c : ℝ} (hc : c ≠ 0) :
    s * Ideal.div 1 (c : EReal) = Ideal.div s (c : EReal) := by
  rw [Ideal.div_coe hc, Ideal.div_coe hc, one_mul]

/-- The coercion of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A row `h` of real numbers times a column `w + e`, where `e` is the unit vector at `j`, is the row times `w`
    plus the row's entry at `j`. -/
theorem sum_mul_add_indicator {κ : Type*} [Fintype κ] [DecidableEq κ] (h w e : κ → EReal) (j : κ)
    (hh : ∀ k, IsReal (h k)) (hw : ∀ k, IsReal (w k)) (he : ∀ k, e k = if k = j then 1 else 0) :
    ∑ k, h k * (w k + e k) = (∑ k, h k * w k) + h j := by
  choose hr hhr using hh
  choose wr hwr using hw
  have h1 : ∀ k, h k * (w k + e k) = h k * w k + (if k = j then h k else 0) := by
    intro k
    rw [he k, hhr k, hwr k]
    by_cases hk : k = j
    · simp only [hk, if_true]
      rw [← EReal.coe_one, ← EReal.coe_add, ← EReal.coe_mul, ← EReal.coe_mul, ← EReal.coe_add]
      congr 1; ring
    · simp only [hk, if_false, add_zero]
  simp only [h1]
  rw [Finset.sum_add_distrib, Finset.sum_ite_eq' Finset.univ j h]
  simp

end ErealAlgebra

end
-- ==== Proof.LibFiniteEntry.lean ====
/-
  The precondition "every entry is finite", read over the extended reals.

  A finiteness precondition is printed, input by input, as `all(|x| < +∞)`: the absolute value of every entry compared with
  the word of +∞, the bits reduced by `and` to one bit that must be 1. Over the extended reals an entry whose absolute
  value is below +∞ is (the image of) a real number — neither infinity, which is what every law that moves a factor across
  a sum, or cancels a number against itself, asks for.

  * `isReal_of_abs_lt_top`: `max x (-x) < ⊤ → IsReal x`.
  * `ofBits_inf`: the single-precision word 0x7F800000 denotes `⊤`.
  * `isReal_of_cmp`: the precondition's element fact `cmp olt (max x (-x)) (ofBits 0x7F800000) = 1` gives `IsReal x`.
  * `isReal_of_all`: one input's `all(|a| < +∞) = 1`, as printed (a reduce by `and` of the comparison of `|a|` with the
    broadcast word, into a result of one index), gives `IsReal (a i)` at every index — for any shape.
-/
import proofs.«107691_j23957327577190_1_alg».proof.Proof.LibErealAlgebra
import Idealize.ShloMosaic.Lib.ReduceAll
import Idealize.ShloMosaic.Lib.ValueIdx

noncomputable section

namespace FiniteEntry

open Idealize.ShloMosaic ErealAlgebra

/-- An extended real whose absolute value is below +∞ is a real number. -/
theorem isReal_of_abs_lt_top (x : EReal) (h : max x (-x) < ⊤) : IsReal x := by
  induction x using EReal.rec with
  | bot => simp at h
  | coe r => exact ⟨r, rfl⟩
  | top => simp at h

/-- The word 0x7F800000 denotes +∞. -/
theorem ofBits_inf : Ideal.ofBits .f32 0x7F800000#32 = (⊤ : EReal) := by
  simp [Ideal.ofBits, Ideal.ieee]

/-- The element fact of the precondition, read at the ideal instance. -/
theorem isReal_of_cmp (x : EReal) (h : Ideal.cmp .olt (max x (-x)) (Ideal.ofBits .f32 0x7F800000#32) = 1#1) : IsReal x := by
  rw [ofBits_inf] at h
  unfold Ideal.cmp at h
  have h' : max x (-x) < ⊤ := by
    by_contra hn
    simp [hn] at h
  exact isReal_of_abs_lt_top x h'

/-- One input's `all(|a| < +∞)` as printed, for any shape `s`, any scalar shape `s0` of the broadcast word and any
    one-index result shape `t`: every entry of `a` is a real number. -/
theorem isReal_of_all {s s0 t u : Shape} [Subsingleton t.Idx] {axes : List (Fin s.rank)} (a : FVec Ideal s .f32)
    (dims : Fin s0.rank → Fin s.rank) (hb : s0.BroadcastsInDim s dims)
    (init : u.Idx → BitVec 1) (hr : s.ReducesTo axes t) (hu : 0 < u.numel) (j : t.Idx)
    (h : Host.reduce IntOp.andi (cmpf .olt (Host.absf a) (broadcastInDim s dims hb (constant s0 .f32 0x7F800000#32))) init hr hu j = 1#1)
    (i : s.Idx) : IsReal (a i) :=
  isReal_of_cmp (a i) (Host.reduce_andi_all _ _ hr hu j h i)

end FiniteEntry

end
-- ==== Proof.PreFinite.lean ====
/-
  The finiteness precondition, decoded.

  The precondition is the conjunction, over the eleven real-valued arguments, of `all(|a| < +∞)`: each argument's
  absolute values are compared with the word of +∞, the bits of one argument are reduced by `and` to one bit, and the
  eleven bits are joined by `and`. The whole is 1 exactly when each of the eleven bits is 1, and one argument's bit is 1
  only when every one of its entries has an absolute value below +∞, that is, is (the image of) a real number.

  * `andi_split`: a conjunction of two one-bit scalars that is 1 has both conjuncts 1.
  * `real_of_pre`: the precondition at the ideal instance gives that every entry of every real-valued argument is a
    real number.
  * `real_of_Pre_KernelIdeal`: the same, read over a memory that satisfies the precondition, on every device.
-/
import proofs.«107691_j23957327577190_1_alg».proof.Defs
import proofs.«107691_j23957327577190_1_alg».proof.Proof.LibErealAlgebra
import proofs.«107691_j23957327577190_1_alg».proof.Proof.LibFiniteEntry

noncomputable section

namespace Cert.Proof.PreFinite

open Idealize.ShloMosaic ErealAlgebra Cert.Pre_finite_inputs

/-- The shape of a scalar has exactly one index. -/
instance : Subsingleton S_.Idx := ⟨fun a b => funext fun d => d.elim0⟩

/-- A conjunction of two one-bit scalars that is 1 has both conjuncts 1. -/
theorem andi_split (x y : IVec S_ 1) (h : andi x y ValueIdx.ix0 = 1#1) : x ValueIdx.ix0 = 1#1 ∧ y ValueIdx.ix0 = 1#1 :=
  IntOp.andi_eq_one.1 h

variable [Cert.Pre_finite_inputs.Facts]

/-- The precondition at the ideal instance: every entry of each of the eleven real-valued arguments is a real number. -/
theorem real_of_pre (a0 : FVec Ideal S100000x128 .f32) (a1 : IVec S1600000 32) (a2 : IVec S1600000 32) (a3 : FVec Ideal S128x128 .f32) (a4 : FVec Ideal S128 .f32) (a5 : FVec Ideal S128 .f32) (a6 : FVec Ideal S128 .f32) (a7 : FVec Ideal S128x128 .f32) (a8 : FVec Ideal S128 .f32) (a9 : FVec Ideal S128 .f32) (a10 : FVec Ideal S128 .f32) (a11 : FVec Ideal S128x40 .f32) (a12 : FVec Ideal S40 .f32)
    (h : Cert.Pre_finite_inputs.fn (F := Ideal) a0 a1 a2 a3 a4 a5 a6 a7 a8 a9 a10 a11 a12 = fun _ => 1#1) :
    (∀ i, IsReal (a0 i)) ∧
      (∀ i, IsReal (a3 i)) ∧
      (∀ i, IsReal (a4 i)) ∧
      (∀ i, IsReal (a5 i)) ∧
      (∀ i, IsReal (a6 i)) ∧
      (∀ i, IsReal (a7 i)) ∧
      (∀ i, IsReal (a8 i)) ∧
      (∀ i, IsReal (a9 i)) ∧
      (∀ i, IsReal (a10 i)) ∧
      (∀ i, IsReal (a11 i)) ∧
      (∀ i, IsReal (a12 i)) := by
  have h0 := congrFun h ValueIdx.ix0
  dsimp only [fn, fn_part1, fn_part2, fn_part3] at h0
  obtain ⟨h0, h12⟩ := andi_split _ _ h0
  obtain ⟨h0, h11⟩ := andi_split _ _ h0
  obtain ⟨h0, h10⟩ := andi_split _ _ h0
  obtain ⟨h0, h9⟩ := andi_split _ _ h0
  obtain ⟨h0, h8⟩ := andi_split _ _ h0
  obtain ⟨h0, h7⟩ := andi_split _ _ h0
  obtain ⟨h0, h6⟩ := andi_split _ _ h0
  obtain ⟨h0, h5⟩ := andi_split _ _ h0
  obtain ⟨h0, h4⟩ := andi_split _ _ h0
  obtain ⟨h0, h3⟩ := andi_split _ _ h0
  exact ⟨fun i => FiniteEntry.isReal_of_all a0 _ _ _ _ _ _ h0 i,
    fun i => FiniteEntry.isReal_of_all a3 _ _ _ _ _ _ h3 i,
    fun i => FiniteEntry.isReal_of_all a4 _ _ _ _ _ _ h4 i,
    fun i => FiniteEntry.isReal_of_all a5 _ _ _ _ _ _ h5 i,
    fun i => FiniteEntry.isReal_of_all a6 _ _ _ _ _ _ h6 i,
    fun i => FiniteEntry.isReal_of_all a7 _ _ _ _ _ _ h7 i,
    fun i => FiniteEntry.isReal_of_all a8 _ _ _ _ _ _ h8 i,
    fun i => FiniteEntry.isReal_of_all a9 _ _ _ _ _ _ h9 i,
    fun i => FiniteEntry.isReal_of_all a10 _ _ _ _ _ _ h10 i,
    fun i => FiniteEntry.isReal_of_all a11 _ _ _ _ _ _ h11 i,
    fun i => FiniteEntry.isReal_of_all a12 _ _ _ _ _ _ h12 i⟩

/-- Over a memory that satisfies the precondition, on every device, every entry of each real-valued argument array is a
    real number. -/
theorem real_of_Pre_KernelIdeal (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : S100000x128.Idx, IsReal (((m ((c.tc : Thread Cert.KernelIdeal.nD Cert.KernelIdeal.τ).loc Cert.KernelIdeal.main_arg0)) : FVec Ideal S100000x128 .f32) i)) ∧
      (∀ i : S128x128.Idx, IsReal (((m ((c.tc : Thread Cert.KernelIdeal.nD Cert.KernelIdeal.τ).loc Cert.KernelIdeal.main_arg3)) : FVec Ideal S128x128 .f32) i)) ∧
      (∀ i : S128.Idx, IsReal (((m ((c.tc : Thread Cert.KernelIdeal.nD Cert.KernelIdeal.τ).loc Cert.KernelIdeal.main_arg4)) : FVec Ideal S128 .f32) i)) ∧
      (∀ i : S128.Idx, IsReal (((m ((c.tc : Thread Cert.KernelIdeal.nD Cert.KernelIdeal.τ).loc Cert.KernelIdeal.main_arg5)) : FVec Ideal S128 .f32) i)) ∧
      (∀ i : S128.Idx, IsReal (((m ((c.tc : Thread Cert.KernelIdeal.nD Cert.KernelIdeal.τ).loc Cert.KernelIdeal.main_arg6)) : FVec Ideal S128 .f32) i)) ∧
      (∀ i : S128x128.Idx, IsReal (((m ((c.tc : Thread Cert.KernelIdeal.nD Cert.KernelIdeal.τ).loc Cert.KernelIdeal.main_arg7)) : FVec Ideal S128x128 .f32) i)) ∧
      (∀ i : S128.Idx, IsReal (((m ((c.tc : Thread Cert.KernelIdeal.nD Cert.KernelIdeal.τ).loc Cert.KernelIdeal.main_arg8)) : FVec Ideal S128 .f32) i)) ∧
      (∀ i : S128.Idx, IsReal (((m ((c.tc : Thread Cert.KernelIdeal.nD Cert.KernelIdeal.τ).loc Cert.KernelIdeal.main_arg9)) : FVec Ideal S128 .f32) i)) ∧
      (∀ i : S128.Idx, IsReal (((m ((c.tc : Thread Cert.KernelIdeal.nD Cert.KernelIdeal.τ).loc Cert.KernelIdeal.main_arg10)) : FVec Ideal S128 .f32) i)) ∧
      (∀ i : S128x40.Idx, IsReal (((m ((c.tc : Thread Cert.KernelIdeal.nD Cert.KernelIdeal.τ).loc Cert.KernelIdeal.main_arg11)) : FVec Ideal S128x40 .f32) i)) ∧
      (∀ i : S40.Idx, IsReal (((m ((c.tc : Thread Cert.KernelIdeal.nD Cert.KernelIdeal.τ).loc Cert.KernelIdeal.main_arg12)) : FVec Ideal S40 .f32) i)) :=
  real_of_pre _ _ _ _ _ _ _ _ _ _ _ _ _ (h c)

end Cert.Proof.PreFinite

end
-- ==== Proof.LibBatchNormMoments.lean ====
/-
  The two ways of computing the moments of batch normalisation agree on the extended reals.

  For a matrix x [P, Q] (P > 0 rows, one column per feature) whose entries are real numbers or -∞, a
  positive real ε and n = P:

    muOf x n (0, q)            = (∑ p, x (p, q)) / n                                  the mean of column q
    varKernel x n (0, q)       = (∑ p, x (p, q)²) / n − μ q · μ q                     mean of squares minus squared mean
    invStdKernel x n ε (0, q)  = 1 / √(varKernel (0, q) + ε)
    centered x n (p, q)        = x (p, q) − μ q
    varRef x n (0, q)          = (∑ p, (x (p, q) − μ q)²) / n                         mean of squared deviations
    invStdRef x n ε (0, q)     = rsqrt (varRef (0, q) + ε)

  Main results: invStdKernel x n ε = invStdRef x n ε (invStd_kernel_eq_ref), hence the normalised outputs
  agree (normRelu_moments_eq), and the normalised output is a real number in every entry when the scale
  and shift rows are real (normRelu_moments_real).

  The proof goes column by column, through the statistics of a single column f : Fin P → EReal.
  * Every entry real: the sums are sums of reals, and over ℝ
      ∑ (a p − m)² = ∑ a p² − 2 m ∑ a p + P m² = ∑ a p² − P m²     for m = (∑ a p) / P,
    so the two variances are the same real v ≥ 0, v + ε > 0, and 1 / √(v + ε) = (√(v + ε))⁻¹.
  * Some entry -∞ (none +∞): the column sum is -∞ and so is the mean. On one side the sum of squares is +∞
    (-∞ · -∞ = +∞, the other squares are ≥ 0), the variance +∞ − +∞ = -∞ by the convention ⊤ + ⊥ = ⊥,
    √(-∞) = -∞ and 1 / -∞ = 0. On the other side every deviation is +∞ (real − -∞) or -∞ (-∞ − -∞ = ⊥ + ⊤),
    every squared deviation is +∞, the variance is +∞ and rsqrt (+∞) = 0. Both inverse deviations are 0.
-/
import Idealize.ShloMosaic.Lib.ValueIdx
import Idealize.ShloMosaic.PureOps.Ideal.Laws
import proofs.«107691_j23957327577190_1_alg».proof.Proof.LibGcnBnSpec
import proofs.«107691_j23957327577190_1_alg».proof.Proof.LibErealAlgebra

noncomputable section

namespace GcnBn

open Idealize.ShloMosaic Idealize.ShloMosaic.ValueIdx ErealAlgebra

variable {P Q : Nat}

/-! ### Small facts on the extended reals -/

/-- The square of an extended real is nonnegative (-∞ · -∞ = +∞ · +∞ = +∞). -/
theorem ereal_mul_self_nonneg (x : EReal) : 0 ≤ x * x := by
  induction x using EReal.rec with
  | bot => simp
  | top => simp
  | coe a => rw [← EReal.coe_mul]; exact EReal.coe_nonneg.2 (mul_self_nonneg a)

/-- A finite sum one of whose terms is -∞ is -∞ (whatever the other terms: +∞ + -∞ = -∞). -/
theorem sum_eq_bot_of_term {ι : Type*} (s : Finset ι) (f : ι → EReal) {j : ι} (hj : j ∈ s) (hfj : f j = ⊥) :
    ∑ i ∈ s, f i = ⊥ := by
  classical
  rw [← Finset.add_sum_erase s f hj, hfj, EReal.bot_add]

/-- A finite sum of terms none of which is -∞ is not -∞. -/
theorem sum_ne_bot {ι : Type*} (s : Finset ι) (f : ι → EReal) (hf : ∀ i ∈ s, f i ≠ ⊥) : ∑ i ∈ s, f i ≠ ⊥ := by
  classical
  induction s using Finset.induction_on with
  | empty => simp
  | insert a s ha ih =>
    rw [Finset.sum_insert ha]
    exact EReal.add_ne_bot_iff.2 ⟨hf a (Finset.mem_insert_self a s), ih fun i hi => hf i (Finset.mem_insert_of_mem hi)⟩

/-- A finite sum one of whose terms is +∞ and none of whose terms is -∞ is +∞. -/
theorem sum_eq_top_of_term {ι : Type*} (s : Finset ι) (f : ι → EReal) {j : ι} (hj : j ∈ s) (hfj : f j = ⊤)
    (hf : ∀ i ∈ s, f i ≠ ⊥) : ∑ i ∈ s, f i = ⊤ := by
  classical
  rw [← Finset.add_sum_erase s f hj, hfj]
  exact EReal.top_add_of_ne_bot (sum_ne_bot _ f fun i hi => hf i (Finset.mem_of_mem_erase hi))

/-- The opposite of a real number is a real number. -/
theorem isReal_neg {x : EReal} (hx : IsReal x) : IsReal (-x) := by
  obtain ⟨a, rfl⟩ := hx
  exact ⟨-a, (EReal.coe_neg a).symm⟩

/-- The difference of two real numbers is a real number. -/
theorem isReal_sub {x y : EReal} (hx : IsReal x) (hy : IsReal y) : IsReal (x - y) := by
  obtain ⟨a, rfl⟩ := hx; obtain ⟨b, rfl⟩ := hy
  exact ⟨a - b, (EReal.coe_sub a b).symm⟩

/-- For a positive real t, the quotient 1 / √t is the reciprocal square root of t. -/
theorem div_one_sqrt_eq_rsqrt {t : ℝ} (ht : 0 < t) : Ideal.div 1 (Ideal.sqrt (t : EReal)) = Ideal.rsqrt (t : EReal) := by
  have hs : Real.sqrt t ≠ 0 := (Real.sqrt_pos.2 ht).ne'
  rw [Ideal.sqrt_coe, if_neg (not_lt.2 ht.le), Ideal.rsqrt_coe, if_neg (not_lt.2 ht.le), if_neg ht.ne',
    Ideal.div_coe hs, one_mul, one_div]

/-! ### The statistics of one column -/

/-- The mean (∑ p, f p) / n of a column. -/
def colMean (f : Fin P → EReal) (n : EReal) : EReal := Ideal.div (∑ p, f p) n

/-- Mean of squares minus squared mean. -/
def colVarK (f : Fin P → EReal) (n : EReal) : EReal := Ideal.div (∑ p, f p * f p) n - colMean f n * colMean f n

/-- Mean of squared deviations from the mean. -/
def colVarR (f : Fin P → EReal) (n : EReal) : EReal :=
  Ideal.div (∑ p, (f p - colMean f n) * (f p - colMean f n)) n

/-- Over ℝ: ∑ (a p − m)² = ∑ a p² − P m² for m = (∑ a p) / P, so the two variances agree. -/
theorem real_var_eq (hP : 0 < P) (a : Fin P → ℝ) :
    (∑ p, a p * a p) * (1 / (P : ℝ)) - ((∑ p, a p) * (1 / (P : ℝ))) * ((∑ p, a p) * (1 / (P : ℝ)))
      = (∑ p, (a p - (∑ p, a p) * (1 / (P : ℝ))) * (a p - (∑ p, a p) * (1 / (P : ℝ)))) * (1 / (P : ℝ)) := by
  have hPne : (P : ℝ) ≠ 0 := by exact_mod_cast hP.ne'
  set m : ℝ := (∑ p, a p) * (1 / (P : ℝ)) with hm
  have hS : (∑ p, a p) = (P : ℝ) * m := by rw [hm]; field_simp
  have hexp : ∀ p, (a p - m) * (a p - m) = a p * a p - 2 * m * a p + m * m := fun p => by ring
  have hsum : (∑ p, (a p - m) * (a p - m)) = (∑ p, a p * a p) - 2 * m * (∑ p, a p) + (P : ℝ) * (m * m) := by
    simp only [hexp]
    rw [Finset.sum_add_distrib, Finset.sum_sub_distrib, ← Finset.mul_sum, Finset.sum_const, Finset.card_univ,
      Fintype.card_fin, nsmul_eq_mul]
  rw [hsum, hS]
  field_simp
  ring

/-- The column statistics of a column of real numbers: the mean is a real number and the two variances
    are one nonnegative real number. -/
theorem col_real (hP : 0 < P) (a : Fin P → ℝ) :
    ∃ m v : ℝ, 0 ≤ v ∧ colMean (fun p => (a p : EReal)) ((P : ℝ) : EReal) = (m : EReal)
      ∧ colVarK (fun p => (a p : EReal)) ((P : ℝ) : EReal) = (v : EReal)
      ∧ colVarR (fun p => (a p : EReal)) ((P : ℝ) : EReal) = (v : EReal) := by
  have hPne : (P : ℝ) ≠ 0 := by exact_mod_cast hP.ne'
  have hPpos : (0 : ℝ) < 1 / (P : ℝ) := by positivity
  have hmean : colMean (fun p => (a p : EReal)) ((P : ℝ) : EReal) = (((∑ p, a p) * (1 / (P : ℝ)) : ℝ) : EReal) := by
    rw [colMean, Ideal.div_coe hPne, ← coe_sum, ← EReal.coe_mul]
  refine ⟨(∑ p, a p) * (1 / (P : ℝ)),
    (∑ p, (a p - (∑ p, a p) * (1 / (P : ℝ))) * (a p - (∑ p, a p) * (1 / (P : ℝ)))) * (1 / (P : ℝ)), ?_, hmean, ?_, ?_⟩
  · exact mul_nonneg (Finset.sum_nonneg fun p _ => mul_self_nonneg _) hPpos.le
  · rw [colVarK, hmean, Ideal.div_coe hPne]
    simp only [← EReal.coe_mul]
    rw [← coe_sum, ← EReal.coe_mul, ← EReal.coe_sub, real_var_eq hP a]
  · rw [colVarR, hmean, Ideal.div_coe hPne]
    simp only [← EReal.coe_sub, ← EReal.coe_mul]
    rw [← coe_sum, ← EReal.coe_mul]

/-- The column statistics of a column with an entry -∞ and no entry +∞: the mean is -∞, mean of squares
    minus squared mean is -∞, the mean of squared deviations is +∞. -/
theorem col_bot (hP : 0 < P) (f : Fin P → EReal) (hf : ∀ p, f p ≠ ⊤) {p0 : Fin P} (h0 : f p0 = ⊥) :
    colMean f ((P : ℝ) : EReal) = ⊥ ∧ colVarK f ((P : ℝ) : EReal) = ⊥ ∧ colVarR f ((P : ℝ) : EReal) = ⊤ := by
  have hPne : (P : ℝ) ≠ 0 := by exact_mod_cast hP.ne'
  have hPpos : (0 : ℝ) < 1 / (P : ℝ) := by positivity
  have hmean : colMean f ((P : ℝ) : EReal) = ⊥ := by
    rw [colMean, Ideal.div_coe hPne, sum_eq_bot_of_term _ f (Finset.mem_univ p0) h0, EReal.bot_mul_coe_of_pos hPpos]
  have hsq : ∑ p, f p * f p = ⊤ :=
    sum_eq_top_of_term _ (fun p => f p * f p) (Finset.mem_univ p0) (by simp only [h0, EReal.bot_mul_bot])
      fun p _ => ne_of_gt (lt_of_lt_of_le EReal.bot_lt_zero (ereal_mul_self_nonneg (f p)))
  have hdev : ∀ p, (f p - ⊥) * (f p - ⊥) = ⊤ := by
    intro p
    induction hfp : f p using EReal.rec with
    | bot => simp
    | top => exact absurd hfp (hf p)
    | coe a => rw [EReal.coe_sub_bot, EReal.top_mul_top]
  refine ⟨hmean, ?_, ?_⟩
  · rw [colVarK, hmean, Ideal.div_coe hPne, hsq, EReal.top_mul_coe_of_pos hPpos, EReal.bot_mul_bot, EReal.sub_top]
  · rw [colVarR, hmean, Ideal.div_coe hPne]
    simp only [hdev]
    rw [sum_eq_top_of_term _ (fun _ : Fin P => (⊤ : EReal)) (Finset.mem_univ p0) rfl fun _ _ => by simp,
      EReal.top_mul_coe_of_pos hPpos]

/-- A column with no entry +∞ is a column of real numbers or has an entry -∞. -/
theorem col_cases (f : Fin P → EReal) (hf : ∀ p, f p ≠ ⊤) :
    (∃ a : Fin P → ℝ, f = fun p => (a p : EReal)) ∨ ∃ p0, f p0 = ⊥ := by
  by_cases h : ∃ p0, f p0 = ⊥
  · exact Or.inr h
  · left
    have hr : ∀ p, ∃ r : ℝ, f p = (r : EReal) := fun p => by
      induction hfp : f p using EReal.rec with
      | bot => exact absurd ⟨p, hfp⟩ h
      | top => exact absurd hfp (hf p)
      | coe a => exact ⟨a, rfl⟩
    choose a ha using hr
    exact ⟨a, funext ha⟩

/-- One column: 1 / √(mean of squares − squared mean + ε) = rsqrt (mean of squared deviations + ε), and
    either the mean and this value are real numbers (all entries real) or this value is 0 (an entry -∞). -/
theorem col_invStd (hP : 0 < P) (f : Fin P → EReal) (hf : ∀ p, f p ≠ ⊤) {ε : ℝ} (hε : 0 < ε) :
    Ideal.div 1 (Ideal.sqrt (colVarK f ((P : ℝ) : EReal) + (ε : EReal))) = Ideal.rsqrt (colVarR f ((P : ℝ) : EReal) + (ε : EReal))
      ∧ (((∀ p, IsReal (f p)) ∧ IsReal (colMean f ((P : ℝ) : EReal))
            ∧ IsReal (Ideal.rsqrt (colVarR f ((P : ℝ) : EReal) + (ε : EReal))))
          ∨ Ideal.rsqrt (colVarR f ((P : ℝ) : EReal) + (ε : EReal)) = 0) := by
  rcases col_cases f hf with ⟨a, rfl⟩ | ⟨p0, h0⟩
  · obtain ⟨m, v, hv, hm, hK, hR⟩ := col_real hP a
    have ht : 0 < v + ε := by linarith
    rw [hK, hR, hm, ← EReal.coe_add]
    refine ⟨div_one_sqrt_eq_rsqrt ht, Or.inl ⟨fun p => ⟨a p, rfl⟩, ⟨m, rfl⟩, ?_⟩⟩
    rw [Ideal.rsqrt_coe, if_neg (not_lt.2 ht.le), if_neg ht.ne']
    exact ⟨_, rfl⟩
  · obtain ⟨_, hK, hR⟩ := col_bot hP f hf h0
    rw [hK, hR, EReal.bot_add, EReal.top_add_coe, Ideal.sqrt_bot, Ideal.rsqrt_top]
    refine ⟨?_, Or.inr rfl⟩
    rw [Ideal.div, if_neg EReal.bot_ne_zero, EReal.inv_bot, mul_zero]

/-! ### The whole matrices -/

/-- The mean of every column, kept as a row [1, Q]: (∑ p, x (p, q)) / n. -/
def muOf (x : Mat P Q) (n : EReal) : Mat 1 Q :=
  fun i => Ideal.div (colSum x i) n

/-- Mean of squares minus squared mean, per column. -/
def varKernel (x : Mat P Q) (n : EReal) : Mat 1 Q :=
  fun i => Ideal.div (colSumSq x i) n - muOf x n i * muOf x n i

/-- 1 / √(varKernel + ε), per column. -/
def invStdKernel (x : Mat P Q) (n e : EReal) : Mat 1 Q :=
  fun i => Ideal.div 1 (Ideal.sqrt (varKernel x n i + e))

/-- The deviations x (p, q) − μ q. -/
def centered (x : Mat P Q) (n : EReal) : Mat P Q :=
  fun i => x i - muOf x n (rowOf i)

/-- The mean of the squared deviations, per column. -/
def varRef (x : Mat P Q) (n : EReal) : Mat 1 Q :=
  fun i => Ideal.div (colSumSq (centered x n) i) n

/-- rsqrt (varRef + ε), per column. -/
def invStdRef (x : Mat P Q) (n e : EReal) : Mat 1 Q :=
  fun i => Ideal.rsqrt (varRef x n i + e)

/-- Column q of a matrix. -/
def colFn (x : Mat P Q) (q : Fin Q) : Fin P → EReal := fun p => x (ix2 p q)

theorem muOf_eq (x : Mat P Q) (n : EReal) (i : (⟨2, ![1, Q]⟩ : Shape).Idx) :
    muOf x n i = colMean (colFn x (i 1)) n := rfl

theorem varKernel_eq (x : Mat P Q) (n : EReal) (i : (⟨2, ![1, Q]⟩ : Shape).Idx) :
    varKernel x n i = colVarK (colFn x (i 1)) n := rfl

theorem varRef_eq (x : Mat P Q) (n : EReal) (i : (⟨2, ![1, Q]⟩ : Shape).Idx) :
    varRef x n i = colVarR (colFn x (i 1)) n := rfl

/-- The two inverse standard deviations are the same row. -/
theorem invStd_kernel_eq_ref (hP : 0 < P) (x : Mat P Q) (hx : ∀ i, x i ≠ ⊤) (n e : EReal)
    (hn : n = ((P : ℝ) : EReal)) (he : ∃ ε : ℝ, 0 < ε ∧ e = (ε : EReal)) :
    invStdKernel x n e = invStdRef x n e := by
  obtain ⟨ε, hε, rfl⟩ := he
  subst hn
  funext i
  show Ideal.div 1 (Ideal.sqrt (varKernel x _ i + _)) = Ideal.rsqrt (varRef x _ i + _)
  rw [varKernel_eq, varRef_eq]
  exact (col_invStd hP (colFn x (i 1)) (fun p => hx _) hε).1

/-- The normalised outputs computed with the two inverse standard deviations agree. -/
theorem normRelu_moments_eq (hP : 0 < P) (x : Mat P Q) (hx : ∀ i, x i ≠ ⊤) (n e : EReal)
    (hn : n = ((P : ℝ) : EReal)) (he : ∃ ε : ℝ, 0 < ε ∧ e = (ε : EReal)) (g β : Mat 1 Q)
    (hg : ∀ i, ∃ r : ℝ, g i = r) (hβ : ∀ i, ∃ r : ℝ, β i = r) :
    normRelu x (muOf x n) (invStdKernel x n e) g β = normRelu x (muOf x n) (invStdRef x n e) g β := by
  rw [invStd_kernel_eq_ref hP x hx n e hn he]

/-- The normalised output is a real number in every entry: in a column of real numbers every factor is real,
    and in a column with an entry -∞ the inverse standard deviation is 0, so the entry is max β 0. -/
theorem normRelu_moments_real (hP : 0 < P) (x : Mat P Q) (hx : ∀ i, x i ≠ ⊤) (n e : EReal)
    (hn : n = ((P : ℝ) : EReal)) (he : ∃ ε : ℝ, 0 < ε ∧ e = (ε : EReal)) (g β : Mat 1 Q)
    (hg : ∀ i, ∃ r : ℝ, g i = r) (hβ : ∀ i, ∃ r : ℝ, β i = r) :
    ∀ i, ∃ r : ℝ, normRelu x (muOf x n) (invStdRef x n e) g β i = r := by
  obtain ⟨ε, hε, rfl⟩ := he
  subst hn
  intro i
  obtain ⟨p, q, rfl⟩ : ∃ p q, i = ix2 p q := ⟨i 0, i 1, eq_ix2 i⟩
  rw [normRelu_ix2]
  have hmu : muOf x ((P : ℝ) : EReal) (ix2 (0 : Fin 1) q) = colMean (colFn x q) ((P : ℝ) : EReal) := rfl
  have hr : invStdRef x ((P : ℝ) : EReal) (ε : EReal) (ix2 (0 : Fin 1) q)
      = Ideal.rsqrt (colVarR (colFn x q) ((P : ℝ) : EReal) + (ε : EReal)) := rfl
  rw [hmu, hr]
  rcases (col_invStd hP (colFn x q) (fun p => hx _) hε).2 with ⟨hxr, hm, hrr⟩ | h0
  · exact IsReal.max (((isReal_sub (hxr p) hm).mul hrr).mul (hg _) |>.add (hβ _)) IsReal.zero
  · rw [h0, mul_zero, zero_mul, zero_add]
    exact IsReal.max (hβ _) IsReal.zero

end GcnBn

end
-- ==== Proof.LibHostIndexingReal.lean ====
/-
  The host's gather and accumulating scatter keep an array of real numbers real, at the ideal instance.

  `stablehlo.gather` reads, at every result index, ONE element of its operand (the start index read signed and clamped so
  that the slice fits), so a gather of an array of real numbers holds real numbers whatever the integer indices are.
  An accumulating float scatter is, at the ideal instance, each operand element plus the finite sum of the update elements
  whose index lands on it (an update landing outside the operand contributes nothing), so it too holds real numbers when
  the operand and the updates do — again whatever the integer indices are. Together: a segment sum of rows gathered from a
  finite table is finite, with no precondition on the edge lists.
-/
import proofs.«107691_j23957327577190_1_alg».proof.Proof.LibErealAlgebra
import Idealize.ShloMosaic.PureOps.Contract
import Idealize.ShloMosaic.PureOps.ShapeOps
import Idealize.ShloMosaic.PureOps.Ideal

noncomputable section

namespace ErealAlgebra

open Idealize.ShloMosaic

/-- A gather of real numbers is real, at every result index and for every array of start indices. -/
theorem gather_isReal {s si t : Shape} {w : Nat} (d : GatherDims s si t) (x : s.Idx → EReal) (idx : IVec si w)
    (hx : ∀ i, IsReal (x i)) (j : t.Idx) : IsReal (Host.gather d x idx j) :=
  hx _

/-- An accumulating scatter of real updates into a real operand is real, at every index and for every array of scatter
    indices. -/
theorem scatterAdd_isReal {s si u : Shape} {w : Nat} {φ : FTy} (d : ScatterDims s si u) (x : FVec Ideal s φ) (idx : IVec si w)
    (upd : FVec Ideal u φ) (hx : ∀ i, IsReal (x i)) (hu : ∀ j, IsReal (upd j)) (i : s.Idx) :
    IsReal (Host.scatterAdd d x idx upd i) := by
  show IsReal (x i + ∑ j ∈ Finset.univ.filter (fun j => d.resultIdx? j idx = some i), upd j)
  exact (hx i).add (IsReal.sum _ _ fun j _ => hu j)

/-- A contraction of real factors — the sum over a finite index type of products — is real: every element of a matrix
    product of real matrices. -/
theorem sum_mul_isReal {κ : Type*} [Fintype κ] (l r : κ → EReal) (hl : ∀ k, IsReal (l k)) (hr : ∀ k, IsReal (r k)) :
    IsReal (∑ k, l k * r k) :=
  IsReal.sum _ _ fun k _ => (hl k).mul (hr k)

end ErealAlgebra

end
-- ==== Proof.KernelIdealHostFacts.lean ====
/-
  Facts about the plain array arithmetic between the kernel regions, at the extended reals.

  * The float words the program prints, read as extended reals: 100000, a positive ε (about 10⁻⁵), 1, −1/2, and the
    fill word of an out-of-range take, which denotes no real number and reads -∞.
  * kMeanRow and kInvRow of a matrix's column sums and column sums of squares are the mean row and the
    inverse-standard-deviation row of batch normalisation (GcnBn.muOf, GcnBn.invStdKernel) at n = 100000 and that ε.
  * The degree normalisation kNorm idx is a nonnegative real number at every node, for ANY index array: a degree is 0 plus
    a finite sum of ones, the guard replaces a degree below 1 by 1, and a real ≥ 1 to the power −1/2 is a real ≥ 0.
  * An aggregated entry kAgg h src dst i of a table h of real numbers is never +∞, for ANY source and destination arrays:
    it is 0 plus a finite sum of entries each of which is an entry of h or the fill -∞.
-/
import proofs.«107691_j23957327577190_1_alg».proof.Proof.KernelIdealHostDefs
import proofs.«107691_j23957327577190_1_alg».proof.Proof.LibBatchNormMoments
import proofs.«107691_j23957327577190_1_alg».proof.Proof.LibHostIndexingReal
import Idealize.ShloMosaic.Lib.IdealHost

noncomputable section

namespace Cert.KernelIdeal.Hand

open Idealize.ShloMosaic Idealize.ShloMosaic.ValueIdx ErealAlgebra
open Cert.KernelIdeal Cert.KernelIdeal.Gen

/-! ### The printed float words as extended reals -/

/-- The word the program divides the column sums by. -/
def n1e5 : EReal := Ideal.ofBits .f32 0x47C35000#32

/-- The word the program adds to the variance. -/
def bnEps : EReal := Ideal.ofBits .f32 0x3727C5AC#32

theorem word_1e5 : Ideal.ofBits .f32 0x47C35000#32 = ((100000 : ℝ) : EReal) := by
  simp [Ideal.ofBits, Ideal.ieee, -EReal.coe_mul] <;> norm_num

theorem word_eps : Ideal.ofBits .f32 0x3727C5AC#32 = (((10995116 : ℝ) * 2 ^ (-40 : ℤ) : ℝ) : EReal) := by
  simp [Ideal.ofBits, Ideal.ieee, -EReal.coe_mul] <;> norm_num

theorem word_neg_half : Ideal.ofBits .f32 0xBF000000#32 = ((-(1 / 2) : ℝ) : EReal) := by
  simp [Ideal.ofBits, Ideal.ieee, -EReal.coe_mul, -EReal.coe_neg] <;> norm_num

theorem word_fill : Ideal.ofBits .f32 0x7FC00000#32 = ⊥ := by
  simp [Ideal.ofBits, Ideal.ieee]

/-- The divisor is the number of rows, 100000. -/
theorem n1e5_eq : n1e5 = (((100000 : ℕ) : ℝ) : EReal) := by
  rw [n1e5, word_1e5]; norm_num

/-- The added word is a positive real number. -/
theorem bnEps_pos : ∃ ε : ℝ, 0 < ε ∧ bnEps = (ε : EReal) :=
  ⟨(10995116 : ℝ) * 2 ^ (-40 : ℤ), by positivity, word_eps⟩

/-- A float word broadcast to any shape reads, at every index, the extended real the word denotes. -/
theorem bcastConst_apply {T : Shape} (h : S_.BroadcastsInDim T ![]) (b : BitVec 32) (j : T.Idx) :
    broadcastInDim T ![] h (constant (F := Ideal) S_ .f32 b) j = Ideal.ofBits .f32 b :=
  (broadcastInDim_scalar_apply h _ j).trans rfl

/-! ### The moments of batch normalisation -/

/-- Entry q of the mean vector: the q-th sum divided by the number of rows. -/
theorem kMeanVec_ix1 (s : FVec Ideal S1x128 .f32) (q : Fin 128) :
    kMeanVec s (ix1 q) = Ideal.div (s (ix2 (0 : Fin 1) q)) n1e5 := by
  unfold kMeanVec
  rw [hostDivf_apply, vecOfRow_ix1, bcastConst_apply]
  rfl

/-- The mean row the program computes from the column sums is the mean row of batch normalisation. -/
theorem kMeanRow_colSum (x : GcnBn.Mat 100000 128) : kMeanRow (GcnBn.colSum x) = GcnBn.muOf x n1e5 := by
  funext i
  obtain ⟨u, q, rfl⟩ : ∃ u q, i = ix2 u q := ⟨i 0, i 1, eq_ix2 i⟩
  unfold kMeanRow
  rw [rowOfVec_ix2, kMeanVec_ix1]
  rfl

/-- The row 1 / √(mean of squares − squared mean + ε) the program computes from the column sums and the column sums of
    squares is the inverse-standard-deviation row of batch normalisation. -/
theorem kInvRow_colSum (x : GcnBn.Mat 100000 128) :
    kInvRow (GcnBn.colSum x) (GcnBn.colSumSq x) = GcnBn.invStdKernel x n1e5 bnEps := by
  funext i
  obtain ⟨u, q, rfl⟩ : ∃ u q, i = ix2 u q := ⟨i 0, i 1, eq_ix2 i⟩
  unfold kInvRow
  rw [rowOfVec_ix2, hostDivf_apply, bcastConst_apply, Ideal.ofBits_one_f32]
  show Ideal.div 1 (Ideal.sqrt (kMeanVec (GcnBn.colSumSq x) (ix1 q)
      - kMeanVec (GcnBn.colSum x) (ix1 q) * kMeanVec (GcnBn.colSum x) (ix1 q)
      + broadcastInDim S128 ![] bcast_S_S128 (constant (F := Ideal) S_ .f32 0x3727C5AC#32) (ix1 q))) = _
  rw [bcastConst_apply, kMeanVec_ix1, kMeanVec_ix1]
  rfl

/-! ### The degree normalisation is a nonnegative real number -/

/-- A degree is a real number: zero plus a finite sum of ones. -/
theorem kDeg_isReal (idx : IVec S1600000 32) (i : S100000.Idx) : IsReal (kDeg idx i) := by
  unfold kDeg
  refine scatterAdd_isReal _ _ _ _ (fun i => ?_) (fun j => ?_) i
  · rw [bcastConst_apply, Ideal.ofBits_zero_f32]; exact IsReal.zero
  · rw [bcastConst_apply, Ideal.ofBits_one_f32]; exact IsReal.one

/-- The guard: a degree below 1 is replaced by 1. -/
theorem kDegGuard_apply (d : FVec Ideal S100000 .f32) (i : S100000.Idx) :
    kDegGuard d i = if d i < 1 then 1 else d i := by
  unfold kDegGuard kDegLow
  show Scalar.select (Ideal.cmp .olt (d i)
      (broadcastInDim S100000 ![] bcast_S_S100000 (constant (F := Ideal) S_ .f32 0x3F800000#32) i))
      (broadcastInDim S100000 ![] bcast_S_S100000 (constant (F := Ideal) S_ .f32 0x3F800000#32) i) (d i) = _
  rw [bcastConst_apply, Ideal.ofBits_one_f32]
  unfold Scalar.select Ideal.cmp
  by_cases h : d i < 1 <;> simp [h]

/-- The host's power at an index is the power of the elements. -/
theorem hostPowf_apply {s : Shape} {φ : FTy} (x y : FVec Ideal s φ) (i : s.Idx) :
    Host.powf x y i = Ideal.pow (x i) (y i) := rfl

/-- The degree normalisation is a nonnegative real number at every node, whatever the index array. -/
theorem kNorm_nonneg_real (idx : IVec S1600000 32) (i : S100000.Idx) : ∃ r : ℝ, 0 ≤ r ∧ kNorm idx i = (r : EReal) := by
  obtain ⟨d, hd⟩ := kDeg_isReal idx i
  have hg : ∃ g : ℝ, 0 ≤ g ∧ kDegGuard (kDeg idx) i = (g : EReal) := by
    rw [kDegGuard_apply, hd]
    by_cases h : (d : EReal) < 1
    · rw [if_pos h]; exact ⟨1, zero_le_one, EReal.coe_one.symm⟩
    · rw [if_neg h]
      have h1 : (1 : ℝ) ≤ d := by
        have : ((1 : ℝ) : EReal) ≤ (d : EReal) := by rw [EReal.coe_one]; exact not_lt.1 h
        exact EReal.coe_le_coe_iff.1 this
      exact ⟨d, by linarith, rfl⟩
  obtain ⟨g, hg0, hg⟩ := hg
  rw [kNorm, hostPowf_apply, bcastConst_apply, word_neg_half, hg, Ideal.pow_coe_coe]
  exact ⟨_, Real.rpow_nonneg hg0 _, rfl⟩

/-! ### An aggregated entry is never +∞ -/

/-- A finite sum of terms none of which is +∞ is not +∞. -/
theorem sum_ne_top {ι : Type*} (s : Finset ι) (f : ι → EReal) (hf : ∀ i ∈ s, f i ≠ ⊤) : ∑ i ∈ s, f i ≠ ⊤ := by
  classical
  induction s using Finset.induction_on with
  | empty => simp
  | insert a s ha ih =>
    rw [Finset.sum_insert ha]
    exact EReal.add_ne_top (hf a (Finset.mem_insert_self a s)) (ih fun i hi => hf i (Finset.mem_insert_of_mem hi))

/-- An accumulating scatter of updates none of which is +∞ into an operand none of whose entries is +∞ has no entry +∞,
    for every array of scatter indices. -/
theorem scatterAdd_ne_top {s si u : Shape} {w : Nat} {φ : FTy} (d : ScatterDims s si u) (x : FVec Ideal s φ)
    (idx : IVec si w) (upd : FVec Ideal u φ) (hx : ∀ i, x i ≠ ⊤) (hu : ∀ j, upd j ≠ ⊤) (i : s.Idx) :
    Host.scatterAdd d x idx upd i ≠ ⊤ := by
  show x i + ∑ j ∈ Finset.univ.filter (fun j => d.resultIdx? j idx = some i), upd j ≠ ⊤
  exact EReal.add_ne_top (hx i) (sum_ne_top _ _ fun j _ => hu j)

/-- A taken entry is an entry of the table or the fill -∞: never +∞ when the table holds real numbers. -/
theorem kTake128_ne_top (h : FVec Ideal S100000x128 .f32) (hh : ∀ i, ∃ r : ℝ, h i = (r : EReal)) (src : IVec S1600000 32)
    (j : S1600000x128.Idx) : kTake128 h src j ≠ ⊤ := by
  have hk : kTake128 h src j = Scalar.select
      (broadcastInDim S1600000x128 ![0] bcast_S1600000_S1600000x128_0 (kTakeOk src) j)
      (Host.gather gather_S100000x128_S1600000x1_S1600000x128_1_0_n_n_0_1_1128 h (kTakeIdx src) j)
      (broadcastInDim S1600000x128 ![] bcast_S_S1600000x128 (constant (F := Ideal) S_ .f32 0x7FC00000#32) j) := rfl
  rw [hk, bcastConst_apply, word_fill]
  unfold Scalar.select
  split
  · obtain ⟨r, hr⟩ := gather_isReal gather_S100000x128_S1600000x1_S1600000x128_1_0_n_n_0_1_1128 h (kTakeIdx src) hh j
    rw [hr]; exact EReal.coe_ne_top r
  · exact bot_ne_top

/-- The same with 40 features. -/
theorem kTake40_ne_top (h : FVec Ideal S100000x40 .f32) (hh : ∀ i, ∃ r : ℝ, h i = (r : EReal)) (src : IVec S1600000 32)
    (j : S1600000x40.Idx) : kTake40 h src j ≠ ⊤ := by
  have hk : kTake40 h src j = Scalar.select
      (broadcastInDim S1600000x40 ![0] bcast_S1600000_S1600000x40_0 (kTakeOk src) j)
      (Host.gather gather_S100000x40_S1600000x1_S1600000x40_1_0_n_n_0_1_140 h (kTakeIdx src) j)
      (broadcastInDim S1600000x40 ![] bcast_S_S1600000x40 (constant (F := Ideal) S_ .f32 0x7FC00000#32) j) := rfl
  rw [hk, bcastConst_apply, word_fill]
  unfold Scalar.select
  split
  · obtain ⟨r, hr⟩ := gather_isReal gather_S100000x40_S1600000x1_S1600000x40_1_0_n_n_0_1_140 h (kTakeIdx src) hh j
    rw [hr]; exact EReal.coe_ne_top r
  · exact bot_ne_top

/-- The rows added up per node have no entry +∞ when the rows have none. -/
theorem kScat128_ne_top (u : FVec Ideal S1600000x128 .f32) (hu : ∀ j, u j ≠ ⊤) (dst : IVec S1600000 32)
    (i : S100000x128.Idx) : kScat128 u dst i ≠ ⊤ := by
  unfold kScat128
  refine scatterAdd_ne_top _ _ _ _ (fun i => ?_) hu i
  rw [bcastConst_apply, Ideal.ofBits_zero_f32]; exact EReal.zero_ne_top

/-- The same with 40 features. -/
theorem kScat40_ne_top (u : FVec Ideal S1600000x40 .f32) (hu : ∀ j, u j ≠ ⊤) (dst : IVec S1600000 32)
    (i : S100000x40.Idx) : kScat40 u dst i ≠ ⊤ := by
  unfold kScat40
  refine scatterAdd_ne_top _ _ _ _ (fun i => ?_) hu i
  rw [bcastConst_apply, Ideal.ofBits_zero_f32]; exact EReal.zero_ne_top

/-- An aggregated entry of a table of real numbers is never +∞, whatever the edge arrays. -/
theorem kAgg128_ne_top (h : FVec Ideal S100000x128 .f32) (hh : ∀ i, ∃ r : ℝ, h i = (r : EReal))
    (src dst : IVec S1600000 32) (i : S100000x128.Idx) : kAgg128 h src dst i ≠ ⊤ :=
  kScat128_ne_top _ (kTake128_ne_top h hh src) dst i

/-- The same with 40 features. -/
theorem kAgg40_ne_top (h : FVec Ideal S100000x40 .f32) (hh : ∀ i, ∃ r : ℝ, h i = (r : EReal))
    (src dst : IVec S1600000 32) (i : S100000x40.Idx) : kAgg40 h src dst i ≠ ⊤ :=
  kScat40_ne_top _ (kTake40_ne_top h hh src) dst i

end Cert.KernelIdeal.Hand

end
-- ==== Proof.HostChainsSame.lean ====
import proofs.«107691_j23957327577190_1_alg».proof.Proof.KernelIdealHostDefs
import proofs.«107691_j23957327577190_1_alg».proof.Proof.RefRunDefs
import proofs.«107691_j23957327577190_1_alg».proof.Proof.Gen.ReferenceIdeal

/-!
  The array arithmetic between the kernel regions and the reference's array arithmetic are the same functions.

  Both programs list the same operations on the same shapes with the same dimension numbers: the degree of every
  node (ones added up at the given node indices), its guarded power −1/2, the rows taken along the edge sources, and
  their sums at the edge destinations. Each equation below sets one function of the first program beside the
  function of the second that lists the same operations; the shapes and dimension numbers of the two programs are
  separately named but are the same values, so each equation holds by unfolding the names.
-/

noncomputable section

namespace Cert.Proof.HostChains

open Idealize.ShloMosaic

-- the equations compare the operations' ARGUMENTS; what the operations compute over 1600000 edges is never unfolded
attribute [local irreducible] Host.reduce Host.scatterAdd Host.gather Host.powf

/-- The degrees. -/
theorem deg_same (idx : IVec Cert.KernelIdeal.S1600000 32) :
    Cert.KernelIdeal.Hand.kDeg idx = Cert.ReferenceIdeal.Hand.degOf idx := rfl

/-- The guarded degrees to the power −1/2. -/
theorem norm_same (idx : IVec Cert.KernelIdeal.S1600000 32) :
    Cert.KernelIdeal.Hand.kNorm idx = Cert.ReferenceIdeal.Hand.normOf idx := rfl

/-- The wrapped edge sources as a column of start indices. -/
theorem takeIdx_same (src : IVec Cert.KernelIdeal.S1600000 32) :
    Cert.KernelIdeal.Hand.kTakeIdx src = Cert.ReferenceIdeal.Hand.takeIdxCol src := rfl

/-- Which wrapped sources are in range. -/
theorem takeOk_same (src : IVec Cert.KernelIdeal.S1600000 32) :
    Cert.KernelIdeal.Hand.kTakeOk src = Cert.ReferenceIdeal.Hand.takeValid src := rfl

/-- The rows taken along the edge sources, 128 features. -/
theorem take128_same (h : FVec Ideal Cert.KernelIdeal.S100000x128 .f32) (src : IVec Cert.KernelIdeal.S1600000 32) :
    Cert.KernelIdeal.Hand.kTake128 h src = Cert.ReferenceIdeal.Hand.takeRows128 h src := rfl

/-- The rows taken along the edge sources, 40 features. -/
theorem take40_same (h : FVec Ideal Cert.KernelIdeal.S100000x40 .f32) (src : IVec Cert.KernelIdeal.S1600000 32) :
    Cert.KernelIdeal.Hand.kTake40 h src = Cert.ReferenceIdeal.Hand.takeRows40 h src := rfl

/-- The taken rows added up per destination, 128 features. -/
theorem agg128_same (h : FVec Ideal Cert.KernelIdeal.S100000x128 .f32) (src dst : IVec Cert.KernelIdeal.S1600000 32) :
    Cert.KernelIdeal.Hand.kAgg128 h src dst
      = Cert.ReferenceIdeal.Hand.aggregate128 (Cert.ReferenceIdeal.Hand.takeRows128 h src) dst := rfl

/-- The taken rows added up per destination, 40 features. -/
theorem agg40_same (h : FVec Ideal Cert.KernelIdeal.S100000x40 .f32) (src dst : IVec Cert.KernelIdeal.S1600000 32) :
    Cert.KernelIdeal.Hand.kAgg40 h src dst
      = Cert.ReferenceIdeal.Hand.aggregate40 (Cert.ReferenceIdeal.Hand.takeRows40 h src) dst := rfl

end Cert.Proof.HostChains

end
-- ==== Proof.LibHostRead.lean ====
/-
  The host's layout operations and column sums of a graph-convolution layer, read at an index.

  A per-node vector [P] enters a [P, Q] computation as a column: it is first laid out as [P, 1] (entry p at (p, 0)) and
  that column is then repeated along every row, so the result at (p, q) is entry p. A per-feature vector [Q] enters as a
  row: first laid out as [1, Q], then repeated down every column, so the result at (p, q) is entry q. The sum of a
  [P, Q] matrix over its first axis, from an initial value, is at q the initial value plus the sum over p of the entries
  (p, q). The product of a [P, K] matrix by a [K, Q] matrix is at (p, q) the sum over k of the products of the entries
  (p, k) and (k, q), whatever the proof of well-formedness its dimension numbers carry.
-/
import proofs.«107691_j23957327577190_1_alg».proof.Proof.LibGcnBnVec
import proofs.«107691_j23957327577190_1_alg».proof.Proof.LibBatchNormMoments
import Idealize.ShloMosaic.Lib.IdealHost
import Idealize.ShloMosaic.Lib.Pipeline.Value
import Idealize.ShloMosaic.Lib.KernelVsHost
import Idealize.ShloMosaic.Lib.StackMember

noncomputable section

namespace GcnBn

open Idealize.ShloMosaic Idealize.ShloMosaic.ValueIdx

variable {α : Type} {P K Q : Nat}

/-- A vector laid out as a column: entry p at (p, 0). -/
theorem vecToCol_apply (h : (⟨1, ![P]⟩ : Shape).BroadcastsInDim ⟨2, ![P, 1]⟩ ![0]) (v : (⟨1, ![P]⟩ : Shape).Idx → α)
    (p : Fin P) (u : Fin 1) : broadcastInDim ⟨2, ![P, 1]⟩ ![0] h v (ix2 p u) = v (ix1 p) := by
  refine broadcastInDim_apply ![0] h v (ix2 p u) (ix1 p) ?_
  intro a
  match a with
  | ⟨0, _⟩ =>
    show p.val = if P = 1 then 0 else p.val
    split
    · have := p.isLt; omega
    · rfl

/-- A column repeated along every row: at (p, q) the column's entry (p, 0). -/
theorem colToLanes_apply (h : (⟨2, ![P, 1]⟩ : Shape).BroadcastsInDim ⟨2, ![P, Q]⟩ ![0, 1])
    (y : (⟨2, ![P, 1]⟩ : Shape).Idx → α) (p : Fin P) (q : Fin Q) :
    broadcastInDim ⟨2, ![P, Q]⟩ ![0, 1] h y (ix2 p q) = y (ix2 p (0 : Fin 1)) := by
  refine broadcastInDim_apply ![0, 1] h y (ix2 p q) (ix2 p (0 : Fin 1)) ?_
  intro a
  match a with
  | ⟨0, _⟩ =>
    show p.val = if P = 1 then 0 else p.val
    split
    · have := p.isLt; omega
    · rfl
  | ⟨1, _⟩ =>
    show (0 : ℕ) = if (1 : ℕ) = 1 then 0 else q.val
    rfl

/-- A vector laid out as a row: entry q at (0, q). -/
theorem vecToRow_apply (h : (⟨1, ![Q]⟩ : Shape).BroadcastsInDim ⟨2, ![1, Q]⟩ ![1]) (v : (⟨1, ![Q]⟩ : Shape).Idx → α)
    (u : Fin 1) (q : Fin Q) : broadcastInDim ⟨2, ![1, Q]⟩ ![1] h v (ix2 u q) = v (ix1 q) := by
  refine broadcastInDim_apply ![1] h v (ix2 u q) (ix1 q) ?_
  intro a
  match a with
  | ⟨0, _⟩ =>
    show q.val = if Q = 1 then 0 else q.val
    split
    · have := q.isLt; omega
    · rfl

/-- A per-node vector repeated along every row of a [P, Q] matrix: at (p, q), entry p. -/
theorem vecColLanes_apply (h1 : (⟨1, ![P]⟩ : Shape).BroadcastsInDim ⟨2, ![P, 1]⟩ ![0])
    (h2 : (⟨2, ![P, 1]⟩ : Shape).BroadcastsInDim ⟨2, ![P, Q]⟩ ![0, 1]) (v : (⟨1, ![P]⟩ : Shape).Idx → α) (p : Fin P) (q : Fin Q) :
    broadcastInDim ⟨2, ![P, Q]⟩ ![0, 1] h2 (broadcastInDim ⟨2, ![P, 1]⟩ ![0] h1 v) (ix2 p q) = v (ix1 p) :=
  (colToLanes_apply h2 _ p q).trans (vecToCol_apply h1 v p 0)

/-- A per-feature vector repeated down every column of a [P, Q] matrix: at (p, q), entry q. -/
theorem vecRowRows_apply (h1 : (⟨1, ![Q]⟩ : Shape).BroadcastsInDim ⟨2, ![1, Q]⟩ ![1])
    (h2 : (⟨2, ![1, Q]⟩ : Shape).BroadcastsInDim ⟨2, ![P, Q]⟩ ![0, 1]) (v : (⟨1, ![Q]⟩ : Shape).Idx → α) (p : Fin P) (q : Fin Q) :
    broadcastInDim ⟨2, ![P, Q]⟩ ![0, 1] h2 (broadcastInDim ⟨2, ![1, Q]⟩ ![1] h1 v) (ix2 p q) = v (ix1 q) :=
  (broadcastInDim_oneRow_apply h2 _ p q).trans (vecToRow_apply h1 v 0 q)

/-- The host's sum of a [P, Q] matrix over its first axis, at q: the initial value plus the sum over p of the entries (p, q). -/
theorem hostColSum_apply {φ : FTy} {u : Shape} (x : FVec Ideal ⟨2, ![P, Q]⟩ φ) (init : u.Idx → Ideal φ)
    (h : (⟨2, ![P, Q]⟩ : Shape).ReducesTo [0] ⟨1, ![Q]⟩) (hu : 0 < u.numel) (q : Fin Q) :
    Host.reduceAdd x init h hu (ix1 q) = init (Shape.Idx.first hu) + ∑ p : Fin P, x (ix2 p q) := by
  have h2 : (⟨2, ![P, Q]⟩ : Shape).Reduces [0] ⟨1, ![Q]⟩ := ⟨h.1, Nat.one_pos, h.2⟩
  show Ideal.hostReduceAdd h x _ (ix1 q) = _
  rw [Ideal.hostReduceAdd_single h h2]
  refine congrArg (_ + ·) (Finset.sum_congr rfl fun k _ => ?_)
  refine congrArg x (funext fun a => Fin.ext ?_)
  match a with
  | ⟨0, _⟩ => rfl
  | ⟨1, _⟩ => rfl

/-- The host's product of a [P, K] by a [K, Q] matrix, contracting the second axis of the first with the first axis of
    the second, at (p, q): the sum over k of the products of the entries (p, k) and (k, q). -/
theorem hostMatMul_apply {φ₁ φ₂ : FTy}
    (w : DotDims.WF ⟨2, ![P, K]⟩ ⟨2, ![K, Q]⟩ ⟨2, ![P, Q]⟩ [1] [0] [0] [1] [] [])
    (prec : Option ContractPrecision) (A : FVec Ideal ⟨2, ![P, K]⟩ φ₁) (B : FVec Ideal ⟨2, ![K, Q]⟩ φ₂) (p : Fin P) (q : Fin Q) :
    Host.dotGeneral (⟨[1], [0], [0], [1], [], [], w⟩ : DotDims _ _ _) prec A B (ix2 p q) = ∑ k : Fin K, A (ix2 p k) * B (ix2 k q) :=
  StackMember.dotGeneral_plain_apply prec A B p q

/-! ### The pointwise stages of a convolution -/

section Conv

variable (hc1 : (⟨1, ![P]⟩ : Shape).BroadcastsInDim ⟨2, ![P, 1]⟩ ![0])
  (hc2 : (⟨2, ![P, 1]⟩ : Shape).BroadcastsInDim ⟨2, ![P, Q]⟩ ![0, 1])
  (hr1 : (⟨1, ![Q]⟩ : Shape).BroadcastsInDim ⟨2, ![1, Q]⟩ ![1])
  (hr2 : (⟨2, ![1, Q]⟩ : Shape).BroadcastsInDim ⟨2, ![P, Q]⟩ ![0, 1])

/-- A per-node vector repeated along every row, as the host lays it out. -/
def hostColLanes (v : Vec1 P) : Mat P Q :=
  broadcastInDim ⟨2, ![P, Q]⟩ ![0, 1] hc2 (broadcastInDim ⟨2, ![P, 1]⟩ ![0] hc1 v)

/-- A per-feature vector repeated down every column, as the host lays it out. -/
def hostRowRows (v : Vec1 Q) : Mat P Q :=
  broadcastInDim ⟨2, ![P, Q]⟩ ![0, 1] hr2 (broadcastInDim ⟨2, ![1, Q]⟩ ![1] hr1 v)

theorem hostColLanes_ix2 (v : Vec1 P) (p : Fin P) (q : Fin Q) : hostColLanes hc1 hc2 v (ix2 p q) = v (ix1 p) :=
  vecColLanes_apply hc1 hc2 v p q

theorem hostRowRows_ix2 (v : Vec1 Q) (p : Fin P) (q : Fin Q) : hostRowRows hr1 hr2 v (ix2 p q) = v (ix1 q) :=
  vecRowRows_apply hr1 hr2 v p q

/-- The host's product of the features by the weights, each node's row scaled by a per-node vector. -/
theorem hostProjScaled_eq (w : DotDims.WF ⟨2, ![P, K]⟩ ⟨2, ![K, Q]⟩ ⟨2, ![P, Q]⟩ [1] [0] [0] [1] [] [])
    (a : Mat P K) (W : Mat K Q) (s : Vec1 P) :
    mulf (F := Ideal) (φ := .f32)
        (Host.dotGeneral (F := Ideal) (φ₁ := .f32) (φ₂ := .f32) (⟨[1], [0], [0], [1], [], [], w⟩ : DotDims _ _ _) none a W)
        (hostColLanes hc1 hc2 s)
      = prodScaled a W (asCol s) := by
  funext i
  obtain ⟨p, q, rfl⟩ : ∃ (p : Fin P) (q : Fin Q), i = ix2 p q := ⟨i 0, i 1, eq_ix2 i⟩
  rw [prodScaled_ix2, asCol_ix2]
  exact congrArg₂ (· * ·) (hostMatMul_apply w none a W p q) (hostColLanes_ix2 hc1 hc2 s p q)

/-- The host's rescaling of every node's row by a per-node vector, plus a per-feature row. -/
theorem hostScaleBias_eq (x : Mat P Q) (s : Vec1 P) (b : Vec1 Q) :
    addf (F := Ideal) (φ := .f32) (mulf (F := Ideal) (φ := .f32) x (hostColLanes hc1 hc2 s)) (hostRowRows hr1 hr2 b)
      = scaleBias x (asCol s) (asRow b) := by
  funext i
  obtain ⟨p, q, rfl⟩ : ∃ (p : Fin P) (q : Fin Q), i = ix2 p q := ⟨i 0, i 1, eq_ix2 i⟩
  rw [scaleBias_ix2, asCol_ix2, asRow_ix2]
  exact congrArg₂ (· + ·) (congrArg (x (ix2 p q) * ·) (hostColLanes_ix2 hc1 hc2 s p q)) (hostRowRows_ix2 hr1 hr2 b p q)

end Conv

/-! ### Batch normalisation followed by the maximum with zero, in host operations -/

section BatchNorm

variable (hred : (⟨2, ![P, Q]⟩ : Shape).ReducesTo [0] ⟨1, ![Q]⟩) (hu : 0 < (⟨0, ![]⟩ : Shape).numel)
  (hbq : (⟨0, ![]⟩ : Shape).BroadcastsInDim ⟨1, ![Q]⟩ ![]) (hbpq : (⟨0, ![]⟩ : Shape).BroadcastsInDim ⟨2, ![P, Q]⟩ ![])
  (hr1 : (⟨1, ![Q]⟩ : Shape).BroadcastsInDim ⟨2, ![1, Q]⟩ ![1])
  (hr2 : (⟨2, ![1, Q]⟩ : Shape).BroadcastsInDim ⟨2, ![P, Q]⟩ ![0, 1])
  (nw ew : BitVec 32)

/-- The mean of each column as the host computes it: the column sums from zero, divided by the broadcast word `nw`. -/
def hostColMean (x : Mat P Q) : Vec1 Q :=
  Host.divf (F := Ideal) (φ := .f32)
    (Host.reduceAdd (F := Ideal) (φ := .f32) x (constant (F := Ideal) ⟨0, ![]⟩ .f32 0x00000000#32) hred hu)
    (broadcastInDim ⟨1, ![Q]⟩ ![] hbq (constant (F := Ideal) ⟨0, ![]⟩ .f32 nw))

/-- Each entry minus its column's mean. -/
def hostCentred (x : Mat P Q) : Mat P Q :=
  subf (F := Ideal) (φ := .f32) x (hostRowRows hr1 hr2 (hostColMean hred hu hbq nw x))

/-- The mean of the squared deviations of each column. -/
def hostColVar (x : Mat P Q) : Vec1 Q :=
  hostColMean hred hu hbq nw
    (mulf (F := Ideal) (φ := .f32) (hostCentred hred hu hbq hr1 hr2 nw x) (hostCentred hred hu hbq hr1 hr2 nw x))

/-- Normalise by the reciprocal square root of the variance plus the word `ew`, scale, shift, clamp below at zero. -/
def hostBnRelu (x : Mat P Q) (g be : Vec1 Q) : Mat P Q :=
  maximumf (F := Ideal) (φ := .f32)
    (addf (F := Ideal) (φ := .f32)
      (mulf (F := Ideal) (φ := .f32)
        (mulf (F := Ideal) (φ := .f32) (hostCentred hred hu hbq hr1 hr2 nw x)
          (hostRowRows hr1 hr2
            (Host.rsqrt (F := Ideal) (φ := .f32)
              (addf (F := Ideal) (φ := .f32) (hostColVar hred hu hbq hr1 hr2 nw x)
                (broadcastInDim ⟨1, ![Q]⟩ ![] hbq (constant (F := Ideal) ⟨0, ![]⟩ .f32 ew))))))
        (hostRowRows hr1 hr2 g))
      (hostRowRows hr1 hr2 be))
    (broadcastInDim ⟨2, ![P, Q]⟩ ![] hbpq (constant (F := Ideal) ⟨0, ![]⟩ .f32 0x00000000#32))

theorem hostColMean_ix1 (x : Mat P Q) (q : Fin Q) :
    hostColMean hred hu hbq nw x (ix1 q) = muOf x (Ideal.ofBits .f32 nw) (ix2 (0 : Fin 1) q) := by
  unfold hostColMean
  rw [hostDivf_apply, hostColSum_apply, broadcastInDim_scalar_apply, constant_apply, constant_apply, Ideal.ofBits_zero_f32,
    zero_add]
  rfl

theorem hostCentred_eq (x : Mat P Q) :
    hostCentred hred hu hbq hr1 hr2 nw x = centered x (Ideal.ofBits .f32 nw) := by
  funext i
  obtain ⟨p, q, rfl⟩ : ∃ (p : Fin P) (q : Fin Q), i = ix2 p q := ⟨i 0, i 1, eq_ix2 i⟩
  unfold hostCentred
  rw [subf_apply, hostRowRows_ix2, hostColMean_ix1]
  rfl

theorem hostColVar_ix1 (x : Mat P Q) (q : Fin Q) :
    hostColVar hred hu hbq hr1 hr2 nw x (ix1 q) = varRef x (Ideal.ofBits .f32 nw) (ix2 (0 : Fin 1) q) := by
  unfold hostColVar
  rw [hostColMean_ix1, hostCentred_eq]
  rfl

/-- The host's batch normalisation and clamp is the whole-array normalisation with the mean and the reciprocal
    deviation computed from the deviations. -/
theorem hostBnRelu_eq (x : Mat P Q) (g be : Vec1 Q) :
    hostBnRelu hred hu hbq hbpq hr1 hr2 nw ew x g be
      = normRelu x (muOf x (Ideal.ofBits .f32 nw)) (invStdRef x (Ideal.ofBits .f32 nw) (Ideal.ofBits .f32 ew)) (asRow g) (asRow be) := by
  funext i
  obtain ⟨p, q, rfl⟩ : ∃ (p : Fin P) (q : Fin Q), i = ix2 p q := ⟨i 0, i 1, eq_ix2 i⟩
  unfold hostBnRelu
  rw [normRelu_ix2, asRow_ix2, asRow_ix2, maximumf_apply, addf_apply, mulf_apply, mulf_apply, hostRowRows_ix2, hostRowRows_ix2,
    hostRowRows_ix2, broadcastInDim_scalar_apply, constant_apply, Ideal.ofBits_zero_f32, hostCentred_eq]
  show max (((centered x (Ideal.ofBits .f32 nw) (ix2 p q)
      * Ideal.rsqrt (hostColVar hred hu hbq hr1 hr2 nw x (ix1 q)
          + broadcastInDim ⟨1, ![Q]⟩ ![] hbq (constant (F := Ideal) ⟨0, ![]⟩ .f32 ew) (ix1 q))) * g (ix1 q)) + be (ix1 q)) 0 = _
  rw [hostColVar_ix1, broadcastInDim_scalar_apply, constant_apply]
  rfl

end BatchNorm

end GcnBn

end
-- ==== Proof.RefRead.lean ====
/-
  The reference's layer functions read at an index.

  Each layer of the reference is a composition of host operations on whole arrays. Read at an entry (p, q) they are the
  whole-array functions of a graph convolution with batch normalisation:

  * a convolution is the projected features h·W, each node's row scaled by the source norm, gathered along the edges and
    summed at the destinations, each node's row then scaled by the destination norm, plus the bias row;
  * a batch normalisation followed by the maximum with zero is, at (p, q), the entry minus its column's mean, times the
    reciprocal square root of the column's variance plus ε, times the scale, plus the shift, clamped below at zero — the
    mean being the column sum divided by the number of rows and the variance the mean of the squared deviations.

  The number of rows is printed as the single-precision word 0x47C35000 (the real number 100000) and ε as the word
  0x3727C5AC (a positive real number).

  Every reading is an instance of the same statement about the general host chains over a [P, Q] matrix; the layers here
  are those chains at the literal sizes, by unfolding.
-/
import proofs.«107691_j23957327577190_1_alg».proof.Proof.RefRunDefs
import proofs.«107691_j23957327577190_1_alg».proof.Proof.LibGcnBnSpec
import proofs.«107691_j23957327577190_1_alg».proof.Proof.LibGcnBnVec
import proofs.«107691_j23957327577190_1_alg».proof.Proof.LibBatchNormMoments
import proofs.«107691_j23957327577190_1_alg».proof.Proof.LibHostRead
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.Hand

open Cert.ReferenceIdeal Idealize.ShloMosaic Idealize.ShloMosaic.ValueIdx
open Facts₀ Facts

/-! ### The reference's layers as the general host chains -/

variable [Facts]

theorem colBcast128_def (v : Arr S100000 .f32) :
    colBcast128 v = GcnBn.hostColLanes (P := 100000) (Q := 128) bcast_S100000_S100000x1_0 bcast_S100000x1_S100000x128_0_1 v := rfl

theorem colBcast40_def (v : Arr S100000 .f32) :
    colBcast40 v = GcnBn.hostColLanes (P := 100000) (Q := 40) bcast_S100000_S100000x1_0 bcast_S100000x1_S100000x40_0_1 v := rfl

theorem rowBcast128_def (v : Arr S128 .f32) :
    rowBcast128 v = GcnBn.hostRowRows (P := 100000) (Q := 128) bcast_S128_S1x128_1 bcast_S1x128_S100000x128_0_1 v := rfl

theorem rowBcast40_def (v : Arr S40 .f32) :
    rowBcast40 v = GcnBn.hostRowRows (P := 100000) (Q := 40) bcast_S40_S1x40_1 bcast_S1x40_S100000x40_0_1 v := rfl

theorem bnRelu_def (h : Arr S100000x128 .f32) (g be : Arr S128 .f32) :
    bnRelu h g be
      = GcnBn.hostBnRelu (P := 100000) (Q := 128) reducesTo_S100000x128_S128_d0 h_S_ bcast_S_S128 bcast_S_S100000x128
          bcast_S128_S1x128_1 bcast_S1x128_S100000x128_0_1 0x47C35000#32 0x3727C5AC#32 h g be := rfl

/-! ### A convolution -/

/-- One convolution of width 128 as the whole-array functions. -/
theorem conv128_eq (h : Arr S100000x128 .f32) (W : Arr S128x128 .f32) (b : Arr S128 .f32) (src dst : Arr S1600000 .i32)
    (no ni : Arr S100000 .f32) :
    conv128 h W b src dst no ni
      = GcnBn.scaleBias (P := 100000) (Q := 128)
          (aggregate128 (takeRows128 (GcnBn.prodScaled (P := 100000) (K := 128) (Q := 128) h W (GcnBn.asCol no)) src) dst)
          (GcnBn.asCol ni) (GcnBn.asRow b) := by
  unfold conv128
  rw [colBcast128_def, colBcast128_def, rowBcast128_def]
  refine Eq.trans ?_ (GcnBn.hostScaleBias_eq (P := 100000) (Q := 128) bcast_S100000_S100000x1_0 bcast_S100000x1_S100000x128_0_1
    bcast_S128_S1x128_1 bcast_S1x128_S100000x128_0_1 _ ni b)
  refine congrArg (fun X => addf (F := Ideal) (φ := .f32) (mulf (F := Ideal) (φ := .f32) (aggregate128 (takeRows128 X src) dst) _) _) ?_
  exact GcnBn.hostProjScaled_eq (P := 100000) (K := 128) (Q := 128) bcast_S100000_S100000x1_0 bcast_S100000x1_S100000x128_0_1
    dot_S100000x128_S128x128_S100000x128_1_0_0_1_n_n_wf h W no

/-- The last convolution, to width forty, as the whole-array functions. -/
theorem conv40_eq (h : Arr S100000x128 .f32) (W : Arr S128x40 .f32) (b : Arr S40 .f32) (src dst : Arr S1600000 .i32)
    (no ni : Arr S100000 .f32) :
    conv40 h W b src dst no ni
      = GcnBn.scaleBias (P := 100000) (Q := 40)
          (aggregate40 (takeRows40 (GcnBn.prodScaled (P := 100000) (K := 128) (Q := 40) h W (GcnBn.asCol no)) src) dst)
          (GcnBn.asCol ni) (GcnBn.asRow b) := by
  unfold conv40
  rw [colBcast40_def, colBcast40_def, rowBcast40_def]
  refine Eq.trans ?_ (GcnBn.hostScaleBias_eq (P := 100000) (Q := 40) bcast_S100000_S100000x1_0 bcast_S100000x1_S100000x40_0_1
    bcast_S40_S1x40_1 bcast_S1x40_S100000x40_0_1 _ ni b)
  refine congrArg (fun X => addf (F := Ideal) (φ := .f32) (mulf (F := Ideal) (φ := .f32) (aggregate40 (takeRows40 X src) dst) _) _) ?_
  exact GcnBn.hostProjScaled_eq (P := 100000) (K := 128) (Q := 40) bcast_S100000_S100000x1_0 bcast_S100000x1_S100000x40_0_1
    dot_S100000x128_S128x40_S100000x40_1_0_0_1_n_n_wf h W no

/-! ### A batch normalisation -/

/-- Batch normalisation followed by the maximum with zero, as the whole-array functions. -/
theorem bnRelu_eq (h : Arr S100000x128 .f32) (g be : Arr S128 .f32) :
    bnRelu h g be
      = GcnBn.normRelu (P := 100000) (Q := 128) h (GcnBn.muOf h (Ideal.ofBits .f32 0x47C35000#32))
          (GcnBn.invStdRef h (Ideal.ofBits .f32 0x47C35000#32) (Ideal.ofBits .f32 0x3727C5AC#32)) (GcnBn.asRow g) (GcnBn.asRow be) :=
  (bnRelu_def h g be).trans
    (GcnBn.hostBnRelu_eq (P := 100000) (Q := 128) reducesTo_S100000x128_S128_d0 h_S_ bcast_S_S128 bcast_S_S100000x128
      bcast_S128_S1x128_1 bcast_S1x128_S100000x128_0_1 0x47C35000#32 0x3727C5AC#32 h g be)

/-! ### The three layers -/

/-- The right-hand side of `conv128_eq`: a convolution of width 128 as the whole-array functions. -/
abbrev convSpec128 (h : Arr S100000x128 .f32) (W : Arr S128x128 .f32) (b : Arr S128 .f32) (src dst : Arr S1600000 .i32)
    (no ni : Arr S100000 .f32) : Arr S100000x128 .f32 :=
  GcnBn.scaleBias (P := 100000) (Q := 128)
    (aggregate128 (takeRows128 (GcnBn.prodScaled (P := 100000) (K := 128) (Q := 128) h W (GcnBn.asCol no)) src) dst)
    (GcnBn.asCol ni) (GcnBn.asRow b)

/-- The right-hand side of `conv40_eq`: the convolution to width forty as the whole-array functions. -/
abbrev convSpec40 (h : Arr S100000x128 .f32) (W : Arr S128x40 .f32) (b : Arr S40 .f32) (src dst : Arr S1600000 .i32)
    (no ni : Arr S100000 .f32) : Arr S100000x40 .f32 :=
  GcnBn.scaleBias (P := 100000) (Q := 40)
    (aggregate40 (takeRows40 (GcnBn.prodScaled (P := 100000) (K := 128) (Q := 40) h W (GcnBn.asCol no)) src) dst)
    (GcnBn.asCol ni) (GcnBn.asRow b)

/-- The right-hand side of `bnRelu_eq`: batch normalisation and the maximum with zero as the whole-array functions. -/
abbrev bnSpec (h : Arr S100000x128 .f32) (g be : Arr S128 .f32) : Arr S100000x128 .f32 :=
  GcnBn.normRelu (P := 100000) (Q := 128) h (GcnBn.muOf h (Ideal.ofBits .f32 0x47C35000#32))
    (GcnBn.invStdRef h (Ideal.ofBits .f32 0x47C35000#32) (Ideal.ofBits .f32 0x3727C5AC#32)) (GcnBn.asRow g) (GcnBn.asRow be)

/-- The whole result as the whole-array functions of its thirteen arguments. -/
theorem refOut_eq (a0 : Arr S100000x128 .f32) (a1 a2 : Arr S1600000 .i32) (a3 : Arr S128x128 .f32) (a4 a5 a6 : Arr S128 .f32)
    (a7 : Arr S128x128 .f32) (a8 a9 a10 : Arr S128 .f32) (a11 : Arr S128x40 .f32) (a12 : Arr S40 .f32) :
    refOut a0 a1 a2 a3 a4 a5 a6 a7 a8 a9 a10 a11 a12
      = convSpec40
          (bnSpec
            (convSpec128 (bnSpec (convSpec128 a0 a3 a4 a1 a2 (normOf a1) (normOf a2)) a5 a6) a7 a8 a1 a2 (normOf a1) (normOf a2))
            a9 a10)
          a11 a12 a1 a2 (normOf a1) (normOf a2) := by
  unfold refOut
  rw [conv128_eq a0 a3 a4 a1 a2, bnRelu_eq _ a5 a6, conv128_eq _ a7 a8 a1 a2, bnRelu_eq _ a9 a10, conv40_eq _ a11 a12 a1 a2]

end Cert.ReferenceIdeal.Hand

end
-- ==== Proof.LibGcnBnBridge.lean ====
/-
  Three graph-convolution layers with batch normalisation in between: the two ways of computing the normalisation's
  moments give the same network.

  A layer aggregates the projected, rescaled node features over the graph and adds a bias:
      conv h W b = scaleBias (agg (prodScaled h W s)) t b,
  where agg is the aggregation over the edges (kept abstract here: all that is used of it is that it never produces +∞
  from real features — a sum of finitely many real or −∞ terms), s and t are non-negative real per-node scales and W, b
  are real. Between layers the features are normalised per column and clamped below at 0. One program takes the column
  variance as the mean of squares minus the squared mean and the inverse deviation as 1 / √(v + ε); the other takes the
  mean of squared deviations and (v + ε)^(−1/2). On a column of reals these agree; on a column that holds −∞ both
  inverse deviations are 0; so the normalised features agree entry by entry, and they are real, which makes the next
  layer's projected features real again.
-/
import proofs.«107691_j23957327577190_1_alg».proof.Proof.LibBatchNormMoments

noncomputable section

namespace GcnBn

open Idealize.ShloMosaic Idealize.ShloMosaic.ValueIdx ErealAlgebra

variable {P K Q : Nat}

/-- A product of an extended real other than +∞ with a non-negative real is not +∞. -/
theorem mul_nonneg_real_ne_top {x : EReal} (hx : x ≠ ⊤) {r : ℝ} (hr : 0 ≤ r) : x * (r : EReal) ≠ ⊤ := by
  induction x using EReal.rec with
  | bot =>
    rcases hr.eq_or_lt with h | h
    · rw [← h]; simp
    · rw [EReal.bot_mul_coe_of_pos h]; exact bot_ne_top
  | coe a => rw [← EReal.coe_mul]; exact EReal.coe_ne_top _
  | top => exact absurd rfl hx

/-- Adding a real to an extended real other than +∞ does not give +∞. -/
theorem add_real_ne_top {x : EReal} (hx : x ≠ ⊤) (r : ℝ) : x + (r : EReal) ≠ ⊤ := by
  induction x using EReal.rec with
  | bot => simp
  | coe a => rw [← EReal.coe_add]; exact EReal.coe_ne_top _
  | top => exact absurd rfl hx

/-- The projected, rescaled features of real features, real weights and a real scale are real. -/
theorem prodScaled_real (a : Mat P K) (w : Mat K Q) (s : Mat P 1) (ha : ∀ i, IsReal (a i)) (hw : ∀ i, IsReal (w i))
    (hs : ∀ i, IsReal (s i)) : ∀ i, IsReal (prodScaled a w s i) := fun i =>
  IsReal.mul (IsReal.sum _ _ fun k _ => IsReal.mul (ha _) (hw _)) (hs _)

/-- Rows rescaled by non-negative reals, plus a real bias row: no entry becomes +∞ if none was. -/
theorem scaleBias_ne_top (x : Mat P Q) (s : Mat P 1) (b : Mat 1 Q) (hx : ∀ i, x i ≠ ⊤)
    (hs : ∀ i, ∃ r : ℝ, 0 ≤ r ∧ s i = (r : EReal)) (hb : ∀ i, IsReal (b i)) : ∀ i, scaleBias x s b i ≠ ⊤ := fun i => by
  obtain ⟨r, hr, e⟩ := hs (colOf i)
  obtain ⟨β, eβ⟩ := hb (rowOf i)
  unfold scaleBias
  rw [e, eβ]
  exact add_real_ne_top (mul_nonneg_real_ne_top (hx i) hr) β

section Network

variable {Q₂ : Nat}
variable (agg : Mat P Q → Mat P Q) (agg₂ : Mat P Q₂ → Mat P Q₂)
variable (hagg : ∀ h : Mat P Q, (∀ i, IsReal (h i)) → ∀ i, agg h i ≠ ⊤)

/-- One hidden layer followed by its normalisation, with the moments taken the first way. -/
def hiddenK (h : Mat P K) (W : Mat K Q) (b g be : Mat 1 Q) (s t : Mat P 1) (n e : EReal) : Mat P Q :=
  normRelu (scaleBias (agg (prodScaled h W s)) t b) (muOf (scaleBias (agg (prodScaled h W s)) t b) n)
    (invStdKernel (scaleBias (agg (prodScaled h W s)) t b) n e) g be

/-- One hidden layer followed by its normalisation, with the moments taken the second way. -/
def hiddenR (h : Mat P K) (W : Mat K Q) (b g be : Mat 1 Q) (s t : Mat P 1) (n e : EReal) : Mat P Q :=
  normRelu (scaleBias (agg (prodScaled h W s)) t b) (muOf (scaleBias (agg (prodScaled h W s)) t b) n)
    (invStdRef (scaleBias (agg (prodScaled h W s)) t b) n e) g be

include hagg in
/-- On real features the two hidden layers agree, and their output is real. -/
theorem hidden_eq (hP : 0 < P) (h : Mat P K) (W : Mat K Q) (b g be : Mat 1 Q) (s t : Mat P 1) (n e : EReal)
    (hn : n = ((P : ℝ) : EReal)) (he : ∃ ε : ℝ, 0 < ε ∧ e = (ε : EReal))
    (hh : ∀ i, IsReal (h i)) (hW : ∀ i, IsReal (W i)) (hb : ∀ i, IsReal (b i)) (hg : ∀ i, IsReal (g i)) (hbe : ∀ i, IsReal (be i))
    (hs : ∀ i, ∃ r : ℝ, 0 ≤ r ∧ s i = (r : EReal)) (ht : ∀ i, ∃ r : ℝ, 0 ≤ r ∧ t i = (r : EReal)) :
    hiddenK agg h W b g be s t n e = hiddenR agg h W b g be s t n e ∧ ∀ i, IsReal (hiddenR agg h W b g be s t n e i) := by
  have hsr : ∀ i, IsReal (s i) := fun i => by obtain ⟨r, -, e⟩ := hs i; exact ⟨r, e⟩
  have hy : ∀ i, scaleBias (agg (prodScaled h W s)) t b i ≠ ⊤ :=
    scaleBias_ne_top _ t b (hagg _ (prodScaled_real h W s hh hW hsr)) ht hb
  exact ⟨normRelu_moments_eq hP _ hy n e hn he g be hg hbe, normRelu_moments_real hP _ hy n e hn he g be hg hbe⟩

end Network

end GcnBn

end
-- ==== Proof.Final.lean ====
/-
  The two idealized programs compute the same network.

  Both programs aggregate over the graph with the same host chains (the degree norms, the gather of source rows, the
  accumulating scatter into destination rows), project with the same weights and add the same biases; they differ in
  how the batch normalisation's moments are taken and in how the inverse deviation is spelled. On finite inputs every
  feature column entering a normalisation holds reals or −∞ and never +∞ (an aggregated entry is a finite sum of gathered
  reals and of the fill value −∞), so the two normalisations agree entry by entry and yield reals; layer by layer the two
  results are then the same function of the arguments.
-/
import proofs.«107691_j23957327577190_1_alg».proof.Proof.KernelOutDefs
import proofs.«107691_j23957327577190_1_alg».proof.Proof.KernelIdealHostFacts
import proofs.«107691_j23957327577190_1_alg».proof.Proof.HostChainsSame
import proofs.«107691_j23957327577190_1_alg».proof.Proof.RefRead
import proofs.«107691_j23957327577190_1_alg».proof.Proof.LibGcnBnBridge

noncomputable section

namespace Cert.Proof.Final

open Idealize.ShloMosaic Idealize.ShloMosaic.ValueIdx ErealAlgebra GcnBn
open Cert.KernelIdeal (S100000x128 S1600000 S128x128 S128 S128x40 S40 S100000 S100000x40)
open Cert.KernelIdeal.Hand (kOut kConv128 kConv40 kHidden kNorm kAgg128 kAgg40 kMeanRow kInvRow n1e5 bnEps)
open Cert.ReferenceIdeal.Hand (refOut normOf aggregate128 aggregate40 takeRows128 takeRows40)

attribute [local instance] Cert.ReferenceIdeal.Gen.facts

/-- A vector of reals is a column of reals. -/
theorem asCol_real {P : Nat} (v : Vec1 P) (hv : ∀ i, IsReal (v i)) : ∀ i, IsReal (asCol v i) := fun i => hv _
/-- A vector of reals is a row of reals. -/
theorem asRow_real {Q : Nat} (v : Vec1 Q) (hv : ∀ i, IsReal (v i)) : ∀ i, IsReal (asRow v i) := fun i => hv _

/-- The aggregation over the edges, with the edge lists fixed. -/
def agg128 (src dst : IVec S1600000 32) : Mat 100000 128 → Mat 100000 128 := fun h => aggregate128 (takeRows128 h src) dst

theorem agg128_ne_top (src dst : IVec S1600000 32) (h : Mat 100000 128) (hh : ∀ i, IsReal (h i)) : ∀ i, agg128 src dst h i ≠ ⊤ := fun i => by
  have := Cert.KernelIdeal.Hand.kAgg128_ne_top h hh src dst i
  rwa [Cert.Proof.HostChains.agg128_same] at this

/-- The degree norm as a column: non-negative reals. -/
theorem normCol_nonneg (idx : IVec S1600000 32) : ∀ i, ∃ r : ℝ, 0 ≤ r ∧ asCol (P := 100000) (normOf idx) i = (r : EReal) := fun i => by
  have := Cert.KernelIdeal.Hand.kNorm_nonneg_real idx (ix1 (n := 100000) (i 0))
  rwa [Cert.Proof.HostChains.norm_same] at this

theorem out_eq (a0 : FVec Ideal S100000x128 .f32) (a1 a2 : IVec S1600000 32) (a3 : FVec Ideal S128x128 .f32)
    (a4 a5 a6 : FVec Ideal S128 .f32) (a7 : FVec Ideal S128x128 .f32) (a8 a9 a10 : FVec Ideal S128 .f32)
    (a11 : FVec Ideal S128x40 .f32) (a12 : FVec Ideal S40 .f32)
    (h0 : ∀ i, IsReal (a0 i)) (h3 : ∀ i, IsReal (a3 i)) (h4 : ∀ i, IsReal (a4 i)) (h5 : ∀ i, IsReal (a5 i)) (h6 : ∀ i, IsReal (a6 i))
    (h7 : ∀ i, IsReal (a7 i)) (h8 : ∀ i, IsReal (a8 i)) (h9 : ∀ i, IsReal (a9 i)) (h10 : ∀ i, IsReal (a10 i)) :
    kOut a0 a1 a2 a3 a4 a5 a6 a7 a8 a9 a10 a11 a12 = refOut a0 a1 a2 a3 a4 a5 a6 a7 a8 a9 a10 a11 a12 := by
  rw [Cert.ReferenceIdeal.Hand.refOut_eq]
  have hP : 0 < 100000 := by norm_num
  obtain ⟨E0, R0⟩ := hidden_eq (agg128 a1 a2) (agg128_ne_top a1 a2) hP a0 a3 (asRow a4) (asRow a5) (asRow a6)
    (asCol (normOf a1)) (asCol (normOf a2)) n1e5 bnEps Cert.KernelIdeal.Hand.n1e5_eq Cert.KernelIdeal.Hand.bnEps_pos
    h0 h3 (asRow_real a4 h4) (asRow_real a5 h5) (asRow_real a6 h6) (normCol_nonneg a1) (normCol_nonneg a2)
  obtain ⟨E1, R1⟩ := hidden_eq (agg128 a1 a2) (agg128_ne_top a1 a2) hP _ a7 (asRow a8) (asRow a9) (asRow a10)
    (asCol (normOf a1)) (asCol (normOf a2)) n1e5 bnEps Cert.KernelIdeal.Hand.n1e5_eq Cert.KernelIdeal.Hand.bnEps_pos
    R0 h7 (asRow_real a8 h8) (asRow_real a9 h9) (asRow_real a10 h10) (normCol_nonneg a1) (normCol_nonneg a2)
  unfold kOut kConv40 kConv128 kHidden
  simp only [Cert.KernelIdeal.Hand.kMeanRow_colSum, Cert.KernelIdeal.Hand.kInvRow_colSum, Cert.Proof.HostChains.norm_same,
    Cert.Proof.HostChains.agg128_same, Cert.Proof.HostChains.agg40_same]
  unfold hiddenK hiddenR agg128 at E0 E1
  unfold n1e5 bnEps at E0 E1
  simp only [n1e5, bnEps] at *
  rw [E0, E1]

end Cert.Proof.Final

end
-- ==== Proof.lean ====
/-
  The certificate of a three-layer graph-convolution network with batch normalisation: the kernel's program, its reading
  over the extended reals, and the plain reference.

  The kernel's program splits each layer into kernel regions — the projection of the node features with the per-node
  scale, the bias with the running column sums and sums of squares kept in two scratch rows across the row blocks, the
  normalisation with the clamp at 0 — around stretches of host operations that compute the degree norms, gather the
  source rows, scatter them into the destination rows and turn the column sums into the mean and the inverse deviation.
  The reference does all of it with host operations. The three frames: each program runs to the end, nothing faults,
  the arguments end as launched. The idealization rewrote nothing. At the ideal instance the two programs end with the
  same result: the kernel's result is read off its regions' write-backs block by block, the reference's off its
  operations, and the two are one function of the arguments — the aggregation chains are the same functions, a sum over
  all rows is the sum over the row blocks, and the two ways of taking a column's variance and inverse deviation agree on
  every column of reals and on every column that holds −∞ (an aggregated entry is never +∞), which is all a finite input
  can produce.
-/
import proofs.«107691_j23957327577190_1_alg».proof.Defs
import proofs.«107691_j23957327577190_1_alg».proof.Proof.Gen.Kernel
import proofs.«107691_j23957327577190_1_alg».proof.Proof.Gen.KernelIdeal
import proofs.«107691_j23957327577190_1_alg».proof.Proof.Gen.ReferenceIdeal
import proofs.«107691_j23957327577190_1_alg».proof.Proof.Gen.Pre_finite_inputs
import proofs.«107691_j23957327577190_1_alg».proof.Proof.Frames
import proofs.«107691_j23957327577190_1_alg».proof.Proof.KernelValue
import proofs.«107691_j23957327577190_1_alg».proof.Proof.RefRunOut
import proofs.«107691_j23957327577190_1_alg».proof.Proof.PreFinite
import proofs.«107691_j23957327577190_1_alg».proof.Proof.Final
import Idealize.ShloMosaic.Adequacy
import Idealize.ShloMosaic.Init

noncomputable section

namespace Cert.Proof

open Idealize.ShloMosaic Idealize.SL.Sem

/-- At the ideal instance the kernel's result array ends at the network's value of the arguments (read off the regions'
    write-backs), the reference's at the same network's value of arguments that agree (read off its operations). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.outs m 23 Cert.KernelIdeal.main_v79 c, Cert.KernelIdeal.Hand.run (F := Ideal) m ρ, ?_⟩
  refine (θ_run Cert.ReferenceIdeal.defs _ _).mono (fun r h c => ⟨(h c).1.trans ?_, (h c).2⟩)
    (Cert.ReferenceIdeal.Hand.run_out m' ρ')
  obtain ⟨e0, e1, e2, e3, e4, e5, e6, e7, e8, e9, e10, e11, e12⟩ := hagree c
  obtain ⟨r0, r3, r4, r5, r6, r7, r8, r9, r10, -, -⟩ := Cert.Proof.PreFinite.real_of_Pre_KernelIdeal m hpre c
  rw [e0, e1, e2, e3, e4, e5, e6, e7, e8, e9, e10, e11, e12]
  exact ((Cert.KernelIdeal.Hand.kernel_out m c).trans
    (Cert.Proof.Final.out_eq _ _ _ _ _ _ _ _ _ _ _ _ _ r0 r3 r4 r5 r6 r7 r8 r9 r10)).symm

theorem claim : Cert.Claim :=
  ⟨Cert.Kernel.Gen.facts, Cert.KernelIdeal.Gen.facts, Cert.ReferenceIdeal.Gen.facts, Cert.Pre_finite_inputs.Gen.facts,
    Cert.Proof.Frames.frame_p, Cert.Proof.Frames.frame_pi, Cert.Proof.Frames.frame_ri, trivial, algebraic⟩

end Cert.Proof

end
